-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![512, 8192]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 512]⟩ ⟨2, ![8192, 512]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x256 : Shape := ⟨2, ![512, 256]⟩
abbrev S256x512 : Shape := ⟨2, ![256, 512]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_

variable [Facts]

def fn {F : FTy → Type} [FloatOps F] (main_arg0 : FVec F S512x256 .f32) (main_arg1 : FVec F S256x512 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  main_v8
-- ==== Pre_finite_inputs_ReferenceIdeal.lean ====
abbrev S512x8192 : Shape := ⟨2, ![512, 8192]⟩
abbrev S8192x512 : Shape := ⟨2, ![8192, 512]⟩
abbrev S_ : Shape := ⟨0, ![]⟩

class Facts : Prop where
  bcast_S_S512x8192 : S_.BroadcastsInDim S512x8192 (![] : Fin 0 → Fin S512x8192.rank)
  reducesTo_S512x8192_S_d0_1 : S512x8192.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_

variable [Facts]

def fn {F : FTy → Type} [FloatOps F] (main_arg0 : FVec F S512x8192 .f32) (main_arg1 : FVec F S8192x512 .f32) : IVec S_ 1 :=
  let main_v0 : FVec F S512x8192 .f32 := Host.absf main_arg0
  let main_cst : FVec F S_ .f32 := constant S_ .f32 0x7F800000#32
  let main_v1 : FVec F S512x8192 .f32 := broadcastInDim S512x8192 ![] bcast_S_S512x8192 main_cst
  let main_v2 : IVec S512x8192 1 := cmpf .olt main_v0 main_v1
  let main_c : IVec S_ 1 := constantI S_ 1 1#1
  let main_v3 : IVec S_ 1 := (fun x v => Host.reduce IntOp.andi x v reducesTo_S512x8192_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  main_v8
-- ==== Kernel.lean ====
abbrev S512x256 : Shape := ⟨2, ![512, 256]⟩
abbrev S256x512 : Shape := ⟨2, ![256, 512]⟩
abbrev S512x512 : Shape := ⟨2, ![512, 512]⟩
abbrev S32x16x512 : Shape := ⟨3, ![32, 16, 512]⟩
abbrev S2x32 : Shape := ⟨2, ![2, 32]⟩
abbrev S1x16x512 : Shape := ⟨3, ![1, 16, 512]⟩
abbrev S16x512 : Shape := ⟨2, ![16, 512]⟩
abbrev S_ : Shape := ⟨0, ![]⟩
abbrev S1x1 : Shape := ⟨2, ![1, 1]⟩
abbrev S1x16x256 : Shape := ⟨3, ![1, 16, 256]⟩
abbrev S16x256 : Shape := ⟨2, ![16, 256]⟩
abbrev S32x16x256 : Shape := ⟨3, ![32, 16, 256]⟩

abbrev nBuf : Space → Nat
  | .hbm => 3
  | .vmem => 6
  | .smem => 0
  | _ => 0

abbrev bufTy : (tb : Table) → Fin (tcTables nBuf tb) → BufTy
  | .hbm, ⟨0, _⟩ => ⟨S512x256, .f32⟩
  | .hbm, ⟨1, _⟩ => ⟨S256x512, .f32⟩
  | .hbm, ⟨2, _⟩ => ⟨S512x512, .f32⟩
  | .local _ .vmem, ⟨0, _⟩ => ⟨S512x256, .f32⟩
  | .local _ .vmem, ⟨1, _⟩ => ⟨S256x512, .f32⟩
  | .local _ .vmem, ⟨2, _⟩ => ⟨S512x512, .f32⟩
  | .local _ .vmem, ⟨3, _⟩ => ⟨S32x16x512, .bf16⟩
  | .local _ .vmem, ⟨4, _⟩ => ⟨S32x16x512, .bf16⟩
  | .local _ .vmem, ⟨5, _⟩ => ⟨S32x16x512, .bf16⟩
  | _, _ => ⟨S512x256, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 195 → Bool
  | ⟨i, _⟩ => dmaSemScopedAt i

abbrev sig : RefSig :=
  { ofTc nBuf bufTy 1 195 bufScoped semScoped dmaSemScoped tileCredit tileCredit_eq_zero tileCredit_pos with
    barrierSem := RefSig.barrierTable [(0, 0)]
    barrierSem_unscoped := RefSig.barrierTable_unscoped [(0, 0)] semScoped rfl }

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_off1 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v15 : Index := Scalar.indexCast v2
  let c0_6 : Index := 0#32
  let c0_7 : Index := 0#32
  ![v15.toNat, 0, 0]
def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v22 : BitVec 1 := Scalar.cmpi .eq v2 c0_i32
  let v23 : BitVec 32 := Scalar.extui v22
  let c0_i32_11 : BitVec 32 := 0#32
  let v24 : BitVec 1 := Scalar.cmpi .ne v23 c0_i32_11
  v24

def k0_dev1 : Nat :=
  let c0_i32_5089 : BitVec 32 := 0#32
  let c1_i32_5087 : BitVec 32 := 1#32
  let c1_i32_5088 : BitVec 32 := 1#32
  let v5074 : BitVec 32 := Scalar.muli c1_i32_5087 c1_i32_5088
  let v5075 : BitVec 32 := Scalar.addi c0_i32_5089 v5074
  v5075.toNat
def k0_dev2 : Nat :=
  let c0_i32_5093 : BitVec 32 := 0#32
  let c2_i32_5091 : BitVec 32 := 2#32
  let c1_i32_5092 : BitVec 32 := 1#32
  let v5076 : BitVec 32 := Scalar.muli c2_i32_5091 c1_i32_5092
  let v5077 : BitVec 32 := Scalar.addi c0_i32_5093 v5076
  v5077.toNat
def k0_dev3 : Nat :=
  let c0_i32_5097 : BitVec 32 := 0#32
  let c3_i32_5095 : BitVec 32 := 3#32
  let c1_i32_5096 : BitVec 32 := 1#32
  let v5078 : BitVec 32 := Scalar.muli c3_i32_5095 c1_i32_5096
  let v5079 : BitVec 32 := Scalar.addi c0_i32_5097 v5078
  v5079.toNat
def k0_dev4 : Nat :=
  let c0_i32_5101 : BitVec 32 := 0#32
  let c4_i32_5099 : BitVec 32 := 4#32
  let c1_i32_5100 : BitVec 32 := 1#32
  let v5080 : BitVec 32 := Scalar.muli c4_i32_5099 c1_i32_5100
  let v5081 : BitVec 32 := Scalar.addi c0_i32_5101 v5080
  v5081.toNat
def k0_dev5 : Nat :=
  let c0_i32_5105 : BitVec 32 := 0#32
  let c5_i32_5103 : BitVec 32 := 5#32
  let c1_i32_5104 : BitVec 32 := 1#32
  let v5082 : BitVec 32 := Scalar.muli c5_i32_5103 c1_i32_5104
  let v5083 : BitVec 32 := Scalar.addi c0_i32_5105 v5082
  v5083.toNat
def k0_dev6 : Nat :=
  let c0_i32_5109 : BitVec 32 := 0#32
  let c6_i32_5107 : BitVec 32 := 6#32
  let c1_i32_5108 : BitVec 32 := 1#32
  let v5084 : BitVec 32 := Scalar.muli c6_i32_5107 c1_i32_5108
  let v5085 : BitVec 32 := Scalar.addi c0_i32_5109 v5084
  v5085.toNat
def k0_dev7 : Nat :=
  let c0_i32_5113 : BitVec 32 := 0#32
  let c7_i32_5111 : BitVec 32 := 7#32
  let c1_i32_5112 : BitVec 32 := 1#32
  let v5086 : BitVec 32 := Scalar.muli c7_i32_5111 c1_i32_5112
  let v5087 : BitVec 32 := Scalar.addi c0_i32_5113 v5086
  v5087.toNat
def k0_dev8 : Nat :=
  let c0_i32_5117 : BitVec 32 := 0#32
  let c8_i32_5115 : BitVec 32 := 8#32
  let c1_i32_5116 : BitVec 32 := 1#32
  let v5088 : BitVec 32 := Scalar.muli c8_i32_5115 c1_i32_5116
  let v5089 : BitVec 32 := Scalar.addi c0_i32_5117 v5088
  v5089.toNat
def k0_dev9 : Nat :=
  let c0_i32_5121 : BitVec 32 := 0#32
  let c9_i32_5119 : BitVec 32 := 9#32
  let c1_i32_5120 : BitVec 32 := 1#32
  let v5090 : BitVec 32 := Scalar.muli c9_i32_5119 c1_i32_5120
  let v5091 : BitVec 32 := Scalar.addi c0_i32_5121 v5090
  v5091.toNat
def k0_dev10 : Nat :=
  let c0_i32_5125 : BitVec 32 := 0#32
  let c10_i32_5123 : BitVec 32 := 10#32
  let c1_i32_5124 : BitVec 32 := 1#32
  let v5092 : BitVec 32 := Scalar.muli c10_i32_5123 c1_i32_5124
  let v5093 : BitVec 32 := Scalar.addi c0_i32_5125 v5092
  v5093.toNat
def k0_dev11 : Nat :=
  let c0_i32_5129 : BitVec 32 := 0#32
  let c11_i32_5127 : BitVec 32 := 11#32
  let c1_i32_5128 : BitVec 32 := 1#32
  let v5094 : BitVec 32 := Scalar.muli c11_i32_5127 c1_i32_5128
  let v5095 : BitVec 32 := Scalar.addi c0_i32_5129 v5094
  v5095.toNat
def k0_dev12 : Nat :=
  let c0_i32_5133 : BitVec 32 := 0#32
  let c12_i32_5131 : BitVec 32 := 12#32
  let c1_i32_5132 : BitVec 32 := 1#32
  let v5096 : BitVec 32 := Scalar.muli c12_i32_5131 c1_i32_5132
  let v5097 : BitVec 32 := Scalar.addi c0_i32_5133 v5096
  v5097.toNat
def k0_dev13 : Nat :=
  let c0_i32_5137 : BitVec 32 := 0#32
  let c13_i32_5135 : BitVec 32 := 13#32
  let c1_i32_5136 : BitVec 32 := 1#32
  let v5098 : BitVec 32 := Scalar.muli c13_i32_5135 c1_i32_5136
  let v5099 : BitVec 32 := Scalar.addi c0_i32_5137 v5098
  v5099.toNat
def k0_dev14 : Nat :=
  let c0_i32_5141 : BitVec 32 := 0#32
  let c14_i32_5139 : BitVec 32 := 14#32
  let c1_i32_5140 : BitVec 32 := 1#32
  let v5100 : BitVec 32 := Scalar.muli c14_i32_5139 c1_i32_5140
  let v5101 : BitVec 32 := Scalar.addi c0_i32_5141 v5100
  v5101.toNat
def k0_dev15 : Nat :=
  let c0_i32_5145 : BitVec 32 := 0#32
  let c15_i32_5143 : BitVec 32 := 15#32
  let c1_i32_5144 : BitVec 32 := 1#32
  let v5102 : BitVec 32 := Scalar.muli c15_i32_5143 c1_i32_5144
  let v5103 : BitVec 32 := Scalar.addi c0_i32_5145 v5102
  v5103.toNat
def k0_dev16 : Nat :=
  let c0_i32_5149 : BitVec 32 := 0#32
  let c16_i32_5147 : BitVec 32 := 16#32
  let c1_i32_5148 : BitVec 32 := 1#32
  let v5104 : BitVec 32 := Scalar.muli c16_i32_5147 c1_i32_5148
  let v5105 : BitVec 32 := Scalar.addi c0_i32_5149 v5104
  v5105.toNat
def k0_dev17 : Nat :=
  let c0_i32_5153 : BitVec 32 := 0#32
  let c17_i32_5151 : BitVec 32 := 17#32
  let c1_i32_5152 : BitVec 32 := 1#32
  let v5106 : BitVec 32 := Scalar.muli c17_i32_5151 c1_i32_5152
  let v5107 : BitVec 32 := Scalar.addi c0_i32_5153 v5106
  v5107.toNat
def k0_dev18 : Nat :=
  let c0_i32_5157 : BitVec 32 := 0#32
  let c18_i32_5155 : BitVec 32 := 18#32
  let c1_i32_5156 : BitVec 32 := 1#32
  let v5108 : BitVec 32 := Scalar.muli c18_i32_5155 c1_i32_5156
  let v5109 : BitVec 32 := Scalar.addi c0_i32_5157 v5108
  v5109.toNat
def k0_dev19 : Nat :=
  let c0_i32_5161 : BitVec 32 := 0#32
  let c19_i32_5159 : BitVec 32 := 19#32
  let c1_i32_5160 : BitVec 32 := 1#32
  let v5110 : BitVec 32 := Scalar.muli c19_i32_5159 c1_i32_5160
  let v5111 : BitVec 32 := Scalar.addi c0_i32_5161 v5110
  v5111.toNat
def k0_dev20 : Nat :=
  let c0_i32_5165 : BitVec 32 := 0#32
  let c20_i32_5163 : BitVec 32 := 20#32
  let c1_i32_5164 : BitVec 32 := 1#32
  let v5112 : BitVec 32 := Scalar.muli c20_i32_5163 c1_i32_5164
  let v5113 : BitVec 32 := Scalar.addi c0_i32_5165 v5112
  v5113.toNat
def k0_dev21 : Nat :=
  let c0_i32_5169 : BitVec 32 := 0#32
  let c21_i32_5167 : BitVec 32 := 21#32
  let c1_i32_5168 : BitVec 32 := 1#32
  let v5114 : BitVec 32 := Scalar.muli c21_i32_5167 c1_i32_5168
  let v5115 : BitVec 32 := Scalar.addi c0_i32_5169 v5114
  v5115.toNat
def k0_dev22 : Nat :=
  let c0_i32_5173 : BitVec 32 := 0#32
  let c22_i32_5171 : BitVec 32 := 22#32
  let c1_i32_5172 : BitVec 32 := 1#32
  let v5116 : BitVec 32 := Scalar.muli c22_i32_5171 c1_i32_5172
  let v5117 : BitVec 32 := Scalar.addi c0_i32_5173 v5116
  v5117.toNat
def k0_dev23 : Nat :=
  let c0_i32_5177 : BitVec 32 := 0#32
  let c23_i32_5175 : BitVec 32 := 23#32
  let c1_i32_5176 : BitVec 32 := 1#32
  let v5118 : BitVec 32 := Scalar.muli c23_i32_5175 c1_i32_5176
  let v5119 : BitVec 32 := Scalar.addi c0_i32_5177 v5118
  v5119.toNat
def k0_dev24 : Nat :=
  let c0_i32_5181 : BitVec 32 := 0#32
  let c24_i32_5179 : BitVec 32 := 24#32
  let c1_i32_5180 : BitVec 32 := 1#32
  let v5120 : BitVec 32 := Scalar.muli c24_i32_5179 c1_i32_5180
  let v5121 : BitVec 32 := Scalar.addi c0_i32_5181 v5120
  v5121.toNat
def k0_dev25 : Nat :=
  let c0_i32_5185 : BitVec 32 := 0#32
  let c25_i32_5183 : BitVec 32 := 25#32
  let c1_i32_5184 : BitVec 32 := 1#32
  let v5122 : BitVec 32 := Scalar.muli c25_i32_5183 c1_i32_5184
  let v5123 : BitVec 32 := Scalar.addi c0_i32_5185 v5122
  v5123.toNat
def k0_dev26 : Nat :=
  let c0_i32_5189 : BitVec 32 := 0#32
  let c26_i32_5187 : BitVec 32 := 26#32
  let c1_i32_5188 : BitVec 32 := 1#32
  let v5124 : BitVec 32 := Scalar.muli c26_i32_5187 c1_i32_5188
  let v5125 : BitVec 32 := Scalar.addi c0_i32_5189 v5124
  v5125.toNat
def k0_dev27 : Nat :=
  let c0_i32_5193 : BitVec 32 := 0#32
  let c27_i32_5191 : BitVec 32 := 27#32
  let c1_i32_5192 : BitVec 32 := 1#32
  let v5126 : BitVec 32 := Scalar.muli c27_i32_5191 c1_i32_5192
  let v5127 : BitVec 32 := Scalar.addi c0_i32_5193 v5126
  v5127.toNat
def k0_dev28 : Nat :=
  let c0_i32_5197 : BitVec 32 := 0#32
  let c28_i32_5195 : BitVec 32 := 28#32
  let c1_i32_5196 : BitVec 32 := 1#32
  let v5128 : BitVec 32 := Scalar.muli c28_i32_5195 c1_i32_5196
  let v5129 : BitVec 32 := Scalar.addi c0_i32_5197 v5128
  v5129.toNat
def k0_dev29 : Nat :=
  let c0_i32_5201 : BitVec 32 := 0#32
  let c29_i32_5199 : BitVec 32 := 29#32
  let c1_i32_5200 : BitVec 32 := 1#32
  let v5130 : BitVec 32 := Scalar.muli c29_i32_5199 c1_i32_5200
  let v5131 : BitVec 32 := Scalar.addi c0_i32_5201 v5130
  v5131.toNat
def k0_dev30 : Nat :=
  let c0_i32_5205 : BitVec 32 := 0#32
  let c30_i32_5203 : BitVec 32 := 30#32
  let c1_i32_5204 : BitVec 32 := 1#32
  let v5132 : BitVec 32 := Scalar.muli c30_i32_5203 c1_i32_5204
  let v5133 : BitVec 32 := Scalar.addi c0_i32_5205 v5132
  v5133.toNat
def k0_dev31 : Nat :=
  let c0_i32_5209 : BitVec 32 := 0#32
  let c31_i32_5207 : BitVec 32 := 31#32
  let c1_i32_5208 : BitVec 32 := 1#32
  let v5134 : BitVec 32 := Scalar.muli c31_i32_5207 c1_i32_5208
  let v5135 : BitVec 32 := Scalar.addi c0_i32_5209 v5134
  v5135.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_12 : BitVec 32 := 0#32
  let v25 : BitVec 1 := Scalar.cmpi .ne v2 c0_i32_12
  let v26 : BitVec 32 := Scalar.extui v25
  let c0_i32_13 : BitVec 32 := 0#32
  let v27 : BitVec 1 := Scalar.cmpi .ne v26 c0_i32_13
  v27

def k0_dev32 : Nat :=
  let c0_i32_5088 : BitVec 32 := 0#32
  let c0_i32_5086 : BitVec 32 := 0#32
  let c1_i32_5087 : BitVec 32 := 1#32
  let v5074 : BitVec 32 := Scalar.muli c0_i32_5086 c1_i32_5087
  let v5075 : BitVec 32 := Scalar.addi c0_i32_5088 v5074
  v5075.toNat
def k0_off2 (d0 : Dev nD) (c1_i32_14 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v28 : BitVec 32 := Scalar.addi v2 c1_i32_14
  let c32_i32_15 : BitVec 32 := 32#32
  let c0_i32_16 : BitVec 32 := 0#32
  let v29 : BitVec 1 := Scalar.cmpi .eq c32_i32_15 c0_i32_16
  let c1_i32_17 : BitVec 32 := 1#32
  let v30 : BitVec 32 := Scalar.select v29 c1_i32_17 c32_i32_15
  let v31 : BitVec 32 := Scalar.remsi v28 v30
  let c0_i32_19 : BitVec 32 := 0#32
  let v33 : BitVec 1 := Scalar.cmpi .slt v31 c0_i32_19
  let c0_i32_20 : BitVec 32 := 0#32
  let v34 : BitVec 1 := Scalar.cmpi .slt v30 c0_i32_20
  let v35 : BitVec 1 := Scalar.xori v33 v34
  let c0_i32_18 : BitVec 32 := 0#32
  let v32 : BitVec 1 := Scalar.cmpi .ne v31 c0_i32_18
  let v36 : BitVec 1 := Scalar.andi v35 v32
  let v37 : BitVec 32 := Scalar.addi v31 v30
  let v38 : BitVec 32 := Scalar.select v36 v37 v31
  let c0_i32_30 : BitVec 32 := 0#32
  let c0_i32_31 : BitVec 32 := 0#32
  ![v38.toNat, 0, 0]
def k0_dev33 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_14 : BitVec 32 := 1#32
  let v28 : BitVec 32 := Scalar.addi v2 c1_i32_14
  let c32_i32_15 : BitVec 32 := 32#32
  let c0_i32_16 : BitVec 32 := 0#32
  let v29 : BitVec 1 := Scalar.cmpi .eq c32_i32_15 c0_i32_16
  let c1_i32_17 : BitVec 32 := 1#32
  let v30 : BitVec 32 := Scalar.select v29 c1_i32_17 c32_i32_15
  let v31 : BitVec 32 := Scalar.remsi v28 v30
  let c0_i32_19 : BitVec 32 := 0#32
  let v33 : BitVec 1 := Scalar.cmpi .slt v31 c0_i32_19
  let c0_i32_20 : BitVec 32 := 0#32
  let v34 : BitVec 1 := Scalar.cmpi .slt v30 c0_i32_20
  let v35 : BitVec 1 := Scalar.xori v33 v34
  let c0_i32_18 : BitVec 32 := 0#32
  let v32 : BitVec 1 := Scalar.cmpi .ne v31 c0_i32_18
  let v36 : BitVec 1 := Scalar.andi v35 v32
  let v37 : BitVec 32 := Scalar.addi v31 v30
  let v38 : BitVec 32 := Scalar.select v36 v37 v31
  let c1_i32_26 : BitVec 32 := 1#32
  let v39 : BitVec 32 := Scalar.muli v38 c1_i32_26
  let v40 : BitVec 32 := Scalar.addi c0_i32_27 v39
  v40.toNat
def k0_dev34 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v49 : BitVec 32 := Scalar.addi v2 c2_i32
  let c32_i32_32 : BitVec 32 := 32#32
  let c0_i32_33 : BitVec 32 := 0#32
  let v50 : BitVec 1 := Scalar.cmpi .eq c32_i32_32 c0_i32_33
  let c1_i32_34 : BitVec 32 := 1#32
  let v51 : BitVec 32 := Scalar.select v50 c1_i32_34 c32_i32_32
  let v52 : BitVec 32 := Scalar.remsi v49 v51
  let c0_i32_36 : BitVec 32 := 0#32
  let v54 : BitVec 1 := Scalar.cmpi .slt v52 c0_i32_36
  let c0_i32_37 : BitVec 32 := 0#32
  let v55 : BitVec 1 := Scalar.cmpi .slt v51 c0_i32_37
  let v56 : BitVec 1 := Scalar.xori v54 v55
  let c0_i32_35 : BitVec 32 := 0#32
  let v53 : BitVec 1 := Scalar.cmpi .ne v52 c0_i32_35
  let v57 : BitVec 1 := Scalar.andi v56 v53
  let v58 : BitVec 32 := Scalar.addi v52 v51
  let v59 : BitVec 32 := Scalar.select v57 v58 v52
  let c1_i32_43 : BitVec 32 := 1#32
  let v60 : BitVec 32 := Scalar.muli v59 c1_i32_43
  let v61 : BitVec 32 := Scalar.addi c0_i32_44 v60
  v61.toNat
def k0_dev35 (d0 : Dev nD) : Nat :=
  let c0_i32_61 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v70 : BitVec 32 := Scalar.addi v2 c3_i32
  let c32_i32_49 : BitVec 32 := 32#32
  let c0_i32_50 : BitVec 32 := 0#32
  let v71 : BitVec 1 := Scalar.cmpi .eq c32_i32_49 c0_i32_50
  let c1_i32_51 : BitVec 32 := 1#32
  let v72 : BitVec 32 := Scalar.select v71 c1_i32_51 c32_i32_49
  let v73 : BitVec 32 := Scalar.remsi v70 v72
  let c0_i32_53 : BitVec 32 := 0#32
  let v75 : BitVec 1 := Scalar.cmpi .slt v73 c0_i32_53
  let c0_i32_54 : BitVec 32 := 0#32
  let v76 : BitVec 1 := Scalar.cmpi .slt v72 c0_i32_54
  let v77 : BitVec 1 := Scalar.xori v75 v76
  let c0_i32_52 : BitVec 32 := 0#32
  let v74 : BitVec 1 := Scalar.cmpi .ne v73 c0_i32_52
  let v78 : BitVec 1 := Scalar.andi v77 v74
  let v79 : BitVec 32 := Scalar.addi v73 v72
  let v80 : BitVec 32 := Scalar.select v78 v79 v73
  let c1_i32_60 : BitVec 32 := 1#32
  let v81 : BitVec 32 := Scalar.muli v80 c1_i32_60
  let v82 : BitVec 32 := Scalar.addi c0_i32_61 v81
  v82.toNat
def k0_dev36 (d0 : Dev nD) : Nat :=
  let c0_i32_78 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v91 : BitVec 32 := Scalar.addi v2 c4_i32
  let c32_i32_66 : BitVec 32 := 32#32
  let c0_i32_67 : BitVec 32 := 0#32
  let v92 : BitVec 1 := Scalar.cmpi .eq c32_i32_66 c0_i32_67
  let c1_i32_68 : BitVec 32 := 1#32
  let v93 : BitVec 32 := Scalar.select v92 c1_i32_68 c32_i32_66
  let v94 : BitVec 32 := Scalar.remsi v91 v93
  let c0_i32_70 : BitVec 32 := 0#32
  let v96 : BitVec 1 := Scalar.cmpi .slt v94 c0_i32_70
  let c0_i32_71 : BitVec 32 := 0#32
  let v97 : BitVec 1 := Scalar.cmpi .slt v93 c0_i32_71
  let v98 : BitVec 1 := Scalar.xori v96 v97
  let c0_i32_69 : BitVec 32 := 0#32
  let v95 : BitVec 1 := Scalar.cmpi .ne v94 c0_i32_69
  let v99 : BitVec 1 := Scalar.andi v98 v95
  let v100 : BitVec 32 := Scalar.addi v94 v93
  let v101 : BitVec 32 := Scalar.select v99 v100 v94
  let c1_i32_77 : BitVec 32 := 1#32
  let v102 : BitVec 32 := Scalar.muli v101 c1_i32_77
  let v103 : BitVec 32 := Scalar.addi c0_i32_78 v102
  v103.toNat
def k0_dev37 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v112 : BitVec 32 := Scalar.addi v2 c5_i32
  let c32_i32_83 : BitVec 32 := 32#32
  let c0_i32_84 : BitVec 32 := 0#32
  let v113 : BitVec 1 := Scalar.cmpi .eq c32_i32_83 c0_i32_84
  let c1_i32_85 : BitVec 32 := 1#32
  let v114 : BitVec 32 := Scalar.select v113 c1_i32_85 c32_i32_83
  let v115 : BitVec 32 := Scalar.remsi v112 v114
  let c0_i32_87 : BitVec 32 := 0#32
  let v117 : BitVec 1 := Scalar.cmpi .slt v115 c0_i32_87
  let c0_i32_88 : BitVec 32 := 0#32
  let v118 : BitVec 1 := Scalar.cmpi .slt v114 c0_i32_88
  let v119 : BitVec 1 := Scalar.xori v117 v118
  let c0_i32_86 : BitVec 32 := 0#32
  let v116 : BitVec 1 := Scalar.cmpi .ne v115 c0_i32_86
  let v120 : BitVec 1 := Scalar.andi v119 v116
  let v121 : BitVec 32 := Scalar.addi v115 v114
  let v122 : BitVec 32 := Scalar.select v120 v121 v115
  let c1_i32_94 : BitVec 32 := 1#32
  let v123 : BitVec 32 := Scalar.muli v122 c1_i32_94
  let v124 : BitVec 32 := Scalar.addi c0_i32_95 v123
  v124.toNat
def k0_dev38 (d0 : Dev nD) : Nat :=
  let c0_i32_112 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v133 : BitVec 32 := Scalar.addi v2 c6_i32
  let c32_i32_100 : BitVec 32 := 32#32
  let c0_i32_101 : BitVec 32 := 0#32
  let v134 : BitVec 1 := Scalar.cmpi .eq c32_i32_100 c0_i32_101
  let c1_i32_102 : BitVec 32 := 1#32
  let v135 : BitVec 32 := Scalar.select v134 c1_i32_102 c32_i32_100
  let v136 : BitVec 32 := Scalar.remsi v133 v135
  let c0_i32_104 : BitVec 32 := 0#32
  let v138 : BitVec 1 := Scalar.cmpi .slt v136 c0_i32_104
  let c0_i32_105 : BitVec 32 := 0#32
  let v139 : BitVec 1 := Scalar.cmpi .slt v135 c0_i32_105
  let v140 : BitVec 1 := Scalar.xori v138 v139
  let c0_i32_103 : BitVec 32 := 0#32
  let v137 : BitVec 1 := Scalar.cmpi .ne v136 c0_i32_103
  let v141 : BitVec 1 := Scalar.andi v140 v137
  let v142 : BitVec 32 := Scalar.addi v136 v135
  let v143 : BitVec 32 := Scalar.select v141 v142 v136
  let c1_i32_111 : BitVec 32 := 1#32
  let v144 : BitVec 32 := Scalar.muli v143 c1_i32_111
  let v145 : BitVec 32 := Scalar.addi c0_i32_112 v144
  v145.toNat
def k0_dev39 (d0 : Dev nD) : Nat :=
  let c0_i32_129 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v154 : BitVec 32 := Scalar.addi v2 c7_i32
  let c32_i32_117 : BitVec 32 := 32#32
  let c0_i32_118 : BitVec 32 := 0#32
  let v155 : BitVec 1 := Scalar.cmpi .eq c32_i32_117 c0_i32_118
  let c1_i32_119 : BitVec 32 := 1#32
  let v156 : BitVec 32 := Scalar.select v155 c1_i32_119 c32_i32_117
  let v157 : BitVec 32 := Scalar.remsi v154 v156
  let c0_i32_121 : BitVec 32 := 0#32
  let v159 : BitVec 1 := Scalar.cmpi .slt v157 c0_i32_121
  let c0_i32_122 : BitVec 32 := 0#32
  let v160 : BitVec 1 := Scalar.cmpi .slt v156 c0_i32_122
  let v161 : BitVec 1 := Scalar.xori v159 v160
  let c0_i32_120 : BitVec 32 := 0#32
  let v158 : BitVec 1 := Scalar.cmpi .ne v157 c0_i32_120
  let v162 : BitVec 1 := Scalar.andi v161 v158
  let v163 : BitVec 32 := Scalar.addi v157 v156
  let v164 : BitVec 32 := Scalar.select v162 v163 v157
  let c1_i32_128 : BitVec 32 := 1#32
  let v165 : BitVec 32 := Scalar.muli v164 c1_i32_128
  let v166 : BitVec 32 := Scalar.addi c0_i32_129 v165
  v166.toNat
def k0_dev40 (d0 : Dev nD) : Nat :=
  let c0_i32_146 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v175 : BitVec 32 := Scalar.addi v2 c8_i32
  let c32_i32_134 : BitVec 32 := 32#32
  let c0_i32_135 : BitVec 32 := 0#32
  let v176 : BitVec 1 := Scalar.cmpi .eq c32_i32_134 c0_i32_135
  let c1_i32_136 : BitVec 32 := 1#32
  let v177 : BitVec 32 := Scalar.select v176 c1_i32_136 c32_i32_134
  let v178 : BitVec 32 := Scalar.remsi v175 v177
  let c0_i32_138 : BitVec 32 := 0#32
  let v180 : BitVec 1 := Scalar.cmpi .slt v178 c0_i32_138
  let c0_i32_139 : BitVec 32 := 0#32
  let v181 : BitVec 1 := Scalar.cmpi .slt v177 c0_i32_139
  let v182 : BitVec 1 := Scalar.xori v180 v181
  let c0_i32_137 : BitVec 32 := 0#32
  let v179 : BitVec 1 := Scalar.cmpi .ne v178 c0_i32_137
  let v183 : BitVec 1 := Scalar.andi v182 v179
  let v184 : BitVec 32 := Scalar.addi v178 v177
  let v185 : BitVec 32 := Scalar.select v183 v184 v178
  let c1_i32_145 : BitVec 32 := 1#32
  let v186 : BitVec 32 := Scalar.muli v185 c1_i32_145
  let v187 : BitVec 32 := Scalar.addi c0_i32_146 v186
  v187.toNat
def k0_dev41 (d0 : Dev nD) : Nat :=
  let c0_i32_163 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v196 : BitVec 32 := Scalar.addi v2 c9_i32
  let c32_i32_151 : BitVec 32 := 32#32
  let c0_i32_152 : BitVec 32 := 0#32
  let v197 : BitVec 1 := Scalar.cmpi .eq c32_i32_151 c0_i32_152
  let c1_i32_153 : BitVec 32 := 1#32
  let v198 : BitVec 32 := Scalar.select v197 c1_i32_153 c32_i32_151
  let v199 : BitVec 32 := Scalar.remsi v196 v198
  let c0_i32_155 : BitVec 32 := 0#32
  let v201 : BitVec 1 := Scalar.cmpi .slt v199 c0_i32_155
  let c0_i32_156 : BitVec 32 := 0#32
  let v202 : BitVec 1 := Scalar.cmpi .slt v198 c0_i32_156
  let v203 : BitVec 1 := Scalar.xori v201 v202
  let c0_i32_154 : BitVec 32 := 0#32
  let v200 : BitVec 1 := Scalar.cmpi .ne v199 c0_i32_154
  let v204 : BitVec 1 := Scalar.andi v203 v200
  let v205 : BitVec 32 := Scalar.addi v199 v198
  let v206 : BitVec 32 := Scalar.select v204 v205 v199
  let c1_i32_162 : BitVec 32 := 1#32
  let v207 : BitVec 32 := Scalar.muli v206 c1_i32_162
  let v208 : BitVec 32 := Scalar.addi c0_i32_163 v207
  v208.toNat
def k0_dev42 (d0 : Dev nD) : Nat :=
  let c0_i32_180 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v217 : BitVec 32 := Scalar.addi v2 c10_i32
  let c32_i32_168 : BitVec 32 := 32#32
  let c0_i32_169 : BitVec 32 := 0#32
  let v218 : BitVec 1 := Scalar.cmpi .eq c32_i32_168 c0_i32_169
  let c1_i32_170 : BitVec 32 := 1#32
  let v219 : BitVec 32 := Scalar.select v218 c1_i32_170 c32_i32_168
  let v220 : BitVec 32 := Scalar.remsi v217 v219
  let c0_i32_172 : BitVec 32 := 0#32
  let v222 : BitVec 1 := Scalar.cmpi .slt v220 c0_i32_172
  let c0_i32_173 : BitVec 32 := 0#32
  let v223 : BitVec 1 := Scalar.cmpi .slt v219 c0_i32_173
  let v224 : BitVec 1 := Scalar.xori v222 v223
  let c0_i32_171 : BitVec 32 := 0#32
  let v221 : BitVec 1 := Scalar.cmpi .ne v220 c0_i32_171
  let v225 : BitVec 1 := Scalar.andi v224 v221
  let v226 : BitVec 32 := Scalar.addi v220 v219
  let v227 : BitVec 32 := Scalar.select v225 v226 v220
  let c1_i32_179 : BitVec 32 := 1#32
  let v228 : BitVec 32 := Scalar.muli v227 c1_i32_179
  let v229 : BitVec 32 := Scalar.addi c0_i32_180 v228
  v229.toNat
def k0_dev43 (d0 : Dev nD) : Nat :=
  let c0_i32_197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v238 : BitVec 32 := Scalar.addi v2 c11_i32
  let c32_i32_185 : BitVec 32 := 32#32
  let c0_i32_186 : BitVec 32 := 0#32
  let v239 : BitVec 1 := Scalar.cmpi .eq c32_i32_185 c0_i32_186
  let c1_i32_187 : BitVec 32 := 1#32
  let v240 : BitVec 32 := Scalar.select v239 c1_i32_187 c32_i32_185
  let v241 : BitVec 32 := Scalar.remsi v238 v240
  let c0_i32_189 : BitVec 32 := 0#32
  let v243 : BitVec 1 := Scalar.cmpi .slt v241 c0_i32_189
  let c0_i32_190 : BitVec 32 := 0#32
  let v244 : BitVec 1 := Scalar.cmpi .slt v240 c0_i32_190
  let v245 : BitVec 1 := Scalar.xori v243 v244
  let c0_i32_188 : BitVec 32 := 0#32
  let v242 : BitVec 1 := Scalar.cmpi .ne v241 c0_i32_188
  let v246 : BitVec 1 := Scalar.andi v245 v242
  let v247 : BitVec 32 := Scalar.addi v241 v240
  let v248 : BitVec 32 := Scalar.select v246 v247 v241
  let c1_i32_196 : BitVec 32 := 1#32
  let v249 : BitVec 32 := Scalar.muli v248 c1_i32_196
  let v250 : BitVec 32 := Scalar.addi c0_i32_197 v249
  v250.toNat
def k0_dev44 (d0 : Dev nD) : Nat :=
  let c0_i32_214 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v259 : BitVec 32 := Scalar.addi v2 c12_i32
  let c32_i32_202 : BitVec 32 := 32#32
  let c0_i32_203 : BitVec 32 := 0#32
  let v260 : BitVec 1 := Scalar.cmpi .eq c32_i32_202 c0_i32_203
  let c1_i32_204 : BitVec 32 := 1#32
  let v261 : BitVec 32 := Scalar.select v260 c1_i32_204 c32_i32_202
  let v262 : BitVec 32 := Scalar.remsi v259 v261
  let c0_i32_206 : BitVec 32 := 0#32
  let v264 : BitVec 1 := Scalar.cmpi .slt v262 c0_i32_206
  let c0_i32_207 : BitVec 32 := 0#32
  let v265 : BitVec 1 := Scalar.cmpi .slt v261 c0_i32_207
  let v266 : BitVec 1 := Scalar.xori v264 v265
  let c0_i32_205 : BitVec 32 := 0#32
  let v263 : BitVec 1 := Scalar.cmpi .ne v262 c0_i32_205
  let v267 : BitVec 1 := Scalar.andi v266 v263
  let v268 : BitVec 32 := Scalar.addi v262 v261
  let v269 : BitVec 32 := Scalar.select v267 v268 v262
  let c1_i32_213 : BitVec 32 := 1#32
  let v270 : BitVec 32 := Scalar.muli v269 c1_i32_213
  let v271 : BitVec 32 := Scalar.addi c0_i32_214 v270
  v271.toNat
def k0_dev45 (d0 : Dev nD) : Nat :=
  let c0_i32_231 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v280 : BitVec 32 := Scalar.addi v2 c13_i32
  let c32_i32_219 : BitVec 32 := 32#32
  let c0_i32_220 : BitVec 32 := 0#32
  let v281 : BitVec 1 := Scalar.cmpi .eq c32_i32_219 c0_i32_220
  let c1_i32_221 : BitVec 32 := 1#32
  let v282 : BitVec 32 := Scalar.select v281 c1_i32_221 c32_i32_219
  let v283 : BitVec 32 := Scalar.remsi v280 v282
  let c0_i32_223 : BitVec 32 := 0#32
  let v285 : BitVec 1 := Scalar.cmpi .slt v283 c0_i32_223
  let c0_i32_224 : BitVec 32 := 0#32
  let v286 : BitVec 1 := Scalar.cmpi .slt v282 c0_i32_224
  let v287 : BitVec 1 := Scalar.xori v285 v286
  let c0_i32_222 : BitVec 32 := 0#32
  let v284 : BitVec 1 := Scalar.cmpi .ne v283 c0_i32_222
  let v288 : BitVec 1 := Scalar.andi v287 v284
  let v289 : BitVec 32 := Scalar.addi v283 v282
  let v290 : BitVec 32 := Scalar.select v288 v289 v283
  let c1_i32_230 : BitVec 32 := 1#32
  let v291 : BitVec 32 := Scalar.muli v290 c1_i32_230
  let v292 : BitVec 32 := Scalar.addi c0_i32_231 v291
  v292.toNat
def k0_dev46 (d0 : Dev nD) : Nat :=
  let c0_i32_248 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v301 : BitVec 32 := Scalar.addi v2 c14_i32
  let c32_i32_236 : BitVec 32 := 32#32
  let c0_i32_237 : BitVec 32 := 0#32
  let v302 : BitVec 1 := Scalar.cmpi .eq c32_i32_236 c0_i32_237
  let c1_i32_238 : BitVec 32 := 1#32
  let v303 : BitVec 32 := Scalar.select v302 c1_i32_238 c32_i32_236
  let v304 : BitVec 32 := Scalar.remsi v301 v303
  let c0_i32_240 : BitVec 32 := 0#32
  let v306 : BitVec 1 := Scalar.cmpi .slt v304 c0_i32_240
  let c0_i32_241 : BitVec 32 := 0#32
  let v307 : BitVec 1 := Scalar.cmpi .slt v303 c0_i32_241
  let v308 : BitVec 1 := Scalar.xori v306 v307
  let c0_i32_239 : BitVec 32 := 0#32
  let v305 : BitVec 1 := Scalar.cmpi .ne v304 c0_i32_239
  let v309 : BitVec 1 := Scalar.andi v308 v305
  let v310 : BitVec 32 := Scalar.addi v304 v303
  let v311 : BitVec 32 := Scalar.select v309 v310 v304
  let c1_i32_247 : BitVec 32 := 1#32
  let v312 : BitVec 32 := Scalar.muli v311 c1_i32_247
  let v313 : BitVec 32 := Scalar.addi c0_i32_248 v312
  v313.toNat
def k0_dev47 (d0 : Dev nD) : Nat :=
  let c0_i32_265 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v322 : BitVec 32 := Scalar.addi v2 c15_i32
  let c32_i32_253 : BitVec 32 := 32#32
  let c0_i32_254 : BitVec 32 := 0#32
  let v323 : BitVec 1 := Scalar.cmpi .eq c32_i32_253 c0_i32_254
  let c1_i32_255 : BitVec 32 := 1#32
  let v324 : BitVec 32 := Scalar.select v323 c1_i32_255 c32_i32_253
  let v325 : BitVec 32 := Scalar.remsi v322 v324
  let c0_i32_257 : BitVec 32 := 0#32
  let v327 : BitVec 1 := Scalar.cmpi .slt v325 c0_i32_257
  let c0_i32_258 : BitVec 32 := 0#32
  let v328 : BitVec 1 := Scalar.cmpi .slt v324 c0_i32_258
  let v329 : BitVec 1 := Scalar.xori v327 v328
  let c0_i32_256 : BitVec 32 := 0#32
  let v326 : BitVec 1 := Scalar.cmpi .ne v325 c0_i32_256
  let v330 : BitVec 1 := Scalar.andi v329 v326
  let v331 : BitVec 32 := Scalar.addi v325 v324
  let v332 : BitVec 32 := Scalar.select v330 v331 v325
  let c1_i32_264 : BitVec 32 := 1#32
  let v333 : BitVec 32 := Scalar.muli v332 c1_i32_264
  let v334 : BitVec 32 := Scalar.addi c0_i32_265 v333
  v334.toNat
def k0_dev48 (d0 : Dev nD) : Nat :=
  let c0_i32_282 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v343 : BitVec 32 := Scalar.addi v2 c16_i32
  let c32_i32_270 : BitVec 32 := 32#32
  let c0_i32_271 : BitVec 32 := 0#32
  let v344 : BitVec 1 := Scalar.cmpi .eq c32_i32_270 c0_i32_271
  let c1_i32_272 : BitVec 32 := 1#32
  let v345 : BitVec 32 := Scalar.select v344 c1_i32_272 c32_i32_270
  let v346 : BitVec 32 := Scalar.remsi v343 v345
  let c0_i32_274 : BitVec 32 := 0#32
  let v348 : BitVec 1 := Scalar.cmpi .slt v346 c0_i32_274
  let c0_i32_275 : BitVec 32 := 0#32
  let v349 : BitVec 1 := Scalar.cmpi .slt v345 c0_i32_275
  let v350 : BitVec 1 := Scalar.xori v348 v349
  let c0_i32_273 : BitVec 32 := 0#32
  let v347 : BitVec 1 := Scalar.cmpi .ne v346 c0_i32_273
  let v351 : BitVec 1 := Scalar.andi v350 v347
  let v352 : BitVec 32 := Scalar.addi v346 v345
  let v353 : BitVec 32 := Scalar.select v351 v352 v346
  let c1_i32_281 : BitVec 32 := 1#32
  let v354 : BitVec 32 := Scalar.muli v353 c1_i32_281
  let v355 : BitVec 32 := Scalar.addi c0_i32_282 v354
  v355.toNat
def k0_dev49 (d0 : Dev nD) : Nat :=
  let c0_i32_299 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v364 : BitVec 32 := Scalar.addi v2 c17_i32
  let c32_i32_287 : BitVec 32 := 32#32
  let c0_i32_288 : BitVec 32 := 0#32
  let v365 : BitVec 1 := Scalar.cmpi .eq c32_i32_287 c0_i32_288
  let c1_i32_289 : BitVec 32 := 1#32
  let v366 : BitVec 32 := Scalar.select v365 c1_i32_289 c32_i32_287
  let v367 : BitVec 32 := Scalar.remsi v364 v366
  let c0_i32_291 : BitVec 32 := 0#32
  let v369 : BitVec 1 := Scalar.cmpi .slt v367 c0_i32_291
  let c0_i32_292 : BitVec 32 := 0#32
  let v370 : BitVec 1 := Scalar.cmpi .slt v366 c0_i32_292
  let v371 : BitVec 1 := Scalar.xori v369 v370
  let c0_i32_290 : BitVec 32 := 0#32
  let v368 : BitVec 1 := Scalar.cmpi .ne v367 c0_i32_290
  let v372 : BitVec 1 := Scalar.andi v371 v368
  let v373 : BitVec 32 := Scalar.addi v367 v366
  let v374 : BitVec 32 := Scalar.select v372 v373 v367
  let c1_i32_298 : BitVec 32 := 1#32
  let v375 : BitVec 32 := Scalar.muli v374 c1_i32_298
  let v376 : BitVec 32 := Scalar.addi c0_i32_299 v375
  v376.toNat
def k0_dev50 (d0 : Dev nD) : Nat :=
  let c0_i32_316 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v385 : BitVec 32 := Scalar.addi v2 c18_i32
  let c32_i32_304 : BitVec 32 := 32#32
  let c0_i32_305 : BitVec 32 := 0#32
  let v386 : BitVec 1 := Scalar.cmpi .eq c32_i32_304 c0_i32_305
  let c1_i32_306 : BitVec 32 := 1#32
  let v387 : BitVec 32 := Scalar.select v386 c1_i32_306 c32_i32_304
  let v388 : BitVec 32 := Scalar.remsi v385 v387
  let c0_i32_308 : BitVec 32 := 0#32
  let v390 : BitVec 1 := Scalar.cmpi .slt v388 c0_i32_308
  let c0_i32_309 : BitVec 32 := 0#32
  let v391 : BitVec 1 := Scalar.cmpi .slt v387 c0_i32_309
  let v392 : BitVec 1 := Scalar.xori v390 v391
  let c0_i32_307 : BitVec 32 := 0#32
  let v389 : BitVec 1 := Scalar.cmpi .ne v388 c0_i32_307
  let v393 : BitVec 1 := Scalar.andi v392 v389
  let v394 : BitVec 32 := Scalar.addi v388 v387
  let v395 : BitVec 32 := Scalar.select v393 v394 v388
  let c1_i32_315 : BitVec 32 := 1#32
  let v396 : BitVec 32 := Scalar.muli v395 c1_i32_315
  let v397 : BitVec 32 := Scalar.addi c0_i32_316 v396
  v397.toNat
def k0_dev51 (d0 : Dev nD) : Nat :=
  let c0_i32_333 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v406 : BitVec 32 := Scalar.addi v2 c19_i32
  let c32_i32_321 : BitVec 32 := 32#32
  let c0_i32_322 : BitVec 32 := 0#32
  let v407 : BitVec 1 := Scalar.cmpi .eq c32_i32_321 c0_i32_322
  let c1_i32_323 : BitVec 32 := 1#32
  let v408 : BitVec 32 := Scalar.select v407 c1_i32_323 c32_i32_321
  let v409 : BitVec 32 := Scalar.remsi v406 v408
  let c0_i32_325 : BitVec 32 := 0#32
  let v411 : BitVec 1 := Scalar.cmpi .slt v409 c0_i32_325
  let c0_i32_326 : BitVec 32 := 0#32
  let v412 : BitVec 1 := Scalar.cmpi .slt v408 c0_i32_326
  let v413 : BitVec 1 := Scalar.xori v411 v412
  let c0_i32_324 : BitVec 32 := 0#32
  let v410 : BitVec 1 := Scalar.cmpi .ne v409 c0_i32_324
  let v414 : BitVec 1 := Scalar.andi v413 v410
  let v415 : BitVec 32 := Scalar.addi v409 v408
  let v416 : BitVec 32 := Scalar.select v414 v415 v409
  let c1_i32_332 : BitVec 32 := 1#32
  let v417 : BitVec 32 := Scalar.muli v416 c1_i32_332
  let v418 : BitVec 32 := Scalar.addi c0_i32_333 v417
  v418.toNat
def k0_dev52 (d0 : Dev nD) : Nat :=
  let c0_i32_350 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v427 : BitVec 32 := Scalar.addi v2 c20_i32
  let c32_i32_338 : BitVec 32 := 32#32
  let c0_i32_339 : BitVec 32 := 0#32
  let v428 : BitVec 1 := Scalar.cmpi .eq c32_i32_338 c0_i32_339
  let c1_i32_340 : BitVec 32 := 1#32
  let v429 : BitVec 32 := Scalar.select v428 c1_i32_340 c32_i32_338
  let v430 : BitVec 32 := Scalar.remsi v427 v429
  let c0_i32_342 : BitVec 32 := 0#32
  let v432 : BitVec 1 := Scalar.cmpi .slt v430 c0_i32_342
  let c0_i32_343 : BitVec 32 := 0#32
  let v433 : BitVec 1 := Scalar.cmpi .slt v429 c0_i32_343
  let v434 : BitVec 1 := Scalar.xori v432 v433
  let c0_i32_341 : BitVec 32 := 0#32
  let v431 : BitVec 1 := Scalar.cmpi .ne v430 c0_i32_341
  let v435 : BitVec 1 := Scalar.andi v434 v431
  let v436 : BitVec 32 := Scalar.addi v430 v429
  let v437 : BitVec 32 := Scalar.select v435 v436 v430
  let c1_i32_349 : BitVec 32 := 1#32
  let v438 : BitVec 32 := Scalar.muli v437 c1_i32_349
  let v439 : BitVec 32 := Scalar.addi c0_i32_350 v438
  v439.toNat
def k0_dev53 (d0 : Dev nD) : Nat :=
  let c0_i32_367 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v448 : BitVec 32 := Scalar.addi v2 c21_i32
  let c32_i32_355 : BitVec 32 := 32#32
  let c0_i32_356 : BitVec 32 := 0#32
  let v449 : BitVec 1 := Scalar.cmpi .eq c32_i32_355 c0_i32_356
  let c1_i32_357 : BitVec 32 := 1#32
  let v450 : BitVec 32 := Scalar.select v449 c1_i32_357 c32_i32_355
  let v451 : BitVec 32 := Scalar.remsi v448 v450
  let c0_i32_359 : BitVec 32 := 0#32
  let v453 : BitVec 1 := Scalar.cmpi .slt v451 c0_i32_359
  let c0_i32_360 : BitVec 32 := 0#32
  let v454 : BitVec 1 := Scalar.cmpi .slt v450 c0_i32_360
  let v455 : BitVec 1 := Scalar.xori v453 v454
  let c0_i32_358 : BitVec 32 := 0#32
  let v452 : BitVec 1 := Scalar.cmpi .ne v451 c0_i32_358
  let v456 : BitVec 1 := Scalar.andi v455 v452
  let v457 : BitVec 32 := Scalar.addi v451 v450
  let v458 : BitVec 32 := Scalar.select v456 v457 v451
  let c1_i32_366 : BitVec 32 := 1#32
  let v459 : BitVec 32 := Scalar.muli v458 c1_i32_366
  let v460 : BitVec 32 := Scalar.addi c0_i32_367 v459
  v460.toNat
def k0_dev54 (d0 : Dev nD) : Nat :=
  let c0_i32_384 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v469 : BitVec 32 := Scalar.addi v2 c22_i32
  let c32_i32_372 : BitVec 32 := 32#32
  let c0_i32_373 : BitVec 32 := 0#32
  let v470 : BitVec 1 := Scalar.cmpi .eq c32_i32_372 c0_i32_373
  let c1_i32_374 : BitVec 32 := 1#32
  let v471 : BitVec 32 := Scalar.select v470 c1_i32_374 c32_i32_372
  let v472 : BitVec 32 := Scalar.remsi v469 v471
  let c0_i32_376 : BitVec 32 := 0#32
  let v474 : BitVec 1 := Scalar.cmpi .slt v472 c0_i32_376
  let c0_i32_377 : BitVec 32 := 0#32
  let v475 : BitVec 1 := Scalar.cmpi .slt v471 c0_i32_377
  let v476 : BitVec 1 := Scalar.xori v474 v475
  let c0_i32_375 : BitVec 32 := 0#32
  let v473 : BitVec 1 := Scalar.cmpi .ne v472 c0_i32_375
  let v477 : BitVec 1 := Scalar.andi v476 v473
  let v478 : BitVec 32 := Scalar.addi v472 v471
  let v479 : BitVec 32 := Scalar.select v477 v478 v472
  let c1_i32_383 : BitVec 32 := 1#32
  let v480 : BitVec 32 := Scalar.muli v479 c1_i32_383
  let v481 : BitVec 32 := Scalar.addi c0_i32_384 v480
  v481.toNat
def k0_dev55 (d0 : Dev nD) : Nat :=
  let c0_i32_401 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v490 : BitVec 32 := Scalar.addi v2 c23_i32
  let c32_i32_389 : BitVec 32 := 32#32
  let c0_i32_390 : BitVec 32 := 0#32
  let v491 : BitVec 1 := Scalar.cmpi .eq c32_i32_389 c0_i32_390
  let c1_i32_391 : BitVec 32 := 1#32
  let v492 : BitVec 32 := Scalar.select v491 c1_i32_391 c32_i32_389
  let v493 : BitVec 32 := Scalar.remsi v490 v492
  let c0_i32_393 : BitVec 32 := 0#32
  let v495 : BitVec 1 := Scalar.cmpi .slt v493 c0_i32_393
  let c0_i32_394 : BitVec 32 := 0#32
  let v496 : BitVec 1 := Scalar.cmpi .slt v492 c0_i32_394
  let v497 : BitVec 1 := Scalar.xori v495 v496
  let c0_i32_392 : BitVec 32 := 0#32
  let v494 : BitVec 1 := Scalar.cmpi .ne v493 c0_i32_392
  let v498 : BitVec 1 := Scalar.andi v497 v494
  let v499 : BitVec 32 := Scalar.addi v493 v492
  let v500 : BitVec 32 := Scalar.select v498 v499 v493
  let c1_i32_400 : BitVec 32 := 1#32
  let v501 : BitVec 32 := Scalar.muli v500 c1_i32_400
  let v502 : BitVec 32 := Scalar.addi c0_i32_401 v501
  v502.toNat
def k0_dev56 (d0 : Dev nD) : Nat :=
  let c0_i32_418 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v511 : BitVec 32 := Scalar.addi v2 c24_i32
  let c32_i32_406 : BitVec 32 := 32#32
  let c0_i32_407 : BitVec 32 := 0#32
  let v512 : BitVec 1 := Scalar.cmpi .eq c32_i32_406 c0_i32_407
  let c1_i32_408 : BitVec 32 := 1#32
  let v513 : BitVec 32 := Scalar.select v512 c1_i32_408 c32_i32_406
  let v514 : BitVec 32 := Scalar.remsi v511 v513
  let c0_i32_410 : BitVec 32 := 0#32
  let v516 : BitVec 1 := Scalar.cmpi .slt v514 c0_i32_410
  let c0_i32_411 : BitVec 32 := 0#32
  let v517 : BitVec 1 := Scalar.cmpi .slt v513 c0_i32_411
  let v518 : BitVec 1 := Scalar.xori v516 v517
  let c0_i32_409 : BitVec 32 := 0#32
  let v515 : BitVec 1 := Scalar.cmpi .ne v514 c0_i32_409
  let v519 : BitVec 1 := Scalar.andi v518 v515
  let v520 : BitVec 32 := Scalar.addi v514 v513
  let v521 : BitVec 32 := Scalar.select v519 v520 v514
  let c1_i32_417 : BitVec 32 := 1#32
  let v522 : BitVec 32 := Scalar.muli v521 c1_i32_417
  let v523 : BitVec 32 := Scalar.addi c0_i32_418 v522
  v523.toNat
def k0_dev57 (d0 : Dev nD) : Nat :=
  let c0_i32_435 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v532 : BitVec 32 := Scalar.addi v2 c25_i32
  let c32_i32_423 : BitVec 32 := 32#32
  let c0_i32_424 : BitVec 32 := 0#32
  let v533 : BitVec 1 := Scalar.cmpi .eq c32_i32_423 c0_i32_424
  let c1_i32_425 : BitVec 32 := 1#32
  let v534 : BitVec 32 := Scalar.select v533 c1_i32_425 c32_i32_423
  let v535 : BitVec 32 := Scalar.remsi v532 v534
  let c0_i32_427 : BitVec 32 := 0#32
  let v537 : BitVec 1 := Scalar.cmpi .slt v535 c0_i32_427
  let c0_i32_428 : BitVec 32 := 0#32
  let v538 : BitVec 1 := Scalar.cmpi .slt v534 c0_i32_428
  let v539 : BitVec 1 := Scalar.xori v537 v538
  let c0_i32_426 : BitVec 32 := 0#32
  let v536 : BitVec 1 := Scalar.cmpi .ne v535 c0_i32_426
  let v540 : BitVec 1 := Scalar.andi v539 v536
  let v541 : BitVec 32 := Scalar.addi v535 v534
  let v542 : BitVec 32 := Scalar.select v540 v541 v535
  let c1_i32_434 : BitVec 32 := 1#32
  let v543 : BitVec 32 := Scalar.muli v542 c1_i32_434
  let v544 : BitVec 32 := Scalar.addi c0_i32_435 v543
  v544.toNat
def k0_dev58 (d0 : Dev nD) : Nat :=
  let c0_i32_452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v553 : BitVec 32 := Scalar.addi v2 c26_i32
  let c32_i32_440 : BitVec 32 := 32#32
  let c0_i32_441 : BitVec 32 := 0#32
  let v554 : BitVec 1 := Scalar.cmpi .eq c32_i32_440 c0_i32_441
  let c1_i32_442 : BitVec 32 := 1#32
  let v555 : BitVec 32 := Scalar.select v554 c1_i32_442 c32_i32_440
  let v556 : BitVec 32 := Scalar.remsi v553 v555
  let c0_i32_444 : BitVec 32 := 0#32
  let v558 : BitVec 1 := Scalar.cmpi .slt v556 c0_i32_444
  let c0_i32_445 : BitVec 32 := 0#32
  let v559 : BitVec 1 := Scalar.cmpi .slt v555 c0_i32_445
  let v560 : BitVec 1 := Scalar.xori v558 v559
  let c0_i32_443 : BitVec 32 := 0#32
  let v557 : BitVec 1 := Scalar.cmpi .ne v556 c0_i32_443
  let v561 : BitVec 1 := Scalar.andi v560 v557
  let v562 : BitVec 32 := Scalar.addi v556 v555
  let v563 : BitVec 32 := Scalar.select v561 v562 v556
  let c1_i32_451 : BitVec 32 := 1#32
  let v564 : BitVec 32 := Scalar.muli v563 c1_i32_451
  let v565 : BitVec 32 := Scalar.addi c0_i32_452 v564
  v565.toNat
def k0_dev59 (d0 : Dev nD) : Nat :=
  let c0_i32_469 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v574 : BitVec 32 := Scalar.addi v2 c27_i32
  let c32_i32_457 : BitVec 32 := 32#32
  let c0_i32_458 : BitVec 32 := 0#32
  let v575 : BitVec 1 := Scalar.cmpi .eq c32_i32_457 c0_i32_458
  let c1_i32_459 : BitVec 32 := 1#32
  let v576 : BitVec 32 := Scalar.select v575 c1_i32_459 c32_i32_457
  let v577 : BitVec 32 := Scalar.remsi v574 v576
  let c0_i32_461 : BitVec 32 := 0#32
  let v579 : BitVec 1 := Scalar.cmpi .slt v577 c0_i32_461
  let c0_i32_462 : BitVec 32 := 0#32
  let v580 : BitVec 1 := Scalar.cmpi .slt v576 c0_i32_462
  let v581 : BitVec 1 := Scalar.xori v579 v580
  let c0_i32_460 : BitVec 32 := 0#32
  let v578 : BitVec 1 := Scalar.cmpi .ne v577 c0_i32_460
  let v582 : BitVec 1 := Scalar.andi v581 v578
  let v583 : BitVec 32 := Scalar.addi v577 v576
  let v584 : BitVec 32 := Scalar.select v582 v583 v577
  let c1_i32_468 : BitVec 32 := 1#32
  let v585 : BitVec 32 := Scalar.muli v584 c1_i32_468
  let v586 : BitVec 32 := Scalar.addi c0_i32_469 v585
  v586.toNat
def k0_dev60 (d0 : Dev nD) : Nat :=
  let c0_i32_486 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v595 : BitVec 32 := Scalar.addi v2 c28_i32
  let c32_i32_474 : BitVec 32 := 32#32
  let c0_i32_475 : BitVec 32 := 0#32
  let v596 : BitVec 1 := Scalar.cmpi .eq c32_i32_474 c0_i32_475
  let c1_i32_476 : BitVec 32 := 1#32
  let v597 : BitVec 32 := Scalar.select v596 c1_i32_476 c32_i32_474
  let v598 : BitVec 32 := Scalar.remsi v595 v597
  let c0_i32_478 : BitVec 32 := 0#32
  let v600 : BitVec 1 := Scalar.cmpi .slt v598 c0_i32_478
  let c0_i32_479 : BitVec 32 := 0#32
  let v601 : BitVec 1 := Scalar.cmpi .slt v597 c0_i32_479
  let v602 : BitVec 1 := Scalar.xori v600 v601
  let c0_i32_477 : BitVec 32 := 0#32
  let v599 : BitVec 1 := Scalar.cmpi .ne v598 c0_i32_477
  let v603 : BitVec 1 := Scalar.andi v602 v599
  let v604 : BitVec 32 := Scalar.addi v598 v597
  let v605 : BitVec 32 := Scalar.select v603 v604 v598
  let c1_i32_485 : BitVec 32 := 1#32
  let v606 : BitVec 32 := Scalar.muli v605 c1_i32_485
  let v607 : BitVec 32 := Scalar.addi c0_i32_486 v606
  v607.toNat
def k0_dev61 (d0 : Dev nD) : Nat :=
  let c0_i32_503 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v616 : BitVec 32 := Scalar.addi v2 c29_i32
  let c32_i32_491 : BitVec 32 := 32#32
  let c0_i32_492 : BitVec 32 := 0#32
  let v617 : BitVec 1 := Scalar.cmpi .eq c32_i32_491 c0_i32_492
  let c1_i32_493 : BitVec 32 := 1#32
  let v618 : BitVec 32 := Scalar.select v617 c1_i32_493 c32_i32_491
  let v619 : BitVec 32 := Scalar.remsi v616 v618
  let c0_i32_495 : BitVec 32 := 0#32
  let v621 : BitVec 1 := Scalar.cmpi .slt v619 c0_i32_495
  let c0_i32_496 : BitVec 32 := 0#32
  let v622 : BitVec 1 := Scalar.cmpi .slt v618 c0_i32_496
  let v623 : BitVec 1 := Scalar.xori v621 v622
  let c0_i32_494 : BitVec 32 := 0#32
  let v620 : BitVec 1 := Scalar.cmpi .ne v619 c0_i32_494
  let v624 : BitVec 1 := Scalar.andi v623 v620
  let v625 : BitVec 32 := Scalar.addi v619 v618
  let v626 : BitVec 32 := Scalar.select v624 v625 v619
  let c1_i32_502 : BitVec 32 := 1#32
  let v627 : BitVec 32 := Scalar.muli v626 c1_i32_502
  let v628 : BitVec 32 := Scalar.addi c0_i32_503 v627
  v628.toNat
def k0_dev62 (d0 : Dev nD) : Nat :=
  let c0_i32_520 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v637 : BitVec 32 := Scalar.addi v2 c30_i32
  let c32_i32_508 : BitVec 32 := 32#32
  let c0_i32_509 : BitVec 32 := 0#32
  let v638 : BitVec 1 := Scalar.cmpi .eq c32_i32_508 c0_i32_509
  let c1_i32_510 : BitVec 32 := 1#32
  let v639 : BitVec 32 := Scalar.select v638 c1_i32_510 c32_i32_508
  let v640 : BitVec 32 := Scalar.remsi v637 v639
  let c0_i32_512 : BitVec 32 := 0#32
  let v642 : BitVec 1 := Scalar.cmpi .slt v640 c0_i32_512
  let c0_i32_513 : BitVec 32 := 0#32
  let v643 : BitVec 1 := Scalar.cmpi .slt v639 c0_i32_513
  let v644 : BitVec 1 := Scalar.xori v642 v643
  let c0_i32_511 : BitVec 32 := 0#32
  let v641 : BitVec 1 := Scalar.cmpi .ne v640 c0_i32_511
  let v645 : BitVec 1 := Scalar.andi v644 v641
  let v646 : BitVec 32 := Scalar.addi v640 v639
  let v647 : BitVec 32 := Scalar.select v645 v646 v640
  let c1_i32_519 : BitVec 32 := 1#32
  let v648 : BitVec 32 := Scalar.muli v647 c1_i32_519
  let v649 : BitVec 32 := Scalar.addi c0_i32_520 v648
  v649.toNat
def k0_dev63 (d0 : Dev nD) : Nat :=
  let c0_i32_537 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v658 : BitVec 32 := Scalar.addi v2 c31_i32
  let c32_i32_525 : BitVec 32 := 32#32
  let c0_i32_526 : BitVec 32 := 0#32
  let v659 : BitVec 1 := Scalar.cmpi .eq c32_i32_525 c0_i32_526
  let c1_i32_527 : BitVec 32 := 1#32
  let v660 : BitVec 32 := Scalar.select v659 c1_i32_527 c32_i32_525
  let v661 : BitVec 32 := Scalar.remsi v658 v660
  let c0_i32_529 : BitVec 32 := 0#32
  let v663 : BitVec 1 := Scalar.cmpi .slt v661 c0_i32_529
  let c0_i32_530 : BitVec 32 := 0#32
  let v664 : BitVec 1 := Scalar.cmpi .slt v660 c0_i32_530
  let v665 : BitVec 1 := Scalar.xori v663 v664
  let c0_i32_528 : BitVec 32 := 0#32
  let v662 : BitVec 1 := Scalar.cmpi .ne v661 c0_i32_528
  let v666 : BitVec 1 := Scalar.andi v665 v662
  let v667 : BitVec 32 := Scalar.addi v661 v660
  let v668 : BitVec 32 := Scalar.select v666 v667 v661
  let c1_i32_536 : BitVec 32 := 1#32
  let v669 : BitVec 32 := Scalar.muli v668 c1_i32_536
  let v670 : BitVec 32 := Scalar.addi c0_i32_537 v669
  v670.toNat
def k0_off3 (d0 : Dev nD) (c1_i32_542 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v679 : BitVec 32 := Scalar.addi v2 c1_i32_542
  let c32_i32_543 : BitVec 32 := 32#32
  let c0_i32_544 : BitVec 32 := 0#32
  let v680 : BitVec 1 := Scalar.cmpi .eq c32_i32_543 c0_i32_544
  let c1_i32_545 : BitVec 32 := 1#32
  let v681 : BitVec 32 := Scalar.select v680 c1_i32_545 c32_i32_543
  let v682 : BitVec 32 := Scalar.remsi v679 v681
  let c0_i32_547 : BitVec 32 := 0#32
  let v684 : BitVec 1 := Scalar.cmpi .slt v682 c0_i32_547
  let c0_i32_548 : BitVec 32 := 0#32
  let v685 : BitVec 1 := Scalar.cmpi .slt v681 c0_i32_548
  let v686 : BitVec 1 := Scalar.xori v684 v685
  let c0_i32_546 : BitVec 32 := 0#32
  let v683 : BitVec 1 := Scalar.cmpi .ne v682 c0_i32_546
  let v687 : BitVec 1 := Scalar.andi v686 v683
  let v688 : BitVec 32 := Scalar.addi v682 v681
  let v689 : BitVec 32 := Scalar.select v687 v688 v682
  let c0_i32_557 : BitVec 32 := 0#32
  let c256_i32_558 : BitVec 32 := 256#32
  ![v689.toNat, 0, 256]
def k0_dev64 (d0 : Dev nD) : Nat :=
  let c0_i32_555 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_542 : BitVec 32 := 1#32
  let v679 : BitVec 32 := Scalar.addi v2 c1_i32_542
  let c32_i32_543 : BitVec 32 := 32#32
  let c0_i32_544 : BitVec 32 := 0#32
  let v680 : BitVec 1 := Scalar.cmpi .eq c32_i32_543 c0_i32_544
  let c1_i32_545 : BitVec 32 := 1#32
  let v681 : BitVec 32 := Scalar.select v680 c1_i32_545 c32_i32_543
  let v682 : BitVec 32 := Scalar.remsi v679 v681
  let c0_i32_547 : BitVec 32 := 0#32
  let v684 : BitVec 1 := Scalar.cmpi .slt v682 c0_i32_547
  let c0_i32_548 : BitVec 32 := 0#32
  let v685 : BitVec 1 := Scalar.cmpi .slt v681 c0_i32_548
  let v686 : BitVec 1 := Scalar.xori v684 v685
  let c0_i32_546 : BitVec 32 := 0#32
  let v683 : BitVec 1 := Scalar.cmpi .ne v682 c0_i32_546
  let v687 : BitVec 1 := Scalar.andi v686 v683
  let v688 : BitVec 32 := Scalar.addi v682 v681
  let v689 : BitVec 32 := Scalar.select v687 v688 v682
  let c1_i32_554 : BitVec 32 := 1#32
  let v690 : BitVec 32 := Scalar.muli v689 c1_i32_554
  let v691 : BitVec 32 := Scalar.addi c0_i32_555 v690
  v691.toNat
def k0_dev65 (d0 : Dev nD) : Nat :=
  let c0_i32_572 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_559 : BitVec 32 := 2#32
  let v700 : BitVec 32 := Scalar.addi v2 c2_i32_559
  let c32_i32_560 : BitVec 32 := 32#32
  let c0_i32_561 : BitVec 32 := 0#32
  let v701 : BitVec 1 := Scalar.cmpi .eq c32_i32_560 c0_i32_561
  let c1_i32_562 : BitVec 32 := 1#32
  let v702 : BitVec 32 := Scalar.select v701 c1_i32_562 c32_i32_560
  let v703 : BitVec 32 := Scalar.remsi v700 v702
  let c0_i32_564 : BitVec 32 := 0#32
  let v705 : BitVec 1 := Scalar.cmpi .slt v703 c0_i32_564
  let c0_i32_565 : BitVec 32 := 0#32
  let v706 : BitVec 1 := Scalar.cmpi .slt v702 c0_i32_565
  let v707 : BitVec 1 := Scalar.xori v705 v706
  let c0_i32_563 : BitVec 32 := 0#32
  let v704 : BitVec 1 := Scalar.cmpi .ne v703 c0_i32_563
  let v708 : BitVec 1 := Scalar.andi v707 v704
  let v709 : BitVec 32 := Scalar.addi v703 v702
  let v710 : BitVec 32 := Scalar.select v708 v709 v703
  let c1_i32_571 : BitVec 32 := 1#32
  let v711 : BitVec 32 := Scalar.muli v710 c1_i32_571
  let v712 : BitVec 32 := Scalar.addi c0_i32_572 v711
  v712.toNat
def k0_dev66 (d0 : Dev nD) : Nat :=
  let c0_i32_590 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_577 : BitVec 32 := 3#32
  let v721 : BitVec 32 := Scalar.addi v2 c3_i32_577
  let c32_i32_578 : BitVec 32 := 32#32
  let c0_i32_579 : BitVec 32 := 0#32
  let v722 : BitVec 1 := Scalar.cmpi .eq c32_i32_578 c0_i32_579
  let c1_i32_580 : BitVec 32 := 1#32
  let v723 : BitVec 32 := Scalar.select v722 c1_i32_580 c32_i32_578
  let v724 : BitVec 32 := Scalar.remsi v721 v723
  let c0_i32_582 : BitVec 32 := 0#32
  let v726 : BitVec 1 := Scalar.cmpi .slt v724 c0_i32_582
  let c0_i32_583 : BitVec 32 := 0#32
  let v727 : BitVec 1 := Scalar.cmpi .slt v723 c0_i32_583
  let v728 : BitVec 1 := Scalar.xori v726 v727
  let c0_i32_581 : BitVec 32 := 0#32
  let v725 : BitVec 1 := Scalar.cmpi .ne v724 c0_i32_581
  let v729 : BitVec 1 := Scalar.andi v728 v725
  let v730 : BitVec 32 := Scalar.addi v724 v723
  let v731 : BitVec 32 := Scalar.select v729 v730 v724
  let c1_i32_589 : BitVec 32 := 1#32
  let v732 : BitVec 32 := Scalar.muli v731 c1_i32_589
  let v733 : BitVec 32 := Scalar.addi c0_i32_590 v732
  v733.toNat
def k0_dev67 (d0 : Dev nD) : Nat :=
  let c0_i32_608 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_595 : BitVec 32 := 4#32
  let v742 : BitVec 32 := Scalar.addi v2 c4_i32_595
  let c32_i32_596 : BitVec 32 := 32#32
  let c0_i32_597 : BitVec 32 := 0#32
  let v743 : BitVec 1 := Scalar.cmpi .eq c32_i32_596 c0_i32_597
  let c1_i32_598 : BitVec 32 := 1#32
  let v744 : BitVec 32 := Scalar.select v743 c1_i32_598 c32_i32_596
  let v745 : BitVec 32 := Scalar.remsi v742 v744
  let c0_i32_600 : BitVec 32 := 0#32
  let v747 : BitVec 1 := Scalar.cmpi .slt v745 c0_i32_600
  let c0_i32_601 : BitVec 32 := 0#32
  let v748 : BitVec 1 := Scalar.cmpi .slt v744 c0_i32_601
  let v749 : BitVec 1 := Scalar.xori v747 v748
  let c0_i32_599 : BitVec 32 := 0#32
  let v746 : BitVec 1 := Scalar.cmpi .ne v745 c0_i32_599
  let v750 : BitVec 1 := Scalar.andi v749 v746
  let v751 : BitVec 32 := Scalar.addi v745 v744
  let v752 : BitVec 32 := Scalar.select v750 v751 v745
  let c1_i32_607 : BitVec 32 := 1#32
  let v753 : BitVec 32 := Scalar.muli v752 c1_i32_607
  let v754 : BitVec 32 := Scalar.addi c0_i32_608 v753
  v754.toNat
def k0_dev68 (d0 : Dev nD) : Nat :=
  let c0_i32_626 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_613 : BitVec 32 := 5#32
  let v763 : BitVec 32 := Scalar.addi v2 c5_i32_613
  let c32_i32_614 : BitVec 32 := 32#32
  let c0_i32_615 : BitVec 32 := 0#32
  let v764 : BitVec 1 := Scalar.cmpi .eq c32_i32_614 c0_i32_615
  let c1_i32_616 : BitVec 32 := 1#32
  let v765 : BitVec 32 := Scalar.select v764 c1_i32_616 c32_i32_614
  let v766 : BitVec 32 := Scalar.remsi v763 v765
  let c0_i32_618 : BitVec 32 := 0#32
  let v768 : BitVec 1 := Scalar.cmpi .slt v766 c0_i32_618
  let c0_i32_619 : BitVec 32 := 0#32
  let v769 : BitVec 1 := Scalar.cmpi .slt v765 c0_i32_619
  let v770 : BitVec 1 := Scalar.xori v768 v769
  let c0_i32_617 : BitVec 32 := 0#32
  let v767 : BitVec 1 := Scalar.cmpi .ne v766 c0_i32_617
  let v771 : BitVec 1 := Scalar.andi v770 v767
  let v772 : BitVec 32 := Scalar.addi v766 v765
  let v773 : BitVec 32 := Scalar.select v771 v772 v766
  let c1_i32_625 : BitVec 32 := 1#32
  let v774 : BitVec 32 := Scalar.muli v773 c1_i32_625
  let v775 : BitVec 32 := Scalar.addi c0_i32_626 v774
  v775.toNat
def k0_dev69 (d0 : Dev nD) : Nat :=
  let c0_i32_644 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_631 : BitVec 32 := 6#32
  let v784 : BitVec 32 := Scalar.addi v2 c6_i32_631
  let c32_i32_632 : BitVec 32 := 32#32
  let c0_i32_633 : BitVec 32 := 0#32
  let v785 : BitVec 1 := Scalar.cmpi .eq c32_i32_632 c0_i32_633
  let c1_i32_634 : BitVec 32 := 1#32
  let v786 : BitVec 32 := Scalar.select v785 c1_i32_634 c32_i32_632
  let v787 : BitVec 32 := Scalar.remsi v784 v786
  let c0_i32_636 : BitVec 32 := 0#32
  let v789 : BitVec 1 := Scalar.cmpi .slt v787 c0_i32_636
  let c0_i32_637 : BitVec 32 := 0#32
  let v790 : BitVec 1 := Scalar.cmpi .slt v786 c0_i32_637
  let v791 : BitVec 1 := Scalar.xori v789 v790
  let c0_i32_635 : BitVec 32 := 0#32
  let v788 : BitVec 1 := Scalar.cmpi .ne v787 c0_i32_635
  let v792 : BitVec 1 := Scalar.andi v791 v788
  let v793 : BitVec 32 := Scalar.addi v787 v786
  let v794 : BitVec 32 := Scalar.select v792 v793 v787
  let c1_i32_643 : BitVec 32 := 1#32
  let v795 : BitVec 32 := Scalar.muli v794 c1_i32_643
  let v796 : BitVec 32 := Scalar.addi c0_i32_644 v795
  v796.toNat
def k0_dev70 (d0 : Dev nD) : Nat :=
  let c0_i32_662 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_649 : BitVec 32 := 7#32
  let v805 : BitVec 32 := Scalar.addi v2 c7_i32_649
  let c32_i32_650 : BitVec 32 := 32#32
  let c0_i32_651 : BitVec 32 := 0#32
  let v806 : BitVec 1 := Scalar.cmpi .eq c32_i32_650 c0_i32_651
  let c1_i32_652 : BitVec 32 := 1#32
  let v807 : BitVec 32 := Scalar.select v806 c1_i32_652 c32_i32_650
  let v808 : BitVec 32 := Scalar.remsi v805 v807
  let c0_i32_654 : BitVec 32 := 0#32
  let v810 : BitVec 1 := Scalar.cmpi .slt v808 c0_i32_654
  let c0_i32_655 : BitVec 32 := 0#32
  let v811 : BitVec 1 := Scalar.cmpi .slt v807 c0_i32_655
  let v812 : BitVec 1 := Scalar.xori v810 v811
  let c0_i32_653 : BitVec 32 := 0#32
  let v809 : BitVec 1 := Scalar.cmpi .ne v808 c0_i32_653
  let v813 : BitVec 1 := Scalar.andi v812 v809
  let v814 : BitVec 32 := Scalar.addi v808 v807
  let v815 : BitVec 32 := Scalar.select v813 v814 v808
  let c1_i32_661 : BitVec 32 := 1#32
  let v816 : BitVec 32 := Scalar.muli v815 c1_i32_661
  let v817 : BitVec 32 := Scalar.addi c0_i32_662 v816
  v817.toNat
def k0_dev71 (d0 : Dev nD) : Nat :=
  let c0_i32_680 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_667 : BitVec 32 := 8#32
  let v826 : BitVec 32 := Scalar.addi v2 c8_i32_667
  let c32_i32_668 : BitVec 32 := 32#32
  let c0_i32_669 : BitVec 32 := 0#32
  let v827 : BitVec 1 := Scalar.cmpi .eq c32_i32_668 c0_i32_669
  let c1_i32_670 : BitVec 32 := 1#32
  let v828 : BitVec 32 := Scalar.select v827 c1_i32_670 c32_i32_668
  let v829 : BitVec 32 := Scalar.remsi v826 v828
  let c0_i32_672 : BitVec 32 := 0#32
  let v831 : BitVec 1 := Scalar.cmpi .slt v829 c0_i32_672
  let c0_i32_673 : BitVec 32 := 0#32
  let v832 : BitVec 1 := Scalar.cmpi .slt v828 c0_i32_673
  let v833 : BitVec 1 := Scalar.xori v831 v832
  let c0_i32_671 : BitVec 32 := 0#32
  let v830 : BitVec 1 := Scalar.cmpi .ne v829 c0_i32_671
  let v834 : BitVec 1 := Scalar.andi v833 v830
  let v835 : BitVec 32 := Scalar.addi v829 v828
  let v836 : BitVec 32 := Scalar.select v834 v835 v829
  let c1_i32_679 : BitVec 32 := 1#32
  let v837 : BitVec 32 := Scalar.muli v836 c1_i32_679
  let v838 : BitVec 32 := Scalar.addi c0_i32_680 v837
  v838.toNat
def k0_dev72 (d0 : Dev nD) : Nat :=
  let c0_i32_698 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_685 : BitVec 32 := 9#32
  let v847 : BitVec 32 := Scalar.addi v2 c9_i32_685
  let c32_i32_686 : BitVec 32 := 32#32
  let c0_i32_687 : BitVec 32 := 0#32
  let v848 : BitVec 1 := Scalar.cmpi .eq c32_i32_686 c0_i32_687
  let c1_i32_688 : BitVec 32 := 1#32
  let v849 : BitVec 32 := Scalar.select v848 c1_i32_688 c32_i32_686
  let v850 : BitVec 32 := Scalar.remsi v847 v849
  let c0_i32_690 : BitVec 32 := 0#32
  let v852 : BitVec 1 := Scalar.cmpi .slt v850 c0_i32_690
  let c0_i32_691 : BitVec 32 := 0#32
  let v853 : BitVec 1 := Scalar.cmpi .slt v849 c0_i32_691
  let v854 : BitVec 1 := Scalar.xori v852 v853
  let c0_i32_689 : BitVec 32 := 0#32
  let v851 : BitVec 1 := Scalar.cmpi .ne v850 c0_i32_689
  let v855 : BitVec 1 := Scalar.andi v854 v851
  let v856 : BitVec 32 := Scalar.addi v850 v849
  let v857 : BitVec 32 := Scalar.select v855 v856 v850
  let c1_i32_697 : BitVec 32 := 1#32
  let v858 : BitVec 32 := Scalar.muli v857 c1_i32_697
  let v859 : BitVec 32 := Scalar.addi c0_i32_698 v858
  v859.toNat
def k0_dev73 (d0 : Dev nD) : Nat :=
  let c0_i32_716 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_703 : BitVec 32 := 10#32
  let v868 : BitVec 32 := Scalar.addi v2 c10_i32_703
  let c32_i32_704 : BitVec 32 := 32#32
  let c0_i32_705 : BitVec 32 := 0#32
  let v869 : BitVec 1 := Scalar.cmpi .eq c32_i32_704 c0_i32_705
  let c1_i32_706 : BitVec 32 := 1#32
  let v870 : BitVec 32 := Scalar.select v869 c1_i32_706 c32_i32_704
  let v871 : BitVec 32 := Scalar.remsi v868 v870
  let c0_i32_708 : BitVec 32 := 0#32
  let v873 : BitVec 1 := Scalar.cmpi .slt v871 c0_i32_708
  let c0_i32_709 : BitVec 32 := 0#32
  let v874 : BitVec 1 := Scalar.cmpi .slt v870 c0_i32_709
  let v875 : BitVec 1 := Scalar.xori v873 v874
  let c0_i32_707 : BitVec 32 := 0#32
  let v872 : BitVec 1 := Scalar.cmpi .ne v871 c0_i32_707
  let v876 : BitVec 1 := Scalar.andi v875 v872
  let v877 : BitVec 32 := Scalar.addi v871 v870
  let v878 : BitVec 32 := Scalar.select v876 v877 v871
  let c1_i32_715 : BitVec 32 := 1#32
  let v879 : BitVec 32 := Scalar.muli v878 c1_i32_715
  let v880 : BitVec 32 := Scalar.addi c0_i32_716 v879
  v880.toNat
def k0_dev74 (d0 : Dev nD) : Nat :=
  let c0_i32_734 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_721 : BitVec 32 := 11#32
  let v889 : BitVec 32 := Scalar.addi v2 c11_i32_721
  let c32_i32_722 : BitVec 32 := 32#32
  let c0_i32_723 : BitVec 32 := 0#32
  let v890 : BitVec 1 := Scalar.cmpi .eq c32_i32_722 c0_i32_723
  let c1_i32_724 : BitVec 32 := 1#32
  let v891 : BitVec 32 := Scalar.select v890 c1_i32_724 c32_i32_722
  let v892 : BitVec 32 := Scalar.remsi v889 v891
  let c0_i32_726 : BitVec 32 := 0#32
  let v894 : BitVec 1 := Scalar.cmpi .slt v892 c0_i32_726
  let c0_i32_727 : BitVec 32 := 0#32
  let v895 : BitVec 1 := Scalar.cmpi .slt v891 c0_i32_727
  let v896 : BitVec 1 := Scalar.xori v894 v895
  let c0_i32_725 : BitVec 32 := 0#32
  let v893 : BitVec 1 := Scalar.cmpi .ne v892 c0_i32_725
  let v897 : BitVec 1 := Scalar.andi v896 v893
  let v898 : BitVec 32 := Scalar.addi v892 v891
  let v899 : BitVec 32 := Scalar.select v897 v898 v892
  let c1_i32_733 : BitVec 32 := 1#32
  let v900 : BitVec 32 := Scalar.muli v899 c1_i32_733
  let v901 : BitVec 32 := Scalar.addi c0_i32_734 v900
  v901.toNat
def k0_dev75 (d0 : Dev nD) : Nat :=
  let c0_i32_752 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_739 : BitVec 32 := 12#32
  let v910 : BitVec 32 := Scalar.addi v2 c12_i32_739
  let c32_i32_740 : BitVec 32 := 32#32
  let c0_i32_741 : BitVec 32 := 0#32
  let v911 : BitVec 1 := Scalar.cmpi .eq c32_i32_740 c0_i32_741
  let c1_i32_742 : BitVec 32 := 1#32
  let v912 : BitVec 32 := Scalar.select v911 c1_i32_742 c32_i32_740
  let v913 : BitVec 32 := Scalar.remsi v910 v912
  let c0_i32_744 : BitVec 32 := 0#32
  let v915 : BitVec 1 := Scalar.cmpi .slt v913 c0_i32_744
  let c0_i32_745 : BitVec 32 := 0#32
  let v916 : BitVec 1 := Scalar.cmpi .slt v912 c0_i32_745
  let v917 : BitVec 1 := Scalar.xori v915 v916
  let c0_i32_743 : BitVec 32 := 0#32
  let v914 : BitVec 1 := Scalar.cmpi .ne v913 c0_i32_743
  let v918 : BitVec 1 := Scalar.andi v917 v914
  let v919 : BitVec 32 := Scalar.addi v913 v912
  let v920 : BitVec 32 := Scalar.select v918 v919 v913
  let c1_i32_751 : BitVec 32 := 1#32
  let v921 : BitVec 32 := Scalar.muli v920 c1_i32_751
  let v922 : BitVec 32 := Scalar.addi c0_i32_752 v921
  v922.toNat
def k0_dev76 (d0 : Dev nD) : Nat :=
  let c0_i32_770 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_757 : BitVec 32 := 13#32
  let v931 : BitVec 32 := Scalar.addi v2 c13_i32_757
  let c32_i32_758 : BitVec 32 := 32#32
  let c0_i32_759 : BitVec 32 := 0#32
  let v932 : BitVec 1 := Scalar.cmpi .eq c32_i32_758 c0_i32_759
  let c1_i32_760 : BitVec 32 := 1#32
  let v933 : BitVec 32 := Scalar.select v932 c1_i32_760 c32_i32_758
  let v934 : BitVec 32 := Scalar.remsi v931 v933
  let c0_i32_762 : BitVec 32 := 0#32
  let v936 : BitVec 1 := Scalar.cmpi .slt v934 c0_i32_762
  let c0_i32_763 : BitVec 32 := 0#32
  let v937 : BitVec 1 := Scalar.cmpi .slt v933 c0_i32_763
  let v938 : BitVec 1 := Scalar.xori v936 v937
  let c0_i32_761 : BitVec 32 := 0#32
  let v935 : BitVec 1 := Scalar.cmpi .ne v934 c0_i32_761
  let v939 : BitVec 1 := Scalar.andi v938 v935
  let v940 : BitVec 32 := Scalar.addi v934 v933
  let v941 : BitVec 32 := Scalar.select v939 v940 v934
  let c1_i32_769 : BitVec 32 := 1#32
  let v942 : BitVec 32 := Scalar.muli v941 c1_i32_769
  let v943 : BitVec 32 := Scalar.addi c0_i32_770 v942
  v943.toNat
def k0_dev77 (d0 : Dev nD) : Nat :=
  let c0_i32_788 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_775 : BitVec 32 := 14#32
  let v952 : BitVec 32 := Scalar.addi v2 c14_i32_775
  let c32_i32_776 : BitVec 32 := 32#32
  let c0_i32_777 : BitVec 32 := 0#32
  let v953 : BitVec 1 := Scalar.cmpi .eq c32_i32_776 c0_i32_777
  let c1_i32_778 : BitVec 32 := 1#32
  let v954 : BitVec 32 := Scalar.select v953 c1_i32_778 c32_i32_776
  let v955 : BitVec 32 := Scalar.remsi v952 v954
  let c0_i32_780 : BitVec 32 := 0#32
  let v957 : BitVec 1 := Scalar.cmpi .slt v955 c0_i32_780
  let c0_i32_781 : BitVec 32 := 0#32
  let v958 : BitVec 1 := Scalar.cmpi .slt v954 c0_i32_781
  let v959 : BitVec 1 := Scalar.xori v957 v958
  let c0_i32_779 : BitVec 32 := 0#32
  let v956 : BitVec 1 := Scalar.cmpi .ne v955 c0_i32_779
  let v960 : BitVec 1 := Scalar.andi v959 v956
  let v961 : BitVec 32 := Scalar.addi v955 v954
  let v962 : BitVec 32 := Scalar.select v960 v961 v955
  let c1_i32_787 : BitVec 32 := 1#32
  let v963 : BitVec 32 := Scalar.muli v962 c1_i32_787
  let v964 : BitVec 32 := Scalar.addi c0_i32_788 v963
  v964.toNat
def k0_dev78 (d0 : Dev nD) : Nat :=
  let c0_i32_806 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_793 : BitVec 32 := 15#32
  let v973 : BitVec 32 := Scalar.addi v2 c15_i32_793
  let c32_i32_794 : BitVec 32 := 32#32
  let c0_i32_795 : BitVec 32 := 0#32
  let v974 : BitVec 1 := Scalar.cmpi .eq c32_i32_794 c0_i32_795
  let c1_i32_796 : BitVec 32 := 1#32
  let v975 : BitVec 32 := Scalar.select v974 c1_i32_796 c32_i32_794
  let v976 : BitVec 32 := Scalar.remsi v973 v975
  let c0_i32_798 : BitVec 32 := 0#32
  let v978 : BitVec 1 := Scalar.cmpi .slt v976 c0_i32_798
  let c0_i32_799 : BitVec 32 := 0#32
  let v979 : BitVec 1 := Scalar.cmpi .slt v975 c0_i32_799
  let v980 : BitVec 1 := Scalar.xori v978 v979
  let c0_i32_797 : BitVec 32 := 0#32
  let v977 : BitVec 1 := Scalar.cmpi .ne v976 c0_i32_797
  let v981 : BitVec 1 := Scalar.andi v980 v977
  let v982 : BitVec 32 := Scalar.addi v976 v975
  let v983 : BitVec 32 := Scalar.select v981 v982 v976
  let c1_i32_805 : BitVec 32 := 1#32
  let v984 : BitVec 32 := Scalar.muli v983 c1_i32_805
  let v985 : BitVec 32 := Scalar.addi c0_i32_806 v984
  v985.toNat
def k0_dev79 (d0 : Dev nD) : Nat :=
  let c0_i32_824 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_811 : BitVec 32 := 16#32
  let v994 : BitVec 32 := Scalar.addi v2 c16_i32_811
  let c32_i32_812 : BitVec 32 := 32#32
  let c0_i32_813 : BitVec 32 := 0#32
  let v995 : BitVec 1 := Scalar.cmpi .eq c32_i32_812 c0_i32_813
  let c1_i32_814 : BitVec 32 := 1#32
  let v996 : BitVec 32 := Scalar.select v995 c1_i32_814 c32_i32_812
  let v997 : BitVec 32 := Scalar.remsi v994 v996
  let c0_i32_816 : BitVec 32 := 0#32
  let v999 : BitVec 1 := Scalar.cmpi .slt v997 c0_i32_816
  let c0_i32_817 : BitVec 32 := 0#32
  let v1000 : BitVec 1 := Scalar.cmpi .slt v996 c0_i32_817
  let v1001 : BitVec 1 := Scalar.xori v999 v1000
  let c0_i32_815 : BitVec 32 := 0#32
  let v998 : BitVec 1 := Scalar.cmpi .ne v997 c0_i32_815
  let v1002 : BitVec 1 := Scalar.andi v1001 v998
  let v1003 : BitVec 32 := Scalar.addi v997 v996
  let v1004 : BitVec 32 := Scalar.select v1002 v1003 v997
  let c1_i32_823 : BitVec 32 := 1#32
  let v1005 : BitVec 32 := Scalar.muli v1004 c1_i32_823
  let v1006 : BitVec 32 := Scalar.addi c0_i32_824 v1005
  v1006.toNat
def k0_dev80 (d0 : Dev nD) : Nat :=
  let c0_i32_842 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_829 : BitVec 32 := 17#32
  let v1015 : BitVec 32 := Scalar.addi v2 c17_i32_829
  let c32_i32_830 : BitVec 32 := 32#32
  let c0_i32_831 : BitVec 32 := 0#32
  let v1016 : BitVec 1 := Scalar.cmpi .eq c32_i32_830 c0_i32_831
  let c1_i32_832 : BitVec 32 := 1#32
  let v1017 : BitVec 32 := Scalar.select v1016 c1_i32_832 c32_i32_830
  let v1018 : BitVec 32 := Scalar.remsi v1015 v1017
  let c0_i32_834 : BitVec 32 := 0#32
  let v1020 : BitVec 1 := Scalar.cmpi .slt v1018 c0_i32_834
  let c0_i32_835 : BitVec 32 := 0#32
  let v1021 : BitVec 1 := Scalar.cmpi .slt v1017 c0_i32_835
  let v1022 : BitVec 1 := Scalar.xori v1020 v1021
  let c0_i32_833 : BitVec 32 := 0#32
  let v1019 : BitVec 1 := Scalar.cmpi .ne v1018 c0_i32_833
  let v1023 : BitVec 1 := Scalar.andi v1022 v1019
  let v1024 : BitVec 32 := Scalar.addi v1018 v1017
  let v1025 : BitVec 32 := Scalar.select v1023 v1024 v1018
  let c1_i32_841 : BitVec 32 := 1#32
  let v1026 : BitVec 32 := Scalar.muli v1025 c1_i32_841
  let v1027 : BitVec 32 := Scalar.addi c0_i32_842 v1026
  v1027.toNat
def k0_dev81 (d0 : Dev nD) : Nat :=
  let c0_i32_860 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_847 : BitVec 32 := 18#32
  let v1036 : BitVec 32 := Scalar.addi v2 c18_i32_847
  let c32_i32_848 : BitVec 32 := 32#32
  let c0_i32_849 : BitVec 32 := 0#32
  let v1037 : BitVec 1 := Scalar.cmpi .eq c32_i32_848 c0_i32_849
  let c1_i32_850 : BitVec 32 := 1#32
  let v1038 : BitVec 32 := Scalar.select v1037 c1_i32_850 c32_i32_848
  let v1039 : BitVec 32 := Scalar.remsi v1036 v1038
  let c0_i32_852 : BitVec 32 := 0#32
  let v1041 : BitVec 1 := Scalar.cmpi .slt v1039 c0_i32_852
  let c0_i32_853 : BitVec 32 := 0#32
  let v1042 : BitVec 1 := Scalar.cmpi .slt v1038 c0_i32_853
  let v1043 : BitVec 1 := Scalar.xori v1041 v1042
  let c0_i32_851 : BitVec 32 := 0#32
  let v1040 : BitVec 1 := Scalar.cmpi .ne v1039 c0_i32_851
  let v1044 : BitVec 1 := Scalar.andi v1043 v1040
  let v1045 : BitVec 32 := Scalar.addi v1039 v1038
  let v1046 : BitVec 32 := Scalar.select v1044 v1045 v1039
  let c1_i32_859 : BitVec 32 := 1#32
  let v1047 : BitVec 32 := Scalar.muli v1046 c1_i32_859
  let v1048 : BitVec 32 := Scalar.addi c0_i32_860 v1047
  v1048.toNat
def k0_dev82 (d0 : Dev nD) : Nat :=
  let c0_i32_878 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_865 : BitVec 32 := 19#32
  let v1057 : BitVec 32 := Scalar.addi v2 c19_i32_865
  let c32_i32_866 : BitVec 32 := 32#32
  let c0_i32_867 : BitVec 32 := 0#32
  let v1058 : BitVec 1 := Scalar.cmpi .eq c32_i32_866 c0_i32_867
  let c1_i32_868 : BitVec 32 := 1#32
  let v1059 : BitVec 32 := Scalar.select v1058 c1_i32_868 c32_i32_866
  let v1060 : BitVec 32 := Scalar.remsi v1057 v1059
  let c0_i32_870 : BitVec 32 := 0#32
  let v1062 : BitVec 1 := Scalar.cmpi .slt v1060 c0_i32_870
  let c0_i32_871 : BitVec 32 := 0#32
  let v1063 : BitVec 1 := Scalar.cmpi .slt v1059 c0_i32_871
  let v1064 : BitVec 1 := Scalar.xori v1062 v1063
  let c0_i32_869 : BitVec 32 := 0#32
  let v1061 : BitVec 1 := Scalar.cmpi .ne v1060 c0_i32_869
  let v1065 : BitVec 1 := Scalar.andi v1064 v1061
  let v1066 : BitVec 32 := Scalar.addi v1060 v1059
  let v1067 : BitVec 32 := Scalar.select v1065 v1066 v1060
  let c1_i32_877 : BitVec 32 := 1#32
  let v1068 : BitVec 32 := Scalar.muli v1067 c1_i32_877
  let v1069 : BitVec 32 := Scalar.addi c0_i32_878 v1068
  v1069.toNat
def k0_dev83 (d0 : Dev nD) : Nat :=
  let c0_i32_896 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_883 : BitVec 32 := 20#32
  let v1078 : BitVec 32 := Scalar.addi v2 c20_i32_883
  let c32_i32_884 : BitVec 32 := 32#32
  let c0_i32_885 : BitVec 32 := 0#32
  let v1079 : BitVec 1 := Scalar.cmpi .eq c32_i32_884 c0_i32_885
  let c1_i32_886 : BitVec 32 := 1#32
  let v1080 : BitVec 32 := Scalar.select v1079 c1_i32_886 c32_i32_884
  let v1081 : BitVec 32 := Scalar.remsi v1078 v1080
  let c0_i32_888 : BitVec 32 := 0#32
  let v1083 : BitVec 1 := Scalar.cmpi .slt v1081 c0_i32_888
  let c0_i32_889 : BitVec 32 := 0#32
  let v1084 : BitVec 1 := Scalar.cmpi .slt v1080 c0_i32_889
  let v1085 : BitVec 1 := Scalar.xori v1083 v1084
  let c0_i32_887 : BitVec 32 := 0#32
  let v1082 : BitVec 1 := Scalar.cmpi .ne v1081 c0_i32_887
  let v1086 : BitVec 1 := Scalar.andi v1085 v1082
  let v1087 : BitVec 32 := Scalar.addi v1081 v1080
  let v1088 : BitVec 32 := Scalar.select v1086 v1087 v1081
  let c1_i32_895 : BitVec 32 := 1#32
  let v1089 : BitVec 32 := Scalar.muli v1088 c1_i32_895
  let v1090 : BitVec 32 := Scalar.addi c0_i32_896 v1089
  v1090.toNat
def k0_dev84 (d0 : Dev nD) : Nat :=
  let c0_i32_914 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_901 : BitVec 32 := 21#32
  let v1099 : BitVec 32 := Scalar.addi v2 c21_i32_901
  let c32_i32_902 : BitVec 32 := 32#32
  let c0_i32_903 : BitVec 32 := 0#32
  let v1100 : BitVec 1 := Scalar.cmpi .eq c32_i32_902 c0_i32_903
  let c1_i32_904 : BitVec 32 := 1#32
  let v1101 : BitVec 32 := Scalar.select v1100 c1_i32_904 c32_i32_902
  let v1102 : BitVec 32 := Scalar.remsi v1099 v1101
  let c0_i32_906 : BitVec 32 := 0#32
  let v1104 : BitVec 1 := Scalar.cmpi .slt v1102 c0_i32_906
  let c0_i32_907 : BitVec 32 := 0#32
  let v1105 : BitVec 1 := Scalar.cmpi .slt v1101 c0_i32_907
  let v1106 : BitVec 1 := Scalar.xori v1104 v1105
  let c0_i32_905 : BitVec 32 := 0#32
  let v1103 : BitVec 1 := Scalar.cmpi .ne v1102 c0_i32_905
  let v1107 : BitVec 1 := Scalar.andi v1106 v1103
  let v1108 : BitVec 32 := Scalar.addi v1102 v1101
  let v1109 : BitVec 32 := Scalar.select v1107 v1108 v1102
  let c1_i32_913 : BitVec 32 := 1#32
  let v1110 : BitVec 32 := Scalar.muli v1109 c1_i32_913
  let v1111 : BitVec 32 := Scalar.addi c0_i32_914 v1110
  v1111.toNat
def k0_dev85 (d0 : Dev nD) : Nat :=
  let c0_i32_932 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_919 : BitVec 32 := 22#32
  let v1120 : BitVec 32 := Scalar.addi v2 c22_i32_919
  let c32_i32_920 : BitVec 32 := 32#32
  let c0_i32_921 : BitVec 32 := 0#32
  let v1121 : BitVec 1 := Scalar.cmpi .eq c32_i32_920 c0_i32_921
  let c1_i32_922 : BitVec 32 := 1#32
  let v1122 : BitVec 32 := Scalar.select v1121 c1_i32_922 c32_i32_920
  let v1123 : BitVec 32 := Scalar.remsi v1120 v1122
  let c0_i32_924 : BitVec 32 := 0#32
  let v1125 : BitVec 1 := Scalar.cmpi .slt v1123 c0_i32_924
  let c0_i32_925 : BitVec 32 := 0#32
  let v1126 : BitVec 1 := Scalar.cmpi .slt v1122 c0_i32_925
  let v1127 : BitVec 1 := Scalar.xori v1125 v1126
  let c0_i32_923 : BitVec 32 := 0#32
  let v1124 : BitVec 1 := Scalar.cmpi .ne v1123 c0_i32_923
  let v1128 : BitVec 1 := Scalar.andi v1127 v1124
  let v1129 : BitVec 32 := Scalar.addi v1123 v1122
  let v1130 : BitVec 32 := Scalar.select v1128 v1129 v1123
  let c1_i32_931 : BitVec 32 := 1#32
  let v1131 : BitVec 32 := Scalar.muli v1130 c1_i32_931
  let v1132 : BitVec 32 := Scalar.addi c0_i32_932 v1131
  v1132.toNat
def k0_dev86 (d0 : Dev nD) : Nat :=
  let c0_i32_950 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_937 : BitVec 32 := 23#32
  let v1141 : BitVec 32 := Scalar.addi v2 c23_i32_937
  let c32_i32_938 : BitVec 32 := 32#32
  let c0_i32_939 : BitVec 32 := 0#32
  let v1142 : BitVec 1 := Scalar.cmpi .eq c32_i32_938 c0_i32_939
  let c1_i32_940 : BitVec 32 := 1#32
  let v1143 : BitVec 32 := Scalar.select v1142 c1_i32_940 c32_i32_938
  let v1144 : BitVec 32 := Scalar.remsi v1141 v1143
  let c0_i32_942 : BitVec 32 := 0#32
  let v1146 : BitVec 1 := Scalar.cmpi .slt v1144 c0_i32_942
  let c0_i32_943 : BitVec 32 := 0#32
  let v1147 : BitVec 1 := Scalar.cmpi .slt v1143 c0_i32_943
  let v1148 : BitVec 1 := Scalar.xori v1146 v1147
  let c0_i32_941 : BitVec 32 := 0#32
  let v1145 : BitVec 1 := Scalar.cmpi .ne v1144 c0_i32_941
  let v1149 : BitVec 1 := Scalar.andi v1148 v1145
  let v1150 : BitVec 32 := Scalar.addi v1144 v1143
  let v1151 : BitVec 32 := Scalar.select v1149 v1150 v1144
  let c1_i32_949 : BitVec 32 := 1#32
  let v1152 : BitVec 32 := Scalar.muli v1151 c1_i32_949
  let v1153 : BitVec 32 := Scalar.addi c0_i32_950 v1152
  v1153.toNat
def k0_dev87 (d0 : Dev nD) : Nat :=
  let c0_i32_968 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_955 : BitVec 32 := 24#32
  let v1162 : BitVec 32 := Scalar.addi v2 c24_i32_955
  let c32_i32_956 : BitVec 32 := 32#32
  let c0_i32_957 : BitVec 32 := 0#32
  let v1163 : BitVec 1 := Scalar.cmpi .eq c32_i32_956 c0_i32_957
  let c1_i32_958 : BitVec 32 := 1#32
  let v1164 : BitVec 32 := Scalar.select v1163 c1_i32_958 c32_i32_956
  let v1165 : BitVec 32 := Scalar.remsi v1162 v1164
  let c0_i32_960 : BitVec 32 := 0#32
  let v1167 : BitVec 1 := Scalar.cmpi .slt v1165 c0_i32_960
  let c0_i32_961 : BitVec 32 := 0#32
  let v1168 : BitVec 1 := Scalar.cmpi .slt v1164 c0_i32_961
  let v1169 : BitVec 1 := Scalar.xori v1167 v1168
  let c0_i32_959 : BitVec 32 := 0#32
  let v1166 : BitVec 1 := Scalar.cmpi .ne v1165 c0_i32_959
  let v1170 : BitVec 1 := Scalar.andi v1169 v1166
  let v1171 : BitVec 32 := Scalar.addi v1165 v1164
  let v1172 : BitVec 32 := Scalar.select v1170 v1171 v1165
  let c1_i32_967 : BitVec 32 := 1#32
  let v1173 : BitVec 32 := Scalar.muli v1172 c1_i32_967
  let v1174 : BitVec 32 := Scalar.addi c0_i32_968 v1173
  v1174.toNat
def k0_dev88 (d0 : Dev nD) : Nat :=
  let c0_i32_986 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_973 : BitVec 32 := 25#32
  let v1183 : BitVec 32 := Scalar.addi v2 c25_i32_973
  let c32_i32_974 : BitVec 32 := 32#32
  let c0_i32_975 : BitVec 32 := 0#32
  let v1184 : BitVec 1 := Scalar.cmpi .eq c32_i32_974 c0_i32_975
  let c1_i32_976 : BitVec 32 := 1#32
  let v1185 : BitVec 32 := Scalar.select v1184 c1_i32_976 c32_i32_974
  let v1186 : BitVec 32 := Scalar.remsi v1183 v1185
  let c0_i32_978 : BitVec 32 := 0#32
  let v1188 : BitVec 1 := Scalar.cmpi .slt v1186 c0_i32_978
  let c0_i32_979 : BitVec 32 := 0#32
  let v1189 : BitVec 1 := Scalar.cmpi .slt v1185 c0_i32_979
  let v1190 : BitVec 1 := Scalar.xori v1188 v1189
  let c0_i32_977 : BitVec 32 := 0#32
  let v1187 : BitVec 1 := Scalar.cmpi .ne v1186 c0_i32_977
  let v1191 : BitVec 1 := Scalar.andi v1190 v1187
  let v1192 : BitVec 32 := Scalar.addi v1186 v1185
  let v1193 : BitVec 32 := Scalar.select v1191 v1192 v1186
  let c1_i32_985 : BitVec 32 := 1#32
  let v1194 : BitVec 32 := Scalar.muli v1193 c1_i32_985
  let v1195 : BitVec 32 := Scalar.addi c0_i32_986 v1194
  v1195.toNat
def k0_dev89 (d0 : Dev nD) : Nat :=
  let c0_i32_1004 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_991 : BitVec 32 := 26#32
  let v1204 : BitVec 32 := Scalar.addi v2 c26_i32_991
  let c32_i32_992 : BitVec 32 := 32#32
  let c0_i32_993 : BitVec 32 := 0#32
  let v1205 : BitVec 1 := Scalar.cmpi .eq c32_i32_992 c0_i32_993
  let c1_i32_994 : BitVec 32 := 1#32
  let v1206 : BitVec 32 := Scalar.select v1205 c1_i32_994 c32_i32_992
  let v1207 : BitVec 32 := Scalar.remsi v1204 v1206
  let c0_i32_996 : BitVec 32 := 0#32
  let v1209 : BitVec 1 := Scalar.cmpi .slt v1207 c0_i32_996
  let c0_i32_997 : BitVec 32 := 0#32
  let v1210 : BitVec 1 := Scalar.cmpi .slt v1206 c0_i32_997
  let v1211 : BitVec 1 := Scalar.xori v1209 v1210
  let c0_i32_995 : BitVec 32 := 0#32
  let v1208 : BitVec 1 := Scalar.cmpi .ne v1207 c0_i32_995
  let v1212 : BitVec 1 := Scalar.andi v1211 v1208
  let v1213 : BitVec 32 := Scalar.addi v1207 v1206
  let v1214 : BitVec 32 := Scalar.select v1212 v1213 v1207
  let c1_i32_1003 : BitVec 32 := 1#32
  let v1215 : BitVec 32 := Scalar.muli v1214 c1_i32_1003
  let v1216 : BitVec 32 := Scalar.addi c0_i32_1004 v1215
  v1216.toNat
def k0_dev90 (d0 : Dev nD) : Nat :=
  let c0_i32_1022 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1009 : BitVec 32 := 27#32
  let v1225 : BitVec 32 := Scalar.addi v2 c27_i32_1009
  let c32_i32_1010 : BitVec 32 := 32#32
  let c0_i32_1011 : BitVec 32 := 0#32
  let v1226 : BitVec 1 := Scalar.cmpi .eq c32_i32_1010 c0_i32_1011
  let c1_i32_1012 : BitVec 32 := 1#32
  let v1227 : BitVec 32 := Scalar.select v1226 c1_i32_1012 c32_i32_1010
  let v1228 : BitVec 32 := Scalar.remsi v1225 v1227
  let c0_i32_1014 : BitVec 32 := 0#32
  let v1230 : BitVec 1 := Scalar.cmpi .slt v1228 c0_i32_1014
  let c0_i32_1015 : BitVec 32 := 0#32
  let v1231 : BitVec 1 := Scalar.cmpi .slt v1227 c0_i32_1015
  let v1232 : BitVec 1 := Scalar.xori v1230 v1231
  let c0_i32_1013 : BitVec 32 := 0#32
  let v1229 : BitVec 1 := Scalar.cmpi .ne v1228 c0_i32_1013
  let v1233 : BitVec 1 := Scalar.andi v1232 v1229
  let v1234 : BitVec 32 := Scalar.addi v1228 v1227
  let v1235 : BitVec 32 := Scalar.select v1233 v1234 v1228
  let c1_i32_1021 : BitVec 32 := 1#32
  let v1236 : BitVec 32 := Scalar.muli v1235 c1_i32_1021
  let v1237 : BitVec 32 := Scalar.addi c0_i32_1022 v1236
  v1237.toNat
def k0_dev91 (d0 : Dev nD) : Nat :=
  let c0_i32_1040 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1027 : BitVec 32 := 28#32
  let v1246 : BitVec 32 := Scalar.addi v2 c28_i32_1027
  let c32_i32_1028 : BitVec 32 := 32#32
  let c0_i32_1029 : BitVec 32 := 0#32
  let v1247 : BitVec 1 := Scalar.cmpi .eq c32_i32_1028 c0_i32_1029
  let c1_i32_1030 : BitVec 32 := 1#32
  let v1248 : BitVec 32 := Scalar.select v1247 c1_i32_1030 c32_i32_1028
  let v1249 : BitVec 32 := Scalar.remsi v1246 v1248
  let c0_i32_1032 : BitVec 32 := 0#32
  let v1251 : BitVec 1 := Scalar.cmpi .slt v1249 c0_i32_1032
  let c0_i32_1033 : BitVec 32 := 0#32
  let v1252 : BitVec 1 := Scalar.cmpi .slt v1248 c0_i32_1033
  let v1253 : BitVec 1 := Scalar.xori v1251 v1252
  let c0_i32_1031 : BitVec 32 := 0#32
  let v1250 : BitVec 1 := Scalar.cmpi .ne v1249 c0_i32_1031
  let v1254 : BitVec 1 := Scalar.andi v1253 v1250
  let v1255 : BitVec 32 := Scalar.addi v1249 v1248
  let v1256 : BitVec 32 := Scalar.select v1254 v1255 v1249
  let c1_i32_1039 : BitVec 32 := 1#32
  let v1257 : BitVec 32 := Scalar.muli v1256 c1_i32_1039
  let v1258 : BitVec 32 := Scalar.addi c0_i32_1040 v1257
  v1258.toNat
def k0_dev92 (d0 : Dev nD) : Nat :=
  let c0_i32_1058 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1045 : BitVec 32 := 29#32
  let v1267 : BitVec 32 := Scalar.addi v2 c29_i32_1045
  let c32_i32_1046 : BitVec 32 := 32#32
  let c0_i32_1047 : BitVec 32 := 0#32
  let v1268 : BitVec 1 := Scalar.cmpi .eq c32_i32_1046 c0_i32_1047
  let c1_i32_1048 : BitVec 32 := 1#32
  let v1269 : BitVec 32 := Scalar.select v1268 c1_i32_1048 c32_i32_1046
  let v1270 : BitVec 32 := Scalar.remsi v1267 v1269
  let c0_i32_1050 : BitVec 32 := 0#32
  let v1272 : BitVec 1 := Scalar.cmpi .slt v1270 c0_i32_1050
  let c0_i32_1051 : BitVec 32 := 0#32
  let v1273 : BitVec 1 := Scalar.cmpi .slt v1269 c0_i32_1051
  let v1274 : BitVec 1 := Scalar.xori v1272 v1273
  let c0_i32_1049 : BitVec 32 := 0#32
  let v1271 : BitVec 1 := Scalar.cmpi .ne v1270 c0_i32_1049
  let v1275 : BitVec 1 := Scalar.andi v1274 v1271
  let v1276 : BitVec 32 := Scalar.addi v1270 v1269
  let v1277 : BitVec 32 := Scalar.select v1275 v1276 v1270
  let c1_i32_1057 : BitVec 32 := 1#32
  let v1278 : BitVec 32 := Scalar.muli v1277 c1_i32_1057
  let v1279 : BitVec 32 := Scalar.addi c0_i32_1058 v1278
  v1279.toNat
def k0_dev93 (d0 : Dev nD) : Nat :=
  let c0_i32_1076 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1063 : BitVec 32 := 30#32
  let v1288 : BitVec 32 := Scalar.addi v2 c30_i32_1063
  let c32_i32_1064 : BitVec 32 := 32#32
  let c0_i32_1065 : BitVec 32 := 0#32
  let v1289 : BitVec 1 := Scalar.cmpi .eq c32_i32_1064 c0_i32_1065
  let c1_i32_1066 : BitVec 32 := 1#32
  let v1290 : BitVec 32 := Scalar.select v1289 c1_i32_1066 c32_i32_1064
  let v1291 : BitVec 32 := Scalar.remsi v1288 v1290
  let c0_i32_1068 : BitVec 32 := 0#32
  let v1293 : BitVec 1 := Scalar.cmpi .slt v1291 c0_i32_1068
  let c0_i32_1069 : BitVec 32 := 0#32
  let v1294 : BitVec 1 := Scalar.cmpi .slt v1290 c0_i32_1069
  let v1295 : BitVec 1 := Scalar.xori v1293 v1294
  let c0_i32_1067 : BitVec 32 := 0#32
  let v1292 : BitVec 1 := Scalar.cmpi .ne v1291 c0_i32_1067
  let v1296 : BitVec 1 := Scalar.andi v1295 v1292
  let v1297 : BitVec 32 := Scalar.addi v1291 v1290
  let v1298 : BitVec 32 := Scalar.select v1296 v1297 v1291
  let c1_i32_1075 : BitVec 32 := 1#32
  let v1299 : BitVec 32 := Scalar.muli v1298 c1_i32_1075
  let v1300 : BitVec 32 := Scalar.addi c0_i32_1076 v1299
  v1300.toNat
def k0_dev94 (d0 : Dev nD) : Nat :=
  let c0_i32_1094 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1081 : BitVec 32 := 31#32
  let v1309 : BitVec 32 := Scalar.addi v2 c31_i32_1081
  let c32_i32_1082 : BitVec 32 := 32#32
  let c0_i32_1083 : BitVec 32 := 0#32
  let v1310 : BitVec 1 := Scalar.cmpi .eq c32_i32_1082 c0_i32_1083
  let c1_i32_1084 : BitVec 32 := 1#32
  let v1311 : BitVec 32 := Scalar.select v1310 c1_i32_1084 c32_i32_1082
  let v1312 : BitVec 32 := Scalar.remsi v1309 v1311
  let c0_i32_1086 : BitVec 32 := 0#32
  let v1314 : BitVec 1 := Scalar.cmpi .slt v1312 c0_i32_1086
  let c0_i32_1087 : BitVec 32 := 0#32
  let v1315 : BitVec 1 := Scalar.cmpi .slt v1311 c0_i32_1087
  let v1316 : BitVec 1 := Scalar.xori v1314 v1315
  let c0_i32_1085 : BitVec 32 := 0#32
  let v1313 : BitVec 1 := Scalar.cmpi .ne v1312 c0_i32_1085
  let v1317 : BitVec 1 := Scalar.andi v1316 v1313
  let v1318 : BitVec 32 := Scalar.addi v1312 v1311
  let v1319 : BitVec 32 := Scalar.select v1317 v1318 v1312
  let c1_i32_1093 : BitVec 32 := 1#32
  let v1320 : BitVec 32 := Scalar.muli v1319 c1_i32_1093
  let v1321 : BitVec 32 := Scalar.addi c0_i32_1094 v1320
  v1321.toNat
def k0_off4 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1584 : Index := Scalar.indexCast v2
  let c0_1445 : Index := 0#32
  let c0_1446 : Index := 0#32
  ![v1584.toNat, 0, 0]
def k0_off5 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1470 : BitVec 32 := 0#32
  let c0_i32_1471 : BitVec 32 := 0#32
  ![v2.toNat, 0, 0]
def k0_dev95 (d0 : Dev nD) : Nat :=
  let c0_i32_1469 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1447 : BitVec 32 := 1#32
  let v1588 : BitVec 32 := Scalar.addi v2 c1_i32_1447
  let c32_i32_1448 : BitVec 32 := 32#32
  let c0_i32_1449 : BitVec 32 := 0#32
  let v1589 : BitVec 1 := Scalar.cmpi .eq c32_i32_1448 c0_i32_1449
  let c1_i32_1450 : BitVec 32 := 1#32
  let v1590 : BitVec 32 := Scalar.select v1589 c1_i32_1450 c32_i32_1448
  let v1591 : BitVec 32 := Scalar.remsi v1588 v1590
  let c0_i32_1452 : BitVec 32 := 0#32
  let v1593 : BitVec 1 := Scalar.cmpi .slt v1591 c0_i32_1452
  let c0_i32_1453 : BitVec 32 := 0#32
  let v1594 : BitVec 1 := Scalar.cmpi .slt v1590 c0_i32_1453
  let v1595 : BitVec 1 := Scalar.xori v1593 v1594
  let c0_i32_1451 : BitVec 32 := 0#32
  let v1592 : BitVec 1 := Scalar.cmpi .ne v1591 c0_i32_1451
  let v1596 : BitVec 1 := Scalar.andi v1595 v1592
  let v1597 : BitVec 32 := Scalar.addi v1591 v1590
  let v1598 : BitVec 32 := Scalar.select v1596 v1597 v1591
  let c1_i32_1468 : BitVec 32 := 1#32
  let v1605 : BitVec 32 := Scalar.muli v1598 c1_i32_1468
  let v1606 : BitVec 32 := Scalar.addi c0_i32_1469 v1605
  v1606.toNat
def k0_dev96 (d0 : Dev nD) : Nat :=
  let c0_i32_1496 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1474 : BitVec 32 := 2#32
  let v1615 : BitVec 32 := Scalar.addi v2 c2_i32_1474
  let c32_i32_1475 : BitVec 32 := 32#32
  let c0_i32_1476 : BitVec 32 := 0#32
  let v1616 : BitVec 1 := Scalar.cmpi .eq c32_i32_1475 c0_i32_1476
  let c1_i32_1477 : BitVec 32 := 1#32
  let v1617 : BitVec 32 := Scalar.select v1616 c1_i32_1477 c32_i32_1475
  let v1618 : BitVec 32 := Scalar.remsi v1615 v1617
  let c0_i32_1479 : BitVec 32 := 0#32
  let v1620 : BitVec 1 := Scalar.cmpi .slt v1618 c0_i32_1479
  let c0_i32_1480 : BitVec 32 := 0#32
  let v1621 : BitVec 1 := Scalar.cmpi .slt v1617 c0_i32_1480
  let v1622 : BitVec 1 := Scalar.xori v1620 v1621
  let c0_i32_1478 : BitVec 32 := 0#32
  let v1619 : BitVec 1 := Scalar.cmpi .ne v1618 c0_i32_1478
  let v1623 : BitVec 1 := Scalar.andi v1622 v1619
  let v1624 : BitVec 32 := Scalar.addi v1618 v1617
  let v1625 : BitVec 32 := Scalar.select v1623 v1624 v1618
  let c1_i32_1495 : BitVec 32 := 1#32
  let v1632 : BitVec 32 := Scalar.muli v1625 c1_i32_1495
  let v1633 : BitVec 32 := Scalar.addi c0_i32_1496 v1632
  v1633.toNat
def k0_dev97 (d0 : Dev nD) : Nat :=
  let c0_i32_1523 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1501 : BitVec 32 := 3#32
  let v1642 : BitVec 32 := Scalar.addi v2 c3_i32_1501
  let c32_i32_1502 : BitVec 32 := 32#32
  let c0_i32_1503 : BitVec 32 := 0#32
  let v1643 : BitVec 1 := Scalar.cmpi .eq c32_i32_1502 c0_i32_1503
  let c1_i32_1504 : BitVec 32 := 1#32
  let v1644 : BitVec 32 := Scalar.select v1643 c1_i32_1504 c32_i32_1502
  let v1645 : BitVec 32 := Scalar.remsi v1642 v1644
  let c0_i32_1506 : BitVec 32 := 0#32
  let v1647 : BitVec 1 := Scalar.cmpi .slt v1645 c0_i32_1506
  let c0_i32_1507 : BitVec 32 := 0#32
  let v1648 : BitVec 1 := Scalar.cmpi .slt v1644 c0_i32_1507
  let v1649 : BitVec 1 := Scalar.xori v1647 v1648
  let c0_i32_1505 : BitVec 32 := 0#32
  let v1646 : BitVec 1 := Scalar.cmpi .ne v1645 c0_i32_1505
  let v1650 : BitVec 1 := Scalar.andi v1649 v1646
  let v1651 : BitVec 32 := Scalar.addi v1645 v1644
  let v1652 : BitVec 32 := Scalar.select v1650 v1651 v1645
  let c1_i32_1522 : BitVec 32 := 1#32
  let v1659 : BitVec 32 := Scalar.muli v1652 c1_i32_1522
  let v1660 : BitVec 32 := Scalar.addi c0_i32_1523 v1659
  v1660.toNat
def k0_dev98 (d0 : Dev nD) : Nat :=
  let c0_i32_1550 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1528 : BitVec 32 := 4#32
  let v1669 : BitVec 32 := Scalar.addi v2 c4_i32_1528
  let c32_i32_1529 : BitVec 32 := 32#32
  let c0_i32_1530 : BitVec 32 := 0#32
  let v1670 : BitVec 1 := Scalar.cmpi .eq c32_i32_1529 c0_i32_1530
  let c1_i32_1531 : BitVec 32 := 1#32
  let v1671 : BitVec 32 := Scalar.select v1670 c1_i32_1531 c32_i32_1529
  let v1672 : BitVec 32 := Scalar.remsi v1669 v1671
  let c0_i32_1533 : BitVec 32 := 0#32
  let v1674 : BitVec 1 := Scalar.cmpi .slt v1672 c0_i32_1533
  let c0_i32_1534 : BitVec 32 := 0#32
  let v1675 : BitVec 1 := Scalar.cmpi .slt v1671 c0_i32_1534
  let v1676 : BitVec 1 := Scalar.xori v1674 v1675
  let c0_i32_1532 : BitVec 32 := 0#32
  let v1673 : BitVec 1 := Scalar.cmpi .ne v1672 c0_i32_1532
  let v1677 : BitVec 1 := Scalar.andi v1676 v1673
  let v1678 : BitVec 32 := Scalar.addi v1672 v1671
  let v1679 : BitVec 32 := Scalar.select v1677 v1678 v1672
  let c1_i32_1549 : BitVec 32 := 1#32
  let v1686 : BitVec 32 := Scalar.muli v1679 c1_i32_1549
  let v1687 : BitVec 32 := Scalar.addi c0_i32_1550 v1686
  v1687.toNat
def k0_dev99 (d0 : Dev nD) : Nat :=
  let c0_i32_1577 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1555 : BitVec 32 := 5#32
  let v1696 : BitVec 32 := Scalar.addi v2 c5_i32_1555
  let c32_i32_1556 : BitVec 32 := 32#32
  let c0_i32_1557 : BitVec 32 := 0#32
  let v1697 : BitVec 1 := Scalar.cmpi .eq c32_i32_1556 c0_i32_1557
  let c1_i32_1558 : BitVec 32 := 1#32
  let v1698 : BitVec 32 := Scalar.select v1697 c1_i32_1558 c32_i32_1556
  let v1699 : BitVec 32 := Scalar.remsi v1696 v1698
  let c0_i32_1560 : BitVec 32 := 0#32
  let v1701 : BitVec 1 := Scalar.cmpi .slt v1699 c0_i32_1560
  let c0_i32_1561 : BitVec 32 := 0#32
  let v1702 : BitVec 1 := Scalar.cmpi .slt v1698 c0_i32_1561
  let v1703 : BitVec 1 := Scalar.xori v1701 v1702
  let c0_i32_1559 : BitVec 32 := 0#32
  let v1700 : BitVec 1 := Scalar.cmpi .ne v1699 c0_i32_1559
  let v1704 : BitVec 1 := Scalar.andi v1703 v1700
  let v1705 : BitVec 32 := Scalar.addi v1699 v1698
  let v1706 : BitVec 32 := Scalar.select v1704 v1705 v1699
  let c1_i32_1576 : BitVec 32 := 1#32
  let v1713 : BitVec 32 := Scalar.muli v1706 c1_i32_1576
  let v1714 : BitVec 32 := Scalar.addi c0_i32_1577 v1713
  v1714.toNat
def k0_dev100 (d0 : Dev nD) : Nat :=
  let c0_i32_1604 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1582 : BitVec 32 := 6#32
  let v1723 : BitVec 32 := Scalar.addi v2 c6_i32_1582
  let c32_i32_1583 : BitVec 32 := 32#32
  let c0_i32_1584 : BitVec 32 := 0#32
  let v1724 : BitVec 1 := Scalar.cmpi .eq c32_i32_1583 c0_i32_1584
  let c1_i32_1585 : BitVec 32 := 1#32
  let v1725 : BitVec 32 := Scalar.select v1724 c1_i32_1585 c32_i32_1583
  let v1726 : BitVec 32 := Scalar.remsi v1723 v1725
  let c0_i32_1587 : BitVec 32 := 0#32
  let v1728 : BitVec 1 := Scalar.cmpi .slt v1726 c0_i32_1587
  let c0_i32_1588 : BitVec 32 := 0#32
  let v1729 : BitVec 1 := Scalar.cmpi .slt v1725 c0_i32_1588
  let v1730 : BitVec 1 := Scalar.xori v1728 v1729
  let c0_i32_1586 : BitVec 32 := 0#32
  let v1727 : BitVec 1 := Scalar.cmpi .ne v1726 c0_i32_1586
  let v1731 : BitVec 1 := Scalar.andi v1730 v1727
  let v1732 : BitVec 32 := Scalar.addi v1726 v1725
  let v1733 : BitVec 32 := Scalar.select v1731 v1732 v1726
  let c1_i32_1603 : BitVec 32 := 1#32
  let v1740 : BitVec 32 := Scalar.muli v1733 c1_i32_1603
  let v1741 : BitVec 32 := Scalar.addi c0_i32_1604 v1740
  v1741.toNat
def k0_dev101 (d0 : Dev nD) : Nat :=
  let c0_i32_1631 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1609 : BitVec 32 := 7#32
  let v1750 : BitVec 32 := Scalar.addi v2 c7_i32_1609
  let c32_i32_1610 : BitVec 32 := 32#32
  let c0_i32_1611 : BitVec 32 := 0#32
  let v1751 : BitVec 1 := Scalar.cmpi .eq c32_i32_1610 c0_i32_1611
  let c1_i32_1612 : BitVec 32 := 1#32
  let v1752 : BitVec 32 := Scalar.select v1751 c1_i32_1612 c32_i32_1610
  let v1753 : BitVec 32 := Scalar.remsi v1750 v1752
  let c0_i32_1614 : BitVec 32 := 0#32
  let v1755 : BitVec 1 := Scalar.cmpi .slt v1753 c0_i32_1614
  let c0_i32_1615 : BitVec 32 := 0#32
  let v1756 : BitVec 1 := Scalar.cmpi .slt v1752 c0_i32_1615
  let v1757 : BitVec 1 := Scalar.xori v1755 v1756
  let c0_i32_1613 : BitVec 32 := 0#32
  let v1754 : BitVec 1 := Scalar.cmpi .ne v1753 c0_i32_1613
  let v1758 : BitVec 1 := Scalar.andi v1757 v1754
  let v1759 : BitVec 32 := Scalar.addi v1753 v1752
  let v1760 : BitVec 32 := Scalar.select v1758 v1759 v1753
  let c1_i32_1630 : BitVec 32 := 1#32
  let v1767 : BitVec 32 := Scalar.muli v1760 c1_i32_1630
  let v1768 : BitVec 32 := Scalar.addi c0_i32_1631 v1767
  v1768.toNat
def k0_dev102 (d0 : Dev nD) : Nat :=
  let c0_i32_1658 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1636 : BitVec 32 := 8#32
  let v1777 : BitVec 32 := Scalar.addi v2 c8_i32_1636
  let c32_i32_1637 : BitVec 32 := 32#32
  let c0_i32_1638 : BitVec 32 := 0#32
  let v1778 : BitVec 1 := Scalar.cmpi .eq c32_i32_1637 c0_i32_1638
  let c1_i32_1639 : BitVec 32 := 1#32
  let v1779 : BitVec 32 := Scalar.select v1778 c1_i32_1639 c32_i32_1637
  let v1780 : BitVec 32 := Scalar.remsi v1777 v1779
  let c0_i32_1641 : BitVec 32 := 0#32
  let v1782 : BitVec 1 := Scalar.cmpi .slt v1780 c0_i32_1641
  let c0_i32_1642 : BitVec 32 := 0#32
  let v1783 : BitVec 1 := Scalar.cmpi .slt v1779 c0_i32_1642
  let v1784 : BitVec 1 := Scalar.xori v1782 v1783
  let c0_i32_1640 : BitVec 32 := 0#32
  let v1781 : BitVec 1 := Scalar.cmpi .ne v1780 c0_i32_1640
  let v1785 : BitVec 1 := Scalar.andi v1784 v1781
  let v1786 : BitVec 32 := Scalar.addi v1780 v1779
  let v1787 : BitVec 32 := Scalar.select v1785 v1786 v1780
  let c1_i32_1657 : BitVec 32 := 1#32
  let v1794 : BitVec 32 := Scalar.muli v1787 c1_i32_1657
  let v1795 : BitVec 32 := Scalar.addi c0_i32_1658 v1794
  v1795.toNat
def k0_dev103 (d0 : Dev nD) : Nat :=
  let c0_i32_1685 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1663 : BitVec 32 := 9#32
  let v1804 : BitVec 32 := Scalar.addi v2 c9_i32_1663
  let c32_i32_1664 : BitVec 32 := 32#32
  let c0_i32_1665 : BitVec 32 := 0#32
  let v1805 : BitVec 1 := Scalar.cmpi .eq c32_i32_1664 c0_i32_1665
  let c1_i32_1666 : BitVec 32 := 1#32
  let v1806 : BitVec 32 := Scalar.select v1805 c1_i32_1666 c32_i32_1664
  let v1807 : BitVec 32 := Scalar.remsi v1804 v1806
  let c0_i32_1668 : BitVec 32 := 0#32
  let v1809 : BitVec 1 := Scalar.cmpi .slt v1807 c0_i32_1668
  let c0_i32_1669 : BitVec 32 := 0#32
  let v1810 : BitVec 1 := Scalar.cmpi .slt v1806 c0_i32_1669
  let v1811 : BitVec 1 := Scalar.xori v1809 v1810
  let c0_i32_1667 : BitVec 32 := 0#32
  let v1808 : BitVec 1 := Scalar.cmpi .ne v1807 c0_i32_1667
  let v1812 : BitVec 1 := Scalar.andi v1811 v1808
  let v1813 : BitVec 32 := Scalar.addi v1807 v1806
  let v1814 : BitVec 32 := Scalar.select v1812 v1813 v1807
  let c1_i32_1684 : BitVec 32 := 1#32
  let v1821 : BitVec 32 := Scalar.muli v1814 c1_i32_1684
  let v1822 : BitVec 32 := Scalar.addi c0_i32_1685 v1821
  v1822.toNat
def k0_dev104 (d0 : Dev nD) : Nat :=
  let c0_i32_1712 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1690 : BitVec 32 := 10#32
  let v1831 : BitVec 32 := Scalar.addi v2 c10_i32_1690
  let c32_i32_1691 : BitVec 32 := 32#32
  let c0_i32_1692 : BitVec 32 := 0#32
  let v1832 : BitVec 1 := Scalar.cmpi .eq c32_i32_1691 c0_i32_1692
  let c1_i32_1693 : BitVec 32 := 1#32
  let v1833 : BitVec 32 := Scalar.select v1832 c1_i32_1693 c32_i32_1691
  let v1834 : BitVec 32 := Scalar.remsi v1831 v1833
  let c0_i32_1695 : BitVec 32 := 0#32
  let v1836 : BitVec 1 := Scalar.cmpi .slt v1834 c0_i32_1695
  let c0_i32_1696 : BitVec 32 := 0#32
  let v1837 : BitVec 1 := Scalar.cmpi .slt v1833 c0_i32_1696
  let v1838 : BitVec 1 := Scalar.xori v1836 v1837
  let c0_i32_1694 : BitVec 32 := 0#32
  let v1835 : BitVec 1 := Scalar.cmpi .ne v1834 c0_i32_1694
  let v1839 : BitVec 1 := Scalar.andi v1838 v1835
  let v1840 : BitVec 32 := Scalar.addi v1834 v1833
  let v1841 : BitVec 32 := Scalar.select v1839 v1840 v1834
  let c1_i32_1711 : BitVec 32 := 1#32
  let v1848 : BitVec 32 := Scalar.muli v1841 c1_i32_1711
  let v1849 : BitVec 32 := Scalar.addi c0_i32_1712 v1848
  v1849.toNat
def k0_dev105 (d0 : Dev nD) : Nat :=
  let c0_i32_1739 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1717 : BitVec 32 := 11#32
  let v1858 : BitVec 32 := Scalar.addi v2 c11_i32_1717
  let c32_i32_1718 : BitVec 32 := 32#32
  let c0_i32_1719 : BitVec 32 := 0#32
  let v1859 : BitVec 1 := Scalar.cmpi .eq c32_i32_1718 c0_i32_1719
  let c1_i32_1720 : BitVec 32 := 1#32
  let v1860 : BitVec 32 := Scalar.select v1859 c1_i32_1720 c32_i32_1718
  let v1861 : BitVec 32 := Scalar.remsi v1858 v1860
  let c0_i32_1722 : BitVec 32 := 0#32
  let v1863 : BitVec 1 := Scalar.cmpi .slt v1861 c0_i32_1722
  let c0_i32_1723 : BitVec 32 := 0#32
  let v1864 : BitVec 1 := Scalar.cmpi .slt v1860 c0_i32_1723
  let v1865 : BitVec 1 := Scalar.xori v1863 v1864
  let c0_i32_1721 : BitVec 32 := 0#32
  let v1862 : BitVec 1 := Scalar.cmpi .ne v1861 c0_i32_1721
  let v1866 : BitVec 1 := Scalar.andi v1865 v1862
  let v1867 : BitVec 32 := Scalar.addi v1861 v1860
  let v1868 : BitVec 32 := Scalar.select v1866 v1867 v1861
  let c1_i32_1738 : BitVec 32 := 1#32
  let v1875 : BitVec 32 := Scalar.muli v1868 c1_i32_1738
  let v1876 : BitVec 32 := Scalar.addi c0_i32_1739 v1875
  v1876.toNat
def k0_dev106 (d0 : Dev nD) : Nat :=
  let c0_i32_1766 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1744 : BitVec 32 := 12#32
  let v1885 : BitVec 32 := Scalar.addi v2 c12_i32_1744
  let c32_i32_1745 : BitVec 32 := 32#32
  let c0_i32_1746 : BitVec 32 := 0#32
  let v1886 : BitVec 1 := Scalar.cmpi .eq c32_i32_1745 c0_i32_1746
  let c1_i32_1747 : BitVec 32 := 1#32
  let v1887 : BitVec 32 := Scalar.select v1886 c1_i32_1747 c32_i32_1745
  let v1888 : BitVec 32 := Scalar.remsi v1885 v1887
  let c0_i32_1749 : BitVec 32 := 0#32
  let v1890 : BitVec 1 := Scalar.cmpi .slt v1888 c0_i32_1749
  let c0_i32_1750 : BitVec 32 := 0#32
  let v1891 : BitVec 1 := Scalar.cmpi .slt v1887 c0_i32_1750
  let v1892 : BitVec 1 := Scalar.xori v1890 v1891
  let c0_i32_1748 : BitVec 32 := 0#32
  let v1889 : BitVec 1 := Scalar.cmpi .ne v1888 c0_i32_1748
  let v1893 : BitVec 1 := Scalar.andi v1892 v1889
  let v1894 : BitVec 32 := Scalar.addi v1888 v1887
  let v1895 : BitVec 32 := Scalar.select v1893 v1894 v1888
  let c1_i32_1765 : BitVec 32 := 1#32
  let v1902 : BitVec 32 := Scalar.muli v1895 c1_i32_1765
  let v1903 : BitVec 32 := Scalar.addi c0_i32_1766 v1902
  v1903.toNat
def k0_dev107 (d0 : Dev nD) : Nat :=
  let c0_i32_1793 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1771 : BitVec 32 := 13#32
  let v1912 : BitVec 32 := Scalar.addi v2 c13_i32_1771
  let c32_i32_1772 : BitVec 32 := 32#32
  let c0_i32_1773 : BitVec 32 := 0#32
  let v1913 : BitVec 1 := Scalar.cmpi .eq c32_i32_1772 c0_i32_1773
  let c1_i32_1774 : BitVec 32 := 1#32
  let v1914 : BitVec 32 := Scalar.select v1913 c1_i32_1774 c32_i32_1772
  let v1915 : BitVec 32 := Scalar.remsi v1912 v1914
  let c0_i32_1776 : BitVec 32 := 0#32
  let v1917 : BitVec 1 := Scalar.cmpi .slt v1915 c0_i32_1776
  let c0_i32_1777 : BitVec 32 := 0#32
  let v1918 : BitVec 1 := Scalar.cmpi .slt v1914 c0_i32_1777
  let v1919 : BitVec 1 := Scalar.xori v1917 v1918
  let c0_i32_1775 : BitVec 32 := 0#32
  let v1916 : BitVec 1 := Scalar.cmpi .ne v1915 c0_i32_1775
  let v1920 : BitVec 1 := Scalar.andi v1919 v1916
  let v1921 : BitVec 32 := Scalar.addi v1915 v1914
  let v1922 : BitVec 32 := Scalar.select v1920 v1921 v1915
  let c1_i32_1792 : BitVec 32 := 1#32
  let v1929 : BitVec 32 := Scalar.muli v1922 c1_i32_1792
  let v1930 : BitVec 32 := Scalar.addi c0_i32_1793 v1929
  v1930.toNat
def k0_dev108 (d0 : Dev nD) : Nat :=
  let c0_i32_1820 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1798 : BitVec 32 := 14#32
  let v1939 : BitVec 32 := Scalar.addi v2 c14_i32_1798
  let c32_i32_1799 : BitVec 32 := 32#32
  let c0_i32_1800 : BitVec 32 := 0#32
  let v1940 : BitVec 1 := Scalar.cmpi .eq c32_i32_1799 c0_i32_1800
  let c1_i32_1801 : BitVec 32 := 1#32
  let v1941 : BitVec 32 := Scalar.select v1940 c1_i32_1801 c32_i32_1799
  let v1942 : BitVec 32 := Scalar.remsi v1939 v1941
  let c0_i32_1803 : BitVec 32 := 0#32
  let v1944 : BitVec 1 := Scalar.cmpi .slt v1942 c0_i32_1803
  let c0_i32_1804 : BitVec 32 := 0#32
  let v1945 : BitVec 1 := Scalar.cmpi .slt v1941 c0_i32_1804
  let v1946 : BitVec 1 := Scalar.xori v1944 v1945
  let c0_i32_1802 : BitVec 32 := 0#32
  let v1943 : BitVec 1 := Scalar.cmpi .ne v1942 c0_i32_1802
  let v1947 : BitVec 1 := Scalar.andi v1946 v1943
  let v1948 : BitVec 32 := Scalar.addi v1942 v1941
  let v1949 : BitVec 32 := Scalar.select v1947 v1948 v1942
  let c1_i32_1819 : BitVec 32 := 1#32
  let v1956 : BitVec 32 := Scalar.muli v1949 c1_i32_1819
  let v1957 : BitVec 32 := Scalar.addi c0_i32_1820 v1956
  v1957.toNat
def k0_dev109 (d0 : Dev nD) : Nat :=
  let c0_i32_1847 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1825 : BitVec 32 := 15#32
  let v1966 : BitVec 32 := Scalar.addi v2 c15_i32_1825
  let c32_i32_1826 : BitVec 32 := 32#32
  let c0_i32_1827 : BitVec 32 := 0#32
  let v1967 : BitVec 1 := Scalar.cmpi .eq c32_i32_1826 c0_i32_1827
  let c1_i32_1828 : BitVec 32 := 1#32
  let v1968 : BitVec 32 := Scalar.select v1967 c1_i32_1828 c32_i32_1826
  let v1969 : BitVec 32 := Scalar.remsi v1966 v1968
  let c0_i32_1830 : BitVec 32 := 0#32
  let v1971 : BitVec 1 := Scalar.cmpi .slt v1969 c0_i32_1830
  let c0_i32_1831 : BitVec 32 := 0#32
  let v1972 : BitVec 1 := Scalar.cmpi .slt v1968 c0_i32_1831
  let v1973 : BitVec 1 := Scalar.xori v1971 v1972
  let c0_i32_1829 : BitVec 32 := 0#32
  let v1970 : BitVec 1 := Scalar.cmpi .ne v1969 c0_i32_1829
  let v1974 : BitVec 1 := Scalar.andi v1973 v1970
  let v1975 : BitVec 32 := Scalar.addi v1969 v1968
  let v1976 : BitVec 32 := Scalar.select v1974 v1975 v1969
  let c1_i32_1846 : BitVec 32 := 1#32
  let v1983 : BitVec 32 := Scalar.muli v1976 c1_i32_1846
  let v1984 : BitVec 32 := Scalar.addi c0_i32_1847 v1983
  v1984.toNat
def k0_dev110 (d0 : Dev nD) : Nat :=
  let c0_i32_1874 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1852 : BitVec 32 := 16#32
  let v1993 : BitVec 32 := Scalar.addi v2 c16_i32_1852
  let c32_i32_1853 : BitVec 32 := 32#32
  let c0_i32_1854 : BitVec 32 := 0#32
  let v1994 : BitVec 1 := Scalar.cmpi .eq c32_i32_1853 c0_i32_1854
  let c1_i32_1855 : BitVec 32 := 1#32
  let v1995 : BitVec 32 := Scalar.select v1994 c1_i32_1855 c32_i32_1853
  let v1996 : BitVec 32 := Scalar.remsi v1993 v1995
  let c0_i32_1857 : BitVec 32 := 0#32
  let v1998 : BitVec 1 := Scalar.cmpi .slt v1996 c0_i32_1857
  let c0_i32_1858 : BitVec 32 := 0#32
  let v1999 : BitVec 1 := Scalar.cmpi .slt v1995 c0_i32_1858
  let v2000 : BitVec 1 := Scalar.xori v1998 v1999
  let c0_i32_1856 : BitVec 32 := 0#32
  let v1997 : BitVec 1 := Scalar.cmpi .ne v1996 c0_i32_1856
  let v2001 : BitVec 1 := Scalar.andi v2000 v1997
  let v2002 : BitVec 32 := Scalar.addi v1996 v1995
  let v2003 : BitVec 32 := Scalar.select v2001 v2002 v1996
  let c1_i32_1873 : BitVec 32 := 1#32
  let v2010 : BitVec 32 := Scalar.muli v2003 c1_i32_1873
  let v2011 : BitVec 32 := Scalar.addi c0_i32_1874 v2010
  v2011.toNat
def k0_dev111 (d0 : Dev nD) : Nat :=
  let c0_i32_1901 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1879 : BitVec 32 := 17#32
  let v2020 : BitVec 32 := Scalar.addi v2 c17_i32_1879
  let c32_i32_1880 : BitVec 32 := 32#32
  let c0_i32_1881 : BitVec 32 := 0#32
  let v2021 : BitVec 1 := Scalar.cmpi .eq c32_i32_1880 c0_i32_1881
  let c1_i32_1882 : BitVec 32 := 1#32
  let v2022 : BitVec 32 := Scalar.select v2021 c1_i32_1882 c32_i32_1880
  let v2023 : BitVec 32 := Scalar.remsi v2020 v2022
  let c0_i32_1884 : BitVec 32 := 0#32
  let v2025 : BitVec 1 := Scalar.cmpi .slt v2023 c0_i32_1884
  let c0_i32_1885 : BitVec 32 := 0#32
  let v2026 : BitVec 1 := Scalar.cmpi .slt v2022 c0_i32_1885
  let v2027 : BitVec 1 := Scalar.xori v2025 v2026
  let c0_i32_1883 : BitVec 32 := 0#32
  let v2024 : BitVec 1 := Scalar.cmpi .ne v2023 c0_i32_1883
  let v2028 : BitVec 1 := Scalar.andi v2027 v2024
  let v2029 : BitVec 32 := Scalar.addi v2023 v2022
  let v2030 : BitVec 32 := Scalar.select v2028 v2029 v2023
  let c1_i32_1900 : BitVec 32 := 1#32
  let v2037 : BitVec 32 := Scalar.muli v2030 c1_i32_1900
  let v2038 : BitVec 32 := Scalar.addi c0_i32_1901 v2037
  v2038.toNat
def k0_dev112 (d0 : Dev nD) : Nat :=
  let c0_i32_1928 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1906 : BitVec 32 := 18#32
  let v2047 : BitVec 32 := Scalar.addi v2 c18_i32_1906
  let c32_i32_1907 : BitVec 32 := 32#32
  let c0_i32_1908 : BitVec 32 := 0#32
  let v2048 : BitVec 1 := Scalar.cmpi .eq c32_i32_1907 c0_i32_1908
  let c1_i32_1909 : BitVec 32 := 1#32
  let v2049 : BitVec 32 := Scalar.select v2048 c1_i32_1909 c32_i32_1907
  let v2050 : BitVec 32 := Scalar.remsi v2047 v2049
  let c0_i32_1911 : BitVec 32 := 0#32
  let v2052 : BitVec 1 := Scalar.cmpi .slt v2050 c0_i32_1911
  let c0_i32_1912 : BitVec 32 := 0#32
  let v2053 : BitVec 1 := Scalar.cmpi .slt v2049 c0_i32_1912
  let v2054 : BitVec 1 := Scalar.xori v2052 v2053
  let c0_i32_1910 : BitVec 32 := 0#32
  let v2051 : BitVec 1 := Scalar.cmpi .ne v2050 c0_i32_1910
  let v2055 : BitVec 1 := Scalar.andi v2054 v2051
  let v2056 : BitVec 32 := Scalar.addi v2050 v2049
  let v2057 : BitVec 32 := Scalar.select v2055 v2056 v2050
  let c1_i32_1927 : BitVec 32 := 1#32
  let v2064 : BitVec 32 := Scalar.muli v2057 c1_i32_1927
  let v2065 : BitVec 32 := Scalar.addi c0_i32_1928 v2064
  v2065.toNat
def k0_dev113 (d0 : Dev nD) : Nat :=
  let c0_i32_1955 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1933 : BitVec 32 := 19#32
  let v2074 : BitVec 32 := Scalar.addi v2 c19_i32_1933
  let c32_i32_1934 : BitVec 32 := 32#32
  let c0_i32_1935 : BitVec 32 := 0#32
  let v2075 : BitVec 1 := Scalar.cmpi .eq c32_i32_1934 c0_i32_1935
  let c1_i32_1936 : BitVec 32 := 1#32
  let v2076 : BitVec 32 := Scalar.select v2075 c1_i32_1936 c32_i32_1934
  let v2077 : BitVec 32 := Scalar.remsi v2074 v2076
  let c0_i32_1938 : BitVec 32 := 0#32
  let v2079 : BitVec 1 := Scalar.cmpi .slt v2077 c0_i32_1938
  let c0_i32_1939 : BitVec 32 := 0#32
  let v2080 : BitVec 1 := Scalar.cmpi .slt v2076 c0_i32_1939
  let v2081 : BitVec 1 := Scalar.xori v2079 v2080
  let c0_i32_1937 : BitVec 32 := 0#32
  let v2078 : BitVec 1 := Scalar.cmpi .ne v2077 c0_i32_1937
  let v2082 : BitVec 1 := Scalar.andi v2081 v2078
  let v2083 : BitVec 32 := Scalar.addi v2077 v2076
  let v2084 : BitVec 32 := Scalar.select v2082 v2083 v2077
  let c1_i32_1954 : BitVec 32 := 1#32
  let v2091 : BitVec 32 := Scalar.muli v2084 c1_i32_1954
  let v2092 : BitVec 32 := Scalar.addi c0_i32_1955 v2091
  v2092.toNat
def k0_dev114 (d0 : Dev nD) : Nat :=
  let c0_i32_1982 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1960 : BitVec 32 := 20#32
  let v2101 : BitVec 32 := Scalar.addi v2 c20_i32_1960
  let c32_i32_1961 : BitVec 32 := 32#32
  let c0_i32_1962 : BitVec 32 := 0#32
  let v2102 : BitVec 1 := Scalar.cmpi .eq c32_i32_1961 c0_i32_1962
  let c1_i32_1963 : BitVec 32 := 1#32
  let v2103 : BitVec 32 := Scalar.select v2102 c1_i32_1963 c32_i32_1961
  let v2104 : BitVec 32 := Scalar.remsi v2101 v2103
  let c0_i32_1965 : BitVec 32 := 0#32
  let v2106 : BitVec 1 := Scalar.cmpi .slt v2104 c0_i32_1965
  let c0_i32_1966 : BitVec 32 := 0#32
  let v2107 : BitVec 1 := Scalar.cmpi .slt v2103 c0_i32_1966
  let v2108 : BitVec 1 := Scalar.xori v2106 v2107
  let c0_i32_1964 : BitVec 32 := 0#32
  let v2105 : BitVec 1 := Scalar.cmpi .ne v2104 c0_i32_1964
  let v2109 : BitVec 1 := Scalar.andi v2108 v2105
  let v2110 : BitVec 32 := Scalar.addi v2104 v2103
  let v2111 : BitVec 32 := Scalar.select v2109 v2110 v2104
  let c1_i32_1981 : BitVec 32 := 1#32
  let v2118 : BitVec 32 := Scalar.muli v2111 c1_i32_1981
  let v2119 : BitVec 32 := Scalar.addi c0_i32_1982 v2118
  v2119.toNat
def k0_dev115 (d0 : Dev nD) : Nat :=
  let c0_i32_2009 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1987 : BitVec 32 := 21#32
  let v2128 : BitVec 32 := Scalar.addi v2 c21_i32_1987
  let c32_i32_1988 : BitVec 32 := 32#32
  let c0_i32_1989 : BitVec 32 := 0#32
  let v2129 : BitVec 1 := Scalar.cmpi .eq c32_i32_1988 c0_i32_1989
  let c1_i32_1990 : BitVec 32 := 1#32
  let v2130 : BitVec 32 := Scalar.select v2129 c1_i32_1990 c32_i32_1988
  let v2131 : BitVec 32 := Scalar.remsi v2128 v2130
  let c0_i32_1992 : BitVec 32 := 0#32
  let v2133 : BitVec 1 := Scalar.cmpi .slt v2131 c0_i32_1992
  let c0_i32_1993 : BitVec 32 := 0#32
  let v2134 : BitVec 1 := Scalar.cmpi .slt v2130 c0_i32_1993
  let v2135 : BitVec 1 := Scalar.xori v2133 v2134
  let c0_i32_1991 : BitVec 32 := 0#32
  let v2132 : BitVec 1 := Scalar.cmpi .ne v2131 c0_i32_1991
  let v2136 : BitVec 1 := Scalar.andi v2135 v2132
  let v2137 : BitVec 32 := Scalar.addi v2131 v2130
  let v2138 : BitVec 32 := Scalar.select v2136 v2137 v2131
  let c1_i32_2008 : BitVec 32 := 1#32
  let v2145 : BitVec 32 := Scalar.muli v2138 c1_i32_2008
  let v2146 : BitVec 32 := Scalar.addi c0_i32_2009 v2145
  v2146.toNat
def k0_dev116 (d0 : Dev nD) : Nat :=
  let c0_i32_2036 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_2014 : BitVec 32 := 22#32
  let v2155 : BitVec 32 := Scalar.addi v2 c22_i32_2014
  let c32_i32_2015 : BitVec 32 := 32#32
  let c0_i32_2016 : BitVec 32 := 0#32
  let v2156 : BitVec 1 := Scalar.cmpi .eq c32_i32_2015 c0_i32_2016
  let c1_i32_2017 : BitVec 32 := 1#32
  let v2157 : BitVec 32 := Scalar.select v2156 c1_i32_2017 c32_i32_2015
  let v2158 : BitVec 32 := Scalar.remsi v2155 v2157
  let c0_i32_2019 : BitVec 32 := 0#32
  let v2160 : BitVec 1 := Scalar.cmpi .slt v2158 c0_i32_2019
  let c0_i32_2020 : BitVec 32 := 0#32
  let v2161 : BitVec 1 := Scalar.cmpi .slt v2157 c0_i32_2020
  let v2162 : BitVec 1 := Scalar.xori v2160 v2161
  let c0_i32_2018 : BitVec 32 := 0#32
  let v2159 : BitVec 1 := Scalar.cmpi .ne v2158 c0_i32_2018
  let v2163 : BitVec 1 := Scalar.andi v2162 v2159
  let v2164 : BitVec 32 := Scalar.addi v2158 v2157
  let v2165 : BitVec 32 := Scalar.select v2163 v2164 v2158
  let c1_i32_2035 : BitVec 32 := 1#32
  let v2172 : BitVec 32 := Scalar.muli v2165 c1_i32_2035
  let v2173 : BitVec 32 := Scalar.addi c0_i32_2036 v2172
  v2173.toNat
def k0_dev117 (d0 : Dev nD) : Nat :=
  let c0_i32_2063 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_2041 : BitVec 32 := 23#32
  let v2182 : BitVec 32 := Scalar.addi v2 c23_i32_2041
  let c32_i32_2042 : BitVec 32 := 32#32
  let c0_i32_2043 : BitVec 32 := 0#32
  let v2183 : BitVec 1 := Scalar.cmpi .eq c32_i32_2042 c0_i32_2043
  let c1_i32_2044 : BitVec 32 := 1#32
  let v2184 : BitVec 32 := Scalar.select v2183 c1_i32_2044 c32_i32_2042
  let v2185 : BitVec 32 := Scalar.remsi v2182 v2184
  let c0_i32_2046 : BitVec 32 := 0#32
  let v2187 : BitVec 1 := Scalar.cmpi .slt v2185 c0_i32_2046
  let c0_i32_2047 : BitVec 32 := 0#32
  let v2188 : BitVec 1 := Scalar.cmpi .slt v2184 c0_i32_2047
  let v2189 : BitVec 1 := Scalar.xori v2187 v2188
  let c0_i32_2045 : BitVec 32 := 0#32
  let v2186 : BitVec 1 := Scalar.cmpi .ne v2185 c0_i32_2045
  let v2190 : BitVec 1 := Scalar.andi v2189 v2186
  let v2191 : BitVec 32 := Scalar.addi v2185 v2184
  let v2192 : BitVec 32 := Scalar.select v2190 v2191 v2185
  let c1_i32_2062 : BitVec 32 := 1#32
  let v2199 : BitVec 32 := Scalar.muli v2192 c1_i32_2062
  let v2200 : BitVec 32 := Scalar.addi c0_i32_2063 v2199
  v2200.toNat
def k0_dev118 (d0 : Dev nD) : Nat :=
  let c0_i32_2090 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_2068 : BitVec 32 := 24#32
  let v2209 : BitVec 32 := Scalar.addi v2 c24_i32_2068
  let c32_i32_2069 : BitVec 32 := 32#32
  let c0_i32_2070 : BitVec 32 := 0#32
  let v2210 : BitVec 1 := Scalar.cmpi .eq c32_i32_2069 c0_i32_2070
  let c1_i32_2071 : BitVec 32 := 1#32
  let v2211 : BitVec 32 := Scalar.select v2210 c1_i32_2071 c32_i32_2069
  let v2212 : BitVec 32 := Scalar.remsi v2209 v2211
  let c0_i32_2073 : BitVec 32 := 0#32
  let v2214 : BitVec 1 := Scalar.cmpi .slt v2212 c0_i32_2073
  let c0_i32_2074 : BitVec 32 := 0#32
  let v2215 : BitVec 1 := Scalar.cmpi .slt v2211 c0_i32_2074
  let v2216 : BitVec 1 := Scalar.xori v2214 v2215
  let c0_i32_2072 : BitVec 32 := 0#32
  let v2213 : BitVec 1 := Scalar.cmpi .ne v2212 c0_i32_2072
  let v2217 : BitVec 1 := Scalar.andi v2216 v2213
  let v2218 : BitVec 32 := Scalar.addi v2212 v2211
  let v2219 : BitVec 32 := Scalar.select v2217 v2218 v2212
  let c1_i32_2089 : BitVec 32 := 1#32
  let v2226 : BitVec 32 := Scalar.muli v2219 c1_i32_2089
  let v2227 : BitVec 32 := Scalar.addi c0_i32_2090 v2226
  v2227.toNat
def k0_dev119 (d0 : Dev nD) : Nat :=
  let c0_i32_2117 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_2095 : BitVec 32 := 25#32
  let v2236 : BitVec 32 := Scalar.addi v2 c25_i32_2095
  let c32_i32_2096 : BitVec 32 := 32#32
  let c0_i32_2097 : BitVec 32 := 0#32
  let v2237 : BitVec 1 := Scalar.cmpi .eq c32_i32_2096 c0_i32_2097
  let c1_i32_2098 : BitVec 32 := 1#32
  let v2238 : BitVec 32 := Scalar.select v2237 c1_i32_2098 c32_i32_2096
  let v2239 : BitVec 32 := Scalar.remsi v2236 v2238
  let c0_i32_2100 : BitVec 32 := 0#32
  let v2241 : BitVec 1 := Scalar.cmpi .slt v2239 c0_i32_2100
  let c0_i32_2101 : BitVec 32 := 0#32
  let v2242 : BitVec 1 := Scalar.cmpi .slt v2238 c0_i32_2101
  let v2243 : BitVec 1 := Scalar.xori v2241 v2242
  let c0_i32_2099 : BitVec 32 := 0#32
  let v2240 : BitVec 1 := Scalar.cmpi .ne v2239 c0_i32_2099
  let v2244 : BitVec 1 := Scalar.andi v2243 v2240
  let v2245 : BitVec 32 := Scalar.addi v2239 v2238
  let v2246 : BitVec 32 := Scalar.select v2244 v2245 v2239
  let c1_i32_2116 : BitVec 32 := 1#32
  let v2253 : BitVec 32 := Scalar.muli v2246 c1_i32_2116
  let v2254 : BitVec 32 := Scalar.addi c0_i32_2117 v2253
  v2254.toNat
def k0_dev120 (d0 : Dev nD) : Nat :=
  let c0_i32_2144 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_2122 : BitVec 32 := 26#32
  let v2263 : BitVec 32 := Scalar.addi v2 c26_i32_2122
  let c32_i32_2123 : BitVec 32 := 32#32
  let c0_i32_2124 : BitVec 32 := 0#32
  let v2264 : BitVec 1 := Scalar.cmpi .eq c32_i32_2123 c0_i32_2124
  let c1_i32_2125 : BitVec 32 := 1#32
  let v2265 : BitVec 32 := Scalar.select v2264 c1_i32_2125 c32_i32_2123
  let v2266 : BitVec 32 := Scalar.remsi v2263 v2265
  let c0_i32_2127 : BitVec 32 := 0#32
  let v2268 : BitVec 1 := Scalar.cmpi .slt v2266 c0_i32_2127
  let c0_i32_2128 : BitVec 32 := 0#32
  let v2269 : BitVec 1 := Scalar.cmpi .slt v2265 c0_i32_2128
  let v2270 : BitVec 1 := Scalar.xori v2268 v2269
  let c0_i32_2126 : BitVec 32 := 0#32
  let v2267 : BitVec 1 := Scalar.cmpi .ne v2266 c0_i32_2126
  let v2271 : BitVec 1 := Scalar.andi v2270 v2267
  let v2272 : BitVec 32 := Scalar.addi v2266 v2265
  let v2273 : BitVec 32 := Scalar.select v2271 v2272 v2266
  let c1_i32_2143 : BitVec 32 := 1#32
  let v2280 : BitVec 32 := Scalar.muli v2273 c1_i32_2143
  let v2281 : BitVec 32 := Scalar.addi c0_i32_2144 v2280
  v2281.toNat
def k0_dev121 (d0 : Dev nD) : Nat :=
  let c0_i32_2171 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_2149 : BitVec 32 := 27#32
  let v2290 : BitVec 32 := Scalar.addi v2 c27_i32_2149
  let c32_i32_2150 : BitVec 32 := 32#32
  let c0_i32_2151 : BitVec 32 := 0#32
  let v2291 : BitVec 1 := Scalar.cmpi .eq c32_i32_2150 c0_i32_2151
  let c1_i32_2152 : BitVec 32 := 1#32
  let v2292 : BitVec 32 := Scalar.select v2291 c1_i32_2152 c32_i32_2150
  let v2293 : BitVec 32 := Scalar.remsi v2290 v2292
  let c0_i32_2154 : BitVec 32 := 0#32
  let v2295 : BitVec 1 := Scalar.cmpi .slt v2293 c0_i32_2154
  let c0_i32_2155 : BitVec 32 := 0#32
  let v2296 : BitVec 1 := Scalar.cmpi .slt v2292 c0_i32_2155
  let v2297 : BitVec 1 := Scalar.xori v2295 v2296
  let c0_i32_2153 : BitVec 32 := 0#32
  let v2294 : BitVec 1 := Scalar.cmpi .ne v2293 c0_i32_2153
  let v2298 : BitVec 1 := Scalar.andi v2297 v2294
  let v2299 : BitVec 32 := Scalar.addi v2293 v2292
  let v2300 : BitVec 32 := Scalar.select v2298 v2299 v2293
  let c1_i32_2170 : BitVec 32 := 1#32
  let v2307 : BitVec 32 := Scalar.muli v2300 c1_i32_2170
  let v2308 : BitVec 32 := Scalar.addi c0_i32_2171 v2307
  v2308.toNat
def k0_dev122 (d0 : Dev nD) : Nat :=
  let c0_i32_2198 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_2176 : BitVec 32 := 28#32
  let v2317 : BitVec 32 := Scalar.addi v2 c28_i32_2176
  let c32_i32_2177 : BitVec 32 := 32#32
  let c0_i32_2178 : BitVec 32 := 0#32
  let v2318 : BitVec 1 := Scalar.cmpi .eq c32_i32_2177 c0_i32_2178
  let c1_i32_2179 : BitVec 32 := 1#32
  let v2319 : BitVec 32 := Scalar.select v2318 c1_i32_2179 c32_i32_2177
  let v2320 : BitVec 32 := Scalar.remsi v2317 v2319
  let c0_i32_2181 : BitVec 32 := 0#32
  let v2322 : BitVec 1 := Scalar.cmpi .slt v2320 c0_i32_2181
  let c0_i32_2182 : BitVec 32 := 0#32
  let v2323 : BitVec 1 := Scalar.cmpi .slt v2319 c0_i32_2182
  let v2324 : BitVec 1 := Scalar.xori v2322 v2323
  let c0_i32_2180 : BitVec 32 := 0#32
  let v2321 : BitVec 1 := Scalar.cmpi .ne v2320 c0_i32_2180
  let v2325 : BitVec 1 := Scalar.andi v2324 v2321
  let v2326 : BitVec 32 := Scalar.addi v2320 v2319
  let v2327 : BitVec 32 := Scalar.select v2325 v2326 v2320
  let c1_i32_2197 : BitVec 32 := 1#32
  let v2334 : BitVec 32 := Scalar.muli v2327 c1_i32_2197
  let v2335 : BitVec 32 := Scalar.addi c0_i32_2198 v2334
  v2335.toNat
def k0_dev123 (d0 : Dev nD) : Nat :=
  let c0_i32_2225 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_2203 : BitVec 32 := 29#32
  let v2344 : BitVec 32 := Scalar.addi v2 c29_i32_2203
  let c32_i32_2204 : BitVec 32 := 32#32
  let c0_i32_2205 : BitVec 32 := 0#32
  let v2345 : BitVec 1 := Scalar.cmpi .eq c32_i32_2204 c0_i32_2205
  let c1_i32_2206 : BitVec 32 := 1#32
  let v2346 : BitVec 32 := Scalar.select v2345 c1_i32_2206 c32_i32_2204
  let v2347 : BitVec 32 := Scalar.remsi v2344 v2346
  let c0_i32_2208 : BitVec 32 := 0#32
  let v2349 : BitVec 1 := Scalar.cmpi .slt v2347 c0_i32_2208
  let c0_i32_2209 : BitVec 32 := 0#32
  let v2350 : BitVec 1 := Scalar.cmpi .slt v2346 c0_i32_2209
  let v2351 : BitVec 1 := Scalar.xori v2349 v2350
  let c0_i32_2207 : BitVec 32 := 0#32
  let v2348 : BitVec 1 := Scalar.cmpi .ne v2347 c0_i32_2207
  let v2352 : BitVec 1 := Scalar.andi v2351 v2348
  let v2353 : BitVec 32 := Scalar.addi v2347 v2346
  let v2354 : BitVec 32 := Scalar.select v2352 v2353 v2347
  let c1_i32_2224 : BitVec 32 := 1#32
  let v2361 : BitVec 32 := Scalar.muli v2354 c1_i32_2224
  let v2362 : BitVec 32 := Scalar.addi c0_i32_2225 v2361
  v2362.toNat
def k0_dev124 (d0 : Dev nD) : Nat :=
  let c0_i32_2252 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_2230 : BitVec 32 := 30#32
  let v2371 : BitVec 32 := Scalar.addi v2 c30_i32_2230
  let c32_i32_2231 : BitVec 32 := 32#32
  let c0_i32_2232 : BitVec 32 := 0#32
  let v2372 : BitVec 1 := Scalar.cmpi .eq c32_i32_2231 c0_i32_2232
  let c1_i32_2233 : BitVec 32 := 1#32
  let v2373 : BitVec 32 := Scalar.select v2372 c1_i32_2233 c32_i32_2231
  let v2374 : BitVec 32 := Scalar.remsi v2371 v2373
  let c0_i32_2235 : BitVec 32 := 0#32
  let v2376 : BitVec 1 := Scalar.cmpi .slt v2374 c0_i32_2235
  let c0_i32_2236 : BitVec 32 := 0#32
  let v2377 : BitVec 1 := Scalar.cmpi .slt v2373 c0_i32_2236
  let v2378 : BitVec 1 := Scalar.xori v2376 v2377
  let c0_i32_2234 : BitVec 32 := 0#32
  let v2375 : BitVec 1 := Scalar.cmpi .ne v2374 c0_i32_2234
  let v2379 : BitVec 1 := Scalar.andi v2378 v2375
  let v2380 : BitVec 32 := Scalar.addi v2374 v2373
  let v2381 : BitVec 32 := Scalar.select v2379 v2380 v2374
  let c1_i32_2251 : BitVec 32 := 1#32
  let v2388 : BitVec 32 := Scalar.muli v2381 c1_i32_2251
  let v2389 : BitVec 32 := Scalar.addi c0_i32_2252 v2388
  v2389.toNat
def k0_dev125 (d0 : Dev nD) : Nat :=
  let c0_i32_2279 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_2257 : BitVec 32 := 31#32
  let v2398 : BitVec 32 := Scalar.addi v2 c31_i32_2257
  let c32_i32_2258 : BitVec 32 := 32#32
  let c0_i32_2259 : BitVec 32 := 0#32
  let v2399 : BitVec 1 := Scalar.cmpi .eq c32_i32_2258 c0_i32_2259
  let c1_i32_2260 : BitVec 32 := 1#32
  let v2400 : BitVec 32 := Scalar.select v2399 c1_i32_2260 c32_i32_2258
  let v2401 : BitVec 32 := Scalar.remsi v2398 v2400
  let c0_i32_2262 : BitVec 32 := 0#32
  let v2403 : BitVec 1 := Scalar.cmpi .slt v2401 c0_i32_2262
  let c0_i32_2263 : BitVec 32 := 0#32
  let v2404 : BitVec 1 := Scalar.cmpi .slt v2400 c0_i32_2263
  let v2405 : BitVec 1 := Scalar.xori v2403 v2404
  let c0_i32_2261 : BitVec 32 := 0#32
  let v2402 : BitVec 1 := Scalar.cmpi .ne v2401 c0_i32_2261
  let v2406 : BitVec 1 := Scalar.andi v2405 v2402
  let v2407 : BitVec 32 := Scalar.addi v2401 v2400
  let v2408 : BitVec 32 := Scalar.select v2406 v2407 v2401
  let c1_i32_2278 : BitVec 32 := 1#32
  let v2415 : BitVec 32 := Scalar.muli v2408 c1_i32_2278
  let v2416 : BitVec 32 := Scalar.addi c0_i32_2279 v2415
  v2416.toNat
def k0_off6 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2679 : Index := Scalar.indexCast v2
  let c0_2629 : Index := 0#32
  let c256_2630 : Index := 256#32
  ![v2679.toNat, 0, 256]
def k0_off7 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2654 : BitVec 32 := 0#32
  let c256_i32_2655 : BitVec 32 := 256#32
  ![v2.toNat, 0, 256]
def k0_dev126 (d0 : Dev nD) : Nat :=
  let c0_i32_2653 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_2631 : BitVec 32 := 1#32
  let v2683 : BitVec 32 := Scalar.addi v2 c1_i32_2631
  let c32_i32_2632 : BitVec 32 := 32#32
  let c0_i32_2633 : BitVec 32 := 0#32
  let v2684 : BitVec 1 := Scalar.cmpi .eq c32_i32_2632 c0_i32_2633
  let c1_i32_2634 : BitVec 32 := 1#32
  let v2685 : BitVec 32 := Scalar.select v2684 c1_i32_2634 c32_i32_2632
  let v2686 : BitVec 32 := Scalar.remsi v2683 v2685
  let c0_i32_2636 : BitVec 32 := 0#32
  let v2688 : BitVec 1 := Scalar.cmpi .slt v2686 c0_i32_2636
  let c0_i32_2637 : BitVec 32 := 0#32
  let v2689 : BitVec 1 := Scalar.cmpi .slt v2685 c0_i32_2637
  let v2690 : BitVec 1 := Scalar.xori v2688 v2689
  let c0_i32_2635 : BitVec 32 := 0#32
  let v2687 : BitVec 1 := Scalar.cmpi .ne v2686 c0_i32_2635
  let v2691 : BitVec 1 := Scalar.andi v2690 v2687
  let v2692 : BitVec 32 := Scalar.addi v2686 v2685
  let v2693 : BitVec 32 := Scalar.select v2691 v2692 v2686
  let c1_i32_2652 : BitVec 32 := 1#32
  let v2700 : BitVec 32 := Scalar.muli v2693 c1_i32_2652
  let v2701 : BitVec 32 := Scalar.addi c0_i32_2653 v2700
  v2701.toNat
def k0_dev127 (d0 : Dev nD) : Nat :=
  let c0_i32_2680 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_2658 : BitVec 32 := 2#32
  let v2710 : BitVec 32 := Scalar.addi v2 c2_i32_2658
  let c32_i32_2659 : BitVec 32 := 32#32
  let c0_i32_2660 : BitVec 32 := 0#32
  let v2711 : BitVec 1 := Scalar.cmpi .eq c32_i32_2659 c0_i32_2660
  let c1_i32_2661 : BitVec 32 := 1#32
  let v2712 : BitVec 32 := Scalar.select v2711 c1_i32_2661 c32_i32_2659
  let v2713 : BitVec 32 := Scalar.remsi v2710 v2712
  let c0_i32_2663 : BitVec 32 := 0#32
  let v2715 : BitVec 1 := Scalar.cmpi .slt v2713 c0_i32_2663
  let c0_i32_2664 : BitVec 32 := 0#32
  let v2716 : BitVec 1 := Scalar.cmpi .slt v2712 c0_i32_2664
  let v2717 : BitVec 1 := Scalar.xori v2715 v2716
  let c0_i32_2662 : BitVec 32 := 0#32
  let v2714 : BitVec 1 := Scalar.cmpi .ne v2713 c0_i32_2662
  let v2718 : BitVec 1 := Scalar.andi v2717 v2714
  let v2719 : BitVec 32 := Scalar.addi v2713 v2712
  let v2720 : BitVec 32 := Scalar.select v2718 v2719 v2713
  let c1_i32_2679 : BitVec 32 := 1#32
  let v2727 : BitVec 32 := Scalar.muli v2720 c1_i32_2679
  let v2728 : BitVec 32 := Scalar.addi c0_i32_2680 v2727
  v2728.toNat
def k0_dev128 (d0 : Dev nD) : Nat :=
  let c0_i32_2707 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_2685 : BitVec 32 := 3#32
  let v2737 : BitVec 32 := Scalar.addi v2 c3_i32_2685
  let c32_i32_2686 : BitVec 32 := 32#32
  let c0_i32_2687 : BitVec 32 := 0#32
  let v2738 : BitVec 1 := Scalar.cmpi .eq c32_i32_2686 c0_i32_2687
  let c1_i32_2688 : BitVec 32 := 1#32
  let v2739 : BitVec 32 := Scalar.select v2738 c1_i32_2688 c32_i32_2686
  let v2740 : BitVec 32 := Scalar.remsi v2737 v2739
  let c0_i32_2690 : BitVec 32 := 0#32
  let v2742 : BitVec 1 := Scalar.cmpi .slt v2740 c0_i32_2690
  let c0_i32_2691 : BitVec 32 := 0#32
  let v2743 : BitVec 1 := Scalar.cmpi .slt v2739 c0_i32_2691
  let v2744 : BitVec 1 := Scalar.xori v2742 v2743
  let c0_i32_2689 : BitVec 32 := 0#32
  let v2741 : BitVec 1 := Scalar.cmpi .ne v2740 c0_i32_2689
  let v2745 : BitVec 1 := Scalar.andi v2744 v2741
  let v2746 : BitVec 32 := Scalar.addi v2740 v2739
  let v2747 : BitVec 32 := Scalar.select v2745 v2746 v2740
  let c1_i32_2706 : BitVec 32 := 1#32
  let v2754 : BitVec 32 := Scalar.muli v2747 c1_i32_2706
  let v2755 : BitVec 32 := Scalar.addi c0_i32_2707 v2754
  v2755.toNat
def k0_dev129 (d0 : Dev nD) : Nat :=
  let c0_i32_2734 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_2712 : BitVec 32 := 4#32
  let v2764 : BitVec 32 := Scalar.addi v2 c4_i32_2712
  let c32_i32_2713 : BitVec 32 := 32#32
  let c0_i32_2714 : BitVec 32 := 0#32
  let v2765 : BitVec 1 := Scalar.cmpi .eq c32_i32_2713 c0_i32_2714
  let c1_i32_2715 : BitVec 32 := 1#32
  let v2766 : BitVec 32 := Scalar.select v2765 c1_i32_2715 c32_i32_2713
  let v2767 : BitVec 32 := Scalar.remsi v2764 v2766
  let c0_i32_2717 : BitVec 32 := 0#32
  let v2769 : BitVec 1 := Scalar.cmpi .slt v2767 c0_i32_2717
  let c0_i32_2718 : BitVec 32 := 0#32
  let v2770 : BitVec 1 := Scalar.cmpi .slt v2766 c0_i32_2718
  let v2771 : BitVec 1 := Scalar.xori v2769 v2770
  let c0_i32_2716 : BitVec 32 := 0#32
  let v2768 : BitVec 1 := Scalar.cmpi .ne v2767 c0_i32_2716
  let v2772 : BitVec 1 := Scalar.andi v2771 v2768
  let v2773 : BitVec 32 := Scalar.addi v2767 v2766
  let v2774 : BitVec 32 := Scalar.select v2772 v2773 v2767
  let c1_i32_2733 : BitVec 32 := 1#32
  let v2781 : BitVec 32 := Scalar.muli v2774 c1_i32_2733
  let v2782 : BitVec 32 := Scalar.addi c0_i32_2734 v2781
  v2782.toNat
def k0_dev130 (d0 : Dev nD) : Nat :=
  let c0_i32_2761 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_2739 : BitVec 32 := 5#32
  let v2791 : BitVec 32 := Scalar.addi v2 c5_i32_2739
  let c32_i32_2740 : BitVec 32 := 32#32
  let c0_i32_2741 : BitVec 32 := 0#32
  let v2792 : BitVec 1 := Scalar.cmpi .eq c32_i32_2740 c0_i32_2741
  let c1_i32_2742 : BitVec 32 := 1#32
  let v2793 : BitVec 32 := Scalar.select v2792 c1_i32_2742 c32_i32_2740
  let v2794 : BitVec 32 := Scalar.remsi v2791 v2793
  let c0_i32_2744 : BitVec 32 := 0#32
  let v2796 : BitVec 1 := Scalar.cmpi .slt v2794 c0_i32_2744
  let c0_i32_2745 : BitVec 32 := 0#32
  let v2797 : BitVec 1 := Scalar.cmpi .slt v2793 c0_i32_2745
  let v2798 : BitVec 1 := Scalar.xori v2796 v2797
  let c0_i32_2743 : BitVec 32 := 0#32
  let v2795 : BitVec 1 := Scalar.cmpi .ne v2794 c0_i32_2743
  let v2799 : BitVec 1 := Scalar.andi v2798 v2795
  let v2800 : BitVec 32 := Scalar.addi v2794 v2793
  let v2801 : BitVec 32 := Scalar.select v2799 v2800 v2794
  let c1_i32_2760 : BitVec 32 := 1#32
  let v2808 : BitVec 32 := Scalar.muli v2801 c1_i32_2760
  let v2809 : BitVec 32 := Scalar.addi c0_i32_2761 v2808
  v2809.toNat
def k0_dev131 (d0 : Dev nD) : Nat :=
  let c0_i32_2788 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_2766 : BitVec 32 := 6#32
  let v2818 : BitVec 32 := Scalar.addi v2 c6_i32_2766
  let c32_i32_2767 : BitVec 32 := 32#32
  let c0_i32_2768 : BitVec 32 := 0#32
  let v2819 : BitVec 1 := Scalar.cmpi .eq c32_i32_2767 c0_i32_2768
  let c1_i32_2769 : BitVec 32 := 1#32
  let v2820 : BitVec 32 := Scalar.select v2819 c1_i32_2769 c32_i32_2767
  let v2821 : BitVec 32 := Scalar.remsi v2818 v2820
  let c0_i32_2771 : BitVec 32 := 0#32
  let v2823 : BitVec 1 := Scalar.cmpi .slt v2821 c0_i32_2771
  let c0_i32_2772 : BitVec 32 := 0#32
  let v2824 : BitVec 1 := Scalar.cmpi .slt v2820 c0_i32_2772
  let v2825 : BitVec 1 := Scalar.xori v2823 v2824
  let c0_i32_2770 : BitVec 32 := 0#32
  let v2822 : BitVec 1 := Scalar.cmpi .ne v2821 c0_i32_2770
  let v2826 : BitVec 1 := Scalar.andi v2825 v2822
  let v2827 : BitVec 32 := Scalar.addi v2821 v2820
  let v2828 : BitVec 32 := Scalar.select v2826 v2827 v2821
  let c1_i32_2787 : BitVec 32 := 1#32
  let v2835 : BitVec 32 := Scalar.muli v2828 c1_i32_2787
  let v2836 : BitVec 32 := Scalar.addi c0_i32_2788 v2835
  v2836.toNat
def k0_dev132 (d0 : Dev nD) : Nat :=
  let c0_i32_2815 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_2793 : BitVec 32 := 7#32
  let v2845 : BitVec 32 := Scalar.addi v2 c7_i32_2793
  let c32_i32_2794 : BitVec 32 := 32#32
  let c0_i32_2795 : BitVec 32 := 0#32
  let v2846 : BitVec 1 := Scalar.cmpi .eq c32_i32_2794 c0_i32_2795
  let c1_i32_2796 : BitVec 32 := 1#32
  let v2847 : BitVec 32 := Scalar.select v2846 c1_i32_2796 c32_i32_2794
  let v2848 : BitVec 32 := Scalar.remsi v2845 v2847
  let c0_i32_2798 : BitVec 32 := 0#32
  let v2850 : BitVec 1 := Scalar.cmpi .slt v2848 c0_i32_2798
  let c0_i32_2799 : BitVec 32 := 0#32
  let v2851 : BitVec 1 := Scalar.cmpi .slt v2847 c0_i32_2799
  let v2852 : BitVec 1 := Scalar.xori v2850 v2851
  let c0_i32_2797 : BitVec 32 := 0#32
  let v2849 : BitVec 1 := Scalar.cmpi .ne v2848 c0_i32_2797
  let v2853 : BitVec 1 := Scalar.andi v2852 v2849
  let v2854 : BitVec 32 := Scalar.addi v2848 v2847
  let v2855 : BitVec 32 := Scalar.select v2853 v2854 v2848
  let c1_i32_2814 : BitVec 32 := 1#32
  let v2862 : BitVec 32 := Scalar.muli v2855 c1_i32_2814
  let v2863 : BitVec 32 := Scalar.addi c0_i32_2815 v2862
  v2863.toNat
def k0_dev133 (d0 : Dev nD) : Nat :=
  let c0_i32_2842 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_2820 : BitVec 32 := 8#32
  let v2872 : BitVec 32 := Scalar.addi v2 c8_i32_2820
  let c32_i32_2821 : BitVec 32 := 32#32
  let c0_i32_2822 : BitVec 32 := 0#32
  let v2873 : BitVec 1 := Scalar.cmpi .eq c32_i32_2821 c0_i32_2822
  let c1_i32_2823 : BitVec 32 := 1#32
  let v2874 : BitVec 32 := Scalar.select v2873 c1_i32_2823 c32_i32_2821
  let v2875 : BitVec 32 := Scalar.remsi v2872 v2874
  let c0_i32_2825 : BitVec 32 := 0#32
  let v2877 : BitVec 1 := Scalar.cmpi .slt v2875 c0_i32_2825
  let c0_i32_2826 : BitVec 32 := 0#32
  let v2878 : BitVec 1 := Scalar.cmpi .slt v2874 c0_i32_2826
  let v2879 : BitVec 1 := Scalar.xori v2877 v2878
  let c0_i32_2824 : BitVec 32 := 0#32
  let v2876 : BitVec 1 := Scalar.cmpi .ne v2875 c0_i32_2824
  let v2880 : BitVec 1 := Scalar.andi v2879 v2876
  let v2881 : BitVec 32 := Scalar.addi v2875 v2874
  let v2882 : BitVec 32 := Scalar.select v2880 v2881 v2875
  let c1_i32_2841 : BitVec 32 := 1#32
  let v2889 : BitVec 32 := Scalar.muli v2882 c1_i32_2841
  let v2890 : BitVec 32 := Scalar.addi c0_i32_2842 v2889
  v2890.toNat
def k0_dev134 (d0 : Dev nD) : Nat :=
  let c0_i32_2869 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_2847 : BitVec 32 := 9#32
  let v2899 : BitVec 32 := Scalar.addi v2 c9_i32_2847
  let c32_i32_2848 : BitVec 32 := 32#32
  let c0_i32_2849 : BitVec 32 := 0#32
  let v2900 : BitVec 1 := Scalar.cmpi .eq c32_i32_2848 c0_i32_2849
  let c1_i32_2850 : BitVec 32 := 1#32
  let v2901 : BitVec 32 := Scalar.select v2900 c1_i32_2850 c32_i32_2848
  let v2902 : BitVec 32 := Scalar.remsi v2899 v2901
  let c0_i32_2852 : BitVec 32 := 0#32
  let v2904 : BitVec 1 := Scalar.cmpi .slt v2902 c0_i32_2852
  let c0_i32_2853 : BitVec 32 := 0#32
  let v2905 : BitVec 1 := Scalar.cmpi .slt v2901 c0_i32_2853
  let v2906 : BitVec 1 := Scalar.xori v2904 v2905
  let c0_i32_2851 : BitVec 32 := 0#32
  let v2903 : BitVec 1 := Scalar.cmpi .ne v2902 c0_i32_2851
  let v2907 : BitVec 1 := Scalar.andi v2906 v2903
  let v2908 : BitVec 32 := Scalar.addi v2902 v2901
  let v2909 : BitVec 32 := Scalar.select v2907 v2908 v2902
  let c1_i32_2868 : BitVec 32 := 1#32
  let v2916 : BitVec 32 := Scalar.muli v2909 c1_i32_2868
  let v2917 : BitVec 32 := Scalar.addi c0_i32_2869 v2916
  v2917.toNat
def k0_dev135 (d0 : Dev nD) : Nat :=
  let c0_i32_2896 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_2874 : BitVec 32 := 10#32
  let v2926 : BitVec 32 := Scalar.addi v2 c10_i32_2874
  let c32_i32_2875 : BitVec 32 := 32#32
  let c0_i32_2876 : BitVec 32 := 0#32
  let v2927 : BitVec 1 := Scalar.cmpi .eq c32_i32_2875 c0_i32_2876
  let c1_i32_2877 : BitVec 32 := 1#32
  let v2928 : BitVec 32 := Scalar.select v2927 c1_i32_2877 c32_i32_2875
  let v2929 : BitVec 32 := Scalar.remsi v2926 v2928
  let c0_i32_2879 : BitVec 32 := 0#32
  let v2931 : BitVec 1 := Scalar.cmpi .slt v2929 c0_i32_2879
  let c0_i32_2880 : BitVec 32 := 0#32
  let v2932 : BitVec 1 := Scalar.cmpi .slt v2928 c0_i32_2880
  let v2933 : BitVec 1 := Scalar.xori v2931 v2932
  let c0_i32_2878 : BitVec 32 := 0#32
  let v2930 : BitVec 1 := Scalar.cmpi .ne v2929 c0_i32_2878
  let v2934 : BitVec 1 := Scalar.andi v2933 v2930
  let v2935 : BitVec 32 := Scalar.addi v2929 v2928
  let v2936 : BitVec 32 := Scalar.select v2934 v2935 v2929
  let c1_i32_2895 : BitVec 32 := 1#32
  let v2943 : BitVec 32 := Scalar.muli v2936 c1_i32_2895
  let v2944 : BitVec 32 := Scalar.addi c0_i32_2896 v2943
  v2944.toNat
def k0_dev136 (d0 : Dev nD) : Nat :=
  let c0_i32_2923 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_2901 : BitVec 32 := 11#32
  let v2953 : BitVec 32 := Scalar.addi v2 c11_i32_2901
  let c32_i32_2902 : BitVec 32 := 32#32
  let c0_i32_2903 : BitVec 32 := 0#32
  let v2954 : BitVec 1 := Scalar.cmpi .eq c32_i32_2902 c0_i32_2903
  let c1_i32_2904 : BitVec 32 := 1#32
  let v2955 : BitVec 32 := Scalar.select v2954 c1_i32_2904 c32_i32_2902
  let v2956 : BitVec 32 := Scalar.remsi v2953 v2955
  let c0_i32_2906 : BitVec 32 := 0#32
  let v2958 : BitVec 1 := Scalar.cmpi .slt v2956 c0_i32_2906
  let c0_i32_2907 : BitVec 32 := 0#32
  let v2959 : BitVec 1 := Scalar.cmpi .slt v2955 c0_i32_2907
  let v2960 : BitVec 1 := Scalar.xori v2958 v2959
  let c0_i32_2905 : BitVec 32 := 0#32
  let v2957 : BitVec 1 := Scalar.cmpi .ne v2956 c0_i32_2905
  let v2961 : BitVec 1 := Scalar.andi v2960 v2957
  let v2962 : BitVec 32 := Scalar.addi v2956 v2955
  let v2963 : BitVec 32 := Scalar.select v2961 v2962 v2956
  let c1_i32_2922 : BitVec 32 := 1#32
  let v2970 : BitVec 32 := Scalar.muli v2963 c1_i32_2922
  let v2971 : BitVec 32 := Scalar.addi c0_i32_2923 v2970
  v2971.toNat
def k0_dev137 (d0 : Dev nD) : Nat :=
  let c0_i32_2950 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_2928 : BitVec 32 := 12#32
  let v2980 : BitVec 32 := Scalar.addi v2 c12_i32_2928
  let c32_i32_2929 : BitVec 32 := 32#32
  let c0_i32_2930 : BitVec 32 := 0#32
  let v2981 : BitVec 1 := Scalar.cmpi .eq c32_i32_2929 c0_i32_2930
  let c1_i32_2931 : BitVec 32 := 1#32
  let v2982 : BitVec 32 := Scalar.select v2981 c1_i32_2931 c32_i32_2929
  let v2983 : BitVec 32 := Scalar.remsi v2980 v2982
  let c0_i32_2933 : BitVec 32 := 0#32
  let v2985 : BitVec 1 := Scalar.cmpi .slt v2983 c0_i32_2933
  let c0_i32_2934 : BitVec 32 := 0#32
  let v2986 : BitVec 1 := Scalar.cmpi .slt v2982 c0_i32_2934
  let v2987 : BitVec 1 := Scalar.xori v2985 v2986
  let c0_i32_2932 : BitVec 32 := 0#32
  let v2984 : BitVec 1 := Scalar.cmpi .ne v2983 c0_i32_2932
  let v2988 : BitVec 1 := Scalar.andi v2987 v2984
  let v2989 : BitVec 32 := Scalar.addi v2983 v2982
  let v2990 : BitVec 32 := Scalar.select v2988 v2989 v2983
  let c1_i32_2949 : BitVec 32 := 1#32
  let v2997 : BitVec 32 := Scalar.muli v2990 c1_i32_2949
  let v2998 : BitVec 32 := Scalar.addi c0_i32_2950 v2997
  v2998.toNat
def k0_dev138 (d0 : Dev nD) : Nat :=
  let c0_i32_2977 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_2955 : BitVec 32 := 13#32
  let v3007 : BitVec 32 := Scalar.addi v2 c13_i32_2955
  let c32_i32_2956 : BitVec 32 := 32#32
  let c0_i32_2957 : BitVec 32 := 0#32
  let v3008 : BitVec 1 := Scalar.cmpi .eq c32_i32_2956 c0_i32_2957
  let c1_i32_2958 : BitVec 32 := 1#32
  let v3009 : BitVec 32 := Scalar.select v3008 c1_i32_2958 c32_i32_2956
  let v3010 : BitVec 32 := Scalar.remsi v3007 v3009
  let c0_i32_2960 : BitVec 32 := 0#32
  let v3012 : BitVec 1 := Scalar.cmpi .slt v3010 c0_i32_2960
  let c0_i32_2961 : BitVec 32 := 0#32
  let v3013 : BitVec 1 := Scalar.cmpi .slt v3009 c0_i32_2961
  let v3014 : BitVec 1 := Scalar.xori v3012 v3013
  let c0_i32_2959 : BitVec 32 := 0#32
  let v3011 : BitVec 1 := Scalar.cmpi .ne v3010 c0_i32_2959
  let v3015 : BitVec 1 := Scalar.andi v3014 v3011
  let v3016 : BitVec 32 := Scalar.addi v3010 v3009
  let v3017 : BitVec 32 := Scalar.select v3015 v3016 v3010
  let c1_i32_2976 : BitVec 32 := 1#32
  let v3024 : BitVec 32 := Scalar.muli v3017 c1_i32_2976
  let v3025 : BitVec 32 := Scalar.addi c0_i32_2977 v3024
  v3025.toNat
def k0_dev139 (d0 : Dev nD) : Nat :=
  let c0_i32_3004 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_2982 : BitVec 32 := 14#32
  let v3034 : BitVec 32 := Scalar.addi v2 c14_i32_2982
  let c32_i32_2983 : BitVec 32 := 32#32
  let c0_i32_2984 : BitVec 32 := 0#32
  let v3035 : BitVec 1 := Scalar.cmpi .eq c32_i32_2983 c0_i32_2984
  let c1_i32_2985 : BitVec 32 := 1#32
  let v3036 : BitVec 32 := Scalar.select v3035 c1_i32_2985 c32_i32_2983
  let v3037 : BitVec 32 := Scalar.remsi v3034 v3036
  let c0_i32_2987 : BitVec 32 := 0#32
  let v3039 : BitVec 1 := Scalar.cmpi .slt v3037 c0_i32_2987
  let c0_i32_2988 : BitVec 32 := 0#32
  let v3040 : BitVec 1 := Scalar.cmpi .slt v3036 c0_i32_2988
  let v3041 : BitVec 1 := Scalar.xori v3039 v3040
  let c0_i32_2986 : BitVec 32 := 0#32
  let v3038 : BitVec 1 := Scalar.cmpi .ne v3037 c0_i32_2986
  let v3042 : BitVec 1 := Scalar.andi v3041 v3038
  let v3043 : BitVec 32 := Scalar.addi v3037 v3036
  let v3044 : BitVec 32 := Scalar.select v3042 v3043 v3037
  let c1_i32_3003 : BitVec 32 := 1#32
  let v3051 : BitVec 32 := Scalar.muli v3044 c1_i32_3003
  let v3052 : BitVec 32 := Scalar.addi c0_i32_3004 v3051
  v3052.toNat
def k0_dev140 (d0 : Dev nD) : Nat :=
  let c0_i32_3031 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_3009 : BitVec 32 := 15#32
  let v3061 : BitVec 32 := Scalar.addi v2 c15_i32_3009
  let c32_i32_3010 : BitVec 32 := 32#32
  let c0_i32_3011 : BitVec 32 := 0#32
  let v3062 : BitVec 1 := Scalar.cmpi .eq c32_i32_3010 c0_i32_3011
  let c1_i32_3012 : BitVec 32 := 1#32
  let v3063 : BitVec 32 := Scalar.select v3062 c1_i32_3012 c32_i32_3010
  let v3064 : BitVec 32 := Scalar.remsi v3061 v3063
  let c0_i32_3014 : BitVec 32 := 0#32
  let v3066 : BitVec 1 := Scalar.cmpi .slt v3064 c0_i32_3014
  let c0_i32_3015 : BitVec 32 := 0#32
  let v3067 : BitVec 1 := Scalar.cmpi .slt v3063 c0_i32_3015
  let v3068 : BitVec 1 := Scalar.xori v3066 v3067
  let c0_i32_3013 : BitVec 32 := 0#32
  let v3065 : BitVec 1 := Scalar.cmpi .ne v3064 c0_i32_3013
  let v3069 : BitVec 1 := Scalar.andi v3068 v3065
  let v3070 : BitVec 32 := Scalar.addi v3064 v3063
  let v3071 : BitVec 32 := Scalar.select v3069 v3070 v3064
  let c1_i32_3030 : BitVec 32 := 1#32
  let v3078 : BitVec 32 := Scalar.muli v3071 c1_i32_3030
  let v3079 : BitVec 32 := Scalar.addi c0_i32_3031 v3078
  v3079.toNat
def k0_dev141 (d0 : Dev nD) : Nat :=
  let c0_i32_3058 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_3036 : BitVec 32 := 16#32
  let v3088 : BitVec 32 := Scalar.addi v2 c16_i32_3036
  let c32_i32_3037 : BitVec 32 := 32#32
  let c0_i32_3038 : BitVec 32 := 0#32
  let v3089 : BitVec 1 := Scalar.cmpi .eq c32_i32_3037 c0_i32_3038
  let c1_i32_3039 : BitVec 32 := 1#32
  let v3090 : BitVec 32 := Scalar.select v3089 c1_i32_3039 c32_i32_3037
  let v3091 : BitVec 32 := Scalar.remsi v3088 v3090
  let c0_i32_3041 : BitVec 32 := 0#32
  let v3093 : BitVec 1 := Scalar.cmpi .slt v3091 c0_i32_3041
  let c0_i32_3042 : BitVec 32 := 0#32
  let v3094 : BitVec 1 := Scalar.cmpi .slt v3090 c0_i32_3042
  let v3095 : BitVec 1 := Scalar.xori v3093 v3094
  let c0_i32_3040 : BitVec 32 := 0#32
  let v3092 : BitVec 1 := Scalar.cmpi .ne v3091 c0_i32_3040
  let v3096 : BitVec 1 := Scalar.andi v3095 v3092
  let v3097 : BitVec 32 := Scalar.addi v3091 v3090
  let v3098 : BitVec 32 := Scalar.select v3096 v3097 v3091
  let c1_i32_3057 : BitVec 32 := 1#32
  let v3105 : BitVec 32 := Scalar.muli v3098 c1_i32_3057
  let v3106 : BitVec 32 := Scalar.addi c0_i32_3058 v3105
  v3106.toNat
def k0_dev142 (d0 : Dev nD) : Nat :=
  let c0_i32_3085 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_3063 : BitVec 32 := 17#32
  let v3115 : BitVec 32 := Scalar.addi v2 c17_i32_3063
  let c32_i32_3064 : BitVec 32 := 32#32
  let c0_i32_3065 : BitVec 32 := 0#32
  let v3116 : BitVec 1 := Scalar.cmpi .eq c32_i32_3064 c0_i32_3065
  let c1_i32_3066 : BitVec 32 := 1#32
  let v3117 : BitVec 32 := Scalar.select v3116 c1_i32_3066 c32_i32_3064
  let v3118 : BitVec 32 := Scalar.remsi v3115 v3117
  let c0_i32_3068 : BitVec 32 := 0#32
  let v3120 : BitVec 1 := Scalar.cmpi .slt v3118 c0_i32_3068
  let c0_i32_3069 : BitVec 32 := 0#32
  let v3121 : BitVec 1 := Scalar.cmpi .slt v3117 c0_i32_3069
  let v3122 : BitVec 1 := Scalar.xori v3120 v3121
  let c0_i32_3067 : BitVec 32 := 0#32
  let v3119 : BitVec 1 := Scalar.cmpi .ne v3118 c0_i32_3067
  let v3123 : BitVec 1 := Scalar.andi v3122 v3119
  let v3124 : BitVec 32 := Scalar.addi v3118 v3117
  let v3125 : BitVec 32 := Scalar.select v3123 v3124 v3118
  let c1_i32_3084 : BitVec 32 := 1#32
  let v3132 : BitVec 32 := Scalar.muli v3125 c1_i32_3084
  let v3133 : BitVec 32 := Scalar.addi c0_i32_3085 v3132
  v3133.toNat
def k0_dev143 (d0 : Dev nD) : Nat :=
  let c0_i32_3112 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_3090 : BitVec 32 := 18#32
  let v3142 : BitVec 32 := Scalar.addi v2 c18_i32_3090
  let c32_i32_3091 : BitVec 32 := 32#32
  let c0_i32_3092 : BitVec 32 := 0#32
  let v3143 : BitVec 1 := Scalar.cmpi .eq c32_i32_3091 c0_i32_3092
  let c1_i32_3093 : BitVec 32 := 1#32
  let v3144 : BitVec 32 := Scalar.select v3143 c1_i32_3093 c32_i32_3091
  let v3145 : BitVec 32 := Scalar.remsi v3142 v3144
  let c0_i32_3095 : BitVec 32 := 0#32
  let v3147 : BitVec 1 := Scalar.cmpi .slt v3145 c0_i32_3095
  let c0_i32_3096 : BitVec 32 := 0#32
  let v3148 : BitVec 1 := Scalar.cmpi .slt v3144 c0_i32_3096
  let v3149 : BitVec 1 := Scalar.xori v3147 v3148
  let c0_i32_3094 : BitVec 32 := 0#32
  let v3146 : BitVec 1 := Scalar.cmpi .ne v3145 c0_i32_3094
  let v3150 : BitVec 1 := Scalar.andi v3149 v3146
  let v3151 : BitVec 32 := Scalar.addi v3145 v3144
  let v3152 : BitVec 32 := Scalar.select v3150 v3151 v3145
  let c1_i32_3111 : BitVec 32 := 1#32
  let v3159 : BitVec 32 := Scalar.muli v3152 c1_i32_3111
  let v3160 : BitVec 32 := Scalar.addi c0_i32_3112 v3159
  v3160.toNat
def k0_dev144 (d0 : Dev nD) : Nat :=
  let c0_i32_3139 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_3117 : BitVec 32 := 19#32
  let v3169 : BitVec 32 := Scalar.addi v2 c19_i32_3117
  let c32_i32_3118 : BitVec 32 := 32#32
  let c0_i32_3119 : BitVec 32 := 0#32
  let v3170 : BitVec 1 := Scalar.cmpi .eq c32_i32_3118 c0_i32_3119
  let c1_i32_3120 : BitVec 32 := 1#32
  let v3171 : BitVec 32 := Scalar.select v3170 c1_i32_3120 c32_i32_3118
  let v3172 : BitVec 32 := Scalar.remsi v3169 v3171
  let c0_i32_3122 : BitVec 32 := 0#32
  let v3174 : BitVec 1 := Scalar.cmpi .slt v3172 c0_i32_3122
  let c0_i32_3123 : BitVec 32 := 0#32
  let v3175 : BitVec 1 := Scalar.cmpi .slt v3171 c0_i32_3123
  let v3176 : BitVec 1 := Scalar.xori v3174 v3175
  let c0_i32_3121 : BitVec 32 := 0#32
  let v3173 : BitVec 1 := Scalar.cmpi .ne v3172 c0_i32_3121
  let v3177 : BitVec 1 := Scalar.andi v3176 v3173
  let v3178 : BitVec 32 := Scalar.addi v3172 v3171
  let v3179 : BitVec 32 := Scalar.select v3177 v3178 v3172
  let c1_i32_3138 : BitVec 32 := 1#32
  let v3186 : BitVec 32 := Scalar.muli v3179 c1_i32_3138
  let v3187 : BitVec 32 := Scalar.addi c0_i32_3139 v3186
  v3187.toNat
def k0_dev145 (d0 : Dev nD) : Nat :=
  let c0_i32_3166 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_3144 : BitVec 32 := 20#32
  let v3196 : BitVec 32 := Scalar.addi v2 c20_i32_3144
  let c32_i32_3145 : BitVec 32 := 32#32
  let c0_i32_3146 : BitVec 32 := 0#32
  let v3197 : BitVec 1 := Scalar.cmpi .eq c32_i32_3145 c0_i32_3146
  let c1_i32_3147 : BitVec 32 := 1#32
  let v3198 : BitVec 32 := Scalar.select v3197 c1_i32_3147 c32_i32_3145
  let v3199 : BitVec 32 := Scalar.remsi v3196 v3198
  let c0_i32_3149 : BitVec 32 := 0#32
  let v3201 : BitVec 1 := Scalar.cmpi .slt v3199 c0_i32_3149
  let c0_i32_3150 : BitVec 32 := 0#32
  let v3202 : BitVec 1 := Scalar.cmpi .slt v3198 c0_i32_3150
  let v3203 : BitVec 1 := Scalar.xori v3201 v3202
  let c0_i32_3148 : BitVec 32 := 0#32
  let v3200 : BitVec 1 := Scalar.cmpi .ne v3199 c0_i32_3148
  let v3204 : BitVec 1 := Scalar.andi v3203 v3200
  let v3205 : BitVec 32 := Scalar.addi v3199 v3198
  let v3206 : BitVec 32 := Scalar.select v3204 v3205 v3199
  let c1_i32_3165 : BitVec 32 := 1#32
  let v3213 : BitVec 32 := Scalar.muli v3206 c1_i32_3165
  let v3214 : BitVec 32 := Scalar.addi c0_i32_3166 v3213
  v3214.toNat
def k0_dev146 (d0 : Dev nD) : Nat :=
  let c0_i32_3193 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_3171 : BitVec 32 := 21#32
  let v3223 : BitVec 32 := Scalar.addi v2 c21_i32_3171
  let c32_i32_3172 : BitVec 32 := 32#32
  let c0_i32_3173 : BitVec 32 := 0#32
  let v3224 : BitVec 1 := Scalar.cmpi .eq c32_i32_3172 c0_i32_3173
  let c1_i32_3174 : BitVec 32 := 1#32
  let v3225 : BitVec 32 := Scalar.select v3224 c1_i32_3174 c32_i32_3172
  let v3226 : BitVec 32 := Scalar.remsi v3223 v3225
  let c0_i32_3176 : BitVec 32 := 0#32
  let v3228 : BitVec 1 := Scalar.cmpi .slt v3226 c0_i32_3176
  let c0_i32_3177 : BitVec 32 := 0#32
  let v3229 : BitVec 1 := Scalar.cmpi .slt v3225 c0_i32_3177
  let v3230 : BitVec 1 := Scalar.xori v3228 v3229
  let c0_i32_3175 : BitVec 32 := 0#32
  let v3227 : BitVec 1 := Scalar.cmpi .ne v3226 c0_i32_3175
  let v3231 : BitVec 1 := Scalar.andi v3230 v3227
  let v3232 : BitVec 32 := Scalar.addi v3226 v3225
  let v3233 : BitVec 32 := Scalar.select v3231 v3232 v3226
  let c1_i32_3192 : BitVec 32 := 1#32
  let v3240 : BitVec 32 := Scalar.muli v3233 c1_i32_3192
  let v3241 : BitVec 32 := Scalar.addi c0_i32_3193 v3240
  v3241.toNat
def k0_dev147 (d0 : Dev nD) : Nat :=
  let c0_i32_3220 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_3198 : BitVec 32 := 22#32
  let v3250 : BitVec 32 := Scalar.addi v2 c22_i32_3198
  let c32_i32_3199 : BitVec 32 := 32#32
  let c0_i32_3200 : BitVec 32 := 0#32
  let v3251 : BitVec 1 := Scalar.cmpi .eq c32_i32_3199 c0_i32_3200
  let c1_i32_3201 : BitVec 32 := 1#32
  let v3252 : BitVec 32 := Scalar.select v3251 c1_i32_3201 c32_i32_3199
  let v3253 : BitVec 32 := Scalar.remsi v3250 v3252
  let c0_i32_3203 : BitVec 32 := 0#32
  let v3255 : BitVec 1 := Scalar.cmpi .slt v3253 c0_i32_3203
  let c0_i32_3204 : BitVec 32 := 0#32
  let v3256 : BitVec 1 := Scalar.cmpi .slt v3252 c0_i32_3204
  let v3257 : BitVec 1 := Scalar.xori v3255 v3256
  let c0_i32_3202 : BitVec 32 := 0#32
  let v3254 : BitVec 1 := Scalar.cmpi .ne v3253 c0_i32_3202
  let v3258 : BitVec 1 := Scalar.andi v3257 v3254
  let v3259 : BitVec 32 := Scalar.addi v3253 v3252
  let v3260 : BitVec 32 := Scalar.select v3258 v3259 v3253
  let c1_i32_3219 : BitVec 32 := 1#32
  let v3267 : BitVec 32 := Scalar.muli v3260 c1_i32_3219
  let v3268 : BitVec 32 := Scalar.addi c0_i32_3220 v3267
  v3268.toNat
def k0_dev148 (d0 : Dev nD) : Nat :=
  let c0_i32_3247 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_3225 : BitVec 32 := 23#32
  let v3277 : BitVec 32 := Scalar.addi v2 c23_i32_3225
  let c32_i32_3226 : BitVec 32 := 32#32
  let c0_i32_3227 : BitVec 32 := 0#32
  let v3278 : BitVec 1 := Scalar.cmpi .eq c32_i32_3226 c0_i32_3227
  let c1_i32_3228 : BitVec 32 := 1#32
  let v3279 : BitVec 32 := Scalar.select v3278 c1_i32_3228 c32_i32_3226
  let v3280 : BitVec 32 := Scalar.remsi v3277 v3279
  let c0_i32_3230 : BitVec 32 := 0#32
  let v3282 : BitVec 1 := Scalar.cmpi .slt v3280 c0_i32_3230
  let c0_i32_3231 : BitVec 32 := 0#32
  let v3283 : BitVec 1 := Scalar.cmpi .slt v3279 c0_i32_3231
  let v3284 : BitVec 1 := Scalar.xori v3282 v3283
  let c0_i32_3229 : BitVec 32 := 0#32
  let v3281 : BitVec 1 := Scalar.cmpi .ne v3280 c0_i32_3229
  let v3285 : BitVec 1 := Scalar.andi v3284 v3281
  let v3286 : BitVec 32 := Scalar.addi v3280 v3279
  let v3287 : BitVec 32 := Scalar.select v3285 v3286 v3280
  let c1_i32_3246 : BitVec 32 := 1#32
  let v3294 : BitVec 32 := Scalar.muli v3287 c1_i32_3246
  let v3295 : BitVec 32 := Scalar.addi c0_i32_3247 v3294
  v3295.toNat
def k0_dev149 (d0 : Dev nD) : Nat :=
  let c0_i32_3274 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_3252 : BitVec 32 := 24#32
  let v3304 : BitVec 32 := Scalar.addi v2 c24_i32_3252
  let c32_i32_3253 : BitVec 32 := 32#32
  let c0_i32_3254 : BitVec 32 := 0#32
  let v3305 : BitVec 1 := Scalar.cmpi .eq c32_i32_3253 c0_i32_3254
  let c1_i32_3255 : BitVec 32 := 1#32
  let v3306 : BitVec 32 := Scalar.select v3305 c1_i32_3255 c32_i32_3253
  let v3307 : BitVec 32 := Scalar.remsi v3304 v3306
  let c0_i32_3257 : BitVec 32 := 0#32
  let v3309 : BitVec 1 := Scalar.cmpi .slt v3307 c0_i32_3257
  let c0_i32_3258 : BitVec 32 := 0#32
  let v3310 : BitVec 1 := Scalar.cmpi .slt v3306 c0_i32_3258
  let v3311 : BitVec 1 := Scalar.xori v3309 v3310
  let c0_i32_3256 : BitVec 32 := 0#32
  let v3308 : BitVec 1 := Scalar.cmpi .ne v3307 c0_i32_3256
  let v3312 : BitVec 1 := Scalar.andi v3311 v3308
  let v3313 : BitVec 32 := Scalar.addi v3307 v3306
  let v3314 : BitVec 32 := Scalar.select v3312 v3313 v3307
  let c1_i32_3273 : BitVec 32 := 1#32
  let v3321 : BitVec 32 := Scalar.muli v3314 c1_i32_3273
  let v3322 : BitVec 32 := Scalar.addi c0_i32_3274 v3321
  v3322.toNat
def k0_dev150 (d0 : Dev nD) : Nat :=
  let c0_i32_3301 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_3279 : BitVec 32 := 25#32
  let v3331 : BitVec 32 := Scalar.addi v2 c25_i32_3279
  let c32_i32_3280 : BitVec 32 := 32#32
  let c0_i32_3281 : BitVec 32 := 0#32
  let v3332 : BitVec 1 := Scalar.cmpi .eq c32_i32_3280 c0_i32_3281
  let c1_i32_3282 : BitVec 32 := 1#32
  let v3333 : BitVec 32 := Scalar.select v3332 c1_i32_3282 c32_i32_3280
  let v3334 : BitVec 32 := Scalar.remsi v3331 v3333
  let c0_i32_3284 : BitVec 32 := 0#32
  let v3336 : BitVec 1 := Scalar.cmpi .slt v3334 c0_i32_3284
  let c0_i32_3285 : BitVec 32 := 0#32
  let v3337 : BitVec 1 := Scalar.cmpi .slt v3333 c0_i32_3285
  let v3338 : BitVec 1 := Scalar.xori v3336 v3337
  let c0_i32_3283 : BitVec 32 := 0#32
  let v3335 : BitVec 1 := Scalar.cmpi .ne v3334 c0_i32_3283
  let v3339 : BitVec 1 := Scalar.andi v3338 v3335
  let v3340 : BitVec 32 := Scalar.addi v3334 v3333
  let v3341 : BitVec 32 := Scalar.select v3339 v3340 v3334
  let c1_i32_3300 : BitVec 32 := 1#32
  let v3348 : BitVec 32 := Scalar.muli v3341 c1_i32_3300
  let v3349 : BitVec 32 := Scalar.addi c0_i32_3301 v3348
  v3349.toNat
def k0_dev151 (d0 : Dev nD) : Nat :=
  let c0_i32_3328 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_3306 : BitVec 32 := 26#32
  let v3358 : BitVec 32 := Scalar.addi v2 c26_i32_3306
  let c32_i32_3307 : BitVec 32 := 32#32
  let c0_i32_3308 : BitVec 32 := 0#32
  let v3359 : BitVec 1 := Scalar.cmpi .eq c32_i32_3307 c0_i32_3308
  let c1_i32_3309 : BitVec 32 := 1#32
  let v3360 : BitVec 32 := Scalar.select v3359 c1_i32_3309 c32_i32_3307
  let v3361 : BitVec 32 := Scalar.remsi v3358 v3360
  let c0_i32_3311 : BitVec 32 := 0#32
  let v3363 : BitVec 1 := Scalar.cmpi .slt v3361 c0_i32_3311
  let c0_i32_3312 : BitVec 32 := 0#32
  let v3364 : BitVec 1 := Scalar.cmpi .slt v3360 c0_i32_3312
  let v3365 : BitVec 1 := Scalar.xori v3363 v3364
  let c0_i32_3310 : BitVec 32 := 0#32
  let v3362 : BitVec 1 := Scalar.cmpi .ne v3361 c0_i32_3310
  let v3366 : BitVec 1 := Scalar.andi v3365 v3362
  let v3367 : BitVec 32 := Scalar.addi v3361 v3360
  let v3368 : BitVec 32 := Scalar.select v3366 v3367 v3361
  let c1_i32_3327 : BitVec 32 := 1#32
  let v3375 : BitVec 32 := Scalar.muli v3368 c1_i32_3327
  let v3376 : BitVec 32 := Scalar.addi c0_i32_3328 v3375
  v3376.toNat
def k0_dev152 (d0 : Dev nD) : Nat :=
  let c0_i32_3355 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_3333 : BitVec 32 := 27#32
  let v3385 : BitVec 32 := Scalar.addi v2 c27_i32_3333
  let c32_i32_3334 : BitVec 32 := 32#32
  let c0_i32_3335 : BitVec 32 := 0#32
  let v3386 : BitVec 1 := Scalar.cmpi .eq c32_i32_3334 c0_i32_3335
  let c1_i32_3336 : BitVec 32 := 1#32
  let v3387 : BitVec 32 := Scalar.select v3386 c1_i32_3336 c32_i32_3334
  let v3388 : BitVec 32 := Scalar.remsi v3385 v3387
  let c0_i32_3338 : BitVec 32 := 0#32
  let v3390 : BitVec 1 := Scalar.cmpi .slt v3388 c0_i32_3338
  let c0_i32_3339 : BitVec 32 := 0#32
  let v3391 : BitVec 1 := Scalar.cmpi .slt v3387 c0_i32_3339
  let v3392 : BitVec 1 := Scalar.xori v3390 v3391
  let c0_i32_3337 : BitVec 32 := 0#32
  let v3389 : BitVec 1 := Scalar.cmpi .ne v3388 c0_i32_3337
  let v3393 : BitVec 1 := Scalar.andi v3392 v3389
  let v3394 : BitVec 32 := Scalar.addi v3388 v3387
  let v3395 : BitVec 32 := Scalar.select v3393 v3394 v3388
  let c1_i32_3354 : BitVec 32 := 1#32
  let v3402 : BitVec 32 := Scalar.muli v3395 c1_i32_3354
  let v3403 : BitVec 32 := Scalar.addi c0_i32_3355 v3402
  v3403.toNat
def k0_dev153 (d0 : Dev nD) : Nat :=
  let c0_i32_3382 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_3360 : BitVec 32 := 28#32
  let v3412 : BitVec 32 := Scalar.addi v2 c28_i32_3360
  let c32_i32_3361 : BitVec 32 := 32#32
  let c0_i32_3362 : BitVec 32 := 0#32
  let v3413 : BitVec 1 := Scalar.cmpi .eq c32_i32_3361 c0_i32_3362
  let c1_i32_3363 : BitVec 32 := 1#32
  let v3414 : BitVec 32 := Scalar.select v3413 c1_i32_3363 c32_i32_3361
  let v3415 : BitVec 32 := Scalar.remsi v3412 v3414
  let c0_i32_3365 : BitVec 32 := 0#32
  let v3417 : BitVec 1 := Scalar.cmpi .slt v3415 c0_i32_3365
  let c0_i32_3366 : BitVec 32 := 0#32
  let v3418 : BitVec 1 := Scalar.cmpi .slt v3414 c0_i32_3366
  let v3419 : BitVec 1 := Scalar.xori v3417 v3418
  let c0_i32_3364 : BitVec 32 := 0#32
  let v3416 : BitVec 1 := Scalar.cmpi .ne v3415 c0_i32_3364
  let v3420 : BitVec 1 := Scalar.andi v3419 v3416
  let v3421 : BitVec 32 := Scalar.addi v3415 v3414
  let v3422 : BitVec 32 := Scalar.select v3420 v3421 v3415
  let c1_i32_3381 : BitVec 32 := 1#32
  let v3429 : BitVec 32 := Scalar.muli v3422 c1_i32_3381
  let v3430 : BitVec 32 := Scalar.addi c0_i32_3382 v3429
  v3430.toNat
def k0_dev154 (d0 : Dev nD) : Nat :=
  let c0_i32_3409 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_3387 : BitVec 32 := 29#32
  let v3439 : BitVec 32 := Scalar.addi v2 c29_i32_3387
  let c32_i32_3388 : BitVec 32 := 32#32
  let c0_i32_3389 : BitVec 32 := 0#32
  let v3440 : BitVec 1 := Scalar.cmpi .eq c32_i32_3388 c0_i32_3389
  let c1_i32_3390 : BitVec 32 := 1#32
  let v3441 : BitVec 32 := Scalar.select v3440 c1_i32_3390 c32_i32_3388
  let v3442 : BitVec 32 := Scalar.remsi v3439 v3441
  let c0_i32_3392 : BitVec 32 := 0#32
  let v3444 : BitVec 1 := Scalar.cmpi .slt v3442 c0_i32_3392
  let c0_i32_3393 : BitVec 32 := 0#32
  let v3445 : BitVec 1 := Scalar.cmpi .slt v3441 c0_i32_3393
  let v3446 : BitVec 1 := Scalar.xori v3444 v3445
  let c0_i32_3391 : BitVec 32 := 0#32
  let v3443 : BitVec 1 := Scalar.cmpi .ne v3442 c0_i32_3391
  let v3447 : BitVec 1 := Scalar.andi v3446 v3443
  let v3448 : BitVec 32 := Scalar.addi v3442 v3441
  let v3449 : BitVec 32 := Scalar.select v3447 v3448 v3442
  let c1_i32_3408 : BitVec 32 := 1#32
  let v3456 : BitVec 32 := Scalar.muli v3449 c1_i32_3408
  let v3457 : BitVec 32 := Scalar.addi c0_i32_3409 v3456
  v3457.toNat
def k0_dev155 (d0 : Dev nD) : Nat :=
  let c0_i32_3436 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_3414 : BitVec 32 := 30#32
  let v3466 : BitVec 32 := Scalar.addi v2 c30_i32_3414
  let c32_i32_3415 : BitVec 32 := 32#32
  let c0_i32_3416 : BitVec 32 := 0#32
  let v3467 : BitVec 1 := Scalar.cmpi .eq c32_i32_3415 c0_i32_3416
  let c1_i32_3417 : BitVec 32 := 1#32
  let v3468 : BitVec 32 := Scalar.select v3467 c1_i32_3417 c32_i32_3415
  let v3469 : BitVec 32 := Scalar.remsi v3466 v3468
  let c0_i32_3419 : BitVec 32 := 0#32
  let v3471 : BitVec 1 := Scalar.cmpi .slt v3469 c0_i32_3419
  let c0_i32_3420 : BitVec 32 := 0#32
  let v3472 : BitVec 1 := Scalar.cmpi .slt v3468 c0_i32_3420
  let v3473 : BitVec 1 := Scalar.xori v3471 v3472
  let c0_i32_3418 : BitVec 32 := 0#32
  let v3470 : BitVec 1 := Scalar.cmpi .ne v3469 c0_i32_3418
  let v3474 : BitVec 1 := Scalar.andi v3473 v3470
  let v3475 : BitVec 32 := Scalar.addi v3469 v3468
  let v3476 : BitVec 32 := Scalar.select v3474 v3475 v3469
  let c1_i32_3435 : BitVec 32 := 1#32
  let v3483 : BitVec 32 := Scalar.muli v3476 c1_i32_3435
  let v3484 : BitVec 32 := Scalar.addi c0_i32_3436 v3483
  v3484.toNat
def k0_dev156 (d0 : Dev nD) : Nat :=
  let c0_i32_3463 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_3441 : BitVec 32 := 31#32
  let v3493 : BitVec 32 := Scalar.addi v2 c31_i32_3441
  let c32_i32_3442 : BitVec 32 := 32#32
  let c0_i32_3443 : BitVec 32 := 0#32
  let v3494 : BitVec 1 := Scalar.cmpi .eq c32_i32_3442 c0_i32_3443
  let c1_i32_3444 : BitVec 32 := 1#32
  let v3495 : BitVec 32 := Scalar.select v3494 c1_i32_3444 c32_i32_3442
  let v3496 : BitVec 32 := Scalar.remsi v3493 v3495
  let c0_i32_3446 : BitVec 32 := 0#32
  let v3498 : BitVec 1 := Scalar.cmpi .slt v3496 c0_i32_3446
  let c0_i32_3447 : BitVec 32 := 0#32
  let v3499 : BitVec 1 := Scalar.cmpi .slt v3495 c0_i32_3447
  let v3500 : BitVec 1 := Scalar.xori v3498 v3499
  let c0_i32_3445 : BitVec 32 := 0#32
  let v3497 : BitVec 1 := Scalar.cmpi .ne v3496 c0_i32_3445
  let v3501 : BitVec 1 := Scalar.andi v3500 v3497
  let v3502 : BitVec 32 := Scalar.addi v3496 v3495
  let v3503 : BitVec 32 := Scalar.select v3501 v3502 v3496
  let c1_i32_3462 : BitVec 32 := 1#32
  let v3510 : BitVec 32 := Scalar.muli v3503 c1_i32_3462
  let v3511 : BitVec 32 := Scalar.addi c0_i32_3463 v3510
  v3511.toNat
def k0_off8 (d0 : Dev nD) (c1_i32_3468 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3520 : BitVec 32 := Scalar.subi v2 c1_i32_3468
  let c32_i32_3469 : BitVec 32 := 32#32
  let c0_i32_3470 : BitVec 32 := 0#32
  let v3521 : BitVec 1 := Scalar.cmpi .eq c32_i32_3469 c0_i32_3470
  let c1_i32_3471 : BitVec 32 := 1#32
  let v3522 : BitVec 32 := Scalar.select v3521 c1_i32_3471 c32_i32_3469
  let v3523 : BitVec 32 := Scalar.remsi v3520 v3522
  let c0_i32_3473 : BitVec 32 := 0#32
  let v3525 : BitVec 1 := Scalar.cmpi .slt v3523 c0_i32_3473
  let c0_i32_3474 : BitVec 32 := 0#32
  let v3526 : BitVec 1 := Scalar.cmpi .slt v3522 c0_i32_3474
  let v3527 : BitVec 1 := Scalar.xori v3525 v3526
  let c0_i32_3472 : BitVec 32 := 0#32
  let v3524 : BitVec 1 := Scalar.cmpi .ne v3523 c0_i32_3472
  let v3528 : BitVec 1 := Scalar.andi v3527 v3524
  let v3529 : BitVec 32 := Scalar.addi v3523 v3522
  let v3530 : BitVec 32 := Scalar.select v3528 v3529 v3523
  let c0_i32_3481 : BitVec 32 := 0#32
  let c0_i32_3482 : BitVec 32 := 0#32
  ![v3530.toNat, 0, 0]
def k0_off9 (d0 : Dev nD) (c1_i32_3995 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v4109 : BitVec 32 := Scalar.subi v2 c1_i32_3995
  let c32_i32_3996 : BitVec 32 := 32#32
  let c0_i32_3997 : BitVec 32 := 0#32
  let v4110 : BitVec 1 := Scalar.cmpi .eq c32_i32_3996 c0_i32_3997
  let c1_i32_3998 : BitVec 32 := 1#32
  let v4111 : BitVec 32 := Scalar.select v4110 c1_i32_3998 c32_i32_3996
  let v4112 : BitVec 32 := Scalar.remsi v4109 v4111
  let c0_i32_4000 : BitVec 32 := 0#32
  let v4114 : BitVec 1 := Scalar.cmpi .slt v4112 c0_i32_4000
  let c0_i32_4001 : BitVec 32 := 0#32
  let v4115 : BitVec 1 := Scalar.cmpi .slt v4111 c0_i32_4001
  let v4116 : BitVec 1 := Scalar.xori v4114 v4115
  let c0_i32_3999 : BitVec 32 := 0#32
  let v4113 : BitVec 1 := Scalar.cmpi .ne v4112 c0_i32_3999
  let v4117 : BitVec 1 := Scalar.andi v4116 v4113
  let v4118 : BitVec 32 := Scalar.addi v4112 v4111
  let v4119 : BitVec 32 := Scalar.select v4117 v4118 v4112
  let c0_i32_4008 : BitVec 32 := 0#32
  let c256_i32_4009 : BitVec 32 := 256#32
  ![v4119.toNat, 0, 256]
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

class Facts₀ : Prop where
  inb_S512x256_S512x256_0_0 : ∀ a, (![0, 0] : Fin 2 → Nat) a + S512x256.size a ≤ S512x256.size a
  h_S512x256 : 0 < S512x256.numel
  shapeCasts_S512x256_S512x256 : S512x256.ShapeCasts S512x256
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  shapeCasts_S256x512_S256x512 : S256x512.ShapeCasts S256x512
  shapeCasts_S512x512_S32x16x512 : S512x512.ShapeCasts S32x16x512
  inb_S32x16x512_S32x16x512_0_0_0 : ∀ a, (![0, 0, 0] : Fin 3 → Nat) a + S32x16x512.size a ≤ S32x16x512.size a
  h_S32x16x512 : 0 < S32x16x512.numel
  shapeCasts_S32x16x512_S32x16x512 : S32x16x512.ShapeCasts S32x16x512
  packedbf16_S32x16x512_S32x16x512_0_0_0 : (Rect.unit (s := S32x16x512) ![0, 0, 0] S32x16x512.size inb_S32x16x512_S32x16x512_0_0_0).PackedRows (EltTy.packing .bf16)
  h_S1x16x512 : 0 < S1x16x512.numel
  shapeCasts_S1x16x512_S16x512 : S1x16x512.ShapeCasts S16x512
  inb_S32x16x512_S1x16x512_0_0_0 : ∀ a, (![0, 0, 0] : Fin 3 → Nat) a + S1x16x512.size a ≤ S32x16x512.size a
  shapeCasts_S16x512_S1x16x512 : S16x512.ShapeCasts S1x16x512
  packedbf16_S32x16x512_S1x16x512_0_0_0 : (Rect.unit (s := S32x16x512) ![0, 0, 0] S1x16x512.size inb_S32x16x512_S1x16x512_0_0_0).PackedRows (EltTy.packing .bf16)
  hamt_31 : (31#32 : BitVec 32).msb = false
  hamt_1 : (1#32 : BitVec 32).msb = false
  inb_S2x32_S1x1_0_1 : ∀ a, (![0, 1] : Fin 2 → Nat) a + S1x1.size a ≤ S2x32.size a
  squeezes_S1x1_S_ : S1x1.Squeezes S_
  inb_S32x16x512_S1x16x256_1_0_0 : ∀ a, (![1, 0, 0] : Fin 3 → Nat) a + S1x16x256.size a ≤ S32x16x512.size a
  squeezes_S1x16x256_S16x256 : S1x16x256.Squeezes S16x256
  wordsbf16_S32x16x512_S1x16x256_1_0_0 : (Rect.unit (s := S32x16x512) ![1, 0, 0] S1x16x256.size inb_S32x16x512_S1x16x256_1_0_0).WholeWords (EltTy.packing .bf16)
  inb_S2x32_S1x1_0_2 : ∀ a, (![0, 2] : Fin 2 → Nat) a + S1x1.size a ≤ S2x32.size a
  inb_S32x16x512_S1x16x256_2_0_0 : ∀ a, (![2, 0, 0] : Fin 3 → Nat) a + S1x16x256.size a ≤ S32x16x512.size a
  wordsbf16_S32x16x512_S1x16x256_2_0_0 : (Rect.unit (s := S32x16x512) ![2, 0, 0] S1x16x256.size inb_S32x16x512_S1x16x256_2_0_0).WholeWords (EltTy.packing .bf16)
  inb_S2x32_S1x1_0_3 : ∀ a, (![0, 3] : Fin 2 → Nat) a + S1x1.size a ≤ S2x32.size a
  inb_S32x16x512_S1x16x256_3_0_0 : ∀ a, (![3, 0, 0] : Fin 3 → Nat) a + S1x16x256.size a ≤ S32x16x512.size a
  wordsbf16_S32x16x512_S1x16x256_3_0_0 : (Rect.unit (s := S32x16x512) ![3, 0, 0] S1x16x256.size inb_S32x16x512_S1x16x256_3_0_0).WholeWords (EltTy.packing .bf16)
  inb_S2x32_S1x1_0_4 : ∀ a, (![0, 4] : Fin 2 → Nat) a + S1x1.size a ≤ S2x32.size a
  inb_S32x16x512_S1x16x256_4_0_0 : ∀ a, (![4, 0, 0] : Fin 3 → Nat) a + S1x16x256.size a ≤ S32x16x512.size a
  wordsbf16_S32x16x512_S1x16x256_4_0_0 : (Rect.unit (s := S32x16x512) ![4, 0, 0] S1x16x256.size inb_S32x16x512_S1x16x256_4_0_0).WholeWords (EltTy.packing .bf16)
  inb_S2x32_S1x1_0_5 : ∀ a, (![0, 5] : Fin 2 → Nat) a + S1x1.size a ≤ S2x32.size a
  inb_S32x16x512_S1x16x256_5_0_0 : ∀ a, (![5, 0, 0] : Fin 3 → Nat) a + S1x16x256.size a ≤ S32x16x512.size a
  wordsbf16_S32x16x512_S1x16x256_5_0_0 : (Rect.unit (s := S32x16x512) ![5, 0, 0] S1x16x256.size inb_S32x16x512_S1x16x256_5_0_0).WholeWords (EltTy.packing .bf16)
  inb_S2x32_S1x1_0_6 : ∀ a, (![0, 6] : Fin 2 → Nat) a + S1x1.size a ≤ S2x32.size a
  inb_S32x16x512_S1x16x256_6_0_0 : ∀ a, (![6, 0, 0] : Fin 3 → Nat) a + S1x16x256.size a ≤ S32x16x512.size a
  wordsbf16_S32x16x512_S1x16x256_6_0_0 : (Rect.unit (s := S32x16x512) ![6, 0, 0] S1x16x256.size inb_S32x16x512_S1x16x256_6_0_0).WholeWords (EltTy.packing .bf16)
  inb_S2x32_S1x1_0_7 : ∀ a, (![0, 7] : Fin 2 → Nat) a + S1x1.size a ≤ S2x32.size a
  inb_S32x16x512_S1x16x256_7_0_0 : ∀ a, (![7, 0, 0] : Fin 3 → Nat) a + S1x16x256.size a ≤ S32x16x512.size a
  wordsbf16_S32x16x512_S1x16x256_7_0_0 : (Rect.unit (s := S32x16x512) ![7, 0, 0] S1x16x256.size inb_S32x16x512_S1x16x256_7_0_0).WholeWords (EltTy.packing .bf16)
  inb_S2x32_S1x1_0_8 : ∀ a, (![0, 8] : Fin 2 → Nat) a + S1x1.size a ≤ S2x32.size a
  inb_S32x16x512_S1x16x256_8_0_0 : ∀ a, (![8, 0, 0] : Fin 3 → Nat) a + S1x16x256.size a ≤ S32x16x512.size a
  wordsbf16_S32x16x512_S1x16x256_8_0_0 : (Rect.unit (s := S32x16x512) ![8, 0, 0] S1x16x256.size inb_S32x16x512_S1x16x256_8_0_0).WholeWords (EltTy.packing .bf16)
  inb_S2x32_S1x1_0_9 : ∀ a, (![0, 9] : Fin 2 → Nat) a + S1x1.size a ≤ S2x32.size a
  inb_S32x16x512_S1x16x256_9_0_0 : ∀ a, (![9, 0, 0] : Fin 3 → Nat) a + S1x16x256.size a ≤ S32x16x512.size a
  wordsbf16_S32x16x512_S1x16x256_9_0_0 : (Rect.unit (s := S32x16x512) ![9, 0, 0] S1x16x256.size inb_S32x16x512_S1x16x256_9_0_0).WholeWords (EltTy.packing .bf16)
  inb_S2x32_S1x1_0_10 : ∀ a, (![0, 10] : Fin 2 → Nat) a + S1x1.size a ≤ S2x32.size a
  inb_S32x16x512_S1x16x256_10_0_0 : ∀ a, (![10, 0, 0] : Fin 3 → Nat) a + S1x16x256.size a ≤ S32x16x512.size a
  wordsbf16_S32x16x512_S1x16x256_10_0_0 : (Rect.unit (s := S32x16x512) ![10, 0, 0] S1x16x256.size inb_S32x16x512_S1x16x256_10_0_0).WholeWords (EltTy.packing .bf16)
  inb_S2x32_S1x1_0_11 : ∀ a, (![0, 11] : Fin 2 → Nat) a + S1x1.size a ≤ S2x32.size a
  inb_S32x16x512_S1x16x256_11_0_0 : ∀ a, (![11, 0, 0] : Fin 3 → Nat) a + S1x16x256.size a ≤ S32x16x512.size a
  wordsbf16_S32x16x512_S1x16x256_11_0_0 : (Rect.unit (s := S32x16x512) ![11, 0, 0] S1x16x256.size inb_S32x16x512_S1x16x256_11_0_0).WholeWords (EltTy.packing .bf16)
  inb_S2x32_S1x1_0_12 : ∀ a, (![0, 12] : Fin 2 → Nat) a + S1x1.size a ≤ S2x32.size a
  inb_S32x16x512_S1x16x256_12_0_0 : ∀ a, (![12, 0, 0] : Fin 3 → Nat) a + S1x16x256.size a ≤ S32x16x512.size a
  wordsbf16_S32x16x512_S1x16x256_12_0_0 : (Rect.unit (s := S32x16x512) ![12, 0, 0] S1x16x256.size inb_S32x16x512_S1x16x256_12_0_0).WholeWords (EltTy.packing .bf16)
  inb_S2x32_S1x1_0_13 : ∀ a, (![0, 13] : Fin 2 → Nat) a + S1x1.size a ≤ S2x32.size a
  inb_S32x16x512_S1x16x256_13_0_0 : ∀ a, (![13, 0, 0] : Fin 3 → Nat) a + S1x16x256.size a ≤ S32x16x512.size a
  wordsbf16_S32x16x512_S1x16x256_13_0_0 : (Rect.unit (s := S32x16x512) ![13, 0, 0] S1x16x256.size inb_S32x16x512_S1x16x256_13_0_0).WholeWords (EltTy.packing .bf16)
  inb_S2x32_S1x1_0_14 : ∀ a, (![0, 14] : Fin 2 → Nat) a + S1x1.size a ≤ S2x32.size a
  inb_S32x16x512_S1x16x256_14_0_0 : ∀ a, (![14, 0, 0] : Fin 3 → Nat) a + S1x16x256.size a ≤ S32x16x512.size a
  wordsbf16_S32x16x512_S1x16x256_14_0_0 : (Rect.unit (s := S32x16x512) ![14, 0, 0] S1x16x256.size inb_S32x16x512_S1x16x256_14_0_0).WholeWords (EltTy.packing .bf16)
  inb_S2x32_S1x1_0_15 : ∀ a, (![0, 15] : Fin 2 → Nat) a + S1x1.size a ≤ S2x32.size a
  inb_S32x16x512_S1x16x256_15_0_0 : ∀ a, (![15, 0, 0] : Fin 3 → Nat) a + S1x16x256.size a ≤ S32x16x512.size a
  wordsbf16_S32x16x512_S1x16x256_15_0_0 : (Rect.unit (s := S32x16x512) ![15, 0, 0] S1x16x256.size inb_S32x16x512_S1x16x256_15_0_0).WholeWords (EltTy.packing .bf16)
  inb_S2x32_S1x1_0_16 : ∀ a, (![0, 16] : Fin 2 → Nat) a + S1x1.size a ≤ S2x32.size a
  inb_S32x16x512_S1x16x256_16_0_0 : ∀ a, (![16, 0, 0] : Fin 3 → Nat) a + S1x16x256.size a ≤ S32x16x512.size a
  wordsbf16_S32x16x512_S1x16x256_16_0_0 : (Rect.unit (s := S32x16x512) ![16, 0, 0] S1x16x256.size inb_S32x16x512_S1x16x256_16_0_0).WholeWords (EltTy.packing .bf16)
  inb_S2x32_S1x1_0_17 : ∀ a, (![0, 17] : Fin 2 → Nat) a + S1x1.size a ≤ S2x32.size a
  inb_S32x16x512_S1x16x256_17_0_0 : ∀ a, (![17, 0, 0] : Fin 3 → Nat) a + S1x16x256.size a ≤ S32x16x512.size a
  wordsbf16_S32x16x512_S1x16x256_17_0_0 : (Rect.unit (s := S32x16x512) ![17, 0, 0] S1x16x256.size inb_S32x16x512_S1x16x256_17_0_0).WholeWords (EltTy.packing .bf16)
  inb_S2x32_S1x1_0_18 : ∀ a, (![0, 18] : Fin 2 → Nat) a + S1x1.size a ≤ S2x32.size a
  inb_S32x16x512_S1x16x256_18_0_0 : ∀ a, (![18, 0, 0] : Fin 3 → Nat) a + S1x16x256.size a ≤ S32x16x512.size a
  wordsbf16_S32x16x512_S1x16x256_18_0_0 : (Rect.unit (s := S32x16x512) ![18, 0, 0] S1x16x256.size inb_S32x16x512_S1x16x256_18_0_0).WholeWords (EltTy.packing .bf16)
  inb_S2x32_S1x1_0_19 : ∀ a, (![0, 19] : Fin 2 → Nat) a + S1x1.size a ≤ S2x32.size a
  inb_S32x16x512_S1x16x256_19_0_0 : ∀ a, (![19, 0, 0] : Fin 3 → Nat) a + S1x16x256.size a ≤ S32x16x512.size a
  wordsbf16_S32x16x512_S1x16x256_19_0_0 : (Rect.unit (s := S32x16x512) ![19, 0, 0] S1x16x256.size inb_S32x16x512_S1x16x256_19_0_0).WholeWords (EltTy.packing .bf16)
  inb_S2x32_S1x1_0_20 : ∀ a, (![0, 20] : Fin 2 → Nat) a + S1x1.size a ≤ S2x32.size a
  inb_S32x16x512_S1x16x256_20_0_0 : ∀ a, (![20, 0, 0] : Fin 3 → Nat) a + S1x16x256.size a ≤ S32x16x512.size a
  wordsbf16_S32x16x512_S1x16x256_20_0_0 : (Rect.unit (s := S32x16x512) ![20, 0, 0] S1x16x256.size inb_S32x16x512_S1x16x256_20_0_0).WholeWords (EltTy.packing .bf16)
  inb_S2x32_S1x1_0_21 : ∀ a, (![0, 21] : Fin 2 → Nat) a + S1x1.size a ≤ S2x32.size a
  inb_S32x16x512_S1x16x256_21_0_0 : ∀ a, (![21, 0, 0] : Fin 3 → Nat) a + S1x16x256.size a ≤ S32x16x512.size a
  wordsbf16_S32x16x512_S1x16x256_21_0_0 : (Rect.unit (s := S32x16x512) ![21, 0, 0] S1x16x256.size inb_S32x16x512_S1x16x256_21_0_0).WholeWords (EltTy.packing .bf16)
  inb_S2x32_S1x1_0_22 : ∀ a, (![0, 22] : Fin 2 → Nat) a + S1x1.size a ≤ S2x32.size a
  inb_S32x16x512_S1x16x256_22_0_0 : ∀ a, (![22, 0, 0] : Fin 3 → Nat) a + S1x16x256.size a ≤ S32x16x512.size a
  wordsbf16_S32x16x512_S1x16x256_22_0_0 : (Rect.unit (s := S32x16x512) ![22, 0, 0] S1x16x256.size inb_S32x16x512_S1x16x256_22_0_0).WholeWords (EltTy.packing .bf16)
  inb_S2x32_S1x1_0_23 : ∀ a, (![0, 23] : Fin 2 → Nat) a + S1x1.size a ≤ S2x32.size a
  inb_S32x16x512_S1x16x256_23_0_0 : ∀ a, (![23, 0, 0] : Fin 3 → Nat) a + S1x16x256.size a ≤ S32x16x512.size a
  wordsbf16_S32x16x512_S1x16x256_23_0_0 : (Rect.unit (s := S32x16x512) ![23, 0, 0] S1x16x256.size inb_S32x16x512_S1x16x256_23_0_0).WholeWords (EltTy.packing .bf16)
  inb_S2x32_S1x1_0_24 : ∀ a, (![0, 24] : Fin 2 → Nat) a + S1x1.size a ≤ S2x32.size a
  inb_S32x16x512_S1x16x256_24_0_0 : ∀ a, (![24, 0, 0] : Fin 3 → Nat) a + S1x16x256.size a ≤ S32x16x512.size a
  wordsbf16_S32x16x512_S1x16x256_24_0_0 : (Rect.unit (s := S32x16x512) ![24, 0, 0] S1x16x256.size inb_S32x16x512_S1x16x256_24_0_0).WholeWords (EltTy.packing .bf16)
  inb_S2x32_S1x1_0_25 : ∀ a, (![0, 25] : Fin 2 → Nat) a + S1x1.size a ≤ S2x32.size a
  inb_S32x16x512_S1x16x256_25_0_0 : ∀ a, (![25, 0, 0] : Fin 3 → Nat) a + S1x16x256.size a ≤ S32x16x512.size a
  wordsbf16_S32x16x512_S1x16x256_25_0_0 : (Rect.unit (s := S32x16x512) ![25, 0, 0] S1x16x256.size inb_S32x16x512_S1x16x256_25_0_0).WholeWords (EltTy.packing .bf16)
  inb_S2x32_S1x1_0_26 : ∀ a, (![0, 26] : Fin 2 → Nat) a + S1x1.size a ≤ S2x32.size a
  inb_S32x16x512_S1x16x256_26_0_0 : ∀ a, (![26, 0, 0] : Fin 3 → Nat) a + S1x16x256.size a ≤ S32x16x512.size a
  wordsbf16_S32x16x512_S1x16x256_26_0_0 : (Rect.unit (s := S32x16x512) ![26, 0, 0] S1x16x256.size inb_S32x16x512_S1x16x256_26_0_0).WholeWords (EltTy.packing .bf16)
  inb_S2x32_S1x1_0_27 : ∀ a, (![0, 27] : Fin 2 → Nat) a + S1x1.size a ≤ S2x32.size a
  inb_S32x16x512_S1x16x256_27_0_0 : ∀ a, (![27, 0, 0] : Fin 3 → Nat) a + S1x16x256.size a ≤ S32x16x512.size a
  wordsbf16_S32x16x512_S1x16x256_27_0_0 : (Rect.unit (s := S32x16x512) ![27, 0, 0] S1x16x256.size inb_S32x16x512_S1x16x256_27_0_0).WholeWords (EltTy.packing .bf16)
  inb_S2x32_S1x1_0_28 : ∀ a, (![0, 28] : Fin 2 → Nat) a + S1x1.size a ≤ S2x32.size a
  inb_S32x16x512_S1x16x256_28_0_0 : ∀ a, (![28, 0, 0] : Fin 3 → Nat) a + S1x16x256.size a ≤ S32x16x512.size a
  wordsbf16_S32x16x512_S1x16x256_28_0_0 : (Rect.unit (s := S32x16x512) ![28, 0, 0] S1x16x256.size inb_S32x16x512_S1x16x256_28_0_0).WholeWords (EltTy.packing .bf16)
  inb_S2x32_S1x1_0_29 : ∀ a, (![0, 29] : Fin 2 → Nat) a + S1x1.size a ≤ S2x32.size a
  inb_S32x16x512_S1x16x256_29_0_0 : ∀ a, (![29, 0, 0] : Fin 3 → Nat) a + S1x16x256.size a ≤ S32x16x512.size a
  wordsbf16_S32x16x512_S1x16x256_29_0_0 : (Rect.unit (s := S32x16x512) ![29, 0, 0] S1x16x256.size inb_S32x16x512_S1x16x256_29_0_0).WholeWords (EltTy.packing .bf16)
  inb_S2x32_S1x1_0_30 : ∀ a, (![0, 30] : Fin 2 → Nat) a + S1x1.size a ≤ S2x32.size a
  inb_S32x16x512_S1x16x256_30_0_0 : ∀ a, (![30, 0, 0] : Fin 3 → Nat) a + S1x16x256.size a ≤ S32x16x512.size a
  wordsbf16_S32x16x512_S1x16x256_30_0_0 : (Rect.unit (s := S32x16x512) ![30, 0, 0] S1x16x256.size inb_S32x16x512_S1x16x256_30_0_0).WholeWords (EltTy.packing .bf16)
  inb_S2x32_S1x1_0_31 : ∀ a, (![0, 31] : Fin 2 → Nat) a + S1x1.size a ≤ S2x32.size a
  inb_S32x16x512_S1x16x256_31_0_0 : ∀ a, (![31, 0, 0] : Fin 3 → Nat) a + S1x16x256.size a ≤ S32x16x512.size a
  wordsbf16_S32x16x512_S1x16x256_31_0_0 : (Rect.unit (s := S32x16x512) ![31, 0, 0] S1x16x256.size inb_S32x16x512_S1x16x256_31_0_0).WholeWords (EltTy.packing .bf16)
  inb_S2x32_S1x1_1_1 : ∀ a, (![1, 1] : Fin 2 → Nat) a + S1x1.size a ≤ S2x32.size a
  inb_S32x16x512_S1x16x256_1_0_256 : ∀ a, (![1, 0, 256] : Fin 3 → Nat) a + S1x16x256.size a ≤ S32x16x512.size a
  wordsbf16_S32x16x512_S1x16x256_1_0_256 : (Rect.unit (s := S32x16x512) ![1, 0, 256] S1x16x256.size inb_S32x16x512_S1x16x256_1_0_256).WholeWords (EltTy.packing .bf16)
  inb_S2x32_S1x1_1_2 : ∀ a, (![1, 2] : Fin 2 → Nat) a + S1x1.size a ≤ S2x32.size a
  inb_S32x16x512_S1x16x256_2_0_256 : ∀ a, (![2, 0, 256] : Fin 3 → Nat) a + S1x16x256.size a ≤ S32x16x512.size a
  wordsbf16_S32x16x512_S1x16x256_2_0_256 : (Rect.unit (s := S32x16x512) ![2, 0, 256] S1x16x256.size inb_S32x16x512_S1x16x256_2_0_256).WholeWords (EltTy.packing .bf16)
  inb_S2x32_S1x1_1_3 : ∀ a, (![1, 3] : Fin 2 → Nat) a + S1x1.size a ≤ S2x32.size a
  inb_S32x16x512_S1x16x256_3_0_256 : ∀ a, (![3, 0, 256] : Fin 3 → Nat) a + S1x16x256.size a ≤ S32x16x512.size a
  wordsbf16_S32x16x512_S1x16x256_3_0_256 : (Rect.unit (s := S32x16x512) ![3, 0, 256] S1x16x256.size inb_S32x16x512_S1x16x256_3_0_256).WholeWords (EltTy.packing .bf16)
  inb_S2x32_S1x1_1_4 : ∀ a, (![1, 4] : Fin 2 → Nat) a + S1x1.size a ≤ S2x32.size a
  inb_S32x16x512_S1x16x256_4_0_256 : ∀ a, (![4, 0, 256] : Fin 3 → Nat) a + S1x16x256.size a ≤ S32x16x512.size a
  wordsbf16_S32x16x512_S1x16x256_4_0_256 : (Rect.unit (s := S32x16x512) ![4, 0, 256] S1x16x256.size inb_S32x16x512_S1x16x256_4_0_256).WholeWords (EltTy.packing .bf16)
  inb_S2x32_S1x1_1_5 : ∀ a, (![1, 5] : Fin 2 → Nat) a + S1x1.size a ≤ S2x32.size a
  inb_S32x16x512_S1x16x256_5_0_256 : ∀ a, (![5, 0, 256] : Fin 3 → Nat) a + S1x16x256.size a ≤ S32x16x512.size a
  wordsbf16_S32x16x512_S1x16x256_5_0_256 : (Rect.unit (s := S32x16x512) ![5, 0, 256] S1x16x256.size inb_S32x16x512_S1x16x256_5_0_256).WholeWords (EltTy.packing .bf16)
  inb_S2x32_S1x1_1_6 : ∀ a, (![1, 6] : Fin 2 → Nat) a + S1x1.size a ≤ S2x32.size a
  inb_S32x16x512_S1x16x256_6_0_256 : ∀ a, (![6, 0, 256] : Fin 3 → Nat) a + S1x16x256.size a ≤ S32x16x512.size a
  wordsbf16_S32x16x512_S1x16x256_6_0_256 : (Rect.unit (s := S32x16x512) ![6, 0, 256] S1x16x256.size inb_S32x16x512_S1x16x256_6_0_256).WholeWords (EltTy.packing .bf16)
  inb_S2x32_S1x1_1_7 : ∀ a, (![1, 7] : Fin 2 → Nat) a + S1x1.size a ≤ S2x32.size a
  inb_S32x16x512_S1x16x256_7_0_256 : ∀ a, (![7, 0, 256] : Fin 3 → Nat) a + S1x16x256.size a ≤ S32x16x512.size a
  wordsbf16_S32x16x512_S1x16x256_7_0_256 : (Rect.unit (s := S32x16x512) ![7, 0, 256] S1x16x256.size inb_S32x16x512_S1x16x256_7_0_256).WholeWords (EltTy.packing .bf16)
  inb_S2x32_S1x1_1_8 : ∀ a, (![1, 8] : Fin 2 → Nat) a + S1x1.size a ≤ S2x32.size a
  inb_S32x16x512_S1x16x256_8_0_256 : ∀ a, (![8, 0, 256] : Fin 3 → Nat) a + S1x16x256.size a ≤ S32x16x512.size a
  wordsbf16_S32x16x512_S1x16x256_8_0_256 : (Rect.unit (s := S32x16x512) ![8, 0, 256] S1x16x256.size inb_S32x16x512_S1x16x256_8_0_256).WholeWords (EltTy.packing .bf16)
  inb_S2x32_S1x1_1_9 : ∀ a, (![1, 9] : Fin 2 → Nat) a + S1x1.size a ≤ S2x32.size a
  inb_S32x16x512_S1x16x256_9_0_256 : ∀ a, (![9, 0, 256] : Fin 3 → Nat) a + S1x16x256.size a ≤ S32x16x512.size a
  wordsbf16_S32x16x512_S1x16x256_9_0_256 : (Rect.unit (s := S32x16x512) ![9, 0, 256] S1x16x256.size inb_S32x16x512_S1x16x256_9_0_256).WholeWords (EltTy.packing .bf16)
  inb_S2x32_S1x1_1_10 : ∀ a, (![1, 10] : Fin 2 → Nat) a + S1x1.size a ≤ S2x32.size a
  inb_S32x16x512_S1x16x256_10_0_256 : ∀ a, (![10, 0, 256] : Fin 3 → Nat) a + S1x16x256.size a ≤ S32x16x512.size a
  wordsbf16_S32x16x512_S1x16x256_10_0_256 : (Rect.unit (s := S32x16x512) ![10, 0, 256] S1x16x256.size inb_S32x16x512_S1x16x256_10_0_256).WholeWords (EltTy.packing .bf16)
  inb_S2x32_S1x1_1_11 : ∀ a, (![1, 11] : Fin 2 → Nat) a + S1x1.size a ≤ S2x32.size a
  inb_S32x16x512_S1x16x256_11_0_256 : ∀ a, (![11, 0, 256] : Fin 3 → Nat) a + S1x16x256.size a ≤ S32x16x512.size a
  wordsbf16_S32x16x512_S1x16x256_11_0_256 : (Rect.unit (s := S32x16x512) ![11, 0, 256] S1x16x256.size inb_S32x16x512_S1x16x256_11_0_256).WholeWords (EltTy.packing .bf16)
  inb_S2x32_S1x1_1_12 : ∀ a, (![1, 12] : Fin 2 → Nat) a + S1x1.size a ≤ S2x32.size a
  inb_S32x16x512_S1x16x256_12_0_256 : ∀ a, (![12, 0, 256] : Fin 3 → Nat) a + S1x16x256.size a ≤ S32x16x512.size a
  wordsbf16_S32x16x512_S1x16x256_12_0_256 : (Rect.unit (s := S32x16x512) ![12, 0, 256] S1x16x256.size inb_S32x16x512_S1x16x256_12_0_256).WholeWords (EltTy.packing .bf16)
  inb_S2x32_S1x1_1_13 : ∀ a, (![1, 13] : Fin 2 → Nat) a + S1x1.size a ≤ S2x32.size a
  inb_S32x16x512_S1x16x256_13_0_256 : ∀ a, (![13, 0, 256] : Fin 3 → Nat) a + S1x16x256.size a ≤ S32x16x512.size a
  wordsbf16_S32x16x512_S1x16x256_13_0_256 : (Rect.unit (s := S32x16x512) ![13, 0, 256] S1x16x256.size inb_S32x16x512_S1x16x256_13_0_256).WholeWords (EltTy.packing .bf16)
  inb_S2x32_S1x1_1_14 : ∀ a, (![1, 14] : Fin 2 → Nat) a + S1x1.size a ≤ S2x32.size a
  inb_S32x16x512_S1x16x256_14_0_256 : ∀ a, (![14, 0, 256] : Fin 3 → Nat) a + S1x16x256.size a ≤ S32x16x512.size a
  wordsbf16_S32x16x512_S1x16x256_14_0_256 : (Rect.unit (s := S32x16x512) ![14, 0, 256] S1x16x256.size inb_S32x16x512_S1x16x256_14_0_256).WholeWords (EltTy.packing .bf16)
  inb_S2x32_S1x1_1_15 : ∀ a, (![1, 15] : Fin 2 → Nat) a + S1x1.size a ≤ S2x32.size a
  inb_S32x16x512_S1x16x256_15_0_256 : ∀ a, (![15, 0, 256] : Fin 3 → Nat) a + S1x16x256.size a ≤ S32x16x512.size a
  wordsbf16_S32x16x512_S1x16x256_15_0_256 : (Rect.unit (s := S32x16x512) ![15, 0, 256] S1x16x256.size inb_S32x16x512_S1x16x256_15_0_256).WholeWords (EltTy.packing .bf16)
  inb_S2x32_S1x1_1_16 : ∀ a, (![1, 16] : Fin 2 → Nat) a + S1x1.size a ≤ S2x32.size a
  inb_S32x16x512_S1x16x256_16_0_256 : ∀ a, (![16, 0, 256] : Fin 3 → Nat) a + S1x16x256.size a ≤ S32x16x512.size a
  wordsbf16_S32x16x512_S1x16x256_16_0_256 : (Rect.unit (s := S32x16x512) ![16, 0, 256] S1x16x256.size inb_S32x16x512_S1x16x256_16_0_256).WholeWords (EltTy.packing .bf16)
  inb_S2x32_S1x1_1_17 : ∀ a, (![1, 17] : Fin 2 → Nat) a + S1x1.size a ≤ S2x32.size a
  inb_S32x16x512_S1x16x256_17_0_256 : ∀ a, (![17, 0, 256] : Fin 3 → Nat) a + S1x16x256.size a ≤ S32x16x512.size a
  wordsbf16_S32x16x512_S1x16x256_17_0_256 : (Rect.unit (s := S32x16x512) ![17, 0, 256] S1x16x256.size inb_S32x16x512_S1x16x256_17_0_256).WholeWords (EltTy.packing .bf16)
  inb_S2x32_S1x1_1_18 : ∀ a, (![1, 18] : Fin 2 → Nat) a + S1x1.size a ≤ S2x32.size a
  inb_S32x16x512_S1x16x256_18_0_256 : ∀ a, (![18, 0, 256] : Fin 3 → Nat) a + S1x16x256.size a ≤ S32x16x512.size a
  wordsbf16_S32x16x512_S1x16x256_18_0_256 : (Rect.unit (s := S32x16x512) ![18, 0, 256] S1x16x256.size inb_S32x16x512_S1x16x256_18_0_256).WholeWords (EltTy.packing .bf16)
  inb_S2x32_S1x1_1_19 : ∀ a, (![1, 19] : Fin 2 → Nat) a + S1x1.size a ≤ S2x32.size a
  inb_S32x16x512_S1x16x256_19_0_256 : ∀ a, (![19, 0, 256] : Fin 3 → Nat) a + S1x16x256.size a ≤ S32x16x512.size a
  wordsbf16_S32x16x512_S1x16x256_19_0_256 : (Rect.unit (s := S32x16x512) ![19, 0, 256] S1x16x256.size inb_S32x16x512_S1x16x256_19_0_256).WholeWords (EltTy.packing .bf16)
  inb_S2x32_S1x1_1_20 : ∀ a, (![1, 20] : Fin 2 → Nat) a + S1x1.size a ≤ S2x32.size a
  inb_S32x16x512_S1x16x256_20_0_256 : ∀ a, (![20, 0, 256] : Fin 3 → Nat) a + S1x16x256.size a ≤ S32x16x512.size a
  wordsbf16_S32x16x512_S1x16x256_20_0_256 : (Rect.unit (s := S32x16x512) ![20, 0, 256] S1x16x256.size inb_S32x16x512_S1x16x256_20_0_256).WholeWords (EltTy.packing .bf16)
  inb_S2x32_S1x1_1_21 : ∀ a, (![1, 21] : Fin 2 → Nat) a + S1x1.size a ≤ S2x32.size a
  inb_S32x16x512_S1x16x256_21_0_256 : ∀ a, (![21, 0, 256] : Fin 3 → Nat) a + S1x16x256.size a ≤ S32x16x512.size a
  wordsbf16_S32x16x512_S1x16x256_21_0_256 : (Rect.unit (s := S32x16x512) ![21, 0, 256] S1x16x256.size inb_S32x16x512_S1x16x256_21_0_256).WholeWords (EltTy.packing .bf16)
  inb_S2x32_S1x1_1_22 : ∀ a, (![1, 22] : Fin 2 → Nat) a + S1x1.size a ≤ S2x32.size a
  inb_S32x16x512_S1x16x256_22_0_256 : ∀ a, (![22, 0, 256] : Fin 3 → Nat) a + S1x16x256.size a ≤ S32x16x512.size a
  wordsbf16_S32x16x512_S1x16x256_22_0_256 : (Rect.unit (s := S32x16x512) ![22, 0, 256] S1x16x256.size inb_S32x16x512_S1x16x256_22_0_256).WholeWords (EltTy.packing .bf16)
  inb_S2x32_S1x1_1_23 : ∀ a, (![1, 23] : Fin 2 → Nat) a + S1x1.size a ≤ S2x32.size a
  inb_S32x16x512_S1x16x256_23_0_256 : ∀ a, (![23, 0, 256] : Fin 3 → Nat) a + S1x16x256.size a ≤ S32x16x512.size a
  wordsbf16_S32x16x512_S1x16x256_23_0_256 : (Rect.unit (s := S32x16x512) ![23, 0, 256] S1x16x256.size inb_S32x16x512_S1x16x256_23_0_256).WholeWords (EltTy.packing .bf16)
  inb_S2x32_S1x1_1_24 : ∀ a, (![1, 24] : Fin 2 → Nat) a + S1x1.size a ≤ S2x32.size a
  inb_S32x16x512_S1x16x256_24_0_256 : ∀ a, (![24, 0, 256] : Fin 3 → Nat) a + S1x16x256.size a ≤ S32x16x512.size a
  wordsbf16_S32x16x512_S1x16x256_24_0_256 : (Rect.unit (s := S32x16x512) ![24, 0, 256] S1x16x256.size inb_S32x16x512_S1x16x256_24_0_256).WholeWords (EltTy.packing .bf16)
  inb_S2x32_S1x1_1_25 : ∀ a, (![1, 25] : Fin 2 → Nat) a + S1x1.size a ≤ S2x32.size a
  inb_S32x16x512_S1x16x256_25_0_256 : ∀ a, (![25, 0, 256] : Fin 3 → Nat) a + S1x16x256.size a ≤ S32x16x512.size a
  wordsbf16_S32x16x512_S1x16x256_25_0_256 : (Rect.unit (s := S32x16x512) ![25, 0, 256] S1x16x256.size inb_S32x16x512_S1x16x256_25_0_256).WholeWords (EltTy.packing .bf16)
  inb_S2x32_S1x1_1_26 : ∀ a, (![1, 26] : Fin 2 → Nat) a + S1x1.size a ≤ S2x32.size a
  inb_S32x16x512_S1x16x256_26_0_256 : ∀ a, (![26, 0, 256] : Fin 3 → Nat) a + S1x16x256.size a ≤ S32x16x512.size a
  wordsbf16_S32x16x512_S1x16x256_26_0_256 : (Rect.unit (s := S32x16x512) ![26, 0, 256] S1x16x256.size inb_S32x16x512_S1x16x256_26_0_256).WholeWords (EltTy.packing .bf16)
  inb_S2x32_S1x1_1_27 : ∀ a, (![1, 27] : Fin 2 → Nat) a + S1x1.size a ≤ S2x32.size a
  inb_S32x16x512_S1x16x256_27_0_256 : ∀ a, (![27, 0, 256] : Fin 3 → Nat) a + S1x16x256.size a ≤ S32x16x512.size a
  wordsbf16_S32x16x512_S1x16x256_27_0_256 : (Rect.unit (s := S32x16x512) ![27, 0, 256] S1x16x256.size inb_S32x16x512_S1x16x256_27_0_256).WholeWords (EltTy.packing .bf16)
  inb_S2x32_S1x1_1_28 : ∀ a, (![1, 28] : Fin 2 → Nat) a + S1x1.size a ≤ S2x32.size a
  inb_S32x16x512_S1x16x256_28_0_256 : ∀ a, (![28, 0, 256] : Fin 3 → Nat) a + S1x16x256.size a ≤ S32x16x512.size a
  wordsbf16_S32x16x512_S1x16x256_28_0_256 : (Rect.unit (s := S32x16x512) ![28, 0, 256] S1x16x256.size inb_S32x16x512_S1x16x256_28_0_256).WholeWords (EltTy.packing .bf16)
  inb_S2x32_S1x1_1_29 : ∀ a, (![1, 29] : Fin 2 → Nat) a + S1x1.size a ≤ S2x32.size a
  inb_S32x16x512_S1x16x256_29_0_256 : ∀ a, (![29, 0, 256] : Fin 3 → Nat) a + S1x16x256.size a ≤ S32x16x512.size a
  wordsbf16_S32x16x512_S1x16x256_29_0_256 : (Rect.unit (s := S32x16x512) ![29, 0, 256] S1x16x256.size inb_S32x16x512_S1x16x256_29_0_256).WholeWords (EltTy.packing .bf16)
  inb_S2x32_S1x1_1_30 : ∀ a, (![1, 30] : Fin 2 → Nat) a + S1x1.size a ≤ S2x32.size a
  inb_S32x16x512_S1x16x256_30_0_256 : ∀ a, (![30, 0, 256] : Fin 3 → Nat) a + S1x16x256.size a ≤ S32x16x512.size a
  wordsbf16_S32x16x512_S1x16x256_30_0_256 : (Rect.unit (s := S32x16x512) ![30, 0, 256] S1x16x256.size inb_S32x16x512_S1x16x256_30_0_256).WholeWords (EltTy.packing .bf16)
  inb_S2x32_S1x1_1_31 : ∀ a, (![1, 31] : Fin 2 → Nat) a + S1x1.size a ≤ S2x32.size a
  inb_S32x16x512_S1x16x256_31_0_256 : ∀ a, (![31, 0, 256] : Fin 3 → Nat) a + S1x16x256.size a ≤ S32x16x512.size a
  wordsbf16_S32x16x512_S1x16x256_31_0_256 : (Rect.unit (s := S32x16x512) ![31, 0, 256] S1x16x256.size inb_S32x16x512_S1x16x256_31_0_256).WholeWords (EltTy.packing .bf16)
  inb_S32x16x512_S32x16x256_0_0_0 : ∀ a, (![0, 0, 0] : Fin 3 → Nat) a + S32x16x256.size a ≤ S32x16x512.size a
  h_S32x16x256 : 0 < S32x16x256.numel
  reduces_S32x16x256_S16x256 : S32x16x256.Reduces [0] S16x256
  h_S1x16x256 : 0 < S1x16x256.numel
  shapeCasts_S1x16x256_S16x256 : S1x16x256.ShapeCasts S16x256
  shapeCasts_S16x256_S1x16x256 : S16x256.ShapeCasts S1x16x256
  inb_S32x16x512_S32x16x256_0_0_256 : ∀ a, (![0, 0, 256] : Fin 3 → Nat) a + S32x16x256.size a ≤ S32x16x512.size a
  shapeCasts_S32x16x512_S512x512 : S32x16x512.ShapeCasts S512x512
  inb_S512x512_S512x512_0_0 : ∀ a, (![0, 0] : Fin 2 → Nat) a + S512x512.size a ≤ S512x512.size a
  h_S512x512 : 0 < S512x512.numel
  dot_S512x256_S256x512_S512x512_1_0_0_1_n_n_wf : DotDims.WF S512x256 S256x512 S512x512 [1] [0] [0] [1] [] []
  hcc0_scratch3 : 3 + S2x32.numel ≤ 195
  hcc0_scratch4 : 67 + S2x32.numel ≤ 195
  hcc0_scratch5 : 131 + S2x32.numel ≤ 195
  k0_off1_inb : ∀ d0 : Dev nD, ∀ a, (k0_off1 d0) a + S1x16x512.size a ≤ S32x16x512.size a
  k0_dev1_lt : ∀ d0 : Dev nD, ∀ (k0_h1 : k0_cond1 d0 = 1#1), k0_dev1 < nD
  k0_dev2_lt : ∀ d0 : Dev nD, ∀ (k0_h1 : k0_cond1 d0 = 1#1), k0_dev2 < nD
  k0_dev3_lt : ∀ d0 : Dev nD, ∀ (k0_h1 : k0_cond1 d0 = 1#1), k0_dev3 < nD
  k0_dev4_lt : ∀ d0 : Dev nD, ∀ (k0_h1 : k0_cond1 d0 = 1#1), k0_dev4 < nD
  k0_dev5_lt : ∀ d0 : Dev nD, ∀ (k0_h1 : k0_cond1 d0 = 1#1), k0_dev5 < nD
  k0_dev6_lt : ∀ d0 : Dev nD, ∀ (k0_h1 : k0_cond1 d0 = 1#1), k0_dev6 < nD
  k0_dev7_lt : ∀ d0 : Dev nD, ∀ (k0_h1 : k0_cond1 d0 = 1#1), k0_dev7 < nD
  k0_dev8_lt : ∀ d0 : Dev nD, ∀ (k0_h1 : k0_cond1 d0 = 1#1), k0_dev8 < nD
  k0_dev9_lt : ∀ d0 : Dev nD, ∀ (k0_h1 : k0_cond1 d0 = 1#1), k0_dev9 < nD
  k0_dev10_lt : ∀ d0 : Dev nD, ∀ (k0_h1 : k0_cond1 d0 = 1#1), k0_dev10 < nD
  k0_dev11_lt : ∀ d0 : Dev nD, ∀ (k0_h1 : k0_cond1 d0 = 1#1), k0_dev11 < nD
  k0_dev12_lt : ∀ d0 : Dev nD, ∀ (k0_h1 : k0_cond1 d0 = 1#1), k0_dev12 < nD
  k0_dev13_lt : ∀ d0 : Dev nD, ∀ (k0_h1 : k0_cond1 d0 = 1#1), k0_dev13 < nD
  k0_dev14_lt : ∀ d0 : Dev nD, ∀ (k0_h1 : k0_cond1 d0 = 1#1), k0_dev14 < nD
  k0_dev15_lt : ∀ d0 : Dev nD, ∀ (k0_h1 : k0_cond1 d0 = 1#1), k0_dev15 < nD
  k0_dev16_lt : ∀ d0 : Dev nD, ∀ (k0_h1 : k0_cond1 d0 = 1#1), k0_dev16 < nD
  k0_dev17_lt : ∀ d0 : Dev nD, ∀ (k0_h1 : k0_cond1 d0 = 1#1), k0_dev17 < nD
  k0_dev18_lt : ∀ d0 : Dev nD, ∀ (k0_h1 : k0_cond1 d0 = 1#1), k0_dev18 < nD
  k0_dev19_lt : ∀ d0 : Dev nD, ∀ (k0_h1 : k0_cond1 d0 = 1#1), k0_dev19 < nD
  k0_dev20_lt : ∀ d0 : Dev nD, ∀ (k0_h1 : k0_cond1 d0 = 1#1), k0_dev20 < nD
  k0_dev21_lt : ∀ d0 : Dev nD, ∀ (k0_h1 : k0_cond1 d0 = 1#1), k0_dev21 < nD
  k0_dev22_lt : ∀ d0 : Dev nD, ∀ (k0_h1 : k0_cond1 d0 = 1#1), k0_dev22 < nD
  k0_dev23_lt : ∀ d0 : Dev nD, ∀ (k0_h1 : k0_cond1 d0 = 1#1), k0_dev23 < nD
  k0_dev24_lt : ∀ d0 : Dev nD, ∀ (k0_h1 : k0_cond1 d0 = 1#1), k0_dev24 < nD
  k0_dev25_lt : ∀ d0 : Dev nD, ∀ (k0_h1 : k0_cond1 d0 = 1#1), k0_dev25 < nD
  k0_dev26_lt : ∀ d0 : Dev nD, ∀ (k0_h1 : k0_cond1 d0 = 1#1), k0_dev26 < nD
  k0_dev27_lt : ∀ d0 : Dev nD, ∀ (k0_h1 : k0_cond1 d0 = 1#1), k0_dev27 < nD
  k0_dev28_lt : ∀ d0 : Dev nD, ∀ (k0_h1 : k0_cond1 d0 = 1#1), k0_dev28 < nD
  k0_dev29_lt : ∀ d0 : Dev nD, ∀ (k0_h1 : k0_cond1 d0 = 1#1), k0_dev29 < nD
  k0_dev30_lt : ∀ d0 : Dev nD, ∀ (k0_h1 : k0_cond1 d0 = 1#1), k0_dev30 < nD
  k0_dev31_lt : ∀ d0 : Dev nD, ∀ (k0_h1 : k0_cond1 d0 = 1#1), k0_dev31 < nD
  k0_dev32_lt : ∀ d0 : Dev nD, ∀ (k0_h2 : k0_cond2 d0 = 1#1), k0_dev32 < nD
  k0_off2_inb : ∀ d0 : Dev nD, ∀ (r : Fin 31), ∀ a, (k0_off2 d0 (BitVec.ofNat 32 (1 + r.val))) a + S1x16x256.size a ≤ S32x16x512.size a
  k0_off2_wordsbf16 : ∀ d0 : Dev nD, ∀ (r : Fin 31), (Rect.unit (s := S32x16x512) (k0_off2 d0 (BitVec.ofNat 32 (1 + r.val))) S1x16x256.size (k0_off2_inb d0 r)).WholeWords (EltTy.packing .bf16)
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_dev44_lt : ∀ d0 : Dev nD, (k0_dev44 d0) < nD
  k0_dev45_lt : ∀ d0 : Dev nD, (k0_dev45 d0) < nD
  k0_dev46_lt : ∀ d0 : Dev nD, (k0_dev46 d0) < nD
  k0_dev47_lt : ∀ d0 : Dev nD, (k0_dev47 d0) < nD
  k0_dev48_lt : ∀ d0 : Dev nD, (k0_dev48 d0) < nD
  k0_dev49_lt : ∀ d0 : Dev nD, (k0_dev49 d0) < nD
  k0_dev50_lt : ∀ d0 : Dev nD, (k0_dev50 d0) < nD
  k0_dev51_lt : ∀ d0 : Dev nD, (k0_dev51 d0) < nD
  k0_dev52_lt : ∀ d0 : Dev nD, (k0_dev52 d0) < nD
  k0_dev53_lt : ∀ d0 : Dev nD, (k0_dev53 d0) < nD
  k0_dev54_lt : ∀ d0 : Dev nD, (k0_dev54 d0) < nD
  k0_dev55_lt : ∀ d0 : Dev nD, (k0_dev55 d0) < nD
  k0_dev56_lt : ∀ d0 : Dev nD, (k0_dev56 d0) < nD
  k0_dev57_lt : ∀ d0 : Dev nD, (k0_dev57 d0) < nD
  k0_dev58_lt : ∀ d0 : Dev nD, (k0_dev58 d0) < nD
  k0_dev59_lt : ∀ d0 : Dev nD, (k0_dev59 d0) < nD
  k0_dev60_lt : ∀ d0 : Dev nD, (k0_dev60 d0) < nD
  k0_dev61_lt : ∀ d0 : Dev nD, (k0_dev61 d0) < nD
  k0_dev62_lt : ∀ d0 : Dev nD, (k0_dev62 d0) < nD
  k0_dev63_lt : ∀ d0 : Dev nD, (k0_dev63 d0) < nD
  k0_off3_inb : ∀ d0 : Dev nD, ∀ (r : Fin 31), ∀ a, (k0_off3 d0 (BitVec.ofNat 32 (1 + r.val))) a + S1x16x256.size a ≤ S32x16x512.size a
  k0_off3_wordsbf16 : ∀ d0 : Dev nD, ∀ (r : Fin 31), (Rect.unit (s := S32x16x512) (k0_off3 d0 (BitVec.ofNat 32 (1 + r.val))) S1x16x256.size (k0_off3_inb d0 r)).WholeWords (EltTy.packing .bf16)
  k0_dev64_lt : ∀ d0 : Dev nD, (k0_dev64 d0) < nD
  k0_dev65_lt : ∀ d0 : Dev nD, (k0_dev65 d0) < nD
  k0_dev66_lt : ∀ d0 : Dev nD, (k0_dev66 d0) < nD
  k0_dev67_lt : ∀ d0 : Dev nD, (k0_dev67 d0) < nD
  k0_dev68_lt : ∀ d0 : Dev nD, (k0_dev68 d0) < nD
  k0_dev69_lt : ∀ d0 : Dev nD, (k0_dev69 d0) < nD
  k0_dev70_lt : ∀ d0 : Dev nD, (k0_dev70 d0) < nD
  k0_dev71_lt : ∀ d0 : Dev nD, (k0_dev71 d0) < nD
  k0_dev72_lt : ∀ d0 : Dev nD, (k0_dev72 d0) < nD
  k0_dev73_lt : ∀ d0 : Dev nD, (k0_dev73 d0) < nD
  k0_dev74_lt : ∀ d0 : Dev nD, (k0_dev74 d0) < nD
  k0_dev75_lt : ∀ d0 : Dev nD, (k0_dev75 d0) < nD
  k0_dev76_lt : ∀ d0 : Dev nD, (k0_dev76 d0) < nD
  k0_dev77_lt : ∀ d0 : Dev nD, (k0_dev77 d0) < nD
  k0_dev78_lt : ∀ d0 : Dev nD, (k0_dev78 d0) < nD
  k0_dev79_lt : ∀ d0 : Dev nD, (k0_dev79 d0) < nD
  k0_dev80_lt : ∀ d0 : Dev nD, (k0_dev80 d0) < nD
  k0_dev81_lt : ∀ d0 : Dev nD, (k0_dev81 d0) < nD
  k0_dev82_lt : ∀ d0 : Dev nD, (k0_dev82 d0) < nD
  k0_dev83_lt : ∀ d0 : Dev nD, (k0_dev83 d0) < nD
  k0_dev84_lt : ∀ d0 : Dev nD, (k0_dev84 d0) < nD
  k0_dev85_lt : ∀ d0 : Dev nD, (k0_dev85 d0) < nD
  k0_dev86_lt : ∀ d0 : Dev nD, (k0_dev86 d0) < nD
  k0_dev87_lt : ∀ d0 : Dev nD, (k0_dev87 d0) < nD
  k0_dev88_lt : ∀ d0 : Dev nD, (k0_dev88 d0) < nD
  k0_dev89_lt : ∀ d0 : Dev nD, (k0_dev89 d0) < nD
  k0_dev90_lt : ∀ d0 : Dev nD, (k0_dev90 d0) < nD
  k0_dev91_lt : ∀ d0 : Dev nD, (k0_dev91 d0) < nD
  k0_dev92_lt : ∀ d0 : Dev nD, (k0_dev92 d0) < nD
  k0_dev93_lt : ∀ d0 : Dev nD, (k0_dev93 d0) < nD
  k0_dev94_lt : ∀ d0 : Dev nD, (k0_dev94 d0) < nD
  k0_off4_inb : ∀ d0 : Dev nD, ∀ a, (k0_off4 d0) a + S1x16x256.size a ≤ S32x16x512.size a
  k0_off4_packedbf16 : ∀ d0 : Dev nD, (Rect.unit (s := S32x16x512) (k0_off4 d0) S1x16x256.size (k0_off4_inb d0)).PackedRows (EltTy.packing .bf16)
  k0_off5_inb : ∀ d0 : Dev nD, ∀ a, (k0_off5 d0) a + S1x16x256.size a ≤ S32x16x512.size a
  k0_off5_wordsbf16 : ∀ d0 : Dev nD, (Rect.unit (s := S32x16x512) (k0_off5 d0) S1x16x256.size (k0_off5_inb d0)).WholeWords (EltTy.packing .bf16)
  k0_dev95_lt : ∀ d0 : Dev nD, (k0_dev95 d0) < nD
  k0_dev96_lt : ∀ d0 : Dev nD, (k0_dev96 d0) < nD
  k0_dev97_lt : ∀ d0 : Dev nD, (k0_dev97 d0) < nD
  k0_dev98_lt : ∀ d0 : Dev nD, (k0_dev98 d0) < nD
  k0_dev99_lt : ∀ d0 : Dev nD, (k0_dev99 d0) < nD
  k0_dev100_lt : ∀ d0 : Dev nD, (k0_dev100 d0) < nD
  k0_dev101_lt : ∀ d0 : Dev nD, (k0_dev101 d0) < nD
  k0_dev102_lt : ∀ d0 : Dev nD, (k0_dev102 d0) < nD
  k0_dev103_lt : ∀ d0 : Dev nD, (k0_dev103 d0) < nD
  k0_dev104_lt : ∀ d0 : Dev nD, (k0_dev104 d0) < nD
  k0_dev105_lt : ∀ d0 : Dev nD, (k0_dev105 d0) < nD
  k0_dev106_lt : ∀ d0 : Dev nD, (k0_dev106 d0) < nD
  k0_dev107_lt : ∀ d0 : Dev nD, (k0_dev107 d0) < nD
  k0_dev108_lt : ∀ d0 : Dev nD, (k0_dev108 d0) < nD
  k0_dev109_lt : ∀ d0 : Dev nD, (k0_dev109 d0) < nD
  k0_dev110_lt : ∀ d0 : Dev nD, (k0_dev110 d0) < nD
  k0_dev111_lt : ∀ d0 : Dev nD, (k0_dev111 d0) < nD
  k0_dev112_lt : ∀ d0 : Dev nD, (k0_dev112 d0) < nD
  k0_dev113_lt : ∀ d0 : Dev nD, (k0_dev113 d0) < nD
  k0_dev114_lt : ∀ d0 : Dev nD, (k0_dev114 d0) < nD
  k0_dev115_lt : ∀ d0 : Dev nD, (k0_dev115 d0) < nD
  k0_dev116_lt : ∀ d0 : Dev nD, (k0_dev116 d0) < nD
  k0_dev117_lt : ∀ d0 : Dev nD, (k0_dev117 d0) < nD
  k0_dev118_lt : ∀ d0 : Dev nD, (k0_dev118 d0) < nD
  k0_dev119_lt : ∀ d0 : Dev nD, (k0_dev119 d0) < nD
  k0_dev120_lt : ∀ d0 : Dev nD, (k0_dev120 d0) < nD
  k0_dev121_lt : ∀ d0 : Dev nD, (k0_dev121 d0) < nD
  k0_dev122_lt : ∀ d0 : Dev nD, (k0_dev122 d0) < nD
  k0_dev123_lt : ∀ d0 : Dev nD, (k0_dev123 d0) < nD
  k0_dev124_lt : ∀ d0 : Dev nD, (k0_dev124 d0) < nD
  k0_dev125_lt : ∀ d0 : Dev nD, (k0_dev125 d0) < nD
  k0_off6_inb : ∀ d0 : Dev nD, ∀ a, (k0_off6 d0) a + S1x16x256.size a ≤ S32x16x512.size a
  k0_off6_packedbf16 : ∀ d0 : Dev nD, (Rect.unit (s := S32x16x512) (k0_off6 d0) S1x16x256.size (k0_off6_inb d0)).PackedRows (EltTy.packing .bf16)
  k0_off7_inb : ∀ d0 : Dev nD, ∀ a, (k0_off7 d0) a + S1x16x256.size a ≤ S32x16x512.size a
  k0_off7_wordsbf16 : ∀ d0 : Dev nD, (Rect.unit (s := S32x16x512) (k0_off7 d0) S1x16x256.size (k0_off7_inb d0)).WholeWords (EltTy.packing .bf16)
  k0_dev126_lt : ∀ d0 : Dev nD, (k0_dev126 d0) < nD
  k0_dev127_lt : ∀ d0 : Dev nD, (k0_dev127 d0) < nD
  k0_dev128_lt : ∀ d0 : Dev nD, (k0_dev128 d0) < nD
  k0_dev129_lt : ∀ d0 : Dev nD, (k0_dev129 d0) < nD
  k0_dev130_lt : ∀ d0 : Dev nD, (k0_dev130 d0) < nD
  k0_dev131_lt : ∀ d0 : Dev nD, (k0_dev131 d0) < nD
  k0_dev132_lt : ∀ d0 : Dev nD, (k0_dev132 d0) < nD
  k0_dev133_lt : ∀ d0 : Dev nD, (k0_dev133 d0) < nD
  k0_dev134_lt : ∀ d0 : Dev nD, (k0_dev134 d0) < nD
  k0_dev135_lt : ∀ d0 : Dev nD, (k0_dev135 d0) < nD
  k0_dev136_lt : ∀ d0 : Dev nD, (k0_dev136 d0) < nD
  k0_dev137_lt : ∀ d0 : Dev nD, (k0_dev137 d0) < nD
  k0_dev138_lt : ∀ d0 : Dev nD, (k0_dev138 d0) < nD
  k0_dev139_lt : ∀ d0 : Dev nD, (k0_dev139 d0) < nD
  k0_dev140_lt : ∀ d0 : Dev nD, (k0_dev140 d0) < nD
  k0_dev141_lt : ∀ d0 : Dev nD, (k0_dev141 d0) < nD
  k0_dev142_lt : ∀ d0 : Dev nD, (k0_dev142 d0) < nD
  k0_dev143_lt : ∀ d0 : Dev nD, (k0_dev143 d0) < nD
  k0_dev144_lt : ∀ d0 : Dev nD, (k0_dev144 d0) < nD
  k0_dev145_lt : ∀ d0 : Dev nD, (k0_dev145 d0) < nD
  k0_dev146_lt : ∀ d0 : Dev nD, (k0_dev146 d0) < nD
  k0_dev147_lt : ∀ d0 : Dev nD, (k0_dev147 d0) < nD
  k0_dev148_lt : ∀ d0 : Dev nD, (k0_dev148 d0) < nD
  k0_dev149_lt : ∀ d0 : Dev nD, (k0_dev149 d0) < nD
  k0_dev150_lt : ∀ d0 : Dev nD, (k0_dev150 d0) < nD
  k0_dev151_lt : ∀ d0 : Dev nD, (k0_dev151 d0) < nD
  k0_dev152_lt : ∀ d0 : Dev nD, (k0_dev152 d0) < nD
  k0_dev153_lt : ∀ d0 : Dev nD, (k0_dev153 d0) < nD
  k0_dev154_lt : ∀ d0 : Dev nD, (k0_dev154 d0) < nD
  k0_dev155_lt : ∀ d0 : Dev nD, (k0_dev155 d0) < nD
  k0_dev156_lt : ∀ d0 : Dev nD, (k0_dev156 d0) < nD
  k0_off8_inb : ∀ d0 : Dev nD, ∀ (r : Fin 31), ∀ a, (k0_off8 d0 (BitVec.ofNat 32 (1 + r.val))) a + S1x16x256.size a ≤ S32x16x512.size a
  k0_off8_wordsbf16 : ∀ d0 : Dev nD, ∀ (r : Fin 31), (Rect.unit (s := S32x16x512) (k0_off8 d0 (BitVec.ofNat 32 (1 + r.val))) S1x16x256.size (k0_off8_inb d0 r)).WholeWords (EltTy.packing .bf16)
  k0_off9_inb : ∀ d0 : Dev nD, ∀ (r : Fin 31), ∀ a, (k0_off9 d0 (BitVec.ofNat 32 (1 + r.val))) a + S1x16x256.size a ≤ S32x16x512.size a
  k0_off9_wordsbf16 : ∀ d0 : Dev nD, ∀ (r : Fin 31), (Rect.unit (s := S32x16x512) (k0_off9 d0 (BitVec.ofNat 32 (1 + r.val))) S1x16x256.size (k0_off9_inb d0 r)).WholeWords (EltTy.packing .bf16)
  hstage0_0 : ∀ j, (stage0_0 j).IsWhole
  hstage0_1 : ∀ j, (stage0_1 j).IsWhole
  hstage0_2 : ∀ j, (stage0_2 j).IsWhole

variable [Facts₀]

abbrev cc0_scratch3 : DmaSems sig S2x32 := SemArray.consecutive 3 S2x32 hcc0_scratch3
abbrev cc0_scratch4 : DmaSems sig S2x32 := SemArray.consecutive 67 S2x32 hcc0_scratch4
abbrev cc0_scratch5 : DmaSems sig S2x32 := SemArray.consecutive 131 S2x32 hcc0_scratch5
def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_v1) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S512x8192 : Shape := ⟨2, ![512, 8192]⟩
abbrev S8192x512 : Shape := ⟨2, ![8192, 512]⟩
abbrev S512x512 : Shape := ⟨2, ![512, 512]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S512x8192, .f32⟩
  | .hbm, ⟨1, _⟩ => ⟨S8192x512, .f32⟩
  | .hbm, ⟨2, _⟩ => ⟨S512x512, .f32⟩
  | .hbm, ⟨3, _⟩ => ⟨S_, .f32⟩
  | .hbm, ⟨4, _⟩ => ⟨S512x512, .f32⟩
  | .hbm, ⟨5, _⟩ => ⟨S512x512, .f32⟩
  | _, _ => ⟨S512x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  bcast_S_S512x512 : S_.BroadcastsInDim S512x512 (![] : Fin 0 → Fin S512x512.rank)
  dot_S512x8192_S8192x512_S512x512_1_0_0_1_n_n_wf : DotDims.WF S512x8192 S8192x512 S512x512 [1] [0] [0] [1] [] []

variable [Facts₀]

def dot_S512x8192_S8192x512_S512x512_1_0_0_1_n_n : DotDims S512x8192 S8192x512 S512x512 where
  lhsContracting := [1]
  rhsContracting := [0]
  lhsNonContracting := [0]
  rhsNonContracting := [1]
  lhsBatch := []
  rhsBatch := []
  wf := dot_S512x8192_S8192x512_S512x512_1_0_0_1_n_n_wf

class Facts : Prop extends Facts₀ where

variable [Facts]
-- ==== Proof.RefSide.lean ====
import proofs.«900454_g7700000000000455_dist_matmul_relu_kshard_i_m512_n512_k256_v7x_i32_f32_1_alg».proof.Defs
import proofs.«900454_g7700000000000455_dist_matmul_relu_kshard_i_m512_n512_k256_v7x_i32_f32_1_alg».proof.Proof.Gen.ReferenceIdeal
import proofs.«900454_g7700000000000455_dist_matmul_relu_kshard_i_m512_n512_k256_v7x_i32_f32_1_alg».proof.Proof.Gen.ReferenceIdeal.Run
import proofs.«900454_g7700000000000455_dist_matmul_relu_kshard_i_m512_n512_k256_v7x_i32_f32_1_alg».proof.Proof.Gen.ReferenceIdeal.Read
import proofs.«900454_g7700000000000455_dist_matmul_relu_kshard_i_m512_n512_k256_v7x_i32_f32_1_alg».proof.Proof.Gen.Pre_finite_inputs_ReferenceIdeal

noncomputable section

open Idealize.ShloMosaic Idealize.ShloMosaic.TcCoe Idealize.SL.Sem

namespace Cert.Proof.RefSide

/-- The reference terminates, faults nowhere, and leaves its two argument arrays as they were:
    its generated run, with the statement about the result dropped. -/
theorem frame_ri : Cert.frame_ReferenceIdeal := fun m ρ _ =>
  (θ_run Cert.ReferenceIdeal.defs _ _).mono (fun _ h c => (h c).2) (Cert.ReferenceIdeal.Value.run (F := Ideal) m ρ)

end Cert.Proof.RefSide

end
-- ==== Proof.Cells.lean ====
import proofs.«900454_g7700000000000455_dist_matmul_relu_kshard_i_m512_n512_k256_v7x_i32_f32_1_alg».proof.Proof.Gen.KernelIdeal
import proofs.«900454_g7700000000000455_dist_matmul_relu_kshard_i_m512_n512_k256_v7x_i32_f32_1_alg».proof.Proof.Gen.KernelIdeal.Skeleton
import proofs.«900454_g7700000000000455_dist_matmul_relu_kshard_i_m512_n512_k256_v7x_i32_f32_1_alg».proof.Proof.Gen.KernelIdeal.Launch
import Idealize.ShloMosaic.Lib.Pipeline.Launch
import Idealize.ShloMosaic.Lib.Pipeline.Kit
import Idealize.ShloMosaic.Lib.Tactic

set_option maxRecDepth 16384

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy beside the protocol's rounds (duties named by a device) -/

abbrev UB : Type := URounds (GSem nD τ sig) (Fin 32)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Devices on the ring of 32 -/

/-- The device `d` places after `c`. -/
def fwd (c : Dev nD) (d : Fin 32) : Dev nD := ⟨(c.val + d.val) % 32, Nat.mod_lt _ (by decide)⟩
/-- The device `d` places before `c`. -/
def bwd (c : Dev nD) (d : Fin 32) : Dev nD := ⟨(c.val + 32 - d.val) % 32, Nat.mod_lt _ (by decide)⟩

theorem bwd_fwd (c : Dev nD) (d : Fin 32) : bwd (fwd c d) d = c := by
  apply Fin.ext; have hc : c.val < 32 := c.isLt; have := d.isLt
  show ((c.val + d.val) % 32 + 32 - d.val) % 32 = c.val; omega
theorem fwd_bwd (c : Dev nD) (d : Fin 32) : fwd (bwd c d) d = c := by
  apply Fin.ext; have hc : c.val < 32 := c.isLt; have := d.isLt
  show ((c.val + 32 - d.val) % 32 + d.val) % 32 = c.val; omega

/-! ## The three scratch buffers and their slots

Each of the three scratch buffers is 32 slots of 16 rows; a slot is moved in two column halves. -/

abbrev partM : Memref sig .tc .vmem S32x16x512 .bf16 := Memref.whole cc0_scratch0
abbrev gathM : Memref sig .tc .vmem S32x16x512 .bf16 := Memref.whole cc0_scratch1
abbrev resM : Memref sig .tc .vmem S32x16x512 .bf16 := Memref.whole cc0_scratch2

theorem slot_inb (t : Fin 32) (h : Fin 2) : ∀ a, (![t.val, 0, 256 * h.val] : Fin 3 → Nat) a + S1x16x256.size a ≤ S32x16x512.size a := by
  intro a
  have := t.isLt; have := h.isLt
  match a with
  | ⟨0, _⟩ => show t.val + 1 ≤ 32; omega
  | ⟨1, _⟩ => show 0 + 16 ≤ 16; omega
  | ⟨2, _⟩ => show 256 * h.val + 256 ≤ 512; omega

/-- Half `h` of slot `t`: rows of slot `t`, columns `256 h … 256 h + 255`. -/
def slot (t : Fin 32) (h : Fin 2) : Rect S32x16x512 := Rect.unit (s := S32x16x512) ![t.val, 0, 256 * h.val] S1x16x256.size (slot_inb t h)

theorem mem_slot {t : Fin 32} {h : Fin 2} {i : S32x16x512.Idx} :
    i ∈ (slot t h).set ↔ (i 0).val = t.val ∧ 256 * h.val ≤ (i 2).val ∧ (i 2).val < 256 * h.val + 256 := by
  unfold slot
  rw [Rect.mem_set_unit]
  constructor
  · intro H
    have h0 : t.val ≤ (i 0).val ∧ (i 0).val < t.val + 1 := H 0
    have h2 : 256 * h.val ≤ (i 2).val ∧ (i 2).val < 256 * h.val + 256 := H 2
    exact ⟨by omega, h2.1, h2.2⟩
  · rintro ⟨e0, lo, hi⟩ a
    have h1 := (i 1).isLt
    match a with
    | ⟨0, _⟩ => exact ⟨by show t.val ≤ (i 0).val; omega, by show (i 0).val < t.val + 1; omega⟩
    | ⟨1, _⟩ => exact ⟨Nat.zero_le _, by show (i 1).val < 0 + 16; have : (i 1).val < 16 := (i 1).isLt; omega⟩
    | ⟨2, _⟩ => exact ⟨lo, hi⟩

/-- The DMA credit of one half slot. -/
abbrev N : ℕ := ((partM : Memref sig .tc .vmem S32x16x512 .bf16).slice (slot 0 0) (fun _ => rfl)).view.dmaCredit

/-! ## The cells -/

abbrev barS : Sem sig := (SemArray.scalar (sig.barrier 0 rfl) : Sems sig S_).sem

theorem sem_inb (h : Fin 2) (d : Fin 32) : ∀ a, (![h.val, d.val] : Fin 2 → Nat) a + S1x1.size a ≤ S2x32.size a := by
  intro a
  have := h.isLt; have := d.isLt
  match a with
  | ⟨0, _⟩ => show h.val + 1 ≤ 2; omega
  | ⟨1, _⟩ => show d.val + 1 ≤ 32; omega

/-- Entry `(h, d)` of a 2 × 32 array of DMA semaphores. -/
def semAt (A : DmaSems sig S2x32) (h : Fin 2) (d : Fin 32) : DmaSem sig :=
  ((A.slice (Rect.unit (s := S2x32) ![h.val, d.val] S1x1.size (sem_inb h d))).squeeze S_ squeezes_S1x1_S_).sem

abbrev barCell (c : Dev nD) : GSem nD τ sig := ((c : Thread nD τ), .reg barS)
abbrev sendCell (c : Dev nD) (h : Fin 2) (d : Fin 32) : GSem nD τ sig := ((c : Thread nD τ), .dma (semAt cc0_scratch3 h d))
abbrev recv1Cell (c : Dev nD) (h : Fin 2) (d : Fin 32) : GSem nD τ sig := ((c : Thread nD τ), .dma (semAt cc0_scratch4 h d))
abbrev recv2Cell (c : Dev nD) (h : Fin 2) (d : Fin 32) : GSem nD τ sig := ((c : Thread nD τ), .dma (semAt cc0_scratch5 h d))

end Cert.KernelIdeal.Proto

end
-- ==== Proof.Sched.lean ====
import proofs.«900454_g7700000000000455_dist_matmul_relu_kshard_i_m512_n512_k256_v7x_i32_f32_1_alg».proof.Proof.Gen.KernelIdeal
import proofs.«900454_g7700000000000455_dist_matmul_relu_kshard_i_m512_n512_k256_v7x_i32_f32_1_alg».proof.Proof.Gen.KernelIdeal.Skeleton
import proofs.«900454_g7700000000000455_dist_matmul_relu_kshard_i_m512_n512_k256_v7x_i32_f32_1_alg».proof.Proof.Gen.KernelIdeal.Launch
import proofs.«900454_g7700000000000455_dist_matmul_relu_kshard_i_m512_n512_k256_v7x_i32_f32_1_alg».proof.Proof.Cells
import Idealize.ShloMosaic.Lib.Pipeline.Launch
import Idealize.ShloMosaic.Lib.Pipeline.Kit
import Idealize.ShloMosaic.Lib.Tactic

set_option maxRecDepth 16384

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What the buffers hold

Device `c` is launched with block `c` of the two arguments. Its product block, read as 32 slots of 16 rows, fills its
first scratch buffer; slot `d` of its second scratch buffer receives slot `c` of the product block of the device
`d` places before it; the sum of the 32 received slots, clamped below at zero, is slot `c` of the result, and every
device ends with every slot of the result in its third scratch buffer. -/

/-- The contents of a 32 × 16 × 512 scratch buffer. -/
abbrev Scr (F : FTy → Type) : Type := (cc0_scratch0 : Ref sig .tc).ty.Contents (Elt F)

/-- Device `c`'s block of argument `w`, as staged for the one grid point. -/
def argBlk0 (c : Dev nD) : Vec F S512x256 .f32 :=
  (win0_0.blk (0 : Fin 1)).view.read (Elt F) (m ((c : Thread nD τ).loc main_arg0))
def argBlk1 (c : Dev nD) : Vec F S256x512 .f32 :=
  (win0_1.blk (0 : Fin 1)).view.read (Elt F) (m ((c : Thread nD τ).loc main_arg1))

/-- Device `c`'s product block: slot `t` holds rows `16 t … 16 t + 15` of `A_c · B_c`. -/
def partC (c : Dev nD) : Scr F := k0_pay1 (argBlk0 m c) (argBlk1 m c)

/-- An index of a scratch buffer with its slot coordinate replaced. -/
def atSlot (t : Fin 32) (i : S32x16x512.Idx) : S32x16x512.Idx := fun a =>
  match a with
  | ⟨0, _⟩ => (⟨t.val, t.isLt⟩ : Fin 32)
  | ⟨1, _⟩ => i 1
  | ⟨2, _⟩ => i 2

/-- What device `c` gathers: slot `d` is slot `c` of the product block of the device `d` places before `c`. -/
def gathC (c : Dev nD) : Scr F := fun i => partC m (bwd c (i 0)) (atSlot c i)

/-- Column half `h` of all 32 slots. -/
theorem cols_inb (h : Fin 2) : ∀ a, (![0, 0, 256 * h.val] : Fin 3 → Nat) a + S32x16x256.size a ≤ S32x16x512.size a := by
  intro a
  have := h.isLt
  match a with
  | ⟨0, _⟩ => show 0 + 32 ≤ 32; omega
  | ⟨1, _⟩ => show 0 + 16 ≤ 16; omega
  | ⟨2, _⟩ => show 256 * h.val + 256 ≤ 512; omega
def cols (h : Fin 2) : Rect S32x16x512 := Rect.unit (s := S32x16x512) ![0, 0, 256 * h.val] S32x16x256.size (cols_inb h)

/-- Half `h` of device `c`'s own result slot: the gathered slots summed and clamped. -/
def ownRes (c : Dev nD) (h : Fin 2) : FVec F S1x16x256 .bf16 :=
  if h = 0 then k0_pay3 ((gathM : Memref sig .tc .vmem S32x16x512 .bf16).view.readAt (Elt F) (cols h).toLoadRect (gathC m c))
  else k0_pay4 ((gathM : Memref sig .tc .vmem S32x16x512 .bf16).view.readAt (Elt F) (cols h).toLoadRect (gathC m c))

/-- An index into a half slot from one into the whole buffer. -/
def inHalf (i : S32x16x512.Idx) : S1x16x256.Idx := fun a =>
  match a with
  | ⟨0, _⟩ => (⟨0, by decide⟩ : Fin 1)
  | ⟨1, _⟩ => i 1
  | ⟨2, _⟩ => (⟨(i 2).val % 256, Nat.mod_lt _ (by decide)⟩ : Fin 256)

/-- The whole result as every device ends up holding it: slot `s` is device `s`'s own result slot. -/
def resC : Scr F := fun i =>
  ownRes m (⟨(i 0).val, (i 0).isLt⟩ : Fin 32) (⟨(i 2).val / 256, by have := (i 2).isLt; show (i 2).val / 256 < 2; have : (i 2).val < 512 := (i 2).isLt; omega⟩ : Fin 2) (inHalf i)

/-! ## Shares of a result slot: 31 copies read it at once, and the device itself once more -/

def remShr : ℕ → PosShare TreeShare
  | 0 => fullShare
  | k + 1 => (remShr k).right
/-- The share the `d`-th outgoing copy of a result slot holds (`d ≥ 1`). -/
def sendShr (d : ℕ) : PosShare TreeShare := (remShr (d - 1)).left

open scoped Idealize.SL.RA.PCS in
theorem remShr_split (k : ℕ) : remShr k ∈ sendShr (k + 1) ·? remShr (k + 1) :=
  (remShr k).mem_left_op_right

/-! ## The payloads -/

/-- Half `h` of slot `t` of each scratch buffer of device `c`, held at share `q` with the buffer's contents `f`. -/
def partPts (c : Dev nD) (t : Fin 32) (h : Fin 2) (q : PosShare TreeShare) (f : Scr F) : sProp 𝕄 :=
  ((c : Thread nD τ).loc cc0_scratch0) ↦[(slot t h).set]{q} f
def gathPts (c : Dev nD) (t : Fin 32) (h : Fin 2) (q : PosShare TreeShare) (f : Scr F) : sProp 𝕄 :=
  ((c : Thread nD τ).loc cc0_scratch1) ↦[(slot t h).set]{q} f
def resPts (c : Dev nD) (t : Fin 32) (h : Fin 2) (q : PosShare TreeShare) (f : Scr F) : sProp 𝕄 :=
  ((c : Thread nD τ).loc cc0_scratch2) ↦[(slot t h).set]{q} f

theorem N_pos : 0 < N := View.dmaCredit_pos _ (by decide)

/-! ## The schedule

One cell per semaphore the protocol uses. The barrier cell of device 0 has one duty per other device (one unit each);
the barrier cell of any other device one duty, device 0's. A send cell has two rounds of one duty (the copy of a
product slot, then the copy of the result slot); a receive cell one round of one duty. -/

/-- Which of the kernel's three arrays of DMA semaphores a semaphore is in (0 send, 1 first receive, 2 second
    receive), and at which `(h, d)`. The arrays are consecutive, 64 semaphores each, after the three staging ones. -/
def semKind (q : DmaSem sig) : Option (Fin 3 × Fin 2 × Fin 32) :=
  if hq : 3 ≤ q.val ∧ q.val < 195 then
    some (⟨(q.val - 3) / 64, by omega⟩, ⟨(q.val - 3) % 64 / 32, by omega⟩, ⟨(q.val - 3) % 32, Nat.mod_lt _ (by decide)⟩)
  else none

theorem semKind_send : ∀ (h : Fin 2) (d : Fin 32), semKind (semAt cc0_scratch3 h d) = some (0, h, d) := by decide +kernel
theorem semKind_recv1 : ∀ (h : Fin 2) (d : Fin 32), semKind (semAt cc0_scratch4 h d) = some (1, h, d) := by decide +kernel
theorem semKind_recv2 : ∀ (h : Fin 2) (d : Fin 32), semKind (semAt cc0_scratch5 h d) = some (2, h, d) := by decide +kernel

/-- The other devices' places: `d = 1 … 31`. -/
abbrev others : Finset (Fin 32) := Finset.univ.filter (· ≠ 0)

/-- What device `j` gives away at entry: every slot another device will write into, at whatever it holds, and
    that it has reached round 0 of the two cells the writer will credit. -/
def give (j : Dev nD) : sProp 𝕄 :=
  bigSep (Finset.univ : Finset (Fin 2)) fun h => bigSep others fun d =>
    iprop((∃ f, gathPts j d h fullShare f) ∗ (∃ f, resPts j (bwd j d) h fullShare f)
      ∗ reached ER (recv1Cell j h d) 0 ∗ reached ER (recv2Cell j h d) 0)

/-- What device `c` needs before its copies: the slots it will write into on the devices after it, and that
    each of those has reached round 0 of the cells the copies credit. -/
def take (c : Dev nD) : sProp 𝕄 :=
  bigSep (Finset.univ : Finset (Fin 2)) fun h => bigSep others fun d =>
    iprop((∃ f, gathPts (fwd c d) d h fullShare f) ∗ (∃ f, resPts (fwd c d) c h fullShare f)
      ∗ reached ER (recv1Cell (fwd c d) h d) 0 ∗ reached ER (recv2Cell (fwd c d) h d) 0)

/-- The payload of the one duty of round `r` of DMA cell `(k, h, d)` of device `c`. -/
def dmaPay (c : Dev nD) (k : Fin 3) (h : Fin 2) (d : Fin 32) (r : ℕ) : sProp 𝕄 :=
  if k = 0 then (if r = 0 then partPts c (fwd c d) h fullShare (partC m c) else resPts c c h (sendShr d.val) (resC m))
  else if k = 1 then gathPts c d h fullShare (gathC m c)
  else resPts c (bwd c d) h fullShare (resC m)

def sched : Rounds.Schedule (GSem nD τ sig) (Fin 32) 𝕄 where
  duties g r :=
    if g.1.2 = .tc then
      match g.2 with
      | .reg s => if s = barS ∧ r = 0 then (if g.1.1.val = 0 then others else {0}) else ∅
      | .dma q =>
        match semKind q with
        | some (k, _, d) => if d ≠ 0 ∧ (r = 0 ∨ (k = 0 ∧ r = 1)) then {0} else ∅
        | none => ∅
    else ∅
  unitless _ := False
  amount g _ _ := match g.2 with | .reg _ => 1 | .dma _ => N
  payload g r j :=
    match g.2 with
    | .reg _ => if g.1.1.val = 0 then give j else take g.1.1
    | .dma q =>
      match semKind q with
      | some (k, h, d) => dmaPay m g.1.1 k h d r
      | none => iprop(emp)
  amount_pos g _ _ _ := by
    cases g.2 with
    | reg _ => exact Nat.one_pos
    | dma _ => exact N_pos

end Cert.KernelIdeal.Proto

end
-- ==== Proof.ValSpec.lean ====
import Idealize.ShloMosaic.Lib.ValueIdx

/-!
Pure index mathematics for a matrix product whose contraction axis of 8192 positions is cut
into 32 blocks of 256: a sum over the 8192 positions is the sum over the blocks of the sums
inside each block, and the blocks may be visited in the order d ↦ (s + 32 - d) % 32, which is a
bijection of the 32 blocks for every s.
-/

noncomputable section

open scoped BigOperators

namespace Cert.Proof.Val

/-- Position k of block c, of an axis of 8192 positions cut into 32 blocks of 256. -/
def blk (c : Fin 32) (k : Fin 256) : Fin 8192 := ⟨c.val * 256 + k.val, by omega⟩

@[simp] theorem blk_val (c : Fin 32) (k : Fin 256) : (blk c k).val = c.val * 256 + k.val := rfl

/-- The 8192 positions are the 32 × 256 pairs (block, position inside the block). -/
def blkEquiv : Fin 32 × Fin 256 ≃ Fin 8192 where
  toFun p := blk p.1 p.2
  invFun K := (⟨K.val / 256, by omega⟩, ⟨K.val % 256, by omega⟩)
  left_inv p := by
    obtain ⟨c, k⟩ := p
    refine Prod.ext (Fin.ext ?_) (Fin.ext ?_)
    · show (c.val * 256 + k.val) / 256 = c.val
      omega
    · show (c.val * 256 + k.val) % 256 = k.val
      omega
  right_inv K := Fin.ext (by
    show K.val / 256 * 256 + K.val % 256 = K.val
    omega)

/-- A sum over the 8192 positions is the sum over the blocks of the sums inside each block. -/
theorem sum_blk {M : Type*} [AddCommMonoid M] (g : Fin 8192 → M) :
    ∑ K : Fin 8192, g K = ∑ c : Fin 32, ∑ k : Fin 256, g (blk c k) := by
  rw [← Equiv.sum_comp blkEquiv g, Fintype.sum_prod_type]
  rfl

/-- The block visited at step d when starting from s: (s + 32 - d) % 32. -/
def src (s d : Fin 32) : Fin 32 := ⟨(s.val + 32 - d.val) % 32, by omega⟩

@[simp] theorem src_val (s d : Fin 32) : (src s d).val = (s.val + 32 - d.val) % 32 := rfl

/-- Visiting twice from the same start returns to the step: the order is an involution. -/
theorem src_src (s d : Fin 32) : src s (src s d) = d :=
  Fin.ext (by
    show (s.val + 32 - (s.val + 32 - d.val) % 32) % 32 = d.val
    omega)

/-- So for every start s the order d ↦ src s d is a permutation of the 32 blocks. -/
def srcPerm (s : Fin 32) : Equiv.Perm (Fin 32) :=
  Function.Involutive.toPerm (src s) (src_src s)

@[simp] theorem srcPerm_apply (s d : Fin 32) : srcPerm s d = src s d := rfl

/-- A sum over the blocks does not depend on that order. -/
theorem sum_src {M : Type*} [AddCommMonoid M] (s : Fin 32) (f : Fin 32 → M) :
    ∑ d : Fin 32, f (src s d) = ∑ e : Fin 32, f e :=
  Equiv.sum_comp (srcPerm s) f

/-- The 32 partial sums of 256 terms, taken in the order src s, add up to the full sum of
    8192 terms. -/
theorem sum_src_blk {M : Type*} [AddCommMonoid M] (s : Fin 32) (g : Fin 8192 → M) :
    ∑ d : Fin 32, ∑ k : Fin 256, g (blk (src s d) k) = ∑ K : Fin 8192, g K := by
  rw [sum_src s (fun e => ∑ k : Fin 256, g (blk e k)), ← sum_blk g]

/-- The rectified sum of the 32 partial products is the rectified full product. -/
theorem relu_regroup (a b : Fin 8192 → EReal) (s : Fin 32) :
    max (∑ d : Fin 32, ∑ k : Fin 256, a (blk (src s d) k) * b (blk (src s d) k)) 0
      = max (∑ K : Fin 8192, a K * b K) 0 := by
  rw [sum_src_blk s (fun K => a K * b K)]

/-- info: 'Cert.Proof.Val.relu_regroup' depends on axioms: [propext, Classical.choice, Quot.sound] -/
#guard_msgs in #print axioms relu_regroup

end Cert.Proof.Val

end
-- ==== Proof.ValPay.lean ====
import proofs.«900454_g7700000000000455_dist_matmul_relu_kshard_i_m512_n512_k256_v7x_i32_f32_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

/-!
The kernel's pure values read at an index, at the ideal instance, where a change of float format
is the identity.

* The block product [512, 256] · [256, 512], viewed [32, 16, 512]: entry (t, r, j) is the sum over
  the 256 positions k of left (t * 16 + r, k) times right (k, j).
* The reduction of 32 received slabs [32, 16, 256] to one [1, 16, 256]: entry (0, r, j) is the
  maximum of 0 and the sum over the 32 slabs d of entry (d, r, j).
* The gathered result [32, 16, 512] viewed [512, 512]: entry (i, j) is entry (i / 16, i % 16, j).
-/

noncomputable section

open scoped BigOperators

namespace Cert.Proof.Val

open Idealize.ShloMosaic Idealize.ShloMosaic.ValueIdx Cert.KernelIdeal

/-- The product's left operand index at output (i, _) has row i … -/
theorem dot_lhs_row (i : S512x512.Idx) (q : dot_S512x256_S256x512_S512x512_1_0_0_1_n_n.contr.Idx) :
    (dot_S512x256_S256x512_S512x512_1_0_0_1_n_n.lhsIdx i q 0).val = (i 0).val := by
  unfold DotDims.lhsIdx
  rw [dif_neg (show ¬(0 : Fin S512x256.rank) ∈ dot_S512x256_S256x512_S512x512_1_0_0_1_n_n.lhsBatch by decide),
    dif_pos (show (0 : Fin S512x256.rank) ∈ dot_S512x256_S256x512_S512x512_1_0_0_1_n_n.lhsNonContracting by decide)]
  rfl

/-- … and its right operand index at output (_, j) has column j. -/
theorem dot_rhs_col (i : S512x512.Idx) (q : dot_S512x256_S256x512_S512x512_1_0_0_1_n_n.contr.Idx) :
    (dot_S512x256_S256x512_S512x512_1_0_0_1_n_n.rhsIdx i q 1).val = (i 1).val := by
  unfold DotDims.rhsIdx
  rw [dif_neg (show ¬(1 : Fin S256x512.rank) ∈ dot_S512x256_S256x512_S512x512_1_0_0_1_n_n.rhsBatch by decide),
    dif_pos (show (1 : Fin S256x512.rank) ∈ dot_S512x256_S256x512_S512x512_1_0_0_1_n_n.rhsNonContracting by decide)]
  rfl

/-- The block product viewed [32, 16, 512], at (t, r, j): the sum over the 256 positions of the
    products of row i of the left block with column j of the right one, where i = t * 16 + r. -/
theorem pay1_apply_of_val (x0 : Vec Ideal S512x256 .f32) (x1 : Vec Ideal S256x512 .f32)
    (t : Fin 32) (r : Fin 16) (j : Fin 512) (i : Fin 512) (hi : i.val = t.val * 16 + r.val) :
    Gen.k0_pay1 (F := Ideal) x0 x1 (ix3 t r j) = ∑ k : Fin 256, x0 (ix2 i k) * x1 (ix2 k j) := by
  unfold Gen.k0_pay1
  simp only [shapeCast_self]
  refine (truncf_apply (φ := .f32) (ψ := .bf16) _ _ _).trans ?_
  refine (shapeCast_apply _ _ (ix3 t r j) (ix2 i j) ?_).trans ?_
  · rw [Shape.rowMajor_val_two, Shape.rowMajor_val_three]
    show i.val * 512 + j.val = (t.val * 16 + r.val) * 512 + j.val
    rw [hi]
  · simp only [matmul]
    rw [Ideal.matmul_constant_zero_apply,
      ← Equiv.sum_comp (contrEquiv1 dot_S512x256_S256x512_S512x512_1_0_0_1_n_n 256 rfl rfl).symm]
    refine Finset.sum_congr rfl fun k _ => ?_
    have hk := contrEquiv1_symm_val dot_S512x256_S256x512_S512x512_1_0_0_1_n_n 256 rfl rfl k
    have el : dot_S512x256_S256x512_S512x512_1_0_0_1_n_n.lhsIdx (ix2 i j)
        ((contrEquiv1 dot_S512x256_S256x512_S512x512_1_0_0_1_n_n 256 rfl rfl).symm k) = ix2 i k :=
      funext fun a => Fin.ext (by
        match a with
        | ⟨0, _⟩ => exact dot_lhs_row _ _
        | ⟨1, _⟩ => exact (dot_S512x256_S256x512_S512x512_1_0_0_1_n_n.lhsIdx_val_of_single rfl _ _).trans hk)
    have er : dot_S512x256_S256x512_S512x512_1_0_0_1_n_n.rhsIdx (ix2 i j)
        ((contrEquiv1 dot_S512x256_S256x512_S512x512_1_0_0_1_n_n 256 rfl rfl).symm k) = ix2 k j :=
      funext fun a => Fin.ext (by
        match a with
        | ⟨0, _⟩ => exact (dot_S512x256_S256x512_S512x512_1_0_0_1_n_n.rhsIdx_val_of_single rfl _ _).trans hk
        | ⟨1, _⟩ => exact dot_rhs_col _ _)
    rw [el, er]
    rfl

/-- The same with the row spelt 16 * t + r. -/
theorem pay1_apply (x0 : Vec Ideal S512x256 .f32) (x1 : Vec Ideal S256x512 .f32)
    (t : Fin 32) (r : Fin 16) (j : Fin 512) :
    Gen.k0_pay1 (F := Ideal) x0 x1 (ix3 t r j)
      = ∑ k : Fin 256, x0 (ix2 (⟨16 * t.val + r.val, by omega⟩ : Fin 512) k) * x1 (ix2 k j) :=
  pay1_apply_of_val x0 x1 t r j ⟨16 * t.val + r.val, by omega⟩ (by show 16 * t.val + r.val = _; omega)

/-- The reduction of the 32 slabs (first half of the columns) at (u, r, j), u the one coordinate of
    the unit axis: the maximum of 0 and the sum over the slabs d of entry (d, r, j). -/
theorem pay3_apply (v : Vec Ideal S32x16x256 .bf16) (u : Fin 1) (r : Fin 16) (j : Fin 256) :
    Gen.k0_pay3 (F := Ideal) v (ix3 u r j) = max (∑ d : Fin 32, v (ix3 d r j)) 0 := by
  unfold Gen.k0_pay3
  refine (shapeCast_ab_1ab_apply _ _ u r j).trans ?_
  show max (multiReduction .add [0] S16x256 (extf .f32 v _) 0x00000000#32 _ _ _ (ix2 r j))
    (Ideal.ofBits .f32 0x00000000#32) = _
  rw [Ideal.ofBits_zero_f32]
  congr 1
  refine (Ideal.multiReduction_add_single (extf .f32 v _) 0x00000000#32 _ _ _ (ix2 r j)).trans ?_
  refine Finset.sum_congr rfl fun d _ => ?_
  show v _ = v _
  congr 1
  funext a
  match a with
  | ⟨0, _⟩ => exact Fin.ext rfl
  | ⟨1, _⟩ => exact Fin.ext rfl
  | ⟨2, _⟩ => exact Fin.ext rfl

/-- The reduction of the 32 slabs (second half of the columns): the same function. -/
theorem pay4_apply (v : Vec Ideal S32x16x256 .bf16) (u : Fin 1) (r : Fin 16) (j : Fin 256) :
    Gen.k0_pay4 (F := Ideal) v (ix3 u r j) = max (∑ d : Fin 32, v (ix3 d r j)) 0 := by
  unfold Gen.k0_pay4
  refine (shapeCast_ab_1ab_apply _ _ u r j).trans ?_
  show max (multiReduction .add [0] S16x256 (extf .f32 v _) 0x00000000#32 _ _ _ (ix2 r j))
    (Ideal.ofBits .f32 0x00000000#32) = _
  rw [Ideal.ofBits_zero_f32]
  congr 1
  refine (Ideal.multiReduction_add_single (extf .f32 v _) 0x00000000#32 _ _ _ (ix2 r j)).trans ?_
  refine Finset.sum_congr rfl fun d _ => ?_
  show v _ = v _
  congr 1
  funext a
  match a with
  | ⟨0, _⟩ => exact Fin.ext rfl
  | ⟨1, _⟩ => exact Fin.ext rfl
  | ⟨2, _⟩ => exact Fin.ext rfl

/-- The two reductions are one function of the slabs. -/
theorem pay4_eq_pay3 (v : Vec Ideal S32x16x256 .bf16) :
    Gen.k0_pay4 (F := Ideal) v = Gen.k0_pay3 (F := Ideal) v := rfl

/-- The gathered result [32, 16, 512] viewed [512, 512], at (i, j) with i = t * 16 + r: entry
    (t, r, j). -/
theorem pay5_apply_of_val (v : Vec Ideal S32x16x512 .bf16) (i j : Fin 512) (t : Fin 32) (r : Fin 16)
    (hi : i.val = t.val * 16 + r.val) :
    Gen.k0_pay5 (F := Ideal) v (ix2 i j) = v (ix3 t r j) := by
  unfold Gen.k0_pay5
  refine (shapeCast_apply _ _ (ix2 i j) (ix3 t r j) ?_).trans ?_
  · rw [Shape.rowMajor_val_three, Shape.rowMajor_val_two]
    show (t.val * 16 + r.val) * 512 + j.val = i.val * 512 + j.val
    rw [hi]
  · rfl

/-- The same with the slab and the row inside it spelt i / 16 and i % 16. -/
theorem pay5_apply (v : Vec Ideal S32x16x512 .bf16) (i j : Fin 512) :
    Gen.k0_pay5 (F := Ideal) v (ix2 i j)
      = v (ix3 (⟨i.val / 16, by omega⟩ : Fin 32) (⟨i.val % 16, by omega⟩ : Fin 16) j) :=
  pay5_apply_of_val v i j ⟨i.val / 16, by omega⟩ ⟨i.val % 16, by omega⟩
    (by show i.val = i.val / 16 * 16 + i.val % 16; omega)

/-- info: 'Cert.Proof.Val.pay1_apply' depends on axioms: [propext, Classical.choice, Quot.sound] -/
#guard_msgs in #print axioms pay1_apply
/-- info: 'Cert.Proof.Val.pay3_apply' depends on axioms: [propext, Classical.choice, Quot.sound] -/
#guard_msgs in #print axioms pay3_apply
/-- info: 'Cert.Proof.Val.pay4_apply' depends on axioms: [propext, Classical.choice, Quot.sound] -/
#guard_msgs in #print axioms pay4_apply
/-- info: 'Cert.Proof.Val.pay5_apply' depends on axioms: [propext, Classical.choice, Quot.sound] -/
#guard_msgs in #print axioms pay5_apply

end Cert.Proof.Val

end
-- ==== Proof.ValRef.lean ====
import proofs.«900454_g7700000000000455_dist_matmul_relu_kshard_i_m512_n512_k256_v7x_i32_f32_1_alg».proof.Proof.Gen.ReferenceIdeal.Read
import Idealize.ShloMosaic.Lib.Layout
import proofs.«900454_g7700000000000455_dist_matmul_relu_kshard_i_m512_n512_k256_v7x_i32_f32_1_alg».proof.Proof.ValSpec

/-!
The reference side, index by index. Device c holds the columns c * 256 + k of the left factor
[512, 8192] and the rows c * 256 + k of the right factor [8192, 512]; the rectified sum over the
32 devices of the partial products over each device's 256 positions is the rectified product
of the whole factors, which is the reference's value at every index.
-/

noncomputable section

open scoped BigOperators

namespace Cert.Proof.Val

open Idealize.ShloMosaic Idealize.ShloMosaic.ValueIdx Cert.ReferenceIdeal

/-- Block c of the left factor, cut along its columns into 32 blocks: its column k is column
    c * 256 + k of the whole, its row the same. -/
theorem block_cols_apply (A' : (⟨S512x8192, .f32⟩ : BufTy).Contents (Elt Ideal)) (c : Fin 32)
    (i : Fin 512) (k : Fin 256) :
    (Layout.block ⟨2, ![512, 256]⟩ ⟨2, ![512, 8192]⟩ 1 32 c A') (ix2 i k) = A' (ix2 i (blk c k)) := by
  show A' _ = A' _
  congr 1
  funext a
  match a with
  | ⟨0, _⟩ => exact Fin.ext rfl
  | ⟨1, _⟩ => exact Fin.ext rfl

/-- Block c of the right factor, cut along its rows into 32 blocks: its row k is row c * 256 + k
    of the whole, its column the same. -/
theorem block_rows_apply (B' : (⟨S8192x512, .f32⟩ : BufTy).Contents (Elt Ideal)) (c : Fin 32)
    (k : Fin 256) (j : Fin 512) :
    (Layout.block ⟨2, ![256, 512]⟩ ⟨2, ![8192, 512]⟩ 0 32 c B') (ix2 k j) = B' (ix2 (blk c k) j) := by
  show B' _ = B' _
  congr 1
  funext a
  match a with
  | ⟨0, _⟩ => exact Fin.ext rfl
  | ⟨1, _⟩ => exact Fin.ext rfl

/-- The same two with the whole array's coordinate named by its value. -/
theorem block_cols_apply_of_val (A' : (⟨S512x8192, .f32⟩ : BufTy).Contents (Elt Ideal)) (c : Fin 32)
    (i : Fin 512) (k : Fin 256) (K : Fin 8192) (hK : K.val = c.val * 256 + k.val) :
    (Layout.block ⟨2, ![512, 256]⟩ ⟨2, ![512, 8192]⟩ 1 32 c A') (ix2 i k) = A' (ix2 i K) := by
  rw [block_cols_apply, show blk c k = K from Fin.ext hK.symm]

theorem block_rows_apply_of_val (B' : (⟨S8192x512, .f32⟩ : BufTy).Contents (Elt Ideal)) (c : Fin 32)
    (k : Fin 256) (j : Fin 512) (K : Fin 8192) (hK : K.val = c.val * 256 + k.val) :
    (Layout.block ⟨2, ![256, 512]⟩ ⟨2, ![8192, 512]⟩ 0 32 c B') (ix2 k j) = B' (ix2 K j) := by
  rw [block_rows_apply, show blk c k = K from Fin.ext hK.symm]

/-- The reference at (i, j): the rectified product of row i of the left factor with column j of
    the right one, as one sum over the 8192 positions. -/
theorem val_main_v2_ix2 (A' : (⟨S512x8192, .f32⟩ : BufTy).Contents (Elt Ideal))
    (B' : (⟨S8192x512, .f32⟩ : BufTy).Contents (Elt Ideal)) (i j : Fin 512) :
    Read.val_main_v2 (F := Ideal) A' B' (ix2 i j)
      = max (∑ K : Fin 8192, A' (ix2 i K) * B' (ix2 K j)) 0 := by
  rw [Read.val_main_v2_apply, Read.val_main_v1_apply, Read.val_main_cst_apply, Read.val_main_v0_apply]
  have hl : ∀ K : Fin 8192, Read.lidx_main_v0 (ix2 i j) K = ix2 i K := fun K => funext fun a => by
    match a with
    | ⟨0, _⟩ => rfl
    | ⟨1, _⟩ => rfl
  have hr : ∀ K : Fin 8192, Read.ridx_main_v0 (ix2 i j) K = ix2 K j := fun K => funext fun a => by
    match a with
    | ⟨0, _⟩ => rfl
    | ⟨1, _⟩ => rfl
  simp only [hl, hr]
  show max _ (Ideal.ofBits .f32 0x00000000#32) = _
  rw [Ideal.ofBits_zero_f32]

/-- The rectified sum, over the 32 devices in the order src s, of each device's partial product
    over its 256 positions is the reference at (i, j), for every start s. -/
theorem relu_partials_eq_ref (A' : (⟨S512x8192, .f32⟩ : BufTy).Contents (Elt Ideal))
    (B' : (⟨S8192x512, .f32⟩ : BufTy).Contents (Elt Ideal)) (s : Fin 32) (i j : Fin 512) :
    max (∑ d : Fin 32, ∑ k : Fin 256,
        A' (ix2 i (blk (src s d) k)) * B' (ix2 (blk (src s d) k) j)) 0
      = Read.val_main_v2 (F := Ideal) A' B' (ix2 i j) := by
  rw [val_main_v2_ix2]
  exact relu_regroup (fun K => A' (ix2 i K)) (fun K => B' (ix2 K j)) s

/-- The same at the start i / 16 (the device that owns row i), every index spelt out. -/
theorem relu_partials_eq_ref_row (A' : (⟨S512x8192, .f32⟩ : BufTy).Contents (Elt Ideal))
    (B' : (⟨S8192x512, .f32⟩ : BufTy).Contents (Elt Ideal)) (i j : Fin 512) :
    max (∑ d : Fin 32, ∑ k : Fin 256,
        A' (ix2 i (⟨(i.val / 16 + 32 - d.val) % 32 * 256 + k.val, by omega⟩ : Fin 8192))
          * B' (ix2 (⟨(i.val / 16 + 32 - d.val) % 32 * 256 + k.val, by omega⟩ : Fin 8192) j)) 0
      = Read.val_main_v2 (F := Ideal) A' B' (ix2 i j) :=
  relu_partials_eq_ref A' B' ⟨i.val / 16, by omega⟩ i j

/-- info: 'Cert.Proof.Val.relu_partials_eq_ref_row' depends on axioms: [propext, Classical.choice, Quot.sound] -/
#guard_msgs in #print axioms relu_partials_eq_ref_row

end Cert.Proof.Val

end
-- ==== Proof.ValGlue.lean ====
import proofs.«900454_g7700000000000455_dist_matmul_relu_kshard_i_m512_n512_k256_v7x_i32_f32_1_alg».proof.Proof.Sched
import proofs.«900454_g7700000000000455_dist_matmul_relu_kshard_i_m512_n512_k256_v7x_i32_f32_1_alg».proof.Proof.ValSpec
import proofs.«900454_g7700000000000455_dist_matmul_relu_kshard_i_m512_n512_k256_v7x_i32_f32_1_alg».proof.Proof.ValPay
import proofs.«900454_g7700000000000455_dist_matmul_relu_kshard_i_m512_n512_k256_v7x_i32_f32_1_alg».proof.Proof.ValRef

/-!
The value every device ends with, index by index, is the reference's.

Device c starts with columns c * 256 + k of the left factor and rows c * 256 + k of the right one.
Its product block, read as 32 slots of 16 rows, has at (t, r, j) the partial product of row
t * 16 + r with column j over the device's 256 positions. Device t gathers, in slot d, slot t of
the device (t + 32 - d) % 32; the sum over the 32 slots, clamped below at zero, is slot t of the
result, and entry (i, j) of the output is entry (i / 16, i % 16, j) of the result. Since
d ↦ (t + 32 - d) % 32 runs over all 32 devices, the 32 partial products add up to the full product
over the 8192 positions.
-/

set_option maxRecDepth 16384

noncomputable section

open scoped BigOperators

namespace Cert.Proof.Val

open Idealize.ShloMosaic Idealize.ShloMosaic.ValueIdx Idealize.ShloMosaic.TcCoe
open Cert.KernelIdeal

/-- The device d places before c is the block visited at step d from c. -/
theorem bwd_eq_src (c : Dev nD) (d : Fin 32) : Proto.bwd c d = src c d := rfl

/-- A window over the whole left block reads the block itself: its offsets are zero. -/
theorem argBlk0_apply (m : (ℓ : Loc nD τ sig) → Buf (Elt Ideal) ℓ) (c : Dev nD) (i : Fin 512) (k : Fin 256) :
    Proto.argBlk0 m c (ix2 i k) = m ((c : Thread nD τ).loc main_arg0) (ix2 i k) := by
  unfold Proto.argBlk0
  show m ((c : Thread nD τ).loc main_arg0) ((win0_0.blk (0 : Fin 1)).view.emb (ix2 i k)) = _
  congr 1
  funext a
  refine Fin.ext ?_
  match a with
  | ⟨0, _⟩ =>
    show 0 * 512 + 1 * i.val = i.val
    omega
  | ⟨1, _⟩ =>
    show 0 * 256 + 1 * k.val = k.val
    omega

/-- Likewise for the right block. -/
theorem argBlk1_apply (m : (ℓ : Loc nD τ sig) → Buf (Elt Ideal) ℓ) (c : Dev nD) (k : Fin 256) (j : Fin 512) :
    Proto.argBlk1 m c (ix2 k j) = m ((c : Thread nD τ).loc main_arg1) (ix2 k j) := by
  unfold Proto.argBlk1
  show m ((c : Thread nD τ).loc main_arg1) ((win0_1.blk (0 : Fin 1)).view.emb (ix2 k j)) = _
  congr 1
  funext a
  refine Fin.ext ?_
  match a with
  | ⟨0, _⟩ =>
    show 0 * 256 + 1 * k.val = k.val
    omega
  | ⟨1, _⟩ =>
    show 0 * 512 + 1 * j.val = j.val
    omega

/-- Column half h of a 32 × 16 × 512 buffer, read at (d, r, j): the buffer at (d, r, 256 * h + j). -/
theorem gath_read_apply (f : Proto.Scr Ideal) (h : Fin 2) (d : Fin 32) (r : Fin 16) (j : Fin 256) (J : Fin 512)
    (hJ : J.val = 256 * h.val + j.val) :
    (Proto.gathM : Memref sig .tc .vmem S32x16x512 .bf16).view.readAt (Elt Ideal) (Proto.cols h).toLoadRect f (ix3 d r j)
      = f (ix3 d r J) := by
  show f ((Proto.cols h).toLoadRect.idx (ix3 d r j)) = _
  congr 1
  funext a
  refine Fin.ext ?_
  match a with
  | ⟨0, _⟩ =>
    show 0 + 1 * d.val = d.val
    omega
  | ⟨1, _⟩ =>
    show 0 + 1 * r.val = r.val
    omega
  | ⟨2, _⟩ =>
    show 256 * h.val + 1 * j.val = J.val
    omega

/-- Replacing the slot coordinate of (d, r, J) by t gives (t, r, J). -/
theorem atSlot_ix3 (t d : Fin 32) (r : Fin 16) (J : Fin 512) : Proto.atSlot t (ix3 d r J) = ix3 t r J := by
  funext a
  match a with
  | ⟨0, _⟩ => rfl
  | ⟨1, _⟩ => rfl
  | ⟨2, _⟩ => rfl

/-- The index of (t, r, j) inside its half slot: (0, r, j % 256). -/
theorem inHalf_ix3 (t : Fin 32) (r : Fin 16) (j : Fin 512) :
    Proto.inHalf (ix3 t r j) = ix3 (⟨0, by decide⟩ : Fin 1) r (⟨j.val % 256, Nat.mod_lt _ (by decide)⟩ : Fin 256) := by
  funext a
  match a with
  | ⟨0, _⟩ => rfl
  | ⟨1, _⟩ => rfl
  | ⟨2, _⟩ => rfl

/-- Device e's product block at (t, r, j), with i = t * 16 + r: the partial product of row i of the left
    factor with column j of the right one over the positions e * 256 + k. -/
theorem partC_apply (m : (ℓ : Loc nD τ sig) → Buf (Elt Ideal) ℓ)
    (A' : (⟨Cert.ReferenceIdeal.S512x8192, .f32⟩ : BufTy).Contents (Elt Ideal))
    (B' : (⟨Cert.ReferenceIdeal.S8192x512, .f32⟩ : BufTy).Contents (Elt Ideal))
    (hA : ∀ c : Dev nD, m ((c.tc : Thread nD τ).loc main_arg0) = Layout.block ⟨2, ![512, 256]⟩ ⟨2, ![512, 8192]⟩ 1 32 c A')
    (hB : ∀ c : Dev nD, m ((c.tc : Thread nD τ).loc main_arg1) = Layout.block ⟨2, ![256, 512]⟩ ⟨2, ![8192, 512]⟩ 0 32 c B')
    (e : Dev nD) (t : Fin 32) (r : Fin 16) (j i : Fin 512) (hi : i.val = t.val * 16 + r.val) :
    @Eq EReal (Proto.partC m e (ix3 t r j)) (∑ k : Fin 256, A' (ix2 i (blk e k)) * B' (ix2 (blk e k) j)) := by
  unfold Proto.partC
  rw [pay1_apply_of_val _ _ t r j i hi]
  refine Finset.sum_congr rfl fun k _ => ?_
  rw [argBlk0_apply, argBlk1_apply, hA e, hB e, block_cols_apply, block_rows_apply]

/-- Slot d of what device t gathers is slot t of the product block of the device (t + 32 - d) % 32. -/
theorem gathC_apply (m : (ℓ : Loc nD τ sig) → Buf (Elt Ideal) ℓ) (t d : Fin 32) (r : Fin 16) (J : Fin 512) :
    Proto.gathC m t (ix3 d r J) = Proto.partC m (src t d) (ix3 t r J) := by
  unfold Proto.gathC
  show Proto.partC m (Proto.bwd t d) (Proto.atSlot t (ix3 d r J)) = _
  rw [atSlot_ix3, bwd_eq_src]

/-- Half h of device t's own result slot at (u, r, j): the maximum of 0 and the sum over the gathered slots d
    of entry (d, r, 256 * h + j). -/
theorem ownRes_apply (m : (ℓ : Loc nD τ sig) → Buf (Elt Ideal) ℓ) (t : Fin 32) (h : Fin 2) (u : Fin 1) (r : Fin 16)
    (j : Fin 256) (J : Fin 512) (hJ : J.val = 256 * h.val + j.val) :
    @Eq EReal (Proto.ownRes m t h (ix3 u r j)) (max (∑ d : Fin 32, Proto.gathC m t (ix3 d r J)) 0) := by
  unfold Proto.ownRes
  split
  · refine (pay3_apply _ u r j).trans ?_
    exact congrArg (fun x : EReal => max x 0)
      (Finset.sum_congr rfl fun d _ => gath_read_apply (Proto.gathC m t) h d r j J hJ)
  · refine (pay4_apply _ u r j).trans ?_
    exact congrArg (fun x : EReal => max x 0)
      (Finset.sum_congr rfl fun d _ => gath_read_apply (Proto.gathC m t) h d r j J hJ)

/-- Slot t of the result at (r, j): the maximum of 0 and the sum of the 32 gathered slots at (r, j). -/
theorem resC_apply (m : (ℓ : Loc nD τ sig) → Buf (Elt Ideal) ℓ) (t : Fin 32) (r : Fin 16) (j : Fin 512) :
    @Eq EReal (Proto.resC m (ix3 t r j)) (max (∑ d : Fin 32, Proto.gathC m t (ix3 d r j)) 0) := by
  unfold Proto.resC
  rw [inHalf_ix3]
  exact ownRes_apply m _ _ _ r _ j (by
    show j.val = 256 * (j.val / 256) + j.val % 256
    omega)

/-- The output, the result viewed 512 × 512, is the reference: the rectified product of the whole factors. -/
theorem out_eq_ref (m : (ℓ : Loc nD τ sig) → Buf (Elt Ideal) ℓ)
    (A' : (⟨Cert.ReferenceIdeal.S512x8192, .f32⟩ : BufTy).Contents (Elt Ideal))
    (B' : (⟨Cert.ReferenceIdeal.S8192x512, .f32⟩ : BufTy).Contents (Elt Ideal))
    (hA : ∀ c : Dev nD, m ((c.tc : Thread nD τ).loc main_arg0) = Layout.block ⟨2, ![512, 256]⟩ ⟨2, ![512, 8192]⟩ 1 32 c A')
    (hB : ∀ c : Dev nD, m ((c.tc : Thread nD τ).loc main_arg1) = Layout.block ⟨2, ![256, 512]⟩ ⟨2, ![8192, 512]⟩ 0 32 c B') :
    Gen.k0_pay5 (F := Ideal) (Proto.resC m) = Cert.ReferenceIdeal.Read.val_main_v2 (F := Ideal) A' B' := by
  funext idx
  obtain ⟨i, j, rfl⟩ : ∃ (i : Fin 512) (j : Fin 512), idx = ix2 i j := ⟨idx 0, idx 1, eq_ix2 idx⟩
  have hi : i.val = (⟨i.val / 16, by omega⟩ : Fin 32).val * 16 + (⟨i.val % 16, by omega⟩ : Fin 16).val := by
    show i.val = i.val / 16 * 16 + i.val % 16
    omega
  rw [pay5_apply, resC_apply]
  simp only [gathC_apply, partC_apply m A' B' hA hB _ _ _ j i hi]
  exact relu_partials_eq_ref A' B' _ i j

/-- info: 'Cert.Proof.Val.out_eq_ref' depends on axioms: [propext, Classical.choice, Quot.sound] -/
#guard_msgs in #print axioms out_eq_ref

end Cert.Proof.Val

end
-- ==== Proof.Tables.lean ====
import proofs.«900454_g7700000000000455_dist_matmul_relu_kshard_i_m512_n512_k256_v7x_i32_f32_1_alg».proof.Proof.Gen.KernelIdeal
import proofs.«900454_g7700000000000455_dist_matmul_relu_kshard_i_m512_n512_k256_v7x_i32_f32_1_alg».proof.Proof.Gen.KernelIdeal.Skeleton
import proofs.«900454_g7700000000000455_dist_matmul_relu_kshard_i_m512_n512_k256_v7x_i32_f32_1_alg».proof.Proof.Gen.KernelIdeal.Launch
import proofs.«900454_g7700000000000455_dist_matmul_relu_kshard_i_m512_n512_k256_v7x_i32_f32_1_alg».proof.Proof.Sched
import Idealize.ShloMosaic.Lib.Pipeline.Launch
import Idealize.ShloMosaic.Lib.Pipeline.Kit
import Idealize.ShloMosaic.Lib.Tactic

set_option maxRecDepth 16384

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The schedule read at each kind of cell -/

section Tables
variable (c : Dev nD) (h : Fin 2) (d : Fin 32)

theorem duties_bar (r : ℕ) : (sched (F := F) m).duties (barCell c) r = if r = 0 then (if c.val = 0 then others else {0}) else ∅ := by
  by_cases hr : r = 0
  · subst hr; simp only [sched, if_true, and_self, if_pos]
  · simp only [sched, hr, and_false, if_false, if_true]

theorem duties_send (hd : d ≠ 0) (r : ℕ) : (sched (F := F) m).duties (sendCell c h d) r = if r = 0 ∨ r = 1 then {0} else ∅ := by
  simp only [sched, semKind_send, if_true, hd, ne_eq, not_false_eq_true, true_and, true_and]
theorem duties_recv1 (hd : d ≠ 0) (r : ℕ) : (sched (F := F) m).duties (recv1Cell c h d) r = if r = 0 then {0} else ∅ := by
  simp only [sched, semKind_recv1, if_true, hd, ne_eq, not_false_eq_true, true_and, Fin.reduceEq, false_and, or_false]
theorem duties_recv2 (hd : d ≠ 0) (r : ℕ) : (sched (F := F) m).duties (recv2Cell c h d) r = if r = 0 then {0} else ∅ := by
  simp only [sched, semKind_recv2, if_true, hd, ne_eq, not_false_eq_true, true_and, Fin.reduceEq, false_and, or_false]

theorem amount_bar (r : ℕ) (j : Fin 32) : (sched (F := F) m).amount (barCell c) r j = 1 := rfl
theorem amount_send (r : ℕ) (j : Fin 32) : (sched (F := F) m).amount (sendCell c h d) r j = N := rfl
theorem amount_recv1 (r : ℕ) (j : Fin 32) : (sched (F := F) m).amount (recv1Cell c h d) r j = N := rfl
theorem amount_recv2 (r : ℕ) (j : Fin 32) : (sched (F := F) m).amount (recv2Cell c h d) r j = N := rfl

theorem payload_bar (r : ℕ) (j : Fin 32) : (sched (F := F) m).payload (barCell c) r j = if c.val = 0 then give j else take c := rfl
theorem payload_send0 (j : Fin 32) : (sched (F := F) m).payload (sendCell c h d) 0 j = partPts c (fwd c d) h fullShare (partC m c) := by
  simp only [sched, semKind_send, dmaPay, if_true]
theorem payload_send1 (j : Fin 32) : (sched (F := F) m).payload (sendCell c h d) 1 j = resPts c c h (sendShr d.val) (resC m) := by
  simp only [sched, semKind_send, dmaPay, if_true, one_ne_zero, if_false]
theorem payload_recv1 (r : ℕ) (j : Fin 32) : (sched (F := F) m).payload (recv1Cell c h d) r j = gathPts c d h fullShare (gathC m c) := by
  simp only [sched, semKind_recv1, dmaPay, Fin.reduceEq, if_false, if_true]
theorem payload_recv2 (r : ℕ) (j : Fin 32) : (sched (F := F) m).payload (recv2Cell c h d) r j = resPts c (bwd c d) h fullShare (resC m) := by
  simp only [sched, semKind_recv2, dmaPay, Fin.reduceEq, if_false]

theorem expect_send (hd : d ≠ 0) (r : ℕ) (hr : r = 0 ∨ r = 1) : (sched (F := F) m).expect (sendCell c h d) r = N := by
  unfold Schedule.expect Schedule.amountOf; rw [duties_send m c h d hd r, if_pos hr, Finset.sum_singleton]; rfl
theorem expect_recv1 (hd : d ≠ 0) : (sched (F := F) m).expect (recv1Cell c h d) 0 = N := by
  unfold Schedule.expect Schedule.amountOf; rw [duties_recv1 m c h d hd 0, if_pos rfl, Finset.sum_singleton]; rfl
theorem expect_recv2 (hd : d ≠ 0) : (sched (F := F) m).expect (recv2Cell c h d) 0 = N := by
  unfold Schedule.expect Schedule.amountOf; rw [duties_recv2 m c h d hd 0, if_pos rfl, Finset.sum_singleton]; rfl
theorem expect_bar : (sched (F := F) m).expect (barCell c) 0 = if c.val = 0 then 31 else 1 := by
  unfold Schedule.expect Schedule.amountOf; rw [duties_bar m c 0, if_pos rfl]
  by_cases hc : c.val = 0
  · rw [if_pos hc, if_pos hc]; simp only [amount_bar, Finset.sum_const, smul_eq_mul, mul_one]; decide
  · rw [if_neg hc, if_neg hc, Finset.sum_singleton]; rfl

end Tables

end Cert.KernelIdeal.Proto

end
-- ==== Proof.Data.lean ====
import proofs.«900454_g7700000000000455_dist_matmul_relu_kshard_i_m512_n512_k256_v7x_i32_f32_1_alg».proof.Proof.Gen.KernelIdeal
import proofs.«900454_g7700000000000455_dist_matmul_relu_kshard_i_m512_n512_k256_v7x_i32_f32_1_alg».proof.Proof.Gen.KernelIdeal.Skeleton
import proofs.«900454_g7700000000000455_dist_matmul_relu_kshard_i_m512_n512_k256_v7x_i32_f32_1_alg».proof.Proof.Gen.KernelIdeal.Launch
import proofs.«900454_g7700000000000455_dist_matmul_relu_kshard_i_m512_n512_k256_v7x_i32_f32_1_alg».proof.Proof.Tables
import proofs.«900454_g7700000000000455_dist_matmul_relu_kshard_i_m512_n512_k256_v7x_i32_f32_1_alg».proof.Proof.Gen.KernelIdeal.Points
import proofs.«900454_g7700000000000455_dist_matmul_relu_kshard_i_m512_n512_k256_v7x_i32_f32_1_alg».proof.Proof.Gen.KernelIdeal.Frame
import Idealize.ShloMosaic.Lib.Pipeline.Launch
import Idealize.ShloMosaic.Lib.Pipeline.Kit
import Idealize.ShloMosaic.Lib.Tactic

set_option maxRecDepth 16384

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What each device owes at launch; the levels

Device 0 owes every other device's barrier cell one unit; any other device owes device 0's one unit. Every device
owes, for each column half and each `d = 1 … 31`, the credit of one half slot to the first and to the second
receive cell `(h, d)` of the device `d` places after it. -/

def owedBar (c : Dev nD) : CellTallies nD τ sig Unit :=
  if c.val = 0 then ∑ j ∈ others, tallyAt (barCell (⟨j.val, j.isLt⟩ : Dev nD)) () 1
  else tallyAt (barCell (⟨0, by decide⟩ : Dev nD)) () 1

def owedRecv1 (c : Dev nD) : CellTallies nD τ sig Unit :=
  ∑ h : Fin 2, ∑ d ∈ others, tallyAt (recv1Cell (fwd c d) h d) () N
def owedRecv2 (c : Dev nD) : CellTallies nD τ sig Unit :=
  ∑ h : Fin 2, ∑ d ∈ others, tallyAt (recv2Cell (fwd c d) h d) () N

def O₀ (c : Dev nD) : CellTallies nD τ sig Unit := owedRecv2 c + owedRecv1 c + owedBar c

def L (g : GSem nD τ sig) : Finset Unit := if g.1.2 = .tc then {()} else ∅

/-- Device 0's barrier cell below the other barrier cells, those below the first receive cells, those below the
    second; send cells (paid by the waiter's own copies) and the staging cells lowest. A wait is made only while
    everything still owed sits higher: device 0 waits for the others before it signals them; any other device has
    signalled before it waits; the receive waits of the first round come after every copy of that round is
    started, those of the second after every copy of the second. -/
def lv (g : GSem nD τ sig) (_ : Unit) : ℕ :=
  match g.2 with
  | .reg _ => if g.1.1.val = 0 then 1 else 2
  | .dma q =>
    match semKind q with
    | some (k, _, _) => if k = 1 then 3 else if k = 2 then 4 else 0
    | none => 0

theorem L_of_ne (g : GSem nD τ sig) (h : g.1.2 ≠ .tc) : L g = ∅ := if_neg h
theorem L_tc (c : Dev nD) (sm : SemLoc sig) : L ((c : Thread nD τ), sm) = {()} := if_pos rfl

/-! ## The ghost state a device starts from -/

/-- The protocol's cells: per device its barrier cell and its 3 × 2 × 32 DMA cells. -/
abbrev CellIx : Type := Dev nD × Option (Fin 3 × Fin 2 × Fin 32)
def kcell (x : CellIx) : GSem nD τ sig :=
  match x.2 with
  | none => barCell x.1
  | some (k, h, d) =>
    if k = 0 then sendCell x.1 h d else if k = 1 then recv1Cell x.1 h d else recv2Cell x.1 h d

/-- Every cell's invariant, under the names the launch allocated them at. -/
def invs (K : CellIx → ℕ) : sProp 𝕄 :=
  bigSep (Finset.univ : Finset CellIx) fun x => cellInv ER (sched m) (K x) (kcell x)

/-- The positions device `c` holds: round 0 of each of its cells. -/
def positions (c : Dev nD) : sProp 𝕄 :=
  iprop(atPos ER (barCell c) 0 ∅ 0 ∗
    bigSep (Finset.univ : Finset (Fin 2)) fun h => bigSep others fun d =>
      iprop(atPos ER (sendCell c h d) 0 ∅ 0 ∗ atPos ER (recv1Cell c h d) 0 ∅ 0 ∗ atPos ER (recv2Cell c h d) 0 ∅ 0))

/-- Round 0 of each of its own DMA cells is reached: the send cells' for its own copies, the receive cells' to
    give away at entry. -/
def reachedOwn (c : Dev nD) : sProp 𝕄 :=
  bigSep (Finset.univ : Finset (Fin 2)) fun h => bigSep others fun d =>
    iprop(reached ER (sendCell c h d) 0 ∗ reached ER (recv1Cell c h d) 0 ∗ reached ER (recv2Cell c h d) 0)

/-- The tokens of the duties device `c` pays: its barrier signal(s); both rounds of its own send cells; the
    receive cells `(h, d)` of the device `d` places after it. -/
def tokens (c : Dev nD) : sProp 𝕄 :=
  iprop((if c.val = 0 then bigSep others fun j => iprop(dutyTok ER (barCell (⟨j.val, j.isLt⟩ : Dev nD)) 0 (0 : Fin 32) ∗ reached ER (barCell (⟨j.val, j.isLt⟩ : Dev nD)) 0)
      else iprop(dutyTok ER (barCell (⟨0, by decide⟩ : Dev nD)) 0 (⟨c.val, c.isLt⟩ : Fin 32) ∗ reached ER (barCell (⟨0, by decide⟩ : Dev nD)) 0)) ∗
    bigSep (Finset.univ : Finset (Fin 2)) fun h => bigSep others fun d =>
      iprop(dutyTok ER (sendCell c h d) 0 (0 : Fin 32) ∗ dutyTok ER (sendCell c h d) 1 (0 : Fin 32)
        ∗ dutyTok ER (recv1Cell (fwd c d) h d) 0 (0 : Fin 32) ∗ dutyTok ER (recv2Cell (fwd c d) h d) 0 (0 : Fin 32)))

/-- The credit for its waits on cells others pay. -/
def credits (c : Dev nD) : sProp 𝕄 :=
  iprop(cred (tallyAt (barCell c) () (if c.val = 0 then 31 else 1)) ∗
    bigSep (Finset.univ : Finset (Fin 2)) fun h => bigSep others fun d =>
      iprop(cred (tallyAt (recv1Cell c h d) () N) ∗ cred (tallyAt (recv2Cell c h d) () N)))

def ghost (K : CellIx → ℕ) (c : Dev nD) : sProp 𝕄 :=
  iprop(invs m K ∗ positions c ∗ reachedOwn c ∗ tokens c)

/-- What device `c`'s body starts from. -/
def start (c : Dev nD) : sProp 𝕄 :=
  iprop((∃ K, ghost m K c) ∗ credits c ∗ levAts L lv)

/-- The three scratch buffers whole, at some contents. -/
def scratch (c : Dev nD) : sProp 𝕄 :=
  iprop((∃ f : Scr F, ((c : Thread nD τ).loc cc0_scratch0) ↦{fullShare} f) ∗ (∃ f : Scr F, ((c : Thread nD τ).loc cc0_scratch1) ↦{fullShare} f)
    ∗ (∃ f : Scr F, ((c : Thread nD τ).loc cc0_scratch2) ↦{fullShare} f))

def Φ₀ (c : Dev nD) : sProp 𝕄 := iprop(start m c ∗ scratch c)

/-- The kernel's own semaphores back at zero, their cells closed. -/
def semsZero (c : Dev nD) : sProp 𝕄 :=
  bigSep (Finset.univ : Finset (Fin 2)) fun h => bigSep (Finset.univ : Finset (Fin 32)) fun d =>
    iprop(semVal (sendCell c h d) 0 ∗ semVal (recv1Cell c h d) 0 ∗ semVal (recv2Cell c h d) 0)

def Φ₁ (c : Dev nD) : sProp 𝕄 := iprop(scratch (F := F) c ∗ semsZero c)

/-- The result block as the body leaves it in the output window's staging buffer. -/
def outAt : (cc0_stg2_0 : Ref sig .tc).ty.Contents (Elt F) := k0_pay5 (resC m)

def dats (_ : Fin 1) (c : Dev nD) : Dat τ (Elt F) Unit ℕ UU ℕ cfg0 c where
  A w := m ((cfg0.win w).arr.view.loc (c : Thread nD τ))
  after w _ := match w with
    | ⟨0, _⟩ => argBlk0 m c
    | ⟨1, _⟩ => argBlk1 m c
    | ⟨2, _⟩ => outAt m
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

end Cert.KernelIdeal.Proto

end
-- ==== Proof.Regroup.lean ====
import proofs.«900454_g7700000000000455_dist_matmul_relu_kshard_i_m512_n512_k256_v7x_i32_f32_1_alg».proof.Proof.Sched

/-!
The barrier redistributes the half slots: before it, device j holds, for every column half h and
every distance d = 1 … 31, slot d of its gather buffer and slot (j + 32 - d) % 32 of its result
buffer (with the two receive cells at round 0); after it, device c holds those of the device
(c + d) % 32, the ones its copies at distance d write into. For fixed (h, d) the map c ↦ (c + d) % 32
is a bijection of the 32 devices, with inverse j ↦ (j + 32 - d) % 32, so the two collections are one.
-/

set_option maxRecDepth 16384

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- What device j gives away for column half h and distance d. -/
def giveAt (j : Dev nD) (h : Fin 2) (d : Fin 32) : sProp 𝕄 :=
  iprop((∃ f, gathPts j d h fullShare f) ∗ (∃ f, resPts j (bwd j d) h fullShare f)
    ∗ reached ER (recv1Cell j h d) 0 ∗ reached ER (recv2Cell j h d) 0)

/-- What device j gives away: its parts over the two column halves and the 31 distances. -/
theorem give_eq (j : Dev nD) :
    give (F := F) j = bigSep (Finset.univ : Finset (Fin 2)) fun h => bigSep others fun d => giveAt (F := F) j h d := rfl

/-- What device c takes for (h, d) is what the device d places after it gives. -/
theorem take_eq (c : Dev nD) :
    take (F := F) c = bigSep (Finset.univ : Finset (Fin 2)) fun h => bigSep others fun d => giveAt (F := F) (fwd c d) h d := by
  unfold take giveAt
  simp only [bwd_fwd]

/-- Stepping d places forward is a bijection of the devices; stepping back is its inverse. -/
def fwdEquiv (d : Fin 32) : Dev nD ≃ Dev nD where
  toFun c := fwd c d
  invFun j := bwd j d
  left_inv c := bwd_fwd c d
  right_inv j := fwd_bwd j d

/-- A family over the 32 places: the member at place 0 and the members at the others. -/
theorem bigSep_univ_eq_zero_sep_others (Φ : Fin 32 → sProp 𝕄) :
    bigSep (Finset.univ : Finset (Fin 32)) Φ = iprop(Φ 0 ∗ bigSep others Φ) := by
  have e : (Finset.univ : Finset (Fin 32)).erase 0 = others := (Finset.filter_ne' Finset.univ (0 : Fin 32)).symm
  rw [bigSep_univ_split (0 : Fin 32), e]
  rfl

/-- Three nested families over devices, column halves and distances: stepping each device forward by the
    distance does not change the whole. -/
theorem bigSep_regroup (G : Dev nD → Fin 2 → Fin 32 → sProp 𝕄) :
    (bigSep (Finset.univ : Finset (Dev nD)) fun j => bigSep (Finset.univ : Finset (Fin 2)) fun h =>
        bigSep (Finset.univ : Finset (Fin 32)) fun d => G j h d)
      = bigSep (Finset.univ : Finset (Dev nD)) fun c => bigSep (Finset.univ : Finset (Fin 2)) fun h =>
        bigSep (Finset.univ : Finset (Fin 32)) fun d => G (fwd c d) h d :=
  calc (bigSep (Finset.univ : Finset (Dev nD)) fun j => bigSep (Finset.univ : Finset (Fin 2)) fun h =>
          bigSep (Finset.univ : Finset (Fin 32)) fun d => G j h d)
      = bigSep (Finset.univ : Finset (Fin 2)) fun h => bigSep (Finset.univ : Finset (Dev nD)) fun j =>
          bigSep (Finset.univ : Finset (Fin 32)) fun d => G j h d :=
        bigSep_univ_comm (fun (j : Dev nD) (h : Fin 2) => bigSep (Finset.univ : Finset (Fin 32)) fun d => G j h d)
    _ = bigSep (Finset.univ : Finset (Fin 2)) fun h => bigSep (Finset.univ : Finset (Fin 32)) fun d =>
          bigSep (Finset.univ : Finset (Dev nD)) fun j => G j h d :=
        bigSep_congr fun h _ => bigSep_univ_comm (fun (j : Dev nD) (d : Fin 32) => G j h d)
    _ = bigSep (Finset.univ : Finset (Fin 2)) fun h => bigSep (Finset.univ : Finset (Fin 32)) fun d =>
          bigSep (Finset.univ : Finset (Dev nD)) fun c => G (fwd c d) h d :=
        bigSep_congr fun h _ => bigSep_congr fun d _ => bigSep_univ_equiv (fwdEquiv d) (fun j => G j h d)
    _ = bigSep (Finset.univ : Finset (Fin 2)) fun h => bigSep (Finset.univ : Finset (Dev nD)) fun c =>
          bigSep (Finset.univ : Finset (Fin 32)) fun d => G (fwd c d) h d :=
        bigSep_congr fun h _ => (bigSep_univ_comm (fun (c : Dev nD) (d : Fin 32) => G (fwd c d) h d)).symm
    _ = bigSep (Finset.univ : Finset (Dev nD)) fun c => bigSep (Finset.univ : Finset (Fin 2)) fun h =>
          bigSep (Finset.univ : Finset (Fin 32)) fun d => G (fwd c d) h d :=
        (bigSep_univ_comm (fun (c : Dev nD) (h : Fin 2) =>
          bigSep (Finset.univ : Finset (Fin 32)) fun d => G (fwd c d) h d)).symm

/-- What the 32 devices give away at the barrier, taken together, is what they take. -/
theorem give_all_eq_take_all :
    (bigSep (Finset.univ : Finset (Dev nD)) fun j => give (F := F) j)
      = bigSep (Finset.univ : Finset (Dev nD)) fun c => take (F := F) c := by
  simp only [give_eq, take_eq, bigSep_filter]
  exact bigSep_regroup (fun j h d => if d ≠ 0 then giveAt (F := F) j h d else BI.emp)

/-- The same with device 0 named apart from the others, on both sides. -/
theorem give_zero_sep_others_eq_take :
    iprop(give (F := F) (0 : Fin 32) ∗ bigSep others fun j => give (F := F) j)
      = iprop(take (F := F) (0 : Fin 32) ∗ bigSep others fun c => take (F := F) c) := by
  rw [← bigSep_univ_eq_zero_sep_others (fun j => give (F := F) j),
    ← bigSep_univ_eq_zero_sep_others (fun c => take (F := F) c)]
  exact give_all_eq_take_all

/-- info: 'Cert.KernelIdeal.Proto.give_all_eq_take_all' depends on axioms: [propext, Classical.choice, Quot.sound] -/
#guard_msgs in #print axioms give_all_eq_take_all

end Cert.KernelIdeal.Proto

end
-- ==== Proof.LaunchKit.lean ====
import proofs.«900454_g7700000000000455_dist_matmul_relu_kshard_i_m512_n512_k256_v7x_i32_f32_1_alg».proof.Proof.Data
import proofs.«900454_g7700000000000455_dist_matmul_relu_kshard_i_m512_n512_k256_v7x_i32_f32_1_alg».proof.Proof.Regroup
import proofs.«900454_g7700000000000455_dist_matmul_relu_kshard_i_m512_n512_k256_v7x_i32_f32_1_alg».proof.Proof.Gen.KernelIdeal.Frame
import Idealize.ShloMosaic.Lib.Pipeline.Launch
import Idealize.ShloMosaic.Lib.Pipeline.Kit
import Idealize.ShloMosaic.Lib.Tactic

/-!
The launch of the kernel on the 32 devices, part one: the kernel's own 192 DMA semaphores enumerated as its
3 × 2 × 32 DMA cells; the body's pre- and postcondition at the one grid point as the launch provides and takes
them; why the pipeline's own staging waits may be made while a device still owes (everything owed sits at a
level above the staging cells'); and the arrays after the run: the two arguments as they were, the result the
block the body left.
-/

set_option maxRecDepth 16384

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The kernel's own semaphores: the 3 × 64 DMA semaphores after the three staging ones. -/
abbrev osem : Fin 192 → SemLoc sig := fun i => .dma (⟨3 + i.val, by have := i.isLt; show 3 + i.val < 195; omega⟩ : DmaSem sig)

theorem ownSemFacts : Pipeline.OwnSemFacts cfg0.spec osem := by decide +kernel

/-- A DMA cell's index (array, column half, distance) and its place among the 192 own semaphores. -/
def semIx : Fin 3 × Fin 2 × Fin 32 ≃ Fin 192 where
  toFun x := ⟨x.1.val * 64 + x.2.1.val * 32 + x.2.2.val, by have := x.1.isLt; have := x.2.1.isLt; have := x.2.2.isLt; omega⟩
  invFun i := (⟨i.val / 64, by have := i.isLt; omega⟩, ⟨i.val % 64 / 32, by omega⟩, ⟨i.val % 32, by omega⟩)
  left_inv x := by
    obtain ⟨k, h, d⟩ := x
    have := k.isLt; have := h.isLt; have := d.isLt
    refine Prod.ext (Fin.ext ?_) (Prod.ext (Fin.ext ?_) (Fin.ext ?_))
    · show (k.val * 64 + h.val * 32 + d.val) / 64 = k.val; omega
    · show (k.val * 64 + h.val * 32 + d.val) % 64 / 32 = h.val; omega
    · show (k.val * 64 + h.val * 32 + d.val) % 32 = d.val; omega
  right_inv i := Fin.ext (by
    show i.val / 64 * 64 + i.val % 64 / 32 * 32 + i.val % 32 = i.val
    omega)

/-- The semaphore of DMA cell (k, h, d). -/
def dsem (x : Fin 3 × Fin 2 × Fin 32) : DmaSem sig :=
  if x.1 = 0 then semAt cc0_scratch3 x.2.1 x.2.2 else if x.1 = 1 then semAt cc0_scratch4 x.2.1 x.2.2 else semAt cc0_scratch5 x.2.1 x.2.2

theorem osem_semIx : ∀ x : Fin 3 × Fin 2 × Fin 32, osem (semIx x) = SemLoc.dma (dsem x) := by decide +kernel

theorem kcell_some (c : Dev nD) (x : Fin 3 × Fin 2 × Fin 32) : kcell (c, some x) = ((c : Thread nD τ), SemLoc.dma (dsem x)) := by
  obtain ⟨k, h, d⟩ := x
  show (if k = 0 then sendCell c h d else if k = 1 then recv1Cell c h d else recv2Cell c h d) = _
  unfold dsem
  split_ifs <;> rfl

theorem bigSep_fin3 (Φ : Fin 3 → sProp 𝕄) : bigSep Finset.univ Φ = iprop(Φ 0 ∗ Φ 1 ∗ Φ 2) :=
  bigSep_univ_eq_bigSepL [0, 1, 2] (by decide) (by decide) Φ

/-- A family over the DMA cells, by column half and distance: the send, first-receive and second-receive members. -/
theorem bigSep_kinds (Ψ : Fin 3 × Fin 2 × Fin 32 → sProp 𝕄) :
    bigSep Finset.univ Ψ = bigSep (Finset.univ : Finset (Fin 2)) fun h => bigSep (Finset.univ : Finset (Fin 32)) fun d =>
      iprop(Ψ (0, h, d) ∗ Ψ (1, h, d) ∗ Ψ (2, h, d)) := by
  rw [bigSep_univ_prod, bigSep_fin3]
  simp only [bigSep_univ_prod, bigSep_sep']

theorem ownSems0_eq (c : Dev nD) : (Pipeline.ownSems0 (Ix := Unit) (Name := ℕ) (U := UU) (Lvl := ℕ) (Val := Elt F) (τ := τ) osem c : sProp 𝕄)
    = bigSep Finset.univ fun x : Fin 3 × Fin 2 × Fin 32 => semVal (kcell (c, some x)) 0 := by
  unfold Pipeline.ownSems0
  rw [bigSep_univ_equiv semIx]
  exact bigSep_congr fun x _ => by rw [kcell_some, osem_semIx]

theorem semsZero_eq (c : Dev nD) : (semsZero c : sProp 𝕄) = bigSep Finset.univ fun x : Fin 3 × Fin 2 × Fin 32 => semVal (kcell (c, some x)) 0 := by
  rw [bigSep_kinds]
  rfl

/-- The six semaphores of the kernel's arrays at distance 0, which no copy uses, at zero. -/
def zeroSems (c : Dev nD) : sProp 𝕄 :=
  bigSep (Finset.univ : Finset (Fin 2)) fun h =>
    iprop(semVal (sendCell c h 0) 0 ∗ semVal (recv1Cell c h 0) 0 ∗ semVal (recv2Cell c h 0) 0)

def startX (c : Dev nD) : sProp 𝕄 := iprop(start m c ∗ zeroSems c)
def Φ₀X (c : Dev nD) : sProp 𝕄 := iprop(Φ₀ m c ∗ zeroSems c)

def datsX (_ : Fin 1) (c : Dev nD) : Dat τ (Elt F) Unit ℕ UU ℕ cfg0 c where
  A w := m ((cfg0.win w).arr.view.loc (c : Thread nD τ))
  after w _ := match w with
    | ⟨0, _⟩ => argBlk0 m c
    | ⟨1, _⟩ => argBlk1 m c
    | ⟨2, _⟩ => outAt m
  Φ t := match t with
    | ⟨0, _⟩ => Φ₀X m c
    | ⟨_ + 1, _⟩ => Φ₁ c
  q _ := fullShare
  owed t := match t with
    | ⟨0, _⟩ => O₀ c
    | ⟨_ + 1, _⟩ => 0

theorem share_eq (c : Dev nD) (w : Fin cfg0.W) : (datsX m 0 c).share w = fullShare := by unfold Dat.share; split <;> rfl

theorem owedRecv_lv (c : Dev nD) (g : GSem nD τ sig) (i : Unit) (h : 0 < (owedRecv2 c + owedRecv1 c) g i) : i ∈ L g ∧ 3 ≤ lv g i := by
  rcases Pipeline.add_pos_cases h with h2 | h1
  · unfold owedRecv2 at h2
    obtain ⟨hh, -, h2⟩ := Pipeline.sum_pos_exists h2
    obtain ⟨d, -, h2⟩ := Pipeline.sum_pos_exists h2
    rw [tallyAt_apply] at h2
    by_cases e : g = recv2Cell (fwd c d) hh d ∧ i = ()
    · rw [e.1, L_tc]
      refine ⟨Finset.mem_singleton_self _, ?_⟩
      show 3 ≤ lv (recv2Cell (fwd c d) hh d) i
      unfold lv; simp only [semKind_recv2]; decide
    · rw [if_neg e] at h2; exact absurd h2 (Nat.lt_irrefl 0)
  · unfold owedRecv1 at h1
    obtain ⟨hh, -, h1⟩ := Pipeline.sum_pos_exists h1
    obtain ⟨d, -, h1⟩ := Pipeline.sum_pos_exists h1
    rw [tallyAt_apply] at h1
    by_cases e : g = recv1Cell (fwd c d) hh d ∧ i = ()
    · rw [e.1, L_tc]
      refine ⟨Finset.mem_singleton_self _, ?_⟩
      show 3 ≤ lv (recv1Cell (fwd c d) hh d) i
      unfold lv; simp only [semKind_recv1]; decide
    · rw [if_neg e] at h1; exact absurd h1 (Nat.lt_irrefl 0)

theorem lv_bar_pos (j : Dev nD) (i : Unit) : 1 ≤ lv (barCell j) i := by
  show 1 ≤ (if j.val = 0 then 1 else 2)
  split <;> decide

theorem owedBar_lv (c : Dev nD) (g : GSem nD τ sig) (i : Unit) (h : 0 < owedBar c g i) : i ∈ L g ∧ 1 ≤ lv g i := by
  unfold owedBar at h
  split at h
  · obtain ⟨j, -, h⟩ := Pipeline.sum_pos_exists h
    rw [tallyAt_apply] at h
    by_cases e : g = barCell (⟨j.val, j.isLt⟩ : Dev nD) ∧ i = ()
    · rw [e.1, L_tc]; exact ⟨Finset.mem_singleton_self _, lv_bar_pos _ _⟩
    · rw [if_neg e] at h; exact absurd h (Nat.lt_irrefl 0)
  · rw [tallyAt_apply] at h
    by_cases e : g = barCell (⟨0, by decide⟩ : Dev nD) ∧ i = ()
    · rw [e.1, L_tc]; exact ⟨Finset.mem_singleton_self _, lv_bar_pos _ _⟩
    · rw [if_neg e] at h; exact absurd h (Nat.lt_irrefl 0)

theorem O₀_lv (c : Dev nD) (g : GSem nD τ sig) (i : Unit) (h : 0 < O₀ c g i) : i ∈ L g ∧ 1 ≤ lv g i := by
  unfold O₀ at h
  rcases Pipeline.add_pos_cases h with h | h
  · obtain ⟨h1, h2⟩ := owedRecv_lv c g i h
    exact ⟨h1, le_trans (by decide) h2⟩
  · exact owedBar_lv c g i h

/-- The level of a staging cell is 0. -/
theorem lv_stage : ∀ (w : Fin cfg0.W) (s : Fin (cfg0.win w).nbuf), semKind ((cfg0.win w).sem s) = none := by decide +kernel

theorem mayWait_stage (c : Dev nD) (w : Fin cfg0.W) (s : Fin (cfg0.win w).nbuf) (O : CellTallies nD τ sig Unit) (hO : O = O₀ c ∨ O = 0) :
    (levAts L lv : sProp 𝕄) ⊢ MayWait (c : Thread nD τ) (.dma ((cfg0.win w).sem s)) () O := by
  rcases hO with rfl | rfl
  · refine Pipeline.mayWait_of_levAts (by rw [L_tc]; exact Finset.mem_singleton_self _) fun g i hg => ?_
    obtain ⟨h1, h2⟩ := O₀_lv c g i hg
    refine ⟨h1, lt_of_lt_of_le ?_ h2⟩
    have e : semKind ((cfg0.win w).sem s) = none := lv_stage w s
    show (match semKind ((cfg0.win w).sem s) with
      | some (k, _, _) => if k = 1 then 3 else if k = 2 then 4 else 0
      | none => 0) < 1
    rw [e]
    decide
  · rw [MayWait_zero]; iintro -; iempintro

theorem waits (c : Dev nD) : (levAts L lv : sProp 𝕄) ⊢ Pipeline.cellsWaits cfgs (datsX m) () 0 c :=
  Pipeline.cellsWaits_intro cfgs (datsX m) () 0 c fun w s t =>
    mayWait_stage c w s _ (by
      rcases t with ⟨_ | _, ht⟩
      · exact Or.inl rfl
      · exact Or.inr rfl)

theorem phi0_intro (c : Dev nD) :
    iprop(startX m c ∗ Pipeline.prefHeld Pipeline.Prefetch.none c (fun _ => fullShare.right) (fun k => k.elim0) ∗ Pipeline.scopedRest cfg0.spec c)
      ⊢ (datsX m 0 c).Φ 0 := by
  rw [show (datsX m 0 c).Φ 0 = Φ₀X m c from rfl, scopedRest0_eq]
  unfold Φ₀X Φ₀ startX scratch
  iintro ⟨⟨Hs, Hz⟩, -, Hr⟩
  isplitr [Hz]
  · isplitl [Hs]; · iexact Hs
    iexact Hr
  · iexact Hz

theorem phi1_exit (c : Dev nD) :
    (datsX m 0 c).Φ (Fin.last cfg0.N) ⊢ iprop(emp ∗ Pipeline.ownSems0 osem c ∗ Pipeline.scopedRest cfg0.spec c) := by
  rw [show (datsX m 0 c).Φ (Fin.last cfg0.N) = Φ₁ c from rfl, scopedRest0_eq, ownSems0_eq, ← semsZero_eq]
  unfold Φ₁ scratch
  iintro ⟨Hs, Hz⟩
  isplitr; · iempintro
  isplitl [Hz]; · iexact Hz
  iexact Hs

theorem final_out (c : Dev nD) : (datsX m 0 c).arrAt (2 : Fin 3) cfg0.N = outAt m := by
  rw [show cfg0.N = ((0 : Fin 1) : Fin cfg0.N).val + 1 from rfl, (datsX m 0 c).arrAt_succ (2 : Fin 3) (0 : Fin 1)]
  rw [show (cfg0.win (2 : Fin 3)).flush (0 : Fin 1) = true from by decide, if_pos rfl]
  exact Memref.write_access_unit_zero_univ (Elt F) main_v1 (funext fun a => by fin_cases a <;> rfl) _ _ _
theorem final_in0 (c : Dev nD) : (datsX m 0 c).arrAt (0 : Fin 3) cfg0.N = m ((c : Thread nD τ).loc main_arg0) :=
  (datsX m 0 c).arrAt_in (0 : Fin 3) rfl _
theorem final_in1 (c : Dev nD) : (datsX m 0 c).arrAt (1 : Fin 3) cfg0.N = m ((c : Thread nD τ).loc main_arg1) :=
  (datsX m 0 c).arrAt_in (1 : Fin 3) rfl _

end Cert.KernelIdeal.Proto

end
-- ==== Proof.LaunchFund.lean ====
import proofs.«900454_g7700000000000455_dist_matmul_relu_kshard_i_m512_n512_k256_v7x_i32_f32_1_alg».proof.Proof.LaunchKit

/-!
The launch, part two: the protocol's cells on the 32 devices (each device's barrier cell and its 3 × 2 × 32 DMA
cells) are pairwise distinct; the launch mints every cell's round state, position and reached round 0, and the
duty tokens of every cell; and from each device's own semaphores at zero it allocates every cell's invariant.
-/

set_option maxRecDepth 16384

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the duty tokens the launch mints -/

theorem dsem_injective : Function.Injective dsem := fun x y h =>
  semIx.injective (ownSemFacts.inj (by rw [osem_semIx, osem_semIx, h]))

theorem kcell_injective : Function.Injective (kcell : CellIx → GSem nD τ sig) := by
  rintro ⟨c, x⟩ ⟨c', x'⟩ h
  have h1 : c = c' := by
    have e : (kcell (c, x)).1.1 = (kcell (c', x')).1.1 := congrArg (fun g : GSem nD τ sig => g.1.1) h
    cases x <;> cases x' <;> (try rw [kcell_some] at e) <;> (try rw [kcell_some] at e) <;> exact e
  subst h1
  have h2 : (kcell (c, x)).2 = (kcell (c, x')).2 := congrArg Prod.snd h
  cases x with
  | none =>
    cases x' with
    | none => rfl
    | some y' => rw [kcell_some] at h2; exact absurd h2 (fun h' => by cases h')
  | some y =>
    cases x' with
    | none => rw [kcell_some] at h2; exact absurd h2 (fun h' => by cases h')
    | some y' =>
      rw [kcell_some, kcell_some] at h2
      rw [dsem_injective (SemLoc.dma.inj h2)]

def ringCells : Finset (GSem nD τ sig) := Finset.univ.map ⟨kcell, kcell_injective⟩

/-- The duty tokens as minted: for a barrier cell one per name; for a DMA cell the name 0 at rounds 0 and 1. -/
abbrev TokIx : Type := (Dev nD × Fin 32) ⊕ (Dev nD × (Fin 3 × Fin 2 × Fin 32) × Fin 2)
def tokOf : TokIx → GSem nD τ sig × ℕ × Fin 32
  | .inl (c, j) => (kcell (c, none), 0, j)
  | .inr (c, x, r) => (kcell (c, some x), r.val, 0)

theorem tokOf_injective : Function.Injective tokOf := by
  rintro (⟨c, j⟩ | ⟨c, x, r⟩) (⟨c', j'⟩ | ⟨c', x', r'⟩) h
  · have e1 : kcell (c, none) = kcell (c', none) := congrArg (fun t : GSem nD τ sig × ℕ × Fin 32 => t.1) h
    have h1 := kcell_injective e1
    have h2 : j = j' := congrArg (fun t : GSem nD τ sig × ℕ × Fin 32 => t.2.2) h
    rw [(Prod.mk.inj h1).1, h2]
  · have e1 : kcell (c, none) = kcell (c', some x') := congrArg (fun t : GSem nD τ sig × ℕ × Fin 32 => t.1) h
    have h1 := kcell_injective e1
    exact absurd (Prod.mk.inj h1).2 (by simp)
  · have e1 : kcell (c, some x) = kcell (c', none) := congrArg (fun t : GSem nD τ sig × ℕ × Fin 32 => t.1) h
    have h1 := kcell_injective e1
    exact absurd (Prod.mk.inj h1).2 (by simp)
  · have e1 : kcell (c, some x) = kcell (c', some x') := congrArg (fun t : GSem nD τ sig × ℕ × Fin 32 => t.1) h
    have h1 := kcell_injective e1
    have h2 : r.val = r'.val := congrArg (fun t : GSem nD τ sig × ℕ × Fin 32 => t.2.1) h
    rw [(Prod.mk.inj h1).1, Option.some.inj (Prod.mk.inj h1).2, Fin.ext h2]

def ringToks : Finset (GSem nD τ sig × ℕ × Fin 32) := Finset.univ.map ⟨tokOf, tokOf_injective⟩

def u₀ : UU :=
  (initOf (Pipeline.cells cfgs cellOf_inj) (Pipeline.launchToks cfgs cellOf_inj), initOf ringCells ringToks)

/-- The duty tokens of device c's own cells. -/
def toks (c : Dev nD) : sProp 𝕄 :=
  iprop((bigSep Finset.univ fun j : Fin 32 => dutyTok ER (kcell (c, none)) 0 j)
    ∗ bigSep Finset.univ fun xr : (Fin 3 × Fin 2 × Fin 32) × Fin 2 => dutyTok ER (kcell (c, some xr.1)) xr.2.val (0 : Fin 32))

/-- What the launch element deals device c. -/
def G (c : Dev nD) : sProp 𝕄 :=
  iprop((bigSep Finset.univ fun x : Option (Fin 3 × Fin 2 × Fin 32) => roundState ER (sched m) (kcell (c, x)) 0)
    ∗ (bigSep Finset.univ fun x : Option (Fin 3 × Fin 2 × Fin 32) => iprop(atPos ER (kcell (c, x)) 0 ∅ 0 ∗ reached ER (kcell (c, x)) 0)) ∗ toks c)

theorem fund_ring : BI.own (ER (initOf ringCells ringToks)) ⊢ (|==> bigSep Finset.univ (G m) : sProp 𝕄) := by
  have hX (Φ : GSem nD τ sig → sProp 𝕄) : bigSep ringCells Φ
      = bigSep Finset.univ fun c : Dev nD => bigSep Finset.univ fun x : Option (Fin 3 × Fin 2 × Fin 32) => Φ (kcell (c, x)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks toks
    rw [bigSep_map, bigSep_univ_sum, bigSep_univ_prod, bigSep_univ_prod, bigSep_sep']
    rfl
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem fund_all : (ownU (u₀ : UU) : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  imod (fund_ring m) $$ HX with HG
  imodintro
  isplitl [HP] <;> iassumption

/-! ## The schedule's payloads can be kept in an invariant -/

instance give_storable (j : Dev nD) : BI.Storable (upEmb : UEmb _ 𝕄) (give (F := F) j) := by
  unfold give gathPts resPts; infer_instance
instance take_storable (c : Dev nD) : BI.Storable (upEmb : UEmb _ 𝕄) (take (F := F) c) := by
  unfold take gathPts resPts; infer_instance
instance dmaPay_storable (c : Dev nD) (k : Fin 3) (h : Fin 2) (d : Fin 32) (r : ℕ) :
    BI.Storable (upEmb : UEmb _ 𝕄) (dmaPay (F := F) m c k h d r) := by
  unfold dmaPay partPts gathPts resPts
  (repeat' split) <;> infer_instance
instance sched_payload_storable (g : GSem nD τ sig) (r : ℕ) (j : Fin 32) :
    BI.Storable (upEmb : UEmb _ 𝕄) ((sched (F := F) m).payload g r j) := by
  show BI.Storable upEmb (match g.2 with
    | .reg _ => if g.1.1.val = 0 then give j else take g.1.1
    | .dma q =>
      match semKind q with
      | some (k, h, d) => dmaPay m g.1.1 k h d r
      | none => iprop(emp))
  (repeat' split) <;> infer_instance

/-! ## Every cell's invariant allocated -/

theorem bigSep_option {α : Type} [Fintype α] (Φ : Option α → sProp 𝕄) :
    bigSep Finset.univ Φ = iprop(Φ none ∗ bigSep Finset.univ fun a => Φ (some a)) := by
  classical
  have e : (Finset.univ : Finset (Option α)).erase none = Finset.univ.map Function.Embedding.some := by
    ext x; cases x <;> simp
  rw [bigSep_univ_split (none : Option α), e, bigSep_map]
  rfl

theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun x : Option (Fin 3 × Fin 2 × Fin 32) => semVal (kcell (c, x)) 0 : sProp 𝕄) := by
  rw [ownSems0_eq, unscopedSems0_eq, bigSep_option]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun x : Option (Fin 3 × Fin 2 × Fin 32) => iprop(∃ κ : ℕ, cellInv ER (sched m) κ (kcell (c, x))))
          ∗ (bigSep Finset.univ fun x : Option (Fin 3 × Fin 2 × Fin 32) => iprop(atPos ER (kcell (c, x)) 0 ∅ 0 ∗ reached ER (kcell (c, x)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun x : Option (Fin 3 × Fin 2 × Fin 32) => semVal (kcell (c, x)) 0)
        ∗ bigSep Finset.univ fun x : Option (Fin 3 × Fin 2 × Fin 32) => roundState ER (sched m) (kcell (c, x)) 0)
      ⊢ (|={Set.univ}=> bigSep Finset.univ fun x : Option (Fin 3 × Fin 2 × Fin 32) => iprop(∃ κ : ℕ, cellInv ER (sched m) κ (kcell (c, x))) : sProp 𝕄) from by
        rw [← bigSep_sep']
        exact (bigSep_mono fun x _ => (Rounds.body_intro ER (sched m) (kcell (c, x))).trans inv_alloc).trans (bigSep_fupd _ _)) $$ [Hv Hst] with Hinv
  · isplitl [Hv] <;> iassumption
  imodintro
  isplitl [Hinv]; · iexact Hinv
  isplitl [Hat]; · iexact Hat
  iexact Htok

end Cert.KernelIdeal.Proto

end
-- ==== Proof.LaunchGlob.lean ====
import proofs.«900454_g7700000000000455_dist_matmul_relu_kshard_i_m512_n512_k256_v7x_i32_f32_1_alg».proof.Proof.LaunchFund

/-!
The launch, part three: from every device's own cells to what each device's body starts from. The cells'
invariants and reached rounds are shared by all; each device keeps the positions of its own cells; the duty
tokens go to their payers — device 0's barrier tokens one to each other device and every other device's one to
device 0, a device's send tokens to itself, and the receive tokens of the device d places after it to the
device itself (stepping d places forward is a bijection of the 32 devices).
-/

set_option maxRecDepth 16384

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## From the devices' own cells to what each device's body starts from -/

def records (K : CellIx → ℕ) : sProp 𝕄 :=
  iprop(invs m K ∗ bigSep (Finset.univ : Finset CellIx) fun x => reached ER (kcell x) 0)

instance records_persistent (K : CellIx → ℕ) : BI.Persistent (records m K) := by unfold records invs; infer_instance

theorem intro_bigSep_of_persistent {I : Type} [DecidableEq I] (S : Finset I) (R : sProp 𝕄) [BI.Persistent R] (Φ : I → sProp 𝕄)
    (h : ∀ i ∈ S, R ⊢ Φ i) : R ⊢ bigSep S Φ :=
  (BI.bigSep_of_persistent S R).trans (bigSep_mono h)

theorem bigSep_mono' {I : Type} {S : Finset I} {Φ Ψ : I → sProp 𝕄} (h : ∀ i ∈ S, Φ i ⊢ Ψ i) : bigSep S Φ ⊢ bigSep S Ψ := bigSep_mono h
theorem bigSep_subset' {I : Type} [DecidableEq I] {s t : Finset I} (h : t ⊆ s) {Φ : I → sProp 𝕄} : bigSep s Φ ⊢ bigSep t Φ := bigSep_subset h
theorem bigSep_elim' {I : Type} [DecidableEq I] {s : Finset I} {i : I} (hi : i ∈ s) {Φ : I → sProp 𝕄} : bigSep s Φ ⊢ Φ i := bigSep_elim hi

abbrev reachedAll : sProp 𝕄 := bigSep (Finset.univ : Finset CellIx) fun x => reached ER (kcell x) 0

theorem reached_at (x : CellIx) : (reachedAll : sProp 𝕄) ⊢ reached ER (kcell x) 0 := bigSep_elim (Finset.mem_univ x)
theorem reached_bar (c : Dev nD) : (reachedAll : sProp 𝕄) ⊢ reached ER (barCell c) 0 := reached_at (c, none)
theorem reached_send (c : Dev nD) (h : Fin 2) (d : Fin 32) : (reachedAll : sProp 𝕄) ⊢ reached ER (sendCell c h d) 0 := reached_at (c, some (0, h, d))
theorem reached_recv1 (c : Dev nD) (h : Fin 2) (d : Fin 32) : (reachedAll : sProp 𝕄) ⊢ reached ER (recv1Cell c h d) 0 := reached_at (c, some (1, h, d))
theorem reached_recv2 (c : Dev nD) (h : Fin 2) (d : Fin 32) : (reachedAll : sProp 𝕄) ⊢ reached ER (recv2Cell c h d) 0 := reached_at (c, some (2, h, d))

theorem reachedOwn_intro (c : Dev nD) : (reachedAll : sProp 𝕄) ⊢ reachedOwn c := by
  unfold reachedOwn
  refine intro_bigSep_of_persistent _ _ _ fun h _ => intro_bigSep_of_persistent _ _ _ fun d _ => ?_
  iintro #H
  isplitr; · iapply (reached_send (F := F) c h d); iexact H
  isplitr; · iapply (reached_recv1 (F := F) c h d); iexact H
  iapply (reached_recv2 (F := F) c h d); iexact H

/-- The positions of a device's six cells at distance 0, which no copy uses. -/
def pos0 (c : Dev nD) : sProp 𝕄 :=
  bigSep (Finset.univ : Finset (Fin 2)) fun h =>
    iprop(atPos ER (sendCell c h 0) 0 ∅ 0 ∗ atPos ER (recv1Cell c h 0) 0 ∅ 0 ∗ atPos ER (recv2Cell c h 0) 0 ∅ 0)

theorem pos_split (c : Dev nD) :
    (bigSep Finset.univ fun x : Option (Fin 3 × Fin 2 × Fin 32) => (atPos ER (kcell (c, x)) 0 ∅ 0 : sProp 𝕄)) ⊢ iprop(positions c ∗ pos0 c) := by
  rw [bigSep_option, bigSep_kinds]
  simp only [bigSep_univ_eq_zero_sep_others, bigSep_sep']
  unfold positions pos0
  simp only [bigSep_sep']
  iintro ⟨HB, ⟨HZ0, HO0⟩, ⟨HZ1, HO1⟩, HZ2, HO2⟩
  isplitl [HB HO0 HO1 HO2]
  · isplitl [HB]; · iexact HB
    isplitl [HO0]; · iexact HO0
    isplitl [HO1]; · iexact HO1
    iexact HO2
  · isplitl [HZ0]; · iexact HZ0
    isplitl [HZ1]; · iexact HZ1
    iexact HZ2

/-! ## The duty tokens dealt to their payers -/

/-- The barrier tokens a device pays with: device 0 one per other device, any other device one of device 0's. -/
def barToks (c : Dev nD) : sProp 𝕄 :=
  if c.val = 0 then bigSep others fun j => dutyTok ER (barCell (⟨j.val, j.isLt⟩ : Dev nD)) 0 (0 : Fin 32)
  else dutyTok ER (barCell (⟨0, by decide⟩ : Dev nD)) 0 (⟨c.val, c.isLt⟩ : Fin 32)

/-- The DMA tokens a device pays with: both rounds of its own send cells, and the receive cells of the device d places after it. -/
def dmaToks (c : Dev nD) : sProp 𝕄 :=
  bigSep (Finset.univ : Finset (Fin 2)) fun h => bigSep others fun d =>
    iprop(dutyTok ER (sendCell c h d) 0 (0 : Fin 32) ∗ dutyTok ER (sendCell c h d) 1 (0 : Fin 32)
      ∗ dutyTok ER (recv1Cell (fwd c d) h d) 0 (0 : Fin 32) ∗ dutyTok ER (recv2Cell (fwd c d) h d) 0 (0 : Fin 32))

theorem barToks_around :
    (bigSep (Finset.univ : Finset (Fin 32)) fun c => bigSep (Finset.univ : Finset (Fin 32)) fun j => (dutyTok ER (kcell (c, none)) 0 j : sProp 𝕄))
      ⊢ bigSep (Finset.univ : Finset (Fin 32)) fun c => barToks c := by
  have h0 : barToks (F := F) (0 : Fin 32) = bigSep others fun j => dutyTok ER (barCell (⟨j.val, j.isLt⟩ : Dev nD)) 0 (0 : Fin 32) := if_pos rfl
  have hc : ∀ c ∈ others, barToks (F := F) c = dutyTok ER (barCell (⟨0, by decide⟩ : Dev nD)) 0 (⟨c.val, c.isLt⟩ : Fin 32) :=
    fun c hc => if_neg (fun e => (Finset.mem_filter.mp hc).2 (Fin.ext e))
  have X : (bigSep others fun c : Fin 32 => bigSep (Finset.univ : Finset (Fin 32)) fun j => (dutyTok ER (kcell (c, none)) 0 j : sProp 𝕄))
      ⊢ bigSep others fun j : Fin 32 => dutyTok ER (barCell (⟨j.val, j.isLt⟩ : Dev nD)) 0 (0 : Fin 32) :=
    bigSep_mono' fun c _ => bigSep_elim' (Finset.mem_univ (0 : Fin 32))
  have Y : (bigSep (Finset.univ : Finset (Fin 32)) fun j => (dutyTok ER (kcell ((0 : Fin 32), none)) 0 j : sProp 𝕄))
      ⊢ bigSep others fun c : Fin 32 => dutyTok ER (barCell (⟨0, by decide⟩ : Dev nD)) 0 (⟨c.val, c.isLt⟩ : Fin 32) :=
    bigSep_subset' (Finset.filter_subset _ _)
  rw [bigSep_univ_eq_zero_sep_others (fun c : Fin 32 => barToks (F := F) c),
    bigSep_univ_eq_zero_sep_others (fun c : Fin 32 => bigSep (Finset.univ : Finset (Fin 32)) fun j => (dutyTok ER (kcell (c, none)) 0 j : sProp 𝕄)),
    h0, bigSep_congr hc]
  iintro ⟨H0, Hc⟩
  isplitl [Hc]
  · iapply X; iexact Hc
  · iapply Y; iexact H0

theorem bigSep_regroup_right (A R : Dev nD → Fin 2 → Fin 32 → sProp 𝕄) :
    (bigSep (Finset.univ : Finset (Dev nD)) fun c => bigSep (Finset.univ : Finset (Fin 2)) fun h =>
        bigSep (Finset.univ : Finset (Fin 32)) fun d => iprop(A c h d ∗ R c h d))
      = bigSep (Finset.univ : Finset (Dev nD)) fun c => bigSep (Finset.univ : Finset (Fin 2)) fun h =>
        bigSep (Finset.univ : Finset (Fin 32)) fun d => iprop(A c h d ∗ R (fwd c d) h d) := by
  simp only [bigSep_sep']
  rw [bigSep_regroup R]

theorem dmaToks_around :
    (bigSep (Finset.univ : Finset (Dev nD)) fun c => bigSep Finset.univ fun xr : (Fin 3 × Fin 2 × Fin 32) × Fin 2 =>
        (dutyTok ER (kcell (c, some xr.1)) xr.2.val (0 : Fin 32) : sProp 𝕄))
      ⊢ bigSep (Finset.univ : Finset (Dev nD)) fun c => dmaToks c := by
  have step1 : ∀ c : Dev nD, (bigSep Finset.univ fun xr : (Fin 3 × Fin 2 × Fin 32) × Fin 2 =>
        (dutyTok ER (kcell (c, some xr.1)) xr.2.val (0 : Fin 32) : sProp 𝕄))
      ⊢ bigSep (Finset.univ : Finset (Fin 2)) fun h => bigSep (Finset.univ : Finset (Fin 32)) fun d =>
          iprop((dutyTok ER (sendCell c h d) 0 (0 : Fin 32) ∗ dutyTok ER (sendCell c h d) 1 (0 : Fin 32))
            ∗ (dutyTok ER (recv1Cell c h d) 0 (0 : Fin 32) ∗ dutyTok ER (recv2Cell c h d) 0 (0 : Fin 32))) := fun c => by
    rw [bigSep_univ_prod, bigSep_kinds]
    refine bigSep_mono' fun h _ => bigSep_mono' fun d _ => ?_
    rw [bigSep_univ_two, bigSep_univ_two, bigSep_univ_two]
    show iprop((dutyTok ER (sendCell c h d) 0 (0 : Fin 32) ∗ dutyTok ER (sendCell c h d) 1 (0 : Fin 32))
        ∗ (dutyTok ER (recv1Cell c h d) 0 (0 : Fin 32) ∗ dutyTok ER (recv1Cell c h d) 1 (0 : Fin 32))
        ∗ (dutyTok ER (recv2Cell c h d) 0 (0 : Fin 32) ∗ dutyTok ER (recv2Cell c h d) 1 (0 : Fin 32)))
      ⊢ iprop((dutyTok ER (sendCell c h d) 0 (0 : Fin 32) ∗ dutyTok ER (sendCell c h d) 1 (0 : Fin 32))
            ∗ (dutyTok ER (recv1Cell c h d) 0 (0 : Fin 32) ∗ dutyTok ER (recv2Cell c h d) 0 (0 : Fin 32)))
    iintro ⟨⟨HS0, HS1⟩, ⟨HR1, -⟩, ⟨HR2, -⟩⟩
    isplitl [HS0 HS1]
    · isplitl [HS0] <;> iassumption
    · isplitl [HR1] <;> iassumption
  refine (bigSep_mono' fun c _ => step1 c).trans ?_
  refine (Entails.of_eq (bigSep_regroup_right
    (fun c h d => iprop(dutyTok ER (sendCell c h d) 0 (0 : Fin 32) ∗ dutyTok ER (sendCell c h d) 1 (0 : Fin 32)))
    (fun c h d => iprop(dutyTok ER (recv1Cell c h d) 0 (0 : Fin 32) ∗ dutyTok ER (recv2Cell c h d) 0 (0 : Fin 32))))).trans ?_
  unfold dmaToks
  refine bigSep_mono' fun c _ => bigSep_mono' fun h _ => ?_
  refine (bigSep_subset' (Finset.filter_subset _ _)).trans (bigSep_mono' fun d _ => ?_)
  iintro ⟨⟨HS0, HS1⟩, HR1, HR2⟩
  isplitl [HS0]; · iexact HS0
  isplitl [HS1]; · iexact HS1
  isplitl [HR1]; · iexact HR1
  iexact HR2

theorem toks_around : (bigSep Finset.univ fun c : Dev nD => (toks c : sProp 𝕄)) ⊢ bigSep Finset.univ fun c : Dev nD => iprop(barToks c ∗ dmaToks c) := by
  unfold toks
  rw [bigSep_sep', bigSep_sep']
  iintro ⟨Hb, Hd⟩
  isplitl [Hb]
  · iapply (barToks_around (F := F)); iexact Hb
  · iapply (dmaToks_around (F := F)); iexact Hd

theorem barPart (c : Dev nD) : iprop(reachedAll ∗ barToks c)
    ⊢ (if c.val = 0 then bigSep others fun j => iprop(dutyTok ER (barCell (⟨j.val, j.isLt⟩ : Dev nD)) 0 (0 : Fin 32) ∗ reached ER (barCell (⟨j.val, j.isLt⟩ : Dev nD)) 0)
        else iprop(dutyTok ER (barCell (⟨0, by decide⟩ : Dev nD)) 0 (⟨c.val, c.isLt⟩ : Fin 32) ∗ reached ER (barCell (⟨0, by decide⟩ : Dev nD)) 0) : sProp 𝕄) := by
  unfold barToks
  by_cases hc : c.val = 0
  · rw [if_pos hc, if_pos hc, bigSep_sep']
    iintro ⟨#HR, Hb⟩
    isplitl [Hb]; · iexact Hb
    iapply (intro_bigSep_of_persistent others (reachedAll (F := F)) _ (fun j _ => reached_bar _)); iexact HR
  · rw [if_neg hc, if_neg hc]
    iintro ⟨#HR, Hb⟩
    isplitl [Hb]; · iexact Hb
    iapply (reached_bar (F := F) _); iexact HR

theorem tokens_intro (c : Dev nD) : iprop(reachedAll ∗ barToks c ∗ dmaToks c) ⊢ (tokens c : sProp 𝕄) := by
  unfold tokens
  iintro ⟨#HR, Hb, Hd⟩
  isplitl [Hb]
  · iapply (barPart c); isplitr; · iexact HR
    iexact Hb
  · unfold dmaToks; iexact Hd

/-- What the global step makes of it: the ghost state the body starts from, and the positions of the six cells
    at distance 0. -/
def G' (c : Dev nD) : sProp 𝕄 := iprop(∃ K, ghost m K c ∗ pos0 c)

def linear (c : Dev nD) : sProp 𝕄 :=
  iprop((bigSep Finset.univ fun x : Option (Fin 3 × Fin 2 × Fin 32) => atPos ER (kcell (c, x)) 0 ∅ 0) ∗ barToks c ∗ dmaToks c)

theorem ghost_intro (K : CellIx → ℕ) (c : Dev nD) : iprop(records m K ∗ linear c) ⊢ G' m c := by
  unfold records linear G' ghost invs
  iintro ⟨⟨#HI, #HR⟩, Hat, Hb, Hd⟩
  iexists K
  ihave Hp := (pos_split (F := F) c) $$ Hat
  icases Hp with ⟨Hpos, Hp0⟩
  isplitl [Hpos Hb Hd]
  · isplitr; · iexact HI
    isplitl [Hpos]; · iexact Hpos
    isplitr; · iapply (reachedOwn_intro (F := F) c); iexact HR
    iapply (tokens_intro (F := F) c)
    isplitr; · iexact HR
    isplitl [Hb]; · iexact Hb
    iexact Hd
  · iexact Hp0

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun x : Option (Fin 3 × Fin 2 × Fin 32) => iprop(∃ κ : ℕ, cellInv ER (sched m) κ (kcell (c, x))))
          ∗ (bigSep Finset.univ fun x : Option (Fin 3 × Fin 2 × Fin 32) => iprop(atPos ER (kcell (c, x)) 0 ∅ 0 ∗ reached ER (kcell (c, x)) 0)) ∗ toks c) : sProp 𝕄)
      ⊢ bigSep Finset.univ (G' m) := by
  rw [bigSep_sep', bigSep_sep', ← bigSep_univ_prod (fun ck : CellIx => iprop(∃ κ : ℕ, cellInv ER (sched m) κ (kcell ck))),
    bigSep_congr (s := Finset.univ) (fun (c : Dev nD) _ => bigSep_sep' Finset.univ (fun x : Option (Fin 3 × Fin 2 × Fin 32) => (atPos ER (kcell (c, x)) 0 ∅ 0 : sProp 𝕄)) (fun x => reached ER (kcell (c, x)) 0)),
    bigSep_sep', ← bigSep_univ_prod (fun ck : CellIx => (reached ER (kcell ck) 0 : sProp 𝕄))]
  iintro ⟨HI, ⟨Hat, #HR⟩, Htok⟩
  ihave HK := (BI.bigSep_exists_pi Finset.univ (fun (ck : CellIx) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records invs; isplitl; · iexact HI
    iexact HR
  · iapply (Entails.of_eq (bigSep_sep' Finset.univ (fun c : Dev nD => bigSep Finset.univ fun x : Option (Fin 3 × Fin 2 × Fin 32) => (atPos ER (kcell (c, x)) 0 ∅ 0 : sProp 𝕄)) (fun c => iprop(barToks c ∗ dmaToks c))).symm)
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.KernelIdeal.Proto

end
-- ==== Proof.LaunchStart.lean ====
import proofs.«900454_g7700000000000455_dist_matmul_relu_kshard_i_m512_n512_k256_v7x_i32_f32_1_alg».proof.Proof.LaunchGlob

/-!
The launch, part four: the launch credit read as each device's credit for its waits (a barrier cell is owed 31
units if it is device 0's and one unit otherwise; each receive cell at distance d the credit of one half slot,
by the device d places before); the six cells at distance 0, which have no duty at any round, closed and their
counters handed on; and what each device's body starts from.
-/

set_option maxRecDepth 16384

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch credit -/

theorem bar_eq_iff {a b : Dev nD} : Iff (barCell a = barCell b) (a = b) :=
  ⟨fun h => Fin.ext (congrArg (fun g : GSem nD τ sig => g.1.1.val) h), fun h => h ▸ rfl⟩

/-- What device d owes device c's barrier cell. -/
theorem owedBar_apply (d c : Dev nD) :
    owedBar d (barCell c) () = if d.val = 0 then (if c.val = 0 then 0 else 1) else (if c.val = 0 then 1 else 0) := by
  unfold owedBar
  by_cases hd : d.val = 0
  · rw [if_pos hd, if_pos hd, Finset.sum_apply, Finsupp.finsetSum_apply]
    have e : ∀ j ∈ others, tallyAt (barCell (⟨j.val, j.isLt⟩ : Dev nD)) () 1 (barCell c) () = if c = j then 1 else 0 := fun j _ => by
      rw [tallyAt_apply]
      by_cases hj : c = j
      · rw [if_pos hj, if_pos ⟨bar_eq_iff.mpr hj, rfl⟩]
      · rw [if_neg hj, if_neg (fun h => hj (bar_eq_iff.mp h.1))]
    rw [Finset.sum_congr rfl e, Finset.sum_ite_eq]
    by_cases hc : c.val = 0
    · rw [if_pos hc, if_neg]; intro hm; exact (Finset.mem_filter.mp hm).2 (Fin.ext hc)
    · rw [if_neg hc, if_pos]; exact Finset.mem_filter.mpr ⟨Finset.mem_univ _, fun e0 => hc (congrArg Fin.val e0)⟩
  · rw [if_neg hd, if_neg hd, tallyAt_apply]
    by_cases hc : c.val = 0
    · rw [if_pos hc, if_pos]; exact ⟨bar_eq_iff.mpr (Fin.ext hc), rfl⟩
    · rw [if_neg hc, if_neg]; intro h; exact hc (congrArg Fin.val (bar_eq_iff.mp h.1))

theorem sum_owedBar (c : Dev nD) : ∑ d : Dev nD, owedBar d (barCell c) () = if c.val = 0 then 31 else 1 := by
  rw [Finset.sum_congr rfl fun d _ => owedBar_apply d c]
  by_cases hc : c.val = 0
  · simp only [hc, if_true]; decide
  · simp only [hc, if_false]; decide

theorem launch_bar (c : Dev nD) :
    tallyOn (barCell c) (launchCredit (Pipeline.owing owedBar) 0 (barCell c))
      = (tallyAt (barCell c) () (if c.val = 0 then 31 else 1) : CellTallies nD τ sig Unit) := by
  unfold tallyAt; refine congrArg _ (Finsupp.ext fun u => ?_); cases u
  rw [Pipeline.launchCredit_owing, Finsupp.single_eq_same, sum_owedBar]

theorem cred_bar (c : Dev nD) :
    (Pipeline.launchCred owedBar c : sProp 𝕄) ⊢ cred (tallyAt (barCell c) () (if c.val = 0 then 31 else 1)) := by
  unfold Pipeline.launchCred
  exact (bigSep_elim' (Finset.mem_univ (SemLoc.reg barS))).trans (Entails.of_eq (congrArg cred (launch_bar c)))

theorem cred_recv1 (c : Dev nD) : (Pipeline.launchCred owedRecv1 c : sProp 𝕄)
    ⊢ bigSep (Finset.univ : Finset (Fin 2)) fun h => bigSep others fun d => cred (tallyAt (recv1Cell c h d) () N) := by
  refine (Entails.of_eq (Pipeline.launchCred_sum (Finset.univ : Finset (Fin 2)) (fun h d => ∑ d' ∈ others, tallyAt (recv1Cell (fwd d d') h d') () N) c)).trans ?_
  refine bigSep_mono' fun h _ => ?_
  refine (Entails.of_eq (Pipeline.launchCred_sum others (fun d' d => tallyAt (recv1Cell (fwd d d') h d') () N) c)).trans ?_
  refine bigSep_mono' fun d' _ => ?_
  exact Pipeline.launchCred_tallyAt (.dma (semAt cc0_scratch4 h d')) (fun d => fwd d d') (fun j => bwd j d') (fun j => fwd_bwd j d') (fun d => bwd_fwd d d') () N c

theorem cred_recv2 (c : Dev nD) : (Pipeline.launchCred owedRecv2 c : sProp 𝕄)
    ⊢ bigSep (Finset.univ : Finset (Fin 2)) fun h => bigSep others fun d => cred (tallyAt (recv2Cell c h d) () N) := by
  refine (Entails.of_eq (Pipeline.launchCred_sum (Finset.univ : Finset (Fin 2)) (fun h d => ∑ d' ∈ others, tallyAt (recv2Cell (fwd d d') h d') () N) c)).trans ?_
  refine bigSep_mono' fun h _ => ?_
  refine (Entails.of_eq (Pipeline.launchCred_sum others (fun d' d => tallyAt (recv2Cell (fwd d d') h d') () N) c)).trans ?_
  refine bigSep_mono' fun d' _ => ?_
  exact Pipeline.launchCred_tallyAt (.dma (semAt cc0_scratch5 h d')) (fun d => fwd d d') (fun j => bwd j d') (fun j => fwd_bwd j d') (fun d => bwd_fwd d d') () N c

theorem creds (c : Dev nD) : (Pipeline.launchCred O₀ c : sProp 𝕄) ⊢ credits c := by
  have e : (Pipeline.launchCred O₀ c : sProp 𝕄)
      = iprop((Pipeline.launchCred owedRecv2 c ∗ Pipeline.launchCred owedRecv1 c) ∗ Pipeline.launchCred owedBar c) := by
    rw [← Pipeline.launchCred_add, ← Pipeline.launchCred_add]; rfl
  rw [e]
  unfold credits
  simp only [bigSep_sep']
  iintro ⟨⟨H2, H1⟩, HB⟩
  isplitl [HB]; · iapply (cred_bar (F := F) c); iexact HB
  isplitl [H1]
  · iapply (cred_recv1 (F := F) c); iexact H1
  · iapply (cred_recv2 (F := F) c); iexact H2

/-! ## The six cells at distance 0 closed; what the body starts from -/

instance invs_persistent (K : CellIx → ℕ) : BI.Persistent (invs m K) := by unfold invs; infer_instance

theorem duties_zero (c : Dev nD) (k : Fin 3) (h : Fin 2) (r : ℕ) : (sched (F := F) m).duties (kcell (c, some (k, h, 0))) r = ∅ := by
  have hk : k = 0 ∨ k = 1 ∨ k = 2 := by omega
  rcases hk with rfl | rfl | rfl
  · show (sched (F := F) m).duties (sendCell c h 0) r = ∅
    simp [sched, semKind_send]
  · show (sched (F := F) m).duties (recv1Cell c h 0) r = ∅
    simp [sched, semKind_recv1]
  · show (sched (F := F) m).duties (recv2Cell c h 0) r = ∅
    simp [sched, semKind_recv2]

theorem close_cell (K : CellIx → ℕ) (c : Dev nD) (k : Fin 3) (h : Fin 2) :
    iprop(invs m K ∗ atPos ER (kcell (c, some (k, h, 0))) 0 ∅ 0) ⊢ |={Set.univ}=> semVal (kcell (c, some (k, h, 0))) 0 := by
  unfold invs
  iintro ⟨#HI, Hat⟩
  iapply (Rounds.cell_close ER (sched m) (κ := K (c, some (k, h, 0))) (Set.mem_univ _) (fun hu => hu) (R := 0) (fun r _ => duties_zero m c k h r))
  isplitr
  · iapply (bigSep_elim' (Φ := fun x : CellIx => cellInv ER (sched m) (K x) (kcell x)) (Finset.mem_univ ((c, some (k, h, 0)) : CellIx))); iexact HI
  · iexact Hat

theorem close0 (K : CellIx → ℕ) (c : Dev nD) : iprop(invs m K ∗ pos0 c) ⊢ |={Set.univ}=> zeroSems c := by
  unfold pos0 zeroSems
  refine (bigSep_with_persistent (R := invs m K)
    (Ψ := fun h => iprop(|={Set.univ}=> (semVal (sendCell c h 0) 0 ∗ semVal (recv1Cell c h 0) 0 ∗ semVal (recv2Cell c h 0) 0))) fun h _ => ?_).trans (bigSep_fupd _ _)
  iintro ⟨#HI, Ha, Hb, Hc⟩
  imod (close_cell m K c 0 h) $$ [Ha] with Hsa
  · isplitr; · iexact HI
    iexact Ha
  imod (close_cell m K c 1 h) $$ [Hb] with Hsb
  · isplitr; · iexact HI
    iexact Hb
  imod (close_cell m K c 2 h) $$ [Hc] with Hsc
  · isplitr; · iexact HI
    iexact Hc
  imodintro
  isplitl [Hsa]; · iexact Hsa
  isplitl [Hsb]; · iexact Hsb
  iexact Hsc

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(startX m c ∗ emp) := by
  unfold G' startX start ghost
  iintro ⟨-, Hlev, Hcr, -, ⟨%K, ⟨#HI, Hpos, Hro, Htk⟩, Hp0⟩⟩
  ihave Hc := (creds (F := F) c) $$ Hcr
  imod (close0 m K c) $$ [Hp0] with Hz
  · isplitr; · iexact HI
    iexact Hp0
  imodintro
  isplitl
  · isplitl [Hpos Hro Htk Hc Hlev]
    · isplitl [Hpos Hro Htk]
      · iexists K
        isplitr; · iexact HI
        isplitl [Hpos]; · iexact Hpos
        isplitl [Hro]; · iexact Hro
        iexact Htk
      isplitl [Hc]; · iexact Hc
      iexact Hlev
    · iexact Hz
  · iempintro

end Cert.KernelIdeal.Proto

end
-- ==== Proof.LaunchRun.lean ====
import proofs.«900454_g7700000000000455_dist_matmul_relu_kshard_i_m512_n512_k256_v7x_i32_f32_1_alg».proof.Proof.LaunchStart

/-!
The launch, closed: for any float instance, from any memory with every semaphore counter at zero, every weakly
fair execution of the 32 devices' kernels terminates, provided one device's body meets its obligation at the one
grid point; and every final state has, on every device, the result array at the block the body left and the two
argument arrays as they were.
-/

set_option maxRecDepth 16384

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxRecDepth 16384 in
theorem kernel_run_of_body
    (hbody : ∀ c : Dev nD, Pipeline.BodyObligationLoose (datsX (F := F) m 0 c) (defs₀ (F := F)) 𝒱₀ () Set.univ) :
    θ_run (defs (F := F)) (onTc (τ := τ) (main (F := F))) ⟨m, fun _ => 0, ρ⟩ (fun r => ∀ c : Dev nD,
      r.2.mem ((c.tc : Thread nD τ).loc main_v1) = outAt m
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_region_owing_glob_pf (fun p => (cfgs p).toPCfg) (fun p => (cfgs p).toPCfg_adm) (datsX m) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := fund_all m)
    (hglob := glob m)
    (hA := fun _ _ => rfl) (hpf := fun _ k => k.elim0)
    (X := startX m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun s h c => ⟨((h c).1 (2 : Fin 3)).trans (final_out m c), ((h c).1 (0 : Fin 3)).trans (final_in0 m c), ((h c).1 (1 : Fin 3)).trans (final_in1 m c)⟩)

/-- info: 'Cert.KernelIdeal.Proto.kernel_run_of_body' depends on axioms: [propext, Classical.choice, Quot.sound] -/
#guard_msgs in #print axioms kernel_run_of_body

end Cert.KernelIdeal.Proto

end
-- ==== Proof.Slots.lean ====
import proofs.«900454_g7700000000000455_dist_matmul_relu_kshard_i_m512_n512_k256_v7x_i32_f32_1_alg».proof.Proof.Gen.KernelIdeal
import proofs.«900454_g7700000000000455_dist_matmul_relu_kshard_i_m512_n512_k256_v7x_i32_f32_1_alg».proof.Proof.Gen.KernelIdeal.Skeleton
import proofs.«900454_g7700000000000455_dist_matmul_relu_kshard_i_m512_n512_k256_v7x_i32_f32_1_alg».proof.Proof.Gen.KernelIdeal.Launch
import proofs.«900454_g7700000000000455_dist_matmul_relu_kshard_i_m512_n512_k256_v7x_i32_f32_1_alg».proof.Proof.Sched
import Idealize.ShloMosaic.Lib.Pipeline.Launch
import Idealize.ShloMosaic.Lib.Pipeline.Kit
import Idealize.ShloMosaic.Lib.Tactic

set_option maxRecDepth 16384

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## A scratch buffer is its 32 × 2 half slots -/

theorem slot_disjoint {t t' : Fin 32} {h h' : Fin 2} (hne : (t, h) ≠ (t', h')) : Disjoint (slot t h).set (slot t' h').set := by
  rw [Finset.disjoint_left]
  intro i hi hi'
  rw [mem_slot] at hi hi'
  apply hne
  have e1 : t = t' := Fin.ext (hi.1.symm.trans hi'.1)
  have e2 : h = h' := by
    apply Fin.ext; have := h.isLt; have := h'.isLt; omega
  rw [e1, e2]

theorem slot_cover : (Finset.univ : Finset (Fin 32 × Fin 2)).biUnion (fun x => (slot x.1 x.2).set) = Finset.univ := by
  ext i
  simp only [Finset.mem_biUnion, Finset.mem_univ, true_and, iff_true]
  have h2 : (i 2).val < 512 := (i 2).isLt
  refine ⟨(⟨(i 0).val, (i 0).isLt⟩, ⟨(i 2).val / 256, by omega⟩), ?_⟩
  rw [mem_slot]
  refine ⟨rfl, ?_, ?_⟩
  · show 256 * ((i 2).val / 256) ≤ (i 2).val; omega
  · show (i 2).val < 256 * ((i 2).val / 256) + 256; omega

/-- Each whole scratch buffer held at `f` is every half slot of it held at `f`. -/
theorem scratch0_split (c : Dev nD) (q : PosShare TreeShare) (f : Scr F) :
    ((((c : Thread nD τ).loc cc0_scratch0) ↦{q} f) : sProp 𝕄)
      = bigSep (Finset.univ : Finset (Fin 32 × Fin 2)) fun x => partPts c x.1 x.2 q f := by
  rw [← slot_cover]
  exact pointsTo_biUnion _ _ fun x _ y _ hxy => slot_disjoint (fun e => hxy (Prod.ext (congrArg Prod.fst e) (congrArg Prod.snd e)))
theorem scratch1_split (c : Dev nD) (q : PosShare TreeShare) (f : Scr F) :
    ((((c : Thread nD τ).loc cc0_scratch1) ↦{q} f) : sProp 𝕄)
      = bigSep (Finset.univ : Finset (Fin 32 × Fin 2)) fun x => gathPts c x.1 x.2 q f := by
  rw [← slot_cover]
  exact pointsTo_biUnion _ _ fun x _ y _ hxy => slot_disjoint (fun e => hxy (Prod.ext (congrArg Prod.fst e) (congrArg Prod.snd e)))
theorem scratch2_split (c : Dev nD) (q : PosShare TreeShare) (f : Scr F) :
    ((((c : Thread nD τ).loc cc0_scratch2) ↦{q} f) : sProp 𝕄)
      = bigSep (Finset.univ : Finset (Fin 32 × Fin 2)) fun x => resPts c x.1 x.2 q f := by
  rw [← slot_cover]
  exact pointsTo_biUnion _ _ fun x _ y _ hxy => slot_disjoint (fun e => hxy (Prod.ext (congrArg Prod.fst e) (congrArg Prod.snd e)))

end Cert.KernelIdeal.Proto

end
-- ==== Proof.Give.lean ====
import proofs.«900454_g7700000000000455_dist_matmul_relu_kshard_i_m512_n512_k256_v7x_i32_f32_1_alg».proof.Proof.Gen.KernelIdeal
import proofs.«900454_g7700000000000455_dist_matmul_relu_kshard_i_m512_n512_k256_v7x_i32_f32_1_alg».proof.Proof.Gen.KernelIdeal.Skeleton
import proofs.«900454_g7700000000000455_dist_matmul_relu_kshard_i_m512_n512_k256_v7x_i32_f32_1_alg».proof.Proof.Gen.KernelIdeal.Launch
import proofs.«900454_g7700000000000455_dist_matmul_relu_kshard_i_m512_n512_k256_v7x_i32_f32_1_alg».proof.Proof.Slots
import Idealize.ShloMosaic.Lib.SparseCore.Launch
import Idealize.ShloMosaic.Lib.Pipeline.Launch
import Idealize.ShloMosaic.Lib.Pipeline.Kit
import Idealize.ShloMosaic.Lib.Tactic

set_option maxRecDepth 16384

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## What a device gives away at entry, cut out of its two receiving buffers -/

theorem slot_cover' : (Finset.univ : Finset (Fin 2 × Fin 32)).biUnion (fun x => (slot x.2 x.1).set) = Finset.univ := by
  ext i
  simp only [Finset.mem_biUnion, Finset.mem_univ, true_and, iff_true]
  have h2 : (i 2).val < 512 := (i 2).isLt
  refine ⟨(⟨(i 2).val / 256, by omega⟩, ⟨(i 0).val, (i 0).isLt⟩), ?_⟩
  rw [mem_slot]
  refine ⟨rfl, ?_, ?_⟩
  · show 256 * ((i 2).val / 256) ≤ (i 2).val; omega
  · show (i 2).val < 256 * ((i 2).val / 256) + 256; omega

theorem others_compl : (Finset.univ : Finset (Fin 32)).filter (fun d => ¬ d ≠ 0) = {0} := by decide

/-- The slots of the gathering buffer other devices write: all but slot 0. -/
theorem gath_split (c : Dev nD) (f : Scr F) :
    ((((c : Thread nD τ).loc cc0_scratch1) ↦{fullShare} f) : sProp 𝕄)
      = bigSep (Finset.univ : Finset (Fin 2)) fun h => iprop(gathPts c 0 h fullShare f ∗ bigSep others fun d => gathPts c d h fullShare f) := by
  rw [← slot_cover', pointsTo_biUnion _ _ fun x _ y _ hxy => slot_disjoint (fun e => hxy (Prod.ext (congrArg Prod.snd e) (congrArg Prod.fst e))),
    ← Finset.univ_product_univ, SparseCore.bigSep_product]
  refine bigSep_congr fun h _ => ?_
  rw [bigSep_filter_split Finset.univ (fun d : Fin 32 => d ≠ 0), others_compl, bigSep_singleton]
  have hcomm : ∀ P Q : sProp 𝕄, BI.sep P Q = BI.sep Q P := fun P Q => BI.equiv_iff.mp ⟨BI.sep_comm, BI.sep_comm⟩
  exact (hcomm _ _).trans rfl

/-- The slots of the result buffer other devices write: all but the device's own. -/
theorem res_split (c : Dev nD) (f : Scr F) :
    ((((c : Thread nD τ).loc cc0_scratch2) ↦{fullShare} f) : sProp 𝕄)
      = bigSep (Finset.univ : Finset (Fin 2)) fun h => iprop(resPts c c h fullShare f ∗ bigSep others fun d => resPts c (bwd c d) h fullShare f) := by
  rw [← slot_cover', pointsTo_biUnion _ _ fun x _ y _ hxy => slot_disjoint (fun e => hxy (Prod.ext (congrArg Prod.snd e) (congrArg Prod.fst e))),
    ← Finset.univ_product_univ, SparseCore.bigSep_product]
  refine bigSep_congr fun h _ => ?_
  have himg : (Finset.univ : Finset (Fin 32)) = insert c (others.image (bwd c)) := by
    ext t
    simp only [Finset.mem_univ, Finset.mem_insert, Finset.mem_image, Finset.mem_filter, _root_.true_and, true_iff]
    by_cases ht : t = c
    · exact Or.inl ht
    · refine Or.inr ⟨⟨(c.val + 32 - t.val) % 32, Nat.mod_lt _ (by decide)⟩, ?_, ?_⟩
      · intro h0
        have h0' : (c.val + 32 - t.val) % 32 = 0 := congrArg Fin.val h0
        have hc : c.val < 32 := c.isLt; have ht' : t.val < 32 := t.isLt
        exact ht (Fin.ext (by show t.val = c.val; omega))
      · apply Fin.ext; have hc : c.val < 32 := c.isLt; have hc : t.val < 32 := t.isLt
        show (c.val + 32 - (c.val + 32 - t.val) % 32) % 32 = t.val; omega
  have hnot : c ∉ others.image (bwd c) := by
    simp only [Finset.mem_image, Finset.mem_filter, Finset.mem_univ, _root_.true_and, not_exists, not_and]
    intro d hd e
    have e' : (c.val + 32 - d.val) % 32 = c.val := congrArg Fin.val e
    have hc : c.val < 32 := c.isLt; have := d.isLt
    exact hd (Fin.ext (by show d.val = 0; omega))
  have hinj : Set.InjOn (bwd c) (others : Finset (Fin 32)) := by
    intro a _ b _ e
    have e' : (c.val + 32 - a.val) % 32 = (c.val + 32 - b.val) % 32 := congrArg Fin.val e
    have hc : c.val < 32 := c.isLt; have := a.isLt; have := b.isLt
    exact Fin.ext (by omega)
  rw [himg, bigSep_insert hnot, bigSep_image_of_injOn hinj]
  rfl

/-- Round 0 of every receive cell of device `c` is reached. -/
def reachedRecv (c : Dev nD) : sProp 𝕄 :=
  bigSep (Finset.univ : Finset (Fin 2)) fun h => bigSep others fun d =>
    iprop(reached ER (recv1Cell c h d) 0 ∗ reached ER (recv2Cell c h d) 0)

theorem give_comp (c : Dev nD) (g1 g2 : Scr F) (h : Fin 2) (d : Fin 32) :
    (iprop(gathPts c d h fullShare g1 ∗ resPts c (bwd c d) h fullShare g2
        ∗ (reached ER (recv1Cell c h d) 0 ∗ reached ER (recv2Cell c h d) 0)) : sProp 𝕄)
      ⊢ iprop((∃ f, gathPts c d h fullShare f) ∗ (∃ f, resPts c (bwd c d) h fullShare f)
        ∗ reached ER (recv1Cell c h d) 0 ∗ reached ER (recv2Cell c h d) 0) := by
  iintro ⟨HG, HR, HX1, HX2⟩
  isplitl [HG]; · iexists g1; iexact HG
  isplitl [HR]; · iexists g2; iexact HR
  isplitl [HX1]; · iexact HX1
  iexact HX2

theorem give_of_parts (c : Dev nD) (g1 g2 : Scr F) :
    iprop((bigSep (Finset.univ : Finset (Fin 2)) fun h => bigSep others fun d => gathPts c d h fullShare g1)
        ∗ (bigSep (Finset.univ : Finset (Fin 2)) fun h => bigSep others fun d => resPts c (bwd c d) h fullShare g2)
        ∗ reachedRecv c)
      ⊢ (give c : sProp 𝕄) := by
  have e : (bigSep (Finset.univ : Finset (Fin 2)) fun h => bigSep others fun d =>
        iprop(gathPts c d h fullShare g1 ∗ resPts c (bwd c d) h fullShare g2
          ∗ (reached ER (recv1Cell c h d) 0 ∗ reached ER (recv2Cell c h d) 0)) : sProp 𝕄)
      = iprop((bigSep (Finset.univ : Finset (Fin 2)) fun h => bigSep others fun d => gathPts c d h fullShare g1)
        ∗ (bigSep (Finset.univ : Finset (Fin 2)) fun h => bigSep others fun d => resPts c (bwd c d) h fullShare g2)
        ∗ reachedRecv c) := by
    unfold reachedRecv
    simp only [bigSep_sep']
  rw [← e]
  unfold give
  exact bigSep_mono fun h _ => bigSep_mono fun d _ => give_comp c g1 g2 h d

/-- From its gathering buffer and its result buffer, both whole, and the reached rounds of its receive cells, a
    device makes what it gives away at entry; it keeps slot 0 of the first and its own slot of the second. -/
theorem give_intro (c : Dev nD) (g1 g2 : Scr F) :
    iprop((((c : Thread nD τ).loc cc0_scratch1) ↦{fullShare} g1) ∗ (((c : Thread nD τ).loc cc0_scratch2) ↦{fullShare} g2) ∗ reachedRecv c)
      ⊢ (iprop(give c ∗ (bigSep (Finset.univ : Finset (Fin 2)) fun h => gathPts c 0 h fullShare g1)
          ∗ (bigSep (Finset.univ : Finset (Fin 2)) fun h => resPts c c h fullShare g2)) : sProp 𝕄) := by
  rw [gath_split, res_split, bigSep_sep', bigSep_sep']
  iintro ⟨⟨HG0, HG⟩, ⟨HR0, HR⟩, HX⟩
  isplitl [HG HR HX]
  · iapply (give_of_parts c g1 g2)
    isplitl [HG]; · iexact HG
    isplitl [HR]; · iexact HR
    iexact HX
  · isplitl [HG0]; · iexact HG0
    iexact HR0

end Cert.KernelIdeal.Proto

end
-- ==== Proof.DevEq.lean ====
import proofs.«900454_g7700000000000455_dist_matmul_relu_kshard_i_m512_n512_k256_v7x_i32_f32_1_alg».proof.Proof.Cells

/-!
Closed forms of the words the kernel computes from its device number c (one of 32): which of the
two branches of the barrier it takes, which device each of its copies addresses, and which half slot
of a 32 × 16 × 512 buffer each of its computed offsets names.

* Device 0 takes the first branch and every other device the second.
* The copy at distance d (1 ≤ d ≤ 31) reads half slots of slot (c + d) % 32 and waits on half slots
  of slot (c + 32 - d) % 32; the offsets on the device's own slot are c itself.
-/

set_option maxRecDepth 16384
set_option Elab.async false

noncomputable section

namespace Cert.KernelIdeal.Proto

open Cert.KernelIdeal Cert.KernelIdeal.Gen
open Idealize.ShloMosaic
open Idealize.ShloMosaic.TcCoe

/-! ## The two branches of the barrier -/

/-- Every device but device 0 fails the first condition and meets the second. -/
theorem cond_of_ne_zero : ∀ c : Dev nD, c.val ≠ 0 → k0_cond1 c = 0#1 ∧ k0_cond2 c = 1#1 := by decide +kernel

/-- Device 0 meets the first condition and fails the second. -/
theorem cond_of_eq_zero : ∀ c : Dev nD, c.val = 0 → k0_cond1 c = 1#1 ∧ k0_cond2 c = 0#1 := by decide +kernel

theorem cond1_of_ne_zero (c : Dev nD) (h : c.val ≠ 0) : k0_cond1 c = 0#1 := (cond_of_ne_zero c h).1
theorem cond2_of_ne_zero (c : Dev nD) (h : c.val ≠ 0) : k0_cond2 c = 1#1 := (cond_of_ne_zero c h).2
theorem cond1_of_eq_zero (c : Dev nD) (h : c.val = 0) : k0_cond1 c = 1#1 := (cond_of_eq_zero c h).1
theorem cond2_of_eq_zero (c : Dev nD) (h : c.val = 0) : k0_cond2 c = 0#1 := (cond_of_eq_zero c h).2

/-! ## The computed offsets, for the copy at distance 1 + r -/

/-- First half of the slot 1 + r places after c. -/
theorem k0_off2_eq : ∀ c : Dev nD, ∀ r : Fin 31,
    k0_off2 c (BitVec.ofNat 32 (1 + r.val)) = ![(c.val + (1 + r.val)) % 32, 0, 0] := by decide +kernel

/-- Second half of the slot 1 + r places after c. -/
theorem k0_off3_eq : ∀ c : Dev nD, ∀ r : Fin 31,
    k0_off3 c (BitVec.ofNat 32 (1 + r.val)) = ![(c.val + (1 + r.val)) % 32, 0, 256] := by decide +kernel

/-- First half of the slot 1 + r places before c. -/
theorem k0_off8_eq : ∀ c : Dev nD, ∀ r : Fin 31,
    k0_off8 c (BitVec.ofNat 32 (1 + r.val)) = ![(c.val + 32 - (1 + r.val)) % 32, 0, 0] := by decide +kernel

/-- Second half of the slot 1 + r places before c. -/
theorem k0_off9_eq : ∀ c : Dev nD, ∀ r : Fin 31,
    k0_off9 c (BitVec.ofNat 32 (1 + r.val)) = ![(c.val + 32 - (1 + r.val)) % 32, 0, 256] := by decide +kernel

/-! ## The rectangles those offsets name -/

/-- Unit-stride rectangles of one size at equal offsets are equal. -/
theorem rect_unit_congr {s : Shape} {off off' size : Fin s.rank → ℕ} (h : off = off')
    (p : ∀ a, off a + size a ≤ s.size a) (p' : ∀ a, off' a + size a ≤ s.size a) :
    Rect.unit off size p = Rect.unit off' size p' := by
  subst h
  rfl

/-- The distance 1 + r as one of the 32 places. -/
def dist (r : Fin 31) : Fin 32 := ⟨1 + r.val, by omega⟩

@[simp] theorem dist_val (r : Fin 31) : (dist r).val = 1 + r.val := rfl

theorem k0_off2_slot (c : Dev nD) (r : Fin 31) :
    Rect.unit (s := S32x16x512) (k0_off2 c (BitVec.ofNat 32 (1 + r.val))) S1x16x256.size (k0_off2_inb c r)
      = slot (fwd c (dist r)) 0 :=
  rect_unit_congr (k0_off2_eq c r) _ _

theorem k0_off3_slot (c : Dev nD) (r : Fin 31) :
    Rect.unit (s := S32x16x512) (k0_off3 c (BitVec.ofNat 32 (1 + r.val))) S1x16x256.size (k0_off3_inb c r)
      = slot (fwd c (dist r)) 1 :=
  rect_unit_congr (k0_off3_eq c r) _ _

theorem k0_off8_slot (c : Dev nD) (r : Fin 31) :
    Rect.unit (s := S32x16x512) (k0_off8 c (BitVec.ofNat 32 (1 + r.val))) S1x16x256.size (k0_off8_inb c r)
      = slot (bwd c (dist r)) 0 :=
  rect_unit_congr (k0_off8_eq c r) _ _

theorem k0_off9_slot (c : Dev nD) (r : Fin 31) :
    Rect.unit (s := S32x16x512) (k0_off9 c (BitVec.ofNat 32 (1 + r.val))) S1x16x256.size (k0_off9_inb c r)
      = slot (bwd c (dist r)) 1 :=
  rect_unit_congr (k0_off9_eq c r) _ _

/-! ## The device's own slot -/

theorem k0_off4_slot (c : Dev nD) :
    Rect.unit (s := S32x16x512) (k0_off4 c) S1x16x256.size (k0_off4_inb c) = slot c 0 :=
  rect_unit_congr (k0_off4_eq c) _ _

theorem k0_off5_slot (c : Dev nD) :
    Rect.unit (s := S32x16x512) (k0_off5 c) S1x16x256.size (k0_off5_inb c) = slot c 0 :=
  rect_unit_congr (k0_off5_eq c) _ _

theorem k0_off6_slot (c : Dev nD) :
    Rect.unit (s := S32x16x512) (k0_off6 c) S1x16x256.size (k0_off6_inb c) = slot c 1 :=
  rect_unit_congr (k0_off6_eq c) _ _

theorem k0_off7_slot (c : Dev nD) :
    Rect.unit (s := S32x16x512) (k0_off7 c) S1x16x256.size (k0_off7_inb c) = slot c 1 :=
  rect_unit_congr (k0_off7_eq c) _ _

end Cert.KernelIdeal.Proto

end
-- ==== Proof.DevTab.lean ====
import proofs.«900454_g7700000000000455_dist_matmul_relu_kshard_i_m512_n512_k256_v7x_i32_f32_1_alg».proof.Proof.DevEq

/-!
The closed forms of Proof/DevEq.lean at each of the kernel's 31 distances d = 1 … 31, spelt with the literal
words the program carries: the device 0 signals at the barrier (device d), the device 0 is signalled by
(device 0), the device each copy at distance d addresses ((c + d) % 32, in both rounds and both column
halves), and the half slot each computed offset names.
-/

set_option maxRecDepth 16384
set_option Elab.async false

noncomputable section

namespace Cert.KernelIdeal.Proto

open Cert.KernelIdeal Cert.KernelIdeal.Gen
open Idealize.ShloMosaic
open Idealize.ShloMosaic.TcCoe

/-! ## The barrier's peers -/

theorem k0_dev1_peer (c : Dev nD) (h : k0_cond1 c = 1#1) : (⟨k0_dev1, k0_dev1_lt c h⟩ : Dev nD) = 1 := Fin.ext k0_dev1_eq
theorem k0_dev2_peer (c : Dev nD) (h : k0_cond1 c = 1#1) : (⟨k0_dev2, k0_dev2_lt c h⟩ : Dev nD) = 2 := Fin.ext k0_dev2_eq
theorem k0_dev3_peer (c : Dev nD) (h : k0_cond1 c = 1#1) : (⟨k0_dev3, k0_dev3_lt c h⟩ : Dev nD) = 3 := Fin.ext k0_dev3_eq
theorem k0_dev4_peer (c : Dev nD) (h : k0_cond1 c = 1#1) : (⟨k0_dev4, k0_dev4_lt c h⟩ : Dev nD) = 4 := Fin.ext k0_dev4_eq
theorem k0_dev5_peer (c : Dev nD) (h : k0_cond1 c = 1#1) : (⟨k0_dev5, k0_dev5_lt c h⟩ : Dev nD) = 5 := Fin.ext k0_dev5_eq
theorem k0_dev6_peer (c : Dev nD) (h : k0_cond1 c = 1#1) : (⟨k0_dev6, k0_dev6_lt c h⟩ : Dev nD) = 6 := Fin.ext k0_dev6_eq
theorem k0_dev7_peer (c : Dev nD) (h : k0_cond1 c = 1#1) : (⟨k0_dev7, k0_dev7_lt c h⟩ : Dev nD) = 7 := Fin.ext k0_dev7_eq
theorem k0_dev8_peer (c : Dev nD) (h : k0_cond1 c = 1#1) : (⟨k0_dev8, k0_dev8_lt c h⟩ : Dev nD) = 8 := Fin.ext k0_dev8_eq
theorem k0_dev9_peer (c : Dev nD) (h : k0_cond1 c = 1#1) : (⟨k0_dev9, k0_dev9_lt c h⟩ : Dev nD) = 9 := Fin.ext k0_dev9_eq
theorem k0_dev10_peer (c : Dev nD) (h : k0_cond1 c = 1#1) : (⟨k0_dev10, k0_dev10_lt c h⟩ : Dev nD) = 10 := Fin.ext k0_dev10_eq
theorem k0_dev11_peer (c : Dev nD) (h : k0_cond1 c = 1#1) : (⟨k0_dev11, k0_dev11_lt c h⟩ : Dev nD) = 11 := Fin.ext k0_dev11_eq
theorem k0_dev12_peer (c : Dev nD) (h : k0_cond1 c = 1#1) : (⟨k0_dev12, k0_dev12_lt c h⟩ : Dev nD) = 12 := Fin.ext k0_dev12_eq
theorem k0_dev13_peer (c : Dev nD) (h : k0_cond1 c = 1#1) : (⟨k0_dev13, k0_dev13_lt c h⟩ : Dev nD) = 13 := Fin.ext k0_dev13_eq
theorem k0_dev14_peer (c : Dev nD) (h : k0_cond1 c = 1#1) : (⟨k0_dev14, k0_dev14_lt c h⟩ : Dev nD) = 14 := Fin.ext k0_dev14_eq
theorem k0_dev15_peer (c : Dev nD) (h : k0_cond1 c = 1#1) : (⟨k0_dev15, k0_dev15_lt c h⟩ : Dev nD) = 15 := Fin.ext k0_dev15_eq
theorem k0_dev16_peer (c : Dev nD) (h : k0_cond1 c = 1#1) : (⟨k0_dev16, k0_dev16_lt c h⟩ : Dev nD) = 16 := Fin.ext k0_dev16_eq
theorem k0_dev17_peer (c : Dev nD) (h : k0_cond1 c = 1#1) : (⟨k0_dev17, k0_dev17_lt c h⟩ : Dev nD) = 17 := Fin.ext k0_dev17_eq
theorem k0_dev18_peer (c : Dev nD) (h : k0_cond1 c = 1#1) : (⟨k0_dev18, k0_dev18_lt c h⟩ : Dev nD) = 18 := Fin.ext k0_dev18_eq
theorem k0_dev19_peer (c : Dev nD) (h : k0_cond1 c = 1#1) : (⟨k0_dev19, k0_dev19_lt c h⟩ : Dev nD) = 19 := Fin.ext k0_dev19_eq
theorem k0_dev20_peer (c : Dev nD) (h : k0_cond1 c = 1#1) : (⟨k0_dev20, k0_dev20_lt c h⟩ : Dev nD) = 20 := Fin.ext k0_dev20_eq
theorem k0_dev21_peer (c : Dev nD) (h : k0_cond1 c = 1#1) : (⟨k0_dev21, k0_dev21_lt c h⟩ : Dev nD) = 21 := Fin.ext k0_dev21_eq
theorem k0_dev22_peer (c : Dev nD) (h : k0_cond1 c = 1#1) : (⟨k0_dev22, k0_dev22_lt c h⟩ : Dev nD) = 22 := Fin.ext k0_dev22_eq
theorem k0_dev23_peer (c : Dev nD) (h : k0_cond1 c = 1#1) : (⟨k0_dev23, k0_dev23_lt c h⟩ : Dev nD) = 23 := Fin.ext k0_dev23_eq
theorem k0_dev24_peer (c : Dev nD) (h : k0_cond1 c = 1#1) : (⟨k0_dev24, k0_dev24_lt c h⟩ : Dev nD) = 24 := Fin.ext k0_dev24_eq
theorem k0_dev25_peer (c : Dev nD) (h : k0_cond1 c = 1#1) : (⟨k0_dev25, k0_dev25_lt c h⟩ : Dev nD) = 25 := Fin.ext k0_dev25_eq
theorem k0_dev26_peer (c : Dev nD) (h : k0_cond1 c = 1#1) : (⟨k0_dev26, k0_dev26_lt c h⟩ : Dev nD) = 26 := Fin.ext k0_dev26_eq
theorem k0_dev27_peer (c : Dev nD) (h : k0_cond1 c = 1#1) : (⟨k0_dev27, k0_dev27_lt c h⟩ : Dev nD) = 27 := Fin.ext k0_dev27_eq
theorem k0_dev28_peer (c : Dev nD) (h : k0_cond1 c = 1#1) : (⟨k0_dev28, k0_dev28_lt c h⟩ : Dev nD) = 28 := Fin.ext k0_dev28_eq
theorem k0_dev29_peer (c : Dev nD) (h : k0_cond1 c = 1#1) : (⟨k0_dev29, k0_dev29_lt c h⟩ : Dev nD) = 29 := Fin.ext k0_dev29_eq
theorem k0_dev30_peer (c : Dev nD) (h : k0_cond1 c = 1#1) : (⟨k0_dev30, k0_dev30_lt c h⟩ : Dev nD) = 30 := Fin.ext k0_dev30_eq
theorem k0_dev31_peer (c : Dev nD) (h : k0_cond1 c = 1#1) : (⟨k0_dev31, k0_dev31_lt c h⟩ : Dev nD) = 31 := Fin.ext k0_dev31_eq
theorem k0_dev32_peer (c : Dev nD) (h : k0_cond2 c = 1#1) : (⟨k0_dev32, k0_dev32_lt c h⟩ : Dev nD) = 0 := Fin.ext k0_dev32_eq

/-! ## The device each copy addresses: first round (two column halves), then second round -/

theorem k0_dev33_val : ∀ c : Dev nD, k0_dev33 c = (c.val + 1) % 32 := by decide +kernel
theorem k0_dev33_fwd (c : Dev nD) : (⟨k0_dev33 c, k0_dev33_lt c⟩ : Dev nD) = fwd c 1 := Fin.ext (k0_dev33_val c)
theorem k0_dev34_val : ∀ c : Dev nD, k0_dev34 c = (c.val + 2) % 32 := by decide +kernel
theorem k0_dev34_fwd (c : Dev nD) : (⟨k0_dev34 c, k0_dev34_lt c⟩ : Dev nD) = fwd c 2 := Fin.ext (k0_dev34_val c)
theorem k0_dev35_val : ∀ c : Dev nD, k0_dev35 c = (c.val + 3) % 32 := by decide +kernel
theorem k0_dev35_fwd (c : Dev nD) : (⟨k0_dev35 c, k0_dev35_lt c⟩ : Dev nD) = fwd c 3 := Fin.ext (k0_dev35_val c)
theorem k0_dev36_val : ∀ c : Dev nD, k0_dev36 c = (c.val + 4) % 32 := by decide +kernel
theorem k0_dev36_fwd (c : Dev nD) : (⟨k0_dev36 c, k0_dev36_lt c⟩ : Dev nD) = fwd c 4 := Fin.ext (k0_dev36_val c)
theorem k0_dev37_val : ∀ c : Dev nD, k0_dev37 c = (c.val + 5) % 32 := by decide +kernel
theorem k0_dev37_fwd (c : Dev nD) : (⟨k0_dev37 c, k0_dev37_lt c⟩ : Dev nD) = fwd c 5 := Fin.ext (k0_dev37_val c)
theorem k0_dev38_val : ∀ c : Dev nD, k0_dev38 c = (c.val + 6) % 32 := by decide +kernel
theorem k0_dev38_fwd (c : Dev nD) : (⟨k0_dev38 c, k0_dev38_lt c⟩ : Dev nD) = fwd c 6 := Fin.ext (k0_dev38_val c)
theorem k0_dev39_val : ∀ c : Dev nD, k0_dev39 c = (c.val + 7) % 32 := by decide +kernel
theorem k0_dev39_fwd (c : Dev nD) : (⟨k0_dev39 c, k0_dev39_lt c⟩ : Dev nD) = fwd c 7 := Fin.ext (k0_dev39_val c)
theorem k0_dev40_val : ∀ c : Dev nD, k0_dev40 c = (c.val + 8) % 32 := by decide +kernel
theorem k0_dev40_fwd (c : Dev nD) : (⟨k0_dev40 c, k0_dev40_lt c⟩ : Dev nD) = fwd c 8 := Fin.ext (k0_dev40_val c)
theorem k0_dev41_val : ∀ c : Dev nD, k0_dev41 c = (c.val + 9) % 32 := by decide +kernel
theorem k0_dev41_fwd (c : Dev nD) : (⟨k0_dev41 c, k0_dev41_lt c⟩ : Dev nD) = fwd c 9 := Fin.ext (k0_dev41_val c)
theorem k0_dev42_val : ∀ c : Dev nD, k0_dev42 c = (c.val + 10) % 32 := by decide +kernel
theorem k0_dev42_fwd (c : Dev nD) : (⟨k0_dev42 c, k0_dev42_lt c⟩ : Dev nD) = fwd c 10 := Fin.ext (k0_dev42_val c)
theorem k0_dev43_val : ∀ c : Dev nD, k0_dev43 c = (c.val + 11) % 32 := by decide +kernel
theorem k0_dev43_fwd (c : Dev nD) : (⟨k0_dev43 c, k0_dev43_lt c⟩ : Dev nD) = fwd c 11 := Fin.ext (k0_dev43_val c)
theorem k0_dev44_val : ∀ c : Dev nD, k0_dev44 c = (c.val + 12) % 32 := by decide +kernel
theorem k0_dev44_fwd (c : Dev nD) : (⟨k0_dev44 c, k0_dev44_lt c⟩ : Dev nD) = fwd c 12 := Fin.ext (k0_dev44_val c)
theorem k0_dev45_val : ∀ c : Dev nD, k0_dev45 c = (c.val + 13) % 32 := by decide +kernel
theorem k0_dev45_fwd (c : Dev nD) : (⟨k0_dev45 c, k0_dev45_lt c⟩ : Dev nD) = fwd c 13 := Fin.ext (k0_dev45_val c)
theorem k0_dev46_val : ∀ c : Dev nD, k0_dev46 c = (c.val + 14) % 32 := by decide +kernel
theorem k0_dev46_fwd (c : Dev nD) : (⟨k0_dev46 c, k0_dev46_lt c⟩ : Dev nD) = fwd c 14 := Fin.ext (k0_dev46_val c)
theorem k0_dev47_val : ∀ c : Dev nD, k0_dev47 c = (c.val + 15) % 32 := by decide +kernel
theorem k0_dev47_fwd (c : Dev nD) : (⟨k0_dev47 c, k0_dev47_lt c⟩ : Dev nD) = fwd c 15 := Fin.ext (k0_dev47_val c)
theorem k0_dev48_val : ∀ c : Dev nD, k0_dev48 c = (c.val + 16) % 32 := by decide +kernel
theorem k0_dev48_fwd (c : Dev nD) : (⟨k0_dev48 c, k0_dev48_lt c⟩ : Dev nD) = fwd c 16 := Fin.ext (k0_dev48_val c)
theorem k0_dev49_val : ∀ c : Dev nD, k0_dev49 c = (c.val + 17) % 32 := by decide +kernel
theorem k0_dev49_fwd (c : Dev nD) : (⟨k0_dev49 c, k0_dev49_lt c⟩ : Dev nD) = fwd c 17 := Fin.ext (k0_dev49_val c)
theorem k0_dev50_val : ∀ c : Dev nD, k0_dev50 c = (c.val + 18) % 32 := by decide +kernel
theorem k0_dev50_fwd (c : Dev nD) : (⟨k0_dev50 c, k0_dev50_lt c⟩ : Dev nD) = fwd c 18 := Fin.ext (k0_dev50_val c)
theorem k0_dev51_val : ∀ c : Dev nD, k0_dev51 c = (c.val + 19) % 32 := by decide +kernel
theorem k0_dev51_fwd (c : Dev nD) : (⟨k0_dev51 c, k0_dev51_lt c⟩ : Dev nD) = fwd c 19 := Fin.ext (k0_dev51_val c)
theorem k0_dev52_val : ∀ c : Dev nD, k0_dev52 c = (c.val + 20) % 32 := by decide +kernel
theorem k0_dev52_fwd (c : Dev nD) : (⟨k0_dev52 c, k0_dev52_lt c⟩ : Dev nD) = fwd c 20 := Fin.ext (k0_dev52_val c)
theorem k0_dev53_val : ∀ c : Dev nD, k0_dev53 c = (c.val + 21) % 32 := by decide +kernel
theorem k0_dev53_fwd (c : Dev nD) : (⟨k0_dev53 c, k0_dev53_lt c⟩ : Dev nD) = fwd c 21 := Fin.ext (k0_dev53_val c)
theorem k0_dev54_val : ∀ c : Dev nD, k0_dev54 c = (c.val + 22) % 32 := by decide +kernel
theorem k0_dev54_fwd (c : Dev nD) : (⟨k0_dev54 c, k0_dev54_lt c⟩ : Dev nD) = fwd c 22 := Fin.ext (k0_dev54_val c)
theorem k0_dev55_val : ∀ c : Dev nD, k0_dev55 c = (c.val + 23) % 32 := by decide +kernel
theorem k0_dev55_fwd (c : Dev nD) : (⟨k0_dev55 c, k0_dev55_lt c⟩ : Dev nD) = fwd c 23 := Fin.ext (k0_dev55_val c)
theorem k0_dev56_val : ∀ c : Dev nD, k0_dev56 c = (c.val + 24) % 32 := by decide +kernel
theorem k0_dev56_fwd (c : Dev nD) : (⟨k0_dev56 c, k0_dev56_lt c⟩ : Dev nD) = fwd c 24 := Fin.ext (k0_dev56_val c)
theorem k0_dev57_val : ∀ c : Dev nD, k0_dev57 c = (c.val + 25) % 32 := by decide +kernel
theorem k0_dev57_fwd (c : Dev nD) : (⟨k0_dev57 c, k0_dev57_lt c⟩ : Dev nD) = fwd c 25 := Fin.ext (k0_dev57_val c)
theorem k0_dev58_val : ∀ c : Dev nD, k0_dev58 c = (c.val + 26) % 32 := by decide +kernel
theorem k0_dev58_fwd (c : Dev nD) : (⟨k0_dev58 c, k0_dev58_lt c⟩ : Dev nD) = fwd c 26 := Fin.ext (k0_dev58_val c)
theorem k0_dev59_val : ∀ c : Dev nD, k0_dev59 c = (c.val + 27) % 32 := by decide +kernel
theorem k0_dev59_fwd (c : Dev nD) : (⟨k0_dev59 c, k0_dev59_lt c⟩ : Dev nD) = fwd c 27 := Fin.ext (k0_dev59_val c)
theorem k0_dev60_val : ∀ c : Dev nD, k0_dev60 c = (c.val + 28) % 32 := by decide +kernel
theorem k0_dev60_fwd (c : Dev nD) : (⟨k0_dev60 c, k0_dev60_lt c⟩ : Dev nD) = fwd c 28 := Fin.ext (k0_dev60_val c)
theorem k0_dev61_val : ∀ c : Dev nD, k0_dev61 c = (c.val + 29) % 32 := by decide +kernel
theorem k0_dev61_fwd (c : Dev nD) : (⟨k0_dev61 c, k0_dev61_lt c⟩ : Dev nD) = fwd c 29 := Fin.ext (k0_dev61_val c)
theorem k0_dev62_val : ∀ c : Dev nD, k0_dev62 c = (c.val + 30) % 32 := by decide +kernel
theorem k0_dev62_fwd (c : Dev nD) : (⟨k0_dev62 c, k0_dev62_lt c⟩ : Dev nD) = fwd c 30 := Fin.ext (k0_dev62_val c)
theorem k0_dev63_val : ∀ c : Dev nD, k0_dev63 c = (c.val + 31) % 32 := by decide +kernel
theorem k0_dev63_fwd (c : Dev nD) : (⟨k0_dev63 c, k0_dev63_lt c⟩ : Dev nD) = fwd c 31 := Fin.ext (k0_dev63_val c)

theorem k0_dev64_val : ∀ c : Dev nD, k0_dev64 c = (c.val + 1) % 32 := by decide +kernel
theorem k0_dev64_fwd (c : Dev nD) : (⟨k0_dev64 c, k0_dev64_lt c⟩ : Dev nD) = fwd c 1 := Fin.ext (k0_dev64_val c)
theorem k0_dev65_val : ∀ c : Dev nD, k0_dev65 c = (c.val + 2) % 32 := by decide +kernel
theorem k0_dev65_fwd (c : Dev nD) : (⟨k0_dev65 c, k0_dev65_lt c⟩ : Dev nD) = fwd c 2 := Fin.ext (k0_dev65_val c)
theorem k0_dev66_val : ∀ c : Dev nD, k0_dev66 c = (c.val + 3) % 32 := by decide +kernel
theorem k0_dev66_fwd (c : Dev nD) : (⟨k0_dev66 c, k0_dev66_lt c⟩ : Dev nD) = fwd c 3 := Fin.ext (k0_dev66_val c)
theorem k0_dev67_val : ∀ c : Dev nD, k0_dev67 c = (c.val + 4) % 32 := by decide +kernel
theorem k0_dev67_fwd (c : Dev nD) : (⟨k0_dev67 c, k0_dev67_lt c⟩ : Dev nD) = fwd c 4 := Fin.ext (k0_dev67_val c)
theorem k0_dev68_val : ∀ c : Dev nD, k0_dev68 c = (c.val + 5) % 32 := by decide +kernel
theorem k0_dev68_fwd (c : Dev nD) : (⟨k0_dev68 c, k0_dev68_lt c⟩ : Dev nD) = fwd c 5 := Fin.ext (k0_dev68_val c)
theorem k0_dev69_val : ∀ c : Dev nD, k0_dev69 c = (c.val + 6) % 32 := by decide +kernel
theorem k0_dev69_fwd (c : Dev nD) : (⟨k0_dev69 c, k0_dev69_lt c⟩ : Dev nD) = fwd c 6 := Fin.ext (k0_dev69_val c)
theorem k0_dev70_val : ∀ c : Dev nD, k0_dev70 c = (c.val + 7) % 32 := by decide +kernel
theorem k0_dev70_fwd (c : Dev nD) : (⟨k0_dev70 c, k0_dev70_lt c⟩ : Dev nD) = fwd c 7 := Fin.ext (k0_dev70_val c)
theorem k0_dev71_val : ∀ c : Dev nD, k0_dev71 c = (c.val + 8) % 32 := by decide +kernel
theorem k0_dev71_fwd (c : Dev nD) : (⟨k0_dev71 c, k0_dev71_lt c⟩ : Dev nD) = fwd c 8 := Fin.ext (k0_dev71_val c)
theorem k0_dev72_val : ∀ c : Dev nD, k0_dev72 c = (c.val + 9) % 32 := by decide +kernel
theorem k0_dev72_fwd (c : Dev nD) : (⟨k0_dev72 c, k0_dev72_lt c⟩ : Dev nD) = fwd c 9 := Fin.ext (k0_dev72_val c)
theorem k0_dev73_val : ∀ c : Dev nD, k0_dev73 c = (c.val + 10) % 32 := by decide +kernel
theorem k0_dev73_fwd (c : Dev nD) : (⟨k0_dev73 c, k0_dev73_lt c⟩ : Dev nD) = fwd c 10 := Fin.ext (k0_dev73_val c)
theorem k0_dev74_val : ∀ c : Dev nD, k0_dev74 c = (c.val + 11) % 32 := by decide +kernel
theorem k0_dev74_fwd (c : Dev nD) : (⟨k0_dev74 c, k0_dev74_lt c⟩ : Dev nD) = fwd c 11 := Fin.ext (k0_dev74_val c)
theorem k0_dev75_val : ∀ c : Dev nD, k0_dev75 c = (c.val + 12) % 32 := by decide +kernel
theorem k0_dev75_fwd (c : Dev nD) : (⟨k0_dev75 c, k0_dev75_lt c⟩ : Dev nD) = fwd c 12 := Fin.ext (k0_dev75_val c)
theorem k0_dev76_val : ∀ c : Dev nD, k0_dev76 c = (c.val + 13) % 32 := by decide +kernel
theorem k0_dev76_fwd (c : Dev nD) : (⟨k0_dev76 c, k0_dev76_lt c⟩ : Dev nD) = fwd c 13 := Fin.ext (k0_dev76_val c)
theorem k0_dev77_val : ∀ c : Dev nD, k0_dev77 c = (c.val + 14) % 32 := by decide +kernel
theorem k0_dev77_fwd (c : Dev nD) : (⟨k0_dev77 c, k0_dev77_lt c⟩ : Dev nD) = fwd c 14 := Fin.ext (k0_dev77_val c)
theorem k0_dev78_val : ∀ c : Dev nD, k0_dev78 c = (c.val + 15) % 32 := by decide +kernel
theorem k0_dev78_fwd (c : Dev nD) : (⟨k0_dev78 c, k0_dev78_lt c⟩ : Dev nD) = fwd c 15 := Fin.ext (k0_dev78_val c)
theorem k0_dev79_val : ∀ c : Dev nD, k0_dev79 c = (c.val + 16) % 32 := by decide +kernel
theorem k0_dev79_fwd (c : Dev nD) : (⟨k0_dev79 c, k0_dev79_lt c⟩ : Dev nD) = fwd c 16 := Fin.ext (k0_dev79_val c)
theorem k0_dev80_val : ∀ c : Dev nD, k0_dev80 c = (c.val + 17) % 32 := by decide +kernel
theorem k0_dev80_fwd (c : Dev nD) : (⟨k0_dev80 c, k0_dev80_lt c⟩ : Dev nD) = fwd c 17 := Fin.ext (k0_dev80_val c)
theorem k0_dev81_val : ∀ c : Dev nD, k0_dev81 c = (c.val + 18) % 32 := by decide +kernel
theorem k0_dev81_fwd (c : Dev nD) : (⟨k0_dev81 c, k0_dev81_lt c⟩ : Dev nD) = fwd c 18 := Fin.ext (k0_dev81_val c)
theorem k0_dev82_val : ∀ c : Dev nD, k0_dev82 c = (c.val + 19) % 32 := by decide +kernel
theorem k0_dev82_fwd (c : Dev nD) : (⟨k0_dev82 c, k0_dev82_lt c⟩ : Dev nD) = fwd c 19 := Fin.ext (k0_dev82_val c)
theorem k0_dev83_val : ∀ c : Dev nD, k0_dev83 c = (c.val + 20) % 32 := by decide +kernel
theorem k0_dev83_fwd (c : Dev nD) : (⟨k0_dev83 c, k0_dev83_lt c⟩ : Dev nD) = fwd c 20 := Fin.ext (k0_dev83_val c)
theorem k0_dev84_val : ∀ c : Dev nD, k0_dev84 c = (c.val + 21) % 32 := by decide +kernel
theorem k0_dev84_fwd (c : Dev nD) : (⟨k0_dev84 c, k0_dev84_lt c⟩ : Dev nD) = fwd c 21 := Fin.ext (k0_dev84_val c)
theorem k0_dev85_val : ∀ c : Dev nD, k0_dev85 c = (c.val + 22) % 32 := by decide +kernel
theorem k0_dev85_fwd (c : Dev nD) : (⟨k0_dev85 c, k0_dev85_lt c⟩ : Dev nD) = fwd c 22 := Fin.ext (k0_dev85_val c)
theorem k0_dev86_val : ∀ c : Dev nD, k0_dev86 c = (c.val + 23) % 32 := by decide +kernel
theorem k0_dev86_fwd (c : Dev nD) : (⟨k0_dev86 c, k0_dev86_lt c⟩ : Dev nD) = fwd c 23 := Fin.ext (k0_dev86_val c)
theorem k0_dev87_val : ∀ c : Dev nD, k0_dev87 c = (c.val + 24) % 32 := by decide +kernel
theorem k0_dev87_fwd (c : Dev nD) : (⟨k0_dev87 c, k0_dev87_lt c⟩ : Dev nD) = fwd c 24 := Fin.ext (k0_dev87_val c)
theorem k0_dev88_val : ∀ c : Dev nD, k0_dev88 c = (c.val + 25) % 32 := by decide +kernel
theorem k0_dev88_fwd (c : Dev nD) : (⟨k0_dev88 c, k0_dev88_lt c⟩ : Dev nD) = fwd c 25 := Fin.ext (k0_dev88_val c)
theorem k0_dev89_val : ∀ c : Dev nD, k0_dev89 c = (c.val + 26) % 32 := by decide +kernel
theorem k0_dev89_fwd (c : Dev nD) : (⟨k0_dev89 c, k0_dev89_lt c⟩ : Dev nD) = fwd c 26 := Fin.ext (k0_dev89_val c)
theorem k0_dev90_val : ∀ c : Dev nD, k0_dev90 c = (c.val + 27) % 32 := by decide +kernel
theorem k0_dev90_fwd (c : Dev nD) : (⟨k0_dev90 c, k0_dev90_lt c⟩ : Dev nD) = fwd c 27 := Fin.ext (k0_dev90_val c)
theorem k0_dev91_val : ∀ c : Dev nD, k0_dev91 c = (c.val + 28) % 32 := by decide +kernel
theorem k0_dev91_fwd (c : Dev nD) : (⟨k0_dev91 c, k0_dev91_lt c⟩ : Dev nD) = fwd c 28 := Fin.ext (k0_dev91_val c)
theorem k0_dev92_val : ∀ c : Dev nD, k0_dev92 c = (c.val + 29) % 32 := by decide +kernel
theorem k0_dev92_fwd (c : Dev nD) : (⟨k0_dev92 c, k0_dev92_lt c⟩ : Dev nD) = fwd c 29 := Fin.ext (k0_dev92_val c)
theorem k0_dev93_val : ∀ c : Dev nD, k0_dev93 c = (c.val + 30) % 32 := by decide +kernel
theorem k0_dev93_fwd (c : Dev nD) : (⟨k0_dev93 c, k0_dev93_lt c⟩ : Dev nD) = fwd c 30 := Fin.ext (k0_dev93_val c)
theorem k0_dev94_val : ∀ c : Dev nD, k0_dev94 c = (c.val + 31) % 32 := by decide +kernel
theorem k0_dev94_fwd (c : Dev nD) : (⟨k0_dev94 c, k0_dev94_lt c⟩ : Dev nD) = fwd c 31 := Fin.ext (k0_dev94_val c)

theorem k0_dev95_val : ∀ c : Dev nD, k0_dev95 c = (c.val + 1) % 32 := by decide +kernel
theorem k0_dev95_fwd (c : Dev nD) : (⟨k0_dev95 c, k0_dev95_lt c⟩ : Dev nD) = fwd c 1 := Fin.ext (k0_dev95_val c)
theorem k0_dev96_val : ∀ c : Dev nD, k0_dev96 c = (c.val + 2) % 32 := by decide +kernel
theorem k0_dev96_fwd (c : Dev nD) : (⟨k0_dev96 c, k0_dev96_lt c⟩ : Dev nD) = fwd c 2 := Fin.ext (k0_dev96_val c)
theorem k0_dev97_val : ∀ c : Dev nD, k0_dev97 c = (c.val + 3) % 32 := by decide +kernel
theorem k0_dev97_fwd (c : Dev nD) : (⟨k0_dev97 c, k0_dev97_lt c⟩ : Dev nD) = fwd c 3 := Fin.ext (k0_dev97_val c)
theorem k0_dev98_val : ∀ c : Dev nD, k0_dev98 c = (c.val + 4) % 32 := by decide +kernel
theorem k0_dev98_fwd (c : Dev nD) : (⟨k0_dev98 c, k0_dev98_lt c⟩ : Dev nD) = fwd c 4 := Fin.ext (k0_dev98_val c)
theorem k0_dev99_val : ∀ c : Dev nD, k0_dev99 c = (c.val + 5) % 32 := by decide +kernel
theorem k0_dev99_fwd (c : Dev nD) : (⟨k0_dev99 c, k0_dev99_lt c⟩ : Dev nD) = fwd c 5 := Fin.ext (k0_dev99_val c)
theorem k0_dev100_val : ∀ c : Dev nD, k0_dev100 c = (c.val + 6) % 32 := by decide +kernel
theorem k0_dev100_fwd (c : Dev nD) : (⟨k0_dev100 c, k0_dev100_lt c⟩ : Dev nD) = fwd c 6 := Fin.ext (k0_dev100_val c)
theorem k0_dev101_val : ∀ c : Dev nD, k0_dev101 c = (c.val + 7) % 32 := by decide +kernel
theorem k0_dev101_fwd (c : Dev nD) : (⟨k0_dev101 c, k0_dev101_lt c⟩ : Dev nD) = fwd c 7 := Fin.ext (k0_dev101_val c)
theorem k0_dev102_val : ∀ c : Dev nD, k0_dev102 c = (c.val + 8) % 32 := by decide +kernel
theorem k0_dev102_fwd (c : Dev nD) : (⟨k0_dev102 c, k0_dev102_lt c⟩ : Dev nD) = fwd c 8 := Fin.ext (k0_dev102_val c)
theorem k0_dev103_val : ∀ c : Dev nD, k0_dev103 c = (c.val + 9) % 32 := by decide +kernel
theorem k0_dev103_fwd (c : Dev nD) : (⟨k0_dev103 c, k0_dev103_lt c⟩ : Dev nD) = fwd c 9 := Fin.ext (k0_dev103_val c)
theorem k0_dev104_val : ∀ c : Dev nD, k0_dev104 c = (c.val + 10) % 32 := by decide +kernel
theorem k0_dev104_fwd (c : Dev nD) : (⟨k0_dev104 c, k0_dev104_lt c⟩ : Dev nD) = fwd c 10 := Fin.ext (k0_dev104_val c)
theorem k0_dev105_val : ∀ c : Dev nD, k0_dev105 c = (c.val + 11) % 32 := by decide +kernel
theorem k0_dev105_fwd (c : Dev nD) : (⟨k0_dev105 c, k0_dev105_lt c⟩ : Dev nD) = fwd c 11 := Fin.ext (k0_dev105_val c)
theorem k0_dev106_val : ∀ c : Dev nD, k0_dev106 c = (c.val + 12) % 32 := by decide +kernel
theorem k0_dev106_fwd (c : Dev nD) : (⟨k0_dev106 c, k0_dev106_lt c⟩ : Dev nD) = fwd c 12 := Fin.ext (k0_dev106_val c)
theorem k0_dev107_val : ∀ c : Dev nD, k0_dev107 c = (c.val + 13) % 32 := by decide +kernel
theorem k0_dev107_fwd (c : Dev nD) : (⟨k0_dev107 c, k0_dev107_lt c⟩ : Dev nD) = fwd c 13 := Fin.ext (k0_dev107_val c)
theorem k0_dev108_val : ∀ c : Dev nD, k0_dev108 c = (c.val + 14) % 32 := by decide +kernel
theorem k0_dev108_fwd (c : Dev nD) : (⟨k0_dev108 c, k0_dev108_lt c⟩ : Dev nD) = fwd c 14 := Fin.ext (k0_dev108_val c)
theorem k0_dev109_val : ∀ c : Dev nD, k0_dev109 c = (c.val + 15) % 32 := by decide +kernel
theorem k0_dev109_fwd (c : Dev nD) : (⟨k0_dev109 c, k0_dev109_lt c⟩ : Dev nD) = fwd c 15 := Fin.ext (k0_dev109_val c)
theorem k0_dev110_val : ∀ c : Dev nD, k0_dev110 c = (c.val + 16) % 32 := by decide +kernel
theorem k0_dev110_fwd (c : Dev nD) : (⟨k0_dev110 c, k0_dev110_lt c⟩ : Dev nD) = fwd c 16 := Fin.ext (k0_dev110_val c)
theorem k0_dev111_val : ∀ c : Dev nD, k0_dev111 c = (c.val + 17) % 32 := by decide +kernel
theorem k0_dev111_fwd (c : Dev nD) : (⟨k0_dev111 c, k0_dev111_lt c⟩ : Dev nD) = fwd c 17 := Fin.ext (k0_dev111_val c)
theorem k0_dev112_val : ∀ c : Dev nD, k0_dev112 c = (c.val + 18) % 32 := by decide +kernel
theorem k0_dev112_fwd (c : Dev nD) : (⟨k0_dev112 c, k0_dev112_lt c⟩ : Dev nD) = fwd c 18 := Fin.ext (k0_dev112_val c)
theorem k0_dev113_val : ∀ c : Dev nD, k0_dev113 c = (c.val + 19) % 32 := by decide +kernel
theorem k0_dev113_fwd (c : Dev nD) : (⟨k0_dev113 c, k0_dev113_lt c⟩ : Dev nD) = fwd c 19 := Fin.ext (k0_dev113_val c)
theorem k0_dev114_val : ∀ c : Dev nD, k0_dev114 c = (c.val + 20) % 32 := by decide +kernel
theorem k0_dev114_fwd (c : Dev nD) : (⟨k0_dev114 c, k0_dev114_lt c⟩ : Dev nD) = fwd c 20 := Fin.ext (k0_dev114_val c)
theorem k0_dev115_val : ∀ c : Dev nD, k0_dev115 c = (c.val + 21) % 32 := by decide +kernel
theorem k0_dev115_fwd (c : Dev nD) : (⟨k0_dev115 c, k0_dev115_lt c⟩ : Dev nD) = fwd c 21 := Fin.ext (k0_dev115_val c)
theorem k0_dev116_val : ∀ c : Dev nD, k0_dev116 c = (c.val + 22) % 32 := by decide +kernel
theorem k0_dev116_fwd (c : Dev nD) : (⟨k0_dev116 c, k0_dev116_lt c⟩ : Dev nD) = fwd c 22 := Fin.ext (k0_dev116_val c)
theorem k0_dev117_val : ∀ c : Dev nD, k0_dev117 c = (c.val + 23) % 32 := by decide +kernel
theorem k0_dev117_fwd (c : Dev nD) : (⟨k0_dev117 c, k0_dev117_lt c⟩ : Dev nD) = fwd c 23 := Fin.ext (k0_dev117_val c)
theorem k0_dev118_val : ∀ c : Dev nD, k0_dev118 c = (c.val + 24) % 32 := by decide +kernel
theorem k0_dev118_fwd (c : Dev nD) : (⟨k0_dev118 c, k0_dev118_lt c⟩ : Dev nD) = fwd c 24 := Fin.ext (k0_dev118_val c)
theorem k0_dev119_val : ∀ c : Dev nD, k0_dev119 c = (c.val + 25) % 32 := by decide +kernel
theorem k0_dev119_fwd (c : Dev nD) : (⟨k0_dev119 c, k0_dev119_lt c⟩ : Dev nD) = fwd c 25 := Fin.ext (k0_dev119_val c)
theorem k0_dev120_val : ∀ c : Dev nD, k0_dev120 c = (c.val + 26) % 32 := by decide +kernel
theorem k0_dev120_fwd (c : Dev nD) : (⟨k0_dev120 c, k0_dev120_lt c⟩ : Dev nD) = fwd c 26 := Fin.ext (k0_dev120_val c)
theorem k0_dev121_val : ∀ c : Dev nD, k0_dev121 c = (c.val + 27) % 32 := by decide +kernel
theorem k0_dev121_fwd (c : Dev nD) : (⟨k0_dev121 c, k0_dev121_lt c⟩ : Dev nD) = fwd c 27 := Fin.ext (k0_dev121_val c)
theorem k0_dev122_val : ∀ c : Dev nD, k0_dev122 c = (c.val + 28) % 32 := by decide +kernel
theorem k0_dev122_fwd (c : Dev nD) : (⟨k0_dev122 c, k0_dev122_lt c⟩ : Dev nD) = fwd c 28 := Fin.ext (k0_dev122_val c)
theorem k0_dev123_val : ∀ c : Dev nD, k0_dev123 c = (c.val + 29) % 32 := by decide +kernel
theorem k0_dev123_fwd (c : Dev nD) : (⟨k0_dev123 c, k0_dev123_lt c⟩ : Dev nD) = fwd c 29 := Fin.ext (k0_dev123_val c)
theorem k0_dev124_val : ∀ c : Dev nD, k0_dev124 c = (c.val + 30) % 32 := by decide +kernel
theorem k0_dev124_fwd (c : Dev nD) : (⟨k0_dev124 c, k0_dev124_lt c⟩ : Dev nD) = fwd c 30 := Fin.ext (k0_dev124_val c)
theorem k0_dev125_val : ∀ c : Dev nD, k0_dev125 c = (c.val + 31) % 32 := by decide +kernel
theorem k0_dev125_fwd (c : Dev nD) : (⟨k0_dev125 c, k0_dev125_lt c⟩ : Dev nD) = fwd c 31 := Fin.ext (k0_dev125_val c)

theorem k0_dev126_val : ∀ c : Dev nD, k0_dev126 c = (c.val + 1) % 32 := by decide +kernel
theorem k0_dev126_fwd (c : Dev nD) : (⟨k0_dev126 c, k0_dev126_lt c⟩ : Dev nD) = fwd c 1 := Fin.ext (k0_dev126_val c)
theorem k0_dev127_val : ∀ c : Dev nD, k0_dev127 c = (c.val + 2) % 32 := by decide +kernel
theorem k0_dev127_fwd (c : Dev nD) : (⟨k0_dev127 c, k0_dev127_lt c⟩ : Dev nD) = fwd c 2 := Fin.ext (k0_dev127_val c)
theorem k0_dev128_val : ∀ c : Dev nD, k0_dev128 c = (c.val + 3) % 32 := by decide +kernel
theorem k0_dev128_fwd (c : Dev nD) : (⟨k0_dev128 c, k0_dev128_lt c⟩ : Dev nD) = fwd c 3 := Fin.ext (k0_dev128_val c)
theorem k0_dev129_val : ∀ c : Dev nD, k0_dev129 c = (c.val + 4) % 32 := by decide +kernel
theorem k0_dev129_fwd (c : Dev nD) : (⟨k0_dev129 c, k0_dev129_lt c⟩ : Dev nD) = fwd c 4 := Fin.ext (k0_dev129_val c)
theorem k0_dev130_val : ∀ c : Dev nD, k0_dev130 c = (c.val + 5) % 32 := by decide +kernel
theorem k0_dev130_fwd (c : Dev nD) : (⟨k0_dev130 c, k0_dev130_lt c⟩ : Dev nD) = fwd c 5 := Fin.ext (k0_dev130_val c)
theorem k0_dev131_val : ∀ c : Dev nD, k0_dev131 c = (c.val + 6) % 32 := by decide +kernel
theorem k0_dev131_fwd (c : Dev nD) : (⟨k0_dev131 c, k0_dev131_lt c⟩ : Dev nD) = fwd c 6 := Fin.ext (k0_dev131_val c)
theorem k0_dev132_val : ∀ c : Dev nD, k0_dev132 c = (c.val + 7) % 32 := by decide +kernel
theorem k0_dev132_fwd (c : Dev nD) : (⟨k0_dev132 c, k0_dev132_lt c⟩ : Dev nD) = fwd c 7 := Fin.ext (k0_dev132_val c)
theorem k0_dev133_val : ∀ c : Dev nD, k0_dev133 c = (c.val + 8) % 32 := by decide +kernel
theorem k0_dev133_fwd (c : Dev nD) : (⟨k0_dev133 c, k0_dev133_lt c⟩ : Dev nD) = fwd c 8 := Fin.ext (k0_dev133_val c)
theorem k0_dev134_val : ∀ c : Dev nD, k0_dev134 c = (c.val + 9) % 32 := by decide +kernel
theorem k0_dev134_fwd (c : Dev nD) : (⟨k0_dev134 c, k0_dev134_lt c⟩ : Dev nD) = fwd c 9 := Fin.ext (k0_dev134_val c)
theorem k0_dev135_val : ∀ c : Dev nD, k0_dev135 c = (c.val + 10) % 32 := by decide +kernel
theorem k0_dev135_fwd (c : Dev nD) : (⟨k0_dev135 c, k0_dev135_lt c⟩ : Dev nD) = fwd c 10 := Fin.ext (k0_dev135_val c)
theorem k0_dev136_val : ∀ c : Dev nD, k0_dev136 c = (c.val + 11) % 32 := by decide +kernel
theorem k0_dev136_fwd (c : Dev nD) : (⟨k0_dev136 c, k0_dev136_lt c⟩ : Dev nD) = fwd c 11 := Fin.ext (k0_dev136_val c)
theorem k0_dev137_val : ∀ c : Dev nD, k0_dev137 c = (c.val + 12) % 32 := by decide +kernel
theorem k0_dev137_fwd (c : Dev nD) : (⟨k0_dev137 c, k0_dev137_lt c⟩ : Dev nD) = fwd c 12 := Fin.ext (k0_dev137_val c)
theorem k0_dev138_val : ∀ c : Dev nD, k0_dev138 c = (c.val + 13) % 32 := by decide +kernel
theorem k0_dev138_fwd (c : Dev nD) : (⟨k0_dev138 c, k0_dev138_lt c⟩ : Dev nD) = fwd c 13 := Fin.ext (k0_dev138_val c)
theorem k0_dev139_val : ∀ c : Dev nD, k0_dev139 c = (c.val + 14) % 32 := by decide +kernel
theorem k0_dev139_fwd (c : Dev nD) : (⟨k0_dev139 c, k0_dev139_lt c⟩ : Dev nD) = fwd c 14 := Fin.ext (k0_dev139_val c)
theorem k0_dev140_val : ∀ c : Dev nD, k0_dev140 c = (c.val + 15) % 32 := by decide +kernel
theorem k0_dev140_fwd (c : Dev nD) : (⟨k0_dev140 c, k0_dev140_lt c⟩ : Dev nD) = fwd c 15 := Fin.ext (k0_dev140_val c)
theorem k0_dev141_val : ∀ c : Dev nD, k0_dev141 c = (c.val + 16) % 32 := by decide +kernel
theorem k0_dev141_fwd (c : Dev nD) : (⟨k0_dev141 c, k0_dev141_lt c⟩ : Dev nD) = fwd c 16 := Fin.ext (k0_dev141_val c)
theorem k0_dev142_val : ∀ c : Dev nD, k0_dev142 c = (c.val + 17) % 32 := by decide +kernel
theorem k0_dev142_fwd (c : Dev nD) : (⟨k0_dev142 c, k0_dev142_lt c⟩ : Dev nD) = fwd c 17 := Fin.ext (k0_dev142_val c)
theorem k0_dev143_val : ∀ c : Dev nD, k0_dev143 c = (c.val + 18) % 32 := by decide +kernel
theorem k0_dev143_fwd (c : Dev nD) : (⟨k0_dev143 c, k0_dev143_lt c⟩ : Dev nD) = fwd c 18 := Fin.ext (k0_dev143_val c)
theorem k0_dev144_val : ∀ c : Dev nD, k0_dev144 c = (c.val + 19) % 32 := by decide +kernel
theorem k0_dev144_fwd (c : Dev nD) : (⟨k0_dev144 c, k0_dev144_lt c⟩ : Dev nD) = fwd c 19 := Fin.ext (k0_dev144_val c)
theorem k0_dev145_val : ∀ c : Dev nD, k0_dev145 c = (c.val + 20) % 32 := by decide +kernel
theorem k0_dev145_fwd (c : Dev nD) : (⟨k0_dev145 c, k0_dev145_lt c⟩ : Dev nD) = fwd c 20 := Fin.ext (k0_dev145_val c)
theorem k0_dev146_val : ∀ c : Dev nD, k0_dev146 c = (c.val + 21) % 32 := by decide +kernel
theorem k0_dev146_fwd (c : Dev nD) : (⟨k0_dev146 c, k0_dev146_lt c⟩ : Dev nD) = fwd c 21 := Fin.ext (k0_dev146_val c)
theorem k0_dev147_val : ∀ c : Dev nD, k0_dev147 c = (c.val + 22) % 32 := by decide +kernel
theorem k0_dev147_fwd (c : Dev nD) : (⟨k0_dev147 c, k0_dev147_lt c⟩ : Dev nD) = fwd c 22 := Fin.ext (k0_dev147_val c)
theorem k0_dev148_val : ∀ c : Dev nD, k0_dev148 c = (c.val + 23) % 32 := by decide +kernel
theorem k0_dev148_fwd (c : Dev nD) : (⟨k0_dev148 c, k0_dev148_lt c⟩ : Dev nD) = fwd c 23 := Fin.ext (k0_dev148_val c)
theorem k0_dev149_val : ∀ c : Dev nD, k0_dev149 c = (c.val + 24) % 32 := by decide +kernel
theorem k0_dev149_fwd (c : Dev nD) : (⟨k0_dev149 c, k0_dev149_lt c⟩ : Dev nD) = fwd c 24 := Fin.ext (k0_dev149_val c)
theorem k0_dev150_val : ∀ c : Dev nD, k0_dev150 c = (c.val + 25) % 32 := by decide +kernel
theorem k0_dev150_fwd (c : Dev nD) : (⟨k0_dev150 c, k0_dev150_lt c⟩ : Dev nD) = fwd c 25 := Fin.ext (k0_dev150_val c)
theorem k0_dev151_val : ∀ c : Dev nD, k0_dev151 c = (c.val + 26) % 32 := by decide +kernel
theorem k0_dev151_fwd (c : Dev nD) : (⟨k0_dev151 c, k0_dev151_lt c⟩ : Dev nD) = fwd c 26 := Fin.ext (k0_dev151_val c)
theorem k0_dev152_val : ∀ c : Dev nD, k0_dev152 c = (c.val + 27) % 32 := by decide +kernel
theorem k0_dev152_fwd (c : Dev nD) : (⟨k0_dev152 c, k0_dev152_lt c⟩ : Dev nD) = fwd c 27 := Fin.ext (k0_dev152_val c)
theorem k0_dev153_val : ∀ c : Dev nD, k0_dev153 c = (c.val + 28) % 32 := by decide +kernel
theorem k0_dev153_fwd (c : Dev nD) : (⟨k0_dev153 c, k0_dev153_lt c⟩ : Dev nD) = fwd c 28 := Fin.ext (k0_dev153_val c)
theorem k0_dev154_val : ∀ c : Dev nD, k0_dev154 c = (c.val + 29) % 32 := by decide +kernel
theorem k0_dev154_fwd (c : Dev nD) : (⟨k0_dev154 c, k0_dev154_lt c⟩ : Dev nD) = fwd c 29 := Fin.ext (k0_dev154_val c)
theorem k0_dev155_val : ∀ c : Dev nD, k0_dev155 c = (c.val + 30) % 32 := by decide +kernel
theorem k0_dev155_fwd (c : Dev nD) : (⟨k0_dev155 c, k0_dev155_lt c⟩ : Dev nD) = fwd c 30 := Fin.ext (k0_dev155_val c)
theorem k0_dev156_val : ∀ c : Dev nD, k0_dev156 c = (c.val + 31) % 32 := by decide +kernel
theorem k0_dev156_fwd (c : Dev nD) : (⟨k0_dev156 c, k0_dev156_lt c⟩ : Dev nD) = fwd c 31 := Fin.ext (k0_dev156_val c)

/-! ## The computed offsets and the half slots they name, at the literal words -/

theorem k0_off2_eq_1 (c : Dev nD) : k0_off2 c 1#32 = ![(c.val + 1) % 32, 0, 0] := k0_off2_eq c 0
theorem k0_off2_slot_1 (c : Dev nD) : Rect.unit (s := S32x16x512) (k0_off2 c 1#32) S1x16x256.size (k0_off2_inb c 0) = slot (fwd c 1) 0 := k0_off2_slot c 0
theorem k0_off2_eq_2 (c : Dev nD) : k0_off2 c 2#32 = ![(c.val + 2) % 32, 0, 0] := k0_off2_eq c 1
theorem k0_off2_slot_2 (c : Dev nD) : Rect.unit (s := S32x16x512) (k0_off2 c 2#32) S1x16x256.size (k0_off2_inb c 1) = slot (fwd c 2) 0 := k0_off2_slot c 1
theorem k0_off2_eq_3 (c : Dev nD) : k0_off2 c 3#32 = ![(c.val + 3) % 32, 0, 0] := k0_off2_eq c 2
theorem k0_off2_slot_3 (c : Dev nD) : Rect.unit (s := S32x16x512) (k0_off2 c 3#32) S1x16x256.size (k0_off2_inb c 2) = slot (fwd c 3) 0 := k0_off2_slot c 2
theorem k0_off2_eq_4 (c : Dev nD) : k0_off2 c 4#32 = ![(c.val + 4) % 32, 0, 0] := k0_off2_eq c 3
theorem k0_off2_slot_4 (c : Dev nD) : Rect.unit (s := S32x16x512) (k0_off2 c 4#32) S1x16x256.size (k0_off2_inb c 3) = slot (fwd c 4) 0 := k0_off2_slot c 3
theorem k0_off2_eq_5 (c : Dev nD) : k0_off2 c 5#32 = ![(c.val + 5) % 32, 0, 0] := k0_off2_eq c 4
theorem k0_off2_slot_5 (c : Dev nD) : Rect.unit (s := S32x16x512) (k0_off2 c 5#32) S1x16x256.size (k0_off2_inb c 4) = slot (fwd c 5) 0 := k0_off2_slot c 4
theorem k0_off2_eq_6 (c : Dev nD) : k0_off2 c 6#32 = ![(c.val + 6) % 32, 0, 0] := k0_off2_eq c 5
theorem k0_off2_slot_6 (c : Dev nD) : Rect.unit (s := S32x16x512) (k0_off2 c 6#32) S1x16x256.size (k0_off2_inb c 5) = slot (fwd c 6) 0 := k0_off2_slot c 5
theorem k0_off2_eq_7 (c : Dev nD) : k0_off2 c 7#32 = ![(c.val + 7) % 32, 0, 0] := k0_off2_eq c 6
theorem k0_off2_slot_7 (c : Dev nD) : Rect.unit (s := S32x16x512) (k0_off2 c 7#32) S1x16x256.size (k0_off2_inb c 6) = slot (fwd c 7) 0 := k0_off2_slot c 6
theorem k0_off2_eq_8 (c : Dev nD) : k0_off2 c 8#32 = ![(c.val + 8) % 32, 0, 0] := k0_off2_eq c 7
theorem k0_off2_slot_8 (c : Dev nD) : Rect.unit (s := S32x16x512) (k0_off2 c 8#32) S1x16x256.size (k0_off2_inb c 7) = slot (fwd c 8) 0 := k0_off2_slot c 7
theorem k0_off2_eq_9 (c : Dev nD) : k0_off2 c 9#32 = ![(c.val + 9) % 32, 0, 0] := k0_off2_eq c 8
theorem k0_off2_slot_9 (c : Dev nD) : Rect.unit (s := S32x16x512) (k0_off2 c 9#32) S1x16x256.size (k0_off2_inb c 8) = slot (fwd c 9) 0 := k0_off2_slot c 8
theorem k0_off2_eq_10 (c : Dev nD) : k0_off2 c 10#32 = ![(c.val + 10) % 32, 0, 0] := k0_off2_eq c 9
theorem k0_off2_slot_10 (c : Dev nD) : Rect.unit (s := S32x16x512) (k0_off2 c 10#32) S1x16x256.size (k0_off2_inb c 9) = slot (fwd c 10) 0 := k0_off2_slot c 9
theorem k0_off2_eq_11 (c : Dev nD) : k0_off2 c 11#32 = ![(c.val + 11) % 32, 0, 0] := k0_off2_eq c 10
theorem k0_off2_slot_11 (c : Dev nD) : Rect.unit (s := S32x16x512) (k0_off2 c 11#32) S1x16x256.size (k0_off2_inb c 10) = slot (fwd c 11) 0 := k0_off2_slot c 10
theorem k0_off2_eq_12 (c : Dev nD) : k0_off2 c 12#32 = ![(c.val + 12) % 32, 0, 0] := k0_off2_eq c 11
theorem k0_off2_slot_12 (c : Dev nD) : Rect.unit (s := S32x16x512) (k0_off2 c 12#32) S1x16x256.size (k0_off2_inb c 11) = slot (fwd c 12) 0 := k0_off2_slot c 11
theorem k0_off2_eq_13 (c : Dev nD) : k0_off2 c 13#32 = ![(c.val + 13) % 32, 0, 0] := k0_off2_eq c 12
theorem k0_off2_slot_13 (c : Dev nD) : Rect.unit (s := S32x16x512) (k0_off2 c 13#32) S1x16x256.size (k0_off2_inb c 12) = slot (fwd c 13) 0 := k0_off2_slot c 12
theorem k0_off2_eq_14 (c : Dev nD) : k0_off2 c 14#32 = ![(c.val + 14) % 32, 0, 0] := k0_off2_eq c 13
theorem k0_off2_slot_14 (c : Dev nD) : Rect.unit (s := S32x16x512) (k0_off2 c 14#32) S1x16x256.size (k0_off2_inb c 13) = slot (fwd c 14) 0 := k0_off2_slot c 13
theorem k0_off2_eq_15 (c : Dev nD) : k0_off2 c 15#32 = ![(c.val + 15) % 32, 0, 0] := k0_off2_eq c 14
theorem k0_off2_slot_15 (c : Dev nD) : Rect.unit (s := S32x16x512) (k0_off2 c 15#32) S1x16x256.size (k0_off2_inb c 14) = slot (fwd c 15) 0 := k0_off2_slot c 14
theorem k0_off2_eq_16 (c : Dev nD) : k0_off2 c 16#32 = ![(c.val + 16) % 32, 0, 0] := k0_off2_eq c 15
theorem k0_off2_slot_16 (c : Dev nD) : Rect.unit (s := S32x16x512) (k0_off2 c 16#32) S1x16x256.size (k0_off2_inb c 15) = slot (fwd c 16) 0 := k0_off2_slot c 15
theorem k0_off2_eq_17 (c : Dev nD) : k0_off2 c 17#32 = ![(c.val + 17) % 32, 0, 0] := k0_off2_eq c 16
theorem k0_off2_slot_17 (c : Dev nD) : Rect.unit (s := S32x16x512) (k0_off2 c 17#32) S1x16x256.size (k0_off2_inb c 16) = slot (fwd c 17) 0 := k0_off2_slot c 16
theorem k0_off2_eq_18 (c : Dev nD) : k0_off2 c 18#32 = ![(c.val + 18) % 32, 0, 0] := k0_off2_eq c 17
theorem k0_off2_slot_18 (c : Dev nD) : Rect.unit (s := S32x16x512) (k0_off2 c 18#32) S1x16x256.size (k0_off2_inb c 17) = slot (fwd c 18) 0 := k0_off2_slot c 17
theorem k0_off2_eq_19 (c : Dev nD) : k0_off2 c 19#32 = ![(c.val + 19) % 32, 0, 0] := k0_off2_eq c 18
theorem k0_off2_slot_19 (c : Dev nD) : Rect.unit (s := S32x16x512) (k0_off2 c 19#32) S1x16x256.size (k0_off2_inb c 18) = slot (fwd c 19) 0 := k0_off2_slot c 18
theorem k0_off2_eq_20 (c : Dev nD) : k0_off2 c 20#32 = ![(c.val + 20) % 32, 0, 0] := k0_off2_eq c 19
theorem k0_off2_slot_20 (c : Dev nD) : Rect.unit (s := S32x16x512) (k0_off2 c 20#32) S1x16x256.size (k0_off2_inb c 19) = slot (fwd c 20) 0 := k0_off2_slot c 19
theorem k0_off2_eq_21 (c : Dev nD) : k0_off2 c 21#32 = ![(c.val + 21) % 32, 0, 0] := k0_off2_eq c 20
theorem k0_off2_slot_21 (c : Dev nD) : Rect.unit (s := S32x16x512) (k0_off2 c 21#32) S1x16x256.size (k0_off2_inb c 20) = slot (fwd c 21) 0 := k0_off2_slot c 20
theorem k0_off2_eq_22 (c : Dev nD) : k0_off2 c 22#32 = ![(c.val + 22) % 32, 0, 0] := k0_off2_eq c 21
theorem k0_off2_slot_22 (c : Dev nD) : Rect.unit (s := S32x16x512) (k0_off2 c 22#32) S1x16x256.size (k0_off2_inb c 21) = slot (fwd c 22) 0 := k0_off2_slot c 21
theorem k0_off2_eq_23 (c : Dev nD) : k0_off2 c 23#32 = ![(c.val + 23) % 32, 0, 0] := k0_off2_eq c 22
theorem k0_off2_slot_23 (c : Dev nD) : Rect.unit (s := S32x16x512) (k0_off2 c 23#32) S1x16x256.size (k0_off2_inb c 22) = slot (fwd c 23) 0 := k0_off2_slot c 22
theorem k0_off2_eq_24 (c : Dev nD) : k0_off2 c 24#32 = ![(c.val + 24) % 32, 0, 0] := k0_off2_eq c 23
theorem k0_off2_slot_24 (c : Dev nD) : Rect.unit (s := S32x16x512) (k0_off2 c 24#32) S1x16x256.size (k0_off2_inb c 23) = slot (fwd c 24) 0 := k0_off2_slot c 23
theorem k0_off2_eq_25 (c : Dev nD) : k0_off2 c 25#32 = ![(c.val + 25) % 32, 0, 0] := k0_off2_eq c 24
theorem k0_off2_slot_25 (c : Dev nD) : Rect.unit (s := S32x16x512) (k0_off2 c 25#32) S1x16x256.size (k0_off2_inb c 24) = slot (fwd c 25) 0 := k0_off2_slot c 24
theorem k0_off2_eq_26 (c : Dev nD) : k0_off2 c 26#32 = ![(c.val + 26) % 32, 0, 0] := k0_off2_eq c 25
theorem k0_off2_slot_26 (c : Dev nD) : Rect.unit (s := S32x16x512) (k0_off2 c 26#32) S1x16x256.size (k0_off2_inb c 25) = slot (fwd c 26) 0 := k0_off2_slot c 25
theorem k0_off2_eq_27 (c : Dev nD) : k0_off2 c 27#32 = ![(c.val + 27) % 32, 0, 0] := k0_off2_eq c 26
theorem k0_off2_slot_27 (c : Dev nD) : Rect.unit (s := S32x16x512) (k0_off2 c 27#32) S1x16x256.size (k0_off2_inb c 26) = slot (fwd c 27) 0 := k0_off2_slot c 26
theorem k0_off2_eq_28 (c : Dev nD) : k0_off2 c 28#32 = ![(c.val + 28) % 32, 0, 0] := k0_off2_eq c 27
theorem k0_off2_slot_28 (c : Dev nD) : Rect.unit (s := S32x16x512) (k0_off2 c 28#32) S1x16x256.size (k0_off2_inb c 27) = slot (fwd c 28) 0 := k0_off2_slot c 27
theorem k0_off2_eq_29 (c : Dev nD) : k0_off2 c 29#32 = ![(c.val + 29) % 32, 0, 0] := k0_off2_eq c 28
theorem k0_off2_slot_29 (c : Dev nD) : Rect.unit (s := S32x16x512) (k0_off2 c 29#32) S1x16x256.size (k0_off2_inb c 28) = slot (fwd c 29) 0 := k0_off2_slot c 28
theorem k0_off2_eq_30 (c : Dev nD) : k0_off2 c 30#32 = ![(c.val + 30) % 32, 0, 0] := k0_off2_eq c 29
theorem k0_off2_slot_30 (c : Dev nD) : Rect.unit (s := S32x16x512) (k0_off2 c 30#32) S1x16x256.size (k0_off2_inb c 29) = slot (fwd c 30) 0 := k0_off2_slot c 29
theorem k0_off2_eq_31 (c : Dev nD) : k0_off2 c 31#32 = ![(c.val + 31) % 32, 0, 0] := k0_off2_eq c 30
theorem k0_off2_slot_31 (c : Dev nD) : Rect.unit (s := S32x16x512) (k0_off2 c 31#32) S1x16x256.size (k0_off2_inb c 30) = slot (fwd c 31) 0 := k0_off2_slot c 30

theorem k0_off3_eq_1 (c : Dev nD) : k0_off3 c 1#32 = ![(c.val + 1) % 32, 0, 256] := k0_off3_eq c 0
theorem k0_off3_slot_1 (c : Dev nD) : Rect.unit (s := S32x16x512) (k0_off3 c 1#32) S1x16x256.size (k0_off3_inb c 0) = slot (fwd c 1) 1 := k0_off3_slot c 0
theorem k0_off3_eq_2 (c : Dev nD) : k0_off3 c 2#32 = ![(c.val + 2) % 32, 0, 256] := k0_off3_eq c 1
theorem k0_off3_slot_2 (c : Dev nD) : Rect.unit (s := S32x16x512) (k0_off3 c 2#32) S1x16x256.size (k0_off3_inb c 1) = slot (fwd c 2) 1 := k0_off3_slot c 1
theorem k0_off3_eq_3 (c : Dev nD) : k0_off3 c 3#32 = ![(c.val + 3) % 32, 0, 256] := k0_off3_eq c 2
theorem k0_off3_slot_3 (c : Dev nD) : Rect.unit (s := S32x16x512) (k0_off3 c 3#32) S1x16x256.size (k0_off3_inb c 2) = slot (fwd c 3) 1 := k0_off3_slot c 2
theorem k0_off3_eq_4 (c : Dev nD) : k0_off3 c 4#32 = ![(c.val + 4) % 32, 0, 256] := k0_off3_eq c 3
theorem k0_off3_slot_4 (c : Dev nD) : Rect.unit (s := S32x16x512) (k0_off3 c 4#32) S1x16x256.size (k0_off3_inb c 3) = slot (fwd c 4) 1 := k0_off3_slot c 3
theorem k0_off3_eq_5 (c : Dev nD) : k0_off3 c 5#32 = ![(c.val + 5) % 32, 0, 256] := k0_off3_eq c 4
theorem k0_off3_slot_5 (c : Dev nD) : Rect.unit (s := S32x16x512) (k0_off3 c 5#32) S1x16x256.size (k0_off3_inb c 4) = slot (fwd c 5) 1 := k0_off3_slot c 4
theorem k0_off3_eq_6 (c : Dev nD) : k0_off3 c 6#32 = ![(c.val + 6) % 32, 0, 256] := k0_off3_eq c 5
theorem k0_off3_slot_6 (c : Dev nD) : Rect.unit (s := S32x16x512) (k0_off3 c 6#32) S1x16x256.size (k0_off3_inb c 5) = slot (fwd c 6) 1 := k0_off3_slot c 5
theorem k0_off3_eq_7 (c : Dev nD) : k0_off3 c 7#32 = ![(c.val + 7) % 32, 0, 256] := k0_off3_eq c 6
theorem k0_off3_slot_7 (c : Dev nD) : Rect.unit (s := S32x16x512) (k0_off3 c 7#32) S1x16x256.size (k0_off3_inb c 6) = slot (fwd c 7) 1 := k0_off3_slot c 6
theorem k0_off3_eq_8 (c : Dev nD) : k0_off3 c 8#32 = ![(c.val + 8) % 32, 0, 256] := k0_off3_eq c 7
theorem k0_off3_slot_8 (c : Dev nD) : Rect.unit (s := S32x16x512) (k0_off3 c 8#32) S1x16x256.size (k0_off3_inb c 7) = slot (fwd c 8) 1 := k0_off3_slot c 7
theorem k0_off3_eq_9 (c : Dev nD) : k0_off3 c 9#32 = ![(c.val + 9) % 32, 0, 256] := k0_off3_eq c 8
theorem k0_off3_slot_9 (c : Dev nD) : Rect.unit (s := S32x16x512) (k0_off3 c 9#32) S1x16x256.size (k0_off3_inb c 8) = slot (fwd c 9) 1 := k0_off3_slot c 8
theorem k0_off3_eq_10 (c : Dev nD) : k0_off3 c 10#32 = ![(c.val + 10) % 32, 0, 256] := k0_off3_eq c 9
theorem k0_off3_slot_10 (c : Dev nD) : Rect.unit (s := S32x16x512) (k0_off3 c 10#32) S1x16x256.size (k0_off3_inb c 9) = slot (fwd c 10) 1 := k0_off3_slot c 9
theorem k0_off3_eq_11 (c : Dev nD) : k0_off3 c 11#32 = ![(c.val + 11) % 32, 0, 256] := k0_off3_eq c 10
theorem k0_off3_slot_11 (c : Dev nD) : Rect.unit (s := S32x16x512) (k0_off3 c 11#32) S1x16x256.size (k0_off3_inb c 10) = slot (fwd c 11) 1 := k0_off3_slot c 10
theorem k0_off3_eq_12 (c : Dev nD) : k0_off3 c 12#32 = ![(c.val + 12) % 32, 0, 256] := k0_off3_eq c 11
theorem k0_off3_slot_12 (c : Dev nD) : Rect.unit (s := S32x16x512) (k0_off3 c 12#32) S1x16x256.size (k0_off3_inb c 11) = slot (fwd c 12) 1 := k0_off3_slot c 11
theorem k0_off3_eq_13 (c : Dev nD) : k0_off3 c 13#32 = ![(c.val + 13) % 32, 0, 256] := k0_off3_eq c 12
theorem k0_off3_slot_13 (c : Dev nD) : Rect.unit (s := S32x16x512) (k0_off3 c 13#32) S1x16x256.size (k0_off3_inb c 12) = slot (fwd c 13) 1 := k0_off3_slot c 12
theorem k0_off3_eq_14 (c : Dev nD) : k0_off3 c 14#32 = ![(c.val + 14) % 32, 0, 256] := k0_off3_eq c 13
theorem k0_off3_slot_14 (c : Dev nD) : Rect.unit (s := S32x16x512) (k0_off3 c 14#32) S1x16x256.size (k0_off3_inb c 13) = slot (fwd c 14) 1 := k0_off3_slot c 13
theorem k0_off3_eq_15 (c : Dev nD) : k0_off3 c 15#32 = ![(c.val + 15) % 32, 0, 256] := k0_off3_eq c 14
theorem k0_off3_slot_15 (c : Dev nD) : Rect.unit (s := S32x16x512) (k0_off3 c 15#32) S1x16x256.size (k0_off3_inb c 14) = slot (fwd c 15) 1 := k0_off3_slot c 14
theorem k0_off3_eq_16 (c : Dev nD) : k0_off3 c 16#32 = ![(c.val + 16) % 32, 0, 256] := k0_off3_eq c 15
theorem k0_off3_slot_16 (c : Dev nD) : Rect.unit (s := S32x16x512) (k0_off3 c 16#32) S1x16x256.size (k0_off3_inb c 15) = slot (fwd c 16) 1 := k0_off3_slot c 15
theorem k0_off3_eq_17 (c : Dev nD) : k0_off3 c 17#32 = ![(c.val + 17) % 32, 0, 256] := k0_off3_eq c 16
theorem k0_off3_slot_17 (c : Dev nD) : Rect.unit (s := S32x16x512) (k0_off3 c 17#32) S1x16x256.size (k0_off3_inb c 16) = slot (fwd c 17) 1 := k0_off3_slot c 16
theorem k0_off3_eq_18 (c : Dev nD) : k0_off3 c 18#32 = ![(c.val + 18) % 32, 0, 256] := k0_off3_eq c 17
theorem k0_off3_slot_18 (c : Dev nD) : Rect.unit (s := S32x16x512) (k0_off3 c 18#32) S1x16x256.size (k0_off3_inb c 17) = slot (fwd c 18) 1 := k0_off3_slot c 17
theorem k0_off3_eq_19 (c : Dev nD) : k0_off3 c 19#32 = ![(c.val + 19) % 32, 0, 256] := k0_off3_eq c 18
theorem k0_off3_slot_19 (c : Dev nD) : Rect.unit (s := S32x16x512) (k0_off3 c 19#32) S1x16x256.size (k0_off3_inb c 18) = slot (fwd c 19) 1 := k0_off3_slot c 18
theorem k0_off3_eq_20 (c : Dev nD) : k0_off3 c 20#32 = ![(c.val + 20) % 32, 0, 256] := k0_off3_eq c 19
theorem k0_off3_slot_20 (c : Dev nD) : Rect.unit (s := S32x16x512) (k0_off3 c 20#32) S1x16x256.size (k0_off3_inb c 19) = slot (fwd c 20) 1 := k0_off3_slot c 19
theorem k0_off3_eq_21 (c : Dev nD) : k0_off3 c 21#32 = ![(c.val + 21) % 32, 0, 256] := k0_off3_eq c 20
theorem k0_off3_slot_21 (c : Dev nD) : Rect.unit (s := S32x16x512) (k0_off3 c 21#32) S1x16x256.size (k0_off3_inb c 20) = slot (fwd c 21) 1 := k0_off3_slot c 20
theorem k0_off3_eq_22 (c : Dev nD) : k0_off3 c 22#32 = ![(c.val + 22) % 32, 0, 256] := k0_off3_eq c 21
theorem k0_off3_slot_22 (c : Dev nD) : Rect.unit (s := S32x16x512) (k0_off3 c 22#32) S1x16x256.size (k0_off3_inb c 21) = slot (fwd c 22) 1 := k0_off3_slot c 21
theorem k0_off3_eq_23 (c : Dev nD) : k0_off3 c 23#32 = ![(c.val + 23) % 32, 0, 256] := k0_off3_eq c 22
theorem k0_off3_slot_23 (c : Dev nD) : Rect.unit (s := S32x16x512) (k0_off3 c 23#32) S1x16x256.size (k0_off3_inb c 22) = slot (fwd c 23) 1 := k0_off3_slot c 22
theorem k0_off3_eq_24 (c : Dev nD) : k0_off3 c 24#32 = ![(c.val + 24) % 32, 0, 256] := k0_off3_eq c 23
theorem k0_off3_slot_24 (c : Dev nD) : Rect.unit (s := S32x16x512) (k0_off3 c 24#32) S1x16x256.size (k0_off3_inb c 23) = slot (fwd c 24) 1 := k0_off3_slot c 23
theorem k0_off3_eq_25 (c : Dev nD) : k0_off3 c 25#32 = ![(c.val + 25) % 32, 0, 256] := k0_off3_eq c 24
theorem k0_off3_slot_25 (c : Dev nD) : Rect.unit (s := S32x16x512) (k0_off3 c 25#32) S1x16x256.size (k0_off3_inb c 24) = slot (fwd c 25) 1 := k0_off3_slot c 24
theorem k0_off3_eq_26 (c : Dev nD) : k0_off3 c 26#32 = ![(c.val + 26) % 32, 0, 256] := k0_off3_eq c 25
theorem k0_off3_slot_26 (c : Dev nD) : Rect.unit (s := S32x16x512) (k0_off3 c 26#32) S1x16x256.size (k0_off3_inb c 25) = slot (fwd c 26) 1 := k0_off3_slot c 25
theorem k0_off3_eq_27 (c : Dev nD) : k0_off3 c 27#32 = ![(c.val + 27) % 32, 0, 256] := k0_off3_eq c 26
theorem k0_off3_slot_27 (c : Dev nD) : Rect.unit (s := S32x16x512) (k0_off3 c 27#32) S1x16x256.size (k0_off3_inb c 26) = slot (fwd c 27) 1 := k0_off3_slot c 26
theorem k0_off3_eq_28 (c : Dev nD) : k0_off3 c 28#32 = ![(c.val + 28) % 32, 0, 256] := k0_off3_eq c 27
theorem k0_off3_slot_28 (c : Dev nD) : Rect.unit (s := S32x16x512) (k0_off3 c 28#32) S1x16x256.size (k0_off3_inb c 27) = slot (fwd c 28) 1 := k0_off3_slot c 27
theorem k0_off3_eq_29 (c : Dev nD) : k0_off3 c 29#32 = ![(c.val + 29) % 32, 0, 256] := k0_off3_eq c 28
theorem k0_off3_slot_29 (c : Dev nD) : Rect.unit (s := S32x16x512) (k0_off3 c 29#32) S1x16x256.size (k0_off3_inb c 28) = slot (fwd c 29) 1 := k0_off3_slot c 28
theorem k0_off3_eq_30 (c : Dev nD) : k0_off3 c 30#32 = ![(c.val + 30) % 32, 0, 256] := k0_off3_eq c 29
theorem k0_off3_slot_30 (c : Dev nD) : Rect.unit (s := S32x16x512) (k0_off3 c 30#32) S1x16x256.size (k0_off3_inb c 29) = slot (fwd c 30) 1 := k0_off3_slot c 29
theorem k0_off3_eq_31 (c : Dev nD) : k0_off3 c 31#32 = ![(c.val + 31) % 32, 0, 256] := k0_off3_eq c 30
theorem k0_off3_slot_31 (c : Dev nD) : Rect.unit (s := S32x16x512) (k0_off3 c 31#32) S1x16x256.size (k0_off3_inb c 30) = slot (fwd c 31) 1 := k0_off3_slot c 30

theorem k0_off8_eq_1 (c : Dev nD) : k0_off8 c 1#32 = ![(c.val + 32 - 1) % 32, 0, 0] := k0_off8_eq c 0
theorem k0_off8_slot_1 (c : Dev nD) : Rect.unit (s := S32x16x512) (k0_off8 c 1#32) S1x16x256.size (k0_off8_inb c 0) = slot (bwd c 1) 0 := k0_off8_slot c 0
theorem k0_off8_eq_2 (c : Dev nD) : k0_off8 c 2#32 = ![(c.val + 32 - 2) % 32, 0, 0] := k0_off8_eq c 1
theorem k0_off8_slot_2 (c : Dev nD) : Rect.unit (s := S32x16x512) (k0_off8 c 2#32) S1x16x256.size (k0_off8_inb c 1) = slot (bwd c 2) 0 := k0_off8_slot c 1
theorem k0_off8_eq_3 (c : Dev nD) : k0_off8 c 3#32 = ![(c.val + 32 - 3) % 32, 0, 0] := k0_off8_eq c 2
theorem k0_off8_slot_3 (c : Dev nD) : Rect.unit (s := S32x16x512) (k0_off8 c 3#32) S1x16x256.size (k0_off8_inb c 2) = slot (bwd c 3) 0 := k0_off8_slot c 2
theorem k0_off8_eq_4 (c : Dev nD) : k0_off8 c 4#32 = ![(c.val + 32 - 4) % 32, 0, 0] := k0_off8_eq c 3
theorem k0_off8_slot_4 (c : Dev nD) : Rect.unit (s := S32x16x512) (k0_off8 c 4#32) S1x16x256.size (k0_off8_inb c 3) = slot (bwd c 4) 0 := k0_off8_slot c 3
theorem k0_off8_eq_5 (c : Dev nD) : k0_off8 c 5#32 = ![(c.val + 32 - 5) % 32, 0, 0] := k0_off8_eq c 4
theorem k0_off8_slot_5 (c : Dev nD) : Rect.unit (s := S32x16x512) (k0_off8 c 5#32) S1x16x256.size (k0_off8_inb c 4) = slot (bwd c 5) 0 := k0_off8_slot c 4
theorem k0_off8_eq_6 (c : Dev nD) : k0_off8 c 6#32 = ![(c.val + 32 - 6) % 32, 0, 0] := k0_off8_eq c 5
theorem k0_off8_slot_6 (c : Dev nD) : Rect.unit (s := S32x16x512) (k0_off8 c 6#32) S1x16x256.size (k0_off8_inb c 5) = slot (bwd c 6) 0 := k0_off8_slot c 5
theorem k0_off8_eq_7 (c : Dev nD) : k0_off8 c 7#32 = ![(c.val + 32 - 7) % 32, 0, 0] := k0_off8_eq c 6
theorem k0_off8_slot_7 (c : Dev nD) : Rect.unit (s := S32x16x512) (k0_off8 c 7#32) S1x16x256.size (k0_off8_inb c 6) = slot (bwd c 7) 0 := k0_off8_slot c 6
theorem k0_off8_eq_8 (c : Dev nD) : k0_off8 c 8#32 = ![(c.val + 32 - 8) % 32, 0, 0] := k0_off8_eq c 7
theorem k0_off8_slot_8 (c : Dev nD) : Rect.unit (s := S32x16x512) (k0_off8 c 8#32) S1x16x256.size (k0_off8_inb c 7) = slot (bwd c 8) 0 := k0_off8_slot c 7
theorem k0_off8_eq_9 (c : Dev nD) : k0_off8 c 9#32 = ![(c.val + 32 - 9) % 32, 0, 0] := k0_off8_eq c 8
theorem k0_off8_slot_9 (c : Dev nD) : Rect.unit (s := S32x16x512) (k0_off8 c 9#32) S1x16x256.size (k0_off8_inb c 8) = slot (bwd c 9) 0 := k0_off8_slot c 8
theorem k0_off8_eq_10 (c : Dev nD) : k0_off8 c 10#32 = ![(c.val + 32 - 10) % 32, 0, 0] := k0_off8_eq c 9
theorem k0_off8_slot_10 (c : Dev nD) : Rect.unit (s := S32x16x512) (k0_off8 c 10#32) S1x16x256.size (k0_off8_inb c 9) = slot (bwd c 10) 0 := k0_off8_slot c 9
theorem k0_off8_eq_11 (c : Dev nD) : k0_off8 c 11#32 = ![(c.val + 32 - 11) % 32, 0, 0] := k0_off8_eq c 10
theorem k0_off8_slot_11 (c : Dev nD) : Rect.unit (s := S32x16x512) (k0_off8 c 11#32) S1x16x256.size (k0_off8_inb c 10) = slot (bwd c 11) 0 := k0_off8_slot c 10
theorem k0_off8_eq_12 (c : Dev nD) : k0_off8 c 12#32 = ![(c.val + 32 - 12) % 32, 0, 0] := k0_off8_eq c 11
theorem k0_off8_slot_12 (c : Dev nD) : Rect.unit (s := S32x16x512) (k0_off8 c 12#32) S1x16x256.size (k0_off8_inb c 11) = slot (bwd c 12) 0 := k0_off8_slot c 11
theorem k0_off8_eq_13 (c : Dev nD) : k0_off8 c 13#32 = ![(c.val + 32 - 13) % 32, 0, 0] := k0_off8_eq c 12
theorem k0_off8_slot_13 (c : Dev nD) : Rect.unit (s := S32x16x512) (k0_off8 c 13#32) S1x16x256.size (k0_off8_inb c 12) = slot (bwd c 13) 0 := k0_off8_slot c 12
theorem k0_off8_eq_14 (c : Dev nD) : k0_off8 c 14#32 = ![(c.val + 32 - 14) % 32, 0, 0] := k0_off8_eq c 13
theorem k0_off8_slot_14 (c : Dev nD) : Rect.unit (s := S32x16x512) (k0_off8 c 14#32) S1x16x256.size (k0_off8_inb c 13) = slot (bwd c 14) 0 := k0_off8_slot c 13
theorem k0_off8_eq_15 (c : Dev nD) : k0_off8 c 15#32 = ![(c.val + 32 - 15) % 32, 0, 0] := k0_off8_eq c 14
theorem k0_off8_slot_15 (c : Dev nD) : Rect.unit (s := S32x16x512) (k0_off8 c 15#32) S1x16x256.size (k0_off8_inb c 14) = slot (bwd c 15) 0 := k0_off8_slot c 14
theorem k0_off8_eq_16 (c : Dev nD) : k0_off8 c 16#32 = ![(c.val + 32 - 16) % 32, 0, 0] := k0_off8_eq c 15
theorem k0_off8_slot_16 (c : Dev nD) : Rect.unit (s := S32x16x512) (k0_off8 c 16#32) S1x16x256.size (k0_off8_inb c 15) = slot (bwd c 16) 0 := k0_off8_slot c 15
theorem k0_off8_eq_17 (c : Dev nD) : k0_off8 c 17#32 = ![(c.val + 32 - 17) % 32, 0, 0] := k0_off8_eq c 16
theorem k0_off8_slot_17 (c : Dev nD) : Rect.unit (s := S32x16x512) (k0_off8 c 17#32) S1x16x256.size (k0_off8_inb c 16) = slot (bwd c 17) 0 := k0_off8_slot c 16
theorem k0_off8_eq_18 (c : Dev nD) : k0_off8 c 18#32 = ![(c.val + 32 - 18) % 32, 0, 0] := k0_off8_eq c 17
theorem k0_off8_slot_18 (c : Dev nD) : Rect.unit (s := S32x16x512) (k0_off8 c 18#32) S1x16x256.size (k0_off8_inb c 17) = slot (bwd c 18) 0 := k0_off8_slot c 17
theorem k0_off8_eq_19 (c : Dev nD) : k0_off8 c 19#32 = ![(c.val + 32 - 19) % 32, 0, 0] := k0_off8_eq c 18
theorem k0_off8_slot_19 (c : Dev nD) : Rect.unit (s := S32x16x512) (k0_off8 c 19#32) S1x16x256.size (k0_off8_inb c 18) = slot (bwd c 19) 0 := k0_off8_slot c 18
theorem k0_off8_eq_20 (c : Dev nD) : k0_off8 c 20#32 = ![(c.val + 32 - 20) % 32, 0, 0] := k0_off8_eq c 19
theorem k0_off8_slot_20 (c : Dev nD) : Rect.unit (s := S32x16x512) (k0_off8 c 20#32) S1x16x256.size (k0_off8_inb c 19) = slot (bwd c 20) 0 := k0_off8_slot c 19
theorem k0_off8_eq_21 (c : Dev nD) : k0_off8 c 21#32 = ![(c.val + 32 - 21) % 32, 0, 0] := k0_off8_eq c 20
theorem k0_off8_slot_21 (c : Dev nD) : Rect.unit (s := S32x16x512) (k0_off8 c 21#32) S1x16x256.size (k0_off8_inb c 20) = slot (bwd c 21) 0 := k0_off8_slot c 20
theorem k0_off8_eq_22 (c : Dev nD) : k0_off8 c 22#32 = ![(c.val + 32 - 22) % 32, 0, 0] := k0_off8_eq c 21
theorem k0_off8_slot_22 (c : Dev nD) : Rect.unit (s := S32x16x512) (k0_off8 c 22#32) S1x16x256.size (k0_off8_inb c 21) = slot (bwd c 22) 0 := k0_off8_slot c 21
theorem k0_off8_eq_23 (c : Dev nD) : k0_off8 c 23#32 = ![(c.val + 32 - 23) % 32, 0, 0] := k0_off8_eq c 22
theorem k0_off8_slot_23 (c : Dev nD) : Rect.unit (s := S32x16x512) (k0_off8 c 23#32) S1x16x256.size (k0_off8_inb c 22) = slot (bwd c 23) 0 := k0_off8_slot c 22
theorem k0_off8_eq_24 (c : Dev nD) : k0_off8 c 24#32 = ![(c.val + 32 - 24) % 32, 0, 0] := k0_off8_eq c 23
theorem k0_off8_slot_24 (c : Dev nD) : Rect.unit (s := S32x16x512) (k0_off8 c 24#32) S1x16x256.size (k0_off8_inb c 23) = slot (bwd c 24) 0 := k0_off8_slot c 23
theorem k0_off8_eq_25 (c : Dev nD) : k0_off8 c 25#32 = ![(c.val + 32 - 25) % 32, 0, 0] := k0_off8_eq c 24
theorem k0_off8_slot_25 (c : Dev nD) : Rect.unit (s := S32x16x512) (k0_off8 c 25#32) S1x16x256.size (k0_off8_inb c 24) = slot (bwd c 25) 0 := k0_off8_slot c 24
theorem k0_off8_eq_26 (c : Dev nD) : k0_off8 c 26#32 = ![(c.val + 32 - 26) % 32, 0, 0] := k0_off8_eq c 25
theorem k0_off8_slot_26 (c : Dev nD) : Rect.unit (s := S32x16x512) (k0_off8 c 26#32) S1x16x256.size (k0_off8_inb c 25) = slot (bwd c 26) 0 := k0_off8_slot c 25
theorem k0_off8_eq_27 (c : Dev nD) : k0_off8 c 27#32 = ![(c.val + 32 - 27) % 32, 0, 0] := k0_off8_eq c 26
theorem k0_off8_slot_27 (c : Dev nD) : Rect.unit (s := S32x16x512) (k0_off8 c 27#32) S1x16x256.size (k0_off8_inb c 26) = slot (bwd c 27) 0 := k0_off8_slot c 26
theorem k0_off8_eq_28 (c : Dev nD) : k0_off8 c 28#32 = ![(c.val + 32 - 28) % 32, 0, 0] := k0_off8_eq c 27
theorem k0_off8_slot_28 (c : Dev nD) : Rect.unit (s := S32x16x512) (k0_off8 c 28#32) S1x16x256.size (k0_off8_inb c 27) = slot (bwd c 28) 0 := k0_off8_slot c 27
theorem k0_off8_eq_29 (c : Dev nD) : k0_off8 c 29#32 = ![(c.val + 32 - 29) % 32, 0, 0] := k0_off8_eq c 28
theorem k0_off8_slot_29 (c : Dev nD) : Rect.unit (s := S32x16x512) (k0_off8 c 29#32) S1x16x256.size (k0_off8_inb c 28) = slot (bwd c 29) 0 := k0_off8_slot c 28
theorem k0_off8_eq_30 (c : Dev nD) : k0_off8 c 30#32 = ![(c.val + 32 - 30) % 32, 0, 0] := k0_off8_eq c 29
theorem k0_off8_slot_30 (c : Dev nD) : Rect.unit (s := S32x16x512) (k0_off8 c 30#32) S1x16x256.size (k0_off8_inb c 29) = slot (bwd c 30) 0 := k0_off8_slot c 29
theorem k0_off8_eq_31 (c : Dev nD) : k0_off8 c 31#32 = ![(c.val + 32 - 31) % 32, 0, 0] := k0_off8_eq c 30
theorem k0_off8_slot_31 (c : Dev nD) : Rect.unit (s := S32x16x512) (k0_off8 c 31#32) S1x16x256.size (k0_off8_inb c 30) = slot (bwd c 31) 0 := k0_off8_slot c 30

theorem k0_off9_eq_1 (c : Dev nD) : k0_off9 c 1#32 = ![(c.val + 32 - 1) % 32, 0, 256] := k0_off9_eq c 0
theorem k0_off9_slot_1 (c : Dev nD) : Rect.unit (s := S32x16x512) (k0_off9 c 1#32) S1x16x256.size (k0_off9_inb c 0) = slot (bwd c 1) 1 := k0_off9_slot c 0
theorem k0_off9_eq_2 (c : Dev nD) : k0_off9 c 2#32 = ![(c.val + 32 - 2) % 32, 0, 256] := k0_off9_eq c 1
theorem k0_off9_slot_2 (c : Dev nD) : Rect.unit (s := S32x16x512) (k0_off9 c 2#32) S1x16x256.size (k0_off9_inb c 1) = slot (bwd c 2) 1 := k0_off9_slot c 1
theorem k0_off9_eq_3 (c : Dev nD) : k0_off9 c 3#32 = ![(c.val + 32 - 3) % 32, 0, 256] := k0_off9_eq c 2
theorem k0_off9_slot_3 (c : Dev nD) : Rect.unit (s := S32x16x512) (k0_off9 c 3#32) S1x16x256.size (k0_off9_inb c 2) = slot (bwd c 3) 1 := k0_off9_slot c 2
theorem k0_off9_eq_4 (c : Dev nD) : k0_off9 c 4#32 = ![(c.val + 32 - 4) % 32, 0, 256] := k0_off9_eq c 3
theorem k0_off9_slot_4 (c : Dev nD) : Rect.unit (s := S32x16x512) (k0_off9 c 4#32) S1x16x256.size (k0_off9_inb c 3) = slot (bwd c 4) 1 := k0_off9_slot c 3
theorem k0_off9_eq_5 (c : Dev nD) : k0_off9 c 5#32 = ![(c.val + 32 - 5) % 32, 0, 256] := k0_off9_eq c 4
theorem k0_off9_slot_5 (c : Dev nD) : Rect.unit (s := S32x16x512) (k0_off9 c 5#32) S1x16x256.size (k0_off9_inb c 4) = slot (bwd c 5) 1 := k0_off9_slot c 4
theorem k0_off9_eq_6 (c : Dev nD) : k0_off9 c 6#32 = ![(c.val + 32 - 6) % 32, 0, 256] := k0_off9_eq c 5
theorem k0_off9_slot_6 (c : Dev nD) : Rect.unit (s := S32x16x512) (k0_off9 c 6#32) S1x16x256.size (k0_off9_inb c 5) = slot (bwd c 6) 1 := k0_off9_slot c 5
theorem k0_off9_eq_7 (c : Dev nD) : k0_off9 c 7#32 = ![(c.val + 32 - 7) % 32, 0, 256] := k0_off9_eq c 6
theorem k0_off9_slot_7 (c : Dev nD) : Rect.unit (s := S32x16x512) (k0_off9 c 7#32) S1x16x256.size (k0_off9_inb c 6) = slot (bwd c 7) 1 := k0_off9_slot c 6
theorem k0_off9_eq_8 (c : Dev nD) : k0_off9 c 8#32 = ![(c.val + 32 - 8) % 32, 0, 256] := k0_off9_eq c 7
theorem k0_off9_slot_8 (c : Dev nD) : Rect.unit (s := S32x16x512) (k0_off9 c 8#32) S1x16x256.size (k0_off9_inb c 7) = slot (bwd c 8) 1 := k0_off9_slot c 7
theorem k0_off9_eq_9 (c : Dev nD) : k0_off9 c 9#32 = ![(c.val + 32 - 9) % 32, 0, 256] := k0_off9_eq c 8
theorem k0_off9_slot_9 (c : Dev nD) : Rect.unit (s := S32x16x512) (k0_off9 c 9#32) S1x16x256.size (k0_off9_inb c 8) = slot (bwd c 9) 1 := k0_off9_slot c 8
theorem k0_off9_eq_10 (c : Dev nD) : k0_off9 c 10#32 = ![(c.val + 32 - 10) % 32, 0, 256] := k0_off9_eq c 9
theorem k0_off9_slot_10 (c : Dev nD) : Rect.unit (s := S32x16x512) (k0_off9 c 10#32) S1x16x256.size (k0_off9_inb c 9) = slot (bwd c 10) 1 := k0_off9_slot c 9
theorem k0_off9_eq_11 (c : Dev nD) : k0_off9 c 11#32 = ![(c.val + 32 - 11) % 32, 0, 256] := k0_off9_eq c 10
theorem k0_off9_slot_11 (c : Dev nD) : Rect.unit (s := S32x16x512) (k0_off9 c 11#32) S1x16x256.size (k0_off9_inb c 10) = slot (bwd c 11) 1 := k0_off9_slot c 10
theorem k0_off9_eq_12 (c : Dev nD) : k0_off9 c 12#32 = ![(c.val + 32 - 12) % 32, 0, 256] := k0_off9_eq c 11
theorem k0_off9_slot_12 (c : Dev nD) : Rect.unit (s := S32x16x512) (k0_off9 c 12#32) S1x16x256.size (k0_off9_inb c 11) = slot (bwd c 12) 1 := k0_off9_slot c 11
theorem k0_off9_eq_13 (c : Dev nD) : k0_off9 c 13#32 = ![(c.val + 32 - 13) % 32, 0, 256] := k0_off9_eq c 12
theorem k0_off9_slot_13 (c : Dev nD) : Rect.unit (s := S32x16x512) (k0_off9 c 13#32) S1x16x256.size (k0_off9_inb c 12) = slot (bwd c 13) 1 := k0_off9_slot c 12
theorem k0_off9_eq_14 (c : Dev nD) : k0_off9 c 14#32 = ![(c.val + 32 - 14) % 32, 0, 256] := k0_off9_eq c 13
theorem k0_off9_slot_14 (c : Dev nD) : Rect.unit (s := S32x16x512) (k0_off9 c 14#32) S1x16x256.size (k0_off9_inb c 13) = slot (bwd c 14) 1 := k0_off9_slot c 13
theorem k0_off9_eq_15 (c : Dev nD) : k0_off9 c 15#32 = ![(c.val + 32 - 15) % 32, 0, 256] := k0_off9_eq c 14
theorem k0_off9_slot_15 (c : Dev nD) : Rect.unit (s := S32x16x512) (k0_off9 c 15#32) S1x16x256.size (k0_off9_inb c 14) = slot (bwd c 15) 1 := k0_off9_slot c 14
theorem k0_off9_eq_16 (c : Dev nD) : k0_off9 c 16#32 = ![(c.val + 32 - 16) % 32, 0, 256] := k0_off9_eq c 15
theorem k0_off9_slot_16 (c : Dev nD) : Rect.unit (s := S32x16x512) (k0_off9 c 16#32) S1x16x256.size (k0_off9_inb c 15) = slot (bwd c 16) 1 := k0_off9_slot c 15
theorem k0_off9_eq_17 (c : Dev nD) : k0_off9 c 17#32 = ![(c.val + 32 - 17) % 32, 0, 256] := k0_off9_eq c 16
theorem k0_off9_slot_17 (c : Dev nD) : Rect.unit (s := S32x16x512) (k0_off9 c 17#32) S1x16x256.size (k0_off9_inb c 16) = slot (bwd c 17) 1 := k0_off9_slot c 16
theorem k0_off9_eq_18 (c : Dev nD) : k0_off9 c 18#32 = ![(c.val + 32 - 18) % 32, 0, 256] := k0_off9_eq c 17
theorem k0_off9_slot_18 (c : Dev nD) : Rect.unit (s := S32x16x512) (k0_off9 c 18#32) S1x16x256.size (k0_off9_inb c 17) = slot (bwd c 18) 1 := k0_off9_slot c 17
theorem k0_off9_eq_19 (c : Dev nD) : k0_off9 c 19#32 = ![(c.val + 32 - 19) % 32, 0, 256] := k0_off9_eq c 18
theorem k0_off9_slot_19 (c : Dev nD) : Rect.unit (s := S32x16x512) (k0_off9 c 19#32) S1x16x256.size (k0_off9_inb c 18) = slot (bwd c 19) 1 := k0_off9_slot c 18
theorem k0_off9_eq_20 (c : Dev nD) : k0_off9 c 20#32 = ![(c.val + 32 - 20) % 32, 0, 256] := k0_off9_eq c 19
theorem k0_off9_slot_20 (c : Dev nD) : Rect.unit (s := S32x16x512) (k0_off9 c 20#32) S1x16x256.size (k0_off9_inb c 19) = slot (bwd c 20) 1 := k0_off9_slot c 19
theorem k0_off9_eq_21 (c : Dev nD) : k0_off9 c 21#32 = ![(c.val + 32 - 21) % 32, 0, 256] := k0_off9_eq c 20
theorem k0_off9_slot_21 (c : Dev nD) : Rect.unit (s := S32x16x512) (k0_off9 c 21#32) S1x16x256.size (k0_off9_inb c 20) = slot (bwd c 21) 1 := k0_off9_slot c 20
theorem k0_off9_eq_22 (c : Dev nD) : k0_off9 c 22#32 = ![(c.val + 32 - 22) % 32, 0, 256] := k0_off9_eq c 21
theorem k0_off9_slot_22 (c : Dev nD) : Rect.unit (s := S32x16x512) (k0_off9 c 22#32) S1x16x256.size (k0_off9_inb c 21) = slot (bwd c 22) 1 := k0_off9_slot c 21
theorem k0_off9_eq_23 (c : Dev nD) : k0_off9 c 23#32 = ![(c.val + 32 - 23) % 32, 0, 256] := k0_off9_eq c 22
theorem k0_off9_slot_23 (c : Dev nD) : Rect.unit (s := S32x16x512) (k0_off9 c 23#32) S1x16x256.size (k0_off9_inb c 22) = slot (bwd c 23) 1 := k0_off9_slot c 22
theorem k0_off9_eq_24 (c : Dev nD) : k0_off9 c 24#32 = ![(c.val + 32 - 24) % 32, 0, 256] := k0_off9_eq c 23
theorem k0_off9_slot_24 (c : Dev nD) : Rect.unit (s := S32x16x512) (k0_off9 c 24#32) S1x16x256.size (k0_off9_inb c 23) = slot (bwd c 24) 1 := k0_off9_slot c 23
theorem k0_off9_eq_25 (c : Dev nD) : k0_off9 c 25#32 = ![(c.val + 32 - 25) % 32, 0, 256] := k0_off9_eq c 24
theorem k0_off9_slot_25 (c : Dev nD) : Rect.unit (s := S32x16x512) (k0_off9 c 25#32) S1x16x256.size (k0_off9_inb c 24) = slot (bwd c 25) 1 := k0_off9_slot c 24
theorem k0_off9_eq_26 (c : Dev nD) : k0_off9 c 26#32 = ![(c.val + 32 - 26) % 32, 0, 256] := k0_off9_eq c 25
theorem k0_off9_slot_26 (c : Dev nD) : Rect.unit (s := S32x16x512) (k0_off9 c 26#32) S1x16x256.size (k0_off9_inb c 25) = slot (bwd c 26) 1 := k0_off9_slot c 25
theorem k0_off9_eq_27 (c : Dev nD) : k0_off9 c 27#32 = ![(c.val + 32 - 27) % 32, 0, 256] := k0_off9_eq c 26
theorem k0_off9_slot_27 (c : Dev nD) : Rect.unit (s := S32x16x512) (k0_off9 c 27#32) S1x16x256.size (k0_off9_inb c 26) = slot (bwd c 27) 1 := k0_off9_slot c 26
theorem k0_off9_eq_28 (c : Dev nD) : k0_off9 c 28#32 = ![(c.val + 32 - 28) % 32, 0, 256] := k0_off9_eq c 27
theorem k0_off9_slot_28 (c : Dev nD) : Rect.unit (s := S32x16x512) (k0_off9 c 28#32) S1x16x256.size (k0_off9_inb c 27) = slot (bwd c 28) 1 := k0_off9_slot c 27
theorem k0_off9_eq_29 (c : Dev nD) : k0_off9 c 29#32 = ![(c.val + 32 - 29) % 32, 0, 256] := k0_off9_eq c 28
theorem k0_off9_slot_29 (c : Dev nD) : Rect.unit (s := S32x16x512) (k0_off9 c 29#32) S1x16x256.size (k0_off9_inb c 28) = slot (bwd c 29) 1 := k0_off9_slot c 28
theorem k0_off9_eq_30 (c : Dev nD) : k0_off9 c 30#32 = ![(c.val + 32 - 30) % 32, 0, 256] := k0_off9_eq c 29
theorem k0_off9_slot_30 (c : Dev nD) : Rect.unit (s := S32x16x512) (k0_off9 c 30#32) S1x16x256.size (k0_off9_inb c 29) = slot (bwd c 30) 1 := k0_off9_slot c 29
theorem k0_off9_eq_31 (c : Dev nD) : k0_off9 c 31#32 = ![(c.val + 32 - 31) % 32, 0, 256] := k0_off9_eq c 30
theorem k0_off9_slot_31 (c : Dev nD) : Rect.unit (s := S32x16x512) (k0_off9 c 31#32) S1x16x256.size (k0_off9_inb c 30) = slot (bwd c 31) 1 := k0_off9_slot c 30

end Cert.KernelIdeal.Proto

end
-- ==== Proof.ViewIdx.lean ====
import proofs.«900454_g7700000000000455_dist_matmul_relu_kshard_i_m512_n512_k256_v7x_i32_f32_1_alg».proof.Proof.Sched
import Idealize.ShloMosaic.Lib.ValueIdx
import Idealize.ShloMosaic.Lib.ValueLayout
import Idealize.ShloMosaic.Lib.Pipeline.Value

set_option maxRecDepth 16384

noncomputable section

namespace Cert.KernelIdeal.Proto.ViewIdx

open Cert.KernelIdeal Cert.KernelIdeal.Gen Cert.KernelIdeal.Proto
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Indices -/

/-- Replacing the slot coordinate of (d, r, J) by t gives (t, r, J). -/
theorem atSlot_ix3 (t d : Fin 32) (r : Fin 16) (J : Fin 512) : atSlot t (ix3 d r J) = ix3 t r J := by
  funext a
  match a with
  | ⟨0, _⟩ => rfl
  | ⟨1, _⟩ => rfl
  | ⟨2, _⟩ => rfl

/-- Slot d of what device c gathers is slot c of the product of the device d places before c. -/
theorem gathC_apply (c : Dev nD) (d : Fin 32) (r : Fin 16) (J : Fin 512) :
    gathC m c (ix3 d r J) = partC m (bwd c d) (ix3 c r J) := by
  unfold gathC
  show partC m (bwd c d) (atSlot c (ix3 d r J)) = _
  rw [atSlot_ix3]

/-- The device itself is the device 0 places before it. -/
theorem bwd_zero (c : Dev nD) : bwd c (0 : Fin 32) = c := by
  apply Fin.ext; have hc : c.val < 32 := c.isLt
  show (c.val + 32 - 0) % 32 = c.val; omega

/-! ## The body's second store: slot 0 of the gathering buffer

The value stored is the load of one slot of the product buffer passed through two shape casts, [1, 16, 512] to
[16, 512] and back; entry (u, r, j) of the result is entry (u, r, j) of the load. -/

/-- Dropping and restoring a leading unit axis leaves every entry where it was. -/
theorem pay2_apply (v : Vec F S1x16x512 .bf16) (u : Fin 1) (r : Fin 16) (j : Fin 512) :
    k0_pay2 v (ix3 u r j) = v (ix3 u r j) := by
  unfold k0_pay2
  refine (shapeCast_ab_1ab_apply _ _ u r j).trans ?_
  refine (shapeCast_1ab_ab_apply _ _ r j).trans ?_
  have hu : u = 0 := Fin.ext (by omega)
  rw [hu]

/-- Slot 0 of the gathering buffer after the body's first two stores: the device's own slot of its own product. -/
theorem gath0_eq (c : Dev nD) (s1 : Scr F) (i : S32x16x512.Idx) (hi : i ∈ (slot 0 0).set ∪ (slot 0 1).set) :
    ((View.whole cc0_scratch1).writes (Elt F) s1
      [⟨Rect.unit (s := S32x16x512) ![0, 0, 0] S1x16x512.size inb_S32x16x512_S1x16x512_0_0_0,
        k0_pay2 (View.readAt (Elt F) (Memref.whole cc0_scratch0 : Memref sig .tc .vmem S32x16x512 .bf16).view
          (Rect.unit (s := S32x16x512) (k0_off1 c) S1x16x512.size (k0_off1_inb c)).toLoadRect (partC m c))⟩]) i = gathC m c i := by
  have h0 : (i 0).val = 0 := by
    rcases Finset.mem_union.mp hi with h | h
    · exact (mem_slot.mp h).1
    · exact (mem_slot.mp h).1
  obtain ⟨a, r, j, rfl⟩ : ∃ (a : Fin 32) (r : Fin 16) (j : Fin 512), i = ix3 a r j := ⟨i 0, i 1, i 2, eq_ix3 i⟩
  have ha : a = 0 := Fin.ext h0
  subst ha
  rw [View.writes_singleton, gathC_apply, bwd_zero]
  have hemb : ((View.whole cc0_scratch1).slice (Rect.unit (s := S32x16x512) ![0, 0, 0] S1x16x512.size inb_S32x16x512_S1x16x512_0_0_0)).emb
      (ix3 (0 : Fin 1) r j) = ix3 (0 : Fin 32) r j := by
    funext b
    refine Fin.ext ?_
    match b with
    | ⟨0, _⟩ => show 0 + 1 * 0 = 0; omega
    | ⟨1, _⟩ => show 0 + 1 * r.val = r.val; omega
    | ⟨2, _⟩ => show 0 + 1 * j.val = j.val; omega
  refine ((congrArg _ hemb.symm).trans (View.write_emb_of_mem _ _ (Finset.mem_univ _))).trans ?_
  refine (cast_eq _ _).trans ?_
  refine (pay2_apply _ 0 r j).trans ?_
  rw [View.readAt_apply, View.read_apply]
  refine (cast_eq _ _).trans ?_
  refine congrArg (partC m c) ?_
  funext b
  refine Fin.ext ?_
  have e := k0_off1_eq c
  match b with
  | ⟨0, _⟩ =>
    have e0 : k0_off1 c 0 = c.val := congrFun e 0
    show k0_off1 c 0 + 1 * 0 = c.val
    omega
  | ⟨1, _⟩ =>
    have e1 : k0_off1 c 1 = 0 := congrFun e 1
    show k0_off1 c 1 + 1 * r.val = r.val
    omega
  | ⟨2, _⟩ =>
    have e2 : k0_off1 c 2 = 0 := congrFun e 2
    show k0_off1 c 2 + 1 * j.val = j.val
    omega

/-! ## A half slot seen as a 16 × 256 view

A copy moves half a slot, seen as a 16 × 256 block: entry (r, j) of the block is entry (t, r, 256 h + j) of the
buffer. -/

/-- Half h of slot t of a scratch buffer as the 16 × 256 block a copy moves. -/
abbrev half (M : Memref sig .tc .vmem S32x16x512 .bf16) (t : Fin 32) (h : Fin 2) : Memref sig .tc .vmem S16x256 .bf16 :=
  (M.slice (slot t h) (fun _ => rfl)).squeeze S16x256 squeezes_S1x16x256_S16x256

/-- Entry (r, j) of half h of slot t, seen 16 × 256, is entry (t, r, 256 h + j) of the buffer. -/
theorem slot_emb (t : Fin 32) (h : Fin 2) (r : Fin 16) (j : Fin 256) (J : Fin 512) (hJ : J.val = 256 * h.val + j.val)
    (hn : S16x256.numel = (slot t h).shape.numel) :
    (slot t h).emb (Shape.reshapeEquiv hn (ix2 r j)) = ix3 t r J := by
  have e : Shape.reshapeEquiv hn (ix2 r j) = ix3 (⟨0, Nat.one_pos⟩ : Fin 1) r j :=
    reshapeEquiv_ix2_1ab (a := 16) (b := 256) hn r j
  rw [e]
  funext b
  refine Fin.ext ?_
  match b with
  | ⟨0, _⟩ => show t.val + 1 * 0 = t.val; omega
  | ⟨1, _⟩ => show 0 + 1 * r.val = r.val; omega
  | ⟨2, _⟩ => show 256 * h.val + 1 * j.val = J.val; omega

theorem half_emb_part (t : Fin 32) (h : Fin 2) (r : Fin 16) (j : Fin 256) (J : Fin 512) (hJ : J.val = 256 * h.val + j.val) :
    (half partM t h).view.emb (ix2 r j) = ix3 t r J := slot_emb t h r j J hJ _
theorem half_emb_gath (t : Fin 32) (h : Fin 2) (r : Fin 16) (j : Fin 256) (J : Fin 512) (hJ : J.val = 256 * h.val + j.val) :
    (half gathM t h).view.emb (ix2 r j) = ix3 t r J := slot_emb t h r j J hJ _
theorem half_emb_res (t : Fin 32) (h : Fin 2) (r : Fin 16) (j : Fin 256) (J : Fin 512) (hJ : J.val = 256 * h.val + j.val) :
    (half resM t h).view.emb (ix2 r j) = ix3 t r J := slot_emb t h r j J hJ _

/-- The elements a half slot's block covers are the half slot's. -/
theorem half_set_part (t : Fin 32) (h : Fin 2) : (half partM t h).view.set = (slot t h).set :=
  (View.set_reshape _ _).trans (View.set_slice_whole cc0_scratch0 (slot t h))
theorem half_set_gath (t : Fin 32) (h : Fin 2) : (half gathM t h).view.set = (slot t h).set :=
  (View.set_reshape _ _).trans (View.set_slice_whole cc0_scratch1 (slot t h))
theorem half_set_res (t : Fin 32) (h : Fin 2) : (half resM t h).view.set = (slot t h).set :=
  (View.set_reshape _ _).trans (View.set_slice_whole cc0_scratch2 (slot t h))

/-- An element of half h of slot t is (t, r, 256 h + j) for a row r and a column j of the block. -/
theorem exists_of_mem_slot {t : Fin 32} {h : Fin 2} {i : S32x16x512.Idx} (hi : i ∈ (slot t h).set) :
    ∃ (r : Fin 16) (j : Fin 256) (J : Fin 512), J.val = 256 * h.val + j.val ∧ i = ix3 t r J := by
  obtain ⟨h0, lo, hi2⟩ := mem_slot.mp hi
  refine ⟨i 1, ⟨(i 2).val - 256 * h.val, by omega⟩, i 2, by show (i 2).val = 256 * h.val + ((i 2).val - 256 * h.val); omega, ?_⟩
  refine (eq_ix3 i).trans ?_
  have e0 : (i 0 : Fin 32) = t := Fin.ext h0
  exact congrArg (fun a : Fin 32 => ix3 a (i 1) (i 2)) e0

/-! ## Where the copies land -/

/-- A first-round copy: device c sends half h of slot (c + d) of its product to slot d of the gathering buffer of
    device c + d, which gathers there the slot of the device d places before it: device c. -/
theorem land1 (c : Dev nD) (h : Fin 2) (d : Fin 32) (fd : Scr F) :
    ∀ i ∈ (half gathM d h).view.set,
      (half gathM d h).view.write (Elt F) fd ((half partM (fwd c d) h).view.read (Elt F) (partC m c)) Finset.univ i
        = gathC m (fwd c d) i := by
  intro i hi
  rw [half_set_gath] at hi
  obtain ⟨r, j, J, hJ, rfl⟩ := exists_of_mem_slot hi
  rw [gathC_apply, bwd_fwd]
  refine ((congrArg _ (half_emb_gath d h r j J hJ).symm).trans (View.write_emb_of_mem _ _ (Finset.mem_univ _))).trans ?_
  refine (cast_eq _ _).trans ?_
  rw [View.read_apply]
  refine (cast_eq _ _).trans ?_
  exact congrArg (partC m c) (half_emb_part (fwd c d) h r j J hJ)

/-- A second-round copy: device c sends half h of its own result slot to the same slot of a peer's result buffer. -/
theorem land2 (c : Dev nD) (h : Fin 2) (fd : Scr F) :
    ∀ i ∈ (half resM c h).view.set,
      (half resM c h).view.write (Elt F) fd ((half resM c h).view.read (Elt F) (resC m)) Finset.univ i = resC m i := by
  intro i hi
  rw [half_set_res] at hi
  obtain ⟨r, j, J, hJ, rfl⟩ := exists_of_mem_slot hi
  refine ((congrArg _ (half_emb_res c h r j J hJ).symm).trans (View.write_emb_of_mem _ _ (Finset.mem_univ _))).trans ?_
  refine (cast_eq _ _).trans ?_
  rw [View.read_apply]
  refine (cast_eq _ _).trans ?_
  exact congrArg (resC m) (half_emb_res c h r j J hJ)

/-- info: 'Cert.KernelIdeal.Proto.ViewIdx.gath0_eq' depends on axioms: [propext, Classical.choice, Quot.sound] -/
#guard_msgs in #print axioms gath0_eq
/-- info: 'Cert.KernelIdeal.Proto.ViewIdx.land1' depends on axioms: [propext, Classical.choice, Quot.sound] -/
#guard_msgs in #print axioms land1
/-- info: 'Cert.KernelIdeal.Proto.ViewIdx.land2' depends on axioms: [propext, Classical.choice, Quot.sound] -/
#guard_msgs in #print axioms land2

end Cert.KernelIdeal.Proto.ViewIdx

end
-- ==== Proof.Steps.lean ====
import proofs.«900454_g7700000000000455_dist_matmul_relu_kshard_i_m512_n512_k256_v7x_i32_f32_1_alg».proof.Proof.Gen.KernelIdeal
import proofs.«900454_g7700000000000455_dist_matmul_relu_kshard_i_m512_n512_k256_v7x_i32_f32_1_alg».proof.Proof.Gen.KernelIdeal.Skeleton
import proofs.«900454_g7700000000000455_dist_matmul_relu_kshard_i_m512_n512_k256_v7x_i32_f32_1_alg».proof.Proof.Gen.KernelIdeal.Launch
import proofs.«900454_g7700000000000455_dist_matmul_relu_kshard_i_m512_n512_k256_v7x_i32_f32_1_alg».proof.Proof.Data
import proofs.«900454_g7700000000000455_dist_matmul_relu_kshard_i_m512_n512_k256_v7x_i32_f32_1_alg».proof.Proof.Give
import proofs.«900454_g7700000000000455_dist_matmul_relu_kshard_i_m512_n512_k256_v7x_i32_f32_1_alg».proof.Proof.DevTab
import proofs.«900454_g7700000000000455_dist_matmul_relu_kshard_i_m512_n512_k256_v7x_i32_f32_1_alg».proof.Proof.ViewIdx
import Idealize.ShloMosaic.Lib.Pipeline.Launch
import Idealize.ShloMosaic.Lib.Pipeline.Kit
import Idealize.ShloMosaic.Lib.Tactic

set_option maxRecDepth 16384

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ)

/-! ## One first-round copy -/

/-- The source of the first-round copy `(h, d)`: half `h` of slot `fwd c d` of the product buffer. -/
abbrev src1 (c : Dev nD) (h : Fin 2) (d : Fin 32) : Memref sig .tc .vmem S16x256 .bf16 :=
  ((partM : Memref sig .tc .vmem S32x16x512 .bf16).slice (slot (fwd c d) h) (fun _ => rfl)).squeeze S16x256 squeezes_S1x16x256_S16x256
/-- Its destination: half `h` of slot `d` of the gathering buffer (of the device `d` places on). -/
abbrev dst1 (h : Fin 2) (d : Fin 32) : Memref sig .tc .vmem S16x256 .bf16 :=
  ((gathM : Memref sig .tc .vmem S32x16x512 .bf16).slice (slot d h) (fun _ => rfl)).squeeze S16x256 squeezes_S1x16x256_S16x256

theorem src1_set (c : Dev nD) (h : Fin 2) (d : Fin 32) : (src1 c h d).view.set = (slot (fwd c d) h).set := by
  show (((View.whole cc0_scratch0).slice (slot (fwd c d) h)).reshape _ _).set = _
  rw [View.set_reshape, View.set_slice_whole]
theorem dst1_set (h : Fin 2) (d : Fin 32) : (dst1 h d).view.set = (slot d h).set := by
  show (((View.whole cc0_scratch1).slice (slot d h)).reshape _ _).set = _
  rw [View.set_reshape, View.set_slice_whole]

theorem landing1 (c : Dev nD) (h : Fin 2) (d : Fin 32) (fd : Scr F) :
    ∀ i ∈ (dst1 h d).view.set, (dst1 h d).view.write (Elt F) fd ((src1 c h d).view.read (Elt F) (partC m c)) Finset.univ i = gathC m (fwd c d) i :=
  ViewIdx.land1 m c h d fd

set_option maxHeartbeats 1000000 in
theorem send1_step (c : Dev nD) (h : Fin 2) (d : Fin 32) (hd : d ≠ 0) (κ₁ κ₂ : ℕ) (fd : Scr F)
    (X : CellTallies nD τ sig Unit) (W : Waits sig Unit)
    {α : Type} (k : PUnit → Prog (TpuEff nD τ sig (Elt F) Λ₀ .tc) α) (Q : α → sProp 𝕄)
    (hsc) (hsrc) (hdst) (hsem) :
    iprop(cellInv ER (sched m) κ₁ (sendCell c h d) ∗ cellInv ER (sched m) κ₂ (recv1Cell (fwd c d) h d)
        ∗ partPts c (fwd c d) h fullShare (partC m c) ∗ gathPts (fwd c d) d h fullShare fd
        ∗ owes (c : Thread nD τ) (X + tallyAt (recv1Cell (fwd c d) h d) () N) W
        ∗ dutyTok ER (sendCell c h d) 0 (0 : Fin 32) ∗ reached ER (sendCell c h d) 0
        ∗ dutyTok ER (recv1Cell (fwd c d) h d) 0 (0 : Fin 32) ∗ reached ER (recv1Cell (fwd c d) h d) 0)
      ⊢ iprop(((cred (tallyAt (sendCell c h d) () N) ∗ owes (c : Thread nD τ) X W) -∗ wp frame (wpE (defs₀ (F := F)) Variants.none c none) Set.univ (k ⟨⟩) Q)
          -∗ wp frame (wpE (defs₀ (F := F)) Variants.none c none) Set.univ
            (.op (.enqueueDma (src1 c h d) (.remote ((fwd c d : Dev nD) : Thread nD τ) (dst1 h d) (.dma (semAt cc0_scratch3 h d)) hsc) (.dma (semAt cc0_scratch4 h d)) hsrc hdst hsem) k) Q) := by
  have hp1 : ((src1 c h d).view.loc (c : Thread nD τ) ↦[(src1 c h d).view.set]{fullShare} partC m c : sProp 𝕄)
      ⊢ (sched m).payload (sendCell c h d) 0 (0 : Fin 32) := by
    rw [payload_send0, src1_set]; exact .rfl
  have hp2 : ((dst1 h d).view.loc ((fwd c d : Dev nD) : Thread nD τ) ↦[(dst1 h d).view.set]{fullShare}
        ((dst1 h d).view.write (Elt F) fd ((src1 c h d).view.read (Elt F) (partC m c)) Finset.univ) : sProp 𝕄)
      ⊢ (sched m).payload (recv1Cell (fwd c d) h d) 0 (0 : Fin 32) := by
    rw [payload_recv1]
    unfold gathPts
    rw [← dst1_set h d]
    exact Entails.of_eq (BI.Region.is_congr (landing1 m c h d fd))
  unfold partPts gathPts
  rw [← src1_set c h d, ← dst1_set h d]
  exact Rounds.wp_send_pointsTo (Q := Q) (W := W) (Es := Set.univ) Variants.none ER (sched m) (c : Thread nD τ) none (c' := ((fwd c d : Dev nD) : Thread nD τ))
    (src := src1 c h d) (dst := dst1 h d) (hsc := hsc) (hsrc := hsrc) (hdst := hdst) (hsem := hsem) (k := k) (q := fullShare)
    (fs := partC m c) (fd := fd) (κ₁ := κ₁) (κ₂ := κ₂)
    (by rw [duties_send m c h d hd 0, if_pos (Or.inl rfl)]; exact Finset.mem_singleton_self _)
    (by rw [duties_recv1 m (fwd c d) h d hd 0, if_pos rfl]; exact Finset.mem_singleton_self _)
    () () N rfl (amount_send m c h d 0 0) (amount_recv1 m (fwd c d) h d 0 0) X rfl hp1 hp2

/-- `send1_step` at the program's own spelling of the source rectangle and of the peer. -/
theorem send1_step' (c : Dev nD) (h : Fin 2) (d : Fin 32) (hd : d ≠ 0) (κ₁ κ₂ : ℕ) (fd : Scr F)
    (X : CellTallies nD τ sig Unit) (W : Waits sig Unit)
    {α : Type} (k : PUnit → Prog (TpuEff nD τ sig (Elt F) Λ₀ .tc) α) (Q : α → sProp 𝕄)
    (off : Fin 3 → Nat) (hoff : off = ![(fwd c d).val, 0, 256 * h.val]) (inb : ∀ a, off a + S1x16x256.size a ≤ S32x16x512.size a)
    (hst : ∀ a, (Rect.unit (s := S32x16x512) off S1x16x256.size inb).stride a = 1) (dev : Dev nD) (hdev : dev = fwd c d)
    (hsc) (hsrc) (hdst) (hsem) :
    iprop(cellInv ER (sched m) κ₁ (sendCell c h d) ∗ cellInv ER (sched m) κ₂ (recv1Cell (fwd c d) h d)
        ∗ partPts c (fwd c d) h fullShare (partC m c) ∗ gathPts (fwd c d) d h fullShare fd
        ∗ owes (c : Thread nD τ) (X + tallyAt (recv1Cell (fwd c d) h d) () N) W
        ∗ dutyTok ER (sendCell c h d) 0 (0 : Fin 32) ∗ reached ER (sendCell c h d) 0
        ∗ dutyTok ER (recv1Cell (fwd c d) h d) 0 (0 : Fin 32) ∗ reached ER (recv1Cell (fwd c d) h d) 0)
      ⊢ iprop(((cred (tallyAt (sendCell c h d) () N) ∗ owes (c : Thread nD τ) X W) -∗ wp frame (wpE (defs₀ (F := F)) Variants.none c none) Set.univ (k ⟨⟩) Q)
          -∗ wp frame (wpE (defs₀ (F := F)) Variants.none c none) Set.univ
            (.op (.enqueueDma (((partM : Memref sig .tc .vmem S32x16x512 .bf16).slice (Rect.unit (s := S32x16x512) off S1x16x256.size inb) hst).squeeze S16x256 squeezes_S1x16x256_S16x256)
              (.remote ((dev : Dev nD) : Thread nD τ) (dst1 h d) (.dma (semAt cc0_scratch3 h d)) hsc) (.dma (semAt cc0_scratch4 h d)) hsrc hdst hsem) k) Q) := by
  subst hoff; subst hdev
  exact send1_step m c h d hd κ₁ κ₂ fd X W k Q hsc hsrc hdst hsem

/-! ## One second-round copy -/

/-- Source and destination of the second-round copy `(h, d)`: half `h` of the device's own result slot, here and on the device `d` places on. -/
abbrev own2 (c : Dev nD) (h : Fin 2) : Memref sig .tc .vmem S16x256 .bf16 :=
  ((resM : Memref sig .tc .vmem S32x16x512 .bf16).slice (slot c h) (fun _ => rfl)).squeeze S16x256 squeezes_S1x16x256_S16x256

theorem own2_set (c : Dev nD) (h : Fin 2) : (own2 c h).view.set = (slot c h).set := by
  show (((View.whole cc0_scratch2).slice (slot c h)).reshape _ _).set = _
  rw [View.set_reshape, View.set_slice_whole]

theorem landing2 (c : Dev nD) (h : Fin 2) (fd : Scr F) :
    ∀ i ∈ (own2 c h).view.set, (own2 c h).view.write (Elt F) fd ((own2 c h).view.read (Elt F) (resC m)) Finset.univ i = resC m i :=
  ViewIdx.land2 m c h fd

set_option maxHeartbeats 1000000 in
theorem send2_step (c : Dev nD) (h : Fin 2) (d : Fin 32) (hd : d ≠ 0) (κ₁ κ₂ : ℕ) (fd : Scr F)
    (X : CellTallies nD τ sig Unit) (W : Waits sig Unit)
    {α : Type} (k : PUnit → Prog (TpuEff nD τ sig (Elt F) Λ₀ .tc) α) (Q : α → sProp 𝕄)
    (hsc) (hsrc) (hdst) (hsem) :
    iprop(cellInv ER (sched m) κ₁ (sendCell c h d) ∗ cellInv ER (sched m) κ₂ (recv2Cell (fwd c d) h d)
        ∗ resPts c c h (sendShr d.val) (resC m) ∗ resPts (fwd c d) c h fullShare fd
        ∗ owes (c : Thread nD τ) (X + tallyAt (recv2Cell (fwd c d) h d) () N) W
        ∗ dutyTok ER (sendCell c h d) 1 (0 : Fin 32) ∗ reached ER (sendCell c h d) 1
        ∗ dutyTok ER (recv2Cell (fwd c d) h d) 0 (0 : Fin 32) ∗ reached ER (recv2Cell (fwd c d) h d) 0)
      ⊢ iprop(((cred (tallyAt (sendCell c h d) () N) ∗ owes (c : Thread nD τ) X W) -∗ wp frame (wpE (defs₀ (F := F)) Variants.none c none) Set.univ (k ⟨⟩) Q)
          -∗ wp frame (wpE (defs₀ (F := F)) Variants.none c none) Set.univ
            (.op (.enqueueDma (own2 c h) (.remote ((fwd c d : Dev nD) : Thread nD τ) (own2 c h) (.dma (semAt cc0_scratch3 h d)) hsc) (.dma (semAt cc0_scratch5 h d)) hsrc hdst hsem) k) Q) := by
  have hp1 : ((own2 c h).view.loc (c : Thread nD τ) ↦[(own2 c h).view.set]{sendShr d.val} resC m : sProp 𝕄)
      ⊢ (sched m).payload (sendCell c h d) 1 (0 : Fin 32) := by
    rw [payload_send1, own2_set]; exact .rfl
  have hp2 : ((own2 c h).view.loc ((fwd c d : Dev nD) : Thread nD τ) ↦[(own2 c h).view.set]{fullShare}
        ((own2 c h).view.write (Elt F) fd ((own2 c h).view.read (Elt F) (resC m)) Finset.univ) : sProp 𝕄)
      ⊢ (sched m).payload (recv2Cell (fwd c d) h d) 0 (0 : Fin 32) := by
    rw [payload_recv2, bwd_fwd]
    unfold resPts
    rw [← own2_set c h]
    exact Entails.of_eq (BI.Region.is_congr (landing2 m c h fd))
  unfold resPts
  rw [← own2_set c h]
  exact Rounds.wp_send_pointsTo (Q := Q) (W := W) (Es := Set.univ) Variants.none ER (sched m) (c : Thread nD τ) none (c' := ((fwd c d : Dev nD) : Thread nD τ))
    (src := own2 c h) (dst := own2 c h) (hsc := hsc) (hsrc := hsrc) (hdst := hdst) (hsem := hsem) (k := k) (q := sendShr d.val)
    (fs := resC m) (fd := fd) (κ₁ := κ₁) (κ₂ := κ₂)
    (by rw [duties_send m c h d hd 1, if_pos (Or.inr rfl)]; exact Finset.mem_singleton_self _)
    (by rw [duties_recv2 m (fwd c d) h d hd 0, if_pos rfl]; exact Finset.mem_singleton_self _)
    () () N rfl (amount_send m c h d 1 0) (amount_recv2 m (fwd c d) h d 0 0) X rfl hp1 hp2

/-- `send2_step` at the program's own spelling of the own slot's offset and of the peer. -/
theorem send2_step' (c : Dev nD) (h : Fin 2) (d : Fin 32) (hd : d ≠ 0) (κ₁ κ₂ : ℕ) (fd : Scr F)
    (X : CellTallies nD τ sig Unit) (W : Waits sig Unit)
    {α : Type} (k : PUnit → Prog (TpuEff nD τ sig (Elt F) Λ₀ .tc) α) (Q : α → sProp 𝕄)
    (off : Fin 3 → Nat) (hoff : off = ![c.val, 0, 256 * h.val]) (inb inb' : ∀ a, off a + S1x16x256.size a ≤ S32x16x512.size a)
    (hst : ∀ a, (Rect.unit (s := S32x16x512) off S1x16x256.size inb).stride a = 1)
    (hst' : ∀ a, (Rect.unit (s := S32x16x512) off S1x16x256.size inb').stride a = 1) (dev : Dev nD) (hdev : dev = fwd c d)
    (hsc) (hsrc) (hdst) (hsem) :
    iprop(cellInv ER (sched m) κ₁ (sendCell c h d) ∗ cellInv ER (sched m) κ₂ (recv2Cell (fwd c d) h d)
        ∗ resPts c c h (sendShr d.val) (resC m) ∗ resPts (fwd c d) c h fullShare fd
        ∗ owes (c : Thread nD τ) (X + tallyAt (recv2Cell (fwd c d) h d) () N) W
        ∗ dutyTok ER (sendCell c h d) 1 (0 : Fin 32) ∗ reached ER (sendCell c h d) 1
        ∗ dutyTok ER (recv2Cell (fwd c d) h d) 0 (0 : Fin 32) ∗ reached ER (recv2Cell (fwd c d) h d) 0)
      ⊢ iprop(((cred (tallyAt (sendCell c h d) () N) ∗ owes (c : Thread nD τ) X W) -∗ wp frame (wpE (defs₀ (F := F)) Variants.none c none) Set.univ (k ⟨⟩) Q)
          -∗ wp frame (wpE (defs₀ (F := F)) Variants.none c none) Set.univ
            (.op (.enqueueDma (((resM : Memref sig .tc .vmem S32x16x512 .bf16).slice (Rect.unit (s := S32x16x512) off S1x16x256.size inb) hst).squeeze S16x256 squeezes_S1x16x256_S16x256)
              (.remote ((dev : Dev nD) : Thread nD τ)
                (((resM : Memref sig .tc .vmem S32x16x512 .bf16).slice (Rect.unit (s := S32x16x512) off S1x16x256.size inb') hst').squeeze S16x256 squeezes_S1x16x256_S16x256)
                (.dma (semAt cc0_scratch3 h d)) hsc) (.dma (semAt cc0_scratch5 h d)) hsrc hdst hsem) k) Q) := by
  subst hoff; subst hdev
  exact send2_step m c h d hd κ₁ κ₂ fd X W k Q hsc hsrc hdst hsem

/-! ## The waits -/

theorem rest_recv1 (c : Dev nD) (h : Fin 2) (d : Fin 32) (hd : d ≠ 0) :
    bigSep ((sched (F := F) m).duties (recv1Cell c h d) 0 \ ∅) (fun j => (sched (F := F) m).payload (recv1Cell c h d) 0 j) = gathPts c d h fullShare (gathC m c) := by
  rw [duties_recv1 m c h d hd 0, if_pos rfl, Finset.sdiff_empty, bigSep_singleton, payload_recv1]
theorem rest_recv2 (c : Dev nD) (h : Fin 2) (d : Fin 32) (hd : d ≠ 0) :
    bigSep ((sched (F := F) m).duties (recv2Cell c h d) 0 \ ∅) (fun j => (sched (F := F) m).payload (recv2Cell c h d) 0 j) = resPts c (bwd c d) h fullShare (resC m) := by
  rw [duties_recv2 m c h d hd 0, if_pos rfl, Finset.sdiff_empty, bigSep_singleton, payload_recv2]
theorem rest_send0 (c : Dev nD) (h : Fin 2) (d : Fin 32) (hd : d ≠ 0) :
    bigSep ((sched (F := F) m).duties (sendCell c h d) 0 \ ∅) (fun j => (sched (F := F) m).payload (sendCell c h d) 0 j) = partPts c (fwd c d) h fullShare (partC m c) := by
  rw [duties_send m c h d hd 0, if_pos (Or.inl rfl), Finset.sdiff_empty, bigSep_singleton, payload_send0]
theorem rest_send1 (c : Dev nD) (h : Fin 2) (d : Fin 32) (hd : d ≠ 0) :
    bigSep ((sched (F := F) m).duties (sendCell c h d) 1 \ ∅) (fun j => (sched (F := F) m).payload (sendCell c h d) 1 j) = resPts c c h (sendShr d.val) (resC m) := by
  rw [duties_send m c h d hd 1, if_pos (Or.inr rfl), Finset.sdiff_empty, bigSep_singleton, payload_send1]

/-- The wait for the first-round copy `(h, d)` to land: slot `d` of the gathering buffer then holds the sender's part. -/
theorem wait_recv1_step (c : Dev nD) (h : Fin 2) (d : Fin 32) (hd : d ≠ 0) (κ : ℕ)
    (X : CellTallies nD τ sig Unit) (W : Waits sig Unit)
    {α : Type} (k : PUnit → Prog (TpuEff nD τ sig (Elt F) Λ₀ .tc) α) (Q : α → sProp 𝕄)
    (src dst : Memref sig .tc .vmem S16x256 .bf16) (hsrc) (hdst) (hcr : dst.view.dmaCredit = N) :
    iprop(cellInv ER (sched m) κ (recv1Cell c h d) ∗ cred (tallyAt (recv1Cell c h d) () N) ∗ owes (c : Thread nD τ) X W
        ∗ MayWait (c : Thread nD τ) (.dma (semAt cc0_scratch4 h d)) () X ∗ atPos ER (recv1Cell c h d) 0 ∅ 0)
      ⊢ iprop(((owes (c : Thread nD τ) X (insert (SemLoc.dma (semAt cc0_scratch4 h d), ()) W)
              ∗ atPos ER (recv1Cell c h d) 1 ∅ 0 ∗ reached ER (recv1Cell c h d) 1 ∗ gathPts c d h fullShare (gathC m c))
            -∗ wp frame (wpE (defs₀ (F := F)) Variants.none c none) Set.univ (k ⟨⟩) Q)
          -∗ wp frame (wpE (defs₀ (F := F)) Variants.none c none) Set.univ (.op (.waitDma2 (semAt cc0_scratch4 h d) src dst hsrc hdst) k) Q) := by
  rw [← rest_recv1 m c h d hd]
  exact Rounds.wp_wait_rest_token (Q := Q) Variants.none ER (sched m) (c : Thread nD τ) none (κ := κ)
    (fun K => (wpE_waitDma2_eq Variants.none (c : Thread nD τ) none Set.univ K).trans (by rw [hcr])) (Set.mem_univ _) () (O := X) (W := W) (R := 0) (m := 0) (T := ∅)
    (by rw [expect_recv1 m c h d hd]; exact Nat.zero_add _)

/-- The wait for the second-round copy `(h, d)` to land: the sender's result slot is there. -/
theorem wait_recv2_step (c : Dev nD) (h : Fin 2) (d : Fin 32) (hd : d ≠ 0) (κ : ℕ)
    (X : CellTallies nD τ sig Unit) (W : Waits sig Unit)
    {α : Type} (k : PUnit → Prog (TpuEff nD τ sig (Elt F) Λ₀ .tc) α) (Q : α → sProp 𝕄)
    (src dst : Memref sig .tc .vmem S16x256 .bf16) (hsrc) (hdst) (hcr : dst.view.dmaCredit = N) :
    iprop(cellInv ER (sched m) κ (recv2Cell c h d) ∗ cred (tallyAt (recv2Cell c h d) () N) ∗ owes (c : Thread nD τ) X W
        ∗ MayWait (c : Thread nD τ) (.dma (semAt cc0_scratch5 h d)) () X ∗ atPos ER (recv2Cell c h d) 0 ∅ 0)
      ⊢ iprop(((owes (c : Thread nD τ) X (insert (SemLoc.dma (semAt cc0_scratch5 h d), ()) W)
              ∗ atPos ER (recv2Cell c h d) 1 ∅ 0 ∗ reached ER (recv2Cell c h d) 1 ∗ resPts c (bwd c d) h fullShare (resC m))
            -∗ wp frame (wpE (defs₀ (F := F)) Variants.none c none) Set.univ (k ⟨⟩) Q)
          -∗ wp frame (wpE (defs₀ (F := F)) Variants.none c none) Set.univ (.op (.waitDma2 (semAt cc0_scratch5 h d) src dst hsrc hdst) k) Q) := by
  rw [← rest_recv2 m c h d hd]
  exact Rounds.wp_wait_rest_token (Q := Q) Variants.none ER (sched m) (c : Thread nD τ) none (κ := κ)
    (fun K => (wpE_waitDma2_eq Variants.none (c : Thread nD τ) none Set.univ K).trans (by rw [hcr])) (Set.mem_univ _) () (O := X) (W := W) (R := 0) (m := 0) (T := ∅)
    (by rw [expect_recv2 m c h d hd]; exact Nat.zero_add _)

/-- The wait for the device's own first-round copy `(h, d)` to have been read out: the product slot comes back. -/
theorem wait_send0_step (c : Dev nD) (h : Fin 2) (d : Fin 32) (hd : d ≠ 0) (κ : ℕ)
    (X : CellTallies nD τ sig Unit) (W : Waits sig Unit)
    {α : Type} (k : PUnit → Prog (TpuEff nD τ sig (Elt F) Λ₀ .tc) α) (Q : α → sProp 𝕄)
    (src dst : Memref sig .tc .vmem S16x256 .bf16) (hsrc) (hdst) (hcr : dst.view.dmaCredit = N) :
    iprop(cellInv ER (sched m) κ (sendCell c h d) ∗ cred (tallyAt (sendCell c h d) () N) ∗ owes (c : Thread nD τ) X W
        ∗ MayWait (c : Thread nD τ) (.dma (semAt cc0_scratch3 h d)) () X ∗ atPos ER (sendCell c h d) 0 ∅ 0)
      ⊢ iprop(((owes (c : Thread nD τ) X (insert (SemLoc.dma (semAt cc0_scratch3 h d), ()) W)
              ∗ atPos ER (sendCell c h d) 1 ∅ 0 ∗ reached ER (sendCell c h d) 1 ∗ partPts c (fwd c d) h fullShare (partC m c))
            -∗ wp frame (wpE (defs₀ (F := F)) Variants.none c none) Set.univ (k ⟨⟩) Q)
          -∗ wp frame (wpE (defs₀ (F := F)) Variants.none c none) Set.univ (.op (.waitDma2 (semAt cc0_scratch3 h d) src dst hsrc hdst) k) Q) := by
  rw [← rest_send0 m c h d hd]
  exact Rounds.wp_wait_rest_token (Q := Q) Variants.none ER (sched m) (c : Thread nD τ) none (κ := κ)
    (fun K => (wpE_waitDma2_eq Variants.none (c : Thread nD τ) none Set.univ K).trans (by rw [hcr])) (Set.mem_univ _) () (O := X) (W := W) (R := 0) (m := 0) (T := ∅)
    (by rw [expect_send m c h d hd 0 (Or.inl rfl)]; exact Nat.zero_add _)

/-- The wait for the device's own second-round copy `(h, d)` to have been read out: its share of the result slot comes back. -/
theorem wait_send1_step (c : Dev nD) (h : Fin 2) (d : Fin 32) (hd : d ≠ 0) (κ : ℕ)
    (X : CellTallies nD τ sig Unit) (W : Waits sig Unit)
    {α : Type} (k : PUnit → Prog (TpuEff nD τ sig (Elt F) Λ₀ .tc) α) (Q : α → sProp 𝕄)
    (src dst : Memref sig .tc .vmem S16x256 .bf16) (hsrc) (hdst) (hcr : dst.view.dmaCredit = N) :
    iprop(cellInv ER (sched m) κ (sendCell c h d) ∗ cred (tallyAt (sendCell c h d) () N) ∗ owes (c : Thread nD τ) X W
        ∗ MayWait (c : Thread nD τ) (.dma (semAt cc0_scratch3 h d)) () X ∗ atPos ER (sendCell c h d) 1 ∅ 0)
      ⊢ iprop(((owes (c : Thread nD τ) X (insert (SemLoc.dma (semAt cc0_scratch3 h d), ()) W)
              ∗ atPos ER (sendCell c h d) 2 ∅ 0 ∗ reached ER (sendCell c h d) 2 ∗ resPts c c h (sendShr d.val) (resC m))
            -∗ wp frame (wpE (defs₀ (F := F)) Variants.none c none) Set.univ (k ⟨⟩) Q)
          -∗ wp frame (wpE (defs₀ (F := F)) Variants.none c none) Set.univ (.op (.waitDma2 (semAt cc0_scratch3 h d) src dst hsrc hdst) k) Q) := by
  rw [← rest_send1 m c h d hd]
  exact Rounds.wp_wait_rest_token (Q := Q) Variants.none ER (sched m) (c : Thread nD τ) none (κ := κ)
    (fun K => (wpE_waitDma2_eq Variants.none (c : Thread nD τ) none Set.univ K).trans (by rw [hcr])) (Set.mem_univ _) () (O := X) (W := W) (R := 1) (m := 0) (T := ∅)
    (by rw [expect_send m c h d hd 1 (Or.inr rfl)]; exact Nat.zero_add _)

end Cert.KernelIdeal.Proto
end
-- ==== Proof.Entry.lean ====
import proofs.«900454_g7700000000000455_dist_matmul_relu_kshard_i_m512_n512_k256_v7x_i32_f32_1_alg».proof.Proof.Gen.KernelIdeal
import proofs.«900454_g7700000000000455_dist_matmul_relu_kshard_i_m512_n512_k256_v7x_i32_f32_1_alg».proof.Proof.Gen.KernelIdeal.Skeleton
import proofs.«900454_g7700000000000455_dist_matmul_relu_kshard_i_m512_n512_k256_v7x_i32_f32_1_alg».proof.Proof.Gen.KernelIdeal.Launch
import proofs.«900454_g7700000000000455_dist_matmul_relu_kshard_i_m512_n512_k256_v7x_i32_f32_1_alg».proof.Proof.Data
import proofs.«900454_g7700000000000455_dist_matmul_relu_kshard_i_m512_n512_k256_v7x_i32_f32_1_alg».proof.Proof.Give
import proofs.«900454_g7700000000000455_dist_matmul_relu_kshard_i_m512_n512_k256_v7x_i32_f32_1_alg».proof.Proof.ViewIdx
import Idealize.ShloMosaic.Lib.Pipeline.Launch
import Idealize.ShloMosaic.Lib.Pipeline.Kit
import Idealize.ShloMosaic.Lib.Tactic

set_option maxRecDepth 16384

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ)

abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

instance reachedRecv_persistent (c : Dev nD) : BI.Persistent (reachedRecv (F := F) c) := by unfold reachedRecv; infer_instance

abbrev dev0 : Dev nD := ⟨0, by decide⟩

theorem dev32_eq (c : Dev nD) (h : k0_cond2 c = 1#1) : (⟨k0_dev32, k0_dev32_lt c h⟩ : Dev nD) = dev0 := Fin.ext k0_dev32_eq

theorem give_intro_wand (c : Dev nD) (g1 g2 : Scr F) (R : sProp 𝕄) :
    iprop((((c : Thread nD τ).loc cc0_scratch1) ↦{fullShare} g1) ∗ (((c : Thread nD τ).loc cc0_scratch2) ↦{fullShare} g2) ∗ reachedRecv c
      ∗ (iprop(give c ∗ (bigSep (Finset.univ : Finset (Fin 2)) fun h => gathPts c 0 h fullShare g1)
          ∗ (bigSep (Finset.univ : Finset (Fin 2)) fun h => resPts c c h fullShare g2)) -∗ R)) ⊢ R := by
  iintro ⟨H1, H2, H3, Hk⟩
  iapply Hk
  iapply (give_intro c g1 g2)
  isplitl [H1]; · iexact H1
  isplitl [H2]; · iexact H2
  iexact H3

theorem hz2 : (![0, 0] : Fin 2 → Nat) = fun _ => 0 := funext fun a => by fin_cases a <;> rfl
theorem hz3 : (![0, 0, 0] : Fin 3 → Nat) = fun _ => 0 := funext fun a => by fin_cases a <;> rfl

/-- Slot 0 of the gathering buffer after the body's first two stores: the device's own slot of its own product. -/
theorem gath0_eq (c : Dev nD) (s1 : Scr F) (i : S32x16x512.Idx) (hi : i ∈ (slot 0 0).set ∪ (slot 0 1).set) :
    ((View.whole cc0_scratch1).writes (Elt F) s1
      [⟨Rect.unit (s := S32x16x512) ![0, 0, 0] S1x16x512.size inb_S32x16x512_S1x16x512_0_0_0,
        k0_pay2 (View.readAt (Elt F) (Memref.whole cc0_scratch0 : Memref sig .tc .vmem S32x16x512 .bf16).view
          (Rect.unit (s := S32x16x512) (k0_off1 c) S1x16x512.size (k0_off1_inb c)).toLoadRect (partC m c))⟩]) i = gathC m c i :=
  ViewIdx.gath0_eq m c s1 i hi

/-- What a device other than device 0 holds once it is through the entry handshake. -/
def entryPost (c : Dev nD) (f2 : Buf (Elt F) ((Memref.whole cc0_stg2_0 : Memref sig .tc .vmem S512x512 .f32).view.loc (c : Thread nD τ))) (s1 s2 : Scr F) (W : Waits sig Unit) : sProp 𝕄 :=
  iprop(pt c (Memref.whole cc0_stg0_0) (argBlk0 m c) ∗ pt c (Memref.whole cc0_stg1_0) (argBlk1 m c) ∗ pt c (Memref.whole cc0_stg2_0) f2
    ∗ pt c (Memref.whole cc0_scratch0) (partC m c)
    ∗ (∃ g1 : Scr F, ⌜∀ i ∈ (slot 0 0).set ∪ (slot 0 1).set, g1 i = gathC m c i⌝ ∗ bigSep (Finset.univ : Finset (Fin 2)) fun h => gathPts c 0 h fullShare g1)
    ∗ (bigSep (Finset.univ : Finset (Fin 2)) fun h => resPts c c h fullShare s2)
    ∗ take c
    ∗ atPos ER (barCell c) 1 ∅ 0
    ∗ owes (c : Thread nD τ) (owedRecv2 c + owedRecv1 c) (insert (SemLoc.reg barS, ()) W))

theorem rest_bar (c : Dev nD) (hc : c.val ≠ 0) :
    bigSep ((sched (F := F) m).duties (barCell c) 0 \ ∅) (fun d => (sched (F := F) m).payload (barCell c) 0 d) = take c := by
  rw [duties_bar, if_pos rfl, if_neg hc, Finset.sdiff_empty, bigSep_singleton, payload_bar, if_neg hc]

theorem owedRecv_lv (c : Dev nD) (g : GSem nD τ sig) (i : Unit) (h : 0 < (owedRecv2 c + owedRecv1 c) g i) : i ∈ L g ∧ 3 ≤ lv g i := by
  rcases Pipeline.add_pos_cases h with h2 | h1
  · unfold owedRecv2 at h2
    obtain ⟨hh, -, h2⟩ := Pipeline.sum_pos_exists h2
    obtain ⟨d, -, h2⟩ := Pipeline.sum_pos_exists h2
    rw [tallyAt_apply] at h2
    by_cases e : g = recv2Cell (fwd c d) hh d ∧ i = ()
    · rw [e.1, L_tc]
      refine ⟨Finset.mem_singleton_self _, ?_⟩
      show 3 ≤ lv (recv2Cell (fwd c d) hh d) i
      unfold lv; simp only [semKind_recv2]; decide
    · rw [if_neg e] at h2; exact absurd h2 (Nat.lt_irrefl 0)
  · unfold owedRecv1 at h1
    obtain ⟨hh, -, h1⟩ := Pipeline.sum_pos_exists h1
    obtain ⟨d, -, h1⟩ := Pipeline.sum_pos_exists h1
    rw [tallyAt_apply] at h1
    by_cases e : g = recv1Cell (fwd c d) hh d ∧ i = ()
    · rw [e.1, L_tc]
      refine ⟨Finset.mem_singleton_self _, ?_⟩
      show 3 ≤ lv (recv1Cell (fwd c d) hh d) i
      unfold lv; simp only [semKind_recv1]; decide
    · rw [if_neg e] at h1; exact absurd h1 (Nat.lt_irrefl 0)

theorem mayWait_bar (c : Dev nD) (hc : c.val ≠ 0) :
    (levAts L lv : sProp 𝕄) ⊢ MayWait (c : Thread nD τ) (.reg barS) () (owedRecv2 c + owedRecv1 c) :=
  Pipeline.mayWait_of_levAts (by rw [L_tc]; exact Finset.mem_singleton_self _) fun g i hg => by
    obtain ⟨h1, h2⟩ := owedRecv_lv c g i hg
    refine ⟨h1, lt_of_lt_of_le ?_ h2⟩
    show lv (barCell c) () < 3
    unfold lv; simp only [if_neg hc]; decide

set_option maxHeartbeats 4000000 in
theorem entry_nonzero (c : Dev nD) (hc : c.val ≠ 0) (hc1 : ¬ k0_cond1 (c : Thread nD τ).1 = 1#1) (hc2 : k0_cond2 (c : Thread nD τ).1 = 1#1)
    (K : CellIx → ℕ) (s0 s1 s2 : Scr F)
    (f2 : Buf (Elt F) ((Memref.whole cc0_stg2_0 : Memref sig .tc .vmem S512x512 .f32).view.loc (c : Thread nD τ)))
    (W : Waits sig Unit) (Q : (Σ' (d0 : Dev nD) (v2 : BitVec 32) (v30 : BitVec 32), BitVec 32) → sProp 𝕄) :
    iprop(pt c (Memref.whole cc0_stg0_0) (argBlk0 m c) ∗ pt c (Memref.whole cc0_stg1_0) (argBlk1 m c) ∗ pt c (Memref.whole cc0_stg2_0) f2
      ∗ pt c (Memref.whole cc0_scratch0) s0 ∗ pt c (Memref.whole cc0_scratch1) s1 ∗ pt c (Memref.whole cc0_scratch2) s2
      ∗ cellInv ER (sched m) (K (c, none)) (barCell c) ∗ cellInv ER (sched m) (K (dev0, none)) (barCell dev0)
      ∗ dutyTok ER (barCell dev0) 0 (⟨c.val, c.isLt⟩ : Fin 32) ∗ reached ER (barCell dev0) 0 ∗ reachedRecv c
      ∗ atPos ER (barCell c) 0 ∅ 0 ∗ cred (tallyAt (barCell c) () 1) ∗ levAts L lv
      ∗ owes (c : Thread nD τ) (O₀ c) W
      ∗ (∀ v : (Σ' (d0 : Dev nD) (v2 : BitVec 32) (v30 : BitVec 32), BitVec 32), iprop(⌜v.1 = c⌝ -∗ entryPost m c f2 s1 s2 W -∗ Q v)))
    ⊢ wp frame (wpE (defs₀ (F := F)) Variants.none c none) Set.univ
        (k0_part4 (Memref.whole cc0_stg0_0) (Memref.isWhole_whole _) (Memref.whole cc0_stg1_0) (Memref.isWhole_whole _) (Memref.whole cc0_stg2_0) (Memref.isWhole_whole _)
          (Memref.whole cc0_scratch0) (Memref.isWhole_whole _) (Memref.whole cc0_scratch1) (Memref.isWhole_whole _) (Memref.whole cc0_scratch2) (Memref.isWhole_whole _)
          cc0_scratch3 cc0_scratch4 cc0_scratch5) Q := by
  iintro ⟨H0, H1, H2, Hs0, Hs1, Hs2, #HIc, #HI0, Htok, #Hr0, #Hrr, Hat, Hcr, #Hlev, HO, Hk⟩
  sl_exec
  simp only [dev32_eq]
  iapply (give_intro_wand c _ s2 _)
  isplitl [Hs1]; · iexact Hs1
  isplitl [Hs2]; · iexact Hs2
  isplitr; · iexact Hrr
  iintro ⟨Hgive, HG0, HR0⟩
  iapply (Rounds.wp_signal Variants.none ER (sched m) (c : Thread nD τ) none (dst := (dev0 : Thread nD τ)) (κ := K (dev0, none))
      (d := (⟨c.val, c.isLt⟩ : Fin 32)) (by rw [duties_bar, if_pos rfl, if_pos rfl]; exact Finset.mem_filter.mpr ⟨Finset.mem_univ _, fun e => hc (congrArg Fin.val e)⟩)
      ((amount_bar m dev0 0 _).trans (by decide)) () (owedRecv2 c + owedRecv1 c) (by show O₀ c = _; unfold O₀ owedBar; rw [if_neg hc]; rfl)) $$ [HO Htok Hgive]
  · isplitr; · iexact HI0
    isplitl [HO]; · iexact HO
    isplitl [Htok]; · iexact Htok
    isplitl [Hgive]; · rw [payload_bar, if_pos rfl]; iexact Hgive
    iexact Hr0
  iintro HO
  have hmw := mayWait_bar (F := F) c hc
  sl_exec
  iapply (Rounds.wp_wait_rest_token Variants.none ER (sched m) (c : Thread nD τ) none (κ := K (c, none))
      (wpE_semWait_eq Variants.none (c : Thread nD τ) none Set.univ) (Set.mem_univ _) () (O := owedRecv2 c + owedRecv1 c) (W := W) (R := 0) (m := 0) (T := ∅)
      (by rw [expect_bar, if_neg hc]; decide)) $$ [Hcr HO Hat]
  · isplitr; · iexact HIc
    isplitl [Hcr]; · iexact Hcr
    isplitl [HO]; · iexact HO
    isplitr; · iapply hmw; iexact Hlev
    iexact Hat
  iintro ⟨HO, Hat, #Hr1, Hpay⟩
  ihave Htake := (Entails.of_eq (rest_bar m c hc)) $$ Hpay
  simp only [wp_pure, wp_ret]
  imodintro
  imodintro
  iapply Hk $$ %_
  · ipureintro; rfl
  unfold entryPost
  isplitl [H0]; · iexact H0
  isplitl [H1]; · iexact H1
  isplitl [H2]; · iexact H2
  have e0 : (View.whole cc0_scratch0).writes (Elt F) (View.whole cc0_scratch0).junk (entry_nonzero.sl.Hs0_1 m c) = partC m c := by
    unfold entry_nonzero.sl.Hs0_1
    rw [View.writes_singleton]
    refine (Memref.write_access_unit_zero_univ (Elt F) cc0_scratch0 hz3 _ _ _).trans ?_
    unfold partC
    congr 1
    · exact Memref.readAt_unit_zero (Elt F) cc0_stg0_0 hz2 _ _
    · exact Memref.readAt_unit_zero (Elt F) cc0_stg1_0 hz2 _ _
  isplitl [Hs0]
  · rw [e0]; iexact Hs0
  isplitl [HG0]
  · iexists ((View.whole cc0_scratch1).writes (Elt F) s1 [⟨Rect.unit (s := S32x16x512) ![0, 0, 0] S1x16x512.size inb_S32x16x512_S1x16x512_0_0_0, k0_pay2 (entry_nonzero.sl.v16 m c)⟩])
    isplitr
    · ipureintro
      intro i hi
      unfold entry_nonzero.sl.v16
      rw [show (Memref.whole cc0_scratch0 : Memref sig .tc .vmem S32x16x512 .bf16).view.writes (Elt F) (Memref.whole cc0_scratch0 : Memref sig .tc .vmem S32x16x512 .bf16).view.junk (entry_nonzero.sl.Hs0_1 m c) = partC m c from e0]
      exact gath0_eq m c s1 i hi
    · iexact HG0
  isplitl [HR0]; · iexact HR0
  isplitl [Htake]; · iexact Htake
  isplitl [Hat]; · iexact Hat
  iexact HO

end Cert.KernelIdeal.Proto
end
-- ==== Proof.Entry0.lean ====
import proofs.«900454_g7700000000000455_dist_matmul_relu_kshard_i_m512_n512_k256_v7x_i32_f32_1_alg».proof.Proof.Gen.KernelIdeal
import proofs.«900454_g7700000000000455_dist_matmul_relu_kshard_i_m512_n512_k256_v7x_i32_f32_1_alg».proof.Proof.Gen.KernelIdeal.Skeleton
import proofs.«900454_g7700000000000455_dist_matmul_relu_kshard_i_m512_n512_k256_v7x_i32_f32_1_alg».proof.Proof.Gen.KernelIdeal.Launch
import proofs.«900454_g7700000000000455_dist_matmul_relu_kshard_i_m512_n512_k256_v7x_i32_f32_1_alg».proof.Proof.Data
import proofs.«900454_g7700000000000455_dist_matmul_relu_kshard_i_m512_n512_k256_v7x_i32_f32_1_alg».proof.Proof.Give
import proofs.«900454_g7700000000000455_dist_matmul_relu_kshard_i_m512_n512_k256_v7x_i32_f32_1_alg».proof.Proof.Entry
import proofs.«900454_g7700000000000455_dist_matmul_relu_kshard_i_m512_n512_k256_v7x_i32_f32_1_alg».proof.Proof.Regroup
import proofs.«900454_g7700000000000455_dist_matmul_relu_kshard_i_m512_n512_k256_v7x_i32_f32_1_alg».proof.Proof.DevTab
import proofs.«900454_g7700000000000455_dist_matmul_relu_kshard_i_m512_n512_k256_v7x_i32_f32_1_alg».proof.Proof.ViewIdx
import Idealize.ShloMosaic.Lib.Pipeline.Launch
import Idealize.ShloMosaic.Lib.Pipeline.Kit
import Idealize.ShloMosaic.Lib.Tactic

set_option maxRecDepth 16384

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ)

/-! ## The places device 0 has still to signal -/

/-- The places above k. -/
def above (k : ℕ) : Finset (Fin 32) := Finset.univ.filter fun i => k < i.val

theorem mem_above {k : ℕ} {j : Fin 32} : j ∈ above k ↔ k < j.val := by
  unfold above; rw [Finset.mem_filter]; exact ⟨fun h => h.2, fun h => ⟨Finset.mem_univ _, h⟩⟩

theorem others_eq_above : others = above 0 := by
  ext j
  rw [mem_above, Finset.mem_filter]
  constructor
  · intro h; exact Nat.pos_of_ne_zero fun e => h.2 (Fin.ext e)
  · intro h; exact ⟨Finset.mem_univ _, fun e => by rw [e] at h; exact Nat.lt_irrefl 0 h⟩

theorem above_erase (k : ℕ) (h : k + 1 < 32) : (above k).erase (⟨k + 1, h⟩ : Fin 32) = above (k + 1) := by
  ext j
  rw [Finset.mem_erase, mem_above, mem_above]
  constructor
  · rintro ⟨hne, hlt⟩
    have : j.val ≠ k + 1 := fun e => hne (Fin.ext e)
    omega
  · intro hlt
    exact ⟨fun e => by rw [e] at hlt; exact Nat.lt_irrefl _ hlt, by omega⟩

theorem above_31 : above 31 = ∅ := by
  ext j
  rw [mem_above]
  have := j.isLt
  constructor
  · intro h; omega
  · intro h; exact absurd h (Finset.notMem_empty j)

/-! ## What device 0 owes, and the level of its wait -/

theorem O₀_zero (c : Dev nD) (hc : c.val = 0) :
    O₀ c = (owedRecv2 c + owedRecv1 c) + ∑ j ∈ above 0, tallyAt (barCell j) () 1 := by
  unfold O₀ owedBar
  rw [if_pos hc, others_eq_above]

theorem owed0_lv (c : Dev nD) (hc : c.val = 0) (g : GSem nD τ sig) (i : Unit) (h : 0 < (O₀ c) g i) : i ∈ L g ∧ 2 ≤ lv g i := by
  unfold O₀ at h
  rcases Pipeline.add_pos_cases h with h12 | hb
  · obtain ⟨h1, h2⟩ := owedRecv_lv c g i h12
    exact ⟨h1, by omega⟩
  · unfold owedBar at hb
    rw [if_pos hc] at hb
    obtain ⟨j, hj, hb⟩ := Pipeline.sum_pos_exists hb
    rw [tallyAt_apply] at hb
    by_cases e : g = barCell (⟨j.val, j.isLt⟩ : Dev nD) ∧ i = ()
    · rw [e.1, L_tc]
      refine ⟨Finset.mem_singleton_self _, ?_⟩
      have hj0 : ¬ j.val = 0 := fun e0 => (Finset.mem_filter.mp hj).2 (Fin.ext e0)
      show 2 ≤ lv (barCell (⟨j.val, j.isLt⟩ : Dev nD)) i
      unfold lv; simp only [if_neg hj0]; decide
    · rw [if_neg e] at hb; exact absurd hb (Nat.lt_irrefl 0)

theorem mayWait_bar0 (c : Dev nD) (hc : c.val = 0) :
    (levAts L lv : sProp 𝕄) ⊢ MayWait (c : Thread nD τ) (.reg barS) () (O₀ c) :=
  Pipeline.mayWait_of_levAts (by rw [L_tc]; exact Finset.mem_singleton_self _) fun g i hg => by
    obtain ⟨h1, h2⟩ := owed0_lv c hc g i hg
    refine ⟨h1, lt_of_lt_of_le ?_ h2⟩
    show lv (barCell c) () < 2
    unfold lv; simp only [if_pos hc]; decide

theorem rest_bar0 (c : Dev nD) (hc : c.val = 0) :
    bigSep ((sched (F := F) m).duties (barCell c) 0 \ ∅) (fun d => (sched (F := F) m).payload (barCell c) 0 d)
      = bigSep others fun j => give (F := F) j := by
  rw [duties_bar, if_pos rfl, if_pos hc, Finset.sdiff_empty]
  exact bigSep_congr fun j _ => by rw [payload_bar, if_pos hc]

/-! ## One signal -/

/-- What device 0 hands in with its signal to place j: the cell, its duty there with the cell's round 0 reached,
    and what device j takes. -/
def sigR (K : CellIx → ℕ) (j : Fin 32) : sProp 𝕄 :=
  iprop(cellInv ER (sched m) (K (j, none)) (barCell j) ∗ iprop(dutyTok ER (barCell j) 0 (0 : Fin 32) ∗ reached ER (barCell j) 0) ∗ take j)

theorem sigR_peel (K : CellIx → ℕ) {S : Finset (Fin 32)} {j : Fin 32} (hj : j ∈ S) :
    bigSep S (sigR m K) ⊢ iprop(iprop(cellInv ER (sched m) (K (j, none)) (barCell j)
      ∗ iprop(dutyTok ER (barCell j) 0 (0 : Fin 32) ∗ reached ER (barCell j) 0) ∗ take j) ∗ bigSep (S.erase j) (sigR m K)) :=
  Entails.of_eq (bigSep_erase hj)

theorem sigR_intro (K : CellIx → ℕ) :
    iprop((bigSep others fun j => cellInv ER (sched m) (K (j, none)) (barCell j))
      ∗ (bigSep others fun j => iprop(dutyTok ER (barCell j) 0 (0 : Fin 32) ∗ reached ER (barCell j) 0))
      ∗ (bigSep others fun j => take (F := F) j))
    ⊢ bigSep (above 0) (sigR m K) := by
  rw [← others_eq_above]
  unfold sigR
  simp only [bigSep_sep']
  exact .rfl

theorem give_take_zero (c : Dev nD) (hc : c.val = 0) :
    iprop(give (F := F) c ∗ bigSep others fun j => give (F := F) j)
      ⊢ iprop(take (F := F) c ∗ bigSep others fun j => take (F := F) j) := by
  have hc0 : c = (0 : Fin 32) := Fin.ext hc
  subst hc0
  exact Entails.of_eq give_zero_sep_others_eq_take

theorem signal_step (c : Dev nD) (K : CellIx → ℕ) (S : Finset (Fin 32)) (j : Fin 32) (hjS : j ∈ S) (hj : ¬ j.val = 0)
    (O : CellTallies nD τ sig Unit) (W : Waits sig Unit) {α : Type} (k : PUnit → Prog (TpuEff nD τ sig (Elt F) Λ₀ .tc) α) (Q : α → sProp 𝕄) :
    iprop(bigSep S (sigR m K) ∗ owes (c : Thread nD τ) (O + ∑ i ∈ S, tallyAt (barCell i) () 1) W
      ∗ (bigSep (S.erase j) (sigR m K) -∗ owes (c : Thread nD τ) (O + ∑ i ∈ S.erase j, tallyAt (barCell i) () 1) W
          -∗ wp frame (wpE (defs₀ (F := F)) Variants.none c none) Set.univ (k ⟨⟩) Q))
    ⊢ wp frame (wpE (defs₀ (F := F)) Variants.none c none) Set.univ (.op (.semSignal ((j : Dev nD) : Thread nD τ) barS 1) k) Q := by
  iintro ⟨HS, HO, Hk⟩
  ihave HS := (sigR_peel m K hjS) $$ HS
  icases HS with ⟨⟨HI, ⟨Htok, Hr⟩, Htake⟩, HR⟩
  have hO : O + ∑ i ∈ S, tallyAt (barCell i) () 1
      = (O + ∑ i ∈ S.erase j, tallyAt (barCell i) () 1) + tallyAt (((j : Dev nD) : Thread nD τ), SemLoc.reg barS) () 1 := by
    rw [← Finset.add_sum_erase S (fun i => tallyAt (barCell i) () 1) hjS]
    show O + (tallyAt (barCell j) () 1 + ∑ i ∈ S.erase j, tallyAt (barCell i) () 1)
      = (O + ∑ i ∈ S.erase j, tallyAt (barCell i) () 1) + tallyAt (barCell j) () 1
    abel
  iapply (Rounds.wp_signal Variants.none ER (sched m) (c : Thread nD τ) none (dst := ((j : Dev nD) : Thread nD τ)) (κ := K (j, none))
      (d := (0 : Fin 32)) (by rw [duties_bar, if_pos rfl, if_neg hj]; exact Finset.mem_singleton_self _)
      (amount_bar m j 0 _) () (O₀ := O + ∑ i ∈ S, tallyAt (barCell i) () 1) (O + ∑ i ∈ S.erase j, tallyAt (barCell i) () 1)
      hO) $$ [HI HO Htok Htake Hr]
  · isplitl [HI]; · iexact HI
    isplitl [HO]; · iexact HO
    isplitl [Htok]; · iexact Htok
    isplitl [Htake]; · rw [payload_bar, if_neg hj]; iexact Htake
    iexact Hr
  iintro HO
  iapply Hk $$ HR HO

/-- The signal to place k + 1, the places above k still to signal. -/
theorem signal_above (c : Dev nD) (K : CellIx → ℕ) (k : ℕ) (j : Fin 32) (hjk : j.val = k + 1)
    (O : CellTallies nD τ sig Unit) (W : Waits sig Unit) {α : Type} (kont : PUnit → Prog (TpuEff nD τ sig (Elt F) Λ₀ .tc) α) (Q : α → sProp 𝕄) :
    iprop(bigSep (above k) (sigR m K) ∗ owes (c : Thread nD τ) (O + ∑ i ∈ above k, tallyAt (barCell i) () 1) W
      ∗ (bigSep (above (k + 1)) (sigR m K) -∗ owes (c : Thread nD τ) (O + ∑ i ∈ above (k + 1), tallyAt (barCell i) () 1) W
          -∗ wp frame (wpE (defs₀ (F := F)) Variants.none c none) Set.univ (kont ⟨⟩) Q))
    ⊢ wp frame (wpE (defs₀ (F := F)) Variants.none c none) Set.univ (.op (.semSignal ((j : Dev nD) : Thread nD τ) barS 1) kont) Q := by
  have h := signal_step m c K (above k) j (mem_above.mpr (by omega)) (by omega) O W kont Q
  have e : (above k).erase j = above (k + 1) := by
    have hj32 : k + 1 < 32 := by have := j.isLt; omega
    have : j = (⟨k + 1, hj32⟩ : Fin 32) := Fin.ext hjk
    rw [this]; exact above_erase k hj32
  rw [e] at h
  exact h

set_option hygiene false in
/-- The signal of device 0 to the place j = k + 1: before it the places above k are still to signal, after it those
    above k + 1. -/
local macro "sig_step" k:num j:num peer:ident : tactic => `(tactic| (
  simp only [$peer:ident]
  iapply (signal_above m c K $k ($j : Fin 32) rfl (owedRecv2 c + owedRecv1 c) _ _ _)
  isplitl [HR]; · iexact HR
  isplitl [HO]; · iexact HO
  iintro HR HO
  sl_exec))

set_option maxHeartbeats 4000000 in
theorem entry_zero (c : Dev nD) (hc : c.val = 0) (hc1 : k0_cond1 (c : Thread nD τ).1 = 1#1) (hc2 : ¬ k0_cond2 (c : Thread nD τ).1 = 1#1)
    (K : CellIx → ℕ) (s0 s1 s2 : Scr F)
    (f2 : Buf (Elt F) ((Memref.whole cc0_stg2_0 : Memref sig .tc .vmem S512x512 .f32).view.loc (c : Thread nD τ)))
    (W : Waits sig Unit) (Q : (Σ' (d0 : Dev nD) (v2 : BitVec 32) (v30 : BitVec 32), BitVec 32) → sProp 𝕄) :
    iprop(pt c (Memref.whole cc0_stg0_0) (argBlk0 m c) ∗ pt c (Memref.whole cc0_stg1_0) (argBlk1 m c) ∗ pt c (Memref.whole cc0_stg2_0) f2
      ∗ pt c (Memref.whole cc0_scratch0) s0 ∗ pt c (Memref.whole cc0_scratch1) s1 ∗ pt c (Memref.whole cc0_scratch2) s2
      ∗ cellInv ER (sched m) (K (c, none)) (barCell c)
      ∗ (bigSep others fun j => cellInv ER (sched m) (K (j, none)) (barCell j))
      ∗ (bigSep others fun j => iprop(dutyTok ER (barCell j) 0 (0 : Fin 32) ∗ reached ER (barCell j) 0))
      ∗ reachedRecv c
      ∗ atPos ER (barCell c) 0 ∅ 0 ∗ cred (tallyAt (barCell c) () 31) ∗ levAts L lv
      ∗ owes (c : Thread nD τ) (O₀ c) W
      ∗ (∀ v : (Σ' (d0 : Dev nD) (v2 : BitVec 32) (v30 : BitVec 32), BitVec 32), iprop(⌜v.1 = c⌝ -∗ entryPost m c f2 s1 s2 W -∗ Q v)))
    ⊢ wp frame (wpE (defs₀ (F := F)) Variants.none c none) Set.univ
        (k0_part4 (Memref.whole cc0_stg0_0) (Memref.isWhole_whole _) (Memref.whole cc0_stg1_0) (Memref.isWhole_whole _) (Memref.whole cc0_stg2_0) (Memref.isWhole_whole _)
          (Memref.whole cc0_scratch0) (Memref.isWhole_whole _) (Memref.whole cc0_scratch1) (Memref.isWhole_whole _) (Memref.whole cc0_scratch2) (Memref.isWhole_whole _)
          cc0_scratch3 cc0_scratch4 cc0_scratch5) Q := by
  iintro ⟨H0, H1, H2, Hs0, Hs1, Hs2, #HIc, HIo, Htoks, #Hrr, Hat, Hcr, #Hlev, HO, Hk⟩
  have hmw := mayWait_bar0 (F := F) c hc
  sl_exec
  iapply (Rounds.wp_wait_rest_token Variants.none ER (sched m) (c : Thread nD τ) none (κ := K (c, none))
      (wpE_semWait_eq Variants.none (c : Thread nD τ) none Set.univ) (Set.mem_univ _) () (O := O₀ c) (W := W) (R := 0) (m := 0) (T := ∅)
      (by rw [expect_bar, if_pos hc]; decide)) $$ [Hcr HO Hat]
  · isplitr; · iexact HIc
    isplitl [Hcr]; · iexact Hcr
    isplitl [HO]; · iexact HO
    isplitr; · iapply hmw; iexact Hlev
    iexact Hat
  iintro ⟨HO, Hat, #Hr1, Hpay⟩
  ihave Hgives := (Entails.of_eq (rest_bar0 m c hc)) $$ Hpay
  iapply (give_intro_wand c _ s2 _)
  isplitl [Hs1]; · iexact Hs1
  isplitl [Hs2]; · iexact Hs2
  isplitr; · iexact Hrr
  iintro ⟨Hgive, HG0, HR0⟩
  ihave HT := (give_take_zero c hc) $$ [Hgive Hgives]
  · isplitl [Hgive]; · iexact Hgive
    iexact Hgives
  icases HT with ⟨Htake, Htakes⟩
  ihave HR := (sigR_intro m K) $$ [HIo Htoks Htakes]
  · isplitl [HIo]; · iexact HIo
    isplitl [Htoks]; · iexact Htoks
    iexact Htakes
  rw [O₀_zero c hc]
  sl_exec
  sig_step 0 1 k0_dev1_peer
  sig_step 1 2 k0_dev2_peer
  sig_step 2 3 k0_dev3_peer
  sig_step 3 4 k0_dev4_peer
  sig_step 4 5 k0_dev5_peer
  sig_step 5 6 k0_dev6_peer
  sig_step 6 7 k0_dev7_peer
  sig_step 7 8 k0_dev8_peer
  sig_step 8 9 k0_dev9_peer
  sig_step 9 10 k0_dev10_peer
  sig_step 10 11 k0_dev11_peer
  sig_step 11 12 k0_dev12_peer
  sig_step 12 13 k0_dev13_peer
  sig_step 13 14 k0_dev14_peer
  sig_step 14 15 k0_dev15_peer
  sig_step 15 16 k0_dev16_peer
  sig_step 16 17 k0_dev17_peer
  sig_step 17 18 k0_dev18_peer
  sig_step 18 19 k0_dev19_peer
  sig_step 19 20 k0_dev20_peer
  sig_step 20 21 k0_dev21_peer
  sig_step 21 22 k0_dev22_peer
  sig_step 22 23 k0_dev23_peer
  sig_step 23 24 k0_dev24_peer
  sig_step 24 25 k0_dev25_peer
  sig_step 25 26 k0_dev26_peer
  sig_step 26 27 k0_dev27_peer
  sig_step 27 28 k0_dev28_peer
  sig_step 28 29 k0_dev29_peer
  sig_step 29 30 k0_dev30_peer
  sig_step 30 31 k0_dev31_peer
  iclear HR
  simp only [wp_pure, wp_ret]
  imodintro
  iapply Hk $$ %_
  · ipureintro; rfl
  unfold entryPost
  isplitl [H0]; · iexact H0
  isplitl [H1]; · iexact H1
  isplitl [H2]; · iexact H2
  have e0 : (View.whole cc0_scratch0).writes (Elt F) (View.whole cc0_scratch0).junk (entry_zero.sl.Hs0_1 m c) = partC m c := by
    unfold entry_zero.sl.Hs0_1
    rw [View.writes_singleton]
    refine (Memref.write_access_unit_zero_univ (Elt F) cc0_scratch0 hz3 _ _ _).trans ?_
    unfold partC
    congr 1
    · exact Memref.readAt_unit_zero (Elt F) cc0_stg0_0 hz2 _ _
    · exact Memref.readAt_unit_zero (Elt F) cc0_stg1_0 hz2 _ _
  isplitl [Hs0]
  · rw [e0]; iexact Hs0
  isplitl [HG0]
  · iexists ((View.whole cc0_scratch1).writes (Elt F) s1 [⟨Rect.unit (s := S32x16x512) ![0, 0, 0] S1x16x512.size inb_S32x16x512_S1x16x512_0_0_0, k0_pay2 (entry_zero.sl.v16 m c)⟩])
    isplitr
    · ipureintro
      intro i hi
      unfold entry_zero.sl.v16
      rw [show (Memref.whole cc0_scratch0 : Memref sig .tc .vmem S32x16x512 .bf16).view.writes (Elt F) (Memref.whole cc0_scratch0 : Memref sig .tc .vmem S32x16x512 .bf16).view.junk (entry_zero.sl.Hs0_1 m c) = partC m c from e0]
      exact ViewIdx.gath0_eq m c s1 i hi
    · iexact HG0
  isplitl [HR0]; · iexact HR0
  isplitl [Htake]; · iexact Htake
  isplitl [Hat]; · iexact Hat
  rw [show above (30 + 1) = ∅ from above_31, Finset.sum_empty, add_zero]
  iexact HO

/-- info: 'Cert.KernelIdeal.Proto.entry_zero' depends on axioms: [propext, Classical.choice, Quot.sound] -/
#guard_msgs in #print axioms entry_zero

end Cert.KernelIdeal.Proto
end
-- ==== Proof.Levels.lean ====
import proofs.«900454_g7700000000000455_dist_matmul_relu_kshard_i_m512_n512_k256_v7x_i32_f32_1_alg».proof.Proof.Gen.KernelIdeal
import proofs.«900454_g7700000000000455_dist_matmul_relu_kshard_i_m512_n512_k256_v7x_i32_f32_1_alg».proof.Proof.Gen.KernelIdeal.Skeleton
import proofs.«900454_g7700000000000455_dist_matmul_relu_kshard_i_m512_n512_k256_v7x_i32_f32_1_alg».proof.Proof.Gen.KernelIdeal.Launch
import proofs.«900454_g7700000000000455_dist_matmul_relu_kshard_i_m512_n512_k256_v7x_i32_f32_1_alg».proof.Proof.LaunchKit
import Idealize.ShloMosaic.Lib.Pipeline.Launch
import Idealize.ShloMosaic.Lib.Pipeline.Kit
import Idealize.ShloMosaic.Lib.Tactic

set_option maxRecDepth 16384

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The waits a device makes while it still owes

A wait is allowed while everything the device still owes sits at a higher level than the awaited cell. The send
cells are lowest (level 0: the waiter's own copies pay them), the first receive cells at 3, the second at 4. -/

theorem lv_send (c : Dev nD) (h : Fin 2) (d : Fin 32) (i : Unit) : lv (sendCell c h d) i = 0 := by
  unfold lv; simp only [semKind_send]; decide
theorem lv_recv1 (c : Dev nD) (h : Fin 2) (d : Fin 32) (i : Unit) : lv (recv1Cell c h d) i = 3 := by
  unfold lv; simp only [semKind_recv1]; decide
theorem lv_recv2 (c : Dev nD) (h : Fin 2) (d : Fin 32) (i : Unit) : lv (recv2Cell c h d) i = 4 := by
  unfold lv; simp only [semKind_recv2]; decide

/-- A wait on one of its own send cells, whatever the device owes at level 1 or above. -/
theorem mayWait_send (c : Dev nD) (h : Fin 2) (d : Fin 32) (X : CellTallies nD τ sig Unit)
    (hX : ∀ (g : GSem nD τ sig) (i : Unit), 0 < X g i → i ∈ L g ∧ 1 ≤ lv g i) :
    (levAts L lv : sProp 𝕄) ⊢ MayWait (c : Thread nD τ) (.dma (semAt cc0_scratch3 h d)) () X :=
  Pipeline.mayWait_of_levAts (by rw [L_tc]; exact Finset.mem_singleton_self _) fun g i hg => by
    obtain ⟨h1, h2⟩ := hX g i hg
    refine ⟨h1, lt_of_lt_of_le ?_ h2⟩
    show lv (sendCell c h d) () < 1
    rw [lv_send]; decide

/-- A wait on a first receive cell while the device owes only second-round credits. -/
theorem mayWait_recv1 (c : Dev nD) (h : Fin 2) (d : Fin 32) (X : CellTallies nD τ sig Unit)
    (hX : ∀ (g : GSem nD τ sig) (i : Unit), 0 < X g i → i ∈ L g ∧ 4 ≤ lv g i) :
    (levAts L lv : sProp 𝕄) ⊢ MayWait (c : Thread nD τ) (.dma (semAt cc0_scratch4 h d)) () X :=
  Pipeline.mayWait_of_levAts (by rw [L_tc]; exact Finset.mem_singleton_self _) fun g i hg => by
    obtain ⟨h1, h2⟩ := hX g i hg
    refine ⟨h1, lt_of_lt_of_le ?_ h2⟩
    show lv (recv1Cell c h d) () < 4
    rw [lv_recv1]; decide

/-- Second-round credits sit at level 4. -/
theorem owedRecv2_lv (c : Dev nD) (g : GSem nD τ sig) (i : Unit) (h : 0 < owedRecv2 c g i) : i ∈ L g ∧ 4 ≤ lv g i := by
  unfold owedRecv2 at h
  obtain ⟨hh, -, h⟩ := Pipeline.sum_pos_exists h
  obtain ⟨d, -, h⟩ := Pipeline.sum_pos_exists h
  rw [tallyAt_apply] at h
  by_cases e : g = recv2Cell (fwd c d) hh d ∧ i = ()
  · rw [e.1, L_tc]
    exact ⟨Finset.mem_singleton_self _, by rw [lv_recv2]⟩
  · rw [if_neg e] at h; exact absurd h (Nat.lt_irrefl 0)

/-- One tally on a second receive cell sits at level 4. -/
theorem tallyRecv2_lv (c' : Dev nD) (hh : Fin 2) (d : Fin 32) (n : ℕ) (g : GSem nD τ sig) (i : Unit)
    (h : 0 < (tallyAt (recv2Cell c' hh d) () n : CellTallies nD τ sig Unit) g i) : i ∈ L g ∧ 4 ≤ lv g i := by
  rw [tallyAt_apply] at h
  by_cases e : g = recv2Cell c' hh d ∧ i = ()
  · rw [e.1, L_tc]
    exact ⟨Finset.mem_singleton_self _, by rw [lv_recv2]⟩
  · rw [if_neg e] at h; exact absurd h (Nat.lt_irrefl 0)

/-- The level bound passes to sums. -/
theorem add_lv {X Y : CellTallies nD τ sig Unit} {n : ℕ}
    (hX : ∀ (g : GSem nD τ sig) (i : Unit), 0 < X g i → i ∈ L g ∧ n ≤ lv g i)
    (hY : ∀ (g : GSem nD τ sig) (i : Unit), 0 < Y g i → i ∈ L g ∧ n ≤ lv g i) :
    ∀ (g : GSem nD τ sig) (i : Unit), 0 < (X + Y) g i → i ∈ L g ∧ n ≤ lv g i := fun g i h => by
  rcases Pipeline.add_pos_cases h with h | h
  · exact hX g i h
  · exact hY g i h

end Cert.KernelIdeal.Proto

end
-- ==== Proof.HalfSum.lean ====
import proofs.«900454_g7700000000000455_dist_matmul_relu_kshard_i_m512_n512_k256_v7x_i32_f32_1_alg».proof.Proof.Gen.KernelIdeal
import proofs.«900454_g7700000000000455_dist_matmul_relu_kshard_i_m512_n512_k256_v7x_i32_f32_1_alg».proof.Proof.Gen.KernelIdeal.Skeleton
import proofs.«900454_g7700000000000455_dist_matmul_relu_kshard_i_m512_n512_k256_v7x_i32_f32_1_alg».proof.Proof.Gen.KernelIdeal.Launch
import proofs.«900454_g7700000000000455_dist_matmul_relu_kshard_i_m512_n512_k256_v7x_i32_f32_1_alg».proof.Proof.Sched
import proofs.«900454_g7700000000000455_dist_matmul_relu_kshard_i_m512_n512_k256_v7x_i32_f32_1_alg».proof.Proof.Slots
import proofs.«900454_g7700000000000455_dist_matmul_relu_kshard_i_m512_n512_k256_v7x_i32_f32_1_alg».proof.Proof.DevEq
import proofs.«900454_g7700000000000455_dist_matmul_relu_kshard_i_m512_n512_k256_v7x_i32_f32_1_alg».proof.Proof.ViewIdx
import Idealize.ShloMosaic.Lib.Pipeline.Launch
import Idealize.ShloMosaic.Lib.Pipeline.Kit
import Idealize.ShloMosaic.Lib.Tactic

set_option maxRecDepth 16384

noncomputable section

namespace Cert.KernelIdeal.Proto

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ)

/-! ## Column half h of a scratch buffer: its 32 half slots -/

theorem mem_cols {h : Fin 2} {i : S32x16x512.Idx} :
    i ∈ (cols h).set ↔ 256 * h.val ≤ (i 2).val ∧ (i 2).val < 256 * h.val + 256 := by
  unfold cols
  rw [Rect.mem_set_unit]
  constructor
  · intro H
    have h2 : 256 * h.val ≤ (i 2).val ∧ (i 2).val < 256 * h.val + 256 := H 2
    exact h2
  · rintro ⟨lo, hi⟩ a
    match a with
    | ⟨0, _⟩ => exact ⟨Nat.zero_le _, by show (i 0).val < 0 + 32; have : (i 0).val < 32 := (i 0).isLt; omega⟩
    | ⟨1, _⟩ => exact ⟨Nat.zero_le _, by show (i 1).val < 0 + 16; have : (i 1).val < 16 := (i 1).isLt; omega⟩
    | ⟨2, _⟩ => exact ⟨lo, hi⟩

theorem cols_eq_biUnion (h : Fin 2) :
    (Finset.univ : Finset (Fin 32)).biUnion (fun t => (slot t h).set) = (cols h).set := by
  ext i
  rw [Finset.mem_biUnion, mem_cols]
  constructor
  · rintro ⟨t, -, ht⟩; exact (mem_slot.mp ht).2
  · intro H; exact ⟨⟨(i 0).val, (i 0).isLt⟩, Finset.mem_univ _, mem_slot.mpr ⟨rfl, H⟩⟩

theorem slot_subset_cols (t : Fin 32) (h : Fin 2) : (slot t h).set ⊆ (cols h).set := fun i hi =>
  mem_cols.mpr (mem_slot.mp hi).2

/-- Column half h of the gathering buffer held at G is its 32 half slots held at G. -/
theorem gath_cols (c : Dev nD) (h : Fin 2) (q : PosShare TreeShare) (G : Scr F) :
    (bigSep (Finset.univ : Finset (Fin 32)) fun t => gathPts c t h q G)
      = ((((c : Thread nD τ).loc cc0_scratch1) ↦[(cols h).set]{q} G) : sProp 𝕄) := by
  rw [← cols_eq_biUnion]
  unfold gathPts
  exact (pointsTo_biUnion _ _ fun t _ t' _ htt' => slot_disjoint (fun e => htt' (congrArg Prod.fst e))).symm

/-- The same when each half slot is held at contents of its own that agree with G there. -/
theorem gath_cols_of_agree (c : Dev nD) (h : Fin 2) (q : PosShare TreeShare) (Gs : Fin 32 → Scr F) (G : Scr F)
    (hG : ∀ t, ∀ i ∈ (slot t h).set, Gs t i = G i) :
    (bigSep (Finset.univ : Finset (Fin 32)) fun t => gathPts c t h q (Gs t))
      = ((((c : Thread nD τ).loc cc0_scratch1) ↦[(cols h).set]{q} G) : sProp 𝕄) := by
  rw [← gath_cols]
  exact bigSep_congr fun t _ => by unfold gathPts; exact pointsTo_congr (hG t)

/-- Likewise for the result buffer. -/
theorem res_cols (c : Dev nD) (h : Fin 2) (q : PosShare TreeShare) (G : Scr F) :
    (bigSep (Finset.univ : Finset (Fin 32)) fun t => resPts c t h q G)
      = ((((c : Thread nD τ).loc cc0_scratch2) ↦[(cols h).set]{q} G) : sProp 𝕄) := by
  rw [← cols_eq_biUnion]
  unfold resPts
  exact (pointsTo_biUnion _ _ fun t _ t' _ htt' => slot_disjoint (fun e => htt' (congrArg Prod.fst e))).symm

/-! ## The value stored: the device's own result slot -/

/-- Entry (0, r, j) of half h of slot t sits at (t, r, 256 h + j). -/
theorem slot_emb3 (t : Fin 32) (h : Fin 2) (r : Fin 16) (j : Fin 256) (J : Fin 512) (hJ : J.val = 256 * h.val + j.val) :
    (slot t h).emb (ix3 (0 : Fin 1) r j) = ix3 t r J := by
  funext b
  refine Fin.ext ?_
  match b with
  | ⟨0, _⟩ => show t.val + 1 * 0 = t.val; omega
  | ⟨1, _⟩ => show 0 + 1 * r.val = r.val; omega
  | ⟨2, _⟩ => show 256 * h.val + 1 * j.val = J.val; omega

/-- The result at (t, r, 256 h + j) is entry (0, r, j) of half h of device t's own result slot. -/
theorem resC_apply (t : Fin 32) (h : Fin 2) (r : Fin 16) (j : Fin 256) (J : Fin 512) (hJ : J.val = 256 * h.val + j.val) :
    resC m (ix3 t r J) = ownRes m t h (ix3 (0 : Fin 1) r j) := by
  have hj := j.isLt
  have hh := h.isLt
  have e2 : inHalf (ix3 t r J) = ix3 (0 : Fin 1) r j := by
    funext a
    match a with
    | ⟨0, _⟩ => exact Fin.ext rfl
    | ⟨1, _⟩ => rfl
    | ⟨2, _⟩ => exact Fin.ext (by show J.val % 256 = j.val; omega)
  have key : ∀ (h' : Fin 2), h' = h → ∀ x, x = ix3 (0 : Fin 1) r j → ownRes m t h' x = ownRes m t h (ix3 (0 : Fin 1) r j) :=
    fun h' e x ex => by rw [e, ex]
  unfold resC
  exact key _ (Fin.ext (by show J.val / 256 = h.val; omega)) _ e2

/-- The device's own result slot written into its place: the result there. -/
theorem write_ownRes (c : Dev nD) (h : Fin 2) (off : Fin 3 → ℕ) (hoff : off = ![c.val, 0, 256 * h.val])
    (inb : ∀ a, off a + S1x16x256.size a ≤ S32x16x512.size a) (f : Scr F) :
    ∀ i ∈ (slot c h).set,
      ((resM : Memref sig .tc .vmem S32x16x512 .bf16).access (Rect.unit (s := S32x16x512) off S1x16x256.size inb)).write (Elt F) f
        (ownRes m c h) Finset.univ i = resC m i := by
  subst hoff
  intro i hi
  obtain ⟨r, j, J, hJ, rfl⟩ := ViewIdx.exists_of_mem_slot hi
  rw [resC_apply m c h r j J hJ]
  have hemb : ((resM : Memref sig .tc .vmem S32x16x512 .bf16).access (Rect.unit (s := S32x16x512) ![c.val, 0, 256 * h.val] S1x16x256.size inb)).emb
      (ix3 (0 : Fin 1) r j) = ix3 c r J := slot_emb3 c h r j J hJ
  refine ((congrArg _ hemb.symm).trans (View.write_emb_of_mem _ _ (Finset.mem_univ _))).trans ?_
  exact cast_eq _ _

/-! ## The three operations of a column half's local section

The gathered slots' column half is loaded whole, the device's own half slot of the result is loaded (the value is
not used) and then stored with the sum of the gathered slots clamped below at zero. -/

variable {α : Type}

/-- The load of column half h of the gathering buffer reads what the device gathers. -/
theorem wp_load_cols (c : Dev nD) (h : Fin 2) (off : Fin 3 → ℕ) (hoff : off = ![0, 0, 256 * h.val])
    (inb : ∀ a, off a + S32x16x256.size a ≤ S32x16x512.size a)
    (hl : (gathM : Memref sig .tc .vmem S32x16x512 .bf16).view.LoadsAt (Rect.unit (s := S32x16x512) off S32x16x256.size inb).toLoadRect)
    (q : PosShare TreeShare) (G : Scr F) (hG : ∀ i ∈ (cols h).set, G i = gathC m c i)
    (k : Vec F S32x16x256 .bf16 → Prog (TpuEff nD τ sig (Elt F) Λ₀ .tc) α) (Q : α → sProp 𝕄) :
    iprop((((c : Thread nD τ).loc cc0_scratch1) ↦[(cols h).set]{q} G)
      ∗ ((((c : Thread nD τ).loc cc0_scratch1) ↦[(cols h).set]{q} G)
          -∗ wp frame (wpE (defs₀ (F := F)) Variants.none c none) Set.univ
              (k ((gathM : Memref sig .tc .vmem S32x16x512 .bf16).view.readAt (Elt F) (cols h).toLoadRect (gathC m c))) Q))
    ⊢ wp frame (wpE (defs₀ (F := F)) Variants.none c none) Set.univ
        (.op (.load (gathM : Memref sig .tc .vmem S32x16x512 .bf16) (Rect.unit (s := S32x16x512) off S32x16x256.size inb).toLoadRect hl) k) Q := by
  subst hoff
  have hsub : (gathM : Memref sig .tc .vmem S32x16x512 .bf16).view.setOn (cols h).toLoadRect.set ⊆ (cols h).set := by
    show Finset.map (Function.Embedding.refl _) _ ⊆ _
    rw [Finset.map_refl]
  have e : (gathM : Memref sig .tc .vmem S32x16x512 .bf16).view.readAt (Elt F) (cols h).toLoadRect G
      = (gathM : Memref sig .tc .vmem S32x16x512 .bf16).view.readAt (Elt F) (cols h).toLoadRect (gathC m c) :=
    View.readAt_congr fun i hi => hG i (hsub hi)
  iintro ⟨HG, Hk⟩
  iapply (wp_load Variants.none (c : Thread nD τ) none Set.univ (m := gathM) (r := (cols h).toLoadRect) (S := (cols h).set) (q := q) (f := G) hsub) $$ HG
  iintro HG
  rw [e]
  iapply Hk $$ HG

/-- A load of half h of slot t of the result buffer, that half slot held. -/
theorem wp_load_slot (c : Dev nD) (t : Fin 32) (h : Fin 2) (off : Fin 3 → ℕ) (hoff : off = ![t.val, 0, 256 * h.val])
    (inb : ∀ a, off a + S1x16x256.size a ≤ S32x16x512.size a)
    (hl : (resM : Memref sig .tc .vmem S32x16x512 .bf16).view.LoadsAt (Rect.unit (s := S32x16x512) off S1x16x256.size inb).toLoadRect)
    (q : PosShare TreeShare) (f : Scr F)
    (k : Vec F S1x16x256 .bf16 → Prog (TpuEff nD τ sig (Elt F) Λ₀ .tc) α) (Q : α → sProp 𝕄) :
    iprop(resPts c t h q f
      ∗ (resPts c t h q f -∗ wp frame (wpE (defs₀ (F := F)) Variants.none c none) Set.univ
          (k ((resM : Memref sig .tc .vmem S32x16x512 .bf16).view.readAt (Elt F) (Rect.unit (s := S32x16x512) off S1x16x256.size inb).toLoadRect f)) Q))
    ⊢ wp frame (wpE (defs₀ (F := F)) Variants.none c none) Set.univ
        (.op (.load (resM : Memref sig .tc .vmem S32x16x512 .bf16) (Rect.unit (s := S32x16x512) off S1x16x256.size inb).toLoadRect hl) k) Q := by
  subst hoff
  have hsub : (resM : Memref sig .tc .vmem S32x16x512 .bf16).view.setOn (slot t h).toLoadRect.set ⊆ (slot t h).set := by
    show Finset.map (Function.Embedding.refl _) _ ⊆ _
    rw [Finset.map_refl]
  unfold resPts
  iintro ⟨HR, Hk⟩
  iapply (wp_load Variants.none (c : Thread nD τ) none Set.univ (m := resM) (r := (slot t h).toLoadRect) (S := (slot t h).set) (q := q) (f := f) hsub) $$ HR
  iintro HR
  iapply Hk $$ HR

/-- A store into half h of slot t of the result buffer, that half slot held whole. -/
theorem wp_store_slot (c : Dev nD) (t : Fin 32) (h : Fin 2) (off : Fin 3 → ℕ) (hoff : off = ![t.val, 0, 256 * h.val])
    (inb : ∀ a, off a + S1x16x256.size a ≤ S32x16x512.size a) (w : FVec F S1x16x256 .bf16)
    (hx : ((resM : Memref sig .tc .vmem S32x16x512 .bf16).access (Rect.unit (s := S32x16x512) off S1x16x256.size inb)).Stores Finset.univ)
    (hm : (Finset.univ : Finset (Rect.unit (s := S32x16x512) off S1x16x256.size inb).shape.Idx) = Finset.univ
      ∨ ∀ a, (Rect.unit (s := S32x16x512) off S1x16x256.size inb).stride a = 1)
    (f : Scr F) (k : PUnit → Prog (TpuEff nD τ sig (Elt F) Λ₀ .tc) α) (Q : α → sProp 𝕄) :
    iprop(resPts c t h fullShare f
      ∗ (resPts c t h fullShare (((resM : Memref sig .tc .vmem S32x16x512 .bf16).access (Rect.unit (s := S32x16x512) off S1x16x256.size inb)).write (Elt F) f w Finset.univ)
          -∗ wp frame (wpE (defs₀ (F := F)) Variants.none c none) Set.univ (k ⟨⟩) Q))
    ⊢ wp frame (wpE (defs₀ (F := F)) Variants.none c none) Set.univ
        (.op (.store (resM : Memref sig .tc .vmem S32x16x512 .bf16) (Rect.unit (s := S32x16x512) off S1x16x256.size inb) w Finset.univ hx hm) k) Q := by
  subst hoff
  have hsub : ((resM : Memref sig .tc .vmem S32x16x512 .bf16).access (Rect.unit (s := S32x16x512) ![t.val, 0, 256 * h.val] S1x16x256.size inb)).setOn Finset.univ
      ⊆ (slot t h).set := by
    rw [View.setOn_univ]
    exact (View.set_slice_whole cc0_scratch2 _).le
  unfold resPts
  iintro ⟨HR, Hk⟩
  iapply (wp_store Variants.none (c : Thread nD τ) none Set.univ (m := resM) (r := Rect.unit (s := S32x16x512) ![t.val, 0, 256 * h.val] S1x16x256.size inb)
      (w := w) (S := (slot t h).set) (f := f) hsub) $$ HR
  iintro HR
  iapply Hk $$ HR

/-! ## The local section of each column half -/

/-- First column half: from the gathered slots' first halves, agreeing there with what the device gathers, and
    the device's own first half slot of the result, the three operations leave the gathered halves as they were
    and the own half slot at the result. -/
theorem half_sum0 (c : Dev nD) (G s2 : Scr F) (hG : ∀ i ∈ (cols 0).set, G i = gathC m c i)
    (hl1 : (gathM : Memref sig .tc .vmem S32x16x512 .bf16).view.LoadsAt (Rect.unit (s := S32x16x512) ![0, 0, 0] S32x16x256.size inb_S32x16x512_S32x16x256_0_0_0).toLoadRect)
    (hl2 : (resM : Memref sig .tc .vmem S32x16x512 .bf16).view.LoadsAt (Rect.unit (s := S32x16x512) (k0_off4 c) S1x16x256.size (k0_off4_inb c)).toLoadRect)
    (hx : ((resM : Memref sig .tc .vmem S32x16x512 .bf16).access (Rect.unit (s := S32x16x512) (k0_off4 c) S1x16x256.size (k0_off4_inb c))).Stores Finset.univ)
    (hm : (Finset.univ : Finset (Rect.unit (s := S32x16x512) (k0_off4 c) S1x16x256.size (k0_off4_inb c)).shape.Idx) = Finset.univ
      ∨ ∀ a, (Rect.unit (s := S32x16x512) (k0_off4 c) S1x16x256.size (k0_off4_inb c)).stride a = 1)
    (k : PUnit → Prog (TpuEff nD τ sig (Elt F) Λ₀ .tc) α) (Q : α → sProp 𝕄) :
    iprop((((c : Thread nD τ).loc cc0_scratch1) ↦[(cols 0).set]{fullShare} G) ∗ resPts c c 0 fullShare s2
      ∗ ((((c : Thread nD τ).loc cc0_scratch1) ↦[(cols 0).set]{fullShare} G)
          -∗ (∃ R : Scr F, ⌜∀ i ∈ (slot c 0).set, R i = resC m i⌝ ∗ resPts c c 0 fullShare R)
          -∗ wp frame (wpE (defs₀ (F := F)) Variants.none c none) Set.univ (k ⟨⟩) Q))
    ⊢ wp frame (wpE (defs₀ (F := F)) Variants.none c none) Set.univ
        (.op (.load (gathM : Memref sig .tc .vmem S32x16x512 .bf16) (Rect.unit (s := S32x16x512) ![0, 0, 0] S32x16x256.size inb_S32x16x512_S32x16x256_0_0_0).toLoadRect hl1) fun v =>
          .op (.load (resM : Memref sig .tc .vmem S32x16x512 .bf16) (Rect.unit (s := S32x16x512) (k0_off4 c) S1x16x256.size (k0_off4_inb c)).toLoadRect hl2) fun _ =>
            .op (.store (resM : Memref sig .tc .vmem S32x16x512 .bf16) (Rect.unit (s := S32x16x512) (k0_off4 c) S1x16x256.size (k0_off4_inb c)) (k0_pay3 v) Finset.univ hx hm) k) Q := by
  iintro ⟨HG, HR, Hk⟩
  iapply (wp_load_cols m c 0 _ rfl _ hl1 fullShare G hG _ Q)
  isplitl [HG]; · iexact HG
  iintro HG
  iapply (wp_load_slot c c 0 _ (k0_off4_eq c) _ hl2 fullShare s2 _ Q)
  isplitl [HR]; · iexact HR
  iintro HR
  iapply (wp_store_slot c c 0 _ (k0_off4_eq c) _ _ hx hm s2 k Q)
  isplitl [HR]; · iexact HR
  iintro HR
  iapply Hk $$ HG
  iexists (((resM : Memref sig .tc .vmem S32x16x512 .bf16).access (Rect.unit (s := S32x16x512) (k0_off4 c) S1x16x256.size (k0_off4_inb c))).write (Elt F) s2
    (k0_pay3 ((gathM : Memref sig .tc .vmem S32x16x512 .bf16).view.readAt (Elt F) (cols 0).toLoadRect (gathC m c))) Finset.univ)
  isplitr
  · ipureintro
    have e : k0_pay3 ((gathM : Memref sig .tc .vmem S32x16x512 .bf16).view.readAt (Elt F) (cols 0).toLoadRect (gathC m c)) = ownRes m c 0 := by
      unfold ownRes; rw [if_pos rfl]
    rw [e]
    exact write_ownRes m c 0 _ (k0_off4_eq c) _ s2
  · iexact HR

/-- Second column half: the same with the second halves. -/
theorem half_sum1 (c : Dev nD) (G s2 : Scr F) (hG : ∀ i ∈ (cols 1).set, G i = gathC m c i)
    (hl1 : (gathM : Memref sig .tc .vmem S32x16x512 .bf16).view.LoadsAt (Rect.unit (s := S32x16x512) ![0, 0, 256] S32x16x256.size inb_S32x16x512_S32x16x256_0_0_256).toLoadRect)
    (hl2 : (resM : Memref sig .tc .vmem S32x16x512 .bf16).view.LoadsAt (Rect.unit (s := S32x16x512) (k0_off6 c) S1x16x256.size (k0_off6_inb c)).toLoadRect)
    (hx : ((resM : Memref sig .tc .vmem S32x16x512 .bf16).access (Rect.unit (s := S32x16x512) (k0_off6 c) S1x16x256.size (k0_off6_inb c))).Stores Finset.univ)
    (hm : (Finset.univ : Finset (Rect.unit (s := S32x16x512) (k0_off6 c) S1x16x256.size (k0_off6_inb c)).shape.Idx) = Finset.univ
      ∨ ∀ a, (Rect.unit (s := S32x16x512) (k0_off6 c) S1x16x256.size (k0_off6_inb c)).stride a = 1)
    (k : PUnit → Prog (TpuEff nD τ sig (Elt F) Λ₀ .tc) α) (Q : α → sProp 𝕄) :
    iprop((((c : Thread nD τ).loc cc0_scratch1) ↦[(cols 1).set]{fullShare} G) ∗ resPts c c 1 fullShare s2
      ∗ ((((c : Thread nD τ).loc cc0_scratch1) ↦[(cols 1).set]{fullShare} G)
          -∗ (∃ R : Scr F, ⌜∀ i ∈ (slot c 1).set, R i = resC m i⌝ ∗ resPts c c 1 fullShare R)
          -∗ wp frame (wpE (defs₀ (F := F)) Variants.none c none) Set.univ (k ⟨⟩) Q))
    ⊢ wp frame (wpE (defs₀ (F := F)) Variants.none c none) Set.univ
        (.op (.load (gathM : Memref sig .tc .vmem S32x16x512 .bf16) (Rect.unit (s := S32x16x512) ![0, 0, 256] S32x16x256.size inb_S32x16x512_S32x16x256_0_0_256).toLoadRect hl1) fun v =>
          .op (.load (resM : Memref sig .tc .vmem S32x16x512 .bf16) (Rect.unit (s := S32x16x512) (k0_off6 c) S1x16x256.size (k0_off6_inb c)).toLoadRect hl2) fun _ =>
            .op (.store (resM : Memref sig .tc .vmem S32x16x512 .bf16) (Rect.unit (s := S32x16x512) (k0_off6 c) S1x16x256.size (k0_off6_inb c)) (k0_pay4 v) Finset.univ hx hm) k) Q := by
  iintro ⟨HG, HR, Hk⟩
  iapply (wp_load_cols m c 1 _ rfl _ hl1 fullShare G hG _ Q)
  isplitl [HG]; · iexact HG
  iintro HG
  iapply (wp_load_slot c c 1 _ (k0_off6_eq c) _ hl2 fullShare s2 _ Q)
  isplitl [HR]; · iexact HR
  iintro HR
  iapply (wp_store_slot c c 1 _ (k0_off6_eq c) _ _ hx hm s2 k Q)
  isplitl [HR]; · iexact HR
  iintro HR
  iapply Hk $$ HG
  iexists (((resM : Memref sig .tc .vmem S32x16x512 .bf16).access (Rect.unit (s := S32x16x512) (k0_off6 c) S1x16x256.size (k0_off6_inb c))).write (Elt F) s2
    (k0_pay4 ((gathM : Memref sig .tc .vmem S32x16x512 .bf16).view.readAt (Elt F) (cols 1).toLoadRect (gathC m c))) Finset.univ)
  isplitr
  · ipureintro
    have e : k0_pay4 ((gathM : Memref sig .tc .vmem S32x16x512 .bf16).view.readAt (Elt F) (cols 1).toLoadRect (gathC m c)) = ownRes m c 1 := by
      unfold ownRes; rw [if_neg (by decide)]
    rw [e]
    exact write_ownRes m c 1 _ (k0_off6_eq c) _ s2
  · iexact HR

/-- info: 'Cert.KernelIdeal.Proto.half_sum0' depends on axioms: [propext, Classical.choice, Quot.sound] -/
#guard_msgs in #print axioms half_sum0
/-- info: 'Cert.KernelIdeal.Proto.half_sum1' depends on axioms: [propext, Classical.choice, Quot.sound] -/
#guard_msgs in #print axioms half_sum1
/-- info: 'Cert.KernelIdeal.Proto.gath_cols_of_agree' depends on axioms: [propext, Classical.choice, Quot.sound] -/
#guard_msgs in #print axioms gath_cols_of_agree

end Cert.KernelIdeal.Proto
end
-- ==== Proof.Shares.lean ====
import proofs.«900454_g7700000000000455_dist_matmul_relu_kshard_i_m512_n512_k256_v7x_i32_f32_1_alg».proof.Proof.Gen.KernelIdeal
import proofs.«900454_g7700000000000455_dist_matmul_relu_kshard_i_m512_n512_k256_v7x_i32_f32_1_alg».proof.Proof.Gen.KernelIdeal.Skeleton
import proofs.«900454_g7700000000000455_dist_matmul_relu_kshard_i_m512_n512_k256_v7x_i32_f32_1_alg».proof.Proof.Gen.KernelIdeal.Launch
import proofs.«900454_g7700000000000455_dist_matmul_relu_kshard_i_m512_n512_k256_v7x_i32_f32_1_alg».proof.Proof.Sched
import proofs.«900454_g7700000000000455_dist_matmul_relu_kshard_i_m512_n512_k256_v7x_i32_f32_1_alg».proof.Proof.Slots
import proofs.«900454_g7700000000000455_dist_matmul_relu_kshard_i_m512_n512_k256_v7x_i32_f32_1_alg».proof.Proof.Give
import Idealize.ShloMosaic.Lib.Pipeline.Launch
import Idealize.ShloMosaic.Lib.Pipeline.Kit
import Idealize.ShloMosaic.Lib.Tactic

set_option maxRecDepth 16384

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The places 1 … k -/

/-- The places 1 … k. -/
def upto (k : ℕ) : Finset (Fin 32) := Finset.univ.filter fun d => 0 < d.val ∧ d.val ≤ k

theorem mem_upto {k : ℕ} {d : Fin 32} : d ∈ upto k ↔ 0 < d.val ∧ d.val ≤ k := by
  unfold upto; rw [Finset.mem_filter]; exact ⟨fun h => h.2, fun h => ⟨Finset.mem_univ _, h⟩⟩

theorem upto_zero : upto 0 = ∅ := by
  ext d
  rw [mem_upto]
  constructor
  · intro h; omega
  · intro h; exact absurd h (Finset.notMem_empty d)

theorem notMem_upto (k : ℕ) (h : k + 1 < 32) : (⟨k + 1, h⟩ : Fin 32) ∉ upto k := by
  rw [mem_upto]
  intro H
  have : k + 1 ≤ k := H.2
  omega

theorem upto_succ (k : ℕ) (h : k + 1 < 32) : upto (k + 1) = insert (⟨k + 1, h⟩ : Fin 32) (upto k) := by
  ext d
  rw [Finset.mem_insert, mem_upto, mem_upto]
  constructor
  · intro H
    by_cases e : d.val = k + 1
    · exact Or.inl (Fin.ext e)
    · exact Or.inr ⟨H.1, by omega⟩
  · rintro (e | H)
    · rw [e]; exact ⟨Nat.succ_pos k, le_refl _⟩
    · exact ⟨H.1, by omega⟩

theorem upto_31 : upto 31 = others := by
  ext d
  rw [mem_upto, Finset.mem_filter]
  have := d.isLt
  constructor
  · intro H; exact ⟨Finset.mem_univ _, fun e => by rw [e] at H; exact Nat.lt_irrefl 0 H.1⟩
  · intro H; exact ⟨Nat.pos_of_ne_zero fun e => H.2 (Fin.ext e), by omega⟩

/-! ## A region lent to k readers at once

The share left after d - 1 readers splits into the d-th reader's share and the share left after d readers. -/

/-- Three separate parts, the middle one brought to the front. -/
theorem sep_rot (X A R : sProp 𝕄) : iprop(X ∗ A ∗ R) = iprop((A ∗ X) ∗ R) := by
  have h1 : iprop(X ∗ A ∗ R) ⊢ iprop((A ∗ X) ∗ R) := by
    iintro ⟨HX, HA, HR⟩
    isplitl [HA HX]
    · isplitl [HA]; · iexact HA
      iexact HX
    · iexact HR
  have h2 : iprop((A ∗ X) ∗ R) ⊢ iprop(X ∗ A ∗ R) := by
    iintro ⟨⟨HA, HX⟩, HR⟩
    isplitl [HX]; · iexact HX
    isplitl [HA]; · iexact HA
    iexact HR
  exact BI.equiv_iff.mp ⟨h1, h2⟩

section Lend
variable {ℓ : Loc nD τ sig} (I : Finset (Idx ℓ)) (f : Buf (Elt F) ℓ)

theorem upto_peel (k : ℕ) (h : k + 1 < 32) (Φ : Fin 32 → sProp 𝕄) :
    bigSep (upto (k + 1)) Φ = iprop(Φ (⟨k + 1, h⟩ : Fin 32) ∗ bigSep (upto k) Φ) := by
  rw [upto_succ k h, bigSep_insert (notMem_upto k h)]
  rfl

theorem share_step (k : ℕ) :
    ((ℓ ↦[I]{remShr k} f) : sProp 𝕄) = iprop((ℓ ↦[I]{sendShr (k + 1)} f) ∗ ℓ ↦[I]{remShr (k + 1)} f) :=
  have hs := pointsTo_share (ℓ := ℓ) (I := I) (f := f) (remShr_split k)
  BI.equiv_iff.mp ⟨hs.1, hs.2⟩

/-- A region held whole is, for each k up to 31, the shares of the readers 1 … k and the share left after them. -/
theorem lend (k : ℕ) (hk : k ≤ 31) :
    ((ℓ ↦[I]{fullShare} f) : sProp 𝕄)
      = iprop((bigSep (upto k) fun d => ℓ ↦[I]{sendShr d.val} f) ∗ ℓ ↦[I]{remShr k} f) := by
  induction k with
  | zero =>
    rw [upto_zero, bigSep_empty]
    exact (BI.equiv_iff.mp ⟨emp_sep.1, emp_sep.2⟩).symm
  | succ k ih =>
    have hk' : k + 1 < 32 := by omega
    rw [ih (by omega), upto_peel k hk', share_step I f k]
    exact sep_rot _ _ _

/-- A region held whole is the shares of the 31 readers and the share left after them. -/
theorem lend_all :
    ((ℓ ↦[I]{fullShare} f) : sProp 𝕄)
      = iprop((bigSep others fun d => ℓ ↦[I]{sendShr d.val} f) ∗ ℓ ↦[I]{remShr 31} f) := by
  rw [← upto_31]
  exact lend I f 31 le_rfl

end Lend

/-! ## The result buffer at one share

While the 31 copies of the device's own result slot are pending, that slot is held at the share left after 31
readers; the other slots, landed, are held whole. Setting aside the readers' shares of the other slots presents
the whole buffer at that one share; putting them back restores the slots. -/

/-- Three separate parts, the last one brought next to the first. -/
theorem sep_rot2 (A S B : sProp 𝕄) : iprop(A ∗ S ∗ B) = iprop((A ∗ B) ∗ S) := by
  have h1 : iprop(A ∗ S ∗ B) ⊢ iprop((A ∗ B) ∗ S) := by
    iintro ⟨HA, HS, HB⟩
    isplitl [HA HB]
    · isplitl [HA]; · iexact HA
      iexact HB
    · iexact HS
  have h2 : iprop((A ∗ B) ∗ S) ⊢ iprop(A ∗ S ∗ B) := by
    iintro ⟨⟨HA, HB⟩, HS⟩
    isplitl [HA]; · iexact HA
    isplitl [HS]; · iexact HS
    iexact HB
  exact BI.equiv_iff.mp ⟨h1, h2⟩

/-- The result buffer held at a share: the device's own slot and the slots of the devices before it. -/
theorem res_split_q (c : Dev nD) (q : PosShare TreeShare) (f : Scr F) :
    ((((c : Thread nD τ).loc cc0_scratch2) ↦{q} f) : sProp 𝕄)
      = bigSep (Finset.univ : Finset (Fin 2)) fun h => iprop(resPts c c h q f ∗ bigSep others fun d => resPts c (bwd c d) h q f) := by
  rw [← slot_cover', pointsTo_biUnion _ _ fun x _ y _ hxy => slot_disjoint (fun e => hxy (Prod.ext (congrArg Prod.snd e) (congrArg Prod.fst e))),
    ← Finset.univ_product_univ, SparseCore.bigSep_product]
  refine bigSep_congr fun h _ => ?_
  have himg : (Finset.univ : Finset (Fin 32)) = insert c (others.image (bwd c)) := by
    ext t
    simp only [Finset.mem_univ, Finset.mem_insert, Finset.mem_image, Finset.mem_filter, _root_.true_and, true_iff]
    by_cases ht : t = c
    · exact Or.inl ht
    · refine Or.inr ⟨⟨(c.val + 32 - t.val) % 32, Nat.mod_lt _ (by decide)⟩, ?_, ?_⟩
      · intro h0
        have h0' : (c.val + 32 - t.val) % 32 = 0 := congrArg Fin.val h0
        have hc : c.val < 32 := c.isLt; have ht' : t.val < 32 := t.isLt
        exact ht (Fin.ext (by show t.val = c.val; omega))
      · apply Fin.ext; have hc : c.val < 32 := c.isLt; have hc : t.val < 32 := t.isLt
        show (c.val + 32 - (c.val + 32 - t.val) % 32) % 32 = t.val; omega
  have hnot : c ∉ others.image (bwd c) := by
    simp only [Finset.mem_image, Finset.mem_filter, Finset.mem_univ, _root_.true_and, not_exists, not_and]
    intro d hd e
    have e' : (c.val + 32 - d.val) % 32 = c.val := congrArg Fin.val e
    have hc : c.val < 32 := c.isLt; have := d.isLt
    exact hd (Fin.ext (by show d.val = 0; omega))
  have hinj : Set.InjOn (bwd c) (others : Finset (Fin 32)) := by
    intro a _ b _ e
    have e' : (c.val + 32 - a.val) % 32 = (c.val + 32 - b.val) % 32 := congrArg Fin.val e
    have hc : c.val < 32 := c.isLt; have := a.isLt; have := b.isLt
    exact Fin.ext (by omega)
  rw [himg, bigSep_insert hnot, bigSep_image_of_injOn hinj]
  rfl

/-- A half slot of the result buffer held whole: the 31 readers' shares of it and the share left after them. -/
theorem resPts_lend (c : Dev nD) (t : Fin 32) (h : Fin 2) (f : Scr F) :
    (resPts c t h fullShare f : sProp 𝕄)
      = iprop((bigSep others fun e => resPts c t h (sendShr e.val) f) ∗ resPts c t h (remShr 31) f) := by
  unfold resPts
  exact lend_all _ _

/-- The own slot at the share left after 31 readers and the other slots whole: the whole buffer at that share,
    and the readers' shares of the other slots set aside. An equation: read right to left it puts them back. -/
theorem res_present (c : Dev nD) (f : Scr F) :
    (bigSep (Finset.univ : Finset (Fin 2)) fun h =>
        iprop(resPts c c h (remShr 31) f ∗ bigSep others fun d => resPts c (bwd c d) h fullShare f) : sProp 𝕄)
      = iprop((((c : Thread nD τ).loc cc0_scratch2) ↦{remShr 31} f)
          ∗ bigSep (Finset.univ : Finset (Fin 2)) fun h => bigSep others fun d => bigSep others fun e =>
              resPts c (bwd c d) h (sendShr e.val) f) := by
  rw [res_split_q c (remShr 31) f]
  refine Eq.trans ?_ (bigSep_sep' _ _ _)
  refine bigSep_congr fun h _ => ?_
  have e1 : (bigSep others fun d => resPts c (bwd c d) h fullShare f : sProp 𝕄)
      = iprop((bigSep others fun d => bigSep others fun e => resPts c (bwd c d) h (sendShr e.val) f)
          ∗ bigSep others fun d => resPts c (bwd c d) h (remShr 31) f) :=
    Eq.trans (bigSep_congr fun d _ => resPts_lend c (bwd c d) h f) (bigSep_sep' _ _ _)
  rw [e1]
  exact sep_rot2 _ _ _

/-- info: 'Cert.KernelIdeal.Proto.lend' depends on axioms: [propext, Classical.choice, Quot.sound] -/
#guard_msgs in #print axioms lend
/-- info: 'Cert.KernelIdeal.Proto.res_present' depends on axioms: [propext, Classical.choice, Quot.sound] -/
#guard_msgs in #print axioms res_present

end Cert.KernelIdeal.Proto
end
-- ==== Proof.Close.lean ====
import proofs.«900454_g7700000000000455_dist_matmul_relu_kshard_i_m512_n512_k256_v7x_i32_f32_1_alg».proof.Proof.Gen.KernelIdeal
import proofs.«900454_g7700000000000455_dist_matmul_relu_kshard_i_m512_n512_k256_v7x_i32_f32_1_alg».proof.Proof.Gen.KernelIdeal.Skeleton
import proofs.«900454_g7700000000000455_dist_matmul_relu_kshard_i_m512_n512_k256_v7x_i32_f32_1_alg».proof.Proof.Gen.KernelIdeal.Launch
import proofs.«900454_g7700000000000455_dist_matmul_relu_kshard_i_m512_n512_k256_v7x_i32_f32_1_alg».proof.Proof.Tables
import proofs.«900454_g7700000000000455_dist_matmul_relu_kshard_i_m512_n512_k256_v7x_i32_f32_1_alg».proof.Proof.Data
import proofs.«900454_g7700000000000455_dist_matmul_relu_kshard_i_m512_n512_k256_v7x_i32_f32_1_alg».proof.Proof.Regroup
import proofs.«900454_g7700000000000455_dist_matmul_relu_kshard_i_m512_n512_k256_v7x_i32_f32_1_alg».proof.Proof.LaunchKit
import proofs.«900454_g7700000000000455_dist_matmul_relu_kshard_i_m512_n512_k256_v7x_i32_f32_1_alg».proof.Proof.LaunchGlob
import proofs.«900454_g7700000000000455_dist_matmul_relu_kshard_i_m512_n512_k256_v7x_i32_f32_1_alg».proof.Proof.LaunchStart
import Idealize.ShloMosaic.Lib.Pipeline.Launch
import Idealize.ShloMosaic.Lib.Pipeline.Kit
import Idealize.ShloMosaic.Lib.Tactic

set_option maxRecDepth 16384

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ)

/-! ## The cells of a device's DMA semaphores, by name -/

theorem kcell_send (c : Dev nD) (h : Fin 2) (d : Fin 32) : kcell (c, some (0, h, d)) = sendCell c h d := by
  show (if (0 : Fin 3) = 0 then sendCell c h d else if (0 : Fin 3) = 1 then recv1Cell c h d else recv2Cell c h d) = _
  rw [if_pos rfl]
theorem kcell_recv1 (c : Dev nD) (h : Fin 2) (d : Fin 32) : kcell (c, some (1, h, d)) = recv1Cell c h d := by
  show (if (1 : Fin 3) = 0 then sendCell c h d else if (1 : Fin 3) = 1 then recv1Cell c h d else recv2Cell c h d) = _
  rw [if_neg (by decide), if_pos rfl]
theorem kcell_recv2 (c : Dev nD) (h : Fin 2) (d : Fin 32) : kcell (c, some (2, h, d)) = recv2Cell c h d := by
  show (if (2 : Fin 3) = 0 then sendCell c h d else if (2 : Fin 3) = 1 then recv1Cell c h d else recv2Cell c h d) = _
  rw [if_neg (by decide), if_neg (by decide)]

theorem inv_send (K : CellIx → ℕ) (c : Dev nD) (h : Fin 2) (d : Fin 32) :
    (invs m K : sProp 𝕄) ⊢ cellInv ER (sched m) (K (c, some (0, h, d))) (sendCell c h d) := by
  unfold invs
  have e := bigSep_elim' (Φ := fun x : CellIx => (cellInv ER (sched m) (K x) (kcell x) : sProp 𝕄)) (Finset.mem_univ ((c, some (0, h, d)) : CellIx))
  simp only [kcell_send] at e
  exact e
theorem inv_recv1 (K : CellIx → ℕ) (c : Dev nD) (h : Fin 2) (d : Fin 32) :
    (invs m K : sProp 𝕄) ⊢ cellInv ER (sched m) (K (c, some (1, h, d))) (recv1Cell c h d) := by
  unfold invs
  have e := bigSep_elim' (Φ := fun x : CellIx => (cellInv ER (sched m) (K x) (kcell x) : sProp 𝕄)) (Finset.mem_univ ((c, some (1, h, d)) : CellIx))
  simp only [kcell_recv1] at e
  exact e
theorem inv_recv2 (K : CellIx → ℕ) (c : Dev nD) (h : Fin 2) (d : Fin 32) :
    (invs m K : sProp 𝕄) ⊢ cellInv ER (sched m) (K (c, some (2, h, d))) (recv2Cell c h d) := by
  unfold invs
  have e := bigSep_elim' (Φ := fun x : CellIx => (cellInv ER (sched m) (K x) (kcell x) : sProp 𝕄)) (Finset.mem_univ ((c, some (2, h, d)) : CellIx))
  simp only [kcell_recv2] at e
  exact e

/-! ## Closing a cell past its last round

A send cell has duties in rounds 0 and 1 only, a receive cell in round 0 only: its owner, past those rounds with
nothing taken, closes the cell and keeps the semaphore at zero. -/

theorem close_send (κ : ℕ) (c : Dev nD) (h : Fin 2) (d : Fin 32) (hd : d ≠ 0) :
    iprop(cellInv ER (sched m) κ (sendCell c h d) ∗ atPos ER (sendCell c h d) 2 ∅ 0) ⊢ iprop(|={Set.univ}=> semVal (sendCell c h d) 0) :=
  Rounds.cell_close ER (sched m) (Set.mem_univ _) (fun hu => hu) (R := 2) fun r hr => by
    rw [duties_send m c h d hd r, if_neg (by omega)]

theorem close_recv1 (κ : ℕ) (c : Dev nD) (h : Fin 2) (d : Fin 32) (hd : d ≠ 0) :
    iprop(cellInv ER (sched m) κ (recv1Cell c h d) ∗ atPos ER (recv1Cell c h d) 1 ∅ 0) ⊢ iprop(|={Set.univ}=> semVal (recv1Cell c h d) 0) :=
  Rounds.cell_close ER (sched m) (Set.mem_univ _) (fun hu => hu) (R := 1) fun r hr => by
    rw [duties_recv1 m c h d hd r, if_neg (by omega)]

theorem close_recv2 (κ : ℕ) (c : Dev nD) (h : Fin 2) (d : Fin 32) (hd : d ≠ 0) :
    iprop(cellInv ER (sched m) κ (recv2Cell c h d) ∗ atPos ER (recv2Cell c h d) 1 ∅ 0) ⊢ iprop(|={Set.univ}=> semVal (recv2Cell c h d) 0) :=
  Rounds.cell_close ER (sched m) (Set.mem_univ _) (fun hu => hu) (R := 1) fun r hr => by
    rw [duties_recv2 m c h d hd r, if_neg (by omega)]

/-- The three cells of one column half and one distance. -/
theorem close_hd (K : CellIx → ℕ) (c : Dev nD) (h : Fin 2) (d : Fin 32) (hd : d ≠ 0) :
    iprop(invs m K ∗ iprop(atPos ER (sendCell c h d) 2 ∅ 0 ∗ atPos ER (recv1Cell c h d) 1 ∅ 0 ∗ atPos ER (recv2Cell c h d) 1 ∅ 0))
      ⊢ iprop(|={Set.univ}=> iprop(semVal (sendCell c h d) 0 ∗ semVal (recv1Cell c h d) 0 ∗ semVal (recv2Cell c h d) 0)) := by
  iintro ⟨#HI, Ha, Hb, Hc⟩
  imod (close_send m (K (c, some (0, h, d))) c h d hd) $$ [Ha] with Hsa
  · isplitr; · iapply (inv_send m K c h d); iexact HI
    iexact Ha
  imod (close_recv1 m (K (c, some (1, h, d))) c h d hd) $$ [Hb] with Hsb
  · isplitr; · iapply (inv_recv1 m K c h d); iexact HI
    iexact Hb
  imod (close_recv2 m (K (c, some (2, h, d))) c h d hd) $$ [Hc] with Hsc
  · isplitr; · iapply (inv_recv2 m K c h d); iexact HI
    iexact Hc
  imodintro
  isplitl [Hsa]; · iexact Hsa
  isplitl [Hsb]; · iexact Hsb
  iexact Hsc

/-- All the cells of the distances 1 … 31. -/
theorem close_others (K : CellIx → ℕ) (c : Dev nD) :
    iprop(invs m K ∗ bigSep (Finset.univ : Finset (Fin 2)) fun h => bigSep others fun d =>
        iprop(atPos ER (sendCell c h d) 2 ∅ 0 ∗ atPos ER (recv1Cell c h d) 1 ∅ 0 ∗ atPos ER (recv2Cell c h d) 1 ∅ 0))
      ⊢ iprop(|={Set.univ}=> bigSep (Finset.univ : Finset (Fin 2)) fun h => bigSep others fun d =>
        iprop(semVal (sendCell c h d) 0 ∗ semVal (recv1Cell c h d) 0 ∗ semVal (recv2Cell c h d) 0)) := by
  refine (bigSep_with_persistent (R := invs m K)
    (Ψ := fun h => iprop(|={Set.univ}=> bigSep others fun d =>
      iprop(semVal (sendCell c h d) 0 ∗ semVal (recv1Cell c h d) 0 ∗ semVal (recv2Cell c h d) 0))) fun h _ => ?_).trans (bigSep_fupd _ _)
  refine (bigSep_with_persistent (R := invs m K)
    (Ψ := fun d => iprop(|={Set.univ}=> iprop(semVal (sendCell c h d) 0 ∗ semVal (recv1Cell c h d) 0 ∗ semVal (recv2Cell c h d) 0))) fun d hd => ?_).trans (bigSep_fupd _ _)
  exact close_hd m K c h d (Finset.mem_filter.mp hd).2

/-! ## All the device's DMA semaphores at zero -/

/-- The semaphores at zero: those of distance 0, which no copy uses, and those of the distances 1 … 31. -/
theorem semsZero_split (c : Dev nD) :
    (semsZero c : sProp 𝕄) = iprop(zeroSems c ∗ bigSep (Finset.univ : Finset (Fin 2)) fun h => bigSep others fun d =>
      iprop(semVal (sendCell c h d) 0 ∗ semVal (recv1Cell c h d) 0 ∗ semVal (recv2Cell c h d) 0)) := by
  unfold semsZero zeroSems
  exact Eq.trans (bigSep_congr fun h _ => bigSep_univ_eq_zero_sep_others _) (bigSep_sep' _ _ _)

/-- The device's cells past their last rounds, with the semaphores of distance 0 already at zero: all its DMA
    semaphores at zero. -/
theorem close_all (K : CellIx → ℕ) (c : Dev nD) :
    iprop(invs m K ∗ zeroSems c ∗ bigSep (Finset.univ : Finset (Fin 2)) fun h => bigSep others fun d =>
        iprop(atPos ER (sendCell c h d) 2 ∅ 0 ∗ atPos ER (recv1Cell c h d) 1 ∅ 0 ∗ atPos ER (recv2Cell c h d) 1 ∅ 0))
      ⊢ iprop(|={Set.univ}=> semsZero c) := by
  rw [semsZero_split]
  iintro ⟨#HI, HZ, HP⟩
  imod (close_others m K c) $$ [HP] with HS
  · isplitr; · iexact HI
    iexact HP
  imodintro
  isplitl [HZ]; · iexact HZ
  iexact HS

/-- info: 'Cert.KernelIdeal.Proto.close_all' depends on axioms: [propext, Classical.choice, Quot.sound] -/
#guard_msgs in #print axioms close_all

end Cert.KernelIdeal.Proto
end
-- ==== Proof.Tail.lean ====
import proofs.«900454_g7700000000000455_dist_matmul_relu_kshard_i_m512_n512_k256_v7x_i32_f32_1_alg».proof.Proof.Gen.KernelIdeal
import proofs.«900454_g7700000000000455_dist_matmul_relu_kshard_i_m512_n512_k256_v7x_i32_f32_1_alg».proof.Proof.Gen.KernelIdeal.Skeleton
import proofs.«900454_g7700000000000455_dist_matmul_relu_kshard_i_m512_n512_k256_v7x_i32_f32_1_alg».proof.Proof.Gen.KernelIdeal.Launch
import proofs.«900454_g7700000000000455_dist_matmul_relu_kshard_i_m512_n512_k256_v7x_i32_f32_1_alg».proof.Proof.Slots
import proofs.«900454_g7700000000000455_dist_matmul_relu_kshard_i_m512_n512_k256_v7x_i32_f32_1_alg».proof.Proof.HalfSum
import proofs.«900454_g7700000000000455_dist_matmul_relu_kshard_i_m512_n512_k256_v7x_i32_f32_1_alg».proof.Proof.Shares
import proofs.«900454_g7700000000000455_dist_matmul_relu_kshard_i_m512_n512_k256_v7x_i32_f32_1_alg».proof.Proof.Close
import Idealize.ShloMosaic.Lib.Pipeline.Launch
import Idealize.ShloMosaic.Lib.Pipeline.Kit
import Idealize.ShloMosaic.Lib.Tactic

set_option maxRecDepth 16384

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ)

/-! ## Contents off a half slot do not matter -/

theorem partPts_congr (c : Dev nD) (t : Fin 32) (h : Fin 2) (q : PosShare TreeShare) {f g : Scr F}
    (hfg : ∀ i ∈ (slot t h).set, f i = g i) : (partPts c t h q f : sProp 𝕄) = partPts c t h q g := by
  unfold partPts; exact pointsTo_congr hfg
theorem gathPts_congr (c : Dev nD) (t : Fin 32) (h : Fin 2) (q : PosShare TreeShare) {f g : Scr F}
    (hfg : ∀ i ∈ (slot t h).set, f i = g i) : (gathPts c t h q f : sProp 𝕄) = gathPts c t h q g := by
  unfold gathPts; exact pointsTo_congr hfg
theorem resPts_congr (c : Dev nD) (t : Fin 32) (h : Fin 2) (q : PosShare TreeShare) {f g : Scr F}
    (hfg : ∀ i ∈ (slot t h).set, f i = g i) : (resPts c t h q f : sProp 𝕄) = resPts c t h q g := by
  unfold resPts; exact pointsTo_congr hfg

/-! ## The last load: the whole result buffer while the own slot is lent -/

/-- The result buffer as the device holds it at the last load: its own slot at the share left after the 31
    pending copies, the 31 landed slots whole, all at the result. -/
def resAll (c : Dev nD) : sProp 𝕄 :=
  bigSep (Finset.univ : Finset (Fin 2)) fun h =>
    iprop(resPts c c h (remShr 31) (resC m) ∗ bigSep others fun d => resPts c (bwd c d) h fullShare (resC m))

theorem resAll_eq (c : Dev nD) : resAll m c = bigSep (Finset.univ : Finset (Fin 2)) fun h =>
    iprop(resPts c c h (remShr 31) (resC m) ∗ bigSep others fun d => resPts c (bwd c d) h fullShare (resC m)) := rfl

variable {α : Type}

/-- The load of the whole result buffer reads the result; what the device holds of the buffer comes back. -/
theorem final_load (c : Dev nD) (off : Fin 3 → ℕ) (hoff : off = ![0, 0, 0])
    (inb : ∀ a, off a + S32x16x512.size a ≤ S32x16x512.size a)
    (hl : (resM : Memref sig .tc .vmem S32x16x512 .bf16).view.LoadsAt (Rect.unit (s := S32x16x512) off S32x16x512.size inb).toLoadRect)
    (k : Vec F S32x16x512 .bf16 → Prog (TpuEff nD τ sig (Elt F) Λ₀ .tc) α) (Q : α → sProp 𝕄) :
    iprop(resAll m c ∗ (resAll m c -∗ wp frame (wpE (defs₀ (F := F)) Variants.none c none) Set.univ (k (resC m)) Q))
    ⊢ wp frame (wpE (defs₀ (F := F)) Variants.none c none) Set.univ
        (.op (.load (resM : Memref sig .tc .vmem S32x16x512 .bf16) (Rect.unit (s := S32x16x512) off S32x16x512.size inb).toLoadRect hl) k) Q := by
  have hz : off = fun _ => 0 := hoff.trans (funext fun a => by fin_cases a <;> rfl)
  have e : (resM : Memref sig .tc .vmem S32x16x512 .bf16).view.readAt (Elt F) (Rect.unit (s := S32x16x512) off S32x16x512.size inb).toLoadRect (resC m) = resC m :=
    Memref.readAt_unit_zero (Elt F) cc0_scratch2 hz _ _
  rw [resAll_eq, res_present]
  iintro ⟨⟨HW, HA⟩, Hk⟩
  iapply (wp_load Variants.none (c : Thread nD τ) none Set.univ (m := resM) (r := (Rect.unit (s := S32x16x512) off S32x16x512.size inb).toLoadRect)
      (S := Finset.univ) (q := remShr 31) (f := resC m) (Finset.subset_univ _)) $$ HW
  iintro HW
  rw [e]
  iapply Hk
  isplitl [HW]; · iexact HW
  iexact HA

/-! ## The three scratch buffers whole again -/

theorem cols_disjoint : Disjoint (cols 0).set (cols 1).set := by
  rw [Finset.disjoint_left]
  intro i h0 h1
  have a := mem_cols.mp h0
  have b := mem_cols.mp h1
  have a2 : (i 2).val < 256 * (0 : Fin 2).val + 256 := a.2
  have b1 : 256 * (1 : Fin 2).val ≤ (i 2).val := b.1
  have e0 : (0 : Fin 2).val = 0 := rfl
  have e1 : (1 : Fin 2).val = 1 := rfl
  omega

theorem cols_union : (cols 0).set ∪ (cols 1).set = (Finset.univ : Finset S32x16x512.Idx) := by
  ext i
  rw [Finset.mem_union, mem_cols, mem_cols]
  have h2 : (i 2).val < 512 := (i 2).isLt
  have e0 : (0 : Fin 2).val = 0 := rfl
  have e1 : (1 : Fin 2).val = 1 := rfl
  constructor
  · intro _; exact Finset.mem_univ i
  · intro _
    by_cases hlt : (i 2).val < 256
    · exact Or.inl ⟨by omega, by omega⟩
    · exact Or.inr ⟨by omega, by omega⟩

/-- The gathering buffer's two column halves, at whatever they hold, are the buffer whole at some contents. -/
theorem gath_join (c : Dev nD) (G0 G1 : Scr F) :
    iprop((((c : Thread nD τ).loc cc0_scratch1) ↦[(cols 0).set]{fullShare} G0) ∗ (((c : Thread nD τ).loc cc0_scratch1) ↦[(cols 1).set]{fullShare} G1))
      ⊢ ((((c : Thread nD τ).loc cc0_scratch1) ↦{fullShare} ((cols 1).set.piecewise G1 G0)) : sProp 𝕄) :=
  (pointsTo_join cols_disjoint).trans (Entails.of_eq (by rw [cols_union]))

/-- The result buffer whole from the own slot's shares (the share left after the 31 copies and the 31 shares they
    return) and the 31 landed slots. -/
theorem res_join (c : Dev nD) (f : Scr F) :
    (bigSep (Finset.univ : Finset (Fin 2)) fun h =>
        iprop(iprop(resPts c c h (remShr 31) f ∗ bigSep others fun e => resPts c c h (sendShr e.val) f)
          ∗ bigSep others fun d => resPts c (bwd c d) h fullShare f) : sProp 𝕄)
      ⊢ ((((c : Thread nD τ).loc cc0_scratch2) ↦{fullShare} f) : sProp 𝕄) := by
  rw [res_split_q c fullShare f]
  refine bigSep_mono' fun h _ => ?_
  iintro ⟨⟨HA, HB⟩, HC⟩
  isplitl [HA HB]
  · iapply (Entails.of_eq (resPts_lend c c h f).symm)
    isplitl [HB]; · iexact HB
    iexact HA
  · iexact HC

/-- The ending: every cell past its last round, the product buffer's 64 half slots back, the gathering buffer's two
    column halves, the result buffer's own slot with its 31 lent shares returned and its 31 landed slots: the three
    scratch buffers whole at some contents and every DMA semaphore of the device at zero. -/
theorem finish (K : CellIx → ℕ) (c : Dev nD) (G0 G1 : Scr F) :
    iprop(invs m K ∗ zeroSems c
      ∗ (bigSep (Finset.univ : Finset (Fin 2)) fun h => bigSep others fun d =>
          iprop(atPos ER (sendCell c h d) 2 ∅ 0 ∗ atPos ER (recv1Cell c h d) 1 ∅ 0 ∗ atPos ER (recv2Cell c h d) 1 ∅ 0))
      ∗ (bigSep (Finset.univ : Finset (Fin 32 × Fin 2)) fun x => partPts c x.1 x.2 fullShare (partC m c))
      ∗ iprop((((c : Thread nD τ).loc cc0_scratch1) ↦[(cols 0).set]{fullShare} G0) ∗ (((c : Thread nD τ).loc cc0_scratch1) ↦[(cols 1).set]{fullShare} G1))
      ∗ (bigSep (Finset.univ : Finset (Fin 2)) fun h =>
          iprop(iprop(resPts c c h (remShr 31) (resC m) ∗ bigSep others fun e => resPts c c h (sendShr e.val) (resC m))
            ∗ bigSep others fun d => resPts c (bwd c d) h fullShare (resC m))))
    ⊢ iprop(|={Set.univ}=> Φ₁ c) := by
  unfold Φ₁ scratch
  iintro ⟨#HI, HZ, HP, H0, ⟨HGa, HGb⟩, HRs⟩
  imod (close_all m K c) $$ [HZ HP] with HS
  · isplitr; · iexact HI
    isplitl [HZ]; · iexact HZ
    iexact HP
  imodintro
  isplitl [H0 HGa HGb HRs]
  · isplitl [H0]
    · iexists (partC m c)
      iapply (Entails.of_eq (scratch0_split c fullShare (partC m c)).symm)
      iexact H0
    isplitl [HGa HGb]
    · iexists ((cols 1).set.piecewise G1 G0)
      iapply (gath_join c G0 G1)
      isplitl [HGa]; · iexact HGa
      iexact HGb
    · iexists (resC m)
      iapply (res_join c (resC m))
      iexact HRs
  · iexact HS

/-- info: 'Cert.KernelIdeal.Proto.final_load' depends on axioms: [propext, Classical.choice, Quot.sound] -/
#guard_msgs in #print axioms final_load
/-- info: 'Cert.KernelIdeal.Proto.finish' depends on axioms: [propext, Classical.choice, Quot.sound] -/
#guard_msgs in #print axioms finish

end Cert.KernelIdeal.Proto
end
-- ==== Proof.Tail2.lean ====
import proofs.«900454_g7700000000000455_dist_matmul_relu_kshard_i_m512_n512_k256_v7x_i32_f32_1_alg».proof.Proof.Gen.KernelIdeal
import proofs.«900454_g7700000000000455_dist_matmul_relu_kshard_i_m512_n512_k256_v7x_i32_f32_1_alg».proof.Proof.Gen.KernelIdeal.Skeleton
import proofs.«900454_g7700000000000455_dist_matmul_relu_kshard_i_m512_n512_k256_v7x_i32_f32_1_alg».proof.Proof.Gen.KernelIdeal.Launch
import proofs.«900454_g7700000000000455_dist_matmul_relu_kshard_i_m512_n512_k256_v7x_i32_f32_1_alg».proof.Proof.Slots
import proofs.«900454_g7700000000000455_dist_matmul_relu_kshard_i_m512_n512_k256_v7x_i32_f32_1_alg».proof.Proof.HalfSum
import proofs.«900454_g7700000000000455_dist_matmul_relu_kshard_i_m512_n512_k256_v7x_i32_f32_1_alg».proof.Proof.Shares
import proofs.«900454_g7700000000000455_dist_matmul_relu_kshard_i_m512_n512_k256_v7x_i32_f32_1_alg».proof.Proof.Close
import proofs.«900454_g7700000000000455_dist_matmul_relu_kshard_i_m512_n512_k256_v7x_i32_f32_1_alg».proof.Proof.Tail
import Idealize.ShloMosaic.Lib.Pipeline.Launch
import Idealize.ShloMosaic.Lib.Pipeline.Kit
import Idealize.ShloMosaic.Lib.Tactic

set_option maxRecDepth 16384

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ)

/-! ## The same by column half

The families over the two column halves written as their two members, and the product buffer's half slots as the
own slot's pair and, per column half, the slots of the places 1 … 31 on. -/

theorem resAll_two (c : Dev nD) :
    resAll m c = iprop(iprop(resPts c c 0 (remShr 31) (resC m) ∗ bigSep others fun d => resPts c (bwd c d) 0 fullShare (resC m))
      ∗ iprop(resPts c c 1 (remShr 31) (resC m) ∗ bigSep others fun d => resPts c (bwd c d) 1 fullShare (resC m))) := by
  rw [resAll_eq, bigSep_univ_two]

/-- Stepping forward from c, as a bijection of the 32 places. -/
def fwdPlace (c : Dev nD) : Fin 32 ≃ Dev nD where
  toFun d := fwd c d
  invFun t := ⟨(t.val + 32 - c.val) % 32, Nat.mod_lt _ (by decide)⟩
  left_inv d := Fin.ext (by
    have hc : c.val < 32 := c.isLt
    have := d.isLt
    show ((c.val + d.val) % 32 + 32 - c.val) % 32 = d.val
    omega)
  right_inv t := Fin.ext (by
    have hc : c.val < 32 := c.isLt
    have ht : t.val < 32 := t.isLt
    show (c.val + (t.val + 32 - c.val) % 32) % 32 = t.val
    omega)

theorem fwd_place_zero (c : Dev nD) : fwd c (0 : Fin 32) = c := Fin.ext (by
  have hc : c.val < 32 := c.isLt
  show (c.val + 0) % 32 = c.val
  omega)

/-- The product buffer's 64 half slots from the own slot's pair and the slots 1 … 31 places on, by column half. -/
theorem part_join (c : Dev nD) (f : Scr F) :
    iprop(iprop(partPts c c 0 fullShare f ∗ partPts c c 1 fullShare f)
        ∗ (bigSep others fun d => partPts c (fwd c d) 0 fullShare f) ∗ (bigSep others fun d => partPts c (fwd c d) 1 fullShare f))
      ⊢ (bigSep (Finset.univ : Finset (Fin 32 × Fin 2)) fun x => partPts c x.1 x.2 fullShare f : sProp 𝕄) := by
  rw [bigSep_univ_prod, bigSep_univ_equiv (fwdPlace c), bigSep_univ_eq_zero_sep_others]
  simp only [bigSep_univ_two, bigSep_sep']
  show _ ⊢ iprop(iprop(partPts c (fwd c 0) 0 fullShare f ∗ partPts c (fwd c 0) 1 fullShare f)
      ∗ (bigSep others fun d => partPts c (fwd c d) 0 fullShare f) ∗ (bigSep others fun d => partPts c (fwd c d) 1 fullShare f))
  rw [fwd_place_zero]

/-- The ending with every family given by column half. -/
theorem finish2 (K : CellIx → ℕ) (c : Dev nD) (G0 G1 : Scr F) :
    iprop(invs m K ∗ zeroSems c
      ∗ (bigSep others fun d => iprop(atPos ER (sendCell c 0 d) 2 ∅ 0 ∗ atPos ER (recv1Cell c 0 d) 1 ∅ 0 ∗ atPos ER (recv2Cell c 0 d) 1 ∅ 0))
      ∗ (bigSep others fun d => iprop(atPos ER (sendCell c 1 d) 2 ∅ 0 ∗ atPos ER (recv1Cell c 1 d) 1 ∅ 0 ∗ atPos ER (recv2Cell c 1 d) 1 ∅ 0))
      ∗ iprop(iprop(partPts c c 0 fullShare (partC m c) ∗ partPts c c 1 fullShare (partC m c))
          ∗ (bigSep others fun d => partPts c (fwd c d) 0 fullShare (partC m c)) ∗ (bigSep others fun d => partPts c (fwd c d) 1 fullShare (partC m c)))
      ∗ iprop((((c : Thread nD τ).loc cc0_scratch1) ↦[(cols 0).set]{fullShare} G0) ∗ (((c : Thread nD τ).loc cc0_scratch1) ↦[(cols 1).set]{fullShare} G1))
      ∗ iprop(iprop(resPts c c 0 (remShr 31) (resC m) ∗ bigSep others fun e => resPts c c 0 (sendShr e.val) (resC m))
          ∗ bigSep others fun d => resPts c (bwd c d) 0 fullShare (resC m))
      ∗ iprop(iprop(resPts c c 1 (remShr 31) (resC m) ∗ bigSep others fun e => resPts c c 1 (sendShr e.val) (resC m))
          ∗ bigSep others fun d => resPts c (bwd c d) 1 fullShare (resC m)))
    ⊢ iprop(|={Set.univ}=> Φ₁ c) := by
  iintro ⟨#HI, HZ, HP0, HP1, HPart, HG, HR0, HR1⟩
  iapply (finish m K c G0 G1)
  isplitr; · iexact HI
  isplitl [HZ]; · iexact HZ
  isplitl [HP0 HP1]
  · iapply (Entails.of_eq (bigSep_univ_two (fun h => bigSep others fun d =>
      iprop(atPos ER (sendCell c h d) 2 ∅ 0 ∗ atPos ER (recv1Cell c h d) 1 ∅ 0 ∗ atPos ER (recv2Cell c h d) 1 ∅ 0))).symm)
    isplitl [HP0]; · iexact HP0
    iexact HP1
  isplitl [HPart]; · iapply (part_join c (partC m c)); iexact HPart
  isplitl [HG]; · iexact HG
  iapply (Entails.of_eq (bigSep_univ_two (fun h =>
      iprop(iprop(resPts c c h (remShr 31) (resC m) ∗ bigSep others fun e => resPts c c h (sendShr e.val) (resC m))
        ∗ bigSep others fun d => resPts c (bwd c d) h fullShare (resC m)))).symm)
  isplitl [HR0]; · iexact HR0
  iexact HR1

/-- info: 'Cert.KernelIdeal.Proto.finish2' depends on axioms: [propext, Classical.choice, Quot.sound] -/
#guard_msgs in #print axioms finish2

end Cert.KernelIdeal.Proto
end
-- ==== Proof.Body.lean ====
import proofs.«900454_g7700000000000455_dist_matmul_relu_kshard_i_m512_n512_k256_v7x_i32_f32_1_alg».proof.Proof.Gen.KernelIdeal
import proofs.«900454_g7700000000000455_dist_matmul_relu_kshard_i_m512_n512_k256_v7x_i32_f32_1_alg».proof.Proof.Gen.KernelIdeal.Skeleton
import proofs.«900454_g7700000000000455_dist_matmul_relu_kshard_i_m512_n512_k256_v7x_i32_f32_1_alg».proof.Proof.Gen.KernelIdeal.Launch
import proofs.«900454_g7700000000000455_dist_matmul_relu_kshard_i_m512_n512_k256_v7x_i32_f32_1_alg».proof.Proof.LaunchRun
import proofs.«900454_g7700000000000455_dist_matmul_relu_kshard_i_m512_n512_k256_v7x_i32_f32_1_alg».proof.Proof.Steps
import proofs.«900454_g7700000000000455_dist_matmul_relu_kshard_i_m512_n512_k256_v7x_i32_f32_1_alg».proof.Proof.Entry
import proofs.«900454_g7700000000000455_dist_matmul_relu_kshard_i_m512_n512_k256_v7x_i32_f32_1_alg».proof.Proof.Entry0
import proofs.«900454_g7700000000000455_dist_matmul_relu_kshard_i_m512_n512_k256_v7x_i32_f32_1_alg».proof.Proof.Levels
import proofs.«900454_g7700000000000455_dist_matmul_relu_kshard_i_m512_n512_k256_v7x_i32_f32_1_alg».proof.Proof.HalfSum
import proofs.«900454_g7700000000000455_dist_matmul_relu_kshard_i_m512_n512_k256_v7x_i32_f32_1_alg».proof.Proof.Tail2
import Idealize.ShloMosaic.Lib.Pipeline.Launch
import Idealize.ShloMosaic.Lib.Pipeline.Kit
import Idealize.ShloMosaic.Lib.Tactic

set_option maxRecDepth 16384

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ) (ρ : Dev nD → PrngReg)

/-! ## The body obligation, and the kernel's run from it

One thread's body, from what the launch hands device c (its ghost state, its credit, the levels, the three scratch
buffers, the unused semaphores at zero, what it owes, the two argument blocks staged) to the result block staged, the
scratch buffers back and every own semaphore at zero. -/

/-- A staging buffer whole, at contents X. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- What the body starts from at the one grid point. -/
def bodyPre (c : Dev nD) : sProp 𝕄 :=
  iprop(Φ₀X m c ∗ (datsX m 0 c).owesAt () t0_0.castSucc
    ∗ (∃ d, stg c cc0_stg0_0 ((datsX m 0 c).before (0 : Fin 3) t0_0 d))
    ∗ (∃ d, stg c cc0_stg1_0 ((datsX m 0 c).before (1 : Fin 3) t0_0 d))
    ∗ (∃ d, stg c cc0_stg2_0 ((datsX m 0 c).before (2 : Fin 3) t0_0 d)))

/-- What it must end in. -/
def bodyPost (c : Dev nD) : sProp 𝕄 :=
  iprop(Φ₁ c ∗ (datsX m 0 c).owesAt () t0_0.succ
    ∗ stg c cc0_stg0_0 (argBlk0 m c) ∗ stg c cc0_stg1_0 (argBlk1 m c) ∗ stg c cc0_stg2_0 (outAt m))

instance reachedOwn_persistent (c : Dev nD) : BI.Persistent (reachedOwn (F := F) c) := by unfold reachedOwn; infer_instance

/-- An input window's staging buffer holds, at the one point, the staged block. -/
theorem before0 (c : Dev nD) (d : (cfg0.win (0 : Fin 3)).block.Idx → Elt F (cfg0.win (0 : Fin 3)).elt) :
    (datsX m 0 c).before (0 : Fin 3) t0_0 d = argBlk0 m c := by
  unfold Dat.before; rw [if_pos (fetch0_0 t0_0)]; rfl
theorem before1 (c : Dev nD) (d : (cfg0.win (1 : Fin 3)).block.Idx → Elt F (cfg0.win (1 : Fin 3)).elt) :
    (datsX m 0 c).before (1 : Fin 3) t0_0 d = argBlk1 m c := by
  unfold Dat.before; rw [if_pos (fetch0_1 t0_0)]; rfl

theorem reachedRecv_of_own (c : Dev nD) : (reachedOwn c : sProp 𝕄) ⊢ reachedRecv c := by
  unfold reachedOwn reachedRecv
  refine bigSep_mono' fun h _ => bigSep_mono' fun d _ => ?_
  iintro ⟨-, H1, H2⟩
  isplitl [H1] <;> iassumption

/-- The barrier part of the tokens a device pays with, as the launch hands them. -/
abbrev barTokens (c : Dev nD) : sProp 𝕄 :=
  if c.val = 0 then bigSep others fun j => iprop(dutyTok ER (barCell (⟨j.val, j.isLt⟩ : Dev nD)) 0 (0 : Fin 32) ∗ reached ER (barCell (⟨j.val, j.isLt⟩ : Dev nD)) 0)
  else iprop(dutyTok ER (barCell (⟨0, by decide⟩ : Dev nD)) 0 (⟨c.val, c.isLt⟩ : Fin 32) ∗ reached ER (barCell (⟨0, by decide⟩ : Dev nD)) 0)

theorem inv_at (K : CellIx → ℕ) (x : CellIx) : (invs m K : sProp 𝕄) ⊢ cellInv ER (sched m) (K x) (kcell x) := by
  unfold invs
  exact bigSep_elim' (Φ := fun x : CellIx => cellInv ER (sched m) (K x) (kcell x)) (Finset.mem_univ x)

/-- The entry handshake on any device: device 0 waits for the 31 others and signals each; any other device signals
    device 0 and waits for it. -/
theorem entry_any (c : Dev nD) (K : CellIx → ℕ) (s0 s1 s2 : Scr F)
    (f2 : Buf (Elt F) ((Memref.whole cc0_stg2_0 : Memref sig .tc .vmem S512x512 .f32).view.loc (c : Thread nD τ)))
    (W : Waits sig Unit) (Q : (Σ' (d0 : Dev nD) (v2 : BitVec 32) (v30 : BitVec 32), BitVec 32) → sProp 𝕄) :
    iprop(pt c (Memref.whole cc0_stg0_0) (argBlk0 m c) ∗ pt c (Memref.whole cc0_stg1_0) (argBlk1 m c) ∗ pt c (Memref.whole cc0_stg2_0) f2
      ∗ pt c (Memref.whole cc0_scratch0) s0 ∗ pt c (Memref.whole cc0_scratch1) s1 ∗ pt c (Memref.whole cc0_scratch2) s2
      ∗ invs m K ∗ barTokens c ∗ reachedRecv c
      ∗ atPos ER (barCell c) 0 ∅ 0 ∗ cred (tallyAt (barCell c) () (if c.val = 0 then 31 else 1)) ∗ levAts L lv
      ∗ owes (c : Thread nD τ) (O₀ c) W
      ∗ (∀ v : (Σ' (d0 : Dev nD) (v2 : BitVec 32) (v30 : BitVec 32), BitVec 32), iprop(⌜v.1 = c⌝ -∗ entryPost m c f2 s1 s2 W -∗ Q v)))
    ⊢ wp frame (wpE (defs₀ (F := F)) Variants.none c none) Set.univ
        (k0_part4 (Memref.whole cc0_stg0_0) (Memref.isWhole_whole _) (Memref.whole cc0_stg1_0) (Memref.isWhole_whole _) (Memref.whole cc0_stg2_0) (Memref.isWhole_whole _)
          (Memref.whole cc0_scratch0) (Memref.isWhole_whole _) (Memref.whole cc0_scratch1) (Memref.isWhole_whole _) (Memref.whole cc0_scratch2) (Memref.isWhole_whole _)
          cc0_scratch3 cc0_scratch4 cc0_scratch5) Q := by
  by_cases hc : c.val = 0
  · have hc1 : k0_cond1 (c : Thread nD τ).1 = 1#1 := cond1_of_eq_zero c hc
    have hc2 : ¬ k0_cond2 (c : Thread nD τ).1 = 1#1 := fun e => by
      rw [show k0_cond2 (c : Thread nD τ).1 = 0#1 from cond2_of_eq_zero c hc] at e; exact absurd e (by decide)
    unfold barTokens
    rw [if_pos hc, if_pos hc]
    iintro ⟨H0, H1, H2, Hs0, Hs1, Hs2, #HI, Htb, #Hrr, Hat, Hcr, #Hlev, HO, Hk⟩
    iapply (entry_zero m c hc hc1 hc2 K s0 s1 s2 f2 W Q)
    isplitl [H0]; · iexact H0
    isplitl [H1]; · iexact H1
    isplitl [H2]; · iexact H2
    isplitl [Hs0]; · iexact Hs0
    isplitl [Hs1]; · iexact Hs1
    isplitl [Hs2]; · iexact Hs2
    isplitr; · iapply (inv_at m K (c, none)); iexact HI
    isplitr
    · iapply (intro_bigSep_of_persistent others (invs m K) _ (fun j _ => inv_at m K (j, none))); iexact HI
    isplitl [Htb]; · iexact Htb
    isplitr; · iexact Hrr
    isplitl [Hat]; · iexact Hat
    isplitl [Hcr]; · iexact Hcr
    isplitr; · iexact Hlev
    isplitl [HO]; · iexact HO
    iexact Hk
  · have hc1 : ¬ k0_cond1 (c : Thread nD τ).1 = 1#1 := fun e => by
      rw [show k0_cond1 (c : Thread nD τ).1 = 0#1 from cond1_of_ne_zero c hc] at e; exact absurd e (by decide)
    have hc2 : k0_cond2 (c : Thread nD τ).1 = 1#1 := cond2_of_ne_zero c hc
    unfold barTokens
    rw [if_neg hc, if_neg hc]
    iintro ⟨H0, H1, H2, Hs0, Hs1, Hs2, #HI, ⟨Htok, #Hr0⟩, #Hrr, Hat, Hcr, #Hlev, HO, Hk⟩
    iapply (entry_nonzero m c hc hc1 hc2 K s0 s1 s2 f2 W Q)
    isplitl [H0]; · iexact H0
    isplitl [H1]; · iexact H1
    isplitl [H2]; · iexact H2
    isplitl [Hs0]; · iexact Hs0
    isplitl [Hs1]; · iexact Hs1
    isplitl [Hs2]; · iexact Hs2
    isplitr; · iapply (inv_at m K (c, none)); iexact HI
    isplitr; · iapply (inv_at m K (dev0, none)); iexact HI
    isplitl [Htok]; · iexact Htok
    isplitr; · iexact Hr0
    isplitr; · iexact Hrr
    isplitl [Hat]; · iexact Hat
    isplitl [Hcr]; · iexact Hcr
    isplitr; · iexact Hlev
    isplitl [HO]; · iexact HO
    iexact Hk

/-! ## The first round of copies -/

/-- Stepping forward from c, as a bijection of the 32 places. -/
def fwdFrom (c : Dev nD) : Fin 32 ≃ Dev nD where
  toFun d := fwd c d
  invFun t := ⟨(t.val + 32 - c.val) % 32, Nat.mod_lt _ (by decide)⟩
  left_inv d := Fin.ext (by
    have hc : c.val < 32 := c.isLt
    have := d.isLt
    show ((c.val + d.val) % 32 + 32 - c.val) % 32 = d.val
    omega)
  right_inv t := Fin.ext (by
    have hc : c.val < 32 := c.isLt
    have ht : t.val < 32 := t.isLt
    show (c.val + (t.val + 32 - c.val) % 32) % 32 = t.val
    omega)

theorem fwd_zero (c : Dev nD) : fwd c (0 : Fin 32) = c := Fin.ext (by
  have hc : c.val < 32 := c.isLt
  show (c.val + 0) % 32 = c.val
  omega)

/-- The product buffer whole is its own slot and the slots d = 1 … 31 places on, by column half. -/
theorem part_split (c : Dev nD) (f : Scr F) :
    (pt c (Memref.whole cc0_scratch0) f : sProp 𝕄)
      ⊢ iprop((partPts c c 0 fullShare f ∗ partPts c c 1 fullShare f)
        ∗ (bigSep others fun d => partPts c (fwd c d) 0 fullShare f) ∗ (bigSep others fun d => partPts c (fwd c d) 1 fullShare f)) := by
  show ((((c : Thread nD τ).loc cc0_scratch0) ↦{fullShare} f) : sProp 𝕄) ⊢ _
  rw [scratch0_split, bigSep_univ_prod, bigSep_univ_equiv (fwdFrom c), bigSep_univ_eq_zero_sep_others]
  simp only [bigSep_univ_two, bigSep_sep']
  show iprop((partPts c (fwd c 0) 0 fullShare f ∗ partPts c (fwd c 0) 1 fullShare f)
      ∗ (bigSep others fun d => partPts c (fwd c d) 0 fullShare f) ∗ (bigSep others fun d => partPts c (fwd c d) 1 fullShare f)) ⊢ _
  rw [fwd_zero]

/-- What device c still owes first receive cells: those of the copies S (and every second receive cell). -/
def owedRem1 (c : Dev nD) (S : Finset (Fin 2 × Fin 32)) : CellTallies nD τ sig Unit :=
  owedRecv2 c + ∑ p ∈ S, tallyAt (recv1Cell (fwd c p.2) p.1 p.2) () N

abbrev pairs : Finset (Fin 2 × Fin 32) := (Finset.univ : Finset (Fin 2)) ×ˢ others

theorem owedRem1_all (c : Dev nD) : owedRecv2 c + owedRecv1 c = owedRem1 c pairs := by
  unfold owedRem1 owedRecv1 pairs
  rw [Finset.sum_product]

theorem owedRem1_erase (c : Dev nD) (S : Finset (Fin 2 × Fin 32)) (p : Fin 2 × Fin 32) (hp : p ∈ S) :
    owedRem1 c S = owedRem1 c (S.erase p) + tallyAt (recv1Cell (fwd c p.2) p.1 p.2) () N := by
  unfold owedRem1
  rw [add_assoc, Finset.sum_erase_add _ _ hp]

theorem reached_send_own (c : Dev nD) (h : Fin 2) (d : Fin 32) (hd : d ∈ others) :
    (reachedOwn c : sProp 𝕄) ⊢ reached ER (sendCell c h d) 0 := by
  unfold reachedOwn
  refine (bigSep_elim' (Finset.mem_univ h)).trans ((bigSep_elim' hd).trans ?_)
  iintro ⟨H, -, -⟩
  iexact H

theorem erase_step {I : Type} [DecidableEq I] (s : Finset I) (i : I) (hi : i ∈ s) (Φ : I → sProp 𝕄) :
    bigSep s Φ ⊢ iprop(Φ i ∗ bigSep (s.erase i) Φ) := Entails.of_eq (bigSep_erase hi)

/-- What the first-round copy at distance d of column half h starts from: the source half slot, what the device
    d places on gave away for it, and the cells' tokens. -/
def todo1 (c : Dev nD) (h : Fin 2) (d : Fin 32) : sProp 𝕄 :=
  iprop(partPts c (fwd c d) h fullShare (partC m c)
    ∗ ((∃ f, gathPts (fwd c d) d h fullShare f) ∗ (∃ f, resPts (fwd c d) c h fullShare f)
        ∗ reached ER (recv1Cell (fwd c d) h d) 0 ∗ reached ER (recv2Cell (fwd c d) h d) 0)
    ∗ (dutyTok ER (sendCell c h d) 0 (0 : Fin 32) ∗ dutyTok ER (sendCell c h d) 1 (0 : Fin 32)
        ∗ dutyTok ER (recv1Cell (fwd c d) h d) 0 (0 : Fin 32) ∗ dutyTok ER (recv2Cell (fwd c d) h d) 0 (0 : Fin 32)))

theorem todo1_eq (c : Dev nD) (h : Fin 2) (d : Fin 32) : todo1 m c h d
    = iprop(partPts c (fwd c d) h fullShare (partC m c)
      ∗ ((∃ f, gathPts (fwd c d) d h fullShare f) ∗ (∃ f, resPts (fwd c d) c h fullShare f)
          ∗ reached ER (recv1Cell (fwd c d) h d) 0 ∗ reached ER (recv2Cell (fwd c d) h d) 0)
      ∗ (dutyTok ER (sendCell c h d) 0 (0 : Fin 32) ∗ dutyTok ER (sendCell c h d) 1 (0 : Fin 32)
          ∗ dutyTok ER (recv1Cell (fwd c d) h d) 0 (0 : Fin 32) ∗ dutyTok ER (recv2Cell (fwd c d) h d) 0 (0 : Fin 32))) := rfl

/-- What it leaves for later: the send cell's credit, and what the second-round copy at the same distance needs. -/
def done1 (c : Dev nD) (h : Fin 2) (d : Fin 32) : sProp 𝕄 :=
  iprop(cred (tallyAt (sendCell c h d) () N) ∗ (∃ f, resPts (fwd c d) c h fullShare f) ∗ reached ER (recv2Cell (fwd c d) h d) 0
    ∗ dutyTok ER (sendCell c h d) 1 (0 : Fin 32) ∗ dutyTok ER (recv2Cell (fwd c d) h d) 0 (0 : Fin 32))

theorem done1_eq (c : Dev nD) (h : Fin 2) (d : Fin 32) : done1 (F := F) c h d
    = iprop(cred (tallyAt (sendCell c h d) () N) ∗ (∃ f, resPts (fwd c d) c h fullShare f) ∗ reached ER (recv2Cell (fwd c d) h d) 0
      ∗ dutyTok ER (sendCell c h d) 1 (0 : Fin 32) ∗ dutyTok ER (recv2Cell (fwd c d) h d) 0 (0 : Fin 32)) := rfl

/-- The first-round copies of column half h: those at the distances S still to start, the others started. -/
def st1 (c : Dev nD) (h : Fin 2) (S : Finset (Fin 32)) : sProp 𝕄 :=
  iprop(bigSep S (todo1 m c h) ∗ bigSep (others \ S) (done1 c h))

theorem merge3 {I : Type} (S : Finset I) (A B C : I → sProp 𝕄) :
    iprop(bigSep S A ∗ bigSep S B ∗ bigSep S C) ⊢ bigSep S (fun i => iprop(A i ∗ B i ∗ C i)) := by
  rw [bigSep_sep', bigSep_sep']

theorem st1_init (c : Dev nD) (h : Fin 2) :
    iprop((bigSep others fun d => partPts c (fwd c d) h fullShare (partC m c))
      ∗ (bigSep others fun d => iprop((∃ f, gathPts (fwd c d) d h fullShare f) ∗ (∃ f, resPts (fwd c d) c h fullShare f)
          ∗ reached ER (recv1Cell (fwd c d) h d) 0 ∗ reached ER (recv2Cell (fwd c d) h d) 0))
      ∗ (bigSep others fun d => iprop(dutyTok ER (sendCell c h d) 0 (0 : Fin 32) ∗ dutyTok ER (sendCell c h d) 1 (0 : Fin 32)
          ∗ dutyTok ER (recv1Cell (fwd c d) h d) 0 (0 : Fin 32) ∗ dutyTok ER (recv2Cell (fwd c d) h d) 0 (0 : Fin 32))))
      ⊢ st1 m c h others := by
  unfold st1 todo1
  rw [Finset.sdiff_self, bigSep_empty]
  iintro ⟨H1, H2, H3⟩
  isplitl
  · iapply (merge3 others _ _ _)
    isplitl [H1]; · iexact H1
    isplitl [H2] <;> iassumption
  · iempintro

theorem sdiff_erase' (S : Finset (Fin 32)) (d : Fin 32) (hdS : d ∈ S) (hS : S ⊆ others) :
    others \ S.erase d = insert d (others \ S) := by
  ext x
  simp only [Finset.mem_sdiff, Finset.mem_erase, Finset.mem_insert, not_and]
  constructor
  · rintro ⟨hx, hn⟩
    by_cases hxd : x = d
    · exact Or.inl hxd
    · exact Or.inr ⟨hx, fun hxS => hn hxd hxS⟩
  · rintro (rfl | ⟨hx, hxS⟩)
    · exact ⟨hS hdS, fun hne => absurd rfl hne⟩
    · exact ⟨hx, fun _ => hxS⟩

theorem done1_insert (c : Dev nD) (h : Fin 2) (S : Finset (Fin 32)) (d : Fin 32) (hdS : d ∈ S) (hS : S ⊆ others) :
    iprop(done1 (F := F) c h d ∗ bigSep (others \ S) (done1 c h)) ⊢ bigSep (others \ S.erase d) (done1 c h) := by
  rw [sdiff_erase' S d hdS hS, bigSep_insert (fun hm => (Finset.mem_sdiff.mp hm).2 hdS)]
  exact .rfl

theorem invSend (K : CellIx → ℕ) (c : Dev nD) (h : Fin 2) (d : Fin 32) :
    (invs m K : sProp 𝕄) ⊢ cellInv ER (sched m) (K (c, some (0, h, d))) (sendCell c h d) := inv_at m K (c, some (0, h, d))
theorem invRecv1 (K : CellIx → ℕ) (c : Dev nD) (h : Fin 2) (d : Fin 32) :
    (invs m K : sProp 𝕄) ⊢ cellInv ER (sched m) (K (c, some (1, h, d))) (recv1Cell c h d) := inv_at m K (c, some (1, h, d))
theorem invRecv2 (K : CellIx → ℕ) (c : Dev nD) (h : Fin 2) (d : Fin 32) :
    (invs m K : sProp 𝕄) ⊢ cellInv ER (sched m) (K (c, some (2, h, d))) (recv2Cell c h d) := inv_at m K (c, some (2, h, d))

/-- One first-round copy: the half slot at distance d of column half h goes to the device d places on. -/
theorem copy1 (c : Dev nD) (h : Fin 2) (d : Fin 32) (hd : d ≠ 0) (S : Finset (Fin 32)) (hdS : d ∈ S) (hS : S ⊆ others)
    (P : Finset (Fin 2 × Fin 32)) (hp : (h, d) ∈ P) (K : CellIx → ℕ) (W : Waits sig Unit)
    {α : Type} (k : PUnit → Prog (TpuEff nD τ sig (Elt F) Λ₀ .tc) α) (Q : α → sProp 𝕄)
    (off : Fin 3 → Nat) (hoff : off = ![(fwd c d).val, 0, 256 * h.val]) (inb : ∀ a, off a + S1x16x256.size a ≤ S32x16x512.size a)
    (hst : ∀ a, (Rect.unit (s := S32x16x512) off S1x16x256.size inb).stride a = 1) (dev : Dev nD) (hdev : dev = fwd c d)
    (hsc) (hsrc) (hdst) (hsem) :
    iprop(invs m K ∗ reachedOwn c ∗ st1 m c h S ∗ owes (c : Thread nD τ) (owedRem1 c P) W
        ∗ ((st1 m c h (S.erase d) ∗ owes (c : Thread nD τ) (owedRem1 c (P.erase (h, d))) W)
            -∗ wp frame (wpE (defs₀ (F := F)) Variants.none c none) Set.univ (k ⟨⟩) Q))
      ⊢ wp frame (wpE (defs₀ (F := F)) Variants.none c none) Set.univ
          (.op (.enqueueDma (((partM : Memref sig .tc .vmem S32x16x512 .bf16).slice (Rect.unit (s := S32x16x512) off S1x16x256.size inb) hst).squeeze S16x256 squeezes_S1x16x256_S16x256)
            (.remote ((dev : Dev nD) : Thread nD τ) (dst1 h d) (.dma (semAt cc0_scratch3 h d)) hsc) (.dma (semAt cc0_scratch4 h d)) hsrc hdst hsem) k) Q := by
  unfold st1
  rw [owedRem1_erase c P (h, d) hp]
  iintro ⟨#HI, #Hro, ⟨Htodo, Hdone⟩, HO, Hk⟩
  ihave HX := (erase_step S d hdS (todo1 m c h)) $$ Htodo
  icases HX with ⟨Hhd, Htodo⟩
  ihave HY := (Entails.of_eq (todo1_eq m c h d)) $$ Hhd
  icases HY with ⟨Hp, ⟨⟨%fd, Hg⟩, Hres, #Hr1, #Hr2⟩, Ht0, Ht1, Htr1, Htr2⟩
  iapply (send1_step' m c h d hd (K (c, some (0, h, d))) (K (fwd c d, some (1, h, d))) fd (owedRem1 c (P.erase (h, d))) W k Q off hoff inb hst dev hdev hsc hsrc hdst hsem) $$ [Hp Hg HO Ht0 Htr1]
  · isplitr; · iapply (invSend m K c h d); iexact HI
    isplitr; · iapply (invRecv1 m K (fwd c d) h d); iexact HI
    isplitl [Hp]; · iexact Hp
    isplitl [Hg]; · iexact Hg
    isplitl [HO]; · iexact HO
    isplitl [Ht0]; · iexact Ht0
    isplitr; · iapply (reached_send_own (F := F) c h d (hS hdS)); iexact Hro
    isplitl [Htr1]; · iexact Htr1
    iexact Hr1
  iintro ⟨Hcr, HO⟩
  iapply Hk
  isplitr [HO]
  · isplitl [Htodo]; · iexact Htodo
    iapply (done1_insert (F := F) c h S d hdS hS)
    isplitr [Hdone]
    · iapply (Entails.of_eq (done1_eq (F := F) c h d).symm)
      isplitl [Hcr]; · iexact Hcr
      isplitl [Hres]; · iexact Hres
      isplitr; · iexact Hr2
      isplitl [Ht1]; · iexact Ht1
      iexact Htr2
    · iexact Hdone
  · iexact HO

/-! ## The waits for the first-round copies to land -/

/-- A device's own cells at distance d of column half h, untouched: their positions and the credit for the two waits. -/
def own1 (c : Dev nD) (h : Fin 2) (d : Fin 32) : sProp 𝕄 :=
  iprop((atPos ER (sendCell c h d) 0 ∅ 0 ∗ atPos ER (recv1Cell c h d) 0 ∅ 0 ∗ atPos ER (recv2Cell c h d) 0 ∅ 0)
    ∗ (cred (tallyAt (recv1Cell c h d) () N) ∗ cred (tallyAt (recv2Cell c h d) () N)))

theorem own1_eq (c : Dev nD) (h : Fin 2) (d : Fin 32) : own1 (F := F) c h d
    = iprop((atPos ER (sendCell c h d) 0 ∅ 0 ∗ atPos ER (recv1Cell c h d) 0 ∅ 0 ∗ atPos ER (recv2Cell c h d) 0 ∅ 0)
      ∗ (cred (tallyAt (recv1Cell c h d) () N) ∗ cred (tallyAt (recv2Cell c h d) () N))) := rfl

/-- The same once the first-round copy has landed: slot d of the gathering buffer holds the sender's part. -/
def landed1 (c : Dev nD) (h : Fin 2) (d : Fin 32) : sProp 𝕄 :=
  iprop((atPos ER (sendCell c h d) 0 ∅ 0 ∗ atPos ER (recv2Cell c h d) 0 ∅ 0 ∗ cred (tallyAt (recv2Cell c h d) () N))
    ∗ atPos ER (recv1Cell c h d) 1 ∅ 0 ∗ reached ER (recv1Cell c h d) 1 ∗ gathPts c d h fullShare (gathC m c))

theorem landed1_eq (c : Dev nD) (h : Fin 2) (d : Fin 32) : landed1 m c h d
    = iprop((atPos ER (sendCell c h d) 0 ∅ 0 ∗ atPos ER (recv2Cell c h d) 0 ∅ 0 ∗ cred (tallyAt (recv2Cell c h d) () N))
      ∗ atPos ER (recv1Cell c h d) 1 ∅ 0 ∗ reached ER (recv1Cell c h d) 1 ∗ gathPts c d h fullShare (gathC m c)) := rfl

def st2 (c : Dev nD) (h : Fin 2) (S : Finset (Fin 32)) : sProp 𝕄 :=
  iprop(bigSep S (own1 c h) ∗ bigSep (others \ S) (landed1 m c h))

theorem merge2 {I : Type} (S : Finset I) (A B : I → sProp 𝕄) :
    iprop(bigSep S A ∗ bigSep S B) ⊢ bigSep S (fun i => iprop(A i ∗ B i)) := by
  rw [bigSep_sep']

theorem st2_init (c : Dev nD) (h : Fin 2) :
    iprop((bigSep others fun d => iprop(atPos ER (sendCell c h d) 0 ∅ 0 ∗ atPos ER (recv1Cell c h d) 0 ∅ 0 ∗ atPos ER (recv2Cell c h d) 0 ∅ 0))
      ∗ (bigSep others fun d => iprop(cred (tallyAt (recv1Cell c h d) () N) ∗ cred (tallyAt (recv2Cell c h d) () N))))
      ⊢ st2 m c h others := by
  unfold st2 own1
  rw [Finset.sdiff_self, bigSep_empty]
  iintro ⟨H1, H2⟩
  isplitl
  · iapply (merge2 others _ _)
    isplitl [H1] <;> iassumption
  · iempintro

theorem landed1_insert (c : Dev nD) (h : Fin 2) (S : Finset (Fin 32)) (d : Fin 32) (hdS : d ∈ S) (hS : S ⊆ others) :
    iprop(landed1 m c h d ∗ bigSep (others \ S) (landed1 m c h)) ⊢ bigSep (others \ S.erase d) (landed1 m c h) := by
  rw [sdiff_erase' S d hdS hS, bigSep_insert (fun hm => (Finset.mem_sdiff.mp hm).2 hdS)]
  exact .rfl

/-- One wait for a first-round copy to land, while the device owes X, all of it at level 4 or above. -/
theorem wait1 (c : Dev nD) (h : Fin 2) (d : Fin 32) (hd : d ≠ 0) (S : Finset (Fin 32)) (hdS : d ∈ S) (hS : S ⊆ others)
    (K : CellIx → ℕ) (W : Waits sig Unit) (X : CellTallies nD τ sig Unit)
    (hX : ∀ (g : GSem nD τ sig) (i : Unit), 0 < X g i → i ∈ L g ∧ 4 ≤ lv g i)
    {α : Type} (k : PUnit → Prog (TpuEff nD τ sig (Elt F) Λ₀ .tc) α) (Q : α → sProp 𝕄)
    (src dst : Memref sig .tc .vmem S16x256 .bf16) (hsrc) (hdst) (hcr : dst.view.dmaCredit = N) :
    iprop(invs m K ∗ levAts L lv ∗ st2 m c h S ∗ owes (c : Thread nD τ) X W
        ∗ ((st2 m c h (S.erase d) ∗ owes (c : Thread nD τ) X (insert (SemLoc.dma (semAt cc0_scratch4 h d), ()) W))
            -∗ wp frame (wpE (defs₀ (F := F)) Variants.none c none) Set.univ (k ⟨⟩) Q))
      ⊢ wp frame (wpE (defs₀ (F := F)) Variants.none c none) Set.univ (.op (.waitDma2 (semAt cc0_scratch4 h d) src dst hsrc hdst) k) Q := by
  unfold st2
  iintro ⟨#HI, #Hlev, ⟨Htodo, Hdone⟩, HO, Hk⟩
  ihave HX := (erase_step S d hdS (own1 (F := F) c h)) $$ Htodo
  icases HX with ⟨Hhd, Htodo⟩
  ihave HY := (Entails.of_eq (own1_eq (F := F) c h d)) $$ Hhd
  icases HY with ⟨⟨HaS, HaR1, HaR2⟩, Hc1, Hc2⟩
  iapply (wait_recv1_step m c h d hd (K (c, some (1, h, d))) X W k Q src dst hsrc hdst hcr) $$ [Hc1 HO HaR1]
  · isplitr; · iapply (invRecv1 m K c h d); iexact HI
    isplitl [Hc1]; · iexact Hc1
    isplitl [HO]; · iexact HO
    isplitr; · iapply (mayWait_recv1 (F := F) c h d X hX); iexact Hlev
    iexact HaR1
  iintro ⟨HO, HaR1, #Hr1, Hpay⟩
  iapply Hk
  isplitr [HO]
  · isplitl [Htodo]; · iexact Htodo
    iapply (landed1_insert m c h S d hdS hS)
    isplitr [Hdone]
    · iapply (Entails.of_eq (landed1_eq m c h d).symm)
      isplitl [HaS HaR2 Hc2]
      · isplitl [HaS]; · iexact HaS
        isplitl [HaR2]; · iexact HaR2
        iexact Hc2
      isplitl [HaR1]; · iexact HaR1
      isplitr; · iexact Hr1
      iexact Hpay
    · iexact Hdone
  · iexact HO

/-! ## Column half 0 gathered: the 32 half slots joined -/

/-- What stays of a device's own cells at distance d once the first-round copy has landed, the landed slot apart. -/
def rest2 (c : Dev nD) (h : Fin 2) (d : Fin 32) : sProp 𝕄 :=
  iprop((atPos ER (sendCell c h d) 0 ∅ 0 ∗ atPos ER (recv2Cell c h d) 0 ∅ 0 ∗ cred (tallyAt (recv2Cell c h d) () N))
    ∗ atPos ER (recv1Cell c h d) 1 ∅ 0 ∗ reached ER (recv1Cell c h d) 1)

theorem landed1_split (c : Dev nD) (h : Fin 2) (d : Fin 32) :
    landed1 m c h d ⊢ iprop(rest2 c h d ∗ gathPts c d h fullShare (gathC m c)) := by
  rw [landed1_eq]
  unfold rest2
  iintro ⟨HA, HP, HR, HG⟩
  isplitl [HA HP HR]
  · isplitl [HA]; · iexact HA
    isplitl [HP]; · iexact HP
    iexact HR
  · iexact HG

theorem st2_done (c : Dev nD) (h : Fin 2) (S : Finset (Fin 32)) (hS : S = ∅) :
    st2 m c h S ⊢ iprop(bigSep others (rest2 (F := F) c h) ∗ bigSep others fun d => gathPts c d h fullShare (gathC m c)) := by
  subst hS
  unfold st2
  rw [bigSep_empty, Finset.sdiff_empty, ← bigSep_sep']
  iintro ⟨-, H⟩
  iapply (bigSep_mono' (fun d _ => landed1_split m c h d))
  iexact H

theorem gathJoin (c : Dev nD) (g1 : Scr F) (hg1 : ∀ i ∈ (slot 0 0).set ∪ (slot 0 1).set, g1 i = gathC m c i) (h : Fin 2) :
    iprop(gathPts c 0 h fullShare g1 ∗ bigSep others fun d => gathPts c d h fullShare (gathC m c))
      ⊢ ((((c : Thread nD τ).loc cc0_scratch1) ↦[(cols h).set]{fullShare} (gathC m c)) : sProp 𝕄) := by
  rw [← gath_cols_of_agree c h fullShare (fun t => if t = 0 then g1 else gathC m c) (gathC m c) (fun t i hi => by
      by_cases ht : t = 0
      · subst ht
        rw [if_pos rfl]
        refine hg1 i ?_
        rcases (show h = 0 ∨ h = 1 by omega) with rfl | rfl
        · exact Finset.mem_union_left _ hi
        · exact Finset.mem_union_right _ hi
      · rw [if_neg ht]),
    bigSep_univ_eq_zero_sep_others]
  iintro ⟨H0, Hd⟩
  isplitl [H0]
  · rw [if_pos rfl]; iexact H0
  · iapply (Entails.of_eq (bigSep_congr (fun d hd => by rw [if_neg (Finset.mem_filter.mp hd).2])))
    iexact Hd

/-! ## The second round: each send cell waited on, then the own result slot copied to the device d places on -/

/-- What device c still owes second receive cells: those of the copies P. -/
def owedRem2 (c : Dev nD) (P : Finset (Fin 2 × Fin 32)) : CellTallies nD τ sig Unit :=
  ∑ p ∈ P, tallyAt (recv2Cell (fwd c p.2) p.1 p.2) () N

theorem owedRem2_all (c : Dev nD) : owedRecv2 c = owedRem2 c pairs := by
  unfold owedRem2 owedRecv2 pairs
  rw [Finset.sum_product]

theorem owedRem2_erase (c : Dev nD) (P : Finset (Fin 2 × Fin 32)) (p : Fin 2 × Fin 32) (hp : p ∈ P) :
    owedRem2 c P = owedRem2 c (P.erase p) + tallyAt (recv2Cell (fwd c p.2) p.1 p.2) () N := by
  unfold owedRem2
  rw [Finset.sum_erase_add _ _ hp]

theorem owedRem2_lv (c : Dev nD) (P : Finset (Fin 2 × Fin 32)) :
    ∀ (g : GSem nD τ sig) (i : Unit), 0 < owedRem2 c P g i → i ∈ L g ∧ 4 ≤ lv g i := fun g i h => by
  unfold owedRem2 at h
  obtain ⟨p, -, h⟩ := Pipeline.sum_pos_exists h
  exact tallyRecv2_lv (fwd c p.2) p.1 p.2 N g i h

theorem lv_four_one {X : CellTallies nD τ sig Unit} (hX : ∀ (g : GSem nD τ sig) (i : Unit), 0 < X g i → i ∈ L g ∧ 4 ≤ lv g i) :
    ∀ (g : GSem nD τ sig) (i : Unit), 0 < X g i → i ∈ L g ∧ 1 ≤ lv g i :=
  fun g i h => ⟨(hX g i h).1, le_trans (by decide) (hX g i h).2⟩

theorem owes_congr (c : Dev nD) {X Y : CellTallies nD τ sig Unit} (h : X = Y) (W : Waits sig Unit) :
    (owes (c : Thread nD τ) X W : sProp 𝕄) ⊢ owes (c : Thread nD τ) Y W := by
  subst h
  exact .rfl

theorem resPts_congr' (c : Dev nD) (t : Fin 32) (h : Fin 2) (q : PosShare TreeShare) {f g : Scr F}
    (hfg : ∀ i ∈ (slot t h).set, f i = g i) : (resPts c t h q f : sProp 𝕄) = resPts c t h q g := by
  unfold resPts
  exact pointsTo_congr hfg

/-- Distance d of column half h before its send wait: what the first-round copy left, the landed cells, and the
    share of the own result slot lent to this copy. -/
def A3 (c : Dev nD) (h : Fin 2) (d : Fin 32) : sProp 𝕄 :=
  iprop(done1 (F := F) c h d ∗ rest2 c h d ∗ resPts c c h (sendShr d.val) (resC m))

theorem A3_eq (c : Dev nD) (h : Fin 2) (d : Fin 32) : A3 m c h d
    = iprop((cred (tallyAt (sendCell c h d) () N) ∗ (∃ f, resPts (fwd c d) c h fullShare f) ∗ reached ER (recv2Cell (fwd c d) h d) 0
        ∗ dutyTok ER (sendCell c h d) 1 (0 : Fin 32) ∗ dutyTok ER (recv2Cell (fwd c d) h d) 0 (0 : Fin 32))
      ∗ ((atPos ER (sendCell c h d) 0 ∅ 0 ∗ atPos ER (recv2Cell c h d) 0 ∅ 0 ∗ cred (tallyAt (recv2Cell c h d) () N))
          ∗ atPos ER (recv1Cell c h d) 1 ∅ 0 ∗ reached ER (recv1Cell c h d) 1)
      ∗ resPts c c h (sendShr d.val) (resC m)) := rfl

/-- The same between its send wait and its second-round copy. -/
def B3 (c : Dev nD) (h : Fin 2) (d : Fin 32) : sProp 𝕄 :=
  iprop(((∃ f, resPts (fwd c d) c h fullShare f) ∗ reached ER (recv2Cell (fwd c d) h d) 0
        ∗ dutyTok ER (sendCell c h d) 1 (0 : Fin 32) ∗ dutyTok ER (recv2Cell (fwd c d) h d) 0 (0 : Fin 32))
    ∗ (atPos ER (sendCell c h d) 1 ∅ 0 ∗ reached ER (sendCell c h d) 1 ∗ partPts c (fwd c d) h fullShare (partC m c))
    ∗ (atPos ER (recv2Cell c h d) 0 ∅ 0 ∗ cred (tallyAt (recv2Cell c h d) () N) ∗ atPos ER (recv1Cell c h d) 1 ∅ 0 ∗ reached ER (recv1Cell c h d) 1)
    ∗ resPts c c h (sendShr d.val) (resC m))

theorem B3_eq (c : Dev nD) (h : Fin 2) (d : Fin 32) : B3 m c h d
    = iprop(((∃ f, resPts (fwd c d) c h fullShare f) ∗ reached ER (recv2Cell (fwd c d) h d) 0
          ∗ dutyTok ER (sendCell c h d) 1 (0 : Fin 32) ∗ dutyTok ER (recv2Cell (fwd c d) h d) 0 (0 : Fin 32))
      ∗ (atPos ER (sendCell c h d) 1 ∅ 0 ∗ reached ER (sendCell c h d) 1 ∗ partPts c (fwd c d) h fullShare (partC m c))
      ∗ (atPos ER (recv2Cell c h d) 0 ∅ 0 ∗ cred (tallyAt (recv2Cell c h d) () N) ∗ atPos ER (recv1Cell c h d) 1 ∅ 0 ∗ reached ER (recv1Cell c h d) 1)
      ∗ resPts c c h (sendShr d.val) (resC m)) := rfl

/-- And after its second-round copy is started. -/
def C3 (c : Dev nD) (h : Fin 2) (d : Fin 32) : sProp 𝕄 :=
  iprop(cred (tallyAt (sendCell c h d) () N)
    ∗ (atPos ER (sendCell c h d) 1 ∅ 0 ∗ reached ER (sendCell c h d) 1 ∗ partPts c (fwd c d) h fullShare (partC m c))
    ∗ (atPos ER (recv2Cell c h d) 0 ∅ 0 ∗ cred (tallyAt (recv2Cell c h d) () N) ∗ atPos ER (recv1Cell c h d) 1 ∅ 0 ∗ reached ER (recv1Cell c h d) 1))

theorem C3_eq (c : Dev nD) (h : Fin 2) (d : Fin 32) : C3 m c h d
    = iprop(cred (tallyAt (sendCell c h d) () N)
      ∗ (atPos ER (sendCell c h d) 1 ∅ 0 ∗ reached ER (sendCell c h d) 1 ∗ partPts c (fwd c d) h fullShare (partC m c))
      ∗ (atPos ER (recv2Cell c h d) 0 ∅ 0 ∗ cred (tallyAt (recv2Cell c h d) () N) ∗ atPos ER (recv1Cell c h d) 1 ∅ 0 ∗ reached ER (recv1Cell c h d) 1)) := rfl

def st3 (c : Dev nD) (h : Fin 2) (S : Finset (Fin 32)) : sProp 𝕄 :=
  iprop(bigSep S (A3 m c h) ∗ bigSep (others \ S) (C3 m c h))

theorem st1_done (c : Dev nD) (h : Fin 2) (S : Finset (Fin 32)) (hS : S = ∅) :
    st1 m c h S ⊢ bigSep others (done1 (F := F) c h) := by
  subst hS
  unfold st1
  rw [bigSep_empty, Finset.sdiff_empty]
  iintro ⟨-, H⟩
  iexact H

theorem st3_init (c : Dev nD) (h : Fin 2) :
    iprop(bigSep others (done1 (F := F) c h) ∗ bigSep others (rest2 (F := F) c h) ∗ (bigSep others fun e => resPts c c h (sendShr e.val) (resC m)))
      ⊢ st3 m c h others := by
  unfold st3 A3
  rw [Finset.sdiff_self, bigSep_empty]
  iintro ⟨H1, H2, H3⟩
  isplitl
  · iapply (merge3 others _ _ _)
    isplitl [H1]; · iexact H1
    isplitl [H2] <;> iassumption
  · iempintro

theorem C3_insert (c : Dev nD) (h : Fin 2) (S : Finset (Fin 32)) (d : Fin 32) (hdS : d ∈ S) (hS : S ⊆ others) :
    iprop(C3 m c h d ∗ bigSep (others \ S) (C3 m c h)) ⊢ bigSep (others \ S.erase d) (C3 m c h) := by
  rw [sdiff_erase' S d hdS hS, bigSep_insert (fun hm => (Finset.mem_sdiff.mp hm).2 hdS)]
  exact .rfl

/-- The wait on the send cell (h, d) for the first-round copy to have been read out. -/
theorem wsend0 (c : Dev nD) (h : Fin 2) (d : Fin 32) (hd : d ≠ 0) (S : Finset (Fin 32)) (hdS : d ∈ S) (hS : S ⊆ others)
    (K : CellIx → ℕ) (W : Waits sig Unit) (X : CellTallies nD τ sig Unit)
    (hX : ∀ (g : GSem nD τ sig) (i : Unit), 0 < X g i → i ∈ L g ∧ 4 ≤ lv g i)
    {α : Type} (k : PUnit → Prog (TpuEff nD τ sig (Elt F) Λ₀ .tc) α) (Q : α → sProp 𝕄)
    (src dst : Memref sig .tc .vmem S16x256 .bf16) (hsrc) (hdst) (hcr : dst.view.dmaCredit = N) :
    iprop(invs m K ∗ levAts L lv ∗ st3 m c h S ∗ owes (c : Thread nD τ) X W
        ∗ ((bigSep (S.erase d) (A3 m c h) ∗ bigSep (others \ S) (C3 m c h) ∗ B3 m c h d
              ∗ owes (c : Thread nD τ) X (insert (SemLoc.dma (semAt cc0_scratch3 h d), ()) W))
            -∗ wp frame (wpE (defs₀ (F := F)) Variants.none c none) Set.univ (k ⟨⟩) Q))
      ⊢ wp frame (wpE (defs₀ (F := F)) Variants.none c none) Set.univ (.op (.waitDma2 (semAt cc0_scratch3 h d) src dst hsrc hdst) k) Q := by
  unfold st3
  iintro ⟨#HI, #Hlev, ⟨Htodo, Hdone⟩, HO, Hk⟩
  ihave HX := (erase_step S d hdS (A3 m c h)) $$ Htodo
  icases HX with ⟨Hhd, Htodo⟩
  ihave HY := (Entails.of_eq (A3_eq m c h d)) $$ Hhd
  icases HY with ⟨⟨Hcr, Hres, Hr2f, Ht1, Htr2⟩, ⟨⟨HaS, HaR2, Hc2⟩, HaR1, Hr1⟩, Hlent⟩
  iapply (wait_send0_step m c h d hd (K (c, some (0, h, d))) X W k Q src dst hsrc hdst hcr) $$ [Hcr HO HaS]
  · isplitr; · iapply (invSend m K c h d); iexact HI
    isplitl [Hcr]; · iexact Hcr
    isplitl [HO]; · iexact HO
    isplitr; · iapply (mayWait_send (F := F) c h d X (lv_four_one hX)); iexact Hlev
    iexact HaS
  iintro ⟨HO, HaS, HrS1, Hpart⟩
  iapply Hk
  isplitl [Htodo]; · iexact Htodo
  isplitl [Hdone]; · iexact Hdone
  isplitr [HO]
  · iapply (Entails.of_eq (B3_eq m c h d).symm)
    isplitl [Hres Hr2f Ht1 Htr2]
    · isplitl [Hres]; · iexact Hres
      isplitl [Hr2f]; · iexact Hr2f
      isplitl [Ht1]; · iexact Ht1
      iexact Htr2
    isplitl [HaS HrS1 Hpart]
    · isplitl [HaS]; · iexact HaS
      isplitl [HrS1]; · iexact HrS1
      iexact Hpart
    isplitl [HaR2 Hc2 HaR1 Hr1]
    · isplitl [HaR2]; · iexact HaR2
      isplitl [Hc2]; · iexact Hc2
      isplitl [HaR1]; · iexact HaR1
      iexact Hr1
    iexact Hlent
  · iexact HO

/-- The second-round copy (h, d): the lent share of the own result slot goes to the device d places on. -/
theorem copy2 (c : Dev nD) (h : Fin 2) (d : Fin 32) (hd : d ≠ 0) (S : Finset (Fin 32)) (hdS : d ∈ S) (hS : S ⊆ others)
    (P : Finset (Fin 2 × Fin 32)) (hp : (h, d) ∈ P) (K : CellIx → ℕ) (W : Waits sig Unit)
    {α : Type} (k : PUnit → Prog (TpuEff nD τ sig (Elt F) Λ₀ .tc) α) (Q : α → sProp 𝕄)
    (off : Fin 3 → Nat) (hoff : off = ![c.val, 0, 256 * h.val]) (inb inb' : ∀ a, off a + S1x16x256.size a ≤ S32x16x512.size a)
    (hst : ∀ a, (Rect.unit (s := S32x16x512) off S1x16x256.size inb).stride a = 1)
    (hst' : ∀ a, (Rect.unit (s := S32x16x512) off S1x16x256.size inb').stride a = 1) (dev : Dev nD) (hdev : dev = fwd c d)
    (hsc) (hsrc) (hdst) (hsem) :
    iprop(invs m K ∗ bigSep (S.erase d) (A3 m c h) ∗ bigSep (others \ S) (C3 m c h) ∗ B3 m c h d
        ∗ owes (c : Thread nD τ) (owedRem2 c P) W
        ∗ ((st3 m c h (S.erase d) ∗ owes (c : Thread nD τ) (owedRem2 c (P.erase (h, d))) W)
            -∗ wp frame (wpE (defs₀ (F := F)) Variants.none c none) Set.univ (k ⟨⟩) Q))
      ⊢ wp frame (wpE (defs₀ (F := F)) Variants.none c none) Set.univ
          (.op (.enqueueDma (((resM : Memref sig .tc .vmem S32x16x512 .bf16).slice (Rect.unit (s := S32x16x512) off S1x16x256.size inb) hst).squeeze S16x256 squeezes_S1x16x256_S16x256)
            (.remote ((dev : Dev nD) : Thread nD τ)
              (((resM : Memref sig .tc .vmem S32x16x512 .bf16).slice (Rect.unit (s := S32x16x512) off S1x16x256.size inb') hst').squeeze S16x256 squeezes_S1x16x256_S16x256)
              (.dma (semAt cc0_scratch3 h d)) hsc) (.dma (semAt cc0_scratch5 h d)) hsrc hdst hsem) k) Q := by
  unfold st3
  rw [owedRem2_erase c P (h, d) hp]
  iintro ⟨#HI, Htodo, Hdone, Hmid, HO, Hk⟩
  ihave HY := (Entails.of_eq (B3_eq m c h d)) $$ Hmid
  icases HY with ⟨⟨⟨%fd, Hres⟩, Hr2f, Ht1, Htr2⟩, ⟨HaS, #HrS1, Hpart⟩, Hrecv, Hlent⟩
  iapply (send2_step' m c h d hd (K (c, some (0, h, d))) (K (fwd c d, some (2, h, d))) fd (owedRem2 c (P.erase (h, d))) W k Q off hoff inb inb' hst hst' dev hdev hsc hsrc hdst hsem) $$ [Hlent Hres HO Ht1 Htr2 Hr2f]
  · isplitr; · iapply (invSend m K c h d); iexact HI
    isplitr; · iapply (invRecv2 m K (fwd c d) h d); iexact HI
    isplitl [Hlent]; · iexact Hlent
    isplitl [Hres]; · iexact Hres
    isplitl [HO]; · iexact HO
    isplitl [Ht1]; · iexact Ht1
    isplitr; · iexact HrS1
    isplitl [Htr2]; · iexact Htr2
    iexact Hr2f
  iintro ⟨Hcr, HO⟩
  iapply Hk
  isplitr [HO]
  · isplitl [Htodo]; · iexact Htodo
    iapply (C3_insert m c h S d hdS hS)
    isplitr [Hdone]
    · iapply (Entails.of_eq (C3_eq m c h d).symm)
      isplitl [Hcr]; · iexact Hcr
      isplitl [HaS Hpart]
      · isplitl [HaS]; · iexact HaS
        isplitr; · iexact HrS1
        iexact Hpart
      iexact Hrecv
    · iexact Hdone
  · iexact HO

theorem st3_done (c : Dev nD) (h : Fin 2) (S : Finset (Fin 32)) (hS : S = ∅) :
    st3 m c h S ⊢ bigSep others (C3 m c h) := by
  subst hS
  unfold st3
  rw [bigSep_empty, Finset.sdiff_empty]
  iintro ⟨-, H⟩
  iexact H

theorem ret_bind' {E : Type → Type _} {α β : Type} (a : α) (k : α → Prog E β) : (Prog.ret a).bind k = k a := rfl

/-! ## The second-round copies land -/

/-- The cells of distance d once the second-round copy from d places back has landed: the sender's result slot is
    there. -/
def D3 (c : Dev nD) (h : Fin 2) (d : Fin 32) : sProp 𝕄 :=
  iprop(cred (tallyAt (sendCell c h d) () N)
    ∗ (atPos ER (sendCell c h d) 1 ∅ 0 ∗ reached ER (sendCell c h d) 1 ∗ partPts c (fwd c d) h fullShare (partC m c))
    ∗ (atPos ER (recv2Cell c h d) 1 ∅ 0 ∗ reached ER (recv2Cell c h d) 1 ∗ resPts c (bwd c d) h fullShare (resC m)
        ∗ atPos ER (recv1Cell c h d) 1 ∅ 0 ∗ reached ER (recv1Cell c h d) 1))

theorem D3_eq (c : Dev nD) (h : Fin 2) (d : Fin 32) : D3 m c h d
    = iprop(cred (tallyAt (sendCell c h d) () N)
      ∗ (atPos ER (sendCell c h d) 1 ∅ 0 ∗ reached ER (sendCell c h d) 1 ∗ partPts c (fwd c d) h fullShare (partC m c))
      ∗ (atPos ER (recv2Cell c h d) 1 ∅ 0 ∗ reached ER (recv2Cell c h d) 1 ∗ resPts c (bwd c d) h fullShare (resC m)
          ∗ atPos ER (recv1Cell c h d) 1 ∅ 0 ∗ reached ER (recv1Cell c h d) 1)) := rfl

def st4 (c : Dev nD) (h : Fin 2) (S : Finset (Fin 32)) : sProp 𝕄 :=
  iprop(bigSep S (C3 m c h) ∗ bigSep (others \ S) (D3 m c h))

theorem st4_init (c : Dev nD) (h : Fin 2) : (bigSep others (C3 m c h) : sProp 𝕄) ⊢ st4 m c h others := by
  unfold st4
  rw [Finset.sdiff_self, bigSep_empty]
  iintro H
  isplitl
  · iexact H
  · iempintro

theorem st4_done (c : Dev nD) (h : Fin 2) (S : Finset (Fin 32)) (hS : S = ∅) : st4 m c h S ⊢ bigSep others (D3 m c h) := by
  subst hS
  unfold st4
  rw [bigSep_empty, Finset.sdiff_empty]
  iintro ⟨-, H⟩
  iexact H

theorem D3_insert (c : Dev nD) (h : Fin 2) (S : Finset (Fin 32)) (d : Fin 32) (hdS : d ∈ S) (hS : S ⊆ others) :
    iprop(D3 m c h d ∗ bigSep (others \ S) (D3 m c h)) ⊢ bigSep (others \ S.erase d) (D3 m c h) := by
  rw [sdiff_erase' S d hdS hS, bigSep_insert (fun hm => (Finset.mem_sdiff.mp hm).2 hdS)]
  exact .rfl

/-- One wait for a second-round copy to land; the device owes nothing by then. -/
theorem wait2 (c : Dev nD) (h : Fin 2) (d : Fin 32) (hd : d ≠ 0) (S : Finset (Fin 32)) (hdS : d ∈ S) (hS : S ⊆ others)
    (K : CellIx → ℕ) (W : Waits sig Unit)
    {α : Type} (k : PUnit → Prog (TpuEff nD τ sig (Elt F) Λ₀ .tc) α) (Q : α → sProp 𝕄)
    (src dst : Memref sig .tc .vmem S16x256 .bf16) (hsrc) (hdst) (hcr : dst.view.dmaCredit = N) :
    iprop(invs m K ∗ st4 m c h S ∗ owes (c : Thread nD τ) 0 W
        ∗ ((st4 m c h (S.erase d) ∗ owes (c : Thread nD τ) 0 (insert (SemLoc.dma (semAt cc0_scratch5 h d), ()) W))
            -∗ wp frame (wpE (defs₀ (F := F)) Variants.none c none) Set.univ (k ⟨⟩) Q))
      ⊢ wp frame (wpE (defs₀ (F := F)) Variants.none c none) Set.univ (.op (.waitDma2 (semAt cc0_scratch5 h d) src dst hsrc hdst) k) Q := by
  unfold st4
  iintro ⟨#HI, ⟨Htodo, Hdone⟩, HO, Hk⟩
  ihave HX := (erase_step S d hdS (C3 m c h)) $$ Htodo
  icases HX with ⟨Hhd, Htodo⟩
  ihave HY := (Entails.of_eq (C3_eq m c h d)) $$ Hhd
  icases HY with ⟨HcS, HSnd, HaR2, Hc2, HR1⟩
  iapply (wait_recv2_step m c h d hd (K (c, some (2, h, d))) 0 W k Q src dst hsrc hdst hcr) $$ [Hc2 HO HaR2]
  · isplitr; · iapply (invRecv2 m K c h d); iexact HI
    isplitl [Hc2]; · iexact Hc2
    isplitl [HO]; · iexact HO
    isplitr; · rw [MayWait_zero]; iempintro
    iexact HaR2
  iintro ⟨HO, HaR2, #Hr2, Hpay⟩
  iapply Hk
  isplitr [HO]
  · isplitl [Htodo]; · iexact Htodo
    iapply (D3_insert m c h S d hdS hS)
    isplitr [Hdone]
    · iapply (Entails.of_eq (D3_eq m c h d).symm)
      isplitl [HcS]; · iexact HcS
      isplitl [HSnd]; · iexact HSnd
      isplitl [HaR2]; · iexact HaR2
      isplitr; · iexact Hr2
      isplitl [Hpay]; · iexact Hpay
      iexact HR1
    · iexact Hdone
  · iexact HO

/-! ## The second-round copies have been read out -/

/-- The cells of distance d once the device's own second-round copy has been read out: its share of the own result
    slot is back. -/
def E3 (c : Dev nD) (h : Fin 2) (d : Fin 32) : sProp 𝕄 :=
  iprop((atPos ER (sendCell c h d) 2 ∅ 0 ∗ resPts c c h (sendShr d.val) (resC m) ∗ partPts c (fwd c d) h fullShare (partC m c))
    ∗ (atPos ER (recv2Cell c h d) 1 ∅ 0 ∗ reached ER (recv2Cell c h d) 1 ∗ resPts c (bwd c d) h fullShare (resC m)
        ∗ atPos ER (recv1Cell c h d) 1 ∅ 0 ∗ reached ER (recv1Cell c h d) 1))

theorem E3_eq (c : Dev nD) (h : Fin 2) (d : Fin 32) : E3 m c h d
    = iprop((atPos ER (sendCell c h d) 2 ∅ 0 ∗ resPts c c h (sendShr d.val) (resC m) ∗ partPts c (fwd c d) h fullShare (partC m c))
      ∗ (atPos ER (recv2Cell c h d) 1 ∅ 0 ∗ reached ER (recv2Cell c h d) 1 ∗ resPts c (bwd c d) h fullShare (resC m)
          ∗ atPos ER (recv1Cell c h d) 1 ∅ 0 ∗ reached ER (recv1Cell c h d) 1)) := rfl

def st5 (c : Dev nD) (h : Fin 2) (S : Finset (Fin 32)) : sProp 𝕄 :=
  iprop(bigSep S (D3 m c h) ∗ bigSep (others \ S) (E3 m c h))

theorem st5_init (c : Dev nD) (h : Fin 2) : (bigSep others (D3 m c h) : sProp 𝕄) ⊢ st5 m c h others := by
  unfold st5
  rw [Finset.sdiff_self, bigSep_empty]
  iintro H
  isplitl
  · iexact H
  · iempintro

theorem st5_done (c : Dev nD) (h : Fin 2) (S : Finset (Fin 32)) (hS : S = ∅) : st5 m c h S ⊢ bigSep others (E3 m c h) := by
  subst hS
  unfold st5
  rw [bigSep_empty, Finset.sdiff_empty]
  iintro ⟨-, H⟩
  iexact H

theorem E3_insert (c : Dev nD) (h : Fin 2) (S : Finset (Fin 32)) (d : Fin 32) (hdS : d ∈ S) (hS : S ⊆ others) :
    iprop(E3 m c h d ∗ bigSep (others \ S) (E3 m c h)) ⊢ bigSep (others \ S.erase d) (E3 m c h) := by
  rw [sdiff_erase' S d hdS hS, bigSep_insert (fun hm => (Finset.mem_sdiff.mp hm).2 hdS)]
  exact .rfl

/-- One wait for a second-round copy to have been read out; the device owes nothing by then. -/
theorem wait3 (c : Dev nD) (h : Fin 2) (d : Fin 32) (hd : d ≠ 0) (S : Finset (Fin 32)) (hdS : d ∈ S) (hS : S ⊆ others)
    (K : CellIx → ℕ) (W : Waits sig Unit)
    {α : Type} (k : PUnit → Prog (TpuEff nD τ sig (Elt F) Λ₀ .tc) α) (Q : α → sProp 𝕄)
    (src dst : Memref sig .tc .vmem S16x256 .bf16) (hsrc) (hdst) (hcr : dst.view.dmaCredit = N) :
    iprop(invs m K ∗ st5 m c h S ∗ owes (c : Thread nD τ) 0 W
        ∗ ((st5 m c h (S.erase d) ∗ owes (c : Thread nD τ) 0 (insert (SemLoc.dma (semAt cc0_scratch3 h d), ()) W))
            -∗ wp frame (wpE (defs₀ (F := F)) Variants.none c none) Set.univ (k ⟨⟩) Q))
      ⊢ wp frame (wpE (defs₀ (F := F)) Variants.none c none) Set.univ (.op (.waitDma2 (semAt cc0_scratch3 h d) src dst hsrc hdst) k) Q := by
  unfold st5
  iintro ⟨#HI, ⟨Htodo, Hdone⟩, HO, Hk⟩
  ihave HX := (erase_step S d hdS (D3 m c h)) $$ Htodo
  icases HX with ⟨Hhd, Htodo⟩
  ihave HY := (Entails.of_eq (D3_eq m c h d)) $$ Hhd
  icases HY with ⟨HcS, ⟨HaS, -, HP⟩, HRcv⟩
  iapply (wait_send1_step m c h d hd (K (c, some (0, h, d))) 0 W k Q src dst hsrc hdst hcr) $$ [HcS HO HaS]
  · isplitr; · iapply (invSend m K c h d); iexact HI
    isplitl [HcS]; · iexact HcS
    isplitl [HO]; · iexact HO
    isplitr; · rw [MayWait_zero]; iempintro
    iexact HaS
  iintro ⟨HO, HaS, -, Hpay⟩
  iapply Hk
  isplitr [HO]
  · isplitl [Htodo]; · iexact Htodo
    iapply (E3_insert m c h S d hdS hS)
    isplitr [Hdone]
    · iapply (Entails.of_eq (E3_eq m c h d).symm)
      isplitl [HaS Hpay HP]
      · isplitl [HaS]; · iexact HaS
        isplitl [Hpay]; · iexact Hpay
        iexact HP
      · iexact HRcv
    · iexact Hdone
  · iexact HO

/-! ## From the last family to the ending's premises -/

/-- Column half h at the very end: the cells' last positions, the product slots sent, the own result slot's returned
    shares and the landed result slots, each as one family over the distances. -/
theorem regroupE (c : Dev nD) (h : Fin 2) :
    (bigSep others (E3 m c h) : sProp 𝕄)
      ⊢ iprop((bigSep others fun d => iprop(atPos ER (sendCell c h d) 2 ∅ 0 ∗ atPos ER (recv1Cell c h d) 1 ∅ 0 ∗ atPos ER (recv2Cell c h d) 1 ∅ 0))
          ∗ (bigSep others fun d => partPts c (fwd c d) h fullShare (partC m c))
          ∗ (bigSep others fun e => resPts c c h (sendShr e.val) (resC m))
          ∗ (bigSep others fun d => resPts c (bwd c d) h fullShare (resC m))) := by
  unfold E3
  simp only [bigSep_sep']
  iintro ⟨⟨HaS, Hsh, HP⟩, HaR2, -, HL, HaR1, -⟩
  isplitl [HaS HaR1 HaR2]
  · isplitl [HaS]; · iexact HaS
    isplitl [HaR1]; · iexact HaR1
    iexact HaR2
  isplitl [HP]; · iexact HP
  isplitl [Hsh]; · iexact Hsh
  iexact HL

/-- The ending from the last families and the loose parts. -/
theorem ending (K : CellIx → ℕ) (c : Dev nD) :
    iprop(invs m K ∗ zeroSems c ∗ bigSep others (E3 m c 0) ∗ bigSep others (E3 m c 1)
      ∗ resPts c c 0 (remShr 31) (resC m) ∗ resPts c c 1 (remShr 31) (resC m)
      ∗ (((c : Thread nD τ).loc cc0_scratch1) ↦[(cols 0).set]{fullShare} (gathC m c))
      ∗ (((c : Thread nD τ).loc cc0_scratch1) ↦[(cols 1).set]{fullShare} (gathC m c))
      ∗ partPts c c 0 fullShare (partC m c) ∗ partPts c c 1 fullShare (partC m c))
    ⊢ iprop(|={Set.univ}=> Φ₁ c) := by
  iintro ⟨#HI, Hz, HC0, HC1, Hrem0, Hrem1, Hcols0, Hcols1, HP00, HP01⟩
  -- the ending: the last families regrouped, every cell closed, the three scratch buffers whole again
  ihave HE0 := (regroupE m c 0) $$ HC0
  icases HE0 with ⟨Hpos0, HPf0, Hsh0, Hld0⟩
  ihave HE1 := (regroupE m c 1) $$ HC1
  icases HE1 with ⟨Hpos1, HPf1, Hsh1, Hld1⟩
  iapply (finish2 m K c (gathC m c) (gathC m c))
  isplitr; · iexact HI
  isplitl [Hz]; · iexact Hz
  isplitl [Hpos0]; · iexact Hpos0
  isplitl [Hpos1]; · iexact Hpos1
  isplitl [HP00 HP01 HPf0 HPf1]
  · isplitl [HP00 HP01]
    · isplitl [HP00]; · iexact HP00
      iexact HP01
    isplitl [HPf0]; · iexact HPf0
    iexact HPf1
  isplitl [Hcols0 Hcols1]
  · isplitl [Hcols0]; · iexact Hcols0
    iexact Hcols1
  isplitl [Hrem0 Hsh0 Hld0]
  · isplitl [Hrem0 Hsh0]
    · isplitl [Hrem0]; · iexact Hrem0
      iexact Hsh0
    iexact Hld0
  isplitl [Hrem1 Hsh1]
  · isplitl [Hrem1]; · iexact Hrem1
    iexact Hsh1
  iexact Hld1

/-! ## The last load, from the families as they stand after the second receive waits -/

/-- The cells of distance d after the second receive wait, without the landed result slot. -/
def D3r (c : Dev nD) (h : Fin 2) (d : Fin 32) : sProp 𝕄 :=
  iprop(cred (tallyAt (sendCell c h d) () N)
    ∗ (atPos ER (sendCell c h d) 1 ∅ 0 ∗ reached ER (sendCell c h d) 1 ∗ partPts c (fwd c d) h fullShare (partC m c))
    ∗ (atPos ER (recv2Cell c h d) 1 ∅ 0 ∗ reached ER (recv2Cell c h d) 1
        ∗ atPos ER (recv1Cell c h d) 1 ∅ 0 ∗ reached ER (recv1Cell c h d) 1))

/-- The landed result slot taken out of the family, and put back. -/
theorem D3_take (c : Dev nD) (h : Fin 2) (d : Fin 32) :
    D3 m c h d = iprop(resPts c (bwd c d) h fullShare (resC m) ∗ D3r m c h d) := by
  have h1 : D3 m c h d ⊢ iprop(resPts c (bwd c d) h fullShare (resC m) ∗ D3r m c h d) := by
    unfold D3 D3r
    iintro ⟨HcS, HSnd, HaR2, Hr2, HL, HR1⟩
    isplitl [HL]; · iexact HL
    isplitl [HcS]; · iexact HcS
    isplitl [HSnd]; · iexact HSnd
    isplitl [HaR2]; · iexact HaR2
    isplitl [Hr2]; · iexact Hr2
    iexact HR1
  have h2 : iprop(resPts c (bwd c d) h fullShare (resC m) ∗ D3r m c h d) ⊢ D3 m c h d := by
    unfold D3 D3r
    iintro ⟨HL, HcS, HSnd, HaR2, Hr2, HR1⟩
    isplitl [HcS]; · iexact HcS
    isplitl [HSnd]; · iexact HSnd
    isplitl [HaR2]; · iexact HaR2
    isplitl [Hr2]; · iexact Hr2
    isplitl [HL]; · iexact HL
    iexact HR1
  exact BI.equiv_iff.mp ⟨h1, h2⟩

theorem D3_family (c : Dev nD) (h : Fin 2) :
    (bigSep others (D3 m c h) : sProp 𝕄)
      = iprop((bigSep others fun d => resPts c (bwd c d) h fullShare (resC m)) ∗ bigSep others (D3r m c h)) :=
  Eq.trans (bigSep_congr fun d _ => D3_take m c h d) (bigSep_sep' _ _ _)

/-- What the device holds of the result buffer and of its cells at the last load. -/
def atLoad (c : Dev nD) : sProp 𝕄 :=
  iprop(bigSep others (D3 m c 0) ∗ bigSep others (D3 m c 1)
    ∗ resPts c c 0 (remShr 31) (resC m) ∗ resPts c c 1 (remShr 31) (resC m))

theorem atLoad_eq (c : Dev nD) : atLoad m c = iprop(bigSep others (D3 m c 0) ∗ bigSep others (D3 m c 1)
    ∗ resPts c c 0 (remShr 31) (resC m) ∗ resPts c c 1 (remShr 31) (resC m)) := rfl

/-- The families and the own slot's remaining share: the result buffer as the last load wants it, and the rest. -/
theorem atLoad_split (c : Dev nD) :
    atLoad m c = iprop(resAll m c ∗ bigSep others (D3r m c 0) ∗ bigSep others (D3r m c 1)) := by
  have h1 : atLoad m c ⊢ iprop(resAll m c ∗ bigSep others (D3r m c 0) ∗ bigSep others (D3r m c 1)) := by
    rw [atLoad_eq, D3_family, D3_family, resAll_two]
    iintro ⟨⟨HL0, HD0⟩, ⟨HL1, HD1⟩, Hr0, Hr1⟩
    isplitl [HL0 HL1 Hr0 Hr1]
    · isplitl [HL0 Hr0]
      · isplitl [Hr0]; · iexact Hr0
        iexact HL0
      · isplitl [Hr1]; · iexact Hr1
        iexact HL1
    isplitl [HD0]; · iexact HD0
    iexact HD1
  have h2 : iprop(resAll m c ∗ bigSep others (D3r m c 0) ∗ bigSep others (D3r m c 1)) ⊢ atLoad m c := by
    rw [atLoad_eq, D3_family, D3_family, resAll_two]
    iintro ⟨⟨⟨Hr0, HL0⟩, Hr1, HL1⟩, HD0, HD1⟩
    isplitl [HL0 HD0]
    · isplitl [HL0]; · iexact HL0
      iexact HD0
    isplitl [HL1 HD1]
    · isplitl [HL1]; · iexact HL1
      iexact HD1
    isplitl [Hr0]; · iexact Hr0
    iexact Hr1
  exact BI.equiv_iff.mp ⟨h1, h2⟩

/-- The last load with the families as they stand: it reads the result and gives everything back. -/
theorem load_all (c : Dev nD) (off : Fin 3 → ℕ) (hoff : off = ![0, 0, 0])
    (inb : ∀ a, off a + S32x16x512.size a ≤ S32x16x512.size a)
    (hl : (resM : Memref sig .tc .vmem S32x16x512 .bf16).view.LoadsAt (Rect.unit (s := S32x16x512) off S32x16x512.size inb).toLoadRect)
    {α : Type} (k : Vec F S32x16x512 .bf16 → Prog (TpuEff nD τ sig (Elt F) Λ₀ .tc) α) (Q : α → sProp 𝕄) :
    iprop(atLoad m c ∗ (atLoad m c -∗ wp frame (wpE (defs₀ (F := F)) Variants.none c none) Set.univ (k (resC m)) Q))
    ⊢ wp frame (wpE (defs₀ (F := F)) Variants.none c none) Set.univ
        (.op (.load (resM : Memref sig .tc .vmem S32x16x512 .bf16) (Rect.unit (s := S32x16x512) off S32x16x512.size inb).toLoadRect hl) k) Q := by
  rw [atLoad_split]
  iintro ⟨⟨HA, HD0, HD1⟩, Hk⟩
  iapply (final_load m c off hoff inb hl k Q)
  isplitl [HA]; · iexact HA
  iintro HA
  iapply Hk
  isplitl [HA]; · iexact HA
  isplitl [HD0]; · iexact HD0
  iexact HD1

set_option maxHeartbeats 4000000 in
theorem body_run (c : Dev nD) :
    bodyPre m c ⊢ wp frame (wpE (defs₀ (F := F)) 𝒱₀ c none) Set.univ
      (cc0_body (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) (Memref.whole cc0_scratch1) (Memref.isWhole_whole _) (Memref.whole cc0_scratch2) (Memref.isWhole_whole _)
      cc0_scratch3 cc0_scratch4 cc0_scratch5) (fun _ => bodyPost m c) := by
  unfold bodyPre Φ₀X Φ₀ start scratch ghost credits tokens positions
  iintro ⟨⟨⟨⟨⟨%K, #HI, ⟨HatB, HatD⟩, #Hro, ⟨Htb, Htd⟩⟩, ⟨HcB, HcR⟩, #Hlev⟩, ⟨%s0, Hs0⟩, ⟨%s1, Hs1⟩, ⟨%s2, Hs2⟩⟩, Hz⟩, HO, ⟨%d0, %f0, %e0, H0⟩, ⟨%d1, %f1, %e1, H1⟩, ⟨%d2, %f2, %e2, H2⟩⟩
  rw [before0] at e0
  rw [before1] at e1
  subst e0 e1
  unfold Dat.owesAt Pipeline.owesWithin
  icases HO with ⟨%W, %hW, HO⟩
  rw [show (datsX m 0 c).owed t0_0.castSucc = O₀ c from rfl]
  simp only [cc0_body_eq_skeleton]
  unfold cc0_body_skel
  simp only [k0_part180_eq_skeleton]
  unfold k0_part180_skel
  simp only [wp_bind]
  iapply (entry_any m c K s0 s1 s2 f2 W _)
  isplitl [H0]; · iexact H0
  isplitl [H1]; · iexact H1
  isplitl [H2]; · iexact H2
  isplitl [Hs0]; · iexact Hs0
  isplitl [Hs1]; · iexact Hs1
  isplitl [Hs2]; · iexact Hs2
  isplitr; · iexact HI
  isplitl [Htb]; · iexact Htb
  isplitr; · iapply (reachedRecv_of_own (F := F) c); iexact Hro
  isplitl [HatB]; · iexact HatB
  isplitl [HcB]; · iexact HcB
  isplitr; · iexact Hlev
  isplitl [HO]; · iexact HO
  iintro %v %hv Hpost
  obtain ⟨vd0, v2, v30, v31⟩ := v
  have hv' : c = vd0 := hv.symm
  subst hv'
  unfold entryPost
  icases Hpost with ⟨H0, H1, H2, Hs0, ⟨%g1, %hg1, HG0⟩, HR0, Htake, HatB, HO⟩
  ihave HO := (Entails.of_eq (congrArg (fun O => owes (c : Thread nD τ) O (insert (SemLoc.reg barS, ()) W)) (owedRem1_all c))) $$ HO
  ihave Hpart := (part_split (F := F) c (partC m c)) $$ Hs0
  icases Hpart with ⟨⟨HP00, HP01⟩, HPd0, HPd1⟩
  unfold take
  simp only [bigSep_univ_two]
  icases Htake with ⟨Htk0, Htk1⟩
  icases Htd with ⟨Htd0, Htd1⟩
  icases HatD with ⟨Hat0, Hat1⟩
  icases HcR with ⟨HcR0, HcR1⟩
  ihave Hst0 := (st1_init m c 0) $$ [HPd0 Htk0 Htd0]
  · isplitl [HPd0]; · iexact HPd0
    isplitl [Htk0] <;> iassumption
  ihave Hst1 := (st1_init m c 1) $$ [HPd1 Htk1 Htd1]
  · isplitl [HPd1]; · iexact HPd1
    isplitl [Htk1] <;> iassumption
  -- first-round copy: column half 0, distance 1
  sl_exec
  iapply (copy1 m c 0 1 (by decide) others (by decide) (by decide) pairs (by decide) K (insert (SemLoc.reg barS, ()) W) _ _ _ (by rw [k0_off2_eq_1]; rfl) _ _ _ (k0_dev33_fwd c) _ _ _ _)
  isplitr; · iexact HI
  isplitr; · iexact Hro
  isplitl [Hst0]; · iexact Hst0
  isplitl [HO]; · iexact HO
  iintro ⟨Hst0, HO⟩
  -- first-round copy: column half 0, distance 2
  sl_exec
  iapply (copy1 m c 0 2 (by decide) (others.erase 1) (by decide) (by decide) (pairs.erase (0, 1)) (by decide) K (insert (SemLoc.reg barS, ()) W) _ _ _ (by rw [k0_off2_eq_2]; rfl) _ _ _ (k0_dev34_fwd c) _ _ _ _)
  isplitr; · iexact HI
  isplitr; · iexact Hro
  isplitl [Hst0]; · iexact Hst0
  isplitl [HO]; · iexact HO
  iintro ⟨Hst0, HO⟩
  -- first-round copy: column half 0, distance 3
  sl_exec
  iapply (copy1 m c 0 3 (by decide) ((others.erase 1).erase 2) (by decide) (by decide) ((pairs.erase (0, 1)).erase (0, 2)) (by decide) K (insert (SemLoc.reg barS, ()) W) _ _ _ (by rw [k0_off2_eq_3]; rfl) _ _ _ (k0_dev35_fwd c) _ _ _ _)
  isplitr; · iexact HI
  isplitr; · iexact Hro
  isplitl [Hst0]; · iexact Hst0
  isplitl [HO]; · iexact HO
  iintro ⟨Hst0, HO⟩
  -- first-round copy: column half 0, distance 4
  sl_exec
  iapply (copy1 m c 0 4 (by decide) (((others.erase 1).erase 2).erase 3) (by decide) (by decide) (((pairs.erase (0, 1)).erase (0, 2)).erase (0, 3)) (by decide) K (insert (SemLoc.reg barS, ()) W) _ _ _ (by rw [k0_off2_eq_4]; rfl) _ _ _ (k0_dev36_fwd c) _ _ _ _)
  isplitr; · iexact HI
  isplitr; · iexact Hro
  isplitl [Hst0]; · iexact Hst0
  isplitl [HO]; · iexact HO
  iintro ⟨Hst0, HO⟩
  -- first-round copy: column half 0, distance 5
  sl_exec
  iapply (copy1 m c 0 5 (by decide) ((((others.erase 1).erase 2).erase 3).erase 4) (by decide) (by decide) ((((pairs.erase (0, 1)).erase (0, 2)).erase (0, 3)).erase (0, 4)) (by decide) K (insert (SemLoc.reg barS, ()) W) _ _ _ (by rw [k0_off2_eq_5]; rfl) _ _ _ (k0_dev37_fwd c) _ _ _ _)
  isplitr; · iexact HI
  isplitr; · iexact Hro
  isplitl [Hst0]; · iexact Hst0
  isplitl [HO]; · iexact HO
  iintro ⟨Hst0, HO⟩
  -- first-round copy: column half 0, distance 6
  sl_exec
  iapply (copy1 m c 0 6 (by decide) (((((others.erase 1).erase 2).erase 3).erase 4).erase 5) (by decide) (by decide) (((((pairs.erase (0, 1)).erase (0, 2)).erase (0, 3)).erase (0, 4)).erase (0, 5)) (by decide) K (insert (SemLoc.reg barS, ()) W) _ _ _ (by rw [k0_off2_eq_6]; rfl) _ _ _ (k0_dev38_fwd c) _ _ _ _)
  isplitr; · iexact HI
  isplitr; · iexact Hro
  isplitl [Hst0]; · iexact Hst0
  isplitl [HO]; · iexact HO
  iintro ⟨Hst0, HO⟩
  -- first-round copy: column half 0, distance 7
  sl_exec
  iapply (copy1 m c 0 7 (by decide) ((((((others.erase 1).erase 2).erase 3).erase 4).erase 5).erase 6) (by decide) (by decide) ((((((pairs.erase (0, 1)).erase (0, 2)).erase (0, 3)).erase (0, 4)).erase (0, 5)).erase (0, 6)) (by decide) K (insert (SemLoc.reg barS, ()) W) _ _ _ (by rw [k0_off2_eq_7]; rfl) _ _ _ (k0_dev39_fwd c) _ _ _ _)
  isplitr; · iexact HI
  isplitr; · iexact Hro
  isplitl [Hst0]; · iexact Hst0
  isplitl [HO]; · iexact HO
  iintro ⟨Hst0, HO⟩
  -- first-round copy: column half 0, distance 8
  sl_exec
  iapply (copy1 m c 0 8 (by decide) (((((((others.erase 1).erase 2).erase 3).erase 4).erase 5).erase 6).erase 7) (by decide) (by decide) (((((((pairs.erase (0, 1)).erase (0, 2)).erase (0, 3)).erase (0, 4)).erase (0, 5)).erase (0, 6)).erase (0, 7)) (by decide) K (insert (SemLoc.reg barS, ()) W) _ _ _ (by rw [k0_off2_eq_8]; rfl) _ _ _ (k0_dev40_fwd c) _ _ _ _)
  isplitr; · iexact HI
  isplitr; · iexact Hro
  isplitl [Hst0]; · iexact Hst0
  isplitl [HO]; · iexact HO
  iintro ⟨Hst0, HO⟩
  -- first-round copy: column half 0, distance 9
  sl_exec
  iapply (copy1 m c 0 9 (by decide) ((((((((others.erase 1).erase 2).erase 3).erase 4).erase 5).erase 6).erase 7).erase 8) (by decide) (by decide) ((((((((pairs.erase (0, 1)).erase (0, 2)).erase (0, 3)).erase (0, 4)).erase (0, 5)).erase (0, 6)).erase (0, 7)).erase (0, 8)) (by decide) K (insert (SemLoc.reg barS, ()) W) _ _ _ (by rw [k0_off2_eq_9]; rfl) _ _ _ (k0_dev41_fwd c) _ _ _ _)
  isplitr; · iexact HI
  isplitr; · iexact Hro
  isplitl [Hst0]; · iexact Hst0
  isplitl [HO]; · iexact HO
  iintro ⟨Hst0, HO⟩
  -- first-round copy: column half 0, distance 10
  sl_exec
  iapply (copy1 m c 0 10 (by decide) (((((((((others.erase 1).erase 2).erase 3).erase 4).erase 5).erase 6).erase 7).erase 8).erase 9) (by decide) (by decide) (((((((((pairs.erase (0, 1)).erase (0, 2)).erase (0, 3)).erase (0, 4)).erase (0, 5)).erase (0, 6)).erase (0, 7)).erase (0, 8)).erase (0, 9)) (by decide) K (insert (SemLoc.reg barS, ()) W) _ _ _ (by rw [k0_off2_eq_10]; rfl) _ _ _ (k0_dev42_fwd c) _ _ _ _)
  isplitr; · iexact HI
  isplitr; · iexact Hro
  isplitl [Hst0]; · iexact Hst0
  isplitl [HO]; · iexact HO
  iintro ⟨Hst0, HO⟩
  -- first-round copy: column half 0, distance 11
  sl_exec
  iapply (copy1 m c 0 11 (by decide) ((((((((((others.erase 1).erase 2).erase 3).erase 4).erase 5).erase 6).erase 7).erase 8).erase 9).erase 10) (by decide) (by decide) ((((((((((pairs.erase (0, 1)).erase (0, 2)).erase (0, 3)).erase (0, 4)).erase (0, 5)).erase (0, 6)).erase (0, 7)).erase (0, 8)).erase (0, 9)).erase (0, 10)) (by decide) K (insert (SemLoc.reg barS, ()) W) _ _ _ (by rw [k0_off2_eq_11]; rfl) _ _ _ (k0_dev43_fwd c) _ _ _ _)
  isplitr; · iexact HI
  isplitr; · iexact Hro
  isplitl [Hst0]; · iexact Hst0
  isplitl [HO]; · iexact HO
  iintro ⟨Hst0, HO⟩
  -- first-round copy: column half 0, distance 12
  sl_exec
  iapply (copy1 m c 0 12 (by decide) (((((((((((others.erase 1).erase 2).erase 3).erase 4).erase 5).erase 6).erase 7).erase 8).erase 9).erase 10).erase 11) (by decide) (by decide) (((((((((((pairs.erase (0, 1)).erase (0, 2)).erase (0, 3)).erase (0, 4)).erase (0, 5)).erase (0, 6)).erase (0, 7)).erase (0, 8)).erase (0, 9)).erase (0, 10)).erase (0, 11)) (by decide) K (insert (SemLoc.reg barS, ()) W) _ _ _ (by rw [k0_off2_eq_12]; rfl) _ _ _ (k0_dev44_fwd c) _ _ _ _)
  isplitr; · iexact HI
  isplitr; · iexact Hro
  isplitl [Hst0]; · iexact Hst0
  isplitl [HO]; · iexact HO
  iintro ⟨Hst0, HO⟩
  -- first-round copy: column half 0, distance 13
  sl_exec
  iapply (copy1 m c 0 13 (by decide) ((((((((((((others.erase 1).erase 2).erase 3).erase 4).erase 5).erase 6).erase 7).erase 8).erase 9).erase 10).erase 11).erase 12) (by decide) (by decide) ((((((((((((pairs.erase (0, 1)).erase (0, 2)).erase (0, 3)).erase (0, 4)).erase (0, 5)).erase (0, 6)).erase (0, 7)).erase (0, 8)).erase (0, 9)).erase (0, 10)).erase (0, 11)).erase (0, 12)) (by decide) K (insert (SemLoc.reg barS, ()) W) _ _ _ (by rw [k0_off2_eq_13]; rfl) _ _ _ (k0_dev45_fwd c) _ _ _ _)
  isplitr; · iexact HI
  isplitr; · iexact Hro
  isplitl [Hst0]; · iexact Hst0
  isplitl [HO]; · iexact HO
  iintro ⟨Hst0, HO⟩
  -- first-round copy: column half 0, distance 14
  sl_exec
  iapply (copy1 m c 0 14 (by decide) (((((((((((((others.erase 1).erase 2).erase 3).erase 4).erase 5).erase 6).erase 7).erase 8).erase 9).erase 10).erase 11).erase 12).erase 13) (by decide) (by decide) (((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)) (by decide) K (insert (SemLoc.reg barS, ()) W) _ _ _ (by rw [k0_off2_eq_14]; rfl) _ _ _ (k0_dev46_fwd c) _ _ _ _)
  isplitr; · iexact HI
  isplitr; · iexact Hro
  isplitl [Hst0]; · iexact Hst0
  isplitl [HO]; · iexact HO
  iintro ⟨Hst0, HO⟩
  -- first-round copy: column half 0, distance 15
  sl_exec
  iapply (copy1 m c 0 15 (by decide) ((((((((((((((others.erase 1).erase 2).erase 3).erase 4).erase 5).erase 6).erase 7).erase 8).erase 9).erase 10).erase 11).erase 12).erase 13).erase 14) (by decide) (by decide) ((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)) (by decide) K (insert (SemLoc.reg barS, ()) W) _ _ _ (by rw [k0_off2_eq_15]; rfl) _ _ _ (k0_dev47_fwd c) _ _ _ _)
  isplitr; · iexact HI
  isplitr; · iexact Hro
  isplitl [Hst0]; · iexact Hst0
  isplitl [HO]; · iexact HO
  iintro ⟨Hst0, HO⟩
  -- first-round copy: column half 0, distance 16
  sl_exec
  iapply (copy1 m c 0 16 (by decide) (((((((((((((((others.erase 1).erase 2).erase 3).erase 4).erase 5).erase 6).erase 7).erase 8).erase 9).erase 10).erase 11).erase 12).erase 13).erase 14).erase 15) (by decide) (by decide) (((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)) (by decide) K (insert (SemLoc.reg barS, ()) W) _ _ _ (by rw [k0_off2_eq_16]; rfl) _ _ _ (k0_dev48_fwd c) _ _ _ _)
  isplitr; · iexact HI
  isplitr; · iexact Hro
  isplitl [Hst0]; · iexact Hst0
  isplitl [HO]; · iexact HO
  iintro ⟨Hst0, HO⟩
  -- first-round copy: column half 0, distance 17
  sl_exec
  iapply (copy1 m c 0 17 (by decide) ((((((((((((((((others.erase 1).erase 2).erase 3).erase 4).erase 5).erase 6).erase 7).erase 8).erase 9).erase 10).erase 11).erase 12).erase 13).erase 14).erase 15).erase 16) (by decide) (by decide) ((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)) (by decide) K (insert (SemLoc.reg barS, ()) W) _ _ _ (by rw [k0_off2_eq_17]; rfl) _ _ _ (k0_dev49_fwd c) _ _ _ _)
  isplitr; · iexact HI
  isplitr; · iexact Hro
  isplitl [Hst0]; · iexact Hst0
  isplitl [HO]; · iexact HO
  iintro ⟨Hst0, HO⟩
  -- first-round copy: column half 0, distance 18
  sl_exec
  iapply (copy1 m c 0 18 (by decide) (((((((((((((((((others.erase 1).erase 2).erase 3).erase 4).erase 5).erase 6).erase 7).erase 8).erase 9).erase 10).erase 11).erase 12).erase 13).erase 14).erase 15).erase 16).erase 17) (by decide) (by decide) (((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)) (by decide) K (insert (SemLoc.reg barS, ()) W) _ _ _ (by rw [k0_off2_eq_18]; rfl) _ _ _ (k0_dev50_fwd c) _ _ _ _)
  isplitr; · iexact HI
  isplitr; · iexact Hro
  isplitl [Hst0]; · iexact Hst0
  isplitl [HO]; · iexact HO
  iintro ⟨Hst0, HO⟩
  -- first-round copy: column half 0, distance 19
  sl_exec
  iapply (copy1 m c 0 19 (by decide) ((((((((((((((((((others.erase 1).erase 2).erase 3).erase 4).erase 5).erase 6).erase 7).erase 8).erase 9).erase 10).erase 11).erase 12).erase 13).erase 14).erase 15).erase 16).erase 17).erase 18) (by decide) (by decide) ((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)) (by decide) K (insert (SemLoc.reg barS, ()) W) _ _ _ (by rw [k0_off2_eq_19]; rfl) _ _ _ (k0_dev51_fwd c) _ _ _ _)
  isplitr; · iexact HI
  isplitr; · iexact Hro
  isplitl [Hst0]; · iexact Hst0
  isplitl [HO]; · iexact HO
  iintro ⟨Hst0, HO⟩
  -- first-round copy: column half 0, distance 20
  sl_exec
  iapply (copy1 m c 0 20 (by decide) (((((((((((((((((((others.erase 1).erase 2).erase 3).erase 4).erase 5).erase 6).erase 7).erase 8).erase 9).erase 10).erase 11).erase 12).erase 13).erase 14).erase 15).erase 16).erase 17).erase 18).erase 19) (by decide) (by decide) (((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)) (by decide) K (insert (SemLoc.reg barS, ()) W) _ _ _ (by rw [k0_off2_eq_20]; rfl) _ _ _ (k0_dev52_fwd c) _ _ _ _)
  isplitr; · iexact HI
  isplitr; · iexact Hro
  isplitl [Hst0]; · iexact Hst0
  isplitl [HO]; · iexact HO
  iintro ⟨Hst0, HO⟩
  -- first-round copy: column half 0, distance 21
  sl_exec
  iapply (copy1 m c 0 21 (by decide) ((((((((((((((((((((others.erase 1).erase 2).erase 3).erase 4).erase 5).erase 6).erase 7).erase 8).erase 9).erase 10).erase 11).erase 12).erase 13).erase 14).erase 15).erase 16).erase 17).erase 18).erase 19).erase 20) (by decide) (by decide) ((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)) (by decide) K (insert (SemLoc.reg barS, ()) W) _ _ _ (by rw [k0_off2_eq_21]; rfl) _ _ _ (k0_dev53_fwd c) _ _ _ _)
  isplitr; · iexact HI
  isplitr; · iexact Hro
  isplitl [Hst0]; · iexact Hst0
  isplitl [HO]; · iexact HO
  iintro ⟨Hst0, HO⟩
  -- first-round copy: column half 0, distance 22
  sl_exec
  iapply (copy1 m c 0 22 (by decide) (((((((((((((((((((((others.erase 1).erase 2).erase 3).erase 4).erase 5).erase 6).erase 7).erase 8).erase 9).erase 10).erase 11).erase 12).erase 13).erase 14).erase 15).erase 16).erase 17).erase 18).erase 19).erase 20).erase 21) (by decide) (by decide) (((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)) (by decide) K (insert (SemLoc.reg barS, ()) W) _ _ _ (by rw [k0_off2_eq_22]; rfl) _ _ _ (k0_dev54_fwd c) _ _ _ _)
  isplitr; · iexact HI
  isplitr; · iexact Hro
  isplitl [Hst0]; · iexact Hst0
  isplitl [HO]; · iexact HO
  iintro ⟨Hst0, HO⟩
  -- first-round copy: column half 0, distance 23
  sl_exec
  iapply (copy1 m c 0 23 (by decide) ((((((((((((((((((((((others.erase 1).erase 2).erase 3).erase 4).erase 5).erase 6).erase 7).erase 8).erase 9).erase 10).erase 11).erase 12).erase 13).erase 14).erase 15).erase 16).erase 17).erase 18).erase 19).erase 20).erase 21).erase 22) (by decide) (by decide) ((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)) (by decide) K (insert (SemLoc.reg barS, ()) W) _ _ _ (by rw [k0_off2_eq_23]; rfl) _ _ _ (k0_dev55_fwd c) _ _ _ _)
  isplitr; · iexact HI
  isplitr; · iexact Hro
  isplitl [Hst0]; · iexact Hst0
  isplitl [HO]; · iexact HO
  iintro ⟨Hst0, HO⟩
  -- first-round copy: column half 0, distance 24
  sl_exec
  iapply (copy1 m c 0 24 (by decide) (((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23) (by decide) (by decide) (((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)) (by decide) K (insert (SemLoc.reg barS, ()) W) _ _ _ (by rw [k0_off2_eq_24]; rfl) _ _ _ (k0_dev56_fwd c) _ _ _ _)
  isplitr; · iexact HI
  isplitr; · iexact Hro
  isplitl [Hst0]; · iexact Hst0
  isplitl [HO]; · iexact HO
  iintro ⟨Hst0, HO⟩
  -- first-round copy: column half 0, distance 25
  sl_exec
  iapply (copy1 m c 0 25 (by decide) ((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24) (by decide) (by decide) ((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)) (by decide) K (insert (SemLoc.reg barS, ()) W) _ _ _ (by rw [k0_off2_eq_25]; rfl) _ _ _ (k0_dev57_fwd c) _ _ _ _)
  isplitr; · iexact HI
  isplitr; · iexact Hro
  isplitl [Hst0]; · iexact Hst0
  isplitl [HO]; · iexact HO
  iintro ⟨Hst0, HO⟩
  -- first-round copy: column half 0, distance 26
  sl_exec
  iapply (copy1 m c 0 26 (by decide) (((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25) (by decide) (by decide) (((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)) (by decide) K (insert (SemLoc.reg barS, ()) W) _ _ _ (by rw [k0_off2_eq_26]; rfl) _ _ _ (k0_dev58_fwd c) _ _ _ _)
  isplitr; · iexact HI
  isplitr; · iexact Hro
  isplitl [Hst0]; · iexact Hst0
  isplitl [HO]; · iexact HO
  iintro ⟨Hst0, HO⟩
  -- first-round copy: column half 0, distance 27
  sl_exec
  iapply (copy1 m c 0 27 (by decide) ((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26) (by decide) (by decide) ((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)) (by decide) K (insert (SemLoc.reg barS, ()) W) _ _ _ (by rw [k0_off2_eq_27]; rfl) _ _ _ (k0_dev59_fwd c) _ _ _ _)
  isplitr; · iexact HI
  isplitr; · iexact Hro
  isplitl [Hst0]; · iexact Hst0
  isplitl [HO]; · iexact HO
  iintro ⟨Hst0, HO⟩
  -- first-round copy: column half 0, distance 28
  sl_exec
  iapply (copy1 m c 0 28 (by decide) (((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27) (by decide) (by decide) (((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)) (by decide) K (insert (SemLoc.reg barS, ()) W) _ _ _ (by rw [k0_off2_eq_28]; rfl) _ _ _ (k0_dev60_fwd c) _ _ _ _)
  isplitr; · iexact HI
  isplitr; · iexact Hro
  isplitl [Hst0]; · iexact Hst0
  isplitl [HO]; · iexact HO
  iintro ⟨Hst0, HO⟩
  -- first-round copy: column half 0, distance 29
  sl_exec
  iapply (copy1 m c 0 29 (by decide) ((((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27).erase 28) (by decide) (by decide) ((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)) (by decide) K (insert (SemLoc.reg barS, ()) W) _ _ _ (by rw [k0_off2_eq_29]; rfl) _ _ _ (k0_dev61_fwd c) _ _ _ _)
  isplitr; · iexact HI
  isplitr; · iexact Hro
  isplitl [Hst0]; · iexact Hst0
  isplitl [HO]; · iexact HO
  iintro ⟨Hst0, HO⟩
  -- first-round copy: column half 0, distance 30
  sl_exec
  iapply (copy1 m c 0 30 (by decide) (((((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27).erase 28).erase 29) (by decide) (by decide) (((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)) (by decide) K (insert (SemLoc.reg barS, ()) W) _ _ _ (by rw [k0_off2_eq_30]; rfl) _ _ _ (k0_dev62_fwd c) _ _ _ _)
  isplitr; · iexact HI
  isplitr; · iexact Hro
  isplitl [Hst0]; · iexact Hst0
  isplitl [HO]; · iexact HO
  iintro ⟨Hst0, HO⟩
  -- first-round copy: column half 0, distance 31
  sl_exec
  iapply (copy1 m c 0 31 (by decide) ((((((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27).erase 28).erase 29).erase 30) (by decide) (by decide) ((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)) (by decide) K (insert (SemLoc.reg barS, ()) W) _ _ _ (by rw [k0_off2_eq_31]; rfl) _ _ _ (k0_dev63_fwd c) _ _ _ _)
  isplitr; · iexact HI
  isplitr; · iexact Hro
  isplitl [Hst0]; · iexact Hst0
  isplitl [HO]; · iexact HO
  iintro ⟨Hst0, HO⟩
  -- first-round copy: column half 1, distance 1
  sl_exec
  iapply (copy1 m c 1 1 (by decide) others (by decide) (by decide) (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)) (by decide) K (insert (SemLoc.reg barS, ()) W) _ _ _ (by rw [k0_off3_eq_1]; rfl) _ _ _ (k0_dev64_fwd c) _ _ _ _)
  isplitr; · iexact HI
  isplitr; · iexact Hro
  isplitl [Hst1]; · iexact Hst1
  isplitl [HO]; · iexact HO
  iintro ⟨Hst1, HO⟩
  -- first-round copy: column half 1, distance 2
  sl_exec
  iapply (copy1 m c 1 2 (by decide) (others.erase 1) (by decide) (by decide) ((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)) (by decide) K (insert (SemLoc.reg barS, ()) W) _ _ _ (by rw [k0_off3_eq_2]; rfl) _ _ _ (k0_dev65_fwd c) _ _ _ _)
  isplitr; · iexact HI
  isplitr; · iexact Hro
  isplitl [Hst1]; · iexact Hst1
  isplitl [HO]; · iexact HO
  iintro ⟨Hst1, HO⟩
  -- first-round copy: column half 1, distance 3
  sl_exec
  iapply (copy1 m c 1 3 (by decide) ((others.erase 1).erase 2) (by decide) (by decide) (((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)) (by decide) K (insert (SemLoc.reg barS, ()) W) _ _ _ (by rw [k0_off3_eq_3]; rfl) _ _ _ (k0_dev66_fwd c) _ _ _ _)
  isplitr; · iexact HI
  isplitr; · iexact Hro
  isplitl [Hst1]; · iexact Hst1
  isplitl [HO]; · iexact HO
  iintro ⟨Hst1, HO⟩
  -- first-round copy: column half 1, distance 4
  sl_exec
  iapply (copy1 m c 1 4 (by decide) (((others.erase 1).erase 2).erase 3) (by decide) (by decide) ((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)) (by decide) K (insert (SemLoc.reg barS, ()) W) _ _ _ (by rw [k0_off3_eq_4]; rfl) _ _ _ (k0_dev67_fwd c) _ _ _ _)
  isplitr; · iexact HI
  isplitr; · iexact Hro
  isplitl [Hst1]; · iexact Hst1
  isplitl [HO]; · iexact HO
  iintro ⟨Hst1, HO⟩
  -- first-round copy: column half 1, distance 5
  sl_exec
  iapply (copy1 m c 1 5 (by decide) ((((others.erase 1).erase 2).erase 3).erase 4) (by decide) (by decide) (((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)) (by decide) K (insert (SemLoc.reg barS, ()) W) _ _ _ (by rw [k0_off3_eq_5]; rfl) _ _ _ (k0_dev68_fwd c) _ _ _ _)
  isplitr; · iexact HI
  isplitr; · iexact Hro
  isplitl [Hst1]; · iexact Hst1
  isplitl [HO]; · iexact HO
  iintro ⟨Hst1, HO⟩
  -- first-round copy: column half 1, distance 6
  sl_exec
  iapply (copy1 m c 1 6 (by decide) (((((others.erase 1).erase 2).erase 3).erase 4).erase 5) (by decide) (by decide) ((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)) (by decide) K (insert (SemLoc.reg barS, ()) W) _ _ _ (by rw [k0_off3_eq_6]; rfl) _ _ _ (k0_dev69_fwd c) _ _ _ _)
  isplitr; · iexact HI
  isplitr; · iexact Hro
  isplitl [Hst1]; · iexact Hst1
  isplitl [HO]; · iexact HO
  iintro ⟨Hst1, HO⟩
  -- first-round copy: column half 1, distance 7
  sl_exec
  iapply (copy1 m c 1 7 (by decide) ((((((others.erase 1).erase 2).erase 3).erase 4).erase 5).erase 6) (by decide) (by decide) (((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)) (by decide) K (insert (SemLoc.reg barS, ()) W) _ _ _ (by rw [k0_off3_eq_7]; rfl) _ _ _ (k0_dev70_fwd c) _ _ _ _)
  isplitr; · iexact HI
  isplitr; · iexact Hro
  isplitl [Hst1]; · iexact Hst1
  isplitl [HO]; · iexact HO
  iintro ⟨Hst1, HO⟩
  -- first-round copy: column half 1, distance 8
  sl_exec
  iapply (copy1 m c 1 8 (by decide) (((((((others.erase 1).erase 2).erase 3).erase 4).erase 5).erase 6).erase 7) (by decide) (by decide) ((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)) (by decide) K (insert (SemLoc.reg barS, ()) W) _ _ _ (by rw [k0_off3_eq_8]; rfl) _ _ _ (k0_dev71_fwd c) _ _ _ _)
  isplitr; · iexact HI
  isplitr; · iexact Hro
  isplitl [Hst1]; · iexact Hst1
  isplitl [HO]; · iexact HO
  iintro ⟨Hst1, HO⟩
  -- first-round copy: column half 1, distance 9
  sl_exec
  iapply (copy1 m c 1 9 (by decide) ((((((((others.erase 1).erase 2).erase 3).erase 4).erase 5).erase 6).erase 7).erase 8) (by decide) (by decide) (((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)) (by decide) K (insert (SemLoc.reg barS, ()) W) _ _ _ (by rw [k0_off3_eq_9]; rfl) _ _ _ (k0_dev72_fwd c) _ _ _ _)
  isplitr; · iexact HI
  isplitr; · iexact Hro
  isplitl [Hst1]; · iexact Hst1
  isplitl [HO]; · iexact HO
  iintro ⟨Hst1, HO⟩
  -- first-round copy: column half 1, distance 10
  sl_exec
  iapply (copy1 m c 1 10 (by decide) (((((((((others.erase 1).erase 2).erase 3).erase 4).erase 5).erase 6).erase 7).erase 8).erase 9) (by decide) (by decide) ((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)) (by decide) K (insert (SemLoc.reg barS, ()) W) _ _ _ (by rw [k0_off3_eq_10]; rfl) _ _ _ (k0_dev73_fwd c) _ _ _ _)
  isplitr; · iexact HI
  isplitr; · iexact Hro
  isplitl [Hst1]; · iexact Hst1
  isplitl [HO]; · iexact HO
  iintro ⟨Hst1, HO⟩
  -- first-round copy: column half 1, distance 11
  sl_exec
  iapply (copy1 m c 1 11 (by decide) ((((((((((others.erase 1).erase 2).erase 3).erase 4).erase 5).erase 6).erase 7).erase 8).erase 9).erase 10) (by decide) (by decide) (((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)) (by decide) K (insert (SemLoc.reg barS, ()) W) _ _ _ (by rw [k0_off3_eq_11]; rfl) _ _ _ (k0_dev74_fwd c) _ _ _ _)
  isplitr; · iexact HI
  isplitr; · iexact Hro
  isplitl [Hst1]; · iexact Hst1
  isplitl [HO]; · iexact HO
  iintro ⟨Hst1, HO⟩
  -- first-round copy: column half 1, distance 12
  sl_exec
  iapply (copy1 m c 1 12 (by decide) (((((((((((others.erase 1).erase 2).erase 3).erase 4).erase 5).erase 6).erase 7).erase 8).erase 9).erase 10).erase 11) (by decide) (by decide) ((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)) (by decide) K (insert (SemLoc.reg barS, ()) W) _ _ _ (by rw [k0_off3_eq_12]; rfl) _ _ _ (k0_dev75_fwd c) _ _ _ _)
  isplitr; · iexact HI
  isplitr; · iexact Hro
  isplitl [Hst1]; · iexact Hst1
  isplitl [HO]; · iexact HO
  iintro ⟨Hst1, HO⟩
  -- first-round copy: column half 1, distance 13
  sl_exec
  iapply (copy1 m c 1 13 (by decide) ((((((((((((others.erase 1).erase 2).erase 3).erase 4).erase 5).erase 6).erase 7).erase 8).erase 9).erase 10).erase 11).erase 12) (by decide) (by decide) (((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)) (by decide) K (insert (SemLoc.reg barS, ()) W) _ _ _ (by rw [k0_off3_eq_13]; rfl) _ _ _ (k0_dev76_fwd c) _ _ _ _)
  isplitr; · iexact HI
  isplitr; · iexact Hro
  isplitl [Hst1]; · iexact Hst1
  isplitl [HO]; · iexact HO
  iintro ⟨Hst1, HO⟩
  -- first-round copy: column half 1, distance 14
  sl_exec
  iapply (copy1 m c 1 14 (by decide) (((((((((((((others.erase 1).erase 2).erase 3).erase 4).erase 5).erase 6).erase 7).erase 8).erase 9).erase 10).erase 11).erase 12).erase 13) (by decide) (by decide) ((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)) (by decide) K (insert (SemLoc.reg barS, ()) W) _ _ _ (by rw [k0_off3_eq_14]; rfl) _ _ _ (k0_dev77_fwd c) _ _ _ _)
  isplitr; · iexact HI
  isplitr; · iexact Hro
  isplitl [Hst1]; · iexact Hst1
  isplitl [HO]; · iexact HO
  iintro ⟨Hst1, HO⟩
  -- first-round copy: column half 1, distance 15
  sl_exec
  iapply (copy1 m c 1 15 (by decide) ((((((((((((((others.erase 1).erase 2).erase 3).erase 4).erase 5).erase 6).erase 7).erase 8).erase 9).erase 10).erase 11).erase 12).erase 13).erase 14) (by decide) (by decide) (((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)) (by decide) K (insert (SemLoc.reg barS, ()) W) _ _ _ (by rw [k0_off3_eq_15]; rfl) _ _ _ (k0_dev78_fwd c) _ _ _ _)
  isplitr; · iexact HI
  isplitr; · iexact Hro
  isplitl [Hst1]; · iexact Hst1
  isplitl [HO]; · iexact HO
  iintro ⟨Hst1, HO⟩
  -- first-round copy: column half 1, distance 16
  sl_exec
  iapply (copy1 m c 1 16 (by decide) (((((((((((((((others.erase 1).erase 2).erase 3).erase 4).erase 5).erase 6).erase 7).erase 8).erase 9).erase 10).erase 11).erase 12).erase 13).erase 14).erase 15) (by decide) (by decide) ((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)) (by decide) K (insert (SemLoc.reg barS, ()) W) _ _ _ (by rw [k0_off3_eq_16]; rfl) _ _ _ (k0_dev79_fwd c) _ _ _ _)
  isplitr; · iexact HI
  isplitr; · iexact Hro
  isplitl [Hst1]; · iexact Hst1
  isplitl [HO]; · iexact HO
  iintro ⟨Hst1, HO⟩
  -- first-round copy: column half 1, distance 17
  sl_exec
  iapply (copy1 m c 1 17 (by decide) ((((((((((((((((others.erase 1).erase 2).erase 3).erase 4).erase 5).erase 6).erase 7).erase 8).erase 9).erase 10).erase 11).erase 12).erase 13).erase 14).erase 15).erase 16) (by decide) (by decide) (((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)) (by decide) K (insert (SemLoc.reg barS, ()) W) _ _ _ (by rw [k0_off3_eq_17]; rfl) _ _ _ (k0_dev80_fwd c) _ _ _ _)
  isplitr; · iexact HI
  isplitr; · iexact Hro
  isplitl [Hst1]; · iexact Hst1
  isplitl [HO]; · iexact HO
  iintro ⟨Hst1, HO⟩
  -- first-round copy: column half 1, distance 18
  sl_exec
  iapply (copy1 m c 1 18 (by decide) (((((((((((((((((others.erase 1).erase 2).erase 3).erase 4).erase 5).erase 6).erase 7).erase 8).erase 9).erase 10).erase 11).erase 12).erase 13).erase 14).erase 15).erase 16).erase 17) (by decide) (by decide) ((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)) (by decide) K (insert (SemLoc.reg barS, ()) W) _ _ _ (by rw [k0_off3_eq_18]; rfl) _ _ _ (k0_dev81_fwd c) _ _ _ _)
  isplitr; · iexact HI
  isplitr; · iexact Hro
  isplitl [Hst1]; · iexact Hst1
  isplitl [HO]; · iexact HO
  iintro ⟨Hst1, HO⟩
  -- first-round copy: column half 1, distance 19
  sl_exec
  iapply (copy1 m c 1 19 (by decide) ((((((((((((((((((others.erase 1).erase 2).erase 3).erase 4).erase 5).erase 6).erase 7).erase 8).erase 9).erase 10).erase 11).erase 12).erase 13).erase 14).erase 15).erase 16).erase 17).erase 18) (by decide) (by decide) (((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)) (by decide) K (insert (SemLoc.reg barS, ()) W) _ _ _ (by rw [k0_off3_eq_19]; rfl) _ _ _ (k0_dev82_fwd c) _ _ _ _)
  isplitr; · iexact HI
  isplitr; · iexact Hro
  isplitl [Hst1]; · iexact Hst1
  isplitl [HO]; · iexact HO
  iintro ⟨Hst1, HO⟩
  -- first-round copy: column half 1, distance 20
  sl_exec
  iapply (copy1 m c 1 20 (by decide) (((((((((((((((((((others.erase 1).erase 2).erase 3).erase 4).erase 5).erase 6).erase 7).erase 8).erase 9).erase 10).erase 11).erase 12).erase 13).erase 14).erase 15).erase 16).erase 17).erase 18).erase 19) (by decide) (by decide) ((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)) (by decide) K (insert (SemLoc.reg barS, ()) W) _ _ _ (by rw [k0_off3_eq_20]; rfl) _ _ _ (k0_dev83_fwd c) _ _ _ _)
  isplitr; · iexact HI
  isplitr; · iexact Hro
  isplitl [Hst1]; · iexact Hst1
  isplitl [HO]; · iexact HO
  iintro ⟨Hst1, HO⟩
  -- first-round copy: column half 1, distance 21
  sl_exec
  iapply (copy1 m c 1 21 (by decide) ((((((((((((((((((((others.erase 1).erase 2).erase 3).erase 4).erase 5).erase 6).erase 7).erase 8).erase 9).erase 10).erase 11).erase 12).erase 13).erase 14).erase 15).erase 16).erase 17).erase 18).erase 19).erase 20) (by decide) (by decide) (((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)) (by decide) K (insert (SemLoc.reg barS, ()) W) _ _ _ (by rw [k0_off3_eq_21]; rfl) _ _ _ (k0_dev84_fwd c) _ _ _ _)
  isplitr; · iexact HI
  isplitr; · iexact Hro
  isplitl [Hst1]; · iexact Hst1
  isplitl [HO]; · iexact HO
  iintro ⟨Hst1, HO⟩
  -- first-round copy: column half 1, distance 22
  sl_exec
  iapply (copy1 m c 1 22 (by decide) (((((((((((((((((((((others.erase 1).erase 2).erase 3).erase 4).erase 5).erase 6).erase 7).erase 8).erase 9).erase 10).erase 11).erase 12).erase 13).erase 14).erase 15).erase 16).erase 17).erase 18).erase 19).erase 20).erase 21) (by decide) (by decide) ((((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)).erase (1, 21)) (by decide) K (insert (SemLoc.reg barS, ()) W) _ _ _ (by rw [k0_off3_eq_22]; rfl) _ _ _ (k0_dev85_fwd c) _ _ _ _)
  isplitr; · iexact HI
  isplitr; · iexact Hro
  isplitl [Hst1]; · iexact Hst1
  isplitl [HO]; · iexact HO
  iintro ⟨Hst1, HO⟩
  -- first-round copy: column half 1, distance 23
  sl_exec
  iapply (copy1 m c 1 23 (by decide) ((((((((((((((((((((((others.erase 1).erase 2).erase 3).erase 4).erase 5).erase 6).erase 7).erase 8).erase 9).erase 10).erase 11).erase 12).erase 13).erase 14).erase 15).erase 16).erase 17).erase 18).erase 19).erase 20).erase 21).erase 22) (by decide) (by decide) (((((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)).erase (1, 21)).erase (1, 22)) (by decide) K (insert (SemLoc.reg barS, ()) W) _ _ _ (by rw [k0_off3_eq_23]; rfl) _ _ _ (k0_dev86_fwd c) _ _ _ _)
  isplitr; · iexact HI
  isplitr; · iexact Hro
  isplitl [Hst1]; · iexact Hst1
  isplitl [HO]; · iexact HO
  iintro ⟨Hst1, HO⟩
  -- first-round copy: column half 1, distance 24
  sl_exec
  iapply (copy1 m c 1 24 (by decide) (((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23) (by decide) (by decide) ((((((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)).erase (1, 21)).erase (1, 22)).erase (1, 23)) (by decide) K (insert (SemLoc.reg barS, ()) W) _ _ _ (by rw [k0_off3_eq_24]; rfl) _ _ _ (k0_dev87_fwd c) _ _ _ _)
  isplitr; · iexact HI
  isplitr; · iexact Hro
  isplitl [Hst1]; · iexact Hst1
  isplitl [HO]; · iexact HO
  iintro ⟨Hst1, HO⟩
  -- first-round copy: column half 1, distance 25
  sl_exec
  iapply (copy1 m c 1 25 (by decide) ((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24) (by decide) (by decide) (((((((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)).erase (1, 21)).erase (1, 22)).erase (1, 23)).erase (1, 24)) (by decide) K (insert (SemLoc.reg barS, ()) W) _ _ _ (by rw [k0_off3_eq_25]; rfl) _ _ _ (k0_dev88_fwd c) _ _ _ _)
  isplitr; · iexact HI
  isplitr; · iexact Hro
  isplitl [Hst1]; · iexact Hst1
  isplitl [HO]; · iexact HO
  iintro ⟨Hst1, HO⟩
  -- first-round copy: column half 1, distance 26
  sl_exec
  iapply (copy1 m c 1 26 (by decide) (((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25) (by decide) (by decide) ((((((((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)).erase (1, 21)).erase (1, 22)).erase (1, 23)).erase (1, 24)).erase (1, 25)) (by decide) K (insert (SemLoc.reg barS, ()) W) _ _ _ (by rw [k0_off3_eq_26]; rfl) _ _ _ (k0_dev89_fwd c) _ _ _ _)
  isplitr; · iexact HI
  isplitr; · iexact Hro
  isplitl [Hst1]; · iexact Hst1
  isplitl [HO]; · iexact HO
  iintro ⟨Hst1, HO⟩
  -- first-round copy: column half 1, distance 27
  sl_exec
  iapply (copy1 m c 1 27 (by decide) ((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26) (by decide) (by decide) (((((((((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)).erase (1, 21)).erase (1, 22)).erase (1, 23)).erase (1, 24)).erase (1, 25)).erase (1, 26)) (by decide) K (insert (SemLoc.reg barS, ()) W) _ _ _ (by rw [k0_off3_eq_27]; rfl) _ _ _ (k0_dev90_fwd c) _ _ _ _)
  isplitr; · iexact HI
  isplitr; · iexact Hro
  isplitl [Hst1]; · iexact Hst1
  isplitl [HO]; · iexact HO
  iintro ⟨Hst1, HO⟩
  -- first-round copy: column half 1, distance 28
  sl_exec
  iapply (copy1 m c 1 28 (by decide) (((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27) (by decide) (by decide) ((((((((((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)).erase (1, 21)).erase (1, 22)).erase (1, 23)).erase (1, 24)).erase (1, 25)).erase (1, 26)).erase (1, 27)) (by decide) K (insert (SemLoc.reg barS, ()) W) _ _ _ (by rw [k0_off3_eq_28]; rfl) _ _ _ (k0_dev91_fwd c) _ _ _ _)
  isplitr; · iexact HI
  isplitr; · iexact Hro
  isplitl [Hst1]; · iexact Hst1
  isplitl [HO]; · iexact HO
  iintro ⟨Hst1, HO⟩
  -- first-round copy: column half 1, distance 29
  sl_exec
  iapply (copy1 m c 1 29 (by decide) ((((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27).erase 28) (by decide) (by decide) (((((((((((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)).erase (1, 21)).erase (1, 22)).erase (1, 23)).erase (1, 24)).erase (1, 25)).erase (1, 26)).erase (1, 27)).erase (1, 28)) (by decide) K (insert (SemLoc.reg barS, ()) W) _ _ _ (by rw [k0_off3_eq_29]; rfl) _ _ _ (k0_dev92_fwd c) _ _ _ _)
  isplitr; · iexact HI
  isplitr; · iexact Hro
  isplitl [Hst1]; · iexact Hst1
  isplitl [HO]; · iexact HO
  iintro ⟨Hst1, HO⟩
  -- first-round copy: column half 1, distance 30
  sl_exec
  iapply (copy1 m c 1 30 (by decide) (((((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27).erase 28).erase 29) (by decide) (by decide) ((((((((((((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)).erase (1, 21)).erase (1, 22)).erase (1, 23)).erase (1, 24)).erase (1, 25)).erase (1, 26)).erase (1, 27)).erase (1, 28)).erase (1, 29)) (by decide) K (insert (SemLoc.reg barS, ()) W) _ _ _ (by rw [k0_off3_eq_30]; rfl) _ _ _ (k0_dev93_fwd c) _ _ _ _)
  isplitr; · iexact HI
  isplitr; · iexact Hro
  isplitl [Hst1]; · iexact Hst1
  isplitl [HO]; · iexact HO
  iintro ⟨Hst1, HO⟩
  -- first-round copy: column half 1, distance 31
  sl_exec
  iapply (copy1 m c 1 31 (by decide) ((((((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27).erase 28).erase 29).erase 30) (by decide) (by decide) (((((((((((((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)).erase (1, 21)).erase (1, 22)).erase (1, 23)).erase (1, 24)).erase (1, 25)).erase (1, 26)).erase (1, 27)).erase (1, 28)).erase (1, 29)).erase (1, 30)) (by decide) K (insert (SemLoc.reg barS, ()) W) _ _ _ (by rw [k0_off3_eq_31]; rfl) _ _ _ (k0_dev94_fwd c) _ _ _ _)
  isplitr; · iexact HI
  isplitr; · iexact Hro
  isplitl [Hst1]; · iexact Hst1
  isplitl [HO]; · iexact HO
  iintro ⟨Hst1, HO⟩
  -- every first-round copy is started: the device owes second-round credits only
  have hPend : ((((((((((((((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)).erase (1, 21)).erase (1, 22)).erase (1, 23)).erase (1, 24)).erase (1, 25)).erase (1, 26)).erase (1, 27)).erase (1, 28)).erase (1, 29)).erase (1, 30)).erase (1, 31)) = (∅ : Finset (Fin 2 × Fin 32)) := by decide
  ihave HO := (Entails.of_eq (congrArg (fun O => owes (c : Thread nD τ) O (insert (SemLoc.reg barS, ()) W)) (show owedRem1 c ((((((((((((((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)).erase (1, 21)).erase (1, 22)).erase (1, 23)).erase (1, 24)).erase (1, 25)).erase (1, 26)).erase (1, 27)).erase (1, 28)).erase (1, 29)).erase (1, 30)).erase (1, 31)) = owedRecv2 c from by rw [hPend]; unfold owedRem1; rw [Finset.sum_empty, add_zero]))) $$ HO
  ihave Hw0 := (st2_init m c 0) $$ [Hat0 HcR0]
  · isplitl [Hat0] <;> iassumption
  -- wait for the first-round copy to land: column half 0, distance 1
  sl_exec
  iapply (wait1 m c 0 1 (by decide) others (by decide) (by decide) K _ (owedRecv2 c) (owedRecv2_lv c) _ _ _ _ _ _ (by decide))
  isplitr; · iexact HI
  isplitr; · iexact Hlev
  isplitl [Hw0]; · iexact Hw0
  isplitl [HO]; · iexact HO
  iintro ⟨Hw0, HO⟩
  -- wait for the first-round copy to land: column half 0, distance 2
  sl_exec
  iapply (wait1 m c 0 2 (by decide) (others.erase 1) (by decide) (by decide) K _ (owedRecv2 c) (owedRecv2_lv c) _ _ _ _ _ _ (by decide))
  isplitr; · iexact HI
  isplitr; · iexact Hlev
  isplitl [Hw0]; · iexact Hw0
  isplitl [HO]; · iexact HO
  iintro ⟨Hw0, HO⟩
  -- wait for the first-round copy to land: column half 0, distance 3
  sl_exec
  iapply (wait1 m c 0 3 (by decide) ((others.erase 1).erase 2) (by decide) (by decide) K _ (owedRecv2 c) (owedRecv2_lv c) _ _ _ _ _ _ (by decide))
  isplitr; · iexact HI
  isplitr; · iexact Hlev
  isplitl [Hw0]; · iexact Hw0
  isplitl [HO]; · iexact HO
  iintro ⟨Hw0, HO⟩
  -- wait for the first-round copy to land: column half 0, distance 4
  sl_exec
  iapply (wait1 m c 0 4 (by decide) (((others.erase 1).erase 2).erase 3) (by decide) (by decide) K _ (owedRecv2 c) (owedRecv2_lv c) _ _ _ _ _ _ (by decide))
  isplitr; · iexact HI
  isplitr; · iexact Hlev
  isplitl [Hw0]; · iexact Hw0
  isplitl [HO]; · iexact HO
  iintro ⟨Hw0, HO⟩
  -- wait for the first-round copy to land: column half 0, distance 5
  sl_exec
  iapply (wait1 m c 0 5 (by decide) ((((others.erase 1).erase 2).erase 3).erase 4) (by decide) (by decide) K _ (owedRecv2 c) (owedRecv2_lv c) _ _ _ _ _ _ (by decide))
  isplitr; · iexact HI
  isplitr; · iexact Hlev
  isplitl [Hw0]; · iexact Hw0
  isplitl [HO]; · iexact HO
  iintro ⟨Hw0, HO⟩
  -- wait for the first-round copy to land: column half 0, distance 6
  sl_exec
  iapply (wait1 m c 0 6 (by decide) (((((others.erase 1).erase 2).erase 3).erase 4).erase 5) (by decide) (by decide) K _ (owedRecv2 c) (owedRecv2_lv c) _ _ _ _ _ _ (by decide))
  isplitr; · iexact HI
  isplitr; · iexact Hlev
  isplitl [Hw0]; · iexact Hw0
  isplitl [HO]; · iexact HO
  iintro ⟨Hw0, HO⟩
  -- wait for the first-round copy to land: column half 0, distance 7
  sl_exec
  iapply (wait1 m c 0 7 (by decide) ((((((others.erase 1).erase 2).erase 3).erase 4).erase 5).erase 6) (by decide) (by decide) K _ (owedRecv2 c) (owedRecv2_lv c) _ _ _ _ _ _ (by decide))
  isplitr; · iexact HI
  isplitr; · iexact Hlev
  isplitl [Hw0]; · iexact Hw0
  isplitl [HO]; · iexact HO
  iintro ⟨Hw0, HO⟩
  -- wait for the first-round copy to land: column half 0, distance 8
  sl_exec
  iapply (wait1 m c 0 8 (by decide) (((((((others.erase 1).erase 2).erase 3).erase 4).erase 5).erase 6).erase 7) (by decide) (by decide) K _ (owedRecv2 c) (owedRecv2_lv c) _ _ _ _ _ _ (by decide))
  isplitr; · iexact HI
  isplitr; · iexact Hlev
  isplitl [Hw0]; · iexact Hw0
  isplitl [HO]; · iexact HO
  iintro ⟨Hw0, HO⟩
  -- wait for the first-round copy to land: column half 0, distance 9
  sl_exec
  iapply (wait1 m c 0 9 (by decide) ((((((((others.erase 1).erase 2).erase 3).erase 4).erase 5).erase 6).erase 7).erase 8) (by decide) (by decide) K _ (owedRecv2 c) (owedRecv2_lv c) _ _ _ _ _ _ (by decide))
  isplitr; · iexact HI
  isplitr; · iexact Hlev
  isplitl [Hw0]; · iexact Hw0
  isplitl [HO]; · iexact HO
  iintro ⟨Hw0, HO⟩
  -- wait for the first-round copy to land: column half 0, distance 10
  sl_exec
  iapply (wait1 m c 0 10 (by decide) (((((((((others.erase 1).erase 2).erase 3).erase 4).erase 5).erase 6).erase 7).erase 8).erase 9) (by decide) (by decide) K _ (owedRecv2 c) (owedRecv2_lv c) _ _ _ _ _ _ (by decide))
  isplitr; · iexact HI
  isplitr; · iexact Hlev
  isplitl [Hw0]; · iexact Hw0
  isplitl [HO]; · iexact HO
  iintro ⟨Hw0, HO⟩
  -- wait for the first-round copy to land: column half 0, distance 11
  sl_exec
  iapply (wait1 m c 0 11 (by decide) ((((((((((others.erase 1).erase 2).erase 3).erase 4).erase 5).erase 6).erase 7).erase 8).erase 9).erase 10) (by decide) (by decide) K _ (owedRecv2 c) (owedRecv2_lv c) _ _ _ _ _ _ (by decide))
  isplitr; · iexact HI
  isplitr; · iexact Hlev
  isplitl [Hw0]; · iexact Hw0
  isplitl [HO]; · iexact HO
  iintro ⟨Hw0, HO⟩
  -- wait for the first-round copy to land: column half 0, distance 12
  sl_exec
  iapply (wait1 m c 0 12 (by decide) (((((((((((others.erase 1).erase 2).erase 3).erase 4).erase 5).erase 6).erase 7).erase 8).erase 9).erase 10).erase 11) (by decide) (by decide) K _ (owedRecv2 c) (owedRecv2_lv c) _ _ _ _ _ _ (by decide))
  isplitr; · iexact HI
  isplitr; · iexact Hlev
  isplitl [Hw0]; · iexact Hw0
  isplitl [HO]; · iexact HO
  iintro ⟨Hw0, HO⟩
  -- wait for the first-round copy to land: column half 0, distance 13
  sl_exec
  iapply (wait1 m c 0 13 (by decide) ((((((((((((others.erase 1).erase 2).erase 3).erase 4).erase 5).erase 6).erase 7).erase 8).erase 9).erase 10).erase 11).erase 12) (by decide) (by decide) K _ (owedRecv2 c) (owedRecv2_lv c) _ _ _ _ _ _ (by decide))
  isplitr; · iexact HI
  isplitr; · iexact Hlev
  isplitl [Hw0]; · iexact Hw0
  isplitl [HO]; · iexact HO
  iintro ⟨Hw0, HO⟩
  -- wait for the first-round copy to land: column half 0, distance 14
  sl_exec
  iapply (wait1 m c 0 14 (by decide) (((((((((((((others.erase 1).erase 2).erase 3).erase 4).erase 5).erase 6).erase 7).erase 8).erase 9).erase 10).erase 11).erase 12).erase 13) (by decide) (by decide) K _ (owedRecv2 c) (owedRecv2_lv c) _ _ _ _ _ _ (by decide))
  isplitr; · iexact HI
  isplitr; · iexact Hlev
  isplitl [Hw0]; · iexact Hw0
  isplitl [HO]; · iexact HO
  iintro ⟨Hw0, HO⟩
  -- wait for the first-round copy to land: column half 0, distance 15
  sl_exec
  iapply (wait1 m c 0 15 (by decide) ((((((((((((((others.erase 1).erase 2).erase 3).erase 4).erase 5).erase 6).erase 7).erase 8).erase 9).erase 10).erase 11).erase 12).erase 13).erase 14) (by decide) (by decide) K _ (owedRecv2 c) (owedRecv2_lv c) _ _ _ _ _ _ (by decide))
  isplitr; · iexact HI
  isplitr; · iexact Hlev
  isplitl [Hw0]; · iexact Hw0
  isplitl [HO]; · iexact HO
  iintro ⟨Hw0, HO⟩
  -- wait for the first-round copy to land: column half 0, distance 16
  sl_exec
  iapply (wait1 m c 0 16 (by decide) (((((((((((((((others.erase 1).erase 2).erase 3).erase 4).erase 5).erase 6).erase 7).erase 8).erase 9).erase 10).erase 11).erase 12).erase 13).erase 14).erase 15) (by decide) (by decide) K _ (owedRecv2 c) (owedRecv2_lv c) _ _ _ _ _ _ (by decide))
  isplitr; · iexact HI
  isplitr; · iexact Hlev
  isplitl [Hw0]; · iexact Hw0
  isplitl [HO]; · iexact HO
  iintro ⟨Hw0, HO⟩
  -- wait for the first-round copy to land: column half 0, distance 17
  sl_exec
  iapply (wait1 m c 0 17 (by decide) ((((((((((((((((others.erase 1).erase 2).erase 3).erase 4).erase 5).erase 6).erase 7).erase 8).erase 9).erase 10).erase 11).erase 12).erase 13).erase 14).erase 15).erase 16) (by decide) (by decide) K _ (owedRecv2 c) (owedRecv2_lv c) _ _ _ _ _ _ (by decide))
  isplitr; · iexact HI
  isplitr; · iexact Hlev
  isplitl [Hw0]; · iexact Hw0
  isplitl [HO]; · iexact HO
  iintro ⟨Hw0, HO⟩
  -- wait for the first-round copy to land: column half 0, distance 18
  sl_exec
  iapply (wait1 m c 0 18 (by decide) (((((((((((((((((others.erase 1).erase 2).erase 3).erase 4).erase 5).erase 6).erase 7).erase 8).erase 9).erase 10).erase 11).erase 12).erase 13).erase 14).erase 15).erase 16).erase 17) (by decide) (by decide) K _ (owedRecv2 c) (owedRecv2_lv c) _ _ _ _ _ _ (by decide))
  isplitr; · iexact HI
  isplitr; · iexact Hlev
  isplitl [Hw0]; · iexact Hw0
  isplitl [HO]; · iexact HO
  iintro ⟨Hw0, HO⟩
  -- wait for the first-round copy to land: column half 0, distance 19
  sl_exec
  iapply (wait1 m c 0 19 (by decide) ((((((((((((((((((others.erase 1).erase 2).erase 3).erase 4).erase 5).erase 6).erase 7).erase 8).erase 9).erase 10).erase 11).erase 12).erase 13).erase 14).erase 15).erase 16).erase 17).erase 18) (by decide) (by decide) K _ (owedRecv2 c) (owedRecv2_lv c) _ _ _ _ _ _ (by decide))
  isplitr; · iexact HI
  isplitr; · iexact Hlev
  isplitl [Hw0]; · iexact Hw0
  isplitl [HO]; · iexact HO
  iintro ⟨Hw0, HO⟩
  -- wait for the first-round copy to land: column half 0, distance 20
  sl_exec
  iapply (wait1 m c 0 20 (by decide) (((((((((((((((((((others.erase 1).erase 2).erase 3).erase 4).erase 5).erase 6).erase 7).erase 8).erase 9).erase 10).erase 11).erase 12).erase 13).erase 14).erase 15).erase 16).erase 17).erase 18).erase 19) (by decide) (by decide) K _ (owedRecv2 c) (owedRecv2_lv c) _ _ _ _ _ _ (by decide))
  isplitr; · iexact HI
  isplitr; · iexact Hlev
  isplitl [Hw0]; · iexact Hw0
  isplitl [HO]; · iexact HO
  iintro ⟨Hw0, HO⟩
  -- wait for the first-round copy to land: column half 0, distance 21
  sl_exec
  iapply (wait1 m c 0 21 (by decide) ((((((((((((((((((((others.erase 1).erase 2).erase 3).erase 4).erase 5).erase 6).erase 7).erase 8).erase 9).erase 10).erase 11).erase 12).erase 13).erase 14).erase 15).erase 16).erase 17).erase 18).erase 19).erase 20) (by decide) (by decide) K _ (owedRecv2 c) (owedRecv2_lv c) _ _ _ _ _ _ (by decide))
  isplitr; · iexact HI
  isplitr; · iexact Hlev
  isplitl [Hw0]; · iexact Hw0
  isplitl [HO]; · iexact HO
  iintro ⟨Hw0, HO⟩
  -- wait for the first-round copy to land: column half 0, distance 22
  sl_exec
  iapply (wait1 m c 0 22 (by decide) (((((((((((((((((((((others.erase 1).erase 2).erase 3).erase 4).erase 5).erase 6).erase 7).erase 8).erase 9).erase 10).erase 11).erase 12).erase 13).erase 14).erase 15).erase 16).erase 17).erase 18).erase 19).erase 20).erase 21) (by decide) (by decide) K _ (owedRecv2 c) (owedRecv2_lv c) _ _ _ _ _ _ (by decide))
  isplitr; · iexact HI
  isplitr; · iexact Hlev
  isplitl [Hw0]; · iexact Hw0
  isplitl [HO]; · iexact HO
  iintro ⟨Hw0, HO⟩
  -- wait for the first-round copy to land: column half 0, distance 23
  sl_exec
  iapply (wait1 m c 0 23 (by decide) ((((((((((((((((((((((others.erase 1).erase 2).erase 3).erase 4).erase 5).erase 6).erase 7).erase 8).erase 9).erase 10).erase 11).erase 12).erase 13).erase 14).erase 15).erase 16).erase 17).erase 18).erase 19).erase 20).erase 21).erase 22) (by decide) (by decide) K _ (owedRecv2 c) (owedRecv2_lv c) _ _ _ _ _ _ (by decide))
  isplitr; · iexact HI
  isplitr; · iexact Hlev
  isplitl [Hw0]; · iexact Hw0
  isplitl [HO]; · iexact HO
  iintro ⟨Hw0, HO⟩
  -- wait for the first-round copy to land: column half 0, distance 24
  sl_exec
  iapply (wait1 m c 0 24 (by decide) (((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23) (by decide) (by decide) K _ (owedRecv2 c) (owedRecv2_lv c) _ _ _ _ _ _ (by decide))
  isplitr; · iexact HI
  isplitr; · iexact Hlev
  isplitl [Hw0]; · iexact Hw0
  isplitl [HO]; · iexact HO
  iintro ⟨Hw0, HO⟩
  -- wait for the first-round copy to land: column half 0, distance 25
  sl_exec
  iapply (wait1 m c 0 25 (by decide) ((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24) (by decide) (by decide) K _ (owedRecv2 c) (owedRecv2_lv c) _ _ _ _ _ _ (by decide))
  isplitr; · iexact HI
  isplitr; · iexact Hlev
  isplitl [Hw0]; · iexact Hw0
  isplitl [HO]; · iexact HO
  iintro ⟨Hw0, HO⟩
  -- wait for the first-round copy to land: column half 0, distance 26
  sl_exec
  iapply (wait1 m c 0 26 (by decide) (((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25) (by decide) (by decide) K _ (owedRecv2 c) (owedRecv2_lv c) _ _ _ _ _ _ (by decide))
  isplitr; · iexact HI
  isplitr; · iexact Hlev
  isplitl [Hw0]; · iexact Hw0
  isplitl [HO]; · iexact HO
  iintro ⟨Hw0, HO⟩
  -- wait for the first-round copy to land: column half 0, distance 27
  sl_exec
  iapply (wait1 m c 0 27 (by decide) ((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26) (by decide) (by decide) K _ (owedRecv2 c) (owedRecv2_lv c) _ _ _ _ _ _ (by decide))
  isplitr; · iexact HI
  isplitr; · iexact Hlev
  isplitl [Hw0]; · iexact Hw0
  isplitl [HO]; · iexact HO
  iintro ⟨Hw0, HO⟩
  -- wait for the first-round copy to land: column half 0, distance 28
  sl_exec
  iapply (wait1 m c 0 28 (by decide) (((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27) (by decide) (by decide) K _ (owedRecv2 c) (owedRecv2_lv c) _ _ _ _ _ _ (by decide))
  isplitr; · iexact HI
  isplitr; · iexact Hlev
  isplitl [Hw0]; · iexact Hw0
  isplitl [HO]; · iexact HO
  iintro ⟨Hw0, HO⟩
  -- wait for the first-round copy to land: column half 0, distance 29
  sl_exec
  iapply (wait1 m c 0 29 (by decide) ((((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27).erase 28) (by decide) (by decide) K _ (owedRecv2 c) (owedRecv2_lv c) _ _ _ _ _ _ (by decide))
  isplitr; · iexact HI
  isplitr; · iexact Hlev
  isplitl [Hw0]; · iexact Hw0
  isplitl [HO]; · iexact HO
  iintro ⟨Hw0, HO⟩
  -- wait for the first-round copy to land: column half 0, distance 30
  sl_exec
  iapply (wait1 m c 0 30 (by decide) (((((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27).erase 28).erase 29) (by decide) (by decide) K _ (owedRecv2 c) (owedRecv2_lv c) _ _ _ _ _ _ (by decide))
  isplitr; · iexact HI
  isplitr; · iexact Hlev
  isplitl [Hw0]; · iexact Hw0
  isplitl [HO]; · iexact HO
  iintro ⟨Hw0, HO⟩
  -- wait for the first-round copy to land: column half 0, distance 31
  sl_exec
  iapply (wait1 m c 0 31 (by decide) ((((((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27).erase 28).erase 29).erase 30) (by decide) (by decide) K _ (owedRecv2 c) (owedRecv2_lv c) _ _ _ _ _ _ (by decide))
  isplitr; · iexact HI
  isplitr; · iexact Hlev
  isplitl [Hw0]; · iexact Hw0
  isplitl [HO]; · iexact HO
  iintro ⟨Hw0, HO⟩
  -- column half 0 of the gathering buffer: the own slot and the 31 landed ones, joined; summed into the own result slot
  have hS0 : (((((((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27).erase 28).erase 29).erase 30).erase 31) = (∅ : Finset (Fin 32)) := by decide
  ihave Hd0 := (st2_done m c 0 _ hS0) $$ Hw0
  icases Hd0 with ⟨Hrest0, Hg0⟩
  icases HG0 with ⟨HG00, HG01⟩
  ihave Hcols0 := (gathJoin m c g1 hg1 0) $$ [HG00 Hg0]
  · isplitl [HG00] <;> iassumption
  icases HR0 with ⟨HR00, HR01⟩
  iapply (half_sum0 m c (gathC m c) s2 (fun _ _ => rfl) _ _ _ _ _ _)
  isplitl [Hcols0]; · iexact Hcols0
  isplitl [HR00]; · iexact HR00
  iintro Hcols0 ⟨%R0, %hR0, HR00⟩
  simp -zeta only [ret_bind']
  -- the own result slot's column half 0 holds the sum: its 31 readers' shares lent; the second round of column half 0
  ihave HR00 := (Entails.of_eq (resPts_congr' (F := F) c c 0 fullShare hR0)) $$ HR00
  ihave HL0 := (Entails.of_eq (resPts_lend (F := F) c c 0 (resC m))) $$ HR00
  icases HL0 with ⟨Hlent0, Hrem0⟩
  ihave Hdn0 := (st1_done m c 0 _ hS0) $$ Hst0
  ihave Hs3 := (st3_init m c 0) $$ [Hdn0 Hrest0 Hlent0]
  · isplitl [Hdn0]; · iexact Hdn0
    isplitl [Hrest0] <;> iassumption
  ihave HO := (owes_congr (F := F) c (owedRem2_all c) _) $$ HO
  -- send wait, then second-round copy: column half 0, distance 1
  sl_exec
  iapply (wsend0 m c 0 1 (by decide) others (by decide) (by decide) K _ (owedRem2 c pairs) (owedRem2_lv c pairs) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 0 1 (by decide) others (by decide) (by decide) pairs (by decide) K _ _ _ _ (by rw [k0_off5_eq]; rfl) _ _ _ _ _ (k0_dev95_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 0, distance 2
  sl_exec
  iapply (wsend0 m c 0 2 (by decide) (others.erase 1) (by decide) (by decide) K _ (owedRem2 c (pairs.erase (0, 1))) (owedRem2_lv c (pairs.erase (0, 1))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 0 2 (by decide) (others.erase 1) (by decide) (by decide) (pairs.erase (0, 1)) (by decide) K _ _ _ _ (by rw [k0_off5_eq]; rfl) _ _ _ _ _ (k0_dev96_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 0, distance 3
  sl_exec
  iapply (wsend0 m c 0 3 (by decide) ((others.erase 1).erase 2) (by decide) (by decide) K _ (owedRem2 c ((pairs.erase (0, 1)).erase (0, 2))) (owedRem2_lv c ((pairs.erase (0, 1)).erase (0, 2))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 0 3 (by decide) ((others.erase 1).erase 2) (by decide) (by decide) ((pairs.erase (0, 1)).erase (0, 2)) (by decide) K _ _ _ _ (by rw [k0_off5_eq]; rfl) _ _ _ _ _ (k0_dev97_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 0, distance 4
  sl_exec
  iapply (wsend0 m c 0 4 (by decide) (((others.erase 1).erase 2).erase 3) (by decide) (by decide) K _ (owedRem2 c (((pairs.erase (0, 1)).erase (0, 2)).erase (0, 3))) (owedRem2_lv c (((pairs.erase (0, 1)).erase (0, 2)).erase (0, 3))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 0 4 (by decide) (((others.erase 1).erase 2).erase 3) (by decide) (by decide) (((pairs.erase (0, 1)).erase (0, 2)).erase (0, 3)) (by decide) K _ _ _ _ (by rw [k0_off5_eq]; rfl) _ _ _ _ _ (k0_dev98_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 0, distance 5
  sl_exec
  iapply (wsend0 m c 0 5 (by decide) ((((others.erase 1).erase 2).erase 3).erase 4) (by decide) (by decide) K _ (owedRem2 c ((((pairs.erase (0, 1)).erase (0, 2)).erase (0, 3)).erase (0, 4))) (owedRem2_lv c ((((pairs.erase (0, 1)).erase (0, 2)).erase (0, 3)).erase (0, 4))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 0 5 (by decide) ((((others.erase 1).erase 2).erase 3).erase 4) (by decide) (by decide) ((((pairs.erase (0, 1)).erase (0, 2)).erase (0, 3)).erase (0, 4)) (by decide) K _ _ _ _ (by rw [k0_off5_eq]; rfl) _ _ _ _ _ (k0_dev99_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 0, distance 6
  sl_exec
  iapply (wsend0 m c 0 6 (by decide) (((((others.erase 1).erase 2).erase 3).erase 4).erase 5) (by decide) (by decide) K _ (owedRem2 c (((((pairs.erase (0, 1)).erase (0, 2)).erase (0, 3)).erase (0, 4)).erase (0, 5))) (owedRem2_lv c (((((pairs.erase (0, 1)).erase (0, 2)).erase (0, 3)).erase (0, 4)).erase (0, 5))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 0 6 (by decide) (((((others.erase 1).erase 2).erase 3).erase 4).erase 5) (by decide) (by decide) (((((pairs.erase (0, 1)).erase (0, 2)).erase (0, 3)).erase (0, 4)).erase (0, 5)) (by decide) K _ _ _ _ (by rw [k0_off5_eq]; rfl) _ _ _ _ _ (k0_dev100_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 0, distance 7
  sl_exec
  iapply (wsend0 m c 0 7 (by decide) ((((((others.erase 1).erase 2).erase 3).erase 4).erase 5).erase 6) (by decide) (by decide) K _ (owedRem2 c ((((((pairs.erase (0, 1)).erase (0, 2)).erase (0, 3)).erase (0, 4)).erase (0, 5)).erase (0, 6))) (owedRem2_lv c ((((((pairs.erase (0, 1)).erase (0, 2)).erase (0, 3)).erase (0, 4)).erase (0, 5)).erase (0, 6))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 0 7 (by decide) ((((((others.erase 1).erase 2).erase 3).erase 4).erase 5).erase 6) (by decide) (by decide) ((((((pairs.erase (0, 1)).erase (0, 2)).erase (0, 3)).erase (0, 4)).erase (0, 5)).erase (0, 6)) (by decide) K _ _ _ _ (by rw [k0_off5_eq]; rfl) _ _ _ _ _ (k0_dev101_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 0, distance 8
  sl_exec
  iapply (wsend0 m c 0 8 (by decide) (((((((others.erase 1).erase 2).erase 3).erase 4).erase 5).erase 6).erase 7) (by decide) (by decide) K _ (owedRem2 c (((((((pairs.erase (0, 1)).erase (0, 2)).erase (0, 3)).erase (0, 4)).erase (0, 5)).erase (0, 6)).erase (0, 7))) (owedRem2_lv c (((((((pairs.erase (0, 1)).erase (0, 2)).erase (0, 3)).erase (0, 4)).erase (0, 5)).erase (0, 6)).erase (0, 7))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 0 8 (by decide) (((((((others.erase 1).erase 2).erase 3).erase 4).erase 5).erase 6).erase 7) (by decide) (by decide) (((((((pairs.erase (0, 1)).erase (0, 2)).erase (0, 3)).erase (0, 4)).erase (0, 5)).erase (0, 6)).erase (0, 7)) (by decide) K _ _ _ _ (by rw [k0_off5_eq]; rfl) _ _ _ _ _ (k0_dev102_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 0, distance 9
  sl_exec
  iapply (wsend0 m c 0 9 (by decide) ((((((((others.erase 1).erase 2).erase 3).erase 4).erase 5).erase 6).erase 7).erase 8) (by decide) (by decide) K _ (owedRem2 c ((((((((pairs.erase (0, 1)).erase (0, 2)).erase (0, 3)).erase (0, 4)).erase (0, 5)).erase (0, 6)).erase (0, 7)).erase (0, 8))) (owedRem2_lv c ((((((((pairs.erase (0, 1)).erase (0, 2)).erase (0, 3)).erase (0, 4)).erase (0, 5)).erase (0, 6)).erase (0, 7)).erase (0, 8))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 0 9 (by decide) ((((((((others.erase 1).erase 2).erase 3).erase 4).erase 5).erase 6).erase 7).erase 8) (by decide) (by decide) ((((((((pairs.erase (0, 1)).erase (0, 2)).erase (0, 3)).erase (0, 4)).erase (0, 5)).erase (0, 6)).erase (0, 7)).erase (0, 8)) (by decide) K _ _ _ _ (by rw [k0_off5_eq]; rfl) _ _ _ _ _ (k0_dev103_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 0, distance 10
  sl_exec
  iapply (wsend0 m c 0 10 (by decide) (((((((((others.erase 1).erase 2).erase 3).erase 4).erase 5).erase 6).erase 7).erase 8).erase 9) (by decide) (by decide) K _ (owedRem2 c (((((((((pairs.erase (0, 1)).erase (0, 2)).erase (0, 3)).erase (0, 4)).erase (0, 5)).erase (0, 6)).erase (0, 7)).erase (0, 8)).erase (0, 9))) (owedRem2_lv c (((((((((pairs.erase (0, 1)).erase (0, 2)).erase (0, 3)).erase (0, 4)).erase (0, 5)).erase (0, 6)).erase (0, 7)).erase (0, 8)).erase (0, 9))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 0 10 (by decide) (((((((((others.erase 1).erase 2).erase 3).erase 4).erase 5).erase 6).erase 7).erase 8).erase 9) (by decide) (by decide) (((((((((pairs.erase (0, 1)).erase (0, 2)).erase (0, 3)).erase (0, 4)).erase (0, 5)).erase (0, 6)).erase (0, 7)).erase (0, 8)).erase (0, 9)) (by decide) K _ _ _ _ (by rw [k0_off5_eq]; rfl) _ _ _ _ _ (k0_dev104_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 0, distance 11
  sl_exec
  iapply (wsend0 m c 0 11 (by decide) ((((((((((others.erase 1).erase 2).erase 3).erase 4).erase 5).erase 6).erase 7).erase 8).erase 9).erase 10) (by decide) (by decide) K _ (owedRem2 c ((((((((((pairs.erase (0, 1)).erase (0, 2)).erase (0, 3)).erase (0, 4)).erase (0, 5)).erase (0, 6)).erase (0, 7)).erase (0, 8)).erase (0, 9)).erase (0, 10))) (owedRem2_lv c ((((((((((pairs.erase (0, 1)).erase (0, 2)).erase (0, 3)).erase (0, 4)).erase (0, 5)).erase (0, 6)).erase (0, 7)).erase (0, 8)).erase (0, 9)).erase (0, 10))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 0 11 (by decide) ((((((((((others.erase 1).erase 2).erase 3).erase 4).erase 5).erase 6).erase 7).erase 8).erase 9).erase 10) (by decide) (by decide) ((((((((((pairs.erase (0, 1)).erase (0, 2)).erase (0, 3)).erase (0, 4)).erase (0, 5)).erase (0, 6)).erase (0, 7)).erase (0, 8)).erase (0, 9)).erase (0, 10)) (by decide) K _ _ _ _ (by rw [k0_off5_eq]; rfl) _ _ _ _ _ (k0_dev105_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 0, distance 12
  sl_exec
  iapply (wsend0 m c 0 12 (by decide) (((((((((((others.erase 1).erase 2).erase 3).erase 4).erase 5).erase 6).erase 7).erase 8).erase 9).erase 10).erase 11) (by decide) (by decide) K _ (owedRem2 c (((((((((((pairs.erase (0, 1)).erase (0, 2)).erase (0, 3)).erase (0, 4)).erase (0, 5)).erase (0, 6)).erase (0, 7)).erase (0, 8)).erase (0, 9)).erase (0, 10)).erase (0, 11))) (owedRem2_lv c (((((((((((pairs.erase (0, 1)).erase (0, 2)).erase (0, 3)).erase (0, 4)).erase (0, 5)).erase (0, 6)).erase (0, 7)).erase (0, 8)).erase (0, 9)).erase (0, 10)).erase (0, 11))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 0 12 (by decide) (((((((((((others.erase 1).erase 2).erase 3).erase 4).erase 5).erase 6).erase 7).erase 8).erase 9).erase 10).erase 11) (by decide) (by decide) (((((((((((pairs.erase (0, 1)).erase (0, 2)).erase (0, 3)).erase (0, 4)).erase (0, 5)).erase (0, 6)).erase (0, 7)).erase (0, 8)).erase (0, 9)).erase (0, 10)).erase (0, 11)) (by decide) K _ _ _ _ (by rw [k0_off5_eq]; rfl) _ _ _ _ _ (k0_dev106_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 0, distance 13
  sl_exec
  iapply (wsend0 m c 0 13 (by decide) ((((((((((((others.erase 1).erase 2).erase 3).erase 4).erase 5).erase 6).erase 7).erase 8).erase 9).erase 10).erase 11).erase 12) (by decide) (by decide) K _ (owedRem2 c ((((((((((((pairs.erase (0, 1)).erase (0, 2)).erase (0, 3)).erase (0, 4)).erase (0, 5)).erase (0, 6)).erase (0, 7)).erase (0, 8)).erase (0, 9)).erase (0, 10)).erase (0, 11)).erase (0, 12))) (owedRem2_lv c ((((((((((((pairs.erase (0, 1)).erase (0, 2)).erase (0, 3)).erase (0, 4)).erase (0, 5)).erase (0, 6)).erase (0, 7)).erase (0, 8)).erase (0, 9)).erase (0, 10)).erase (0, 11)).erase (0, 12))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 0 13 (by decide) ((((((((((((others.erase 1).erase 2).erase 3).erase 4).erase 5).erase 6).erase 7).erase 8).erase 9).erase 10).erase 11).erase 12) (by decide) (by decide) ((((((((((((pairs.erase (0, 1)).erase (0, 2)).erase (0, 3)).erase (0, 4)).erase (0, 5)).erase (0, 6)).erase (0, 7)).erase (0, 8)).erase (0, 9)).erase (0, 10)).erase (0, 11)).erase (0, 12)) (by decide) K _ _ _ _ (by rw [k0_off5_eq]; rfl) _ _ _ _ _ (k0_dev107_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 0, distance 14
  sl_exec
  iapply (wsend0 m c 0 14 (by decide) (((((((((((((others.erase 1).erase 2).erase 3).erase 4).erase 5).erase 6).erase 7).erase 8).erase 9).erase 10).erase 11).erase 12).erase 13) (by decide) (by decide) K _ (owedRem2 c (((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13))) (owedRem2_lv c (((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 0 14 (by decide) (((((((((((((others.erase 1).erase 2).erase 3).erase 4).erase 5).erase 6).erase 7).erase 8).erase 9).erase 10).erase 11).erase 12).erase 13) (by decide) (by decide) (((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)) (by decide) K _ _ _ _ (by rw [k0_off5_eq]; rfl) _ _ _ _ _ (k0_dev108_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 0, distance 15
  sl_exec
  iapply (wsend0 m c 0 15 (by decide) ((((((((((((((others.erase 1).erase 2).erase 3).erase 4).erase 5).erase 6).erase 7).erase 8).erase 9).erase 10).erase 11).erase 12).erase 13).erase 14) (by decide) (by decide) K _ (owedRem2 c ((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14))) (owedRem2_lv c ((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 0 15 (by decide) ((((((((((((((others.erase 1).erase 2).erase 3).erase 4).erase 5).erase 6).erase 7).erase 8).erase 9).erase 10).erase 11).erase 12).erase 13).erase 14) (by decide) (by decide) ((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)) (by decide) K _ _ _ _ (by rw [k0_off5_eq]; rfl) _ _ _ _ _ (k0_dev109_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 0, distance 16
  sl_exec
  iapply (wsend0 m c 0 16 (by decide) (((((((((((((((others.erase 1).erase 2).erase 3).erase 4).erase 5).erase 6).erase 7).erase 8).erase 9).erase 10).erase 11).erase 12).erase 13).erase 14).erase 15) (by decide) (by decide) K _ (owedRem2 c (((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15))) (owedRem2_lv c (((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 0 16 (by decide) (((((((((((((((others.erase 1).erase 2).erase 3).erase 4).erase 5).erase 6).erase 7).erase 8).erase 9).erase 10).erase 11).erase 12).erase 13).erase 14).erase 15) (by decide) (by decide) (((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)) (by decide) K _ _ _ _ (by rw [k0_off5_eq]; rfl) _ _ _ _ _ (k0_dev110_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 0, distance 17
  sl_exec
  iapply (wsend0 m c 0 17 (by decide) ((((((((((((((((others.erase 1).erase 2).erase 3).erase 4).erase 5).erase 6).erase 7).erase 8).erase 9).erase 10).erase 11).erase 12).erase 13).erase 14).erase 15).erase 16) (by decide) (by decide) K _ (owedRem2 c ((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16))) (owedRem2_lv c ((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 0 17 (by decide) ((((((((((((((((others.erase 1).erase 2).erase 3).erase 4).erase 5).erase 6).erase 7).erase 8).erase 9).erase 10).erase 11).erase 12).erase 13).erase 14).erase 15).erase 16) (by decide) (by decide) ((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)) (by decide) K _ _ _ _ (by rw [k0_off5_eq]; rfl) _ _ _ _ _ (k0_dev111_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 0, distance 18
  sl_exec
  iapply (wsend0 m c 0 18 (by decide) (((((((((((((((((others.erase 1).erase 2).erase 3).erase 4).erase 5).erase 6).erase 7).erase 8).erase 9).erase 10).erase 11).erase 12).erase 13).erase 14).erase 15).erase 16).erase 17) (by decide) (by decide) K _ (owedRem2 c (((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17))) (owedRem2_lv c (((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 0 18 (by decide) (((((((((((((((((others.erase 1).erase 2).erase 3).erase 4).erase 5).erase 6).erase 7).erase 8).erase 9).erase 10).erase 11).erase 12).erase 13).erase 14).erase 15).erase 16).erase 17) (by decide) (by decide) (((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)) (by decide) K _ _ _ _ (by rw [k0_off5_eq]; rfl) _ _ _ _ _ (k0_dev112_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 0, distance 19
  sl_exec
  iapply (wsend0 m c 0 19 (by decide) ((((((((((((((((((others.erase 1).erase 2).erase 3).erase 4).erase 5).erase 6).erase 7).erase 8).erase 9).erase 10).erase 11).erase 12).erase 13).erase 14).erase 15).erase 16).erase 17).erase 18) (by decide) (by decide) K _ (owedRem2 c ((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18))) (owedRem2_lv c ((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 0 19 (by decide) ((((((((((((((((((others.erase 1).erase 2).erase 3).erase 4).erase 5).erase 6).erase 7).erase 8).erase 9).erase 10).erase 11).erase 12).erase 13).erase 14).erase 15).erase 16).erase 17).erase 18) (by decide) (by decide) ((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)) (by decide) K _ _ _ _ (by rw [k0_off5_eq]; rfl) _ _ _ _ _ (k0_dev113_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 0, distance 20
  sl_exec
  iapply (wsend0 m c 0 20 (by decide) (((((((((((((((((((others.erase 1).erase 2).erase 3).erase 4).erase 5).erase 6).erase 7).erase 8).erase 9).erase 10).erase 11).erase 12).erase 13).erase 14).erase 15).erase 16).erase 17).erase 18).erase 19) (by decide) (by decide) K _ (owedRem2 c (((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19))) (owedRem2_lv c (((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 0 20 (by decide) (((((((((((((((((((others.erase 1).erase 2).erase 3).erase 4).erase 5).erase 6).erase 7).erase 8).erase 9).erase 10).erase 11).erase 12).erase 13).erase 14).erase 15).erase 16).erase 17).erase 18).erase 19) (by decide) (by decide) (((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)) (by decide) K _ _ _ _ (by rw [k0_off5_eq]; rfl) _ _ _ _ _ (k0_dev114_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 0, distance 21
  sl_exec
  iapply (wsend0 m c 0 21 (by decide) ((((((((((((((((((((others.erase 1).erase 2).erase 3).erase 4).erase 5).erase 6).erase 7).erase 8).erase 9).erase 10).erase 11).erase 12).erase 13).erase 14).erase 15).erase 16).erase 17).erase 18).erase 19).erase 20) (by decide) (by decide) K _ (owedRem2 c ((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20))) (owedRem2_lv c ((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 0 21 (by decide) ((((((((((((((((((((others.erase 1).erase 2).erase 3).erase 4).erase 5).erase 6).erase 7).erase 8).erase 9).erase 10).erase 11).erase 12).erase 13).erase 14).erase 15).erase 16).erase 17).erase 18).erase 19).erase 20) (by decide) (by decide) ((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)) (by decide) K _ _ _ _ (by rw [k0_off5_eq]; rfl) _ _ _ _ _ (k0_dev115_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 0, distance 22
  sl_exec
  iapply (wsend0 m c 0 22 (by decide) (((((((((((((((((((((others.erase 1).erase 2).erase 3).erase 4).erase 5).erase 6).erase 7).erase 8).erase 9).erase 10).erase 11).erase 12).erase 13).erase 14).erase 15).erase 16).erase 17).erase 18).erase 19).erase 20).erase 21) (by decide) (by decide) K _ (owedRem2 c (((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21))) (owedRem2_lv c (((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 0 22 (by decide) (((((((((((((((((((((others.erase 1).erase 2).erase 3).erase 4).erase 5).erase 6).erase 7).erase 8).erase 9).erase 10).erase 11).erase 12).erase 13).erase 14).erase 15).erase 16).erase 17).erase 18).erase 19).erase 20).erase 21) (by decide) (by decide) (((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)) (by decide) K _ _ _ _ (by rw [k0_off5_eq]; rfl) _ _ _ _ _ (k0_dev116_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 0, distance 23
  sl_exec
  iapply (wsend0 m c 0 23 (by decide) ((((((((((((((((((((((others.erase 1).erase 2).erase 3).erase 4).erase 5).erase 6).erase 7).erase 8).erase 9).erase 10).erase 11).erase 12).erase 13).erase 14).erase 15).erase 16).erase 17).erase 18).erase 19).erase 20).erase 21).erase 22) (by decide) (by decide) K _ (owedRem2 c ((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22))) (owedRem2_lv c ((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 0 23 (by decide) ((((((((((((((((((((((others.erase 1).erase 2).erase 3).erase 4).erase 5).erase 6).erase 7).erase 8).erase 9).erase 10).erase 11).erase 12).erase 13).erase 14).erase 15).erase 16).erase 17).erase 18).erase 19).erase 20).erase 21).erase 22) (by decide) (by decide) ((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)) (by decide) K _ _ _ _ (by rw [k0_off5_eq]; rfl) _ _ _ _ _ (k0_dev117_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 0, distance 24
  sl_exec
  iapply (wsend0 m c 0 24 (by decide) (((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23) (by decide) (by decide) K _ (owedRem2 c (((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23))) (owedRem2_lv c (((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 0 24 (by decide) (((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23) (by decide) (by decide) (((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)) (by decide) K _ _ _ _ (by rw [k0_off5_eq]; rfl) _ _ _ _ _ (k0_dev118_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 0, distance 25
  sl_exec
  iapply (wsend0 m c 0 25 (by decide) ((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24) (by decide) (by decide) K _ (owedRem2 c ((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24))) (owedRem2_lv c ((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 0 25 (by decide) ((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24) (by decide) (by decide) ((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)) (by decide) K _ _ _ _ (by rw [k0_off5_eq]; rfl) _ _ _ _ _ (k0_dev119_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 0, distance 26
  sl_exec
  iapply (wsend0 m c 0 26 (by decide) (((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25) (by decide) (by decide) K _ (owedRem2 c (((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25))) (owedRem2_lv c (((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 0 26 (by decide) (((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25) (by decide) (by decide) (((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)) (by decide) K _ _ _ _ (by rw [k0_off5_eq]; rfl) _ _ _ _ _ (k0_dev120_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 0, distance 27
  sl_exec
  iapply (wsend0 m c 0 27 (by decide) ((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26) (by decide) (by decide) K _ (owedRem2 c ((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26))) (owedRem2_lv c ((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 0 27 (by decide) ((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26) (by decide) (by decide) ((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)) (by decide) K _ _ _ _ (by rw [k0_off5_eq]; rfl) _ _ _ _ _ (k0_dev121_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 0, distance 28
  sl_exec
  iapply (wsend0 m c 0 28 (by decide) (((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27) (by decide) (by decide) K _ (owedRem2 c (((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27))) (owedRem2_lv c (((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 0 28 (by decide) (((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27) (by decide) (by decide) (((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)) (by decide) K _ _ _ _ (by rw [k0_off5_eq]; rfl) _ _ _ _ _ (k0_dev122_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 0, distance 29
  sl_exec
  iapply (wsend0 m c 0 29 (by decide) ((((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27).erase 28) (by decide) (by decide) K _ (owedRem2 c ((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28))) (owedRem2_lv c ((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 0 29 (by decide) ((((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27).erase 28) (by decide) (by decide) ((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)) (by decide) K _ _ _ _ (by rw [k0_off5_eq]; rfl) _ _ _ _ _ (k0_dev123_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 0, distance 30
  sl_exec
  iapply (wsend0 m c 0 30 (by decide) (((((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27).erase 28).erase 29) (by decide) (by decide) K _ (owedRem2 c (((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29))) (owedRem2_lv c (((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 0 30 (by decide) (((((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27).erase 28).erase 29) (by decide) (by decide) (((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)) (by decide) K _ _ _ _ (by rw [k0_off5_eq]; rfl) _ _ _ _ _ (k0_dev124_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 0, distance 31
  sl_exec
  iapply (wsend0 m c 0 31 (by decide) ((((((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27).erase 28).erase 29).erase 30) (by decide) (by decide) K _ (owedRem2 c ((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30))) (owedRem2_lv c ((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 0 31 (by decide) ((((((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27).erase 28).erase 29).erase 30) (by decide) (by decide) ((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)) (by decide) K _ _ _ _ (by rw [k0_off5_eq]; rfl) _ _ _ _ _ (k0_dev125_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  ihave HC0 := (st3_done m c 0 _ hS0) $$ Hs3
  ihave Hw1 := (st2_init m c 1) $$ [Hat1 HcR1]
  · isplitl [Hat1] <;> iassumption
  -- wait for the first-round copy to land: column half 1, distance 1
  sl_exec
  iapply (wait1 m c 1 1 (by decide) others (by decide) (by decide) K _ (owedRem2 c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) (owedRem2_lv c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) _ _ _ _ _ _ (by decide))
  isplitr; · iexact HI
  isplitr; · iexact Hlev
  isplitl [Hw1]; · iexact Hw1
  isplitl [HO]; · iexact HO
  iintro ⟨Hw1, HO⟩
  -- wait for the first-round copy to land: column half 1, distance 2
  sl_exec
  iapply (wait1 m c 1 2 (by decide) (others.erase 1) (by decide) (by decide) K _ (owedRem2 c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) (owedRem2_lv c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) _ _ _ _ _ _ (by decide))
  isplitr; · iexact HI
  isplitr; · iexact Hlev
  isplitl [Hw1]; · iexact Hw1
  isplitl [HO]; · iexact HO
  iintro ⟨Hw1, HO⟩
  -- wait for the first-round copy to land: column half 1, distance 3
  sl_exec
  iapply (wait1 m c 1 3 (by decide) ((others.erase 1).erase 2) (by decide) (by decide) K _ (owedRem2 c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) (owedRem2_lv c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) _ _ _ _ _ _ (by decide))
  isplitr; · iexact HI
  isplitr; · iexact Hlev
  isplitl [Hw1]; · iexact Hw1
  isplitl [HO]; · iexact HO
  iintro ⟨Hw1, HO⟩
  -- wait for the first-round copy to land: column half 1, distance 4
  sl_exec
  iapply (wait1 m c 1 4 (by decide) (((others.erase 1).erase 2).erase 3) (by decide) (by decide) K _ (owedRem2 c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) (owedRem2_lv c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) _ _ _ _ _ _ (by decide))
  isplitr; · iexact HI
  isplitr; · iexact Hlev
  isplitl [Hw1]; · iexact Hw1
  isplitl [HO]; · iexact HO
  iintro ⟨Hw1, HO⟩
  -- wait for the first-round copy to land: column half 1, distance 5
  sl_exec
  iapply (wait1 m c 1 5 (by decide) ((((others.erase 1).erase 2).erase 3).erase 4) (by decide) (by decide) K _ (owedRem2 c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) (owedRem2_lv c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) _ _ _ _ _ _ (by decide))
  isplitr; · iexact HI
  isplitr; · iexact Hlev
  isplitl [Hw1]; · iexact Hw1
  isplitl [HO]; · iexact HO
  iintro ⟨Hw1, HO⟩
  -- wait for the first-round copy to land: column half 1, distance 6
  sl_exec
  iapply (wait1 m c 1 6 (by decide) (((((others.erase 1).erase 2).erase 3).erase 4).erase 5) (by decide) (by decide) K _ (owedRem2 c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) (owedRem2_lv c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) _ _ _ _ _ _ (by decide))
  isplitr; · iexact HI
  isplitr; · iexact Hlev
  isplitl [Hw1]; · iexact Hw1
  isplitl [HO]; · iexact HO
  iintro ⟨Hw1, HO⟩
  -- wait for the first-round copy to land: column half 1, distance 7
  sl_exec
  iapply (wait1 m c 1 7 (by decide) ((((((others.erase 1).erase 2).erase 3).erase 4).erase 5).erase 6) (by decide) (by decide) K _ (owedRem2 c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) (owedRem2_lv c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) _ _ _ _ _ _ (by decide))
  isplitr; · iexact HI
  isplitr; · iexact Hlev
  isplitl [Hw1]; · iexact Hw1
  isplitl [HO]; · iexact HO
  iintro ⟨Hw1, HO⟩
  -- wait for the first-round copy to land: column half 1, distance 8
  sl_exec
  iapply (wait1 m c 1 8 (by decide) (((((((others.erase 1).erase 2).erase 3).erase 4).erase 5).erase 6).erase 7) (by decide) (by decide) K _ (owedRem2 c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) (owedRem2_lv c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) _ _ _ _ _ _ (by decide))
  isplitr; · iexact HI
  isplitr; · iexact Hlev
  isplitl [Hw1]; · iexact Hw1
  isplitl [HO]; · iexact HO
  iintro ⟨Hw1, HO⟩
  -- wait for the first-round copy to land: column half 1, distance 9
  sl_exec
  iapply (wait1 m c 1 9 (by decide) ((((((((others.erase 1).erase 2).erase 3).erase 4).erase 5).erase 6).erase 7).erase 8) (by decide) (by decide) K _ (owedRem2 c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) (owedRem2_lv c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) _ _ _ _ _ _ (by decide))
  isplitr; · iexact HI
  isplitr; · iexact Hlev
  isplitl [Hw1]; · iexact Hw1
  isplitl [HO]; · iexact HO
  iintro ⟨Hw1, HO⟩
  -- wait for the first-round copy to land: column half 1, distance 10
  sl_exec
  iapply (wait1 m c 1 10 (by decide) (((((((((others.erase 1).erase 2).erase 3).erase 4).erase 5).erase 6).erase 7).erase 8).erase 9) (by decide) (by decide) K _ (owedRem2 c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) (owedRem2_lv c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) _ _ _ _ _ _ (by decide))
  isplitr; · iexact HI
  isplitr; · iexact Hlev
  isplitl [Hw1]; · iexact Hw1
  isplitl [HO]; · iexact HO
  iintro ⟨Hw1, HO⟩
  -- wait for the first-round copy to land: column half 1, distance 11
  sl_exec
  iapply (wait1 m c 1 11 (by decide) ((((((((((others.erase 1).erase 2).erase 3).erase 4).erase 5).erase 6).erase 7).erase 8).erase 9).erase 10) (by decide) (by decide) K _ (owedRem2 c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) (owedRem2_lv c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) _ _ _ _ _ _ (by decide))
  isplitr; · iexact HI
  isplitr; · iexact Hlev
  isplitl [Hw1]; · iexact Hw1
  isplitl [HO]; · iexact HO
  iintro ⟨Hw1, HO⟩
  -- wait for the first-round copy to land: column half 1, distance 12
  sl_exec
  iapply (wait1 m c 1 12 (by decide) (((((((((((others.erase 1).erase 2).erase 3).erase 4).erase 5).erase 6).erase 7).erase 8).erase 9).erase 10).erase 11) (by decide) (by decide) K _ (owedRem2 c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) (owedRem2_lv c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) _ _ _ _ _ _ (by decide))
  isplitr; · iexact HI
  isplitr; · iexact Hlev
  isplitl [Hw1]; · iexact Hw1
  isplitl [HO]; · iexact HO
  iintro ⟨Hw1, HO⟩
  -- wait for the first-round copy to land: column half 1, distance 13
  sl_exec
  iapply (wait1 m c 1 13 (by decide) ((((((((((((others.erase 1).erase 2).erase 3).erase 4).erase 5).erase 6).erase 7).erase 8).erase 9).erase 10).erase 11).erase 12) (by decide) (by decide) K _ (owedRem2 c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) (owedRem2_lv c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) _ _ _ _ _ _ (by decide))
  isplitr; · iexact HI
  isplitr; · iexact Hlev
  isplitl [Hw1]; · iexact Hw1
  isplitl [HO]; · iexact HO
  iintro ⟨Hw1, HO⟩
  -- wait for the first-round copy to land: column half 1, distance 14
  sl_exec
  iapply (wait1 m c 1 14 (by decide) (((((((((((((others.erase 1).erase 2).erase 3).erase 4).erase 5).erase 6).erase 7).erase 8).erase 9).erase 10).erase 11).erase 12).erase 13) (by decide) (by decide) K _ (owedRem2 c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) (owedRem2_lv c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) _ _ _ _ _ _ (by decide))
  isplitr; · iexact HI
  isplitr; · iexact Hlev
  isplitl [Hw1]; · iexact Hw1
  isplitl [HO]; · iexact HO
  iintro ⟨Hw1, HO⟩
  -- wait for the first-round copy to land: column half 1, distance 15
  sl_exec
  iapply (wait1 m c 1 15 (by decide) ((((((((((((((others.erase 1).erase 2).erase 3).erase 4).erase 5).erase 6).erase 7).erase 8).erase 9).erase 10).erase 11).erase 12).erase 13).erase 14) (by decide) (by decide) K _ (owedRem2 c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) (owedRem2_lv c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) _ _ _ _ _ _ (by decide))
  isplitr; · iexact HI
  isplitr; · iexact Hlev
  isplitl [Hw1]; · iexact Hw1
  isplitl [HO]; · iexact HO
  iintro ⟨Hw1, HO⟩
  -- wait for the first-round copy to land: column half 1, distance 16
  sl_exec
  iapply (wait1 m c 1 16 (by decide) (((((((((((((((others.erase 1).erase 2).erase 3).erase 4).erase 5).erase 6).erase 7).erase 8).erase 9).erase 10).erase 11).erase 12).erase 13).erase 14).erase 15) (by decide) (by decide) K _ (owedRem2 c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) (owedRem2_lv c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) _ _ _ _ _ _ (by decide))
  isplitr; · iexact HI
  isplitr; · iexact Hlev
  isplitl [Hw1]; · iexact Hw1
  isplitl [HO]; · iexact HO
  iintro ⟨Hw1, HO⟩
  -- wait for the first-round copy to land: column half 1, distance 17
  sl_exec
  iapply (wait1 m c 1 17 (by decide) ((((((((((((((((others.erase 1).erase 2).erase 3).erase 4).erase 5).erase 6).erase 7).erase 8).erase 9).erase 10).erase 11).erase 12).erase 13).erase 14).erase 15).erase 16) (by decide) (by decide) K _ (owedRem2 c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) (owedRem2_lv c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) _ _ _ _ _ _ (by decide))
  isplitr; · iexact HI
  isplitr; · iexact Hlev
  isplitl [Hw1]; · iexact Hw1
  isplitl [HO]; · iexact HO
  iintro ⟨Hw1, HO⟩
  -- wait for the first-round copy to land: column half 1, distance 18
  sl_exec
  iapply (wait1 m c 1 18 (by decide) (((((((((((((((((others.erase 1).erase 2).erase 3).erase 4).erase 5).erase 6).erase 7).erase 8).erase 9).erase 10).erase 11).erase 12).erase 13).erase 14).erase 15).erase 16).erase 17) (by decide) (by decide) K _ (owedRem2 c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) (owedRem2_lv c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) _ _ _ _ _ _ (by decide))
  isplitr; · iexact HI
  isplitr; · iexact Hlev
  isplitl [Hw1]; · iexact Hw1
  isplitl [HO]; · iexact HO
  iintro ⟨Hw1, HO⟩
  -- wait for the first-round copy to land: column half 1, distance 19
  sl_exec
  iapply (wait1 m c 1 19 (by decide) ((((((((((((((((((others.erase 1).erase 2).erase 3).erase 4).erase 5).erase 6).erase 7).erase 8).erase 9).erase 10).erase 11).erase 12).erase 13).erase 14).erase 15).erase 16).erase 17).erase 18) (by decide) (by decide) K _ (owedRem2 c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) (owedRem2_lv c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) _ _ _ _ _ _ (by decide))
  isplitr; · iexact HI
  isplitr; · iexact Hlev
  isplitl [Hw1]; · iexact Hw1
  isplitl [HO]; · iexact HO
  iintro ⟨Hw1, HO⟩
  -- wait for the first-round copy to land: column half 1, distance 20
  sl_exec
  iapply (wait1 m c 1 20 (by decide) (((((((((((((((((((others.erase 1).erase 2).erase 3).erase 4).erase 5).erase 6).erase 7).erase 8).erase 9).erase 10).erase 11).erase 12).erase 13).erase 14).erase 15).erase 16).erase 17).erase 18).erase 19) (by decide) (by decide) K _ (owedRem2 c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) (owedRem2_lv c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) _ _ _ _ _ _ (by decide))
  isplitr; · iexact HI
  isplitr; · iexact Hlev
  isplitl [Hw1]; · iexact Hw1
  isplitl [HO]; · iexact HO
  iintro ⟨Hw1, HO⟩
  -- wait for the first-round copy to land: column half 1, distance 21
  sl_exec
  iapply (wait1 m c 1 21 (by decide) ((((((((((((((((((((others.erase 1).erase 2).erase 3).erase 4).erase 5).erase 6).erase 7).erase 8).erase 9).erase 10).erase 11).erase 12).erase 13).erase 14).erase 15).erase 16).erase 17).erase 18).erase 19).erase 20) (by decide) (by decide) K _ (owedRem2 c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) (owedRem2_lv c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) _ _ _ _ _ _ (by decide))
  isplitr; · iexact HI
  isplitr; · iexact Hlev
  isplitl [Hw1]; · iexact Hw1
  isplitl [HO]; · iexact HO
  iintro ⟨Hw1, HO⟩
  -- wait for the first-round copy to land: column half 1, distance 22
  sl_exec
  iapply (wait1 m c 1 22 (by decide) (((((((((((((((((((((others.erase 1).erase 2).erase 3).erase 4).erase 5).erase 6).erase 7).erase 8).erase 9).erase 10).erase 11).erase 12).erase 13).erase 14).erase 15).erase 16).erase 17).erase 18).erase 19).erase 20).erase 21) (by decide) (by decide) K _ (owedRem2 c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) (owedRem2_lv c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) _ _ _ _ _ _ (by decide))
  isplitr; · iexact HI
  isplitr; · iexact Hlev
  isplitl [Hw1]; · iexact Hw1
  isplitl [HO]; · iexact HO
  iintro ⟨Hw1, HO⟩
  -- wait for the first-round copy to land: column half 1, distance 23
  sl_exec
  iapply (wait1 m c 1 23 (by decide) ((((((((((((((((((((((others.erase 1).erase 2).erase 3).erase 4).erase 5).erase 6).erase 7).erase 8).erase 9).erase 10).erase 11).erase 12).erase 13).erase 14).erase 15).erase 16).erase 17).erase 18).erase 19).erase 20).erase 21).erase 22) (by decide) (by decide) K _ (owedRem2 c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) (owedRem2_lv c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) _ _ _ _ _ _ (by decide))
  isplitr; · iexact HI
  isplitr; · iexact Hlev
  isplitl [Hw1]; · iexact Hw1
  isplitl [HO]; · iexact HO
  iintro ⟨Hw1, HO⟩
  -- wait for the first-round copy to land: column half 1, distance 24
  sl_exec
  iapply (wait1 m c 1 24 (by decide) (((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23) (by decide) (by decide) K _ (owedRem2 c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) (owedRem2_lv c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) _ _ _ _ _ _ (by decide))
  isplitr; · iexact HI
  isplitr; · iexact Hlev
  isplitl [Hw1]; · iexact Hw1
  isplitl [HO]; · iexact HO
  iintro ⟨Hw1, HO⟩
  -- wait for the first-round copy to land: column half 1, distance 25
  sl_exec
  iapply (wait1 m c 1 25 (by decide) ((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24) (by decide) (by decide) K _ (owedRem2 c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) (owedRem2_lv c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) _ _ _ _ _ _ (by decide))
  isplitr; · iexact HI
  isplitr; · iexact Hlev
  isplitl [Hw1]; · iexact Hw1
  isplitl [HO]; · iexact HO
  iintro ⟨Hw1, HO⟩
  -- wait for the first-round copy to land: column half 1, distance 26
  sl_exec
  iapply (wait1 m c 1 26 (by decide) (((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25) (by decide) (by decide) K _ (owedRem2 c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) (owedRem2_lv c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) _ _ _ _ _ _ (by decide))
  isplitr; · iexact HI
  isplitr; · iexact Hlev
  isplitl [Hw1]; · iexact Hw1
  isplitl [HO]; · iexact HO
  iintro ⟨Hw1, HO⟩
  -- wait for the first-round copy to land: column half 1, distance 27
  sl_exec
  iapply (wait1 m c 1 27 (by decide) ((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26) (by decide) (by decide) K _ (owedRem2 c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) (owedRem2_lv c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) _ _ _ _ _ _ (by decide))
  isplitr; · iexact HI
  isplitr; · iexact Hlev
  isplitl [Hw1]; · iexact Hw1
  isplitl [HO]; · iexact HO
  iintro ⟨Hw1, HO⟩
  -- wait for the first-round copy to land: column half 1, distance 28
  sl_exec
  iapply (wait1 m c 1 28 (by decide) (((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27) (by decide) (by decide) K _ (owedRem2 c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) (owedRem2_lv c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) _ _ _ _ _ _ (by decide))
  isplitr; · iexact HI
  isplitr; · iexact Hlev
  isplitl [Hw1]; · iexact Hw1
  isplitl [HO]; · iexact HO
  iintro ⟨Hw1, HO⟩
  -- wait for the first-round copy to land: column half 1, distance 29
  sl_exec
  iapply (wait1 m c 1 29 (by decide) ((((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27).erase 28) (by decide) (by decide) K _ (owedRem2 c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) (owedRem2_lv c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) _ _ _ _ _ _ (by decide))
  isplitr; · iexact HI
  isplitr; · iexact Hlev
  isplitl [Hw1]; · iexact Hw1
  isplitl [HO]; · iexact HO
  iintro ⟨Hw1, HO⟩
  -- wait for the first-round copy to land: column half 1, distance 30
  sl_exec
  iapply (wait1 m c 1 30 (by decide) (((((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27).erase 28).erase 29) (by decide) (by decide) K _ (owedRem2 c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) (owedRem2_lv c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) _ _ _ _ _ _ (by decide))
  isplitr; · iexact HI
  isplitr; · iexact Hlev
  isplitl [Hw1]; · iexact Hw1
  isplitl [HO]; · iexact HO
  iintro ⟨Hw1, HO⟩
  -- wait for the first-round copy to land: column half 1, distance 31
  sl_exec
  iapply (wait1 m c 1 31 (by decide) ((((((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27).erase 28).erase 29).erase 30) (by decide) (by decide) K _ (owedRem2 c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) (owedRem2_lv c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) _ _ _ _ _ _ (by decide))
  isplitr; · iexact HI
  isplitr; · iexact Hlev
  isplitl [Hw1]; · iexact Hw1
  isplitl [HO]; · iexact HO
  iintro ⟨Hw1, HO⟩
  -- column half 1 of the gathering buffer joined; summed into the own result slot
  ihave Hd1 := (st2_done m c 1 _ hS0) $$ Hw1
  icases Hd1 with ⟨Hrest1, Hg1⟩
  ihave Hcols1 := (gathJoin m c g1 hg1 1) $$ [HG01 Hg1]
  · isplitl [HG01] <;> iassumption
  iapply (half_sum1 m c (gathC m c) s2 (fun _ _ => rfl) _ _ _ _ _ _)
  isplitl [Hcols1]; · iexact Hcols1
  isplitl [HR01]; · iexact HR01
  iintro Hcols1 ⟨%R1, %hR1, HR01⟩
  simp -zeta only [ret_bind']
  -- the own result slot's column half 1 holds the sum: its 31 readers' shares lent; the second round of column half 1
  ihave HR01 := (Entails.of_eq (resPts_congr' (F := F) c c 1 fullShare hR1)) $$ HR01
  ihave HL1 := (Entails.of_eq (resPts_lend (F := F) c c 1 (resC m))) $$ HR01
  icases HL1 with ⟨Hlent1, Hrem1⟩
  ihave Hdn1 := (st1_done m c 1 _ hS0) $$ Hst1
  ihave Hs3 := (st3_init m c 1) $$ [Hdn1 Hrest1 Hlent1]
  · isplitl [Hdn1]; · iexact Hdn1
    isplitl [Hrest1] <;> iassumption
  -- send wait, then second-round copy: column half 1, distance 1
  sl_exec
  iapply (wsend0 m c 1 1 (by decide) others (by decide) (by decide) K _ (owedRem2 c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) (owedRem2_lv c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 1 1 (by decide) others (by decide) (by decide) (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)) (by decide) K _ _ _ _ (by rw [k0_off7_eq]; rfl) _ _ _ _ _ (k0_dev126_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 1, distance 2
  sl_exec
  iapply (wsend0 m c 1 2 (by decide) (others.erase 1) (by decide) (by decide) K _ (owedRem2 c ((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1))) (owedRem2_lv c ((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 1 2 (by decide) (others.erase 1) (by decide) (by decide) ((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)) (by decide) K _ _ _ _ (by rw [k0_off7_eq]; rfl) _ _ _ _ _ (k0_dev127_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 1, distance 3
  sl_exec
  iapply (wsend0 m c 1 3 (by decide) ((others.erase 1).erase 2) (by decide) (by decide) K _ (owedRem2 c (((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2))) (owedRem2_lv c (((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 1 3 (by decide) ((others.erase 1).erase 2) (by decide) (by decide) (((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)) (by decide) K _ _ _ _ (by rw [k0_off7_eq]; rfl) _ _ _ _ _ (k0_dev128_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 1, distance 4
  sl_exec
  iapply (wsend0 m c 1 4 (by decide) (((others.erase 1).erase 2).erase 3) (by decide) (by decide) K _ (owedRem2 c ((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3))) (owedRem2_lv c ((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 1 4 (by decide) (((others.erase 1).erase 2).erase 3) (by decide) (by decide) ((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)) (by decide) K _ _ _ _ (by rw [k0_off7_eq]; rfl) _ _ _ _ _ (k0_dev129_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 1, distance 5
  sl_exec
  iapply (wsend0 m c 1 5 (by decide) ((((others.erase 1).erase 2).erase 3).erase 4) (by decide) (by decide) K _ (owedRem2 c (((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4))) (owedRem2_lv c (((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 1 5 (by decide) ((((others.erase 1).erase 2).erase 3).erase 4) (by decide) (by decide) (((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)) (by decide) K _ _ _ _ (by rw [k0_off7_eq]; rfl) _ _ _ _ _ (k0_dev130_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 1, distance 6
  sl_exec
  iapply (wsend0 m c 1 6 (by decide) (((((others.erase 1).erase 2).erase 3).erase 4).erase 5) (by decide) (by decide) K _ (owedRem2 c ((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5))) (owedRem2_lv c ((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 1 6 (by decide) (((((others.erase 1).erase 2).erase 3).erase 4).erase 5) (by decide) (by decide) ((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)) (by decide) K _ _ _ _ (by rw [k0_off7_eq]; rfl) _ _ _ _ _ (k0_dev131_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 1, distance 7
  sl_exec
  iapply (wsend0 m c 1 7 (by decide) ((((((others.erase 1).erase 2).erase 3).erase 4).erase 5).erase 6) (by decide) (by decide) K _ (owedRem2 c (((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6))) (owedRem2_lv c (((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 1 7 (by decide) ((((((others.erase 1).erase 2).erase 3).erase 4).erase 5).erase 6) (by decide) (by decide) (((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)) (by decide) K _ _ _ _ (by rw [k0_off7_eq]; rfl) _ _ _ _ _ (k0_dev132_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 1, distance 8
  sl_exec
  iapply (wsend0 m c 1 8 (by decide) (((((((others.erase 1).erase 2).erase 3).erase 4).erase 5).erase 6).erase 7) (by decide) (by decide) K _ (owedRem2 c ((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7))) (owedRem2_lv c ((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 1 8 (by decide) (((((((others.erase 1).erase 2).erase 3).erase 4).erase 5).erase 6).erase 7) (by decide) (by decide) ((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)) (by decide) K _ _ _ _ (by rw [k0_off7_eq]; rfl) _ _ _ _ _ (k0_dev133_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 1, distance 9
  sl_exec
  iapply (wsend0 m c 1 9 (by decide) ((((((((others.erase 1).erase 2).erase 3).erase 4).erase 5).erase 6).erase 7).erase 8) (by decide) (by decide) K _ (owedRem2 c (((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8))) (owedRem2_lv c (((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 1 9 (by decide) ((((((((others.erase 1).erase 2).erase 3).erase 4).erase 5).erase 6).erase 7).erase 8) (by decide) (by decide) (((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)) (by decide) K _ _ _ _ (by rw [k0_off7_eq]; rfl) _ _ _ _ _ (k0_dev134_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 1, distance 10
  sl_exec
  iapply (wsend0 m c 1 10 (by decide) (((((((((others.erase 1).erase 2).erase 3).erase 4).erase 5).erase 6).erase 7).erase 8).erase 9) (by decide) (by decide) K _ (owedRem2 c ((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9))) (owedRem2_lv c ((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 1 10 (by decide) (((((((((others.erase 1).erase 2).erase 3).erase 4).erase 5).erase 6).erase 7).erase 8).erase 9) (by decide) (by decide) ((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)) (by decide) K _ _ _ _ (by rw [k0_off7_eq]; rfl) _ _ _ _ _ (k0_dev135_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 1, distance 11
  sl_exec
  iapply (wsend0 m c 1 11 (by decide) ((((((((((others.erase 1).erase 2).erase 3).erase 4).erase 5).erase 6).erase 7).erase 8).erase 9).erase 10) (by decide) (by decide) K _ (owedRem2 c (((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10))) (owedRem2_lv c (((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 1 11 (by decide) ((((((((((others.erase 1).erase 2).erase 3).erase 4).erase 5).erase 6).erase 7).erase 8).erase 9).erase 10) (by decide) (by decide) (((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)) (by decide) K _ _ _ _ (by rw [k0_off7_eq]; rfl) _ _ _ _ _ (k0_dev136_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 1, distance 12
  sl_exec
  iapply (wsend0 m c 1 12 (by decide) (((((((((((others.erase 1).erase 2).erase 3).erase 4).erase 5).erase 6).erase 7).erase 8).erase 9).erase 10).erase 11) (by decide) (by decide) K _ (owedRem2 c ((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11))) (owedRem2_lv c ((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 1 12 (by decide) (((((((((((others.erase 1).erase 2).erase 3).erase 4).erase 5).erase 6).erase 7).erase 8).erase 9).erase 10).erase 11) (by decide) (by decide) ((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)) (by decide) K _ _ _ _ (by rw [k0_off7_eq]; rfl) _ _ _ _ _ (k0_dev137_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 1, distance 13
  sl_exec
  iapply (wsend0 m c 1 13 (by decide) ((((((((((((others.erase 1).erase 2).erase 3).erase 4).erase 5).erase 6).erase 7).erase 8).erase 9).erase 10).erase 11).erase 12) (by decide) (by decide) K _ (owedRem2 c (((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12))) (owedRem2_lv c (((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 1 13 (by decide) ((((((((((((others.erase 1).erase 2).erase 3).erase 4).erase 5).erase 6).erase 7).erase 8).erase 9).erase 10).erase 11).erase 12) (by decide) (by decide) (((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)) (by decide) K _ _ _ _ (by rw [k0_off7_eq]; rfl) _ _ _ _ _ (k0_dev138_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 1, distance 14
  sl_exec
  iapply (wsend0 m c 1 14 (by decide) (((((((((((((others.erase 1).erase 2).erase 3).erase 4).erase 5).erase 6).erase 7).erase 8).erase 9).erase 10).erase 11).erase 12).erase 13) (by decide) (by decide) K _ (owedRem2 c ((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13))) (owedRem2_lv c ((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 1 14 (by decide) (((((((((((((others.erase 1).erase 2).erase 3).erase 4).erase 5).erase 6).erase 7).erase 8).erase 9).erase 10).erase 11).erase 12).erase 13) (by decide) (by decide) ((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)) (by decide) K _ _ _ _ (by rw [k0_off7_eq]; rfl) _ _ _ _ _ (k0_dev139_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 1, distance 15
  sl_exec
  iapply (wsend0 m c 1 15 (by decide) ((((((((((((((others.erase 1).erase 2).erase 3).erase 4).erase 5).erase 6).erase 7).erase 8).erase 9).erase 10).erase 11).erase 12).erase 13).erase 14) (by decide) (by decide) K _ (owedRem2 c (((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14))) (owedRem2_lv c (((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 1 15 (by decide) ((((((((((((((others.erase 1).erase 2).erase 3).erase 4).erase 5).erase 6).erase 7).erase 8).erase 9).erase 10).erase 11).erase 12).erase 13).erase 14) (by decide) (by decide) (((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)) (by decide) K _ _ _ _ (by rw [k0_off7_eq]; rfl) _ _ _ _ _ (k0_dev140_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 1, distance 16
  sl_exec
  iapply (wsend0 m c 1 16 (by decide) (((((((((((((((others.erase 1).erase 2).erase 3).erase 4).erase 5).erase 6).erase 7).erase 8).erase 9).erase 10).erase 11).erase 12).erase 13).erase 14).erase 15) (by decide) (by decide) K _ (owedRem2 c ((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15))) (owedRem2_lv c ((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 1 16 (by decide) (((((((((((((((others.erase 1).erase 2).erase 3).erase 4).erase 5).erase 6).erase 7).erase 8).erase 9).erase 10).erase 11).erase 12).erase 13).erase 14).erase 15) (by decide) (by decide) ((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)) (by decide) K _ _ _ _ (by rw [k0_off7_eq]; rfl) _ _ _ _ _ (k0_dev141_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 1, distance 17
  sl_exec
  iapply (wsend0 m c 1 17 (by decide) ((((((((((((((((others.erase 1).erase 2).erase 3).erase 4).erase 5).erase 6).erase 7).erase 8).erase 9).erase 10).erase 11).erase 12).erase 13).erase 14).erase 15).erase 16) (by decide) (by decide) K _ (owedRem2 c (((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16))) (owedRem2_lv c (((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 1 17 (by decide) ((((((((((((((((others.erase 1).erase 2).erase 3).erase 4).erase 5).erase 6).erase 7).erase 8).erase 9).erase 10).erase 11).erase 12).erase 13).erase 14).erase 15).erase 16) (by decide) (by decide) (((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)) (by decide) K _ _ _ _ (by rw [k0_off7_eq]; rfl) _ _ _ _ _ (k0_dev142_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 1, distance 18
  sl_exec
  iapply (wsend0 m c 1 18 (by decide) (((((((((((((((((others.erase 1).erase 2).erase 3).erase 4).erase 5).erase 6).erase 7).erase 8).erase 9).erase 10).erase 11).erase 12).erase 13).erase 14).erase 15).erase 16).erase 17) (by decide) (by decide) K _ (owedRem2 c ((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17))) (owedRem2_lv c ((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 1 18 (by decide) (((((((((((((((((others.erase 1).erase 2).erase 3).erase 4).erase 5).erase 6).erase 7).erase 8).erase 9).erase 10).erase 11).erase 12).erase 13).erase 14).erase 15).erase 16).erase 17) (by decide) (by decide) ((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)) (by decide) K _ _ _ _ (by rw [k0_off7_eq]; rfl) _ _ _ _ _ (k0_dev143_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 1, distance 19
  sl_exec
  iapply (wsend0 m c 1 19 (by decide) ((((((((((((((((((others.erase 1).erase 2).erase 3).erase 4).erase 5).erase 6).erase 7).erase 8).erase 9).erase 10).erase 11).erase 12).erase 13).erase 14).erase 15).erase 16).erase 17).erase 18) (by decide) (by decide) K _ (owedRem2 c (((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18))) (owedRem2_lv c (((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 1 19 (by decide) ((((((((((((((((((others.erase 1).erase 2).erase 3).erase 4).erase 5).erase 6).erase 7).erase 8).erase 9).erase 10).erase 11).erase 12).erase 13).erase 14).erase 15).erase 16).erase 17).erase 18) (by decide) (by decide) (((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)) (by decide) K _ _ _ _ (by rw [k0_off7_eq]; rfl) _ _ _ _ _ (k0_dev144_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 1, distance 20
  sl_exec
  iapply (wsend0 m c 1 20 (by decide) (((((((((((((((((((others.erase 1).erase 2).erase 3).erase 4).erase 5).erase 6).erase 7).erase 8).erase 9).erase 10).erase 11).erase 12).erase 13).erase 14).erase 15).erase 16).erase 17).erase 18).erase 19) (by decide) (by decide) K _ (owedRem2 c ((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19))) (owedRem2_lv c ((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 1 20 (by decide) (((((((((((((((((((others.erase 1).erase 2).erase 3).erase 4).erase 5).erase 6).erase 7).erase 8).erase 9).erase 10).erase 11).erase 12).erase 13).erase 14).erase 15).erase 16).erase 17).erase 18).erase 19) (by decide) (by decide) ((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)) (by decide) K _ _ _ _ (by rw [k0_off7_eq]; rfl) _ _ _ _ _ (k0_dev145_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 1, distance 21
  sl_exec
  iapply (wsend0 m c 1 21 (by decide) ((((((((((((((((((((others.erase 1).erase 2).erase 3).erase 4).erase 5).erase 6).erase 7).erase 8).erase 9).erase 10).erase 11).erase 12).erase 13).erase 14).erase 15).erase 16).erase 17).erase 18).erase 19).erase 20) (by decide) (by decide) K _ (owedRem2 c (((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20))) (owedRem2_lv c (((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 1 21 (by decide) ((((((((((((((((((((others.erase 1).erase 2).erase 3).erase 4).erase 5).erase 6).erase 7).erase 8).erase 9).erase 10).erase 11).erase 12).erase 13).erase 14).erase 15).erase 16).erase 17).erase 18).erase 19).erase 20) (by decide) (by decide) (((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)) (by decide) K _ _ _ _ (by rw [k0_off7_eq]; rfl) _ _ _ _ _ (k0_dev146_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 1, distance 22
  sl_exec
  iapply (wsend0 m c 1 22 (by decide) (((((((((((((((((((((others.erase 1).erase 2).erase 3).erase 4).erase 5).erase 6).erase 7).erase 8).erase 9).erase 10).erase 11).erase 12).erase 13).erase 14).erase 15).erase 16).erase 17).erase 18).erase 19).erase 20).erase 21) (by decide) (by decide) K _ (owedRem2 c ((((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)).erase (1, 21))) (owedRem2_lv c ((((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)).erase (1, 21))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 1 22 (by decide) (((((((((((((((((((((others.erase 1).erase 2).erase 3).erase 4).erase 5).erase 6).erase 7).erase 8).erase 9).erase 10).erase 11).erase 12).erase 13).erase 14).erase 15).erase 16).erase 17).erase 18).erase 19).erase 20).erase 21) (by decide) (by decide) ((((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)).erase (1, 21)) (by decide) K _ _ _ _ (by rw [k0_off7_eq]; rfl) _ _ _ _ _ (k0_dev147_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 1, distance 23
  sl_exec
  iapply (wsend0 m c 1 23 (by decide) ((((((((((((((((((((((others.erase 1).erase 2).erase 3).erase 4).erase 5).erase 6).erase 7).erase 8).erase 9).erase 10).erase 11).erase 12).erase 13).erase 14).erase 15).erase 16).erase 17).erase 18).erase 19).erase 20).erase 21).erase 22) (by decide) (by decide) K _ (owedRem2 c (((((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)).erase (1, 21)).erase (1, 22))) (owedRem2_lv c (((((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)).erase (1, 21)).erase (1, 22))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 1 23 (by decide) ((((((((((((((((((((((others.erase 1).erase 2).erase 3).erase 4).erase 5).erase 6).erase 7).erase 8).erase 9).erase 10).erase 11).erase 12).erase 13).erase 14).erase 15).erase 16).erase 17).erase 18).erase 19).erase 20).erase 21).erase 22) (by decide) (by decide) (((((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)).erase (1, 21)).erase (1, 22)) (by decide) K _ _ _ _ (by rw [k0_off7_eq]; rfl) _ _ _ _ _ (k0_dev148_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 1, distance 24
  sl_exec
  iapply (wsend0 m c 1 24 (by decide) (((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23) (by decide) (by decide) K _ (owedRem2 c ((((((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)).erase (1, 21)).erase (1, 22)).erase (1, 23))) (owedRem2_lv c ((((((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)).erase (1, 21)).erase (1, 22)).erase (1, 23))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 1 24 (by decide) (((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23) (by decide) (by decide) ((((((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)).erase (1, 21)).erase (1, 22)).erase (1, 23)) (by decide) K _ _ _ _ (by rw [k0_off7_eq]; rfl) _ _ _ _ _ (k0_dev149_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 1, distance 25
  sl_exec
  iapply (wsend0 m c 1 25 (by decide) ((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24) (by decide) (by decide) K _ (owedRem2 c (((((((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)).erase (1, 21)).erase (1, 22)).erase (1, 23)).erase (1, 24))) (owedRem2_lv c (((((((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)).erase (1, 21)).erase (1, 22)).erase (1, 23)).erase (1, 24))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 1 25 (by decide) ((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24) (by decide) (by decide) (((((((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)).erase (1, 21)).erase (1, 22)).erase (1, 23)).erase (1, 24)) (by decide) K _ _ _ _ (by rw [k0_off7_eq]; rfl) _ _ _ _ _ (k0_dev150_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 1, distance 26
  sl_exec
  iapply (wsend0 m c 1 26 (by decide) (((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25) (by decide) (by decide) K _ (owedRem2 c ((((((((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)).erase (1, 21)).erase (1, 22)).erase (1, 23)).erase (1, 24)).erase (1, 25))) (owedRem2_lv c ((((((((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)).erase (1, 21)).erase (1, 22)).erase (1, 23)).erase (1, 24)).erase (1, 25))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 1 26 (by decide) (((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25) (by decide) (by decide) ((((((((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)).erase (1, 21)).erase (1, 22)).erase (1, 23)).erase (1, 24)).erase (1, 25)) (by decide) K _ _ _ _ (by rw [k0_off7_eq]; rfl) _ _ _ _ _ (k0_dev151_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 1, distance 27
  sl_exec
  iapply (wsend0 m c 1 27 (by decide) ((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26) (by decide) (by decide) K _ (owedRem2 c (((((((((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)).erase (1, 21)).erase (1, 22)).erase (1, 23)).erase (1, 24)).erase (1, 25)).erase (1, 26))) (owedRem2_lv c (((((((((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)).erase (1, 21)).erase (1, 22)).erase (1, 23)).erase (1, 24)).erase (1, 25)).erase (1, 26))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 1 27 (by decide) ((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26) (by decide) (by decide) (((((((((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)).erase (1, 21)).erase (1, 22)).erase (1, 23)).erase (1, 24)).erase (1, 25)).erase (1, 26)) (by decide) K _ _ _ _ (by rw [k0_off7_eq]; rfl) _ _ _ _ _ (k0_dev152_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 1, distance 28
  sl_exec
  iapply (wsend0 m c 1 28 (by decide) (((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27) (by decide) (by decide) K _ (owedRem2 c ((((((((((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)).erase (1, 21)).erase (1, 22)).erase (1, 23)).erase (1, 24)).erase (1, 25)).erase (1, 26)).erase (1, 27))) (owedRem2_lv c ((((((((((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)).erase (1, 21)).erase (1, 22)).erase (1, 23)).erase (1, 24)).erase (1, 25)).erase (1, 26)).erase (1, 27))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 1 28 (by decide) (((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27) (by decide) (by decide) ((((((((((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)).erase (1, 21)).erase (1, 22)).erase (1, 23)).erase (1, 24)).erase (1, 25)).erase (1, 26)).erase (1, 27)) (by decide) K _ _ _ _ (by rw [k0_off7_eq]; rfl) _ _ _ _ _ (k0_dev153_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 1, distance 29
  sl_exec
  iapply (wsend0 m c 1 29 (by decide) ((((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27).erase 28) (by decide) (by decide) K _ (owedRem2 c (((((((((((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)).erase (1, 21)).erase (1, 22)).erase (1, 23)).erase (1, 24)).erase (1, 25)).erase (1, 26)).erase (1, 27)).erase (1, 28))) (owedRem2_lv c (((((((((((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)).erase (1, 21)).erase (1, 22)).erase (1, 23)).erase (1, 24)).erase (1, 25)).erase (1, 26)).erase (1, 27)).erase (1, 28))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 1 29 (by decide) ((((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27).erase 28) (by decide) (by decide) (((((((((((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)).erase (1, 21)).erase (1, 22)).erase (1, 23)).erase (1, 24)).erase (1, 25)).erase (1, 26)).erase (1, 27)).erase (1, 28)) (by decide) K _ _ _ _ (by rw [k0_off7_eq]; rfl) _ _ _ _ _ (k0_dev154_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 1, distance 30
  sl_exec
  iapply (wsend0 m c 1 30 (by decide) (((((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27).erase 28).erase 29) (by decide) (by decide) K _ (owedRem2 c ((((((((((((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)).erase (1, 21)).erase (1, 22)).erase (1, 23)).erase (1, 24)).erase (1, 25)).erase (1, 26)).erase (1, 27)).erase (1, 28)).erase (1, 29))) (owedRem2_lv c ((((((((((((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)).erase (1, 21)).erase (1, 22)).erase (1, 23)).erase (1, 24)).erase (1, 25)).erase (1, 26)).erase (1, 27)).erase (1, 28)).erase (1, 29))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 1 30 (by decide) (((((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27).erase 28).erase 29) (by decide) (by decide) ((((((((((((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)).erase (1, 21)).erase (1, 22)).erase (1, 23)).erase (1, 24)).erase (1, 25)).erase (1, 26)).erase (1, 27)).erase (1, 28)).erase (1, 29)) (by decide) K _ _ _ _ (by rw [k0_off7_eq]; rfl) _ _ _ _ _ (k0_dev155_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 1, distance 31
  sl_exec
  iapply (wsend0 m c 1 31 (by decide) ((((((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27).erase 28).erase 29).erase 30) (by decide) (by decide) K _ (owedRem2 c (((((((((((((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)).erase (1, 21)).erase (1, 22)).erase (1, 23)).erase (1, 24)).erase (1, 25)).erase (1, 26)).erase (1, 27)).erase (1, 28)).erase (1, 29)).erase (1, 30))) (owedRem2_lv c (((((((((((((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)).erase (1, 21)).erase (1, 22)).erase (1, 23)).erase (1, 24)).erase (1, 25)).erase (1, 26)).erase (1, 27)).erase (1, 28)).erase (1, 29)).erase (1, 30))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 1 31 (by decide) ((((((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27).erase 28).erase 29).erase 30) (by decide) (by decide) (((((((((((((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)).erase (1, 21)).erase (1, 22)).erase (1, 23)).erase (1, 24)).erase (1, 25)).erase (1, 26)).erase (1, 27)).erase (1, 28)).erase (1, 29)).erase (1, 30)) (by decide) K _ _ _ _ (by rw [k0_off7_eq]; rfl) _ _ _ _ _ (k0_dev156_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  ihave HC1 := (st3_done m c 1 _ hS0) $$ Hs3
  ihave HO := (owes_congr (F := F) c (show owedRem2 c ((((((((((((((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)).erase (1, 21)).erase (1, 22)).erase (1, 23)).erase (1, 24)).erase (1, 25)).erase (1, 26)).erase (1, 27)).erase (1, 28)).erase (1, 29)).erase (1, 30)).erase (1, 31)) = 0 from by rw [hPend]; unfold owedRem2; rw [Finset.sum_empty]) _) $$ HO
  ihave HC0 := (st4_init m c 0) $$ HC0
  -- wait for the second-round copy to land: column half 0, distance 1
  sl_exec
  iapply (wait2 m c 0 1 (by decide) others (by decide) (by decide) K _ _ _ _ _ _ _ (by first | rfl | decide))
  isplitr; · iexact HI
  isplitl [HC0]; · iexact HC0
  isplitl [HO]; · iexact HO
  iintro ⟨HC0, HO⟩
  -- wait for the second-round copy to land: column half 0, distance 2
  sl_exec
  iapply (wait2 m c 0 2 (by decide) (others.erase 1) (by decide) (by decide) K _ _ _ _ _ _ _ (by first | rfl | decide))
  isplitr; · iexact HI
  isplitl [HC0]; · iexact HC0
  isplitl [HO]; · iexact HO
  iintro ⟨HC0, HO⟩
  -- wait for the second-round copy to land: column half 0, distance 3
  sl_exec
  iapply (wait2 m c 0 3 (by decide) ((others.erase 1).erase 2) (by decide) (by decide) K _ _ _ _ _ _ _ (by first | rfl | decide))
  isplitr; · iexact HI
  isplitl [HC0]; · iexact HC0
  isplitl [HO]; · iexact HO
  iintro ⟨HC0, HO⟩
  -- wait for the second-round copy to land: column half 0, distance 4
  sl_exec
  iapply (wait2 m c 0 4 (by decide) (((others.erase 1).erase 2).erase 3) (by decide) (by decide) K _ _ _ _ _ _ _ (by first | rfl | decide))
  isplitr; · iexact HI
  isplitl [HC0]; · iexact HC0
  isplitl [HO]; · iexact HO
  iintro ⟨HC0, HO⟩
  -- wait for the second-round copy to land: column half 0, distance 5
  sl_exec
  iapply (wait2 m c 0 5 (by decide) ((((others.erase 1).erase 2).erase 3).erase 4) (by decide) (by decide) K _ _ _ _ _ _ _ (by first | rfl | decide))
  isplitr; · iexact HI
  isplitl [HC0]; · iexact HC0
  isplitl [HO]; · iexact HO
  iintro ⟨HC0, HO⟩
  -- wait for the second-round copy to land: column half 0, distance 6
  sl_exec
  iapply (wait2 m c 0 6 (by decide) (((((others.erase 1).erase 2).erase 3).erase 4).erase 5) (by decide) (by decide) K _ _ _ _ _ _ _ (by first | rfl | decide))
  isplitr; · iexact HI
  isplitl [HC0]; · iexact HC0
  isplitl [HO]; · iexact HO
  iintro ⟨HC0, HO⟩
  -- wait for the second-round copy to land: column half 0, distance 7
  sl_exec
  iapply (wait2 m c 0 7 (by decide) ((((((others.erase 1).erase 2).erase 3).erase 4).erase 5).erase 6) (by decide) (by decide) K _ _ _ _ _ _ _ (by first | rfl | decide))
  isplitr; · iexact HI
  isplitl [HC0]; · iexact HC0
  isplitl [HO]; · iexact HO
  iintro ⟨HC0, HO⟩
  -- wait for the second-round copy to land: column half 0, distance 8
  sl_exec
  iapply (wait2 m c 0 8 (by decide) (((((((others.erase 1).erase 2).erase 3).erase 4).erase 5).erase 6).erase 7) (by decide) (by decide) K _ _ _ _ _ _ _ (by first | rfl | decide))
  isplitr; · iexact HI
  isplitl [HC0]; · iexact HC0
  isplitl [HO]; · iexact HO
  iintro ⟨HC0, HO⟩
  -- wait for the second-round copy to land: column half 0, distance 9
  sl_exec
  iapply (wait2 m c 0 9 (by decide) ((((((((others.erase 1).erase 2).erase 3).erase 4).erase 5).erase 6).erase 7).erase 8) (by decide) (by decide) K _ _ _ _ _ _ _ (by first | rfl | decide))
  isplitr; · iexact HI
  isplitl [HC0]; · iexact HC0
  isplitl [HO]; · iexact HO
  iintro ⟨HC0, HO⟩
  -- wait for the second-round copy to land: column half 0, distance 10
  sl_exec
  iapply (wait2 m c 0 10 (by decide) (((((((((others.erase 1).erase 2).erase 3).erase 4).erase 5).erase 6).erase 7).erase 8).erase 9) (by decide) (by decide) K _ _ _ _ _ _ _ (by first | rfl | decide))
  isplitr; · iexact HI
  isplitl [HC0]; · iexact HC0
  isplitl [HO]; · iexact HO
  iintro ⟨HC0, HO⟩
  -- wait for the second-round copy to land: column half 0, distance 11
  sl_exec
  iapply (wait2 m c 0 11 (by decide) ((((((((((others.erase 1).erase 2).erase 3).erase 4).erase 5).erase 6).erase 7).erase 8).erase 9).erase 10) (by decide) (by decide) K _ _ _ _ _ _ _ (by first | rfl | decide))
  isplitr; · iexact HI
  isplitl [HC0]; · iexact HC0
  isplitl [HO]; · iexact HO
  iintro ⟨HC0, HO⟩
  -- wait for the second-round copy to land: column half 0, distance 12
  sl_exec
  iapply (wait2 m c 0 12 (by decide) (((((((((((others.erase 1).erase 2).erase 3).erase 4).erase 5).erase 6).erase 7).erase 8).erase 9).erase 10).erase 11) (by decide) (by decide) K _ _ _ _ _ _ _ (by first | rfl | decide))
  isplitr; · iexact HI
  isplitl [HC0]; · iexact HC0
  isplitl [HO]; · iexact HO
  iintro ⟨HC0, HO⟩
  -- wait for the second-round copy to land: column half 0, distance 13
  sl_exec
  iapply (wait2 m c 0 13 (by decide) ((((((((((((others.erase 1).erase 2).erase 3).erase 4).erase 5).erase 6).erase 7).erase 8).erase 9).erase 10).erase 11).erase 12) (by decide) (by decide) K _ _ _ _ _ _ _ (by first | rfl | decide))
  isplitr; · iexact HI
  isplitl [HC0]; · iexact HC0
  isplitl [HO]; · iexact HO
  iintro ⟨HC0, HO⟩
  -- wait for the second-round copy to land: column half 0, distance 14
  sl_exec
  iapply (wait2 m c 0 14 (by decide) (((((((((((((others.erase 1).erase 2).erase 3).erase 4).erase 5).erase 6).erase 7).erase 8).erase 9).erase 10).erase 11).erase 12).erase 13) (by decide) (by decide) K _ _ _ _ _ _ _ (by first | rfl | decide))
  isplitr; · iexact HI
  isplitl [HC0]; · iexact HC0
  isplitl [HO]; · iexact HO
  iintro ⟨HC0, HO⟩
  -- wait for the second-round copy to land: column half 0, distance 15
  sl_exec
  iapply (wait2 m c 0 15 (by decide) ((((((((((((((others.erase 1).erase 2).erase 3).erase 4).erase 5).erase 6).erase 7).erase 8).erase 9).erase 10).erase 11).erase 12).erase 13).erase 14) (by decide) (by decide) K _ _ _ _ _ _ _ (by first | rfl | decide))
  isplitr; · iexact HI
  isplitl [HC0]; · iexact HC0
  isplitl [HO]; · iexact HO
  iintro ⟨HC0, HO⟩
  -- wait for the second-round copy to land: column half 0, distance 16
  sl_exec
  iapply (wait2 m c 0 16 (by decide) (((((((((((((((others.erase 1).erase 2).erase 3).erase 4).erase 5).erase 6).erase 7).erase 8).erase 9).erase 10).erase 11).erase 12).erase 13).erase 14).erase 15) (by decide) (by decide) K _ _ _ _ _ _ _ (by first | rfl | decide))
  isplitr; · iexact HI
  isplitl [HC0]; · iexact HC0
  isplitl [HO]; · iexact HO
  iintro ⟨HC0, HO⟩
  -- wait for the second-round copy to land: column half 0, distance 17
  sl_exec
  iapply (wait2 m c 0 17 (by decide) ((((((((((((((((others.erase 1).erase 2).erase 3).erase 4).erase 5).erase 6).erase 7).erase 8).erase 9).erase 10).erase 11).erase 12).erase 13).erase 14).erase 15).erase 16) (by decide) (by decide) K _ _ _ _ _ _ _ (by first | rfl | decide))
  isplitr; · iexact HI
  isplitl [HC0]; · iexact HC0
  isplitl [HO]; · iexact HO
  iintro ⟨HC0, HO⟩
  -- wait for the second-round copy to land: column half 0, distance 18
  sl_exec
  iapply (wait2 m c 0 18 (by decide) (((((((((((((((((others.erase 1).erase 2).erase 3).erase 4).erase 5).erase 6).erase 7).erase 8).erase 9).erase 10).erase 11).erase 12).erase 13).erase 14).erase 15).erase 16).erase 17) (by decide) (by decide) K _ _ _ _ _ _ _ (by first | rfl | decide))
  isplitr; · iexact HI
  isplitl [HC0]; · iexact HC0
  isplitl [HO]; · iexact HO
  iintro ⟨HC0, HO⟩
  -- wait for the second-round copy to land: column half 0, distance 19
  sl_exec
  iapply (wait2 m c 0 19 (by decide) ((((((((((((((((((others.erase 1).erase 2).erase 3).erase 4).erase 5).erase 6).erase 7).erase 8).erase 9).erase 10).erase 11).erase 12).erase 13).erase 14).erase 15).erase 16).erase 17).erase 18) (by decide) (by decide) K _ _ _ _ _ _ _ (by first | rfl | decide))
  isplitr; · iexact HI
  isplitl [HC0]; · iexact HC0
  isplitl [HO]; · iexact HO
  iintro ⟨HC0, HO⟩
  -- wait for the second-round copy to land: column half 0, distance 20
  sl_exec
  iapply (wait2 m c 0 20 (by decide) (((((((((((((((((((others.erase 1).erase 2).erase 3).erase 4).erase 5).erase 6).erase 7).erase 8).erase 9).erase 10).erase 11).erase 12).erase 13).erase 14).erase 15).erase 16).erase 17).erase 18).erase 19) (by decide) (by decide) K _ _ _ _ _ _ _ (by first | rfl | decide))
  isplitr; · iexact HI
  isplitl [HC0]; · iexact HC0
  isplitl [HO]; · iexact HO
  iintro ⟨HC0, HO⟩
  -- wait for the second-round copy to land: column half 0, distance 21
  sl_exec
  iapply (wait2 m c 0 21 (by decide) ((((((((((((((((((((others.erase 1).erase 2).erase 3).erase 4).erase 5).erase 6).erase 7).erase 8).erase 9).erase 10).erase 11).erase 12).erase 13).erase 14).erase 15).erase 16).erase 17).erase 18).erase 19).erase 20) (by decide) (by decide) K _ _ _ _ _ _ _ (by first | rfl | decide))
  isplitr; · iexact HI
  isplitl [HC0]; · iexact HC0
  isplitl [HO]; · iexact HO
  iintro ⟨HC0, HO⟩
  -- wait for the second-round copy to land: column half 0, distance 22
  sl_exec
  iapply (wait2 m c 0 22 (by decide) (((((((((((((((((((((others.erase 1).erase 2).erase 3).erase 4).erase 5).erase 6).erase 7).erase 8).erase 9).erase 10).erase 11).erase 12).erase 13).erase 14).erase 15).erase 16).erase 17).erase 18).erase 19).erase 20).erase 21) (by decide) (by decide) K _ _ _ _ _ _ _ (by first | rfl | decide))
  isplitr; · iexact HI
  isplitl [HC0]; · iexact HC0
  isplitl [HO]; · iexact HO
  iintro ⟨HC0, HO⟩
  -- wait for the second-round copy to land: column half 0, distance 23
  sl_exec
  iapply (wait2 m c 0 23 (by decide) ((((((((((((((((((((((others.erase 1).erase 2).erase 3).erase 4).erase 5).erase 6).erase 7).erase 8).erase 9).erase 10).erase 11).erase 12).erase 13).erase 14).erase 15).erase 16).erase 17).erase 18).erase 19).erase 20).erase 21).erase 22) (by decide) (by decide) K _ _ _ _ _ _ _ (by first | rfl | decide))
  isplitr; · iexact HI
  isplitl [HC0]; · iexact HC0
  isplitl [HO]; · iexact HO
  iintro ⟨HC0, HO⟩
  -- wait for the second-round copy to land: column half 0, distance 24
  sl_exec
  iapply (wait2 m c 0 24 (by decide) (((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23) (by decide) (by decide) K _ _ _ _ _ _ _ (by first | rfl | decide))
  isplitr; · iexact HI
  isplitl [HC0]; · iexact HC0
  isplitl [HO]; · iexact HO
  iintro ⟨HC0, HO⟩
  -- wait for the second-round copy to land: column half 0, distance 25
  sl_exec
  iapply (wait2 m c 0 25 (by decide) ((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24) (by decide) (by decide) K _ _ _ _ _ _ _ (by first | rfl | decide))
  isplitr; · iexact HI
  isplitl [HC0]; · iexact HC0
  isplitl [HO]; · iexact HO
  iintro ⟨HC0, HO⟩
  -- wait for the second-round copy to land: column half 0, distance 26
  sl_exec
  iapply (wait2 m c 0 26 (by decide) (((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25) (by decide) (by decide) K _ _ _ _ _ _ _ (by first | rfl | decide))
  isplitr; · iexact HI
  isplitl [HC0]; · iexact HC0
  isplitl [HO]; · iexact HO
  iintro ⟨HC0, HO⟩
  -- wait for the second-round copy to land: column half 0, distance 27
  sl_exec
  iapply (wait2 m c 0 27 (by decide) ((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26) (by decide) (by decide) K _ _ _ _ _ _ _ (by first | rfl | decide))
  isplitr; · iexact HI
  isplitl [HC0]; · iexact HC0
  isplitl [HO]; · iexact HO
  iintro ⟨HC0, HO⟩
  -- wait for the second-round copy to land: column half 0, distance 28
  sl_exec
  iapply (wait2 m c 0 28 (by decide) (((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27) (by decide) (by decide) K _ _ _ _ _ _ _ (by first | rfl | decide))
  isplitr; · iexact HI
  isplitl [HC0]; · iexact HC0
  isplitl [HO]; · iexact HO
  iintro ⟨HC0, HO⟩
  -- wait for the second-round copy to land: column half 0, distance 29
  sl_exec
  iapply (wait2 m c 0 29 (by decide) ((((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27).erase 28) (by decide) (by decide) K _ _ _ _ _ _ _ (by first | rfl | decide))
  isplitr; · iexact HI
  isplitl [HC0]; · iexact HC0
  isplitl [HO]; · iexact HO
  iintro ⟨HC0, HO⟩
  -- wait for the second-round copy to land: column half 0, distance 30
  sl_exec
  iapply (wait2 m c 0 30 (by decide) (((((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27).erase 28).erase 29) (by decide) (by decide) K _ _ _ _ _ _ _ (by first | rfl | decide))
  isplitr; · iexact HI
  isplitl [HC0]; · iexact HC0
  isplitl [HO]; · iexact HO
  iintro ⟨HC0, HO⟩
  -- wait for the second-round copy to land: column half 0, distance 31
  sl_exec
  iapply (wait2 m c 0 31 (by decide) ((((((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27).erase 28).erase 29).erase 30) (by decide) (by decide) K _ _ _ _ _ _ _ (by first | rfl | decide))
  isplitr; · iexact HI
  isplitl [HC0]; · iexact HC0
  isplitl [HO]; · iexact HO
  iintro ⟨HC0, HO⟩
  have hEst40 : ((((((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27).erase 28).erase 29).erase 30).erase 31 = (∅ : Finset (Fin 32)) := by decide
  ihave HC0 := (st4_done m c 0 _ hEst40) $$ HC0
  ihave HC1 := (st4_init m c 1) $$ HC1
  -- wait for the second-round copy to land: column half 1, distance 1
  sl_exec
  iapply (wait2 m c 1 1 (by decide) others (by decide) (by decide) K _ _ _ _ _ _ _ (by first | rfl | decide))
  isplitr; · iexact HI
  isplitl [HC1]; · iexact HC1
  isplitl [HO]; · iexact HO
  iintro ⟨HC1, HO⟩
  -- wait for the second-round copy to land: column half 1, distance 2
  sl_exec
  iapply (wait2 m c 1 2 (by decide) (others.erase 1) (by decide) (by decide) K _ _ _ _ _ _ _ (by first | rfl | decide))
  isplitr; · iexact HI
  isplitl [HC1]; · iexact HC1
  isplitl [HO]; · iexact HO
  iintro ⟨HC1, HO⟩
  -- wait for the second-round copy to land: column half 1, distance 3
  sl_exec
  iapply (wait2 m c 1 3 (by decide) ((others.erase 1).erase 2) (by decide) (by decide) K _ _ _ _ _ _ _ (by first | rfl | decide))
  isplitr; · iexact HI
  isplitl [HC1]; · iexact HC1
  isplitl [HO]; · iexact HO
  iintro ⟨HC1, HO⟩
  -- wait for the second-round copy to land: column half 1, distance 4
  sl_exec
  iapply (wait2 m c 1 4 (by decide) (((others.erase 1).erase 2).erase 3) (by decide) (by decide) K _ _ _ _ _ _ _ (by first | rfl | decide))
  isplitr; · iexact HI
  isplitl [HC1]; · iexact HC1
  isplitl [HO]; · iexact HO
  iintro ⟨HC1, HO⟩
  -- wait for the second-round copy to land: column half 1, distance 5
  sl_exec
  iapply (wait2 m c 1 5 (by decide) ((((others.erase 1).erase 2).erase 3).erase 4) (by decide) (by decide) K _ _ _ _ _ _ _ (by first | rfl | decide))
  isplitr; · iexact HI
  isplitl [HC1]; · iexact HC1
  isplitl [HO]; · iexact HO
  iintro ⟨HC1, HO⟩
  -- wait for the second-round copy to land: column half 1, distance 6
  sl_exec
  iapply (wait2 m c 1 6 (by decide) (((((others.erase 1).erase 2).erase 3).erase 4).erase 5) (by decide) (by decide) K _ _ _ _ _ _ _ (by first | rfl | decide))
  isplitr; · iexact HI
  isplitl [HC1]; · iexact HC1
  isplitl [HO]; · iexact HO
  iintro ⟨HC1, HO⟩
  -- wait for the second-round copy to land: column half 1, distance 7
  sl_exec
  iapply (wait2 m c 1 7 (by decide) ((((((others.erase 1).erase 2).erase 3).erase 4).erase 5).erase 6) (by decide) (by decide) K _ _ _ _ _ _ _ (by first | rfl | decide))
  isplitr; · iexact HI
  isplitl [HC1]; · iexact HC1
  isplitl [HO]; · iexact HO
  iintro ⟨HC1, HO⟩
  -- wait for the second-round copy to land: column half 1, distance 8
  sl_exec
  iapply (wait2 m c 1 8 (by decide) (((((((others.erase 1).erase 2).erase 3).erase 4).erase 5).erase 6).erase 7) (by decide) (by decide) K _ _ _ _ _ _ _ (by first | rfl | decide))
  isplitr; · iexact HI
  isplitl [HC1]; · iexact HC1
  isplitl [HO]; · iexact HO
  iintro ⟨HC1, HO⟩
  -- wait for the second-round copy to land: column half 1, distance 9
  sl_exec
  iapply (wait2 m c 1 9 (by decide) ((((((((others.erase 1).erase 2).erase 3).erase 4).erase 5).erase 6).erase 7).erase 8) (by decide) (by decide) K _ _ _ _ _ _ _ (by first | rfl | decide))
  isplitr; · iexact HI
  isplitl [HC1]; · iexact HC1
  isplitl [HO]; · iexact HO
  iintro ⟨HC1, HO⟩
  -- wait for the second-round copy to land: column half 1, distance 10
  sl_exec
  iapply (wait2 m c 1 10 (by decide) (((((((((others.erase 1).erase 2).erase 3).erase 4).erase 5).erase 6).erase 7).erase 8).erase 9) (by decide) (by decide) K _ _ _ _ _ _ _ (by first | rfl | decide))
  isplitr; · iexact HI
  isplitl [HC1]; · iexact HC1
  isplitl [HO]; · iexact HO
  iintro ⟨HC1, HO⟩
  -- wait for the second-round copy to land: column half 1, distance 11
  sl_exec
  iapply (wait2 m c 1 11 (by decide) ((((((((((others.erase 1).erase 2).erase 3).erase 4).erase 5).erase 6).erase 7).erase 8).erase 9).erase 10) (by decide) (by decide) K _ _ _ _ _ _ _ (by first | rfl | decide))
  isplitr; · iexact HI
  isplitl [HC1]; · iexact HC1
  isplitl [HO]; · iexact HO
  iintro ⟨HC1, HO⟩
  -- wait for the second-round copy to land: column half 1, distance 12
  sl_exec
  iapply (wait2 m c 1 12 (by decide) (((((((((((others.erase 1).erase 2).erase 3).erase 4).erase 5).erase 6).erase 7).erase 8).erase 9).erase 10).erase 11) (by decide) (by decide) K _ _ _ _ _ _ _ (by first | rfl | decide))
  isplitr; · iexact HI
  isplitl [HC1]; · iexact HC1
  isplitl [HO]; · iexact HO
  iintro ⟨HC1, HO⟩
  -- wait for the second-round copy to land: column half 1, distance 13
  sl_exec
  iapply (wait2 m c 1 13 (by decide) ((((((((((((others.erase 1).erase 2).erase 3).erase 4).erase 5).erase 6).erase 7).erase 8).erase 9).erase 10).erase 11).erase 12) (by decide) (by decide) K _ _ _ _ _ _ _ (by first | rfl | decide))
  isplitr; · iexact HI
  isplitl [HC1]; · iexact HC1
  isplitl [HO]; · iexact HO
  iintro ⟨HC1, HO⟩
  -- wait for the second-round copy to land: column half 1, distance 14
  sl_exec
  iapply (wait2 m c 1 14 (by decide) (((((((((((((others.erase 1).erase 2).erase 3).erase 4).erase 5).erase 6).erase 7).erase 8).erase 9).erase 10).erase 11).erase 12).erase 13) (by decide) (by decide) K _ _ _ _ _ _ _ (by first | rfl | decide))
  isplitr; · iexact HI
  isplitl [HC1]; · iexact HC1
  isplitl [HO]; · iexact HO
  iintro ⟨HC1, HO⟩
  -- wait for the second-round copy to land: column half 1, distance 15
  sl_exec
  iapply (wait2 m c 1 15 (by decide) ((((((((((((((others.erase 1).erase 2).erase 3).erase 4).erase 5).erase 6).erase 7).erase 8).erase 9).erase 10).erase 11).erase 12).erase 13).erase 14) (by decide) (by decide) K _ _ _ _ _ _ _ (by first | rfl | decide))
  isplitr; · iexact HI
  isplitl [HC1]; · iexact HC1
  isplitl [HO]; · iexact HO
  iintro ⟨HC1, HO⟩
  -- wait for the second-round copy to land: column half 1, distance 16
  sl_exec
  iapply (wait2 m c 1 16 (by decide) (((((((((((((((others.erase 1).erase 2).erase 3).erase 4).erase 5).erase 6).erase 7).erase 8).erase 9).erase 10).erase 11).erase 12).erase 13).erase 14).erase 15) (by decide) (by decide) K _ _ _ _ _ _ _ (by first | rfl | decide))
  isplitr; · iexact HI
  isplitl [HC1]; · iexact HC1
  isplitl [HO]; · iexact HO
  iintro ⟨HC1, HO⟩
  -- wait for the second-round copy to land: column half 1, distance 17
  sl_exec
  iapply (wait2 m c 1 17 (by decide) ((((((((((((((((others.erase 1).erase 2).erase 3).erase 4).erase 5).erase 6).erase 7).erase 8).erase 9).erase 10).erase 11).erase 12).erase 13).erase 14).erase 15).erase 16) (by decide) (by decide) K _ _ _ _ _ _ _ (by first | rfl | decide))
  isplitr; · iexact HI
  isplitl [HC1]; · iexact HC1
  isplitl [HO]; · iexact HO
  iintro ⟨HC1, HO⟩
  -- wait for the second-round copy to land: column half 1, distance 18
  sl_exec
  iapply (wait2 m c 1 18 (by decide) (((((((((((((((((others.erase 1).erase 2).erase 3).erase 4).erase 5).erase 6).erase 7).erase 8).erase 9).erase 10).erase 11).erase 12).erase 13).erase 14).erase 15).erase 16).erase 17) (by decide) (by decide) K _ _ _ _ _ _ _ (by first | rfl | decide))
  isplitr; · iexact HI
  isplitl [HC1]; · iexact HC1
  isplitl [HO]; · iexact HO
  iintro ⟨HC1, HO⟩
  -- wait for the second-round copy to land: column half 1, distance 19
  sl_exec
  iapply (wait2 m c 1 19 (by decide) ((((((((((((((((((others.erase 1).erase 2).erase 3).erase 4).erase 5).erase 6).erase 7).erase 8).erase 9).erase 10).erase 11).erase 12).erase 13).erase 14).erase 15).erase 16).erase 17).erase 18) (by decide) (by decide) K _ _ _ _ _ _ _ (by first | rfl | decide))
  isplitr; · iexact HI
  isplitl [HC1]; · iexact HC1
  isplitl [HO]; · iexact HO
  iintro ⟨HC1, HO⟩
  -- wait for the second-round copy to land: column half 1, distance 20
  sl_exec
  iapply (wait2 m c 1 20 (by decide) (((((((((((((((((((others.erase 1).erase 2).erase 3).erase 4).erase 5).erase 6).erase 7).erase 8).erase 9).erase 10).erase 11).erase 12).erase 13).erase 14).erase 15).erase 16).erase 17).erase 18).erase 19) (by decide) (by decide) K _ _ _ _ _ _ _ (by first | rfl | decide))
  isplitr; · iexact HI
  isplitl [HC1]; · iexact HC1
  isplitl [HO]; · iexact HO
  iintro ⟨HC1, HO⟩
  -- wait for the second-round copy to land: column half 1, distance 21
  sl_exec
  iapply (wait2 m c 1 21 (by decide) ((((((((((((((((((((others.erase 1).erase 2).erase 3).erase 4).erase 5).erase 6).erase 7).erase 8).erase 9).erase 10).erase 11).erase 12).erase 13).erase 14).erase 15).erase 16).erase 17).erase 18).erase 19).erase 20) (by decide) (by decide) K _ _ _ _ _ _ _ (by first | rfl | decide))
  isplitr; · iexact HI
  isplitl [HC1]; · iexact HC1
  isplitl [HO]; · iexact HO
  iintro ⟨HC1, HO⟩
  -- wait for the second-round copy to land: column half 1, distance 22
  sl_exec
  iapply (wait2 m c 1 22 (by decide) (((((((((((((((((((((others.erase 1).erase 2).erase 3).erase 4).erase 5).erase 6).erase 7).erase 8).erase 9).erase 10).erase 11).erase 12).erase 13).erase 14).erase 15).erase 16).erase 17).erase 18).erase 19).erase 20).erase 21) (by decide) (by decide) K _ _ _ _ _ _ _ (by first | rfl | decide))
  isplitr; · iexact HI
  isplitl [HC1]; · iexact HC1
  isplitl [HO]; · iexact HO
  iintro ⟨HC1, HO⟩
  -- wait for the second-round copy to land: column half 1, distance 23
  sl_exec
  iapply (wait2 m c 1 23 (by decide) ((((((((((((((((((((((others.erase 1).erase 2).erase 3).erase 4).erase 5).erase 6).erase 7).erase 8).erase 9).erase 10).erase 11).erase 12).erase 13).erase 14).erase 15).erase 16).erase 17).erase 18).erase 19).erase 20).erase 21).erase 22) (by decide) (by decide) K _ _ _ _ _ _ _ (by first | rfl | decide))
  isplitr; · iexact HI
  isplitl [HC1]; · iexact HC1
  isplitl [HO]; · iexact HO
  iintro ⟨HC1, HO⟩
  -- wait for the second-round copy to land: column half 1, distance 24
  sl_exec
  iapply (wait2 m c 1 24 (by decide) (((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23) (by decide) (by decide) K _ _ _ _ _ _ _ (by first | rfl | decide))
  isplitr; · iexact HI
  isplitl [HC1]; · iexact HC1
  isplitl [HO]; · iexact HO
  iintro ⟨HC1, HO⟩
  -- wait for the second-round copy to land: column half 1, distance 25
  sl_exec
  iapply (wait2 m c 1 25 (by decide) ((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24) (by decide) (by decide) K _ _ _ _ _ _ _ (by first | rfl | decide))
  isplitr; · iexact HI
  isplitl [HC1]; · iexact HC1
  isplitl [HO]; · iexact HO
  iintro ⟨HC1, HO⟩
  -- wait for the second-round copy to land: column half 1, distance 26
  sl_exec
  iapply (wait2 m c 1 26 (by decide) (((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25) (by decide) (by decide) K _ _ _ _ _ _ _ (by first | rfl | decide))
  isplitr; · iexact HI
  isplitl [HC1]; · iexact HC1
  isplitl [HO]; · iexact HO
  iintro ⟨HC1, HO⟩
  -- wait for the second-round copy to land: column half 1, distance 27
  sl_exec
  iapply (wait2 m c 1 27 (by decide) ((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26) (by decide) (by decide) K _ _ _ _ _ _ _ (by first | rfl | decide))
  isplitr; · iexact HI
  isplitl [HC1]; · iexact HC1
  isplitl [HO]; · iexact HO
  iintro ⟨HC1, HO⟩
  -- wait for the second-round copy to land: column half 1, distance 28
  sl_exec
  iapply (wait2 m c 1 28 (by decide) (((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27) (by decide) (by decide) K _ _ _ _ _ _ _ (by first | rfl | decide))
  isplitr; · iexact HI
  isplitl [HC1]; · iexact HC1
  isplitl [HO]; · iexact HO
  iintro ⟨HC1, HO⟩
  -- wait for the second-round copy to land: column half 1, distance 29
  sl_exec
  iapply (wait2 m c 1 29 (by decide) ((((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27).erase 28) (by decide) (by decide) K _ _ _ _ _ _ _ (by first | rfl | decide))
  isplitr; · iexact HI
  isplitl [HC1]; · iexact HC1
  isplitl [HO]; · iexact HO
  iintro ⟨HC1, HO⟩
  -- wait for the second-round copy to land: column half 1, distance 30
  sl_exec
  iapply (wait2 m c 1 30 (by decide) (((((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27).erase 28).erase 29) (by decide) (by decide) K _ _ _ _ _ _ _ (by first | rfl | decide))
  isplitr; · iexact HI
  isplitl [HC1]; · iexact HC1
  isplitl [HO]; · iexact HO
  iintro ⟨HC1, HO⟩
  -- wait for the second-round copy to land: column half 1, distance 31
  sl_exec
  iapply (wait2 m c 1 31 (by decide) ((((((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27).erase 28).erase 29).erase 30) (by decide) (by decide) K _ _ _ _ _ _ _ (by first | rfl | decide))
  isplitr; · iexact HI
  isplitl [HC1]; · iexact HC1
  isplitl [HO]; · iexact HO
  iintro ⟨HC1, HO⟩
  have hEst41 : ((((((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27).erase 28).erase 29).erase 30).erase 31 = (∅ : Finset (Fin 32)) := by decide
  ihave HC1 := (st4_done m c 1 _ hEst41) $$ HC1
  -- the last load: the whole result buffer, the own slot at the share left after the 31 pending copies
  ihave HAL := (Entails.of_eq (atLoad_eq m c).symm) $$ [HC0 HC1 Hrem0 Hrem1]
  · isplitl [HC0]; · iexact HC0
    isplitl [HC1]; · iexact HC1
    isplitl [Hrem0]; · iexact Hrem0
    iexact Hrem1
  iapply (load_all m c _ rfl _ _ _ _)
  isplitl [HAL]; · iexact HAL
  iintro HAL
  ihave HAL := (Entails.of_eq (atLoad_eq m c)) $$ HAL
  icases HAL with ⟨HC0, HC1, Hrem0, Hrem1⟩
  simp -zeta only [ret_bind']
  ihave HC0 := (st5_init m c 0) $$ HC0
  -- wait for the second-round copy to have been read out: column half 0, distance 1
  sl_exec
  iapply (wait3 m c 0 1 (by decide) others (by decide) (by decide) K _ _ _ _ _ _ _ (by first | rfl | decide))
  isplitr; · iexact HI
  isplitl [HC0]; · iexact HC0
  isplitl [HO]; · iexact HO
  iintro ⟨HC0, HO⟩
  -- wait for the second-round copy to have been read out: column half 0, distance 2
  sl_exec
  iapply (wait3 m c 0 2 (by decide) (others.erase 1) (by decide) (by decide) K _ _ _ _ _ _ _ (by first | rfl | decide))
  isplitr; · iexact HI
  isplitl [HC0]; · iexact HC0
  isplitl [HO]; · iexact HO
  iintro ⟨HC0, HO⟩
  -- wait for the second-round copy to have been read out: column half 0, distance 3
  sl_exec
  iapply (wait3 m c 0 3 (by decide) ((others.erase 1).erase 2) (by decide) (by decide) K _ _ _ _ _ _ _ (by first | rfl | decide))
  isplitr; · iexact HI
  isplitl [HC0]; · iexact HC0
  isplitl [HO]; · iexact HO
  iintro ⟨HC0, HO⟩
  -- wait for the second-round copy to have been read out: column half 0, distance 4
  sl_exec
  iapply (wait3 m c 0 4 (by decide) (((others.erase 1).erase 2).erase 3) (by decide) (by decide) K _ _ _ _ _ _ _ (by first | rfl | decide))
  isplitr; · iexact HI
  isplitl [HC0]; · iexact HC0
  isplitl [HO]; · iexact HO
  iintro ⟨HC0, HO⟩
  -- wait for the second-round copy to have been read out: column half 0, distance 5
  sl_exec
  iapply (wait3 m c 0 5 (by decide) ((((others.erase 1).erase 2).erase 3).erase 4) (by decide) (by decide) K _ _ _ _ _ _ _ (by first | rfl | decide))
  isplitr; · iexact HI
  isplitl [HC0]; · iexact HC0
  isplitl [HO]; · iexact HO
  iintro ⟨HC0, HO⟩
  -- wait for the second-round copy to have been read out: column half 0, distance 6
  sl_exec
  iapply (wait3 m c 0 6 (by decide) (((((others.erase 1).erase 2).erase 3).erase 4).erase 5) (by decide) (by decide) K _ _ _ _ _ _ _ (by first | rfl | decide))
  isplitr; · iexact HI
  isplitl [HC0]; · iexact HC0
  isplitl [HO]; · iexact HO
  iintro ⟨HC0, HO⟩
  -- wait for the second-round copy to have been read out: column half 0, distance 7
  sl_exec
  iapply (wait3 m c 0 7 (by decide) ((((((others.erase 1).erase 2).erase 3).erase 4).erase 5).erase 6) (by decide) (by decide) K _ _ _ _ _ _ _ (by first | rfl | decide))
  isplitr; · iexact HI
  isplitl [HC0]; · iexact HC0
  isplitl [HO]; · iexact HO
  iintro ⟨HC0, HO⟩
  -- wait for the second-round copy to have been read out: column half 0, distance 8
  sl_exec
  iapply (wait3 m c 0 8 (by decide) (((((((others.erase 1).erase 2).erase 3).erase 4).erase 5).erase 6).erase 7) (by decide) (by decide) K _ _ _ _ _ _ _ (by first | rfl | decide))
  isplitr; · iexact HI
  isplitl [HC0]; · iexact HC0
  isplitl [HO]; · iexact HO
  iintro ⟨HC0, HO⟩
  -- wait for the second-round copy to have been read out: column half 0, distance 9
  sl_exec
  iapply (wait3 m c 0 9 (by decide) ((((((((others.erase 1).erase 2).erase 3).erase 4).erase 5).erase 6).erase 7).erase 8) (by decide) (by decide) K _ _ _ _ _ _ _ (by first | rfl | decide))
  isplitr; · iexact HI
  isplitl [HC0]; · iexact HC0
  isplitl [HO]; · iexact HO
  iintro ⟨HC0, HO⟩
  -- wait for the second-round copy to have been read out: column half 0, distance 10
  sl_exec
  iapply (wait3 m c 0 10 (by decide) (((((((((others.erase 1).erase 2).erase 3).erase 4).erase 5).erase 6).erase 7).erase 8).erase 9) (by decide) (by decide) K _ _ _ _ _ _ _ (by first | rfl | decide))
  isplitr; · iexact HI
  isplitl [HC0]; · iexact HC0
  isplitl [HO]; · iexact HO
  iintro ⟨HC0, HO⟩
  -- wait for the second-round copy to have been read out: column half 0, distance 11
  sl_exec
  iapply (wait3 m c 0 11 (by decide) ((((((((((others.erase 1).erase 2).erase 3).erase 4).erase 5).erase 6).erase 7).erase 8).erase 9).erase 10) (by decide) (by decide) K _ _ _ _ _ _ _ (by first | rfl | decide))
  isplitr; · iexact HI
  isplitl [HC0]; · iexact HC0
  isplitl [HO]; · iexact HO
  iintro ⟨HC0, HO⟩
  -- wait for the second-round copy to have been read out: column half 0, distance 12
  sl_exec
  iapply (wait3 m c 0 12 (by decide) (((((((((((others.erase 1).erase 2).erase 3).erase 4).erase 5).erase 6).erase 7).erase 8).erase 9).erase 10).erase 11) (by decide) (by decide) K _ _ _ _ _ _ _ (by first | rfl | decide))
  isplitr; · iexact HI
  isplitl [HC0]; · iexact HC0
  isplitl [HO]; · iexact HO
  iintro ⟨HC0, HO⟩
  -- wait for the second-round copy to have been read out: column half 0, distance 13
  sl_exec
  iapply (wait3 m c 0 13 (by decide) ((((((((((((others.erase 1).erase 2).erase 3).erase 4).erase 5).erase 6).erase 7).erase 8).erase 9).erase 10).erase 11).erase 12) (by decide) (by decide) K _ _ _ _ _ _ _ (by first | rfl | decide))
  isplitr; · iexact HI
  isplitl [HC0]; · iexact HC0
  isplitl [HO]; · iexact HO
  iintro ⟨HC0, HO⟩
  -- wait for the second-round copy to have been read out: column half 0, distance 14
  sl_exec
  iapply (wait3 m c 0 14 (by decide) (((((((((((((others.erase 1).erase 2).erase 3).erase 4).erase 5).erase 6).erase 7).erase 8).erase 9).erase 10).erase 11).erase 12).erase 13) (by decide) (by decide) K _ _ _ _ _ _ _ (by first | rfl | decide))
  isplitr; · iexact HI
  isplitl [HC0]; · iexact HC0
  isplitl [HO]; · iexact HO
  iintro ⟨HC0, HO⟩
  -- wait for the second-round copy to have been read out: column half 0, distance 15
  sl_exec
  iapply (wait3 m c 0 15 (by decide) ((((((((((((((others.erase 1).erase 2).erase 3).erase 4).erase 5).erase 6).erase 7).erase 8).erase 9).erase 10).erase 11).erase 12).erase 13).erase 14) (by decide) (by decide) K _ _ _ _ _ _ _ (by first | rfl | decide))
  isplitr; · iexact HI
  isplitl [HC0]; · iexact HC0
  isplitl [HO]; · iexact HO
  iintro ⟨HC0, HO⟩
  -- wait for the second-round copy to have been read out: column half 0, distance 16
  sl_exec
  iapply (wait3 m c 0 16 (by decide) (((((((((((((((others.erase 1).erase 2).erase 3).erase 4).erase 5).erase 6).erase 7).erase 8).erase 9).erase 10).erase 11).erase 12).erase 13).erase 14).erase 15) (by decide) (by decide) K _ _ _ _ _ _ _ (by first | rfl | decide))
  isplitr; · iexact HI
  isplitl [HC0]; · iexact HC0
  isplitl [HO]; · iexact HO
  iintro ⟨HC0, HO⟩
  -- wait for the second-round copy to have been read out: column half 0, distance 17
  sl_exec
  iapply (wait3 m c 0 17 (by decide) ((((((((((((((((others.erase 1).erase 2).erase 3).erase 4).erase 5).erase 6).erase 7).erase 8).erase 9).erase 10).erase 11).erase 12).erase 13).erase 14).erase 15).erase 16) (by decide) (by decide) K _ _ _ _ _ _ _ (by first | rfl | decide))
  isplitr; · iexact HI
  isplitl [HC0]; · iexact HC0
  isplitl [HO]; · iexact HO
  iintro ⟨HC0, HO⟩
  -- wait for the second-round copy to have been read out: column half 0, distance 18
  sl_exec
  iapply (wait3 m c 0 18 (by decide) (((((((((((((((((others.erase 1).erase 2).erase 3).erase 4).erase 5).erase 6).erase 7).erase 8).erase 9).erase 10).erase 11).erase 12).erase 13).erase 14).erase 15).erase 16).erase 17) (by decide) (by decide) K _ _ _ _ _ _ _ (by first | rfl | decide))
  isplitr; · iexact HI
  isplitl [HC0]; · iexact HC0
  isplitl [HO]; · iexact HO
  iintro ⟨HC0, HO⟩
  -- wait for the second-round copy to have been read out: column half 0, distance 19
  sl_exec
  iapply (wait3 m c 0 19 (by decide) ((((((((((((((((((others.erase 1).erase 2).erase 3).erase 4).erase 5).erase 6).erase 7).erase 8).erase 9).erase 10).erase 11).erase 12).erase 13).erase 14).erase 15).erase 16).erase 17).erase 18) (by decide) (by decide) K _ _ _ _ _ _ _ (by first | rfl | decide))
  isplitr; · iexact HI
  isplitl [HC0]; · iexact HC0
  isplitl [HO]; · iexact HO
  iintro ⟨HC0, HO⟩
  -- wait for the second-round copy to have been read out: column half 0, distance 20
  sl_exec
  iapply (wait3 m c 0 20 (by decide) (((((((((((((((((((others.erase 1).erase 2).erase 3).erase 4).erase 5).erase 6).erase 7).erase 8).erase 9).erase 10).erase 11).erase 12).erase 13).erase 14).erase 15).erase 16).erase 17).erase 18).erase 19) (by decide) (by decide) K _ _ _ _ _ _ _ (by first | rfl | decide))
  isplitr; · iexact HI
  isplitl [HC0]; · iexact HC0
  isplitl [HO]; · iexact HO
  iintro ⟨HC0, HO⟩
  -- wait for the second-round copy to have been read out: column half 0, distance 21
  sl_exec
  iapply (wait3 m c 0 21 (by decide) ((((((((((((((((((((others.erase 1).erase 2).erase 3).erase 4).erase 5).erase 6).erase 7).erase 8).erase 9).erase 10).erase 11).erase 12).erase 13).erase 14).erase 15).erase 16).erase 17).erase 18).erase 19).erase 20) (by decide) (by decide) K _ _ _ _ _ _ _ (by first | rfl | decide))
  isplitr; · iexact HI
  isplitl [HC0]; · iexact HC0
  isplitl [HO]; · iexact HO
  iintro ⟨HC0, HO⟩
  -- wait for the second-round copy to have been read out: column half 0, distance 22
  sl_exec
  iapply (wait3 m c 0 22 (by decide) (((((((((((((((((((((others.erase 1).erase 2).erase 3).erase 4).erase 5).erase 6).erase 7).erase 8).erase 9).erase 10).erase 11).erase 12).erase 13).erase 14).erase 15).erase 16).erase 17).erase 18).erase 19).erase 20).erase 21) (by decide) (by decide) K _ _ _ _ _ _ _ (by first | rfl | decide))
  isplitr; · iexact HI
  isplitl [HC0]; · iexact HC0
  isplitl [HO]; · iexact HO
  iintro ⟨HC0, HO⟩
  -- wait for the second-round copy to have been read out: column half 0, distance 23
  sl_exec
  iapply (wait3 m c 0 23 (by decide) ((((((((((((((((((((((others.erase 1).erase 2).erase 3).erase 4).erase 5).erase 6).erase 7).erase 8).erase 9).erase 10).erase 11).erase 12).erase 13).erase 14).erase 15).erase 16).erase 17).erase 18).erase 19).erase 20).erase 21).erase 22) (by decide) (by decide) K _ _ _ _ _ _ _ (by first | rfl | decide))
  isplitr; · iexact HI
  isplitl [HC0]; · iexact HC0
  isplitl [HO]; · iexact HO
  iintro ⟨HC0, HO⟩
  -- wait for the second-round copy to have been read out: column half 0, distance 24
  sl_exec
  iapply (wait3 m c 0 24 (by decide) (((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23) (by decide) (by decide) K _ _ _ _ _ _ _ (by first | rfl | decide))
  isplitr; · iexact HI
  isplitl [HC0]; · iexact HC0
  isplitl [HO]; · iexact HO
  iintro ⟨HC0, HO⟩
  -- wait for the second-round copy to have been read out: column half 0, distance 25
  sl_exec
  iapply (wait3 m c 0 25 (by decide) ((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24) (by decide) (by decide) K _ _ _ _ _ _ _ (by first | rfl | decide))
  isplitr; · iexact HI
  isplitl [HC0]; · iexact HC0
  isplitl [HO]; · iexact HO
  iintro ⟨HC0, HO⟩
  -- wait for the second-round copy to have been read out: column half 0, distance 26
  sl_exec
  iapply (wait3 m c 0 26 (by decide) (((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25) (by decide) (by decide) K _ _ _ _ _ _ _ (by first | rfl | decide))
  isplitr; · iexact HI
  isplitl [HC0]; · iexact HC0
  isplitl [HO]; · iexact HO
  iintro ⟨HC0, HO⟩
  -- wait for the second-round copy to have been read out: column half 0, distance 27
  sl_exec
  iapply (wait3 m c 0 27 (by decide) ((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26) (by decide) (by decide) K _ _ _ _ _ _ _ (by first | rfl | decide))
  isplitr; · iexact HI
  isplitl [HC0]; · iexact HC0
  isplitl [HO]; · iexact HO
  iintro ⟨HC0, HO⟩
  -- wait for the second-round copy to have been read out: column half 0, distance 28
  sl_exec
  iapply (wait3 m c 0 28 (by decide) (((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27) (by decide) (by decide) K _ _ _ _ _ _ _ (by first | rfl | decide))
  isplitr; · iexact HI
  isplitl [HC0]; · iexact HC0
  isplitl [HO]; · iexact HO
  iintro ⟨HC0, HO⟩
  -- wait for the second-round copy to have been read out: column half 0, distance 29
  sl_exec
  iapply (wait3 m c 0 29 (by decide) ((((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27).erase 28) (by decide) (by decide) K _ _ _ _ _ _ _ (by first | rfl | decide))
  isplitr; · iexact HI
  isplitl [HC0]; · iexact HC0
  isplitl [HO]; · iexact HO
  iintro ⟨HC0, HO⟩
  -- wait for the second-round copy to have been read out: column half 0, distance 30
  sl_exec
  iapply (wait3 m c 0 30 (by decide) (((((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27).erase 28).erase 29) (by decide) (by decide) K _ _ _ _ _ _ _ (by first | rfl | decide))
  isplitr; · iexact HI
  isplitl [HC0]; · iexact HC0
  isplitl [HO]; · iexact HO
  iintro ⟨HC0, HO⟩
  -- wait for the second-round copy to have been read out: column half 0, distance 31
  sl_exec
  iapply (wait3 m c 0 31 (by decide) ((((((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27).erase 28).erase 29).erase 30) (by decide) (by decide) K _ _ _ _ _ _ _ (by first | rfl | decide))
  isplitr; · iexact HI
  isplitl [HC0]; · iexact HC0
  isplitl [HO]; · iexact HO
  iintro ⟨HC0, HO⟩
  have hEst50 : ((((((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27).erase 28).erase 29).erase 30).erase 31 = (∅ : Finset (Fin 32)) := by decide
  ihave HC0 := (st5_done m c 0 _ hEst50) $$ HC0
  ihave HC1 := (st5_init m c 1) $$ HC1
  -- wait for the second-round copy to have been read out: column half 1, distance 1
  sl_exec
  iapply (wait3 m c 1 1 (by decide) others (by decide) (by decide) K _ _ _ _ _ _ _ (by first | rfl | decide))
  isplitr; · iexact HI
  isplitl [HC1]; · iexact HC1
  isplitl [HO]; · iexact HO
  iintro ⟨HC1, HO⟩
  -- wait for the second-round copy to have been read out: column half 1, distance 2
  sl_exec
  iapply (wait3 m c 1 2 (by decide) (others.erase 1) (by decide) (by decide) K _ _ _ _ _ _ _ (by first | rfl | decide))
  isplitr; · iexact HI
  isplitl [HC1]; · iexact HC1
  isplitl [HO]; · iexact HO
  iintro ⟨HC1, HO⟩
  -- wait for the second-round copy to have been read out: column half 1, distance 3
  sl_exec
  iapply (wait3 m c 1 3 (by decide) ((others.erase 1).erase 2) (by decide) (by decide) K _ _ _ _ _ _ _ (by first | rfl | decide))
  isplitr; · iexact HI
  isplitl [HC1]; · iexact HC1
  isplitl [HO]; · iexact HO
  iintro ⟨HC1, HO⟩
  -- wait for the second-round copy to have been read out: column half 1, distance 4
  sl_exec
  iapply (wait3 m c 1 4 (by decide) (((others.erase 1).erase 2).erase 3) (by decide) (by decide) K _ _ _ _ _ _ _ (by first | rfl | decide))
  isplitr; · iexact HI
  isplitl [HC1]; · iexact HC1
  isplitl [HO]; · iexact HO
  iintro ⟨HC1, HO⟩
  -- wait for the second-round copy to have been read out: column half 1, distance 5
  sl_exec
  iapply (wait3 m c 1 5 (by decide) ((((others.erase 1).erase 2).erase 3).erase 4) (by decide) (by decide) K _ _ _ _ _ _ _ (by first | rfl | decide))
  isplitr; · iexact HI
  isplitl [HC1]; · iexact HC1
  isplitl [HO]; · iexact HO
  iintro ⟨HC1, HO⟩
  -- wait for the second-round copy to have been read out: column half 1, distance 6
  sl_exec
  iapply (wait3 m c 1 6 (by decide) (((((others.erase 1).erase 2).erase 3).erase 4).erase 5) (by decide) (by decide) K _ _ _ _ _ _ _ (by first | rfl | decide))
  isplitr; · iexact HI
  isplitl [HC1]; · iexact HC1
  isplitl [HO]; · iexact HO
  iintro ⟨HC1, HO⟩
  -- wait for the second-round copy to have been read out: column half 1, distance 7
  sl_exec
  iapply (wait3 m c 1 7 (by decide) ((((((others.erase 1).erase 2).erase 3).erase 4).erase 5).erase 6) (by decide) (by decide) K _ _ _ _ _ _ _ (by first | rfl | decide))
  isplitr; · iexact HI
  isplitl [HC1]; · iexact HC1
  isplitl [HO]; · iexact HO
  iintro ⟨HC1, HO⟩
  -- wait for the second-round copy to have been read out: column half 1, distance 8
  sl_exec
  iapply (wait3 m c 1 8 (by decide) (((((((others.erase 1).erase 2).erase 3).erase 4).erase 5).erase 6).erase 7) (by decide) (by decide) K _ _ _ _ _ _ _ (by first | rfl | decide))
  isplitr; · iexact HI
  isplitl [HC1]; · iexact HC1
  isplitl [HO]; · iexact HO
  iintro ⟨HC1, HO⟩
  -- wait for the second-round copy to have been read out: column half 1, distance 9
  sl_exec
  iapply (wait3 m c 1 9 (by decide) ((((((((others.erase 1).erase 2).erase 3).erase 4).erase 5).erase 6).erase 7).erase 8) (by decide) (by decide) K _ _ _ _ _ _ _ (by first | rfl | decide))
  isplitr; · iexact HI
  isplitl [HC1]; · iexact HC1
  isplitl [HO]; · iexact HO
  iintro ⟨HC1, HO⟩
  -- wait for the second-round copy to have been read out: column half 1, distance 10
  sl_exec
  iapply (wait3 m c 1 10 (by decide) (((((((((others.erase 1).erase 2).erase 3).erase 4).erase 5).erase 6).erase 7).erase 8).erase 9) (by decide) (by decide) K _ _ _ _ _ _ _ (by first | rfl | decide))
  isplitr; · iexact HI
  isplitl [HC1]; · iexact HC1
  isplitl [HO]; · iexact HO
  iintro ⟨HC1, HO⟩
  -- wait for the second-round copy to have been read out: column half 1, distance 11
  sl_exec
  iapply (wait3 m c 1 11 (by decide) ((((((((((others.erase 1).erase 2).erase 3).erase 4).erase 5).erase 6).erase 7).erase 8).erase 9).erase 10) (by decide) (by decide) K _ _ _ _ _ _ _ (by first | rfl | decide))
  isplitr; · iexact HI
  isplitl [HC1]; · iexact HC1
  isplitl [HO]; · iexact HO
  iintro ⟨HC1, HO⟩
  -- wait for the second-round copy to have been read out: column half 1, distance 12
  sl_exec
  iapply (wait3 m c 1 12 (by decide) (((((((((((others.erase 1).erase 2).erase 3).erase 4).erase 5).erase 6).erase 7).erase 8).erase 9).erase 10).erase 11) (by decide) (by decide) K _ _ _ _ _ _ _ (by first | rfl | decide))
  isplitr; · iexact HI
  isplitl [HC1]; · iexact HC1
  isplitl [HO]; · iexact HO
  iintro ⟨HC1, HO⟩
  -- wait for the second-round copy to have been read out: column half 1, distance 13
  sl_exec
  iapply (wait3 m c 1 13 (by decide) ((((((((((((others.erase 1).erase 2).erase 3).erase 4).erase 5).erase 6).erase 7).erase 8).erase 9).erase 10).erase 11).erase 12) (by decide) (by decide) K _ _ _ _ _ _ _ (by first | rfl | decide))
  isplitr; · iexact HI
  isplitl [HC1]; · iexact HC1
  isplitl [HO]; · iexact HO
  iintro ⟨HC1, HO⟩
  -- wait for the second-round copy to have been read out: column half 1, distance 14
  sl_exec
  iapply (wait3 m c 1 14 (by decide) (((((((((((((others.erase 1).erase 2).erase 3).erase 4).erase 5).erase 6).erase 7).erase 8).erase 9).erase 10).erase 11).erase 12).erase 13) (by decide) (by decide) K _ _ _ _ _ _ _ (by first | rfl | decide))
  isplitr; · iexact HI
  isplitl [HC1]; · iexact HC1
  isplitl [HO]; · iexact HO
  iintro ⟨HC1, HO⟩
  -- wait for the second-round copy to have been read out: column half 1, distance 15
  sl_exec
  iapply (wait3 m c 1 15 (by decide) ((((((((((((((others.erase 1).erase 2).erase 3).erase 4).erase 5).erase 6).erase 7).erase 8).erase 9).erase 10).erase 11).erase 12).erase 13).erase 14) (by decide) (by decide) K _ _ _ _ _ _ _ (by first | rfl | decide))
  isplitr; · iexact HI
  isplitl [HC1]; · iexact HC1
  isplitl [HO]; · iexact HO
  iintro ⟨HC1, HO⟩
  -- wait for the second-round copy to have been read out: column half 1, distance 16
  sl_exec
  iapply (wait3 m c 1 16 (by decide) (((((((((((((((others.erase 1).erase 2).erase 3).erase 4).erase 5).erase 6).erase 7).erase 8).erase 9).erase 10).erase 11).erase 12).erase 13).erase 14).erase 15) (by decide) (by decide) K _ _ _ _ _ _ _ (by first | rfl | decide))
  isplitr; · iexact HI
  isplitl [HC1]; · iexact HC1
  isplitl [HO]; · iexact HO
  iintro ⟨HC1, HO⟩
  -- wait for the second-round copy to have been read out: column half 1, distance 17
  sl_exec
  iapply (wait3 m c 1 17 (by decide) ((((((((((((((((others.erase 1).erase 2).erase 3).erase 4).erase 5).erase 6).erase 7).erase 8).erase 9).erase 10).erase 11).erase 12).erase 13).erase 14).erase 15).erase 16) (by decide) (by decide) K _ _ _ _ _ _ _ (by first | rfl | decide))
  isplitr; · iexact HI
  isplitl [HC1]; · iexact HC1
  isplitl [HO]; · iexact HO
  iintro ⟨HC1, HO⟩
  -- wait for the second-round copy to have been read out: column half 1, distance 18
  sl_exec
  iapply (wait3 m c 1 18 (by decide) (((((((((((((((((others.erase 1).erase 2).erase 3).erase 4).erase 5).erase 6).erase 7).erase 8).erase 9).erase 10).erase 11).erase 12).erase 13).erase 14).erase 15).erase 16).erase 17) (by decide) (by decide) K _ _ _ _ _ _ _ (by first | rfl | decide))
  isplitr; · iexact HI
  isplitl [HC1]; · iexact HC1
  isplitl [HO]; · iexact HO
  iintro ⟨HC1, HO⟩
  -- wait for the second-round copy to have been read out: column half 1, distance 19
  sl_exec
  iapply (wait3 m c 1 19 (by decide) ((((((((((((((((((others.erase 1).erase 2).erase 3).erase 4).erase 5).erase 6).erase 7).erase 8).erase 9).erase 10).erase 11).erase 12).erase 13).erase 14).erase 15).erase 16).erase 17).erase 18) (by decide) (by decide) K _ _ _ _ _ _ _ (by first | rfl | decide))
  isplitr; · iexact HI
  isplitl [HC1]; · iexact HC1
  isplitl [HO]; · iexact HO
  iintro ⟨HC1, HO⟩
  -- wait for the second-round copy to have been read out: column half 1, distance 20
  sl_exec
  iapply (wait3 m c 1 20 (by decide) (((((((((((((((((((others.erase 1).erase 2).erase 3).erase 4).erase 5).erase 6).erase 7).erase 8).erase 9).erase 10).erase 11).erase 12).erase 13).erase 14).erase 15).erase 16).erase 17).erase 18).erase 19) (by decide) (by decide) K _ _ _ _ _ _ _ (by first | rfl | decide))
  isplitr; · iexact HI
  isplitl [HC1]; · iexact HC1
  isplitl [HO]; · iexact HO
  iintro ⟨HC1, HO⟩
  -- wait for the second-round copy to have been read out: column half 1, distance 21
  sl_exec
  iapply (wait3 m c 1 21 (by decide) ((((((((((((((((((((others.erase 1).erase 2).erase 3).erase 4).erase 5).erase 6).erase 7).erase 8).erase 9).erase 10).erase 11).erase 12).erase 13).erase 14).erase 15).erase 16).erase 17).erase 18).erase 19).erase 20) (by decide) (by decide) K _ _ _ _ _ _ _ (by first | rfl | decide))
  isplitr; · iexact HI
  isplitl [HC1]; · iexact HC1
  isplitl [HO]; · iexact HO
  iintro ⟨HC1, HO⟩
  -- wait for the second-round copy to have been read out: column half 1, distance 22
  sl_exec
  iapply (wait3 m c 1 22 (by decide) (((((((((((((((((((((others.erase 1).erase 2).erase 3).erase 4).erase 5).erase 6).erase 7).erase 8).erase 9).erase 10).erase 11).erase 12).erase 13).erase 14).erase 15).erase 16).erase 17).erase 18).erase 19).erase 20).erase 21) (by decide) (by decide) K _ _ _ _ _ _ _ (by first | rfl | decide))
  isplitr; · iexact HI
  isplitl [HC1]; · iexact HC1
  isplitl [HO]; · iexact HO
  iintro ⟨HC1, HO⟩
  -- wait for the second-round copy to have been read out: column half 1, distance 23
  sl_exec
  iapply (wait3 m c 1 23 (by decide) ((((((((((((((((((((((others.erase 1).erase 2).erase 3).erase 4).erase 5).erase 6).erase 7).erase 8).erase 9).erase 10).erase 11).erase 12).erase 13).erase 14).erase 15).erase 16).erase 17).erase 18).erase 19).erase 20).erase 21).erase 22) (by decide) (by decide) K _ _ _ _ _ _ _ (by first | rfl | decide))
  isplitr; · iexact HI
  isplitl [HC1]; · iexact HC1
  isplitl [HO]; · iexact HO
  iintro ⟨HC1, HO⟩
  -- wait for the second-round copy to have been read out: column half 1, distance 24
  sl_exec
  iapply (wait3 m c 1 24 (by decide) (((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23) (by decide) (by decide) K _ _ _ _ _ _ _ (by first | rfl | decide))
  isplitr; · iexact HI
  isplitl [HC1]; · iexact HC1
  isplitl [HO]; · iexact HO
  iintro ⟨HC1, HO⟩
  -- wait for the second-round copy to have been read out: column half 1, distance 25
  sl_exec
  iapply (wait3 m c 1 25 (by decide) ((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24) (by decide) (by decide) K _ _ _ _ _ _ _ (by first | rfl | decide))
  isplitr; · iexact HI
  isplitl [HC1]; · iexact HC1
  isplitl [HO]; · iexact HO
  iintro ⟨HC1, HO⟩
  -- wait for the second-round copy to have been read out: column half 1, distance 26
  sl_exec
  iapply (wait3 m c 1 26 (by decide) (((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25) (by decide) (by decide) K _ _ _ _ _ _ _ (by first | rfl | decide))
  isplitr; · iexact HI
  isplitl [HC1]; · iexact HC1
  isplitl [HO]; · iexact HO
  iintro ⟨HC1, HO⟩
  -- wait for the second-round copy to have been read out: column half 1, distance 27
  sl_exec
  iapply (wait3 m c 1 27 (by decide) ((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26) (by decide) (by decide) K _ _ _ _ _ _ _ (by first | rfl | decide))
  isplitr; · iexact HI
  isplitl [HC1]; · iexact HC1
  isplitl [HO]; · iexact HO
  iintro ⟨HC1, HO⟩
  -- wait for the second-round copy to have been read out: column half 1, distance 28
  sl_exec
  iapply (wait3 m c 1 28 (by decide) (((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27) (by decide) (by decide) K _ _ _ _ _ _ _ (by first | rfl | decide))
  isplitr; · iexact HI
  isplitl [HC1]; · iexact HC1
  isplitl [HO]; · iexact HO
  iintro ⟨HC1, HO⟩
  -- wait for the second-round copy to have been read out: column half 1, distance 29
  sl_exec
  iapply (wait3 m c 1 29 (by decide) ((((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27).erase 28) (by decide) (by decide) K _ _ _ _ _ _ _ (by first | rfl | decide))
  isplitr; · iexact HI
  isplitl [HC1]; · iexact HC1
  isplitl [HO]; · iexact HO
  iintro ⟨HC1, HO⟩
  -- wait for the second-round copy to have been read out: column half 1, distance 30
  sl_exec
  iapply (wait3 m c 1 30 (by decide) (((((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27).erase 28).erase 29) (by decide) (by decide) K _ _ _ _ _ _ _ (by first | rfl | decide))
  isplitr; · iexact HI
  isplitl [HC1]; · iexact HC1
  isplitl [HO]; · iexact HO
  iintro ⟨HC1, HO⟩
  -- wait for the second-round copy to have been read out: column half 1, distance 31
  sl_exec
  iapply (wait3 m c 1 31 (by decide) ((((((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27).erase 28).erase 29).erase 30) (by decide) (by decide) K _ _ _ _ _ _ _ (by first | rfl | decide))
  isplitr; · iexact HI
  isplitl [HC1]; · iexact HC1
  isplitl [HO]; · iexact HO
  iintro ⟨HC1, HO⟩
  have hEst51 : ((((((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27).erase 28).erase 29).erase 30).erase 31 = (∅ : Finset (Fin 32)) := by decide
  ihave HC1 := (st5_done m c 1 _ hEst51) $$ HC1
  -- the return: every cell closed, the three scratch buffers whole again
  simp only [wp_pure, wp_ret]
  imod (ending m K c) $$ [Hz HC0 HC1 Hrem0 Hrem1 Hcols0 Hcols1 HP00 HP01] with HPhi
  · isplitr; · iexact HI
    isplitl [Hz]; · iexact Hz
    isplitl [HC0]; · iexact HC0
    isplitl [HC1]; · iexact HC1
    isplitl [Hrem0]; · iexact Hrem0
    isplitl [Hrem1]; · iexact Hrem1
    isplitl [Hcols0]; · iexact Hcols0
    isplitl [Hcols1]; · iexact Hcols1
    isplitl [HP00]; · iexact HP00
    iexact HP01
  imodintro
  imodintro
  unfold bodyPost Dat.owesAt Pipeline.owesWithin
  rw [show (datsX m 0 c).owed t0_0.succ = 0 from rfl]
  isplitl [HPhi]; · iexact HPhi
  isplitl [HO]
  · iexists _
    isplitr
    rotate_left
    · iexact HO
    · ipureintro; exact fun _ _ => Or.inl trivial
  isplitl [H0]
  · iexists _; isplitr; · (ipureintro; rfl)
    iexact H0
  isplitl [H1]
  · iexists _; isplitr; · (ipureintro; rfl)
    iexact H1
  iexists _
  isplitr
  rotate_left
  · iexact H2
  · ipureintro
    rw [View.writes_singleton]
    exact Memref.write_access_unit_zero_univ (Elt F) cc0_stg2_0 hz2 _ _ _

theorem body_obligation (c : Dev nD) :
    Pipeline.BodyObligationLoose (datsX (F := F) m 0 c) (defs₀ (F := F)) 𝒱₀ () Set.univ := fun t => by
  rw [fin_N0 t]
  rw [bigSep_W0, bigSep_W0]
  simp only [owns_whole_eq]
  show bodyPre m c ⊢ wp frame (wpE (defs₀ (F := F)) 𝒱₀ c none) Set.univ
    (cc0_body (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) (Memref.whole cc0_scratch1) (Memref.isWhole_whole _) (Memref.whole cc0_scratch2) (Memref.isWhole_whole _)
      cc0_scratch3 cc0_scratch4 cc0_scratch5) (fun _ => bodyPost m c)
  exact body_run m c

/-- Every weakly fair execution of the kernel on the 32 devices terminates without a fault; every device's result
    array ends holding the clamped sums of all devices' product slots, as 512 × 512, and its two argument arrays
    end unchanged. -/
theorem kernel_run :
    θ_run (defs (F := F)) (onTc (τ := τ) (main (F := F))) ⟨m, fun _ => 0, ρ⟩ (fun r => ∀ c : Dev nD,
      r.2.mem ((c.tc : Thread nD τ).loc main_v1) = outAt m
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  kernel_run_of_body m ρ (body_obligation m)

/-- info: 'Cert.KernelIdeal.Proto.kernel_run' depends on axioms: [propext, Classical.choice, Quot.sound] -/
#guard_msgs in #print axioms kernel_run

end Cert.KernelIdeal.Proto

end
-- ==== Proof.WCells.lean ====
import proofs.«900454_g7700000000000455_dist_matmul_relu_kshard_i_m512_n512_k256_v7x_i32_f32_1_alg».proof.Proof.Gen.Kernel
import proofs.«900454_g7700000000000455_dist_matmul_relu_kshard_i_m512_n512_k256_v7x_i32_f32_1_alg».proof.Proof.Gen.Kernel.Skeleton
import proofs.«900454_g7700000000000455_dist_matmul_relu_kshard_i_m512_n512_k256_v7x_i32_f32_1_alg».proof.Proof.Gen.Kernel.Launch
import Idealize.ShloMosaic.Lib.Pipeline.Launch
import Idealize.ShloMosaic.Lib.Pipeline.Kit
import Idealize.ShloMosaic.Lib.Tactic

set_option maxRecDepth 16384

noncomputable section

namespace Cert.Kernel.Proto

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy beside the protocol's rounds (duties named by a device) -/

abbrev UB : Type := URounds (GSem nD τ sig) (Fin 32)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Devices on the ring of 32 -/

/-- The device `d` places after `c`. -/
def fwd (c : Dev nD) (d : Fin 32) : Dev nD := ⟨(c.val + d.val) % 32, Nat.mod_lt _ (by decide)⟩
/-- The device `d` places before `c`. -/
def bwd (c : Dev nD) (d : Fin 32) : Dev nD := ⟨(c.val + 32 - d.val) % 32, Nat.mod_lt _ (by decide)⟩

theorem bwd_fwd (c : Dev nD) (d : Fin 32) : bwd (fwd c d) d = c := by
  apply Fin.ext; have hc : c.val < 32 := c.isLt; have := d.isLt
  show ((c.val + d.val) % 32 + 32 - d.val) % 32 = c.val; omega
theorem fwd_bwd (c : Dev nD) (d : Fin 32) : fwd (bwd c d) d = c := by
  apply Fin.ext; have hc : c.val < 32 := c.isLt; have := d.isLt
  show ((c.val + 32 - d.val) % 32 + d.val) % 32 = c.val; omega

/-! ## The three scratch buffers and their slots

Each of the three scratch buffers is 32 slots of 16 rows; a slot is moved in two column halves. -/

abbrev partM : Memref sig .tc .vmem S32x16x512 .bf16 := Memref.whole cc0_scratch0
abbrev gathM : Memref sig .tc .vmem S32x16x512 .bf16 := Memref.whole cc0_scratch1
abbrev resM : Memref sig .tc .vmem S32x16x512 .bf16 := Memref.whole cc0_scratch2

theorem slot_inb (t : Fin 32) (h : Fin 2) : ∀ a, (![t.val, 0, 256 * h.val] : Fin 3 → Nat) a + S1x16x256.size a ≤ S32x16x512.size a := by
  intro a
  have := t.isLt; have := h.isLt
  match a with
  | ⟨0, _⟩ => show t.val + 1 ≤ 32; omega
  | ⟨1, _⟩ => show 0 + 16 ≤ 16; omega
  | ⟨2, _⟩ => show 256 * h.val + 256 ≤ 512; omega

/-- Half `h` of slot `t`: rows of slot `t`, columns `256 h … 256 h + 255`. -/
def slot (t : Fin 32) (h : Fin 2) : Rect S32x16x512 := Rect.unit (s := S32x16x512) ![t.val, 0, 256 * h.val] S1x16x256.size (slot_inb t h)

theorem mem_slot {t : Fin 32} {h : Fin 2} {i : S32x16x512.Idx} :
    i ∈ (slot t h).set ↔ (i 0).val = t.val ∧ 256 * h.val ≤ (i 2).val ∧ (i 2).val < 256 * h.val + 256 := by
  unfold slot
  rw [Rect.mem_set_unit]
  constructor
  · intro H
    have h0 : t.val ≤ (i 0).val ∧ (i 0).val < t.val + 1 := H 0
    have h2 : 256 * h.val ≤ (i 2).val ∧ (i 2).val < 256 * h.val + 256 := H 2
    exact ⟨by omega, h2.1, h2.2⟩
  · rintro ⟨e0, lo, hi⟩ a
    have h1 := (i 1).isLt
    match a with
    | ⟨0, _⟩ => exact ⟨by show t.val ≤ (i 0).val; omega, by show (i 0).val < t.val + 1; omega⟩
    | ⟨1, _⟩ => exact ⟨Nat.zero_le _, by show (i 1).val < 0 + 16; have : (i 1).val < 16 := (i 1).isLt; omega⟩
    | ⟨2, _⟩ => exact ⟨lo, hi⟩

/-- The DMA credit of one half slot. -/
abbrev N : ℕ := ((partM : Memref sig .tc .vmem S32x16x512 .bf16).slice (slot 0 0) (fun _ => rfl)).view.dmaCredit

/-! ## The cells -/

abbrev barS : Sem sig := (SemArray.scalar (sig.barrier 0 rfl) : Sems sig S_).sem

theorem sem_inb (h : Fin 2) (d : Fin 32) : ∀ a, (![h.val, d.val] : Fin 2 → Nat) a + S1x1.size a ≤ S2x32.size a := by
  intro a
  have := h.isLt; have := d.isLt
  match a with
  | ⟨0, _⟩ => show h.val + 1 ≤ 2; omega
  | ⟨1, _⟩ => show d.val + 1 ≤ 32; omega

/-- Entry `(h, d)` of a 2 × 32 array of DMA semaphores. -/
def semAt (A : DmaSems sig S2x32) (h : Fin 2) (d : Fin 32) : DmaSem sig :=
  ((A.slice (Rect.unit (s := S2x32) ![h.val, d.val] S1x1.size (sem_inb h d))).squeeze S_ squeezes_S1x1_S_).sem

abbrev barCell (c : Dev nD) : GSem nD τ sig := ((c : Thread nD τ), .reg barS)
abbrev sendCell (c : Dev nD) (h : Fin 2) (d : Fin 32) : GSem nD τ sig := ((c : Thread nD τ), .dma (semAt cc0_scratch3 h d))
abbrev recv1Cell (c : Dev nD) (h : Fin 2) (d : Fin 32) : GSem nD τ sig := ((c : Thread nD τ), .dma (semAt cc0_scratch4 h d))
abbrev recv2Cell (c : Dev nD) (h : Fin 2) (d : Fin 32) : GSem nD τ sig := ((c : Thread nD τ), .dma (semAt cc0_scratch5 h d))

end Cert.Kernel.Proto

end
-- ==== Proof.WSched.lean ====
import proofs.«900454_g7700000000000455_dist_matmul_relu_kshard_i_m512_n512_k256_v7x_i32_f32_1_alg».proof.Proof.Gen.Kernel
import proofs.«900454_g7700000000000455_dist_matmul_relu_kshard_i_m512_n512_k256_v7x_i32_f32_1_alg».proof.Proof.Gen.Kernel.Skeleton
import proofs.«900454_g7700000000000455_dist_matmul_relu_kshard_i_m512_n512_k256_v7x_i32_f32_1_alg».proof.Proof.Gen.Kernel.Launch
import proofs.«900454_g7700000000000455_dist_matmul_relu_kshard_i_m512_n512_k256_v7x_i32_f32_1_alg».proof.Proof.WCells
import Idealize.ShloMosaic.Lib.Pipeline.Launch
import Idealize.ShloMosaic.Lib.Pipeline.Kit
import Idealize.ShloMosaic.Lib.Tactic

set_option maxRecDepth 16384

noncomputable section

namespace Cert.Kernel.Proto

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What the buffers hold

Device `c` is launched with block `c` of the two arguments. Its product block, read as 32 slots of 16 rows, fills its
first scratch buffer; slot `d` of its second scratch buffer receives slot `c` of the product block of the device
`d` places before it; the sum of the 32 received slots, clamped below at zero, is slot `c` of the result, and every
device ends with every slot of the result in its third scratch buffer. -/

/-- The contents of a 32 × 16 × 512 scratch buffer. -/
abbrev Scr (F : FTy → Type) : Type := (cc0_scratch0 : Ref sig .tc).ty.Contents (Elt F)

/-- Device `c`'s block of argument `w`, as staged for the one grid point. -/
def argBlk0 (c : Dev nD) : Vec F S512x256 .f32 :=
  (win0_0.blk (0 : Fin 1)).view.read (Elt F) (m ((c : Thread nD τ).loc main_arg0))
def argBlk1 (c : Dev nD) : Vec F S256x512 .f32 :=
  (win0_1.blk (0 : Fin 1)).view.read (Elt F) (m ((c : Thread nD τ).loc main_arg1))

/-- Device `c`'s product block: slot `t` holds rows `16 t … 16 t + 15` of `A_c · B_c`. -/
def partC (c : Dev nD) : Scr F := k0_pay1 (argBlk0 m c) (argBlk1 m c)

/-- An index of a scratch buffer with its slot coordinate replaced. -/
def atSlot (t : Fin 32) (i : S32x16x512.Idx) : S32x16x512.Idx := fun a =>
  match a with
  | ⟨0, _⟩ => (⟨t.val, t.isLt⟩ : Fin 32)
  | ⟨1, _⟩ => i 1
  | ⟨2, _⟩ => i 2

/-- What device `c` gathers: slot `d` is slot `c` of the product block of the device `d` places before `c`. -/
def gathC (c : Dev nD) : Scr F := fun i => partC m (bwd c (i 0)) (atSlot c i)

/-- Column half `h` of all 32 slots. -/
theorem cols_inb (h : Fin 2) : ∀ a, (![0, 0, 256 * h.val] : Fin 3 → Nat) a + S32x16x256.size a ≤ S32x16x512.size a := by
  intro a
  have := h.isLt
  match a with
  | ⟨0, _⟩ => show 0 + 32 ≤ 32; omega
  | ⟨1, _⟩ => show 0 + 16 ≤ 16; omega
  | ⟨2, _⟩ => show 256 * h.val + 256 ≤ 512; omega
def cols (h : Fin 2) : Rect S32x16x512 := Rect.unit (s := S32x16x512) ![0, 0, 256 * h.val] S32x16x256.size (cols_inb h)

/-- Half `h` of device `c`'s own result slot: the gathered slots summed and clamped. -/
def ownRes (c : Dev nD) (h : Fin 2) : FVec F S1x16x256 .bf16 :=
  if h = 0 then k0_pay3 ((gathM : Memref sig .tc .vmem S32x16x512 .bf16).view.readAt (Elt F) (cols h).toLoadRect (gathC m c))
  else k0_pay4 ((gathM : Memref sig .tc .vmem S32x16x512 .bf16).view.readAt (Elt F) (cols h).toLoadRect (gathC m c))

/-- An index into a half slot from one into the whole buffer. -/
def inHalf (i : S32x16x512.Idx) : S1x16x256.Idx := fun a =>
  match a with
  | ⟨0, _⟩ => (⟨0, by decide⟩ : Fin 1)
  | ⟨1, _⟩ => i 1
  | ⟨2, _⟩ => (⟨(i 2).val % 256, Nat.mod_lt _ (by decide)⟩ : Fin 256)

/-- The whole result as every device ends up holding it: slot `s` is device `s`'s own result slot. -/
def resC : Scr F := fun i =>
  ownRes m (⟨(i 0).val, (i 0).isLt⟩ : Fin 32) (⟨(i 2).val / 256, by have := (i 2).isLt; show (i 2).val / 256 < 2; have : (i 2).val < 512 := (i 2).isLt; omega⟩ : Fin 2) (inHalf i)

/-! ## Shares of a result slot: 31 copies read it at once, and the device itself once more -/

def remShr : ℕ → PosShare TreeShare
  | 0 => fullShare
  | k + 1 => (remShr k).right
/-- The share the `d`-th outgoing copy of a result slot holds (`d ≥ 1`). -/
def sendShr (d : ℕ) : PosShare TreeShare := (remShr (d - 1)).left

open scoped Idealize.SL.RA.PCS in
theorem remShr_split (k : ℕ) : remShr k ∈ sendShr (k + 1) ·? remShr (k + 1) :=
  (remShr k).mem_left_op_right

/-! ## The payloads -/

/-- Half `h` of slot `t` of each scratch buffer of device `c`, held at share `q` with the buffer's contents `f`. -/
def partPts (c : Dev nD) (t : Fin 32) (h : Fin 2) (q : PosShare TreeShare) (f : Scr F) : sProp 𝕄 :=
  ((c : Thread nD τ).loc cc0_scratch0) ↦[(slot t h).set]{q} f
def gathPts (c : Dev nD) (t : Fin 32) (h : Fin 2) (q : PosShare TreeShare) (f : Scr F) : sProp 𝕄 :=
  ((c : Thread nD τ).loc cc0_scratch1) ↦[(slot t h).set]{q} f
def resPts (c : Dev nD) (t : Fin 32) (h : Fin 2) (q : PosShare TreeShare) (f : Scr F) : sProp 𝕄 :=
  ((c : Thread nD τ).loc cc0_scratch2) ↦[(slot t h).set]{q} f

theorem N_pos : 0 < N := View.dmaCredit_pos _ (by decide)

/-! ## The schedule

One cell per semaphore the protocol uses. The barrier cell of device 0 has one duty per other device (one unit each);
the barrier cell of any other device one duty, device 0's. A send cell has two rounds of one duty (the copy of a
product slot, then the copy of the result slot); a receive cell one round of one duty. -/

/-- Which of the kernel's three arrays of DMA semaphores a semaphore is in (0 send, 1 first receive, 2 second
    receive), and at which `(h, d)`. The arrays are consecutive, 64 semaphores each, after the three staging ones. -/
def semKind (q : DmaSem sig) : Option (Fin 3 × Fin 2 × Fin 32) :=
  if hq : 3 ≤ q.val ∧ q.val < 195 then
    some (⟨(q.val - 3) / 64, by omega⟩, ⟨(q.val - 3) % 64 / 32, by omega⟩, ⟨(q.val - 3) % 32, Nat.mod_lt _ (by decide)⟩)
  else none

theorem semKind_send : ∀ (h : Fin 2) (d : Fin 32), semKind (semAt cc0_scratch3 h d) = some (0, h, d) := by decide +kernel
theorem semKind_recv1 : ∀ (h : Fin 2) (d : Fin 32), semKind (semAt cc0_scratch4 h d) = some (1, h, d) := by decide +kernel
theorem semKind_recv2 : ∀ (h : Fin 2) (d : Fin 32), semKind (semAt cc0_scratch5 h d) = some (2, h, d) := by decide +kernel

/-- The other devices' places: `d = 1 … 31`. -/
abbrev others : Finset (Fin 32) := Finset.univ.filter (· ≠ 0)

/-- What device `j` gives away at entry: every slot another device will write into, at whatever it holds, and
    that it has reached round 0 of the two cells the writer will credit. -/
def give (j : Dev nD) : sProp 𝕄 :=
  bigSep (Finset.univ : Finset (Fin 2)) fun h => bigSep others fun d =>
    iprop((∃ f, gathPts j d h fullShare f) ∗ (∃ f, resPts j (bwd j d) h fullShare f)
      ∗ reached ER (recv1Cell j h d) 0 ∗ reached ER (recv2Cell j h d) 0)

/-- What device `c` needs before its copies: the slots it will write into on the devices after it, and that
    each of those has reached round 0 of the cells the copies credit. -/
def take (c : Dev nD) : sProp 𝕄 :=
  bigSep (Finset.univ : Finset (Fin 2)) fun h => bigSep others fun d =>
    iprop((∃ f, gathPts (fwd c d) d h fullShare f) ∗ (∃ f, resPts (fwd c d) c h fullShare f)
      ∗ reached ER (recv1Cell (fwd c d) h d) 0 ∗ reached ER (recv2Cell (fwd c d) h d) 0)

/-- The payload of the one duty of round `r` of DMA cell `(k, h, d)` of device `c`. -/
def dmaPay (c : Dev nD) (k : Fin 3) (h : Fin 2) (d : Fin 32) (r : ℕ) : sProp 𝕄 :=
  if k = 0 then (if r = 0 then partPts c (fwd c d) h fullShare (partC m c) else resPts c c h (sendShr d.val) (resC m))
  else if k = 1 then gathPts c d h fullShare (gathC m c)
  else resPts c (bwd c d) h fullShare (resC m)

def sched : Rounds.Schedule (GSem nD τ sig) (Fin 32) 𝕄 where
  duties g r :=
    if g.1.2 = .tc then
      match g.2 with
      | .reg s => if s = barS ∧ r = 0 then (if g.1.1.val = 0 then others else {0}) else ∅
      | .dma q =>
        match semKind q with
        | some (k, _, d) => if d ≠ 0 ∧ (r = 0 ∨ (k = 0 ∧ r = 1)) then {0} else ∅
        | none => ∅
    else ∅
  unitless _ := False
  amount g _ _ := match g.2 with | .reg _ => 1 | .dma _ => N
  payload g r j :=
    match g.2 with
    | .reg _ => if g.1.1.val = 0 then give j else take g.1.1
    | .dma q =>
      match semKind q with
      | some (k, h, d) => dmaPay m g.1.1 k h d r
      | none => iprop(emp)
  amount_pos g _ _ _ := by
    cases g.2 with
    | reg _ => exact Nat.one_pos
    | dma _ => exact N_pos

end Cert.Kernel.Proto

end
-- ==== Proof.WTables.lean ====
import proofs.«900454_g7700000000000455_dist_matmul_relu_kshard_i_m512_n512_k256_v7x_i32_f32_1_alg».proof.Proof.Gen.Kernel
import proofs.«900454_g7700000000000455_dist_matmul_relu_kshard_i_m512_n512_k256_v7x_i32_f32_1_alg».proof.Proof.Gen.Kernel.Skeleton
import proofs.«900454_g7700000000000455_dist_matmul_relu_kshard_i_m512_n512_k256_v7x_i32_f32_1_alg».proof.Proof.Gen.Kernel.Launch
import proofs.«900454_g7700000000000455_dist_matmul_relu_kshard_i_m512_n512_k256_v7x_i32_f32_1_alg».proof.Proof.WSched
import Idealize.ShloMosaic.Lib.Pipeline.Launch
import Idealize.ShloMosaic.Lib.Pipeline.Kit
import Idealize.ShloMosaic.Lib.Tactic

set_option maxRecDepth 16384

noncomputable section

namespace Cert.Kernel.Proto

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The schedule read at each kind of cell -/

section Tables
variable (c : Dev nD) (h : Fin 2) (d : Fin 32)

theorem duties_bar (r : ℕ) : (sched (F := F) m).duties (barCell c) r = if r = 0 then (if c.val = 0 then others else {0}) else ∅ := by
  by_cases hr : r = 0
  · subst hr; simp only [sched, if_true, and_self, if_pos]
  · simp only [sched, hr, and_false, if_false, if_true]

theorem duties_send (hd : d ≠ 0) (r : ℕ) : (sched (F := F) m).duties (sendCell c h d) r = if r = 0 ∨ r = 1 then {0} else ∅ := by
  simp only [sched, semKind_send, if_true, hd, ne_eq, not_false_eq_true, true_and, true_and]
theorem duties_recv1 (hd : d ≠ 0) (r : ℕ) : (sched (F := F) m).duties (recv1Cell c h d) r = if r = 0 then {0} else ∅ := by
  simp only [sched, semKind_recv1, if_true, hd, ne_eq, not_false_eq_true, true_and, Fin.reduceEq, false_and, or_false]
theorem duties_recv2 (hd : d ≠ 0) (r : ℕ) : (sched (F := F) m).duties (recv2Cell c h d) r = if r = 0 then {0} else ∅ := by
  simp only [sched, semKind_recv2, if_true, hd, ne_eq, not_false_eq_true, true_and, Fin.reduceEq, false_and, or_false]

theorem amount_bar (r : ℕ) (j : Fin 32) : (sched (F := F) m).amount (barCell c) r j = 1 := rfl
theorem amount_send (r : ℕ) (j : Fin 32) : (sched (F := F) m).amount (sendCell c h d) r j = N := rfl
theorem amount_recv1 (r : ℕ) (j : Fin 32) : (sched (F := F) m).amount (recv1Cell c h d) r j = N := rfl
theorem amount_recv2 (r : ℕ) (j : Fin 32) : (sched (F := F) m).amount (recv2Cell c h d) r j = N := rfl

theorem payload_bar (r : ℕ) (j : Fin 32) : (sched (F := F) m).payload (barCell c) r j = if c.val = 0 then give j else take c := rfl
theorem payload_send0 (j : Fin 32) : (sched (F := F) m).payload (sendCell c h d) 0 j = partPts c (fwd c d) h fullShare (partC m c) := by
  simp only [sched, semKind_send, dmaPay, if_true]
theorem payload_send1 (j : Fin 32) : (sched (F := F) m).payload (sendCell c h d) 1 j = resPts c c h (sendShr d.val) (resC m) := by
  simp only [sched, semKind_send, dmaPay, if_true, one_ne_zero, if_false]
theorem payload_recv1 (r : ℕ) (j : Fin 32) : (sched (F := F) m).payload (recv1Cell c h d) r j = gathPts c d h fullShare (gathC m c) := by
  simp only [sched, semKind_recv1, dmaPay, Fin.reduceEq, if_false, if_true]
theorem payload_recv2 (r : ℕ) (j : Fin 32) : (sched (F := F) m).payload (recv2Cell c h d) r j = resPts c (bwd c d) h fullShare (resC m) := by
  simp only [sched, semKind_recv2, dmaPay, Fin.reduceEq, if_false]

theorem expect_send (hd : d ≠ 0) (r : ℕ) (hr : r = 0 ∨ r = 1) : (sched (F := F) m).expect (sendCell c h d) r = N := by
  unfold Schedule.expect Schedule.amountOf; rw [duties_send m c h d hd r, if_pos hr, Finset.sum_singleton]; rfl
theorem expect_recv1 (hd : d ≠ 0) : (sched (F := F) m).expect (recv1Cell c h d) 0 = N := by
  unfold Schedule.expect Schedule.amountOf; rw [duties_recv1 m c h d hd 0, if_pos rfl, Finset.sum_singleton]; rfl
theorem expect_recv2 (hd : d ≠ 0) : (sched (F := F) m).expect (recv2Cell c h d) 0 = N := by
  unfold Schedule.expect Schedule.amountOf; rw [duties_recv2 m c h d hd 0, if_pos rfl, Finset.sum_singleton]; rfl
theorem expect_bar : (sched (F := F) m).expect (barCell c) 0 = if c.val = 0 then 31 else 1 := by
  unfold Schedule.expect Schedule.amountOf; rw [duties_bar m c 0, if_pos rfl]
  by_cases hc : c.val = 0
  · rw [if_pos hc, if_pos hc]; simp only [amount_bar, Finset.sum_const, smul_eq_mul, mul_one]; decide
  · rw [if_neg hc, if_neg hc, Finset.sum_singleton]; rfl

end Tables

end Cert.Kernel.Proto

end
-- ==== Proof.WData.lean ====
import proofs.«900454_g7700000000000455_dist_matmul_relu_kshard_i_m512_n512_k256_v7x_i32_f32_1_alg».proof.Proof.Gen.Kernel
import proofs.«900454_g7700000000000455_dist_matmul_relu_kshard_i_m512_n512_k256_v7x_i32_f32_1_alg».proof.Proof.Gen.Kernel.Skeleton
import proofs.«900454_g7700000000000455_dist_matmul_relu_kshard_i_m512_n512_k256_v7x_i32_f32_1_alg».proof.Proof.Gen.Kernel.Launch
import proofs.«900454_g7700000000000455_dist_matmul_relu_kshard_i_m512_n512_k256_v7x_i32_f32_1_alg».proof.Proof.WTables
import proofs.«900454_g7700000000000455_dist_matmul_relu_kshard_i_m512_n512_k256_v7x_i32_f32_1_alg».proof.Proof.Gen.Kernel.Points
import proofs.«900454_g7700000000000455_dist_matmul_relu_kshard_i_m512_n512_k256_v7x_i32_f32_1_alg».proof.Proof.Gen.Kernel.Frame
import Idealize.ShloMosaic.Lib.Pipeline.Launch
import Idealize.ShloMosaic.Lib.Pipeline.Kit
import Idealize.ShloMosaic.Lib.Tactic

set_option maxRecDepth 16384

noncomputable section

namespace Cert.Kernel.Proto

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What each device owes at launch; the levels

Device 0 owes every other device's barrier cell one unit; any other device owes device 0's one unit. Every device
owes, for each column half and each `d = 1 … 31`, the credit of one half slot to the first and to the second
receive cell `(h, d)` of the device `d` places after it. -/

def owedBar (c : Dev nD) : CellTallies nD τ sig Unit :=
  if c.val = 0 then ∑ j ∈ others, tallyAt (barCell (⟨j.val, j.isLt⟩ : Dev nD)) () 1
  else tallyAt (barCell (⟨0, by decide⟩ : Dev nD)) () 1

def owedRecv1 (c : Dev nD) : CellTallies nD τ sig Unit :=
  ∑ h : Fin 2, ∑ d ∈ others, tallyAt (recv1Cell (fwd c d) h d) () N
def owedRecv2 (c : Dev nD) : CellTallies nD τ sig Unit :=
  ∑ h : Fin 2, ∑ d ∈ others, tallyAt (recv2Cell (fwd c d) h d) () N

def O₀ (c : Dev nD) : CellTallies nD τ sig Unit := owedRecv2 c + owedRecv1 c + owedBar c

def L (g : GSem nD τ sig) : Finset Unit := if g.1.2 = .tc then {()} else ∅

/-- Device 0's barrier cell below the other barrier cells, those below the first receive cells, those below the
    second; send cells (paid by the waiter's own copies) and the staging cells lowest. A wait is made only while
    everything still owed sits higher: device 0 waits for the others before it signals them; any other device has
    signalled before it waits; the receive waits of the first round come after every copy of that round is
    started, those of the second after every copy of the second. -/
def lv (g : GSem nD τ sig) (_ : Unit) : ℕ :=
  match g.2 with
  | .reg _ => if g.1.1.val = 0 then 1 else 2
  | .dma q =>
    match semKind q with
    | some (k, _, _) => if k = 1 then 3 else if k = 2 then 4 else 0
    | none => 0

theorem L_of_ne (g : GSem nD τ sig) (h : g.1.2 ≠ .tc) : L g = ∅ := if_neg h
theorem L_tc (c : Dev nD) (sm : SemLoc sig) : L ((c : Thread nD τ), sm) = {()} := if_pos rfl

/-! ## The ghost state a device starts from -/

/-- The protocol's cells: per device its barrier cell and its 3 × 2 × 32 DMA cells. -/
abbrev CellIx : Type := Dev nD × Option (Fin 3 × Fin 2 × Fin 32)
def kcell (x : CellIx) : GSem nD τ sig :=
  match x.2 with
  | none => barCell x.1
  | some (k, h, d) =>
    if k = 0 then sendCell x.1 h d else if k = 1 then recv1Cell x.1 h d else recv2Cell x.1 h d

/-- Every cell's invariant, under the names the launch allocated them at. -/
def invs (K : CellIx → ℕ) : sProp 𝕄 :=
  bigSep (Finset.univ : Finset CellIx) fun x => cellInv ER (sched m) (K x) (kcell x)

/-- The positions device `c` holds: round 0 of each of its cells. -/
def positions (c : Dev nD) : sProp 𝕄 :=
  iprop(atPos ER (barCell c) 0 ∅ 0 ∗
    bigSep (Finset.univ : Finset (Fin 2)) fun h => bigSep others fun d =>
      iprop(atPos ER (sendCell c h d) 0 ∅ 0 ∗ atPos ER (recv1Cell c h d) 0 ∅ 0 ∗ atPos ER (recv2Cell c h d) 0 ∅ 0))

/-- Round 0 of each of its own DMA cells is reached: the send cells' for its own copies, the receive cells' to
    give away at entry. -/
def reachedOwn (c : Dev nD) : sProp 𝕄 :=
  bigSep (Finset.univ : Finset (Fin 2)) fun h => bigSep others fun d =>
    iprop(reached ER (sendCell c h d) 0 ∗ reached ER (recv1Cell c h d) 0 ∗ reached ER (recv2Cell c h d) 0)

/-- The tokens of the duties device `c` pays: its barrier signal(s); both rounds of its own send cells; the
    receive cells `(h, d)` of the device `d` places after it. -/
def tokens (c : Dev nD) : sProp 𝕄 :=
  iprop((if c.val = 0 then bigSep others fun j => iprop(dutyTok ER (barCell (⟨j.val, j.isLt⟩ : Dev nD)) 0 (0 : Fin 32) ∗ reached ER (barCell (⟨j.val, j.isLt⟩ : Dev nD)) 0)
      else iprop(dutyTok ER (barCell (⟨0, by decide⟩ : Dev nD)) 0 (⟨c.val, c.isLt⟩ : Fin 32) ∗ reached ER (barCell (⟨0, by decide⟩ : Dev nD)) 0)) ∗
    bigSep (Finset.univ : Finset (Fin 2)) fun h => bigSep others fun d =>
      iprop(dutyTok ER (sendCell c h d) 0 (0 : Fin 32) ∗ dutyTok ER (sendCell c h d) 1 (0 : Fin 32)
        ∗ dutyTok ER (recv1Cell (fwd c d) h d) 0 (0 : Fin 32) ∗ dutyTok ER (recv2Cell (fwd c d) h d) 0 (0 : Fin 32)))

/-- The credit for its waits on cells others pay. -/
def credits (c : Dev nD) : sProp 𝕄 :=
  iprop(cred (tallyAt (barCell c) () (if c.val = 0 then 31 else 1)) ∗
    bigSep (Finset.univ : Finset (Fin 2)) fun h => bigSep others fun d =>
      iprop(cred (tallyAt (recv1Cell c h d) () N) ∗ cred (tallyAt (recv2Cell c h d) () N)))

def ghost (K : CellIx → ℕ) (c : Dev nD) : sProp 𝕄 :=
  iprop(invs m K ∗ positions c ∗ reachedOwn c ∗ tokens c)

/-- What device `c`'s body starts from. -/
def start (c : Dev nD) : sProp 𝕄 :=
  iprop((∃ K, ghost m K c) ∗ credits c ∗ levAts L lv)

/-- The three scratch buffers whole, at some contents. -/
def scratch (c : Dev nD) : sProp 𝕄 :=
  iprop((∃ f : Scr F, ((c : Thread nD τ).loc cc0_scratch0) ↦{fullShare} f) ∗ (∃ f : Scr F, ((c : Thread nD τ).loc cc0_scratch1) ↦{fullShare} f)
    ∗ (∃ f : Scr F, ((c : Thread nD τ).loc cc0_scratch2) ↦{fullShare} f))

def Φ₀ (c : Dev nD) : sProp 𝕄 := iprop(start m c ∗ scratch c)

/-- The kernel's own semaphores back at zero, their cells closed. -/
def semsZero (c : Dev nD) : sProp 𝕄 :=
  bigSep (Finset.univ : Finset (Fin 2)) fun h => bigSep (Finset.univ : Finset (Fin 32)) fun d =>
    iprop(semVal (sendCell c h d) 0 ∗ semVal (recv1Cell c h d) 0 ∗ semVal (recv2Cell c h d) 0)

def Φ₁ (c : Dev nD) : sProp 𝕄 := iprop(scratch (F := F) c ∗ semsZero c)

/-- The result block as the body leaves it in the output window's staging buffer. -/
def outAt : (cc0_stg2_0 : Ref sig .tc).ty.Contents (Elt F) := k0_pay5 (resC m)

def dats (_ : Fin 1) (c : Dev nD) : Dat τ (Elt F) Unit ℕ UU ℕ cfg0 c where
  A w := m ((cfg0.win w).arr.view.loc (c : Thread nD τ))
  after w _ := match w with
    | ⟨0, _⟩ => argBlk0 m c
    | ⟨1, _⟩ => argBlk1 m c
    | ⟨2, _⟩ => outAt m
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

end Cert.Kernel.Proto

end
-- ==== Proof.WRegroup.lean ====
import proofs.«900454_g7700000000000455_dist_matmul_relu_kshard_i_m512_n512_k256_v7x_i32_f32_1_alg».proof.Proof.WSched

/-!
The barrier redistributes the half slots: before it, device j holds, for every column half h and
every distance d = 1 … 31, slot d of its gather buffer and slot (j + 32 - d) % 32 of its result
buffer (with the two receive cells at round 0); after it, device c holds those of the device
(c + d) % 32, the ones its copies at distance d write into. For fixed (h, d) the map c ↦ (c + d) % 32
is a bijection of the 32 devices, with inverse j ↦ (j + 32 - d) % 32, so the two collections are one.
-/

set_option maxRecDepth 16384

noncomputable section

namespace Cert.Kernel.Proto

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- What device j gives away for column half h and distance d. -/
def giveAt (j : Dev nD) (h : Fin 2) (d : Fin 32) : sProp 𝕄 :=
  iprop((∃ f, gathPts j d h fullShare f) ∗ (∃ f, resPts j (bwd j d) h fullShare f)
    ∗ reached ER (recv1Cell j h d) 0 ∗ reached ER (recv2Cell j h d) 0)

/-- What device j gives away: its parts over the two column halves and the 31 distances. -/
theorem give_eq (j : Dev nD) :
    give (F := F) j = bigSep (Finset.univ : Finset (Fin 2)) fun h => bigSep others fun d => giveAt (F := F) j h d := rfl

/-- What device c takes for (h, d) is what the device d places after it gives. -/
theorem take_eq (c : Dev nD) :
    take (F := F) c = bigSep (Finset.univ : Finset (Fin 2)) fun h => bigSep others fun d => giveAt (F := F) (fwd c d) h d := by
  unfold take giveAt
  simp only [bwd_fwd]

/-- Stepping d places forward is a bijection of the devices; stepping back is its inverse. -/
def fwdEquiv (d : Fin 32) : Dev nD ≃ Dev nD where
  toFun c := fwd c d
  invFun j := bwd j d
  left_inv c := bwd_fwd c d
  right_inv j := fwd_bwd j d

/-- A family over the 32 places: the member at place 0 and the members at the others. -/
theorem bigSep_univ_eq_zero_sep_others (Φ : Fin 32 → sProp 𝕄) :
    bigSep (Finset.univ : Finset (Fin 32)) Φ = iprop(Φ 0 ∗ bigSep others Φ) := by
  have e : (Finset.univ : Finset (Fin 32)).erase 0 = others := (Finset.filter_ne' Finset.univ (0 : Fin 32)).symm
  rw [bigSep_univ_split (0 : Fin 32), e]
  rfl

/-- Three nested families over devices, column halves and distances: stepping each device forward by the
    distance does not change the whole. -/
theorem bigSep_regroup (G : Dev nD → Fin 2 → Fin 32 → sProp 𝕄) :
    (bigSep (Finset.univ : Finset (Dev nD)) fun j => bigSep (Finset.univ : Finset (Fin 2)) fun h =>
        bigSep (Finset.univ : Finset (Fin 32)) fun d => G j h d)
      = bigSep (Finset.univ : Finset (Dev nD)) fun c => bigSep (Finset.univ : Finset (Fin 2)) fun h =>
        bigSep (Finset.univ : Finset (Fin 32)) fun d => G (fwd c d) h d :=
  calc (bigSep (Finset.univ : Finset (Dev nD)) fun j => bigSep (Finset.univ : Finset (Fin 2)) fun h =>
          bigSep (Finset.univ : Finset (Fin 32)) fun d => G j h d)
      = bigSep (Finset.univ : Finset (Fin 2)) fun h => bigSep (Finset.univ : Finset (Dev nD)) fun j =>
          bigSep (Finset.univ : Finset (Fin 32)) fun d => G j h d :=
        bigSep_univ_comm (fun (j : Dev nD) (h : Fin 2) => bigSep (Finset.univ : Finset (Fin 32)) fun d => G j h d)
    _ = bigSep (Finset.univ : Finset (Fin 2)) fun h => bigSep (Finset.univ : Finset (Fin 32)) fun d =>
          bigSep (Finset.univ : Finset (Dev nD)) fun j => G j h d :=
        bigSep_congr fun h _ => bigSep_univ_comm (fun (j : Dev nD) (d : Fin 32) => G j h d)
    _ = bigSep (Finset.univ : Finset (Fin 2)) fun h => bigSep (Finset.univ : Finset (Fin 32)) fun d =>
          bigSep (Finset.univ : Finset (Dev nD)) fun c => G (fwd c d) h d :=
        bigSep_congr fun h _ => bigSep_congr fun d _ => bigSep_univ_equiv (fwdEquiv d) (fun j => G j h d)
    _ = bigSep (Finset.univ : Finset (Fin 2)) fun h => bigSep (Finset.univ : Finset (Dev nD)) fun c =>
          bigSep (Finset.univ : Finset (Fin 32)) fun d => G (fwd c d) h d :=
        bigSep_congr fun h _ => (bigSep_univ_comm (fun (c : Dev nD) (d : Fin 32) => G (fwd c d) h d)).symm
    _ = bigSep (Finset.univ : Finset (Dev nD)) fun c => bigSep (Finset.univ : Finset (Fin 2)) fun h =>
          bigSep (Finset.univ : Finset (Fin 32)) fun d => G (fwd c d) h d :=
        (bigSep_univ_comm (fun (c : Dev nD) (h : Fin 2) =>
          bigSep (Finset.univ : Finset (Fin 32)) fun d => G (fwd c d) h d)).symm

/-- What the 32 devices give away at the barrier, taken together, is what they take. -/
theorem give_all_eq_take_all :
    (bigSep (Finset.univ : Finset (Dev nD)) fun j => give (F := F) j)
      = bigSep (Finset.univ : Finset (Dev nD)) fun c => take (F := F) c := by
  simp only [give_eq, take_eq, bigSep_filter]
  exact bigSep_regroup (fun j h d => if d ≠ 0 then giveAt (F := F) j h d else BI.emp)

/-- The same with device 0 named apart from the others, on both sides. -/
theorem give_zero_sep_others_eq_take :
    iprop(give (F := F) (0 : Fin 32) ∗ bigSep others fun j => give (F := F) j)
      = iprop(take (F := F) (0 : Fin 32) ∗ bigSep others fun c => take (F := F) c) := by
  rw [← bigSep_univ_eq_zero_sep_others (fun j => give (F := F) j),
    ← bigSep_univ_eq_zero_sep_others (fun c => take (F := F) c)]
  exact give_all_eq_take_all

/-- info: 'Cert.Kernel.Proto.give_all_eq_take_all' depends on axioms: [propext, Classical.choice, Quot.sound] -/
#guard_msgs in #print axioms give_all_eq_take_all

end Cert.Kernel.Proto

end
-- ==== Proof.WLaunchKit.lean ====
import proofs.«900454_g7700000000000455_dist_matmul_relu_kshard_i_m512_n512_k256_v7x_i32_f32_1_alg».proof.Proof.WData
import proofs.«900454_g7700000000000455_dist_matmul_relu_kshard_i_m512_n512_k256_v7x_i32_f32_1_alg».proof.Proof.WRegroup
import proofs.«900454_g7700000000000455_dist_matmul_relu_kshard_i_m512_n512_k256_v7x_i32_f32_1_alg».proof.Proof.Gen.Kernel.Frame
import Idealize.ShloMosaic.Lib.Pipeline.Launch
import Idealize.ShloMosaic.Lib.Pipeline.Kit
import Idealize.ShloMosaic.Lib.Tactic

/-!
The launch of the kernel on the 32 devices, part one: the kernel's own 192 DMA semaphores enumerated as its
3 × 2 × 32 DMA cells; the body's pre- and postcondition at the one grid point as the launch provides and takes
them; why the pipeline's own staging waits may be made while a device still owes (everything owed sits at a
level above the staging cells'); and the arrays after the run: the two arguments as they were, the result the
block the body left.
-/

set_option maxRecDepth 16384

noncomputable section

namespace Cert.Kernel.Proto

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The kernel's own semaphores: the 3 × 64 DMA semaphores after the three staging ones. -/
abbrev osem : Fin 192 → SemLoc sig := fun i => .dma (⟨3 + i.val, by have := i.isLt; show 3 + i.val < 195; omega⟩ : DmaSem sig)

theorem ownSemFacts : Pipeline.OwnSemFacts cfg0.spec osem := by decide +kernel

/-- A DMA cell's index (array, column half, distance) and its place among the 192 own semaphores. -/
def semIx : Fin 3 × Fin 2 × Fin 32 ≃ Fin 192 where
  toFun x := ⟨x.1.val * 64 + x.2.1.val * 32 + x.2.2.val, by have := x.1.isLt; have := x.2.1.isLt; have := x.2.2.isLt; omega⟩
  invFun i := (⟨i.val / 64, by have := i.isLt; omega⟩, ⟨i.val % 64 / 32, by omega⟩, ⟨i.val % 32, by omega⟩)
  left_inv x := by
    obtain ⟨k, h, d⟩ := x
    have := k.isLt; have := h.isLt; have := d.isLt
    refine Prod.ext (Fin.ext ?_) (Prod.ext (Fin.ext ?_) (Fin.ext ?_))
    · show (k.val * 64 + h.val * 32 + d.val) / 64 = k.val; omega
    · show (k.val * 64 + h.val * 32 + d.val) % 64 / 32 = h.val; omega
    · show (k.val * 64 + h.val * 32 + d.val) % 32 = d.val; omega
  right_inv i := Fin.ext (by
    show i.val / 64 * 64 + i.val % 64 / 32 * 32 + i.val % 32 = i.val
    omega)

/-- The semaphore of DMA cell (k, h, d). -/
def dsem (x : Fin 3 × Fin 2 × Fin 32) : DmaSem sig :=
  if x.1 = 0 then semAt cc0_scratch3 x.2.1 x.2.2 else if x.1 = 1 then semAt cc0_scratch4 x.2.1 x.2.2 else semAt cc0_scratch5 x.2.1 x.2.2

theorem osem_semIx : ∀ x : Fin 3 × Fin 2 × Fin 32, osem (semIx x) = SemLoc.dma (dsem x) := by decide +kernel

theorem kcell_some (c : Dev nD) (x : Fin 3 × Fin 2 × Fin 32) : kcell (c, some x) = ((c : Thread nD τ), SemLoc.dma (dsem x)) := by
  obtain ⟨k, h, d⟩ := x
  show (if k = 0 then sendCell c h d else if k = 1 then recv1Cell c h d else recv2Cell c h d) = _
  unfold dsem
  split_ifs <;> rfl

theorem bigSep_fin3 (Φ : Fin 3 → sProp 𝕄) : bigSep Finset.univ Φ = iprop(Φ 0 ∗ Φ 1 ∗ Φ 2) :=
  bigSep_univ_eq_bigSepL [0, 1, 2] (by decide) (by decide) Φ

/-- A family over the DMA cells, by column half and distance: the send, first-receive and second-receive members. -/
theorem bigSep_kinds (Ψ : Fin 3 × Fin 2 × Fin 32 → sProp 𝕄) :
    bigSep Finset.univ Ψ = bigSep (Finset.univ : Finset (Fin 2)) fun h => bigSep (Finset.univ : Finset (Fin 32)) fun d =>
      iprop(Ψ (0, h, d) ∗ Ψ (1, h, d) ∗ Ψ (2, h, d)) := by
  rw [bigSep_univ_prod, bigSep_fin3]
  simp only [bigSep_univ_prod, bigSep_sep']

theorem ownSems0_eq (c : Dev nD) : (Pipeline.ownSems0 (Ix := Unit) (Name := ℕ) (U := UU) (Lvl := ℕ) (Val := Elt F) (τ := τ) osem c : sProp 𝕄)
    = bigSep Finset.univ fun x : Fin 3 × Fin 2 × Fin 32 => semVal (kcell (c, some x)) 0 := by
  unfold Pipeline.ownSems0
  rw [bigSep_univ_equiv semIx]
  exact bigSep_congr fun x _ => by rw [kcell_some, osem_semIx]

theorem semsZero_eq (c : Dev nD) : (semsZero c : sProp 𝕄) = bigSep Finset.univ fun x : Fin 3 × Fin 2 × Fin 32 => semVal (kcell (c, some x)) 0 := by
  rw [bigSep_kinds]
  rfl

/-- The six semaphores of the kernel's arrays at distance 0, which no copy uses, at zero. -/
def zeroSems (c : Dev nD) : sProp 𝕄 :=
  bigSep (Finset.univ : Finset (Fin 2)) fun h =>
    iprop(semVal (sendCell c h 0) 0 ∗ semVal (recv1Cell c h 0) 0 ∗ semVal (recv2Cell c h 0) 0)

def startX (c : Dev nD) : sProp 𝕄 := iprop(start m c ∗ zeroSems c)
def Φ₀X (c : Dev nD) : sProp 𝕄 := iprop(Φ₀ m c ∗ zeroSems c)

def datsX (_ : Fin 1) (c : Dev nD) : Dat τ (Elt F) Unit ℕ UU ℕ cfg0 c where
  A w := m ((cfg0.win w).arr.view.loc (c : Thread nD τ))
  after w _ := match w with
    | ⟨0, _⟩ => argBlk0 m c
    | ⟨1, _⟩ => argBlk1 m c
    | ⟨2, _⟩ => outAt m
  Φ t := match t with
    | ⟨0, _⟩ => Φ₀X m c
    | ⟨_ + 1, _⟩ => Φ₁ c
  q _ := fullShare
  owed t := match t with
    | ⟨0, _⟩ => O₀ c
    | ⟨_ + 1, _⟩ => 0

theorem share_eq (c : Dev nD) (w : Fin cfg0.W) : (datsX m 0 c).share w = fullShare := by unfold Dat.share; split <;> rfl

theorem owedRecv_lv (c : Dev nD) (g : GSem nD τ sig) (i : Unit) (h : 0 < (owedRecv2 c + owedRecv1 c) g i) : i ∈ L g ∧ 3 ≤ lv g i := by
  rcases Pipeline.add_pos_cases h with h2 | h1
  · unfold owedRecv2 at h2
    obtain ⟨hh, -, h2⟩ := Pipeline.sum_pos_exists h2
    obtain ⟨d, -, h2⟩ := Pipeline.sum_pos_exists h2
    rw [tallyAt_apply] at h2
    by_cases e : g = recv2Cell (fwd c d) hh d ∧ i = ()
    · rw [e.1, L_tc]
      refine ⟨Finset.mem_singleton_self _, ?_⟩
      show 3 ≤ lv (recv2Cell (fwd c d) hh d) i
      unfold lv; simp only [semKind_recv2]; decide
    · rw [if_neg e] at h2; exact absurd h2 (Nat.lt_irrefl 0)
  · unfold owedRecv1 at h1
    obtain ⟨hh, -, h1⟩ := Pipeline.sum_pos_exists h1
    obtain ⟨d, -, h1⟩ := Pipeline.sum_pos_exists h1
    rw [tallyAt_apply] at h1
    by_cases e : g = recv1Cell (fwd c d) hh d ∧ i = ()
    · rw [e.1, L_tc]
      refine ⟨Finset.mem_singleton_self _, ?_⟩
      show 3 ≤ lv (recv1Cell (fwd c d) hh d) i
      unfold lv; simp only [semKind_recv1]; decide
    · rw [if_neg e] at h1; exact absurd h1 (Nat.lt_irrefl 0)

theorem lv_bar_pos (j : Dev nD) (i : Unit) : 1 ≤ lv (barCell j) i := by
  show 1 ≤ (if j.val = 0 then 1 else 2)
  split <;> decide

theorem owedBar_lv (c : Dev nD) (g : GSem nD τ sig) (i : Unit) (h : 0 < owedBar c g i) : i ∈ L g ∧ 1 ≤ lv g i := by
  unfold owedBar at h
  split at h
  · obtain ⟨j, -, h⟩ := Pipeline.sum_pos_exists h
    rw [tallyAt_apply] at h
    by_cases e : g = barCell (⟨j.val, j.isLt⟩ : Dev nD) ∧ i = ()
    · rw [e.1, L_tc]; exact ⟨Finset.mem_singleton_self _, lv_bar_pos _ _⟩
    · rw [if_neg e] at h; exact absurd h (Nat.lt_irrefl 0)
  · rw [tallyAt_apply] at h
    by_cases e : g = barCell (⟨0, by decide⟩ : Dev nD) ∧ i = ()
    · rw [e.1, L_tc]; exact ⟨Finset.mem_singleton_self _, lv_bar_pos _ _⟩
    · rw [if_neg e] at h; exact absurd h (Nat.lt_irrefl 0)

theorem O₀_lv (c : Dev nD) (g : GSem nD τ sig) (i : Unit) (h : 0 < O₀ c g i) : i ∈ L g ∧ 1 ≤ lv g i := by
  unfold O₀ at h
  rcases Pipeline.add_pos_cases h with h | h
  · obtain ⟨h1, h2⟩ := owedRecv_lv c g i h
    exact ⟨h1, le_trans (by decide) h2⟩
  · exact owedBar_lv c g i h

/-- The level of a staging cell is 0. -/
theorem lv_stage : ∀ (w : Fin cfg0.W) (s : Fin (cfg0.win w).nbuf), semKind ((cfg0.win w).sem s) = none := by decide +kernel

theorem mayWait_stage (c : Dev nD) (w : Fin cfg0.W) (s : Fin (cfg0.win w).nbuf) (O : CellTallies nD τ sig Unit) (hO : O = O₀ c ∨ O = 0) :
    (levAts L lv : sProp 𝕄) ⊢ MayWait (c : Thread nD τ) (.dma ((cfg0.win w).sem s)) () O := by
  rcases hO with rfl | rfl
  · refine Pipeline.mayWait_of_levAts (by rw [L_tc]; exact Finset.mem_singleton_self _) fun g i hg => ?_
    obtain ⟨h1, h2⟩ := O₀_lv c g i hg
    refine ⟨h1, lt_of_lt_of_le ?_ h2⟩
    have e : semKind ((cfg0.win w).sem s) = none := lv_stage w s
    show (match semKind ((cfg0.win w).sem s) with
      | some (k, _, _) => if k = 1 then 3 else if k = 2 then 4 else 0
      | none => 0) < 1
    rw [e]
    decide
  · rw [MayWait_zero]; iintro -; iempintro

theorem waits (c : Dev nD) : (levAts L lv : sProp 𝕄) ⊢ Pipeline.cellsWaits cfgs (datsX m) () 0 c :=
  Pipeline.cellsWaits_intro cfgs (datsX m) () 0 c fun w s t =>
    mayWait_stage c w s _ (by
      rcases t with ⟨_ | _, ht⟩
      · exact Or.inl rfl
      · exact Or.inr rfl)

theorem phi0_intro (c : Dev nD) :
    iprop(startX m c ∗ Pipeline.prefHeld Pipeline.Prefetch.none c (fun _ => fullShare.right) (fun k => k.elim0) ∗ Pipeline.scopedRest cfg0.spec c)
      ⊢ (datsX m 0 c).Φ 0 := by
  rw [show (datsX m 0 c).Φ 0 = Φ₀X m c from rfl, scopedRest0_eq]
  unfold Φ₀X Φ₀ startX scratch
  iintro ⟨⟨Hs, Hz⟩, -, Hr⟩
  isplitr [Hz]
  · isplitl [Hs]; · iexact Hs
    iexact Hr
  · iexact Hz

theorem phi1_exit (c : Dev nD) :
    (datsX m 0 c).Φ (Fin.last cfg0.N) ⊢ iprop(emp ∗ Pipeline.ownSems0 osem c ∗ Pipeline.scopedRest cfg0.spec c) := by
  rw [show (datsX m 0 c).Φ (Fin.last cfg0.N) = Φ₁ c from rfl, scopedRest0_eq, ownSems0_eq, ← semsZero_eq]
  unfold Φ₁ scratch
  iintro ⟨Hs, Hz⟩
  isplitr; · iempintro
  isplitl [Hz]; · iexact Hz
  iexact Hs

theorem final_out (c : Dev nD) : (datsX m 0 c).arrAt (2 : Fin 3) cfg0.N = outAt m := by
  rw [show cfg0.N = ((0 : Fin 1) : Fin cfg0.N).val + 1 from rfl, (datsX m 0 c).arrAt_succ (2 : Fin 3) (0 : Fin 1)]
  rw [show (cfg0.win (2 : Fin 3)).flush (0 : Fin 1) = true from by decide, if_pos rfl]
  exact Memref.write_access_unit_zero_univ (Elt F) main_v1 (funext fun a => by fin_cases a <;> rfl) _ _ _
theorem final_in0 (c : Dev nD) : (datsX m 0 c).arrAt (0 : Fin 3) cfg0.N = m ((c : Thread nD τ).loc main_arg0) :=
  (datsX m 0 c).arrAt_in (0 : Fin 3) rfl _
theorem final_in1 (c : Dev nD) : (datsX m 0 c).arrAt (1 : Fin 3) cfg0.N = m ((c : Thread nD τ).loc main_arg1) :=
  (datsX m 0 c).arrAt_in (1 : Fin 3) rfl _

end Cert.Kernel.Proto

end
-- ==== Proof.WLaunchFund.lean ====
import proofs.«900454_g7700000000000455_dist_matmul_relu_kshard_i_m512_n512_k256_v7x_i32_f32_1_alg».proof.Proof.WLaunchKit

/-!
The launch, part two: the protocol's cells on the 32 devices (each device's barrier cell and its 3 × 2 × 32 DMA
cells) are pairwise distinct; the launch mints every cell's round state, position and reached round 0, and the
duty tokens of every cell; and from each device's own semaphores at zero it allocates every cell's invariant.
-/

set_option maxRecDepth 16384

noncomputable section

namespace Cert.Kernel.Proto

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the duty tokens the launch mints -/

theorem dsem_injective : Function.Injective dsem := fun x y h =>
  semIx.injective (ownSemFacts.inj (by rw [osem_semIx, osem_semIx, h]))

theorem kcell_injective : Function.Injective (kcell : CellIx → GSem nD τ sig) := by
  rintro ⟨c, x⟩ ⟨c', x'⟩ h
  have h1 : c = c' := by
    have e : (kcell (c, x)).1.1 = (kcell (c', x')).1.1 := congrArg (fun g : GSem nD τ sig => g.1.1) h
    cases x <;> cases x' <;> (try rw [kcell_some] at e) <;> (try rw [kcell_some] at e) <;> exact e
  subst h1
  have h2 : (kcell (c, x)).2 = (kcell (c, x')).2 := congrArg Prod.snd h
  cases x with
  | none =>
    cases x' with
    | none => rfl
    | some y' => rw [kcell_some] at h2; exact absurd h2 (fun h' => by cases h')
  | some y =>
    cases x' with
    | none => rw [kcell_some] at h2; exact absurd h2 (fun h' => by cases h')
    | some y' =>
      rw [kcell_some, kcell_some] at h2
      rw [dsem_injective (SemLoc.dma.inj h2)]

def ringCells : Finset (GSem nD τ sig) := Finset.univ.map ⟨kcell, kcell_injective⟩

/-- The duty tokens as minted: for a barrier cell one per name; for a DMA cell the name 0 at rounds 0 and 1. -/
abbrev TokIx : Type := (Dev nD × Fin 32) ⊕ (Dev nD × (Fin 3 × Fin 2 × Fin 32) × Fin 2)
def tokOf : TokIx → GSem nD τ sig × ℕ × Fin 32
  | .inl (c, j) => (kcell (c, none), 0, j)
  | .inr (c, x, r) => (kcell (c, some x), r.val, 0)

theorem tokOf_injective : Function.Injective tokOf := by
  rintro (⟨c, j⟩ | ⟨c, x, r⟩) (⟨c', j'⟩ | ⟨c', x', r'⟩) h
  · have e1 : kcell (c, none) = kcell (c', none) := congrArg (fun t : GSem nD τ sig × ℕ × Fin 32 => t.1) h
    have h1 := kcell_injective e1
    have h2 : j = j' := congrArg (fun t : GSem nD τ sig × ℕ × Fin 32 => t.2.2) h
    rw [(Prod.mk.inj h1).1, h2]
  · have e1 : kcell (c, none) = kcell (c', some x') := congrArg (fun t : GSem nD τ sig × ℕ × Fin 32 => t.1) h
    have h1 := kcell_injective e1
    exact absurd (Prod.mk.inj h1).2 (by simp)
  · have e1 : kcell (c, some x) = kcell (c', none) := congrArg (fun t : GSem nD τ sig × ℕ × Fin 32 => t.1) h
    have h1 := kcell_injective e1
    exact absurd (Prod.mk.inj h1).2 (by simp)
  · have e1 : kcell (c, some x) = kcell (c', some x') := congrArg (fun t : GSem nD τ sig × ℕ × Fin 32 => t.1) h
    have h1 := kcell_injective e1
    have h2 : r.val = r'.val := congrArg (fun t : GSem nD τ sig × ℕ × Fin 32 => t.2.1) h
    rw [(Prod.mk.inj h1).1, Option.some.inj (Prod.mk.inj h1).2, Fin.ext h2]

def ringToks : Finset (GSem nD τ sig × ℕ × Fin 32) := Finset.univ.map ⟨tokOf, tokOf_injective⟩

def u₀ : UU :=
  (initOf (Pipeline.cells cfgs cellOf_inj) (Pipeline.launchToks cfgs cellOf_inj), initOf ringCells ringToks)

/-- The duty tokens of device c's own cells. -/
def toks (c : Dev nD) : sProp 𝕄 :=
  iprop((bigSep Finset.univ fun j : Fin 32 => dutyTok ER (kcell (c, none)) 0 j)
    ∗ bigSep Finset.univ fun xr : (Fin 3 × Fin 2 × Fin 32) × Fin 2 => dutyTok ER (kcell (c, some xr.1)) xr.2.val (0 : Fin 32))

/-- What the launch element deals device c. -/
def G (c : Dev nD) : sProp 𝕄 :=
  iprop((bigSep Finset.univ fun x : Option (Fin 3 × Fin 2 × Fin 32) => roundState ER (sched m) (kcell (c, x)) 0)
    ∗ (bigSep Finset.univ fun x : Option (Fin 3 × Fin 2 × Fin 32) => iprop(atPos ER (kcell (c, x)) 0 ∅ 0 ∗ reached ER (kcell (c, x)) 0)) ∗ toks c)

theorem fund_ring : BI.own (ER (initOf ringCells ringToks)) ⊢ (|==> bigSep Finset.univ (G m) : sProp 𝕄) := by
  have hX (Φ : GSem nD τ sig → sProp 𝕄) : bigSep ringCells Φ
      = bigSep Finset.univ fun c : Dev nD => bigSep Finset.univ fun x : Option (Fin 3 × Fin 2 × Fin 32) => Φ (kcell (c, x)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks toks
    rw [bigSep_map, bigSep_univ_sum, bigSep_univ_prod, bigSep_univ_prod, bigSep_sep']
    rfl
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem fund_all : (ownU (u₀ : UU) : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  imod (fund_ring m) $$ HX with HG
  imodintro
  isplitl [HP] <;> iassumption

/-! ## The schedule's payloads can be kept in an invariant -/

instance give_storable (j : Dev nD) : BI.Storable (upEmb : UEmb _ 𝕄) (give (F := F) j) := by
  unfold give gathPts resPts; infer_instance
instance take_storable (c : Dev nD) : BI.Storable (upEmb : UEmb _ 𝕄) (take (F := F) c) := by
  unfold take gathPts resPts; infer_instance
instance dmaPay_storable (c : Dev nD) (k : Fin 3) (h : Fin 2) (d : Fin 32) (r : ℕ) :
    BI.Storable (upEmb : UEmb _ 𝕄) (dmaPay (F := F) m c k h d r) := by
  unfold dmaPay partPts gathPts resPts
  (repeat' split) <;> infer_instance
instance sched_payload_storable (g : GSem nD τ sig) (r : ℕ) (j : Fin 32) :
    BI.Storable (upEmb : UEmb _ 𝕄) ((sched (F := F) m).payload g r j) := by
  show BI.Storable upEmb (match g.2 with
    | .reg _ => if g.1.1.val = 0 then give j else take g.1.1
    | .dma q =>
      match semKind q with
      | some (k, h, d) => dmaPay m g.1.1 k h d r
      | none => iprop(emp))
  (repeat' split) <;> infer_instance

/-! ## Every cell's invariant allocated -/

theorem bigSep_option {α : Type} [Fintype α] (Φ : Option α → sProp 𝕄) :
    bigSep Finset.univ Φ = iprop(Φ none ∗ bigSep Finset.univ fun a => Φ (some a)) := by
  classical
  have e : (Finset.univ : Finset (Option α)).erase none = Finset.univ.map Function.Embedding.some := by
    ext x; cases x <;> simp
  rw [bigSep_univ_split (none : Option α), e, bigSep_map]
  rfl

theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun x : Option (Fin 3 × Fin 2 × Fin 32) => semVal (kcell (c, x)) 0 : sProp 𝕄) := by
  rw [ownSems0_eq, unscopedSems0_eq, bigSep_option]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun x : Option (Fin 3 × Fin 2 × Fin 32) => iprop(∃ κ : ℕ, cellInv ER (sched m) κ (kcell (c, x))))
          ∗ (bigSep Finset.univ fun x : Option (Fin 3 × Fin 2 × Fin 32) => iprop(atPos ER (kcell (c, x)) 0 ∅ 0 ∗ reached ER (kcell (c, x)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun x : Option (Fin 3 × Fin 2 × Fin 32) => semVal (kcell (c, x)) 0)
        ∗ bigSep Finset.univ fun x : Option (Fin 3 × Fin 2 × Fin 32) => roundState ER (sched m) (kcell (c, x)) 0)
      ⊢ (|={Set.univ}=> bigSep Finset.univ fun x : Option (Fin 3 × Fin 2 × Fin 32) => iprop(∃ κ : ℕ, cellInv ER (sched m) κ (kcell (c, x))) : sProp 𝕄) from by
        rw [← bigSep_sep']
        exact (bigSep_mono fun x _ => (Rounds.body_intro ER (sched m) (kcell (c, x))).trans inv_alloc).trans (bigSep_fupd _ _)) $$ [Hv Hst] with Hinv
  · isplitl [Hv] <;> iassumption
  imodintro
  isplitl [Hinv]; · iexact Hinv
  isplitl [Hat]; · iexact Hat
  iexact Htok

end Cert.Kernel.Proto

end
-- ==== Proof.WLaunchGlob.lean ====
import proofs.«900454_g7700000000000455_dist_matmul_relu_kshard_i_m512_n512_k256_v7x_i32_f32_1_alg».proof.Proof.WLaunchFund

/-!
The launch, part three: from every device's own cells to what each device's body starts from. The cells'
invariants and reached rounds are shared by all; each device keeps the positions of its own cells; the duty
tokens go to their payers — device 0's barrier tokens one to each other device and every other device's one to
device 0, a device's send tokens to itself, and the receive tokens of the device d places after it to the
device itself (stepping d places forward is a bijection of the 32 devices).
-/

set_option maxRecDepth 16384

noncomputable section

namespace Cert.Kernel.Proto

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## From the devices' own cells to what each device's body starts from -/

def records (K : CellIx → ℕ) : sProp 𝕄 :=
  iprop(invs m K ∗ bigSep (Finset.univ : Finset CellIx) fun x => reached ER (kcell x) 0)

instance records_persistent (K : CellIx → ℕ) : BI.Persistent (records m K) := by unfold records invs; infer_instance

theorem intro_bigSep_of_persistent {I : Type} [DecidableEq I] (S : Finset I) (R : sProp 𝕄) [BI.Persistent R] (Φ : I → sProp 𝕄)
    (h : ∀ i ∈ S, R ⊢ Φ i) : R ⊢ bigSep S Φ :=
  (BI.bigSep_of_persistent S R).trans (bigSep_mono h)

theorem bigSep_mono' {I : Type} {S : Finset I} {Φ Ψ : I → sProp 𝕄} (h : ∀ i ∈ S, Φ i ⊢ Ψ i) : bigSep S Φ ⊢ bigSep S Ψ := bigSep_mono h
theorem bigSep_subset' {I : Type} [DecidableEq I] {s t : Finset I} (h : t ⊆ s) {Φ : I → sProp 𝕄} : bigSep s Φ ⊢ bigSep t Φ := bigSep_subset h
theorem bigSep_elim' {I : Type} [DecidableEq I] {s : Finset I} {i : I} (hi : i ∈ s) {Φ : I → sProp 𝕄} : bigSep s Φ ⊢ Φ i := bigSep_elim hi

abbrev reachedAll : sProp 𝕄 := bigSep (Finset.univ : Finset CellIx) fun x => reached ER (kcell x) 0

theorem reached_at (x : CellIx) : (reachedAll : sProp 𝕄) ⊢ reached ER (kcell x) 0 := bigSep_elim (Finset.mem_univ x)
theorem reached_bar (c : Dev nD) : (reachedAll : sProp 𝕄) ⊢ reached ER (barCell c) 0 := reached_at (c, none)
theorem reached_send (c : Dev nD) (h : Fin 2) (d : Fin 32) : (reachedAll : sProp 𝕄) ⊢ reached ER (sendCell c h d) 0 := reached_at (c, some (0, h, d))
theorem reached_recv1 (c : Dev nD) (h : Fin 2) (d : Fin 32) : (reachedAll : sProp 𝕄) ⊢ reached ER (recv1Cell c h d) 0 := reached_at (c, some (1, h, d))
theorem reached_recv2 (c : Dev nD) (h : Fin 2) (d : Fin 32) : (reachedAll : sProp 𝕄) ⊢ reached ER (recv2Cell c h d) 0 := reached_at (c, some (2, h, d))

theorem reachedOwn_intro (c : Dev nD) : (reachedAll : sProp 𝕄) ⊢ reachedOwn c := by
  unfold reachedOwn
  refine intro_bigSep_of_persistent _ _ _ fun h _ => intro_bigSep_of_persistent _ _ _ fun d _ => ?_
  iintro #H
  isplitr; · iapply (reached_send (F := F) c h d); iexact H
  isplitr; · iapply (reached_recv1 (F := F) c h d); iexact H
  iapply (reached_recv2 (F := F) c h d); iexact H

/-- The positions of a device's six cells at distance 0, which no copy uses. -/
def pos0 (c : Dev nD) : sProp 𝕄 :=
  bigSep (Finset.univ : Finset (Fin 2)) fun h =>
    iprop(atPos ER (sendCell c h 0) 0 ∅ 0 ∗ atPos ER (recv1Cell c h 0) 0 ∅ 0 ∗ atPos ER (recv2Cell c h 0) 0 ∅ 0)

theorem pos_split (c : Dev nD) :
    (bigSep Finset.univ fun x : Option (Fin 3 × Fin 2 × Fin 32) => (atPos ER (kcell (c, x)) 0 ∅ 0 : sProp 𝕄)) ⊢ iprop(positions c ∗ pos0 c) := by
  rw [bigSep_option, bigSep_kinds]
  simp only [bigSep_univ_eq_zero_sep_others, bigSep_sep']
  unfold positions pos0
  simp only [bigSep_sep']
  iintro ⟨HB, ⟨HZ0, HO0⟩, ⟨HZ1, HO1⟩, HZ2, HO2⟩
  isplitl [HB HO0 HO1 HO2]
  · isplitl [HB]; · iexact HB
    isplitl [HO0]; · iexact HO0
    isplitl [HO1]; · iexact HO1
    iexact HO2
  · isplitl [HZ0]; · iexact HZ0
    isplitl [HZ1]; · iexact HZ1
    iexact HZ2

/-! ## The duty tokens dealt to their payers -/

/-- The barrier tokens a device pays with: device 0 one per other device, any other device one of device 0's. -/
def barToks (c : Dev nD) : sProp 𝕄 :=
  if c.val = 0 then bigSep others fun j => dutyTok ER (barCell (⟨j.val, j.isLt⟩ : Dev nD)) 0 (0 : Fin 32)
  else dutyTok ER (barCell (⟨0, by decide⟩ : Dev nD)) 0 (⟨c.val, c.isLt⟩ : Fin 32)

/-- The DMA tokens a device pays with: both rounds of its own send cells, and the receive cells of the device d places after it. -/
def dmaToks (c : Dev nD) : sProp 𝕄 :=
  bigSep (Finset.univ : Finset (Fin 2)) fun h => bigSep others fun d =>
    iprop(dutyTok ER (sendCell c h d) 0 (0 : Fin 32) ∗ dutyTok ER (sendCell c h d) 1 (0 : Fin 32)
      ∗ dutyTok ER (recv1Cell (fwd c d) h d) 0 (0 : Fin 32) ∗ dutyTok ER (recv2Cell (fwd c d) h d) 0 (0 : Fin 32))

theorem barToks_around :
    (bigSep (Finset.univ : Finset (Fin 32)) fun c => bigSep (Finset.univ : Finset (Fin 32)) fun j => (dutyTok ER (kcell (c, none)) 0 j : sProp 𝕄))
      ⊢ bigSep (Finset.univ : Finset (Fin 32)) fun c => barToks c := by
  have h0 : barToks (F := F) (0 : Fin 32) = bigSep others fun j => dutyTok ER (barCell (⟨j.val, j.isLt⟩ : Dev nD)) 0 (0 : Fin 32) := if_pos rfl
  have hc : ∀ c ∈ others, barToks (F := F) c = dutyTok ER (barCell (⟨0, by decide⟩ : Dev nD)) 0 (⟨c.val, c.isLt⟩ : Fin 32) :=
    fun c hc => if_neg (fun e => (Finset.mem_filter.mp hc).2 (Fin.ext e))
  have X : (bigSep others fun c : Fin 32 => bigSep (Finset.univ : Finset (Fin 32)) fun j => (dutyTok ER (kcell (c, none)) 0 j : sProp 𝕄))
      ⊢ bigSep others fun j : Fin 32 => dutyTok ER (barCell (⟨j.val, j.isLt⟩ : Dev nD)) 0 (0 : Fin 32) :=
    bigSep_mono' fun c _ => bigSep_elim' (Finset.mem_univ (0 : Fin 32))
  have Y : (bigSep (Finset.univ : Finset (Fin 32)) fun j => (dutyTok ER (kcell ((0 : Fin 32), none)) 0 j : sProp 𝕄))
      ⊢ bigSep others fun c : Fin 32 => dutyTok ER (barCell (⟨0, by decide⟩ : Dev nD)) 0 (⟨c.val, c.isLt⟩ : Fin 32) :=
    bigSep_subset' (Finset.filter_subset _ _)
  rw [bigSep_univ_eq_zero_sep_others (fun c : Fin 32 => barToks (F := F) c),
    bigSep_univ_eq_zero_sep_others (fun c : Fin 32 => bigSep (Finset.univ : Finset (Fin 32)) fun j => (dutyTok ER (kcell (c, none)) 0 j : sProp 𝕄)),
    h0, bigSep_congr hc]
  iintro ⟨H0, Hc⟩
  isplitl [Hc]
  · iapply X; iexact Hc
  · iapply Y; iexact H0

theorem bigSep_regroup_right (A R : Dev nD → Fin 2 → Fin 32 → sProp 𝕄) :
    (bigSep (Finset.univ : Finset (Dev nD)) fun c => bigSep (Finset.univ : Finset (Fin 2)) fun h =>
        bigSep (Finset.univ : Finset (Fin 32)) fun d => iprop(A c h d ∗ R c h d))
      = bigSep (Finset.univ : Finset (Dev nD)) fun c => bigSep (Finset.univ : Finset (Fin 2)) fun h =>
        bigSep (Finset.univ : Finset (Fin 32)) fun d => iprop(A c h d ∗ R (fwd c d) h d) := by
  simp only [bigSep_sep']
  rw [bigSep_regroup R]

theorem dmaToks_around :
    (bigSep (Finset.univ : Finset (Dev nD)) fun c => bigSep Finset.univ fun xr : (Fin 3 × Fin 2 × Fin 32) × Fin 2 =>
        (dutyTok ER (kcell (c, some xr.1)) xr.2.val (0 : Fin 32) : sProp 𝕄))
      ⊢ bigSep (Finset.univ : Finset (Dev nD)) fun c => dmaToks c := by
  have step1 : ∀ c : Dev nD, (bigSep Finset.univ fun xr : (Fin 3 × Fin 2 × Fin 32) × Fin 2 =>
        (dutyTok ER (kcell (c, some xr.1)) xr.2.val (0 : Fin 32) : sProp 𝕄))
      ⊢ bigSep (Finset.univ : Finset (Fin 2)) fun h => bigSep (Finset.univ : Finset (Fin 32)) fun d =>
          iprop((dutyTok ER (sendCell c h d) 0 (0 : Fin 32) ∗ dutyTok ER (sendCell c h d) 1 (0 : Fin 32))
            ∗ (dutyTok ER (recv1Cell c h d) 0 (0 : Fin 32) ∗ dutyTok ER (recv2Cell c h d) 0 (0 : Fin 32))) := fun c => by
    rw [bigSep_univ_prod, bigSep_kinds]
    refine bigSep_mono' fun h _ => bigSep_mono' fun d _ => ?_
    rw [bigSep_univ_two, bigSep_univ_two, bigSep_univ_two]
    show iprop((dutyTok ER (sendCell c h d) 0 (0 : Fin 32) ∗ dutyTok ER (sendCell c h d) 1 (0 : Fin 32))
        ∗ (dutyTok ER (recv1Cell c h d) 0 (0 : Fin 32) ∗ dutyTok ER (recv1Cell c h d) 1 (0 : Fin 32))
        ∗ (dutyTok ER (recv2Cell c h d) 0 (0 : Fin 32) ∗ dutyTok ER (recv2Cell c h d) 1 (0 : Fin 32)))
      ⊢ iprop((dutyTok ER (sendCell c h d) 0 (0 : Fin 32) ∗ dutyTok ER (sendCell c h d) 1 (0 : Fin 32))
            ∗ (dutyTok ER (recv1Cell c h d) 0 (0 : Fin 32) ∗ dutyTok ER (recv2Cell c h d) 0 (0 : Fin 32)))
    iintro ⟨⟨HS0, HS1⟩, ⟨HR1, -⟩, ⟨HR2, -⟩⟩
    isplitl [HS0 HS1]
    · isplitl [HS0] <;> iassumption
    · isplitl [HR1] <;> iassumption
  refine (bigSep_mono' fun c _ => step1 c).trans ?_
  refine (Entails.of_eq (bigSep_regroup_right
    (fun c h d => iprop(dutyTok ER (sendCell c h d) 0 (0 : Fin 32) ∗ dutyTok ER (sendCell c h d) 1 (0 : Fin 32)))
    (fun c h d => iprop(dutyTok ER (recv1Cell c h d) 0 (0 : Fin 32) ∗ dutyTok ER (recv2Cell c h d) 0 (0 : Fin 32))))).trans ?_
  unfold dmaToks
  refine bigSep_mono' fun c _ => bigSep_mono' fun h _ => ?_
  refine (bigSep_subset' (Finset.filter_subset _ _)).trans (bigSep_mono' fun d _ => ?_)
  iintro ⟨⟨HS0, HS1⟩, HR1, HR2⟩
  isplitl [HS0]; · iexact HS0
  isplitl [HS1]; · iexact HS1
  isplitl [HR1]; · iexact HR1
  iexact HR2

theorem toks_around : (bigSep Finset.univ fun c : Dev nD => (toks c : sProp 𝕄)) ⊢ bigSep Finset.univ fun c : Dev nD => iprop(barToks c ∗ dmaToks c) := by
  unfold toks
  rw [bigSep_sep', bigSep_sep']
  iintro ⟨Hb, Hd⟩
  isplitl [Hb]
  · iapply (barToks_around (F := F)); iexact Hb
  · iapply (dmaToks_around (F := F)); iexact Hd

theorem barPart (c : Dev nD) : iprop(reachedAll ∗ barToks c)
    ⊢ (if c.val = 0 then bigSep others fun j => iprop(dutyTok ER (barCell (⟨j.val, j.isLt⟩ : Dev nD)) 0 (0 : Fin 32) ∗ reached ER (barCell (⟨j.val, j.isLt⟩ : Dev nD)) 0)
        else iprop(dutyTok ER (barCell (⟨0, by decide⟩ : Dev nD)) 0 (⟨c.val, c.isLt⟩ : Fin 32) ∗ reached ER (barCell (⟨0, by decide⟩ : Dev nD)) 0) : sProp 𝕄) := by
  unfold barToks
  by_cases hc : c.val = 0
  · rw [if_pos hc, if_pos hc, bigSep_sep']
    iintro ⟨#HR, Hb⟩
    isplitl [Hb]; · iexact Hb
    iapply (intro_bigSep_of_persistent others (reachedAll (F := F)) _ (fun j _ => reached_bar _)); iexact HR
  · rw [if_neg hc, if_neg hc]
    iintro ⟨#HR, Hb⟩
    isplitl [Hb]; · iexact Hb
    iapply (reached_bar (F := F) _); iexact HR

theorem tokens_intro (c : Dev nD) : iprop(reachedAll ∗ barToks c ∗ dmaToks c) ⊢ (tokens c : sProp 𝕄) := by
  unfold tokens
  iintro ⟨#HR, Hb, Hd⟩
  isplitl [Hb]
  · iapply (barPart c); isplitr; · iexact HR
    iexact Hb
  · unfold dmaToks; iexact Hd

/-- What the global step makes of it: the ghost state the body starts from, and the positions of the six cells
    at distance 0. -/
def G' (c : Dev nD) : sProp 𝕄 := iprop(∃ K, ghost m K c ∗ pos0 c)

def linear (c : Dev nD) : sProp 𝕄 :=
  iprop((bigSep Finset.univ fun x : Option (Fin 3 × Fin 2 × Fin 32) => atPos ER (kcell (c, x)) 0 ∅ 0) ∗ barToks c ∗ dmaToks c)

theorem ghost_intro (K : CellIx → ℕ) (c : Dev nD) : iprop(records m K ∗ linear c) ⊢ G' m c := by
  unfold records linear G' ghost invs
  iintro ⟨⟨#HI, #HR⟩, Hat, Hb, Hd⟩
  iexists K
  ihave Hp := (pos_split (F := F) c) $$ Hat
  icases Hp with ⟨Hpos, Hp0⟩
  isplitl [Hpos Hb Hd]
  · isplitr; · iexact HI
    isplitl [Hpos]; · iexact Hpos
    isplitr; · iapply (reachedOwn_intro (F := F) c); iexact HR
    iapply (tokens_intro (F := F) c)
    isplitr; · iexact HR
    isplitl [Hb]; · iexact Hb
    iexact Hd
  · iexact Hp0

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun x : Option (Fin 3 × Fin 2 × Fin 32) => iprop(∃ κ : ℕ, cellInv ER (sched m) κ (kcell (c, x))))
          ∗ (bigSep Finset.univ fun x : Option (Fin 3 × Fin 2 × Fin 32) => iprop(atPos ER (kcell (c, x)) 0 ∅ 0 ∗ reached ER (kcell (c, x)) 0)) ∗ toks c) : sProp 𝕄)
      ⊢ bigSep Finset.univ (G' m) := by
  rw [bigSep_sep', bigSep_sep', ← bigSep_univ_prod (fun ck : CellIx => iprop(∃ κ : ℕ, cellInv ER (sched m) κ (kcell ck))),
    bigSep_congr (s := Finset.univ) (fun (c : Dev nD) _ => bigSep_sep' Finset.univ (fun x : Option (Fin 3 × Fin 2 × Fin 32) => (atPos ER (kcell (c, x)) 0 ∅ 0 : sProp 𝕄)) (fun x => reached ER (kcell (c, x)) 0)),
    bigSep_sep', ← bigSep_univ_prod (fun ck : CellIx => (reached ER (kcell ck) 0 : sProp 𝕄))]
  iintro ⟨HI, ⟨Hat, #HR⟩, Htok⟩
  ihave HK := (BI.bigSep_exists_pi Finset.univ (fun (ck : CellIx) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records invs; isplitl; · iexact HI
    iexact HR
  · iapply (Entails.of_eq (bigSep_sep' Finset.univ (fun c : Dev nD => bigSep Finset.univ fun x : Option (Fin 3 × Fin 2 × Fin 32) => (atPos ER (kcell (c, x)) 0 ∅ 0 : sProp 𝕄)) (fun c => iprop(barToks c ∗ dmaToks c))).symm)
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.Kernel.Proto

end
-- ==== Proof.WLaunchStart.lean ====
import proofs.«900454_g7700000000000455_dist_matmul_relu_kshard_i_m512_n512_k256_v7x_i32_f32_1_alg».proof.Proof.WLaunchGlob

/-!
The launch, part four: the launch credit read as each device's credit for its waits (a barrier cell is owed 31
units if it is device 0's and one unit otherwise; each receive cell at distance d the credit of one half slot,
by the device d places before); the six cells at distance 0, which have no duty at any round, closed and their
counters handed on; and what each device's body starts from.
-/

set_option maxRecDepth 16384

noncomputable section

namespace Cert.Kernel.Proto

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch credit -/

theorem bar_eq_iff {a b : Dev nD} : Iff (barCell a = barCell b) (a = b) :=
  ⟨fun h => Fin.ext (congrArg (fun g : GSem nD τ sig => g.1.1.val) h), fun h => h ▸ rfl⟩

/-- What device d owes device c's barrier cell. -/
theorem owedBar_apply (d c : Dev nD) :
    owedBar d (barCell c) () = if d.val = 0 then (if c.val = 0 then 0 else 1) else (if c.val = 0 then 1 else 0) := by
  unfold owedBar
  by_cases hd : d.val = 0
  · rw [if_pos hd, if_pos hd, Finset.sum_apply, Finsupp.finsetSum_apply]
    have e : ∀ j ∈ others, tallyAt (barCell (⟨j.val, j.isLt⟩ : Dev nD)) () 1 (barCell c) () = if c = j then 1 else 0 := fun j _ => by
      rw [tallyAt_apply]
      by_cases hj : c = j
      · rw [if_pos hj, if_pos ⟨bar_eq_iff.mpr hj, rfl⟩]
      · rw [if_neg hj, if_neg (fun h => hj (bar_eq_iff.mp h.1))]
    rw [Finset.sum_congr rfl e, Finset.sum_ite_eq]
    by_cases hc : c.val = 0
    · rw [if_pos hc, if_neg]; intro hm; exact (Finset.mem_filter.mp hm).2 (Fin.ext hc)
    · rw [if_neg hc, if_pos]; exact Finset.mem_filter.mpr ⟨Finset.mem_univ _, fun e0 => hc (congrArg Fin.val e0)⟩
  · rw [if_neg hd, if_neg hd, tallyAt_apply]
    by_cases hc : c.val = 0
    · rw [if_pos hc, if_pos]; exact ⟨bar_eq_iff.mpr (Fin.ext hc), rfl⟩
    · rw [if_neg hc, if_neg]; intro h; exact hc (congrArg Fin.val (bar_eq_iff.mp h.1))

theorem sum_owedBar (c : Dev nD) : ∑ d : Dev nD, owedBar d (barCell c) () = if c.val = 0 then 31 else 1 := by
  rw [Finset.sum_congr rfl fun d _ => owedBar_apply d c]
  by_cases hc : c.val = 0
  · simp only [hc, if_true]; decide
  · simp only [hc, if_false]; decide

theorem launch_bar (c : Dev nD) :
    tallyOn (barCell c) (launchCredit (Pipeline.owing owedBar) 0 (barCell c))
      = (tallyAt (barCell c) () (if c.val = 0 then 31 else 1) : CellTallies nD τ sig Unit) := by
  unfold tallyAt; refine congrArg _ (Finsupp.ext fun u => ?_); cases u
  rw [Pipeline.launchCredit_owing, Finsupp.single_eq_same, sum_owedBar]

theorem cred_bar (c : Dev nD) :
    (Pipeline.launchCred owedBar c : sProp 𝕄) ⊢ cred (tallyAt (barCell c) () (if c.val = 0 then 31 else 1)) := by
  unfold Pipeline.launchCred
  exact (bigSep_elim' (Finset.mem_univ (SemLoc.reg barS))).trans (Entails.of_eq (congrArg cred (launch_bar c)))

theorem cred_recv1 (c : Dev nD) : (Pipeline.launchCred owedRecv1 c : sProp 𝕄)
    ⊢ bigSep (Finset.univ : Finset (Fin 2)) fun h => bigSep others fun d => cred (tallyAt (recv1Cell c h d) () N) := by
  refine (Entails.of_eq (Pipeline.launchCred_sum (Finset.univ : Finset (Fin 2)) (fun h d => ∑ d' ∈ others, tallyAt (recv1Cell (fwd d d') h d') () N) c)).trans ?_
  refine bigSep_mono' fun h _ => ?_
  refine (Entails.of_eq (Pipeline.launchCred_sum others (fun d' d => tallyAt (recv1Cell (fwd d d') h d') () N) c)).trans ?_
  refine bigSep_mono' fun d' _ => ?_
  exact Pipeline.launchCred_tallyAt (.dma (semAt cc0_scratch4 h d')) (fun d => fwd d d') (fun j => bwd j d') (fun j => fwd_bwd j d') (fun d => bwd_fwd d d') () N c

theorem cred_recv2 (c : Dev nD) : (Pipeline.launchCred owedRecv2 c : sProp 𝕄)
    ⊢ bigSep (Finset.univ : Finset (Fin 2)) fun h => bigSep others fun d => cred (tallyAt (recv2Cell c h d) () N) := by
  refine (Entails.of_eq (Pipeline.launchCred_sum (Finset.univ : Finset (Fin 2)) (fun h d => ∑ d' ∈ others, tallyAt (recv2Cell (fwd d d') h d') () N) c)).trans ?_
  refine bigSep_mono' fun h _ => ?_
  refine (Entails.of_eq (Pipeline.launchCred_sum others (fun d' d => tallyAt (recv2Cell (fwd d d') h d') () N) c)).trans ?_
  refine bigSep_mono' fun d' _ => ?_
  exact Pipeline.launchCred_tallyAt (.dma (semAt cc0_scratch5 h d')) (fun d => fwd d d') (fun j => bwd j d') (fun j => fwd_bwd j d') (fun d => bwd_fwd d d') () N c

theorem creds (c : Dev nD) : (Pipeline.launchCred O₀ c : sProp 𝕄) ⊢ credits c := by
  have e : (Pipeline.launchCred O₀ c : sProp 𝕄)
      = iprop((Pipeline.launchCred owedRecv2 c ∗ Pipeline.launchCred owedRecv1 c) ∗ Pipeline.launchCred owedBar c) := by
    rw [← Pipeline.launchCred_add, ← Pipeline.launchCred_add]; rfl
  rw [e]
  unfold credits
  simp only [bigSep_sep']
  iintro ⟨⟨H2, H1⟩, HB⟩
  isplitl [HB]; · iapply (cred_bar (F := F) c); iexact HB
  isplitl [H1]
  · iapply (cred_recv1 (F := F) c); iexact H1
  · iapply (cred_recv2 (F := F) c); iexact H2

/-! ## The six cells at distance 0 closed; what the body starts from -/

instance invs_persistent (K : CellIx → ℕ) : BI.Persistent (invs m K) := by unfold invs; infer_instance

theorem duties_zero (c : Dev nD) (k : Fin 3) (h : Fin 2) (r : ℕ) : (sched (F := F) m).duties (kcell (c, some (k, h, 0))) r = ∅ := by
  have hk : k = 0 ∨ k = 1 ∨ k = 2 := by omega
  rcases hk with rfl | rfl | rfl
  · show (sched (F := F) m).duties (sendCell c h 0) r = ∅
    simp [sched, semKind_send]
  · show (sched (F := F) m).duties (recv1Cell c h 0) r = ∅
    simp [sched, semKind_recv1]
  · show (sched (F := F) m).duties (recv2Cell c h 0) r = ∅
    simp [sched, semKind_recv2]

theorem close_cell (K : CellIx → ℕ) (c : Dev nD) (k : Fin 3) (h : Fin 2) :
    iprop(invs m K ∗ atPos ER (kcell (c, some (k, h, 0))) 0 ∅ 0) ⊢ |={Set.univ}=> semVal (kcell (c, some (k, h, 0))) 0 := by
  unfold invs
  iintro ⟨#HI, Hat⟩
  iapply (Rounds.cell_close ER (sched m) (κ := K (c, some (k, h, 0))) (Set.mem_univ _) (fun hu => hu) (R := 0) (fun r _ => duties_zero m c k h r))
  isplitr
  · iapply (bigSep_elim' (Φ := fun x : CellIx => cellInv ER (sched m) (K x) (kcell x)) (Finset.mem_univ ((c, some (k, h, 0)) : CellIx))); iexact HI
  · iexact Hat

theorem close0 (K : CellIx → ℕ) (c : Dev nD) : iprop(invs m K ∗ pos0 c) ⊢ |={Set.univ}=> zeroSems c := by
  unfold pos0 zeroSems
  refine (bigSep_with_persistent (R := invs m K)
    (Ψ := fun h => iprop(|={Set.univ}=> (semVal (sendCell c h 0) 0 ∗ semVal (recv1Cell c h 0) 0 ∗ semVal (recv2Cell c h 0) 0))) fun h _ => ?_).trans (bigSep_fupd _ _)
  iintro ⟨#HI, Ha, Hb, Hc⟩
  imod (close_cell m K c 0 h) $$ [Ha] with Hsa
  · isplitr; · iexact HI
    iexact Ha
  imod (close_cell m K c 1 h) $$ [Hb] with Hsb
  · isplitr; · iexact HI
    iexact Hb
  imod (close_cell m K c 2 h) $$ [Hc] with Hsc
  · isplitr; · iexact HI
    iexact Hc
  imodintro
  isplitl [Hsa]; · iexact Hsa
  isplitl [Hsb]; · iexact Hsb
  iexact Hsc

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(startX m c ∗ emp) := by
  unfold G' startX start ghost
  iintro ⟨-, Hlev, Hcr, -, ⟨%K, ⟨#HI, Hpos, Hro, Htk⟩, Hp0⟩⟩
  ihave Hc := (creds (F := F) c) $$ Hcr
  imod (close0 m K c) $$ [Hp0] with Hz
  · isplitr; · iexact HI
    iexact Hp0
  imodintro
  isplitl
  · isplitl [Hpos Hro Htk Hc Hlev]
    · isplitl [Hpos Hro Htk]
      · iexists K
        isplitr; · iexact HI
        isplitl [Hpos]; · iexact Hpos
        isplitl [Hro]; · iexact Hro
        iexact Htk
      isplitl [Hc]; · iexact Hc
      iexact Hlev
    · iexact Hz
  · iempintro

end Cert.Kernel.Proto

end
-- ==== Proof.WLaunchRun.lean ====
import proofs.«900454_g7700000000000455_dist_matmul_relu_kshard_i_m512_n512_k256_v7x_i32_f32_1_alg».proof.Proof.WLaunchStart

/-!
The launch, closed: for any float instance, from any memory with every semaphore counter at zero, every weakly
fair execution of the 32 devices' kernels terminates, provided one device's body meets its obligation at the one
grid point; and every final state has, on every device, the result array at the block the body left and the two
argument arrays as they were.
-/

set_option maxRecDepth 16384

noncomputable section

namespace Cert.Kernel.Proto

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxRecDepth 16384 in
theorem kernel_run_of_body
    (hbody : ∀ c : Dev nD, Pipeline.BodyObligationLoose (datsX (F := F) m 0 c) (defs₀ (F := F)) 𝒱₀ () Set.univ) :
    θ_run (defs (F := F)) (onTc (τ := τ) (main (F := F))) ⟨m, fun _ => 0, ρ⟩ (fun r => ∀ c : Dev nD,
      r.2.mem ((c.tc : Thread nD τ).loc main_v1) = outAt m
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_region_owing_glob_pf (fun p => (cfgs p).toPCfg) (fun p => (cfgs p).toPCfg_adm) (datsX m) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := fund_all m)
    (hglob := glob m)
    (hA := fun _ _ => rfl) (hpf := fun _ k => k.elim0)
    (X := startX m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun s h c => ⟨((h c).1 (2 : Fin 3)).trans (final_out m c), ((h c).1 (0 : Fin 3)).trans (final_in0 m c), ((h c).1 (1 : Fin 3)).trans (final_in1 m c)⟩)

/-- info: 'Cert.Kernel.Proto.kernel_run_of_body' depends on axioms: [propext, Classical.choice, Quot.sound] -/
#guard_msgs in #print axioms kernel_run_of_body

end Cert.Kernel.Proto

end
-- ==== Proof.WSlots.lean ====
import proofs.«900454_g7700000000000455_dist_matmul_relu_kshard_i_m512_n512_k256_v7x_i32_f32_1_alg».proof.Proof.Gen.Kernel
import proofs.«900454_g7700000000000455_dist_matmul_relu_kshard_i_m512_n512_k256_v7x_i32_f32_1_alg».proof.Proof.Gen.Kernel.Skeleton
import proofs.«900454_g7700000000000455_dist_matmul_relu_kshard_i_m512_n512_k256_v7x_i32_f32_1_alg».proof.Proof.Gen.Kernel.Launch
import proofs.«900454_g7700000000000455_dist_matmul_relu_kshard_i_m512_n512_k256_v7x_i32_f32_1_alg».proof.Proof.WSched
import Idealize.ShloMosaic.Lib.Pipeline.Launch
import Idealize.ShloMosaic.Lib.Pipeline.Kit
import Idealize.ShloMosaic.Lib.Tactic

set_option maxRecDepth 16384

noncomputable section

namespace Cert.Kernel.Proto

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## A scratch buffer is its 32 × 2 half slots -/

theorem slot_disjoint {t t' : Fin 32} {h h' : Fin 2} (hne : (t, h) ≠ (t', h')) : Disjoint (slot t h).set (slot t' h').set := by
  rw [Finset.disjoint_left]
  intro i hi hi'
  rw [mem_slot] at hi hi'
  apply hne
  have e1 : t = t' := Fin.ext (hi.1.symm.trans hi'.1)
  have e2 : h = h' := by
    apply Fin.ext; have := h.isLt; have := h'.isLt; omega
  rw [e1, e2]

theorem slot_cover : (Finset.univ : Finset (Fin 32 × Fin 2)).biUnion (fun x => (slot x.1 x.2).set) = Finset.univ := by
  ext i
  simp only [Finset.mem_biUnion, Finset.mem_univ, true_and, iff_true]
  have h2 : (i 2).val < 512 := (i 2).isLt
  refine ⟨(⟨(i 0).val, (i 0).isLt⟩, ⟨(i 2).val / 256, by omega⟩), ?_⟩
  rw [mem_slot]
  refine ⟨rfl, ?_, ?_⟩
  · show 256 * ((i 2).val / 256) ≤ (i 2).val; omega
  · show (i 2).val < 256 * ((i 2).val / 256) + 256; omega

/-- Each whole scratch buffer held at `f` is every half slot of it held at `f`. -/
theorem scratch0_split (c : Dev nD) (q : PosShare TreeShare) (f : Scr F) :
    ((((c : Thread nD τ).loc cc0_scratch0) ↦{q} f) : sProp 𝕄)
      = bigSep (Finset.univ : Finset (Fin 32 × Fin 2)) fun x => partPts c x.1 x.2 q f := by
  rw [← slot_cover]
  exact pointsTo_biUnion _ _ fun x _ y _ hxy => slot_disjoint (fun e => hxy (Prod.ext (congrArg Prod.fst e) (congrArg Prod.snd e)))
theorem scratch1_split (c : Dev nD) (q : PosShare TreeShare) (f : Scr F) :
    ((((c : Thread nD τ).loc cc0_scratch1) ↦{q} f) : sProp 𝕄)
      = bigSep (Finset.univ : Finset (Fin 32 × Fin 2)) fun x => gathPts c x.1 x.2 q f := by
  rw [← slot_cover]
  exact pointsTo_biUnion _ _ fun x _ y _ hxy => slot_disjoint (fun e => hxy (Prod.ext (congrArg Prod.fst e) (congrArg Prod.snd e)))
theorem scratch2_split (c : Dev nD) (q : PosShare TreeShare) (f : Scr F) :
    ((((c : Thread nD τ).loc cc0_scratch2) ↦{q} f) : sProp 𝕄)
      = bigSep (Finset.univ : Finset (Fin 32 × Fin 2)) fun x => resPts c x.1 x.2 q f := by
  rw [← slot_cover]
  exact pointsTo_biUnion _ _ fun x _ y _ hxy => slot_disjoint (fun e => hxy (Prod.ext (congrArg Prod.fst e) (congrArg Prod.snd e)))

end Cert.Kernel.Proto

end
-- ==== Proof.WGive.lean ====
import proofs.«900454_g7700000000000455_dist_matmul_relu_kshard_i_m512_n512_k256_v7x_i32_f32_1_alg».proof.Proof.Gen.Kernel
import proofs.«900454_g7700000000000455_dist_matmul_relu_kshard_i_m512_n512_k256_v7x_i32_f32_1_alg».proof.Proof.Gen.Kernel.Skeleton
import proofs.«900454_g7700000000000455_dist_matmul_relu_kshard_i_m512_n512_k256_v7x_i32_f32_1_alg».proof.Proof.Gen.Kernel.Launch
import proofs.«900454_g7700000000000455_dist_matmul_relu_kshard_i_m512_n512_k256_v7x_i32_f32_1_alg».proof.Proof.WSlots
import Idealize.ShloMosaic.Lib.SparseCore.Launch
import Idealize.ShloMosaic.Lib.Pipeline.Launch
import Idealize.ShloMosaic.Lib.Pipeline.Kit
import Idealize.ShloMosaic.Lib.Tactic

set_option maxRecDepth 16384

noncomputable section

namespace Cert.Kernel.Proto

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## What a device gives away at entry, cut out of its two receiving buffers -/

theorem slot_cover' : (Finset.univ : Finset (Fin 2 × Fin 32)).biUnion (fun x => (slot x.2 x.1).set) = Finset.univ := by
  ext i
  simp only [Finset.mem_biUnion, Finset.mem_univ, true_and, iff_true]
  have h2 : (i 2).val < 512 := (i 2).isLt
  refine ⟨(⟨(i 2).val / 256, by omega⟩, ⟨(i 0).val, (i 0).isLt⟩), ?_⟩
  rw [mem_slot]
  refine ⟨rfl, ?_, ?_⟩
  · show 256 * ((i 2).val / 256) ≤ (i 2).val; omega
  · show (i 2).val < 256 * ((i 2).val / 256) + 256; omega

theorem others_compl : (Finset.univ : Finset (Fin 32)).filter (fun d => ¬ d ≠ 0) = {0} := by decide

/-- The slots of the gathering buffer other devices write: all but slot 0. -/
theorem gath_split (c : Dev nD) (f : Scr F) :
    ((((c : Thread nD τ).loc cc0_scratch1) ↦{fullShare} f) : sProp 𝕄)
      = bigSep (Finset.univ : Finset (Fin 2)) fun h => iprop(gathPts c 0 h fullShare f ∗ bigSep others fun d => gathPts c d h fullShare f) := by
  rw [← slot_cover', pointsTo_biUnion _ _ fun x _ y _ hxy => slot_disjoint (fun e => hxy (Prod.ext (congrArg Prod.snd e) (congrArg Prod.fst e))),
    ← Finset.univ_product_univ, SparseCore.bigSep_product]
  refine bigSep_congr fun h _ => ?_
  rw [bigSep_filter_split Finset.univ (fun d : Fin 32 => d ≠ 0), others_compl, bigSep_singleton]
  have hcomm : ∀ P Q : sProp 𝕄, BI.sep P Q = BI.sep Q P := fun P Q => BI.equiv_iff.mp ⟨BI.sep_comm, BI.sep_comm⟩
  exact (hcomm _ _).trans rfl

/-- The slots of the result buffer other devices write: all but the device's own. -/
theorem res_split (c : Dev nD) (f : Scr F) :
    ((((c : Thread nD τ).loc cc0_scratch2) ↦{fullShare} f) : sProp 𝕄)
      = bigSep (Finset.univ : Finset (Fin 2)) fun h => iprop(resPts c c h fullShare f ∗ bigSep others fun d => resPts c (bwd c d) h fullShare f) := by
  rw [← slot_cover', pointsTo_biUnion _ _ fun x _ y _ hxy => slot_disjoint (fun e => hxy (Prod.ext (congrArg Prod.snd e) (congrArg Prod.fst e))),
    ← Finset.univ_product_univ, SparseCore.bigSep_product]
  refine bigSep_congr fun h _ => ?_
  have himg : (Finset.univ : Finset (Fin 32)) = insert c (others.image (bwd c)) := by
    ext t
    simp only [Finset.mem_univ, Finset.mem_insert, Finset.mem_image, Finset.mem_filter, _root_.true_and, true_iff]
    by_cases ht : t = c
    · exact Or.inl ht
    · refine Or.inr ⟨⟨(c.val + 32 - t.val) % 32, Nat.mod_lt _ (by decide)⟩, ?_, ?_⟩
      · intro h0
        have h0' : (c.val + 32 - t.val) % 32 = 0 := congrArg Fin.val h0
        have hc : c.val < 32 := c.isLt; have ht' : t.val < 32 := t.isLt
        exact ht (Fin.ext (by show t.val = c.val; omega))
      · apply Fin.ext; have hc : c.val < 32 := c.isLt; have hc : t.val < 32 := t.isLt
        show (c.val + 32 - (c.val + 32 - t.val) % 32) % 32 = t.val; omega
  have hnot : c ∉ others.image (bwd c) := by
    simp only [Finset.mem_image, Finset.mem_filter, Finset.mem_univ, _root_.true_and, not_exists, not_and]
    intro d hd e
    have e' : (c.val + 32 - d.val) % 32 = c.val := congrArg Fin.val e
    have hc : c.val < 32 := c.isLt; have := d.isLt
    exact hd (Fin.ext (by show d.val = 0; omega))
  have hinj : Set.InjOn (bwd c) (others : Finset (Fin 32)) := by
    intro a _ b _ e
    have e' : (c.val + 32 - a.val) % 32 = (c.val + 32 - b.val) % 32 := congrArg Fin.val e
    have hc : c.val < 32 := c.isLt; have := a.isLt; have := b.isLt
    exact Fin.ext (by omega)
  rw [himg, bigSep_insert hnot, bigSep_image_of_injOn hinj]
  rfl

/-- Round 0 of every receive cell of device `c` is reached. -/
def reachedRecv (c : Dev nD) : sProp 𝕄 :=
  bigSep (Finset.univ : Finset (Fin 2)) fun h => bigSep others fun d =>
    iprop(reached ER (recv1Cell c h d) 0 ∗ reached ER (recv2Cell c h d) 0)

theorem give_comp (c : Dev nD) (g1 g2 : Scr F) (h : Fin 2) (d : Fin 32) :
    (iprop(gathPts c d h fullShare g1 ∗ resPts c (bwd c d) h fullShare g2
        ∗ (reached ER (recv1Cell c h d) 0 ∗ reached ER (recv2Cell c h d) 0)) : sProp 𝕄)
      ⊢ iprop((∃ f, gathPts c d h fullShare f) ∗ (∃ f, resPts c (bwd c d) h fullShare f)
        ∗ reached ER (recv1Cell c h d) 0 ∗ reached ER (recv2Cell c h d) 0) := by
  iintro ⟨HG, HR, HX1, HX2⟩
  isplitl [HG]; · iexists g1; iexact HG
  isplitl [HR]; · iexists g2; iexact HR
  isplitl [HX1]; · iexact HX1
  iexact HX2

theorem give_of_parts (c : Dev nD) (g1 g2 : Scr F) :
    iprop((bigSep (Finset.univ : Finset (Fin 2)) fun h => bigSep others fun d => gathPts c d h fullShare g1)
        ∗ (bigSep (Finset.univ : Finset (Fin 2)) fun h => bigSep others fun d => resPts c (bwd c d) h fullShare g2)
        ∗ reachedRecv c)
      ⊢ (give c : sProp 𝕄) := by
  have e : (bigSep (Finset.univ : Finset (Fin 2)) fun h => bigSep others fun d =>
        iprop(gathPts c d h fullShare g1 ∗ resPts c (bwd c d) h fullShare g2
          ∗ (reached ER (recv1Cell c h d) 0 ∗ reached ER (recv2Cell c h d) 0)) : sProp 𝕄)
      = iprop((bigSep (Finset.univ : Finset (Fin 2)) fun h => bigSep others fun d => gathPts c d h fullShare g1)
        ∗ (bigSep (Finset.univ : Finset (Fin 2)) fun h => bigSep others fun d => resPts c (bwd c d) h fullShare g2)
        ∗ reachedRecv c) := by
    unfold reachedRecv
    simp only [bigSep_sep']
  rw [← e]
  unfold give
  exact bigSep_mono fun h _ => bigSep_mono fun d _ => give_comp c g1 g2 h d

/-- From its gathering buffer and its result buffer, both whole, and the reached rounds of its receive cells, a
    device makes what it gives away at entry; it keeps slot 0 of the first and its own slot of the second. -/
theorem give_intro (c : Dev nD) (g1 g2 : Scr F) :
    iprop((((c : Thread nD τ).loc cc0_scratch1) ↦{fullShare} g1) ∗ (((c : Thread nD τ).loc cc0_scratch2) ↦{fullShare} g2) ∗ reachedRecv c)
      ⊢ (iprop(give c ∗ (bigSep (Finset.univ : Finset (Fin 2)) fun h => gathPts c 0 h fullShare g1)
          ∗ (bigSep (Finset.univ : Finset (Fin 2)) fun h => resPts c c h fullShare g2)) : sProp 𝕄) := by
  rw [gath_split, res_split, bigSep_sep', bigSep_sep']
  iintro ⟨⟨HG0, HG⟩, ⟨HR0, HR⟩, HX⟩
  isplitl [HG HR HX]
  · iapply (give_of_parts c g1 g2)
    isplitl [HG]; · iexact HG
    isplitl [HR]; · iexact HR
    iexact HX
  · isplitl [HG0]; · iexact HG0
    iexact HR0

end Cert.Kernel.Proto

end
-- ==== Proof.WDevEq.lean ====
import proofs.«900454_g7700000000000455_dist_matmul_relu_kshard_i_m512_n512_k256_v7x_i32_f32_1_alg».proof.Proof.WCells

/-!
Closed forms of the words the kernel computes from its device number c (one of 32): which of the
two branches of the barrier it takes, which device each of its copies addresses, and which half slot
of a 32 × 16 × 512 buffer each of its computed offsets names.

* Device 0 takes the first branch and every other device the second.
* The copy at distance d (1 ≤ d ≤ 31) reads half slots of slot (c + d) % 32 and waits on half slots
  of slot (c + 32 - d) % 32; the offsets on the device's own slot are c itself.
-/

set_option maxRecDepth 16384
set_option Elab.async false

noncomputable section

namespace Cert.Kernel.Proto

open Cert.Kernel Cert.Kernel.Gen
open Idealize.ShloMosaic
open Idealize.ShloMosaic.TcCoe

/-! ## The two branches of the barrier -/

/-- Every device but device 0 fails the first condition and meets the second. -/
theorem cond_of_ne_zero : ∀ c : Dev nD, c.val ≠ 0 → k0_cond1 c = 0#1 ∧ k0_cond2 c = 1#1 := by decide +kernel

/-- Device 0 meets the first condition and fails the second. -/
theorem cond_of_eq_zero : ∀ c : Dev nD, c.val = 0 → k0_cond1 c = 1#1 ∧ k0_cond2 c = 0#1 := by decide +kernel

theorem cond1_of_ne_zero (c : Dev nD) (h : c.val ≠ 0) : k0_cond1 c = 0#1 := (cond_of_ne_zero c h).1
theorem cond2_of_ne_zero (c : Dev nD) (h : c.val ≠ 0) : k0_cond2 c = 1#1 := (cond_of_ne_zero c h).2
theorem cond1_of_eq_zero (c : Dev nD) (h : c.val = 0) : k0_cond1 c = 1#1 := (cond_of_eq_zero c h).1
theorem cond2_of_eq_zero (c : Dev nD) (h : c.val = 0) : k0_cond2 c = 0#1 := (cond_of_eq_zero c h).2

/-! ## The computed offsets, for the copy at distance 1 + r -/

/-- First half of the slot 1 + r places after c. -/
theorem k0_off2_eq : ∀ c : Dev nD, ∀ r : Fin 31,
    k0_off2 c (BitVec.ofNat 32 (1 + r.val)) = ![(c.val + (1 + r.val)) % 32, 0, 0] := by decide +kernel

/-- Second half of the slot 1 + r places after c. -/
theorem k0_off3_eq : ∀ c : Dev nD, ∀ r : Fin 31,
    k0_off3 c (BitVec.ofNat 32 (1 + r.val)) = ![(c.val + (1 + r.val)) % 32, 0, 256] := by decide +kernel

/-- First half of the slot 1 + r places before c. -/
theorem k0_off8_eq : ∀ c : Dev nD, ∀ r : Fin 31,
    k0_off8 c (BitVec.ofNat 32 (1 + r.val)) = ![(c.val + 32 - (1 + r.val)) % 32, 0, 0] := by decide +kernel

/-- Second half of the slot 1 + r places before c. -/
theorem k0_off9_eq : ∀ c : Dev nD, ∀ r : Fin 31,
    k0_off9 c (BitVec.ofNat 32 (1 + r.val)) = ![(c.val + 32 - (1 + r.val)) % 32, 0, 256] := by decide +kernel

/-! ## The rectangles those offsets name -/

/-- Unit-stride rectangles of one size at equal offsets are equal. -/
theorem rect_unit_congr {s : Shape} {off off' size : Fin s.rank → ℕ} (h : off = off')
    (p : ∀ a, off a + size a ≤ s.size a) (p' : ∀ a, off' a + size a ≤ s.size a) :
    Rect.unit off size p = Rect.unit off' size p' := by
  subst h
  rfl

/-- The distance 1 + r as one of the 32 places. -/
def dist (r : Fin 31) : Fin 32 := ⟨1 + r.val, by omega⟩

@[simp] theorem dist_val (r : Fin 31) : (dist r).val = 1 + r.val := rfl

theorem k0_off2_slot (c : Dev nD) (r : Fin 31) :
    Rect.unit (s := S32x16x512) (k0_off2 c (BitVec.ofNat 32 (1 + r.val))) S1x16x256.size (k0_off2_inb c r)
      = slot (fwd c (dist r)) 0 :=
  rect_unit_congr (k0_off2_eq c r) _ _

theorem k0_off3_slot (c : Dev nD) (r : Fin 31) :
    Rect.unit (s := S32x16x512) (k0_off3 c (BitVec.ofNat 32 (1 + r.val))) S1x16x256.size (k0_off3_inb c r)
      = slot (fwd c (dist r)) 1 :=
  rect_unit_congr (k0_off3_eq c r) _ _

theorem k0_off8_slot (c : Dev nD) (r : Fin 31) :
    Rect.unit (s := S32x16x512) (k0_off8 c (BitVec.ofNat 32 (1 + r.val))) S1x16x256.size (k0_off8_inb c r)
      = slot (bwd c (dist r)) 0 :=
  rect_unit_congr (k0_off8_eq c r) _ _

theorem k0_off9_slot (c : Dev nD) (r : Fin 31) :
    Rect.unit (s := S32x16x512) (k0_off9 c (BitVec.ofNat 32 (1 + r.val))) S1x16x256.size (k0_off9_inb c r)
      = slot (bwd c (dist r)) 1 :=
  rect_unit_congr (k0_off9_eq c r) _ _

/-! ## The device's own slot -/

theorem k0_off4_slot (c : Dev nD) :
    Rect.unit (s := S32x16x512) (k0_off4 c) S1x16x256.size (k0_off4_inb c) = slot c 0 :=
  rect_unit_congr (k0_off4_eq c) _ _

theorem k0_off5_slot (c : Dev nD) :
    Rect.unit (s := S32x16x512) (k0_off5 c) S1x16x256.size (k0_off5_inb c) = slot c 0 :=
  rect_unit_congr (k0_off5_eq c) _ _

theorem k0_off6_slot (c : Dev nD) :
    Rect.unit (s := S32x16x512) (k0_off6 c) S1x16x256.size (k0_off6_inb c) = slot c 1 :=
  rect_unit_congr (k0_off6_eq c) _ _

theorem k0_off7_slot (c : Dev nD) :
    Rect.unit (s := S32x16x512) (k0_off7 c) S1x16x256.size (k0_off7_inb c) = slot c 1 :=
  rect_unit_congr (k0_off7_eq c) _ _

end Cert.Kernel.Proto

end
-- ==== Proof.WDevTab.lean ====
import proofs.«900454_g7700000000000455_dist_matmul_relu_kshard_i_m512_n512_k256_v7x_i32_f32_1_alg».proof.Proof.WDevEq

/-!
The closed forms of Proof/DevEq.lean at each of the kernel's 31 distances d = 1 … 31, spelt with the literal
words the program carries: the device 0 signals at the barrier (device d), the device 0 is signalled by
(device 0), the device each copy at distance d addresses ((c + d) % 32, in both rounds and both column
halves), and the half slot each computed offset names.
-/

set_option maxRecDepth 16384
set_option Elab.async false

noncomputable section

namespace Cert.Kernel.Proto

open Cert.Kernel Cert.Kernel.Gen
open Idealize.ShloMosaic
open Idealize.ShloMosaic.TcCoe

/-! ## The barrier's peers -/

theorem k0_dev1_peer (c : Dev nD) (h : k0_cond1 c = 1#1) : (⟨k0_dev1, k0_dev1_lt c h⟩ : Dev nD) = 1 := Fin.ext k0_dev1_eq
theorem k0_dev2_peer (c : Dev nD) (h : k0_cond1 c = 1#1) : (⟨k0_dev2, k0_dev2_lt c h⟩ : Dev nD) = 2 := Fin.ext k0_dev2_eq
theorem k0_dev3_peer (c : Dev nD) (h : k0_cond1 c = 1#1) : (⟨k0_dev3, k0_dev3_lt c h⟩ : Dev nD) = 3 := Fin.ext k0_dev3_eq
theorem k0_dev4_peer (c : Dev nD) (h : k0_cond1 c = 1#1) : (⟨k0_dev4, k0_dev4_lt c h⟩ : Dev nD) = 4 := Fin.ext k0_dev4_eq
theorem k0_dev5_peer (c : Dev nD) (h : k0_cond1 c = 1#1) : (⟨k0_dev5, k0_dev5_lt c h⟩ : Dev nD) = 5 := Fin.ext k0_dev5_eq
theorem k0_dev6_peer (c : Dev nD) (h : k0_cond1 c = 1#1) : (⟨k0_dev6, k0_dev6_lt c h⟩ : Dev nD) = 6 := Fin.ext k0_dev6_eq
theorem k0_dev7_peer (c : Dev nD) (h : k0_cond1 c = 1#1) : (⟨k0_dev7, k0_dev7_lt c h⟩ : Dev nD) = 7 := Fin.ext k0_dev7_eq
theorem k0_dev8_peer (c : Dev nD) (h : k0_cond1 c = 1#1) : (⟨k0_dev8, k0_dev8_lt c h⟩ : Dev nD) = 8 := Fin.ext k0_dev8_eq
theorem k0_dev9_peer (c : Dev nD) (h : k0_cond1 c = 1#1) : (⟨k0_dev9, k0_dev9_lt c h⟩ : Dev nD) = 9 := Fin.ext k0_dev9_eq
theorem k0_dev10_peer (c : Dev nD) (h : k0_cond1 c = 1#1) : (⟨k0_dev10, k0_dev10_lt c h⟩ : Dev nD) = 10 := Fin.ext k0_dev10_eq
theorem k0_dev11_peer (c : Dev nD) (h : k0_cond1 c = 1#1) : (⟨k0_dev11, k0_dev11_lt c h⟩ : Dev nD) = 11 := Fin.ext k0_dev11_eq
theorem k0_dev12_peer (c : Dev nD) (h : k0_cond1 c = 1#1) : (⟨k0_dev12, k0_dev12_lt c h⟩ : Dev nD) = 12 := Fin.ext k0_dev12_eq
theorem k0_dev13_peer (c : Dev nD) (h : k0_cond1 c = 1#1) : (⟨k0_dev13, k0_dev13_lt c h⟩ : Dev nD) = 13 := Fin.ext k0_dev13_eq
theorem k0_dev14_peer (c : Dev nD) (h : k0_cond1 c = 1#1) : (⟨k0_dev14, k0_dev14_lt c h⟩ : Dev nD) = 14 := Fin.ext k0_dev14_eq
theorem k0_dev15_peer (c : Dev nD) (h : k0_cond1 c = 1#1) : (⟨k0_dev15, k0_dev15_lt c h⟩ : Dev nD) = 15 := Fin.ext k0_dev15_eq
theorem k0_dev16_peer (c : Dev nD) (h : k0_cond1 c = 1#1) : (⟨k0_dev16, k0_dev16_lt c h⟩ : Dev nD) = 16 := Fin.ext k0_dev16_eq
theorem k0_dev17_peer (c : Dev nD) (h : k0_cond1 c = 1#1) : (⟨k0_dev17, k0_dev17_lt c h⟩ : Dev nD) = 17 := Fin.ext k0_dev17_eq
theorem k0_dev18_peer (c : Dev nD) (h : k0_cond1 c = 1#1) : (⟨k0_dev18, k0_dev18_lt c h⟩ : Dev nD) = 18 := Fin.ext k0_dev18_eq
theorem k0_dev19_peer (c : Dev nD) (h : k0_cond1 c = 1#1) : (⟨k0_dev19, k0_dev19_lt c h⟩ : Dev nD) = 19 := Fin.ext k0_dev19_eq
theorem k0_dev20_peer (c : Dev nD) (h : k0_cond1 c = 1#1) : (⟨k0_dev20, k0_dev20_lt c h⟩ : Dev nD) = 20 := Fin.ext k0_dev20_eq
theorem k0_dev21_peer (c : Dev nD) (h : k0_cond1 c = 1#1) : (⟨k0_dev21, k0_dev21_lt c h⟩ : Dev nD) = 21 := Fin.ext k0_dev21_eq
theorem k0_dev22_peer (c : Dev nD) (h : k0_cond1 c = 1#1) : (⟨k0_dev22, k0_dev22_lt c h⟩ : Dev nD) = 22 := Fin.ext k0_dev22_eq
theorem k0_dev23_peer (c : Dev nD) (h : k0_cond1 c = 1#1) : (⟨k0_dev23, k0_dev23_lt c h⟩ : Dev nD) = 23 := Fin.ext k0_dev23_eq
theorem k0_dev24_peer (c : Dev nD) (h : k0_cond1 c = 1#1) : (⟨k0_dev24, k0_dev24_lt c h⟩ : Dev nD) = 24 := Fin.ext k0_dev24_eq
theorem k0_dev25_peer (c : Dev nD) (h : k0_cond1 c = 1#1) : (⟨k0_dev25, k0_dev25_lt c h⟩ : Dev nD) = 25 := Fin.ext k0_dev25_eq
theorem k0_dev26_peer (c : Dev nD) (h : k0_cond1 c = 1#1) : (⟨k0_dev26, k0_dev26_lt c h⟩ : Dev nD) = 26 := Fin.ext k0_dev26_eq
theorem k0_dev27_peer (c : Dev nD) (h : k0_cond1 c = 1#1) : (⟨k0_dev27, k0_dev27_lt c h⟩ : Dev nD) = 27 := Fin.ext k0_dev27_eq
theorem k0_dev28_peer (c : Dev nD) (h : k0_cond1 c = 1#1) : (⟨k0_dev28, k0_dev28_lt c h⟩ : Dev nD) = 28 := Fin.ext k0_dev28_eq
theorem k0_dev29_peer (c : Dev nD) (h : k0_cond1 c = 1#1) : (⟨k0_dev29, k0_dev29_lt c h⟩ : Dev nD) = 29 := Fin.ext k0_dev29_eq
theorem k0_dev30_peer (c : Dev nD) (h : k0_cond1 c = 1#1) : (⟨k0_dev30, k0_dev30_lt c h⟩ : Dev nD) = 30 := Fin.ext k0_dev30_eq
theorem k0_dev31_peer (c : Dev nD) (h : k0_cond1 c = 1#1) : (⟨k0_dev31, k0_dev31_lt c h⟩ : Dev nD) = 31 := Fin.ext k0_dev31_eq
theorem k0_dev32_peer (c : Dev nD) (h : k0_cond2 c = 1#1) : (⟨k0_dev32, k0_dev32_lt c h⟩ : Dev nD) = 0 := Fin.ext k0_dev32_eq

/-! ## The device each copy addresses: first round (two column halves), then second round -/

theorem k0_dev33_val : ∀ c : Dev nD, k0_dev33 c = (c.val + 1) % 32 := by decide +kernel
theorem k0_dev33_fwd (c : Dev nD) : (⟨k0_dev33 c, k0_dev33_lt c⟩ : Dev nD) = fwd c 1 := Fin.ext (k0_dev33_val c)
theorem k0_dev34_val : ∀ c : Dev nD, k0_dev34 c = (c.val + 2) % 32 := by decide +kernel
theorem k0_dev34_fwd (c : Dev nD) : (⟨k0_dev34 c, k0_dev34_lt c⟩ : Dev nD) = fwd c 2 := Fin.ext (k0_dev34_val c)
theorem k0_dev35_val : ∀ c : Dev nD, k0_dev35 c = (c.val + 3) % 32 := by decide +kernel
theorem k0_dev35_fwd (c : Dev nD) : (⟨k0_dev35 c, k0_dev35_lt c⟩ : Dev nD) = fwd c 3 := Fin.ext (k0_dev35_val c)
theorem k0_dev36_val : ∀ c : Dev nD, k0_dev36 c = (c.val + 4) % 32 := by decide +kernel
theorem k0_dev36_fwd (c : Dev nD) : (⟨k0_dev36 c, k0_dev36_lt c⟩ : Dev nD) = fwd c 4 := Fin.ext (k0_dev36_val c)
theorem k0_dev37_val : ∀ c : Dev nD, k0_dev37 c = (c.val + 5) % 32 := by decide +kernel
theorem k0_dev37_fwd (c : Dev nD) : (⟨k0_dev37 c, k0_dev37_lt c⟩ : Dev nD) = fwd c 5 := Fin.ext (k0_dev37_val c)
theorem k0_dev38_val : ∀ c : Dev nD, k0_dev38 c = (c.val + 6) % 32 := by decide +kernel
theorem k0_dev38_fwd (c : Dev nD) : (⟨k0_dev38 c, k0_dev38_lt c⟩ : Dev nD) = fwd c 6 := Fin.ext (k0_dev38_val c)
theorem k0_dev39_val : ∀ c : Dev nD, k0_dev39 c = (c.val + 7) % 32 := by decide +kernel
theorem k0_dev39_fwd (c : Dev nD) : (⟨k0_dev39 c, k0_dev39_lt c⟩ : Dev nD) = fwd c 7 := Fin.ext (k0_dev39_val c)
theorem k0_dev40_val : ∀ c : Dev nD, k0_dev40 c = (c.val + 8) % 32 := by decide +kernel
theorem k0_dev40_fwd (c : Dev nD) : (⟨k0_dev40 c, k0_dev40_lt c⟩ : Dev nD) = fwd c 8 := Fin.ext (k0_dev40_val c)
theorem k0_dev41_val : ∀ c : Dev nD, k0_dev41 c = (c.val + 9) % 32 := by decide +kernel
theorem k0_dev41_fwd (c : Dev nD) : (⟨k0_dev41 c, k0_dev41_lt c⟩ : Dev nD) = fwd c 9 := Fin.ext (k0_dev41_val c)
theorem k0_dev42_val : ∀ c : Dev nD, k0_dev42 c = (c.val + 10) % 32 := by decide +kernel
theorem k0_dev42_fwd (c : Dev nD) : (⟨k0_dev42 c, k0_dev42_lt c⟩ : Dev nD) = fwd c 10 := Fin.ext (k0_dev42_val c)
theorem k0_dev43_val : ∀ c : Dev nD, k0_dev43 c = (c.val + 11) % 32 := by decide +kernel
theorem k0_dev43_fwd (c : Dev nD) : (⟨k0_dev43 c, k0_dev43_lt c⟩ : Dev nD) = fwd c 11 := Fin.ext (k0_dev43_val c)
theorem k0_dev44_val : ∀ c : Dev nD, k0_dev44 c = (c.val + 12) % 32 := by decide +kernel
theorem k0_dev44_fwd (c : Dev nD) : (⟨k0_dev44 c, k0_dev44_lt c⟩ : Dev nD) = fwd c 12 := Fin.ext (k0_dev44_val c)
theorem k0_dev45_val : ∀ c : Dev nD, k0_dev45 c = (c.val + 13) % 32 := by decide +kernel
theorem k0_dev45_fwd (c : Dev nD) : (⟨k0_dev45 c, k0_dev45_lt c⟩ : Dev nD) = fwd c 13 := Fin.ext (k0_dev45_val c)
theorem k0_dev46_val : ∀ c : Dev nD, k0_dev46 c = (c.val + 14) % 32 := by decide +kernel
theorem k0_dev46_fwd (c : Dev nD) : (⟨k0_dev46 c, k0_dev46_lt c⟩ : Dev nD) = fwd c 14 := Fin.ext (k0_dev46_val c)
theorem k0_dev47_val : ∀ c : Dev nD, k0_dev47 c = (c.val + 15) % 32 := by decide +kernel
theorem k0_dev47_fwd (c : Dev nD) : (⟨k0_dev47 c, k0_dev47_lt c⟩ : Dev nD) = fwd c 15 := Fin.ext (k0_dev47_val c)
theorem k0_dev48_val : ∀ c : Dev nD, k0_dev48 c = (c.val + 16) % 32 := by decide +kernel
theorem k0_dev48_fwd (c : Dev nD) : (⟨k0_dev48 c, k0_dev48_lt c⟩ : Dev nD) = fwd c 16 := Fin.ext (k0_dev48_val c)
theorem k0_dev49_val : ∀ c : Dev nD, k0_dev49 c = (c.val + 17) % 32 := by decide +kernel
theorem k0_dev49_fwd (c : Dev nD) : (⟨k0_dev49 c, k0_dev49_lt c⟩ : Dev nD) = fwd c 17 := Fin.ext (k0_dev49_val c)
theorem k0_dev50_val : ∀ c : Dev nD, k0_dev50 c = (c.val + 18) % 32 := by decide +kernel
theorem k0_dev50_fwd (c : Dev nD) : (⟨k0_dev50 c, k0_dev50_lt c⟩ : Dev nD) = fwd c 18 := Fin.ext (k0_dev50_val c)
theorem k0_dev51_val : ∀ c : Dev nD, k0_dev51 c = (c.val + 19) % 32 := by decide +kernel
theorem k0_dev51_fwd (c : Dev nD) : (⟨k0_dev51 c, k0_dev51_lt c⟩ : Dev nD) = fwd c 19 := Fin.ext (k0_dev51_val c)
theorem k0_dev52_val : ∀ c : Dev nD, k0_dev52 c = (c.val + 20) % 32 := by decide +kernel
theorem k0_dev52_fwd (c : Dev nD) : (⟨k0_dev52 c, k0_dev52_lt c⟩ : Dev nD) = fwd c 20 := Fin.ext (k0_dev52_val c)
theorem k0_dev53_val : ∀ c : Dev nD, k0_dev53 c = (c.val + 21) % 32 := by decide +kernel
theorem k0_dev53_fwd (c : Dev nD) : (⟨k0_dev53 c, k0_dev53_lt c⟩ : Dev nD) = fwd c 21 := Fin.ext (k0_dev53_val c)
theorem k0_dev54_val : ∀ c : Dev nD, k0_dev54 c = (c.val + 22) % 32 := by decide +kernel
theorem k0_dev54_fwd (c : Dev nD) : (⟨k0_dev54 c, k0_dev54_lt c⟩ : Dev nD) = fwd c 22 := Fin.ext (k0_dev54_val c)
theorem k0_dev55_val : ∀ c : Dev nD, k0_dev55 c = (c.val + 23) % 32 := by decide +kernel
theorem k0_dev55_fwd (c : Dev nD) : (⟨k0_dev55 c, k0_dev55_lt c⟩ : Dev nD) = fwd c 23 := Fin.ext (k0_dev55_val c)
theorem k0_dev56_val : ∀ c : Dev nD, k0_dev56 c = (c.val + 24) % 32 := by decide +kernel
theorem k0_dev56_fwd (c : Dev nD) : (⟨k0_dev56 c, k0_dev56_lt c⟩ : Dev nD) = fwd c 24 := Fin.ext (k0_dev56_val c)
theorem k0_dev57_val : ∀ c : Dev nD, k0_dev57 c = (c.val + 25) % 32 := by decide +kernel
theorem k0_dev57_fwd (c : Dev nD) : (⟨k0_dev57 c, k0_dev57_lt c⟩ : Dev nD) = fwd c 25 := Fin.ext (k0_dev57_val c)
theorem k0_dev58_val : ∀ c : Dev nD, k0_dev58 c = (c.val + 26) % 32 := by decide +kernel
theorem k0_dev58_fwd (c : Dev nD) : (⟨k0_dev58 c, k0_dev58_lt c⟩ : Dev nD) = fwd c 26 := Fin.ext (k0_dev58_val c)
theorem k0_dev59_val : ∀ c : Dev nD, k0_dev59 c = (c.val + 27) % 32 := by decide +kernel
theorem k0_dev59_fwd (c : Dev nD) : (⟨k0_dev59 c, k0_dev59_lt c⟩ : Dev nD) = fwd c 27 := Fin.ext (k0_dev59_val c)
theorem k0_dev60_val : ∀ c : Dev nD, k0_dev60 c = (c.val + 28) % 32 := by decide +kernel
theorem k0_dev60_fwd (c : Dev nD) : (⟨k0_dev60 c, k0_dev60_lt c⟩ : Dev nD) = fwd c 28 := Fin.ext (k0_dev60_val c)
theorem k0_dev61_val : ∀ c : Dev nD, k0_dev61 c = (c.val + 29) % 32 := by decide +kernel
theorem k0_dev61_fwd (c : Dev nD) : (⟨k0_dev61 c, k0_dev61_lt c⟩ : Dev nD) = fwd c 29 := Fin.ext (k0_dev61_val c)
theorem k0_dev62_val : ∀ c : Dev nD, k0_dev62 c = (c.val + 30) % 32 := by decide +kernel
theorem k0_dev62_fwd (c : Dev nD) : (⟨k0_dev62 c, k0_dev62_lt c⟩ : Dev nD) = fwd c 30 := Fin.ext (k0_dev62_val c)
theorem k0_dev63_val : ∀ c : Dev nD, k0_dev63 c = (c.val + 31) % 32 := by decide +kernel
theorem k0_dev63_fwd (c : Dev nD) : (⟨k0_dev63 c, k0_dev63_lt c⟩ : Dev nD) = fwd c 31 := Fin.ext (k0_dev63_val c)

theorem k0_dev64_val : ∀ c : Dev nD, k0_dev64 c = (c.val + 1) % 32 := by decide +kernel
theorem k0_dev64_fwd (c : Dev nD) : (⟨k0_dev64 c, k0_dev64_lt c⟩ : Dev nD) = fwd c 1 := Fin.ext (k0_dev64_val c)
theorem k0_dev65_val : ∀ c : Dev nD, k0_dev65 c = (c.val + 2) % 32 := by decide +kernel
theorem k0_dev65_fwd (c : Dev nD) : (⟨k0_dev65 c, k0_dev65_lt c⟩ : Dev nD) = fwd c 2 := Fin.ext (k0_dev65_val c)
theorem k0_dev66_val : ∀ c : Dev nD, k0_dev66 c = (c.val + 3) % 32 := by decide +kernel
theorem k0_dev66_fwd (c : Dev nD) : (⟨k0_dev66 c, k0_dev66_lt c⟩ : Dev nD) = fwd c 3 := Fin.ext (k0_dev66_val c)
theorem k0_dev67_val : ∀ c : Dev nD, k0_dev67 c = (c.val + 4) % 32 := by decide +kernel
theorem k0_dev67_fwd (c : Dev nD) : (⟨k0_dev67 c, k0_dev67_lt c⟩ : Dev nD) = fwd c 4 := Fin.ext (k0_dev67_val c)
theorem k0_dev68_val : ∀ c : Dev nD, k0_dev68 c = (c.val + 5) % 32 := by decide +kernel
theorem k0_dev68_fwd (c : Dev nD) : (⟨k0_dev68 c, k0_dev68_lt c⟩ : Dev nD) = fwd c 5 := Fin.ext (k0_dev68_val c)
theorem k0_dev69_val : ∀ c : Dev nD, k0_dev69 c = (c.val + 6) % 32 := by decide +kernel
theorem k0_dev69_fwd (c : Dev nD) : (⟨k0_dev69 c, k0_dev69_lt c⟩ : Dev nD) = fwd c 6 := Fin.ext (k0_dev69_val c)
theorem k0_dev70_val : ∀ c : Dev nD, k0_dev70 c = (c.val + 7) % 32 := by decide +kernel
theorem k0_dev70_fwd (c : Dev nD) : (⟨k0_dev70 c, k0_dev70_lt c⟩ : Dev nD) = fwd c 7 := Fin.ext (k0_dev70_val c)
theorem k0_dev71_val : ∀ c : Dev nD, k0_dev71 c = (c.val + 8) % 32 := by decide +kernel
theorem k0_dev71_fwd (c : Dev nD) : (⟨k0_dev71 c, k0_dev71_lt c⟩ : Dev nD) = fwd c 8 := Fin.ext (k0_dev71_val c)
theorem k0_dev72_val : ∀ c : Dev nD, k0_dev72 c = (c.val + 9) % 32 := by decide +kernel
theorem k0_dev72_fwd (c : Dev nD) : (⟨k0_dev72 c, k0_dev72_lt c⟩ : Dev nD) = fwd c 9 := Fin.ext (k0_dev72_val c)
theorem k0_dev73_val : ∀ c : Dev nD, k0_dev73 c = (c.val + 10) % 32 := by decide +kernel
theorem k0_dev73_fwd (c : Dev nD) : (⟨k0_dev73 c, k0_dev73_lt c⟩ : Dev nD) = fwd c 10 := Fin.ext (k0_dev73_val c)
theorem k0_dev74_val : ∀ c : Dev nD, k0_dev74 c = (c.val + 11) % 32 := by decide +kernel
theorem k0_dev74_fwd (c : Dev nD) : (⟨k0_dev74 c, k0_dev74_lt c⟩ : Dev nD) = fwd c 11 := Fin.ext (k0_dev74_val c)
theorem k0_dev75_val : ∀ c : Dev nD, k0_dev75 c = (c.val + 12) % 32 := by decide +kernel
theorem k0_dev75_fwd (c : Dev nD) : (⟨k0_dev75 c, k0_dev75_lt c⟩ : Dev nD) = fwd c 12 := Fin.ext (k0_dev75_val c)
theorem k0_dev76_val : ∀ c : Dev nD, k0_dev76 c = (c.val + 13) % 32 := by decide +kernel
theorem k0_dev76_fwd (c : Dev nD) : (⟨k0_dev76 c, k0_dev76_lt c⟩ : Dev nD) = fwd c 13 := Fin.ext (k0_dev76_val c)
theorem k0_dev77_val : ∀ c : Dev nD, k0_dev77 c = (c.val + 14) % 32 := by decide +kernel
theorem k0_dev77_fwd (c : Dev nD) : (⟨k0_dev77 c, k0_dev77_lt c⟩ : Dev nD) = fwd c 14 := Fin.ext (k0_dev77_val c)
theorem k0_dev78_val : ∀ c : Dev nD, k0_dev78 c = (c.val + 15) % 32 := by decide +kernel
theorem k0_dev78_fwd (c : Dev nD) : (⟨k0_dev78 c, k0_dev78_lt c⟩ : Dev nD) = fwd c 15 := Fin.ext (k0_dev78_val c)
theorem k0_dev79_val : ∀ c : Dev nD, k0_dev79 c = (c.val + 16) % 32 := by decide +kernel
theorem k0_dev79_fwd (c : Dev nD) : (⟨k0_dev79 c, k0_dev79_lt c⟩ : Dev nD) = fwd c 16 := Fin.ext (k0_dev79_val c)
theorem k0_dev80_val : ∀ c : Dev nD, k0_dev80 c = (c.val + 17) % 32 := by decide +kernel
theorem k0_dev80_fwd (c : Dev nD) : (⟨k0_dev80 c, k0_dev80_lt c⟩ : Dev nD) = fwd c 17 := Fin.ext (k0_dev80_val c)
theorem k0_dev81_val : ∀ c : Dev nD, k0_dev81 c = (c.val + 18) % 32 := by decide +kernel
theorem k0_dev81_fwd (c : Dev nD) : (⟨k0_dev81 c, k0_dev81_lt c⟩ : Dev nD) = fwd c 18 := Fin.ext (k0_dev81_val c)
theorem k0_dev82_val : ∀ c : Dev nD, k0_dev82 c = (c.val + 19) % 32 := by decide +kernel
theorem k0_dev82_fwd (c : Dev nD) : (⟨k0_dev82 c, k0_dev82_lt c⟩ : Dev nD) = fwd c 19 := Fin.ext (k0_dev82_val c)
theorem k0_dev83_val : ∀ c : Dev nD, k0_dev83 c = (c.val + 20) % 32 := by decide +kernel
theorem k0_dev83_fwd (c : Dev nD) : (⟨k0_dev83 c, k0_dev83_lt c⟩ : Dev nD) = fwd c 20 := Fin.ext (k0_dev83_val c)
theorem k0_dev84_val : ∀ c : Dev nD, k0_dev84 c = (c.val + 21) % 32 := by decide +kernel
theorem k0_dev84_fwd (c : Dev nD) : (⟨k0_dev84 c, k0_dev84_lt c⟩ : Dev nD) = fwd c 21 := Fin.ext (k0_dev84_val c)
theorem k0_dev85_val : ∀ c : Dev nD, k0_dev85 c = (c.val + 22) % 32 := by decide +kernel
theorem k0_dev85_fwd (c : Dev nD) : (⟨k0_dev85 c, k0_dev85_lt c⟩ : Dev nD) = fwd c 22 := Fin.ext (k0_dev85_val c)
theorem k0_dev86_val : ∀ c : Dev nD, k0_dev86 c = (c.val + 23) % 32 := by decide +kernel
theorem k0_dev86_fwd (c : Dev nD) : (⟨k0_dev86 c, k0_dev86_lt c⟩ : Dev nD) = fwd c 23 := Fin.ext (k0_dev86_val c)
theorem k0_dev87_val : ∀ c : Dev nD, k0_dev87 c = (c.val + 24) % 32 := by decide +kernel
theorem k0_dev87_fwd (c : Dev nD) : (⟨k0_dev87 c, k0_dev87_lt c⟩ : Dev nD) = fwd c 24 := Fin.ext (k0_dev87_val c)
theorem k0_dev88_val : ∀ c : Dev nD, k0_dev88 c = (c.val + 25) % 32 := by decide +kernel
theorem k0_dev88_fwd (c : Dev nD) : (⟨k0_dev88 c, k0_dev88_lt c⟩ : Dev nD) = fwd c 25 := Fin.ext (k0_dev88_val c)
theorem k0_dev89_val : ∀ c : Dev nD, k0_dev89 c = (c.val + 26) % 32 := by decide +kernel
theorem k0_dev89_fwd (c : Dev nD) : (⟨k0_dev89 c, k0_dev89_lt c⟩ : Dev nD) = fwd c 26 := Fin.ext (k0_dev89_val c)
theorem k0_dev90_val : ∀ c : Dev nD, k0_dev90 c = (c.val + 27) % 32 := by decide +kernel
theorem k0_dev90_fwd (c : Dev nD) : (⟨k0_dev90 c, k0_dev90_lt c⟩ : Dev nD) = fwd c 27 := Fin.ext (k0_dev90_val c)
theorem k0_dev91_val : ∀ c : Dev nD, k0_dev91 c = (c.val + 28) % 32 := by decide +kernel
theorem k0_dev91_fwd (c : Dev nD) : (⟨k0_dev91 c, k0_dev91_lt c⟩ : Dev nD) = fwd c 28 := Fin.ext (k0_dev91_val c)
theorem k0_dev92_val : ∀ c : Dev nD, k0_dev92 c = (c.val + 29) % 32 := by decide +kernel
theorem k0_dev92_fwd (c : Dev nD) : (⟨k0_dev92 c, k0_dev92_lt c⟩ : Dev nD) = fwd c 29 := Fin.ext (k0_dev92_val c)
theorem k0_dev93_val : ∀ c : Dev nD, k0_dev93 c = (c.val + 30) % 32 := by decide +kernel
theorem k0_dev93_fwd (c : Dev nD) : (⟨k0_dev93 c, k0_dev93_lt c⟩ : Dev nD) = fwd c 30 := Fin.ext (k0_dev93_val c)
theorem k0_dev94_val : ∀ c : Dev nD, k0_dev94 c = (c.val + 31) % 32 := by decide +kernel
theorem k0_dev94_fwd (c : Dev nD) : (⟨k0_dev94 c, k0_dev94_lt c⟩ : Dev nD) = fwd c 31 := Fin.ext (k0_dev94_val c)

theorem k0_dev95_val : ∀ c : Dev nD, k0_dev95 c = (c.val + 1) % 32 := by decide +kernel
theorem k0_dev95_fwd (c : Dev nD) : (⟨k0_dev95 c, k0_dev95_lt c⟩ : Dev nD) = fwd c 1 := Fin.ext (k0_dev95_val c)
theorem k0_dev96_val : ∀ c : Dev nD, k0_dev96 c = (c.val + 2) % 32 := by decide +kernel
theorem k0_dev96_fwd (c : Dev nD) : (⟨k0_dev96 c, k0_dev96_lt c⟩ : Dev nD) = fwd c 2 := Fin.ext (k0_dev96_val c)
theorem k0_dev97_val : ∀ c : Dev nD, k0_dev97 c = (c.val + 3) % 32 := by decide +kernel
theorem k0_dev97_fwd (c : Dev nD) : (⟨k0_dev97 c, k0_dev97_lt c⟩ : Dev nD) = fwd c 3 := Fin.ext (k0_dev97_val c)
theorem k0_dev98_val : ∀ c : Dev nD, k0_dev98 c = (c.val + 4) % 32 := by decide +kernel
theorem k0_dev98_fwd (c : Dev nD) : (⟨k0_dev98 c, k0_dev98_lt c⟩ : Dev nD) = fwd c 4 := Fin.ext (k0_dev98_val c)
theorem k0_dev99_val : ∀ c : Dev nD, k0_dev99 c = (c.val + 5) % 32 := by decide +kernel
theorem k0_dev99_fwd (c : Dev nD) : (⟨k0_dev99 c, k0_dev99_lt c⟩ : Dev nD) = fwd c 5 := Fin.ext (k0_dev99_val c)
theorem k0_dev100_val : ∀ c : Dev nD, k0_dev100 c = (c.val + 6) % 32 := by decide +kernel
theorem k0_dev100_fwd (c : Dev nD) : (⟨k0_dev100 c, k0_dev100_lt c⟩ : Dev nD) = fwd c 6 := Fin.ext (k0_dev100_val c)
theorem k0_dev101_val : ∀ c : Dev nD, k0_dev101 c = (c.val + 7) % 32 := by decide +kernel
theorem k0_dev101_fwd (c : Dev nD) : (⟨k0_dev101 c, k0_dev101_lt c⟩ : Dev nD) = fwd c 7 := Fin.ext (k0_dev101_val c)
theorem k0_dev102_val : ∀ c : Dev nD, k0_dev102 c = (c.val + 8) % 32 := by decide +kernel
theorem k0_dev102_fwd (c : Dev nD) : (⟨k0_dev102 c, k0_dev102_lt c⟩ : Dev nD) = fwd c 8 := Fin.ext (k0_dev102_val c)
theorem k0_dev103_val : ∀ c : Dev nD, k0_dev103 c = (c.val + 9) % 32 := by decide +kernel
theorem k0_dev103_fwd (c : Dev nD) : (⟨k0_dev103 c, k0_dev103_lt c⟩ : Dev nD) = fwd c 9 := Fin.ext (k0_dev103_val c)
theorem k0_dev104_val : ∀ c : Dev nD, k0_dev104 c = (c.val + 10) % 32 := by decide +kernel
theorem k0_dev104_fwd (c : Dev nD) : (⟨k0_dev104 c, k0_dev104_lt c⟩ : Dev nD) = fwd c 10 := Fin.ext (k0_dev104_val c)
theorem k0_dev105_val : ∀ c : Dev nD, k0_dev105 c = (c.val + 11) % 32 := by decide +kernel
theorem k0_dev105_fwd (c : Dev nD) : (⟨k0_dev105 c, k0_dev105_lt c⟩ : Dev nD) = fwd c 11 := Fin.ext (k0_dev105_val c)
theorem k0_dev106_val : ∀ c : Dev nD, k0_dev106 c = (c.val + 12) % 32 := by decide +kernel
theorem k0_dev106_fwd (c : Dev nD) : (⟨k0_dev106 c, k0_dev106_lt c⟩ : Dev nD) = fwd c 12 := Fin.ext (k0_dev106_val c)
theorem k0_dev107_val : ∀ c : Dev nD, k0_dev107 c = (c.val + 13) % 32 := by decide +kernel
theorem k0_dev107_fwd (c : Dev nD) : (⟨k0_dev107 c, k0_dev107_lt c⟩ : Dev nD) = fwd c 13 := Fin.ext (k0_dev107_val c)
theorem k0_dev108_val : ∀ c : Dev nD, k0_dev108 c = (c.val + 14) % 32 := by decide +kernel
theorem k0_dev108_fwd (c : Dev nD) : (⟨k0_dev108 c, k0_dev108_lt c⟩ : Dev nD) = fwd c 14 := Fin.ext (k0_dev108_val c)
theorem k0_dev109_val : ∀ c : Dev nD, k0_dev109 c = (c.val + 15) % 32 := by decide +kernel
theorem k0_dev109_fwd (c : Dev nD) : (⟨k0_dev109 c, k0_dev109_lt c⟩ : Dev nD) = fwd c 15 := Fin.ext (k0_dev109_val c)
theorem k0_dev110_val : ∀ c : Dev nD, k0_dev110 c = (c.val + 16) % 32 := by decide +kernel
theorem k0_dev110_fwd (c : Dev nD) : (⟨k0_dev110 c, k0_dev110_lt c⟩ : Dev nD) = fwd c 16 := Fin.ext (k0_dev110_val c)
theorem k0_dev111_val : ∀ c : Dev nD, k0_dev111 c = (c.val + 17) % 32 := by decide +kernel
theorem k0_dev111_fwd (c : Dev nD) : (⟨k0_dev111 c, k0_dev111_lt c⟩ : Dev nD) = fwd c 17 := Fin.ext (k0_dev111_val c)
theorem k0_dev112_val : ∀ c : Dev nD, k0_dev112 c = (c.val + 18) % 32 := by decide +kernel
theorem k0_dev112_fwd (c : Dev nD) : (⟨k0_dev112 c, k0_dev112_lt c⟩ : Dev nD) = fwd c 18 := Fin.ext (k0_dev112_val c)
theorem k0_dev113_val : ∀ c : Dev nD, k0_dev113 c = (c.val + 19) % 32 := by decide +kernel
theorem k0_dev113_fwd (c : Dev nD) : (⟨k0_dev113 c, k0_dev113_lt c⟩ : Dev nD) = fwd c 19 := Fin.ext (k0_dev113_val c)
theorem k0_dev114_val : ∀ c : Dev nD, k0_dev114 c = (c.val + 20) % 32 := by decide +kernel
theorem k0_dev114_fwd (c : Dev nD) : (⟨k0_dev114 c, k0_dev114_lt c⟩ : Dev nD) = fwd c 20 := Fin.ext (k0_dev114_val c)
theorem k0_dev115_val : ∀ c : Dev nD, k0_dev115 c = (c.val + 21) % 32 := by decide +kernel
theorem k0_dev115_fwd (c : Dev nD) : (⟨k0_dev115 c, k0_dev115_lt c⟩ : Dev nD) = fwd c 21 := Fin.ext (k0_dev115_val c)
theorem k0_dev116_val : ∀ c : Dev nD, k0_dev116 c = (c.val + 22) % 32 := by decide +kernel
theorem k0_dev116_fwd (c : Dev nD) : (⟨k0_dev116 c, k0_dev116_lt c⟩ : Dev nD) = fwd c 22 := Fin.ext (k0_dev116_val c)
theorem k0_dev117_val : ∀ c : Dev nD, k0_dev117 c = (c.val + 23) % 32 := by decide +kernel
theorem k0_dev117_fwd (c : Dev nD) : (⟨k0_dev117 c, k0_dev117_lt c⟩ : Dev nD) = fwd c 23 := Fin.ext (k0_dev117_val c)
theorem k0_dev118_val : ∀ c : Dev nD, k0_dev118 c = (c.val + 24) % 32 := by decide +kernel
theorem k0_dev118_fwd (c : Dev nD) : (⟨k0_dev118 c, k0_dev118_lt c⟩ : Dev nD) = fwd c 24 := Fin.ext (k0_dev118_val c)
theorem k0_dev119_val : ∀ c : Dev nD, k0_dev119 c = (c.val + 25) % 32 := by decide +kernel
theorem k0_dev119_fwd (c : Dev nD) : (⟨k0_dev119 c, k0_dev119_lt c⟩ : Dev nD) = fwd c 25 := Fin.ext (k0_dev119_val c)
theorem k0_dev120_val : ∀ c : Dev nD, k0_dev120 c = (c.val + 26) % 32 := by decide +kernel
theorem k0_dev120_fwd (c : Dev nD) : (⟨k0_dev120 c, k0_dev120_lt c⟩ : Dev nD) = fwd c 26 := Fin.ext (k0_dev120_val c)
theorem k0_dev121_val : ∀ c : Dev nD, k0_dev121 c = (c.val + 27) % 32 := by decide +kernel
theorem k0_dev121_fwd (c : Dev nD) : (⟨k0_dev121 c, k0_dev121_lt c⟩ : Dev nD) = fwd c 27 := Fin.ext (k0_dev121_val c)
theorem k0_dev122_val : ∀ c : Dev nD, k0_dev122 c = (c.val + 28) % 32 := by decide +kernel
theorem k0_dev122_fwd (c : Dev nD) : (⟨k0_dev122 c, k0_dev122_lt c⟩ : Dev nD) = fwd c 28 := Fin.ext (k0_dev122_val c)
theorem k0_dev123_val : ∀ c : Dev nD, k0_dev123 c = (c.val + 29) % 32 := by decide +kernel
theorem k0_dev123_fwd (c : Dev nD) : (⟨k0_dev123 c, k0_dev123_lt c⟩ : Dev nD) = fwd c 29 := Fin.ext (k0_dev123_val c)
theorem k0_dev124_val : ∀ c : Dev nD, k0_dev124 c = (c.val + 30) % 32 := by decide +kernel
theorem k0_dev124_fwd (c : Dev nD) : (⟨k0_dev124 c, k0_dev124_lt c⟩ : Dev nD) = fwd c 30 := Fin.ext (k0_dev124_val c)
theorem k0_dev125_val : ∀ c : Dev nD, k0_dev125 c = (c.val + 31) % 32 := by decide +kernel
theorem k0_dev125_fwd (c : Dev nD) : (⟨k0_dev125 c, k0_dev125_lt c⟩ : Dev nD) = fwd c 31 := Fin.ext (k0_dev125_val c)

theorem k0_dev126_val : ∀ c : Dev nD, k0_dev126 c = (c.val + 1) % 32 := by decide +kernel
theorem k0_dev126_fwd (c : Dev nD) : (⟨k0_dev126 c, k0_dev126_lt c⟩ : Dev nD) = fwd c 1 := Fin.ext (k0_dev126_val c)
theorem k0_dev127_val : ∀ c : Dev nD, k0_dev127 c = (c.val + 2) % 32 := by decide +kernel
theorem k0_dev127_fwd (c : Dev nD) : (⟨k0_dev127 c, k0_dev127_lt c⟩ : Dev nD) = fwd c 2 := Fin.ext (k0_dev127_val c)
theorem k0_dev128_val : ∀ c : Dev nD, k0_dev128 c = (c.val + 3) % 32 := by decide +kernel
theorem k0_dev128_fwd (c : Dev nD) : (⟨k0_dev128 c, k0_dev128_lt c⟩ : Dev nD) = fwd c 3 := Fin.ext (k0_dev128_val c)
theorem k0_dev129_val : ∀ c : Dev nD, k0_dev129 c = (c.val + 4) % 32 := by decide +kernel
theorem k0_dev129_fwd (c : Dev nD) : (⟨k0_dev129 c, k0_dev129_lt c⟩ : Dev nD) = fwd c 4 := Fin.ext (k0_dev129_val c)
theorem k0_dev130_val : ∀ c : Dev nD, k0_dev130 c = (c.val + 5) % 32 := by decide +kernel
theorem k0_dev130_fwd (c : Dev nD) : (⟨k0_dev130 c, k0_dev130_lt c⟩ : Dev nD) = fwd c 5 := Fin.ext (k0_dev130_val c)
theorem k0_dev131_val : ∀ c : Dev nD, k0_dev131 c = (c.val + 6) % 32 := by decide +kernel
theorem k0_dev131_fwd (c : Dev nD) : (⟨k0_dev131 c, k0_dev131_lt c⟩ : Dev nD) = fwd c 6 := Fin.ext (k0_dev131_val c)
theorem k0_dev132_val : ∀ c : Dev nD, k0_dev132 c = (c.val + 7) % 32 := by decide +kernel
theorem k0_dev132_fwd (c : Dev nD) : (⟨k0_dev132 c, k0_dev132_lt c⟩ : Dev nD) = fwd c 7 := Fin.ext (k0_dev132_val c)
theorem k0_dev133_val : ∀ c : Dev nD, k0_dev133 c = (c.val + 8) % 32 := by decide +kernel
theorem k0_dev133_fwd (c : Dev nD) : (⟨k0_dev133 c, k0_dev133_lt c⟩ : Dev nD) = fwd c 8 := Fin.ext (k0_dev133_val c)
theorem k0_dev134_val : ∀ c : Dev nD, k0_dev134 c = (c.val + 9) % 32 := by decide +kernel
theorem k0_dev134_fwd (c : Dev nD) : (⟨k0_dev134 c, k0_dev134_lt c⟩ : Dev nD) = fwd c 9 := Fin.ext (k0_dev134_val c)
theorem k0_dev135_val : ∀ c : Dev nD, k0_dev135 c = (c.val + 10) % 32 := by decide +kernel
theorem k0_dev135_fwd (c : Dev nD) : (⟨k0_dev135 c, k0_dev135_lt c⟩ : Dev nD) = fwd c 10 := Fin.ext (k0_dev135_val c)
theorem k0_dev136_val : ∀ c : Dev nD, k0_dev136 c = (c.val + 11) % 32 := by decide +kernel
theorem k0_dev136_fwd (c : Dev nD) : (⟨k0_dev136 c, k0_dev136_lt c⟩ : Dev nD) = fwd c 11 := Fin.ext (k0_dev136_val c)
theorem k0_dev137_val : ∀ c : Dev nD, k0_dev137 c = (c.val + 12) % 32 := by decide +kernel
theorem k0_dev137_fwd (c : Dev nD) : (⟨k0_dev137 c, k0_dev137_lt c⟩ : Dev nD) = fwd c 12 := Fin.ext (k0_dev137_val c)
theorem k0_dev138_val : ∀ c : Dev nD, k0_dev138 c = (c.val + 13) % 32 := by decide +kernel
theorem k0_dev138_fwd (c : Dev nD) : (⟨k0_dev138 c, k0_dev138_lt c⟩ : Dev nD) = fwd c 13 := Fin.ext (k0_dev138_val c)
theorem k0_dev139_val : ∀ c : Dev nD, k0_dev139 c = (c.val + 14) % 32 := by decide +kernel
theorem k0_dev139_fwd (c : Dev nD) : (⟨k0_dev139 c, k0_dev139_lt c⟩ : Dev nD) = fwd c 14 := Fin.ext (k0_dev139_val c)
theorem k0_dev140_val : ∀ c : Dev nD, k0_dev140 c = (c.val + 15) % 32 := by decide +kernel
theorem k0_dev140_fwd (c : Dev nD) : (⟨k0_dev140 c, k0_dev140_lt c⟩ : Dev nD) = fwd c 15 := Fin.ext (k0_dev140_val c)
theorem k0_dev141_val : ∀ c : Dev nD, k0_dev141 c = (c.val + 16) % 32 := by decide +kernel
theorem k0_dev141_fwd (c : Dev nD) : (⟨k0_dev141 c, k0_dev141_lt c⟩ : Dev nD) = fwd c 16 := Fin.ext (k0_dev141_val c)
theorem k0_dev142_val : ∀ c : Dev nD, k0_dev142 c = (c.val + 17) % 32 := by decide +kernel
theorem k0_dev142_fwd (c : Dev nD) : (⟨k0_dev142 c, k0_dev142_lt c⟩ : Dev nD) = fwd c 17 := Fin.ext (k0_dev142_val c)
theorem k0_dev143_val : ∀ c : Dev nD, k0_dev143 c = (c.val + 18) % 32 := by decide +kernel
theorem k0_dev143_fwd (c : Dev nD) : (⟨k0_dev143 c, k0_dev143_lt c⟩ : Dev nD) = fwd c 18 := Fin.ext (k0_dev143_val c)
theorem k0_dev144_val : ∀ c : Dev nD, k0_dev144 c = (c.val + 19) % 32 := by decide +kernel
theorem k0_dev144_fwd (c : Dev nD) : (⟨k0_dev144 c, k0_dev144_lt c⟩ : Dev nD) = fwd c 19 := Fin.ext (k0_dev144_val c)
theorem k0_dev145_val : ∀ c : Dev nD, k0_dev145 c = (c.val + 20) % 32 := by decide +kernel
theorem k0_dev145_fwd (c : Dev nD) : (⟨k0_dev145 c, k0_dev145_lt c⟩ : Dev nD) = fwd c 20 := Fin.ext (k0_dev145_val c)
theorem k0_dev146_val : ∀ c : Dev nD, k0_dev146 c = (c.val + 21) % 32 := by decide +kernel
theorem k0_dev146_fwd (c : Dev nD) : (⟨k0_dev146 c, k0_dev146_lt c⟩ : Dev nD) = fwd c 21 := Fin.ext (k0_dev146_val c)
theorem k0_dev147_val : ∀ c : Dev nD, k0_dev147 c = (c.val + 22) % 32 := by decide +kernel
theorem k0_dev147_fwd (c : Dev nD) : (⟨k0_dev147 c, k0_dev147_lt c⟩ : Dev nD) = fwd c 22 := Fin.ext (k0_dev147_val c)
theorem k0_dev148_val : ∀ c : Dev nD, k0_dev148 c = (c.val + 23) % 32 := by decide +kernel
theorem k0_dev148_fwd (c : Dev nD) : (⟨k0_dev148 c, k0_dev148_lt c⟩ : Dev nD) = fwd c 23 := Fin.ext (k0_dev148_val c)
theorem k0_dev149_val : ∀ c : Dev nD, k0_dev149 c = (c.val + 24) % 32 := by decide +kernel
theorem k0_dev149_fwd (c : Dev nD) : (⟨k0_dev149 c, k0_dev149_lt c⟩ : Dev nD) = fwd c 24 := Fin.ext (k0_dev149_val c)
theorem k0_dev150_val : ∀ c : Dev nD, k0_dev150 c = (c.val + 25) % 32 := by decide +kernel
theorem k0_dev150_fwd (c : Dev nD) : (⟨k0_dev150 c, k0_dev150_lt c⟩ : Dev nD) = fwd c 25 := Fin.ext (k0_dev150_val c)
theorem k0_dev151_val : ∀ c : Dev nD, k0_dev151 c = (c.val + 26) % 32 := by decide +kernel
theorem k0_dev151_fwd (c : Dev nD) : (⟨k0_dev151 c, k0_dev151_lt c⟩ : Dev nD) = fwd c 26 := Fin.ext (k0_dev151_val c)
theorem k0_dev152_val : ∀ c : Dev nD, k0_dev152 c = (c.val + 27) % 32 := by decide +kernel
theorem k0_dev152_fwd (c : Dev nD) : (⟨k0_dev152 c, k0_dev152_lt c⟩ : Dev nD) = fwd c 27 := Fin.ext (k0_dev152_val c)
theorem k0_dev153_val : ∀ c : Dev nD, k0_dev153 c = (c.val + 28) % 32 := by decide +kernel
theorem k0_dev153_fwd (c : Dev nD) : (⟨k0_dev153 c, k0_dev153_lt c⟩ : Dev nD) = fwd c 28 := Fin.ext (k0_dev153_val c)
theorem k0_dev154_val : ∀ c : Dev nD, k0_dev154 c = (c.val + 29) % 32 := by decide +kernel
theorem k0_dev154_fwd (c : Dev nD) : (⟨k0_dev154 c, k0_dev154_lt c⟩ : Dev nD) = fwd c 29 := Fin.ext (k0_dev154_val c)
theorem k0_dev155_val : ∀ c : Dev nD, k0_dev155 c = (c.val + 30) % 32 := by decide +kernel
theorem k0_dev155_fwd (c : Dev nD) : (⟨k0_dev155 c, k0_dev155_lt c⟩ : Dev nD) = fwd c 30 := Fin.ext (k0_dev155_val c)
theorem k0_dev156_val : ∀ c : Dev nD, k0_dev156 c = (c.val + 31) % 32 := by decide +kernel
theorem k0_dev156_fwd (c : Dev nD) : (⟨k0_dev156 c, k0_dev156_lt c⟩ : Dev nD) = fwd c 31 := Fin.ext (k0_dev156_val c)

/-! ## The computed offsets and the half slots they name, at the literal words -/

theorem k0_off2_eq_1 (c : Dev nD) : k0_off2 c 1#32 = ![(c.val + 1) % 32, 0, 0] := k0_off2_eq c 0
theorem k0_off2_slot_1 (c : Dev nD) : Rect.unit (s := S32x16x512) (k0_off2 c 1#32) S1x16x256.size (k0_off2_inb c 0) = slot (fwd c 1) 0 := k0_off2_slot c 0
theorem k0_off2_eq_2 (c : Dev nD) : k0_off2 c 2#32 = ![(c.val + 2) % 32, 0, 0] := k0_off2_eq c 1
theorem k0_off2_slot_2 (c : Dev nD) : Rect.unit (s := S32x16x512) (k0_off2 c 2#32) S1x16x256.size (k0_off2_inb c 1) = slot (fwd c 2) 0 := k0_off2_slot c 1
theorem k0_off2_eq_3 (c : Dev nD) : k0_off2 c 3#32 = ![(c.val + 3) % 32, 0, 0] := k0_off2_eq c 2
theorem k0_off2_slot_3 (c : Dev nD) : Rect.unit (s := S32x16x512) (k0_off2 c 3#32) S1x16x256.size (k0_off2_inb c 2) = slot (fwd c 3) 0 := k0_off2_slot c 2
theorem k0_off2_eq_4 (c : Dev nD) : k0_off2 c 4#32 = ![(c.val + 4) % 32, 0, 0] := k0_off2_eq c 3
theorem k0_off2_slot_4 (c : Dev nD) : Rect.unit (s := S32x16x512) (k0_off2 c 4#32) S1x16x256.size (k0_off2_inb c 3) = slot (fwd c 4) 0 := k0_off2_slot c 3
theorem k0_off2_eq_5 (c : Dev nD) : k0_off2 c 5#32 = ![(c.val + 5) % 32, 0, 0] := k0_off2_eq c 4
theorem k0_off2_slot_5 (c : Dev nD) : Rect.unit (s := S32x16x512) (k0_off2 c 5#32) S1x16x256.size (k0_off2_inb c 4) = slot (fwd c 5) 0 := k0_off2_slot c 4
theorem k0_off2_eq_6 (c : Dev nD) : k0_off2 c 6#32 = ![(c.val + 6) % 32, 0, 0] := k0_off2_eq c 5
theorem k0_off2_slot_6 (c : Dev nD) : Rect.unit (s := S32x16x512) (k0_off2 c 6#32) S1x16x256.size (k0_off2_inb c 5) = slot (fwd c 6) 0 := k0_off2_slot c 5
theorem k0_off2_eq_7 (c : Dev nD) : k0_off2 c 7#32 = ![(c.val + 7) % 32, 0, 0] := k0_off2_eq c 6
theorem k0_off2_slot_7 (c : Dev nD) : Rect.unit (s := S32x16x512) (k0_off2 c 7#32) S1x16x256.size (k0_off2_inb c 6) = slot (fwd c 7) 0 := k0_off2_slot c 6
theorem k0_off2_eq_8 (c : Dev nD) : k0_off2 c 8#32 = ![(c.val + 8) % 32, 0, 0] := k0_off2_eq c 7
theorem k0_off2_slot_8 (c : Dev nD) : Rect.unit (s := S32x16x512) (k0_off2 c 8#32) S1x16x256.size (k0_off2_inb c 7) = slot (fwd c 8) 0 := k0_off2_slot c 7
theorem k0_off2_eq_9 (c : Dev nD) : k0_off2 c 9#32 = ![(c.val + 9) % 32, 0, 0] := k0_off2_eq c 8
theorem k0_off2_slot_9 (c : Dev nD) : Rect.unit (s := S32x16x512) (k0_off2 c 9#32) S1x16x256.size (k0_off2_inb c 8) = slot (fwd c 9) 0 := k0_off2_slot c 8
theorem k0_off2_eq_10 (c : Dev nD) : k0_off2 c 10#32 = ![(c.val + 10) % 32, 0, 0] := k0_off2_eq c 9
theorem k0_off2_slot_10 (c : Dev nD) : Rect.unit (s := S32x16x512) (k0_off2 c 10#32) S1x16x256.size (k0_off2_inb c 9) = slot (fwd c 10) 0 := k0_off2_slot c 9
theorem k0_off2_eq_11 (c : Dev nD) : k0_off2 c 11#32 = ![(c.val + 11) % 32, 0, 0] := k0_off2_eq c 10
theorem k0_off2_slot_11 (c : Dev nD) : Rect.unit (s := S32x16x512) (k0_off2 c 11#32) S1x16x256.size (k0_off2_inb c 10) = slot (fwd c 11) 0 := k0_off2_slot c 10
theorem k0_off2_eq_12 (c : Dev nD) : k0_off2 c 12#32 = ![(c.val + 12) % 32, 0, 0] := k0_off2_eq c 11
theorem k0_off2_slot_12 (c : Dev nD) : Rect.unit (s := S32x16x512) (k0_off2 c 12#32) S1x16x256.size (k0_off2_inb c 11) = slot (fwd c 12) 0 := k0_off2_slot c 11
theorem k0_off2_eq_13 (c : Dev nD) : k0_off2 c 13#32 = ![(c.val + 13) % 32, 0, 0] := k0_off2_eq c 12
theorem k0_off2_slot_13 (c : Dev nD) : Rect.unit (s := S32x16x512) (k0_off2 c 13#32) S1x16x256.size (k0_off2_inb c 12) = slot (fwd c 13) 0 := k0_off2_slot c 12
theorem k0_off2_eq_14 (c : Dev nD) : k0_off2 c 14#32 = ![(c.val + 14) % 32, 0, 0] := k0_off2_eq c 13
theorem k0_off2_slot_14 (c : Dev nD) : Rect.unit (s := S32x16x512) (k0_off2 c 14#32) S1x16x256.size (k0_off2_inb c 13) = slot (fwd c 14) 0 := k0_off2_slot c 13
theorem k0_off2_eq_15 (c : Dev nD) : k0_off2 c 15#32 = ![(c.val + 15) % 32, 0, 0] := k0_off2_eq c 14
theorem k0_off2_slot_15 (c : Dev nD) : Rect.unit (s := S32x16x512) (k0_off2 c 15#32) S1x16x256.size (k0_off2_inb c 14) = slot (fwd c 15) 0 := k0_off2_slot c 14
theorem k0_off2_eq_16 (c : Dev nD) : k0_off2 c 16#32 = ![(c.val + 16) % 32, 0, 0] := k0_off2_eq c 15
theorem k0_off2_slot_16 (c : Dev nD) : Rect.unit (s := S32x16x512) (k0_off2 c 16#32) S1x16x256.size (k0_off2_inb c 15) = slot (fwd c 16) 0 := k0_off2_slot c 15
theorem k0_off2_eq_17 (c : Dev nD) : k0_off2 c 17#32 = ![(c.val + 17) % 32, 0, 0] := k0_off2_eq c 16
theorem k0_off2_slot_17 (c : Dev nD) : Rect.unit (s := S32x16x512) (k0_off2 c 17#32) S1x16x256.size (k0_off2_inb c 16) = slot (fwd c 17) 0 := k0_off2_slot c 16
theorem k0_off2_eq_18 (c : Dev nD) : k0_off2 c 18#32 = ![(c.val + 18) % 32, 0, 0] := k0_off2_eq c 17
theorem k0_off2_slot_18 (c : Dev nD) : Rect.unit (s := S32x16x512) (k0_off2 c 18#32) S1x16x256.size (k0_off2_inb c 17) = slot (fwd c 18) 0 := k0_off2_slot c 17
theorem k0_off2_eq_19 (c : Dev nD) : k0_off2 c 19#32 = ![(c.val + 19) % 32, 0, 0] := k0_off2_eq c 18
theorem k0_off2_slot_19 (c : Dev nD) : Rect.unit (s := S32x16x512) (k0_off2 c 19#32) S1x16x256.size (k0_off2_inb c 18) = slot (fwd c 19) 0 := k0_off2_slot c 18
theorem k0_off2_eq_20 (c : Dev nD) : k0_off2 c 20#32 = ![(c.val + 20) % 32, 0, 0] := k0_off2_eq c 19
theorem k0_off2_slot_20 (c : Dev nD) : Rect.unit (s := S32x16x512) (k0_off2 c 20#32) S1x16x256.size (k0_off2_inb c 19) = slot (fwd c 20) 0 := k0_off2_slot c 19
theorem k0_off2_eq_21 (c : Dev nD) : k0_off2 c 21#32 = ![(c.val + 21) % 32, 0, 0] := k0_off2_eq c 20
theorem k0_off2_slot_21 (c : Dev nD) : Rect.unit (s := S32x16x512) (k0_off2 c 21#32) S1x16x256.size (k0_off2_inb c 20) = slot (fwd c 21) 0 := k0_off2_slot c 20
theorem k0_off2_eq_22 (c : Dev nD) : k0_off2 c 22#32 = ![(c.val + 22) % 32, 0, 0] := k0_off2_eq c 21
theorem k0_off2_slot_22 (c : Dev nD) : Rect.unit (s := S32x16x512) (k0_off2 c 22#32) S1x16x256.size (k0_off2_inb c 21) = slot (fwd c 22) 0 := k0_off2_slot c 21
theorem k0_off2_eq_23 (c : Dev nD) : k0_off2 c 23#32 = ![(c.val + 23) % 32, 0, 0] := k0_off2_eq c 22
theorem k0_off2_slot_23 (c : Dev nD) : Rect.unit (s := S32x16x512) (k0_off2 c 23#32) S1x16x256.size (k0_off2_inb c 22) = slot (fwd c 23) 0 := k0_off2_slot c 22
theorem k0_off2_eq_24 (c : Dev nD) : k0_off2 c 24#32 = ![(c.val + 24) % 32, 0, 0] := k0_off2_eq c 23
theorem k0_off2_slot_24 (c : Dev nD) : Rect.unit (s := S32x16x512) (k0_off2 c 24#32) S1x16x256.size (k0_off2_inb c 23) = slot (fwd c 24) 0 := k0_off2_slot c 23
theorem k0_off2_eq_25 (c : Dev nD) : k0_off2 c 25#32 = ![(c.val + 25) % 32, 0, 0] := k0_off2_eq c 24
theorem k0_off2_slot_25 (c : Dev nD) : Rect.unit (s := S32x16x512) (k0_off2 c 25#32) S1x16x256.size (k0_off2_inb c 24) = slot (fwd c 25) 0 := k0_off2_slot c 24
theorem k0_off2_eq_26 (c : Dev nD) : k0_off2 c 26#32 = ![(c.val + 26) % 32, 0, 0] := k0_off2_eq c 25
theorem k0_off2_slot_26 (c : Dev nD) : Rect.unit (s := S32x16x512) (k0_off2 c 26#32) S1x16x256.size (k0_off2_inb c 25) = slot (fwd c 26) 0 := k0_off2_slot c 25
theorem k0_off2_eq_27 (c : Dev nD) : k0_off2 c 27#32 = ![(c.val + 27) % 32, 0, 0] := k0_off2_eq c 26
theorem k0_off2_slot_27 (c : Dev nD) : Rect.unit (s := S32x16x512) (k0_off2 c 27#32) S1x16x256.size (k0_off2_inb c 26) = slot (fwd c 27) 0 := k0_off2_slot c 26
theorem k0_off2_eq_28 (c : Dev nD) : k0_off2 c 28#32 = ![(c.val + 28) % 32, 0, 0] := k0_off2_eq c 27
theorem k0_off2_slot_28 (c : Dev nD) : Rect.unit (s := S32x16x512) (k0_off2 c 28#32) S1x16x256.size (k0_off2_inb c 27) = slot (fwd c 28) 0 := k0_off2_slot c 27
theorem k0_off2_eq_29 (c : Dev nD) : k0_off2 c 29#32 = ![(c.val + 29) % 32, 0, 0] := k0_off2_eq c 28
theorem k0_off2_slot_29 (c : Dev nD) : Rect.unit (s := S32x16x512) (k0_off2 c 29#32) S1x16x256.size (k0_off2_inb c 28) = slot (fwd c 29) 0 := k0_off2_slot c 28
theorem k0_off2_eq_30 (c : Dev nD) : k0_off2 c 30#32 = ![(c.val + 30) % 32, 0, 0] := k0_off2_eq c 29
theorem k0_off2_slot_30 (c : Dev nD) : Rect.unit (s := S32x16x512) (k0_off2 c 30#32) S1x16x256.size (k0_off2_inb c 29) = slot (fwd c 30) 0 := k0_off2_slot c 29
theorem k0_off2_eq_31 (c : Dev nD) : k0_off2 c 31#32 = ![(c.val + 31) % 32, 0, 0] := k0_off2_eq c 30
theorem k0_off2_slot_31 (c : Dev nD) : Rect.unit (s := S32x16x512) (k0_off2 c 31#32) S1x16x256.size (k0_off2_inb c 30) = slot (fwd c 31) 0 := k0_off2_slot c 30

theorem k0_off3_eq_1 (c : Dev nD) : k0_off3 c 1#32 = ![(c.val + 1) % 32, 0, 256] := k0_off3_eq c 0
theorem k0_off3_slot_1 (c : Dev nD) : Rect.unit (s := S32x16x512) (k0_off3 c 1#32) S1x16x256.size (k0_off3_inb c 0) = slot (fwd c 1) 1 := k0_off3_slot c 0
theorem k0_off3_eq_2 (c : Dev nD) : k0_off3 c 2#32 = ![(c.val + 2) % 32, 0, 256] := k0_off3_eq c 1
theorem k0_off3_slot_2 (c : Dev nD) : Rect.unit (s := S32x16x512) (k0_off3 c 2#32) S1x16x256.size (k0_off3_inb c 1) = slot (fwd c 2) 1 := k0_off3_slot c 1
theorem k0_off3_eq_3 (c : Dev nD) : k0_off3 c 3#32 = ![(c.val + 3) % 32, 0, 256] := k0_off3_eq c 2
theorem k0_off3_slot_3 (c : Dev nD) : Rect.unit (s := S32x16x512) (k0_off3 c 3#32) S1x16x256.size (k0_off3_inb c 2) = slot (fwd c 3) 1 := k0_off3_slot c 2
theorem k0_off3_eq_4 (c : Dev nD) : k0_off3 c 4#32 = ![(c.val + 4) % 32, 0, 256] := k0_off3_eq c 3
theorem k0_off3_slot_4 (c : Dev nD) : Rect.unit (s := S32x16x512) (k0_off3 c 4#32) S1x16x256.size (k0_off3_inb c 3) = slot (fwd c 4) 1 := k0_off3_slot c 3
theorem k0_off3_eq_5 (c : Dev nD) : k0_off3 c 5#32 = ![(c.val + 5) % 32, 0, 256] := k0_off3_eq c 4
theorem k0_off3_slot_5 (c : Dev nD) : Rect.unit (s := S32x16x512) (k0_off3 c 5#32) S1x16x256.size (k0_off3_inb c 4) = slot (fwd c 5) 1 := k0_off3_slot c 4
theorem k0_off3_eq_6 (c : Dev nD) : k0_off3 c 6#32 = ![(c.val + 6) % 32, 0, 256] := k0_off3_eq c 5
theorem k0_off3_slot_6 (c : Dev nD) : Rect.unit (s := S32x16x512) (k0_off3 c 6#32) S1x16x256.size (k0_off3_inb c 5) = slot (fwd c 6) 1 := k0_off3_slot c 5
theorem k0_off3_eq_7 (c : Dev nD) : k0_off3 c 7#32 = ![(c.val + 7) % 32, 0, 256] := k0_off3_eq c 6
theorem k0_off3_slot_7 (c : Dev nD) : Rect.unit (s := S32x16x512) (k0_off3 c 7#32) S1x16x256.size (k0_off3_inb c 6) = slot (fwd c 7) 1 := k0_off3_slot c 6
theorem k0_off3_eq_8 (c : Dev nD) : k0_off3 c 8#32 = ![(c.val + 8) % 32, 0, 256] := k0_off3_eq c 7
theorem k0_off3_slot_8 (c : Dev nD) : Rect.unit (s := S32x16x512) (k0_off3 c 8#32) S1x16x256.size (k0_off3_inb c 7) = slot (fwd c 8) 1 := k0_off3_slot c 7
theorem k0_off3_eq_9 (c : Dev nD) : k0_off3 c 9#32 = ![(c.val + 9) % 32, 0, 256] := k0_off3_eq c 8
theorem k0_off3_slot_9 (c : Dev nD) : Rect.unit (s := S32x16x512) (k0_off3 c 9#32) S1x16x256.size (k0_off3_inb c 8) = slot (fwd c 9) 1 := k0_off3_slot c 8
theorem k0_off3_eq_10 (c : Dev nD) : k0_off3 c 10#32 = ![(c.val + 10) % 32, 0, 256] := k0_off3_eq c 9
theorem k0_off3_slot_10 (c : Dev nD) : Rect.unit (s := S32x16x512) (k0_off3 c 10#32) S1x16x256.size (k0_off3_inb c 9) = slot (fwd c 10) 1 := k0_off3_slot c 9
theorem k0_off3_eq_11 (c : Dev nD) : k0_off3 c 11#32 = ![(c.val + 11) % 32, 0, 256] := k0_off3_eq c 10
theorem k0_off3_slot_11 (c : Dev nD) : Rect.unit (s := S32x16x512) (k0_off3 c 11#32) S1x16x256.size (k0_off3_inb c 10) = slot (fwd c 11) 1 := k0_off3_slot c 10
theorem k0_off3_eq_12 (c : Dev nD) : k0_off3 c 12#32 = ![(c.val + 12) % 32, 0, 256] := k0_off3_eq c 11
theorem k0_off3_slot_12 (c : Dev nD) : Rect.unit (s := S32x16x512) (k0_off3 c 12#32) S1x16x256.size (k0_off3_inb c 11) = slot (fwd c 12) 1 := k0_off3_slot c 11
theorem k0_off3_eq_13 (c : Dev nD) : k0_off3 c 13#32 = ![(c.val + 13) % 32, 0, 256] := k0_off3_eq c 12
theorem k0_off3_slot_13 (c : Dev nD) : Rect.unit (s := S32x16x512) (k0_off3 c 13#32) S1x16x256.size (k0_off3_inb c 12) = slot (fwd c 13) 1 := k0_off3_slot c 12
theorem k0_off3_eq_14 (c : Dev nD) : k0_off3 c 14#32 = ![(c.val + 14) % 32, 0, 256] := k0_off3_eq c 13
theorem k0_off3_slot_14 (c : Dev nD) : Rect.unit (s := S32x16x512) (k0_off3 c 14#32) S1x16x256.size (k0_off3_inb c 13) = slot (fwd c 14) 1 := k0_off3_slot c 13
theorem k0_off3_eq_15 (c : Dev nD) : k0_off3 c 15#32 = ![(c.val + 15) % 32, 0, 256] := k0_off3_eq c 14
theorem k0_off3_slot_15 (c : Dev nD) : Rect.unit (s := S32x16x512) (k0_off3 c 15#32) S1x16x256.size (k0_off3_inb c 14) = slot (fwd c 15) 1 := k0_off3_slot c 14
theorem k0_off3_eq_16 (c : Dev nD) : k0_off3 c 16#32 = ![(c.val + 16) % 32, 0, 256] := k0_off3_eq c 15
theorem k0_off3_slot_16 (c : Dev nD) : Rect.unit (s := S32x16x512) (k0_off3 c 16#32) S1x16x256.size (k0_off3_inb c 15) = slot (fwd c 16) 1 := k0_off3_slot c 15
theorem k0_off3_eq_17 (c : Dev nD) : k0_off3 c 17#32 = ![(c.val + 17) % 32, 0, 256] := k0_off3_eq c 16
theorem k0_off3_slot_17 (c : Dev nD) : Rect.unit (s := S32x16x512) (k0_off3 c 17#32) S1x16x256.size (k0_off3_inb c 16) = slot (fwd c 17) 1 := k0_off3_slot c 16
theorem k0_off3_eq_18 (c : Dev nD) : k0_off3 c 18#32 = ![(c.val + 18) % 32, 0, 256] := k0_off3_eq c 17
theorem k0_off3_slot_18 (c : Dev nD) : Rect.unit (s := S32x16x512) (k0_off3 c 18#32) S1x16x256.size (k0_off3_inb c 17) = slot (fwd c 18) 1 := k0_off3_slot c 17
theorem k0_off3_eq_19 (c : Dev nD) : k0_off3 c 19#32 = ![(c.val + 19) % 32, 0, 256] := k0_off3_eq c 18
theorem k0_off3_slot_19 (c : Dev nD) : Rect.unit (s := S32x16x512) (k0_off3 c 19#32) S1x16x256.size (k0_off3_inb c 18) = slot (fwd c 19) 1 := k0_off3_slot c 18
theorem k0_off3_eq_20 (c : Dev nD) : k0_off3 c 20#32 = ![(c.val + 20) % 32, 0, 256] := k0_off3_eq c 19
theorem k0_off3_slot_20 (c : Dev nD) : Rect.unit (s := S32x16x512) (k0_off3 c 20#32) S1x16x256.size (k0_off3_inb c 19) = slot (fwd c 20) 1 := k0_off3_slot c 19
theorem k0_off3_eq_21 (c : Dev nD) : k0_off3 c 21#32 = ![(c.val + 21) % 32, 0, 256] := k0_off3_eq c 20
theorem k0_off3_slot_21 (c : Dev nD) : Rect.unit (s := S32x16x512) (k0_off3 c 21#32) S1x16x256.size (k0_off3_inb c 20) = slot (fwd c 21) 1 := k0_off3_slot c 20
theorem k0_off3_eq_22 (c : Dev nD) : k0_off3 c 22#32 = ![(c.val + 22) % 32, 0, 256] := k0_off3_eq c 21
theorem k0_off3_slot_22 (c : Dev nD) : Rect.unit (s := S32x16x512) (k0_off3 c 22#32) S1x16x256.size (k0_off3_inb c 21) = slot (fwd c 22) 1 := k0_off3_slot c 21
theorem k0_off3_eq_23 (c : Dev nD) : k0_off3 c 23#32 = ![(c.val + 23) % 32, 0, 256] := k0_off3_eq c 22
theorem k0_off3_slot_23 (c : Dev nD) : Rect.unit (s := S32x16x512) (k0_off3 c 23#32) S1x16x256.size (k0_off3_inb c 22) = slot (fwd c 23) 1 := k0_off3_slot c 22
theorem k0_off3_eq_24 (c : Dev nD) : k0_off3 c 24#32 = ![(c.val + 24) % 32, 0, 256] := k0_off3_eq c 23
theorem k0_off3_slot_24 (c : Dev nD) : Rect.unit (s := S32x16x512) (k0_off3 c 24#32) S1x16x256.size (k0_off3_inb c 23) = slot (fwd c 24) 1 := k0_off3_slot c 23
theorem k0_off3_eq_25 (c : Dev nD) : k0_off3 c 25#32 = ![(c.val + 25) % 32, 0, 256] := k0_off3_eq c 24
theorem k0_off3_slot_25 (c : Dev nD) : Rect.unit (s := S32x16x512) (k0_off3 c 25#32) S1x16x256.size (k0_off3_inb c 24) = slot (fwd c 25) 1 := k0_off3_slot c 24
theorem k0_off3_eq_26 (c : Dev nD) : k0_off3 c 26#32 = ![(c.val + 26) % 32, 0, 256] := k0_off3_eq c 25
theorem k0_off3_slot_26 (c : Dev nD) : Rect.unit (s := S32x16x512) (k0_off3 c 26#32) S1x16x256.size (k0_off3_inb c 25) = slot (fwd c 26) 1 := k0_off3_slot c 25
theorem k0_off3_eq_27 (c : Dev nD) : k0_off3 c 27#32 = ![(c.val + 27) % 32, 0, 256] := k0_off3_eq c 26
theorem k0_off3_slot_27 (c : Dev nD) : Rect.unit (s := S32x16x512) (k0_off3 c 27#32) S1x16x256.size (k0_off3_inb c 26) = slot (fwd c 27) 1 := k0_off3_slot c 26
theorem k0_off3_eq_28 (c : Dev nD) : k0_off3 c 28#32 = ![(c.val + 28) % 32, 0, 256] := k0_off3_eq c 27
theorem k0_off3_slot_28 (c : Dev nD) : Rect.unit (s := S32x16x512) (k0_off3 c 28#32) S1x16x256.size (k0_off3_inb c 27) = slot (fwd c 28) 1 := k0_off3_slot c 27
theorem k0_off3_eq_29 (c : Dev nD) : k0_off3 c 29#32 = ![(c.val + 29) % 32, 0, 256] := k0_off3_eq c 28
theorem k0_off3_slot_29 (c : Dev nD) : Rect.unit (s := S32x16x512) (k0_off3 c 29#32) S1x16x256.size (k0_off3_inb c 28) = slot (fwd c 29) 1 := k0_off3_slot c 28
theorem k0_off3_eq_30 (c : Dev nD) : k0_off3 c 30#32 = ![(c.val + 30) % 32, 0, 256] := k0_off3_eq c 29
theorem k0_off3_slot_30 (c : Dev nD) : Rect.unit (s := S32x16x512) (k0_off3 c 30#32) S1x16x256.size (k0_off3_inb c 29) = slot (fwd c 30) 1 := k0_off3_slot c 29
theorem k0_off3_eq_31 (c : Dev nD) : k0_off3 c 31#32 = ![(c.val + 31) % 32, 0, 256] := k0_off3_eq c 30
theorem k0_off3_slot_31 (c : Dev nD) : Rect.unit (s := S32x16x512) (k0_off3 c 31#32) S1x16x256.size (k0_off3_inb c 30) = slot (fwd c 31) 1 := k0_off3_slot c 30

theorem k0_off8_eq_1 (c : Dev nD) : k0_off8 c 1#32 = ![(c.val + 32 - 1) % 32, 0, 0] := k0_off8_eq c 0
theorem k0_off8_slot_1 (c : Dev nD) : Rect.unit (s := S32x16x512) (k0_off8 c 1#32) S1x16x256.size (k0_off8_inb c 0) = slot (bwd c 1) 0 := k0_off8_slot c 0
theorem k0_off8_eq_2 (c : Dev nD) : k0_off8 c 2#32 = ![(c.val + 32 - 2) % 32, 0, 0] := k0_off8_eq c 1
theorem k0_off8_slot_2 (c : Dev nD) : Rect.unit (s := S32x16x512) (k0_off8 c 2#32) S1x16x256.size (k0_off8_inb c 1) = slot (bwd c 2) 0 := k0_off8_slot c 1
theorem k0_off8_eq_3 (c : Dev nD) : k0_off8 c 3#32 = ![(c.val + 32 - 3) % 32, 0, 0] := k0_off8_eq c 2
theorem k0_off8_slot_3 (c : Dev nD) : Rect.unit (s := S32x16x512) (k0_off8 c 3#32) S1x16x256.size (k0_off8_inb c 2) = slot (bwd c 3) 0 := k0_off8_slot c 2
theorem k0_off8_eq_4 (c : Dev nD) : k0_off8 c 4#32 = ![(c.val + 32 - 4) % 32, 0, 0] := k0_off8_eq c 3
theorem k0_off8_slot_4 (c : Dev nD) : Rect.unit (s := S32x16x512) (k0_off8 c 4#32) S1x16x256.size (k0_off8_inb c 3) = slot (bwd c 4) 0 := k0_off8_slot c 3
theorem k0_off8_eq_5 (c : Dev nD) : k0_off8 c 5#32 = ![(c.val + 32 - 5) % 32, 0, 0] := k0_off8_eq c 4
theorem k0_off8_slot_5 (c : Dev nD) : Rect.unit (s := S32x16x512) (k0_off8 c 5#32) S1x16x256.size (k0_off8_inb c 4) = slot (bwd c 5) 0 := k0_off8_slot c 4
theorem k0_off8_eq_6 (c : Dev nD) : k0_off8 c 6#32 = ![(c.val + 32 - 6) % 32, 0, 0] := k0_off8_eq c 5
theorem k0_off8_slot_6 (c : Dev nD) : Rect.unit (s := S32x16x512) (k0_off8 c 6#32) S1x16x256.size (k0_off8_inb c 5) = slot (bwd c 6) 0 := k0_off8_slot c 5
theorem k0_off8_eq_7 (c : Dev nD) : k0_off8 c 7#32 = ![(c.val + 32 - 7) % 32, 0, 0] := k0_off8_eq c 6
theorem k0_off8_slot_7 (c : Dev nD) : Rect.unit (s := S32x16x512) (k0_off8 c 7#32) S1x16x256.size (k0_off8_inb c 6) = slot (bwd c 7) 0 := k0_off8_slot c 6
theorem k0_off8_eq_8 (c : Dev nD) : k0_off8 c 8#32 = ![(c.val + 32 - 8) % 32, 0, 0] := k0_off8_eq c 7
theorem k0_off8_slot_8 (c : Dev nD) : Rect.unit (s := S32x16x512) (k0_off8 c 8#32) S1x16x256.size (k0_off8_inb c 7) = slot (bwd c 8) 0 := k0_off8_slot c 7
theorem k0_off8_eq_9 (c : Dev nD) : k0_off8 c 9#32 = ![(c.val + 32 - 9) % 32, 0, 0] := k0_off8_eq c 8
theorem k0_off8_slot_9 (c : Dev nD) : Rect.unit (s := S32x16x512) (k0_off8 c 9#32) S1x16x256.size (k0_off8_inb c 8) = slot (bwd c 9) 0 := k0_off8_slot c 8
theorem k0_off8_eq_10 (c : Dev nD) : k0_off8 c 10#32 = ![(c.val + 32 - 10) % 32, 0, 0] := k0_off8_eq c 9
theorem k0_off8_slot_10 (c : Dev nD) : Rect.unit (s := S32x16x512) (k0_off8 c 10#32) S1x16x256.size (k0_off8_inb c 9) = slot (bwd c 10) 0 := k0_off8_slot c 9
theorem k0_off8_eq_11 (c : Dev nD) : k0_off8 c 11#32 = ![(c.val + 32 - 11) % 32, 0, 0] := k0_off8_eq c 10
theorem k0_off8_slot_11 (c : Dev nD) : Rect.unit (s := S32x16x512) (k0_off8 c 11#32) S1x16x256.size (k0_off8_inb c 10) = slot (bwd c 11) 0 := k0_off8_slot c 10
theorem k0_off8_eq_12 (c : Dev nD) : k0_off8 c 12#32 = ![(c.val + 32 - 12) % 32, 0, 0] := k0_off8_eq c 11
theorem k0_off8_slot_12 (c : Dev nD) : Rect.unit (s := S32x16x512) (k0_off8 c 12#32) S1x16x256.size (k0_off8_inb c 11) = slot (bwd c 12) 0 := k0_off8_slot c 11
theorem k0_off8_eq_13 (c : Dev nD) : k0_off8 c 13#32 = ![(c.val + 32 - 13) % 32, 0, 0] := k0_off8_eq c 12
theorem k0_off8_slot_13 (c : Dev nD) : Rect.unit (s := S32x16x512) (k0_off8 c 13#32) S1x16x256.size (k0_off8_inb c 12) = slot (bwd c 13) 0 := k0_off8_slot c 12
theorem k0_off8_eq_14 (c : Dev nD) : k0_off8 c 14#32 = ![(c.val + 32 - 14) % 32, 0, 0] := k0_off8_eq c 13
theorem k0_off8_slot_14 (c : Dev nD) : Rect.unit (s := S32x16x512) (k0_off8 c 14#32) S1x16x256.size (k0_off8_inb c 13) = slot (bwd c 14) 0 := k0_off8_slot c 13
theorem k0_off8_eq_15 (c : Dev nD) : k0_off8 c 15#32 = ![(c.val + 32 - 15) % 32, 0, 0] := k0_off8_eq c 14
theorem k0_off8_slot_15 (c : Dev nD) : Rect.unit (s := S32x16x512) (k0_off8 c 15#32) S1x16x256.size (k0_off8_inb c 14) = slot (bwd c 15) 0 := k0_off8_slot c 14
theorem k0_off8_eq_16 (c : Dev nD) : k0_off8 c 16#32 = ![(c.val + 32 - 16) % 32, 0, 0] := k0_off8_eq c 15
theorem k0_off8_slot_16 (c : Dev nD) : Rect.unit (s := S32x16x512) (k0_off8 c 16#32) S1x16x256.size (k0_off8_inb c 15) = slot (bwd c 16) 0 := k0_off8_slot c 15
theorem k0_off8_eq_17 (c : Dev nD) : k0_off8 c 17#32 = ![(c.val + 32 - 17) % 32, 0, 0] := k0_off8_eq c 16
theorem k0_off8_slot_17 (c : Dev nD) : Rect.unit (s := S32x16x512) (k0_off8 c 17#32) S1x16x256.size (k0_off8_inb c 16) = slot (bwd c 17) 0 := k0_off8_slot c 16
theorem k0_off8_eq_18 (c : Dev nD) : k0_off8 c 18#32 = ![(c.val + 32 - 18) % 32, 0, 0] := k0_off8_eq c 17
theorem k0_off8_slot_18 (c : Dev nD) : Rect.unit (s := S32x16x512) (k0_off8 c 18#32) S1x16x256.size (k0_off8_inb c 17) = slot (bwd c 18) 0 := k0_off8_slot c 17
theorem k0_off8_eq_19 (c : Dev nD) : k0_off8 c 19#32 = ![(c.val + 32 - 19) % 32, 0, 0] := k0_off8_eq c 18
theorem k0_off8_slot_19 (c : Dev nD) : Rect.unit (s := S32x16x512) (k0_off8 c 19#32) S1x16x256.size (k0_off8_inb c 18) = slot (bwd c 19) 0 := k0_off8_slot c 18
theorem k0_off8_eq_20 (c : Dev nD) : k0_off8 c 20#32 = ![(c.val + 32 - 20) % 32, 0, 0] := k0_off8_eq c 19
theorem k0_off8_slot_20 (c : Dev nD) : Rect.unit (s := S32x16x512) (k0_off8 c 20#32) S1x16x256.size (k0_off8_inb c 19) = slot (bwd c 20) 0 := k0_off8_slot c 19
theorem k0_off8_eq_21 (c : Dev nD) : k0_off8 c 21#32 = ![(c.val + 32 - 21) % 32, 0, 0] := k0_off8_eq c 20
theorem k0_off8_slot_21 (c : Dev nD) : Rect.unit (s := S32x16x512) (k0_off8 c 21#32) S1x16x256.size (k0_off8_inb c 20) = slot (bwd c 21) 0 := k0_off8_slot c 20
theorem k0_off8_eq_22 (c : Dev nD) : k0_off8 c 22#32 = ![(c.val + 32 - 22) % 32, 0, 0] := k0_off8_eq c 21
theorem k0_off8_slot_22 (c : Dev nD) : Rect.unit (s := S32x16x512) (k0_off8 c 22#32) S1x16x256.size (k0_off8_inb c 21) = slot (bwd c 22) 0 := k0_off8_slot c 21
theorem k0_off8_eq_23 (c : Dev nD) : k0_off8 c 23#32 = ![(c.val + 32 - 23) % 32, 0, 0] := k0_off8_eq c 22
theorem k0_off8_slot_23 (c : Dev nD) : Rect.unit (s := S32x16x512) (k0_off8 c 23#32) S1x16x256.size (k0_off8_inb c 22) = slot (bwd c 23) 0 := k0_off8_slot c 22
theorem k0_off8_eq_24 (c : Dev nD) : k0_off8 c 24#32 = ![(c.val + 32 - 24) % 32, 0, 0] := k0_off8_eq c 23
theorem k0_off8_slot_24 (c : Dev nD) : Rect.unit (s := S32x16x512) (k0_off8 c 24#32) S1x16x256.size (k0_off8_inb c 23) = slot (bwd c 24) 0 := k0_off8_slot c 23
theorem k0_off8_eq_25 (c : Dev nD) : k0_off8 c 25#32 = ![(c.val + 32 - 25) % 32, 0, 0] := k0_off8_eq c 24
theorem k0_off8_slot_25 (c : Dev nD) : Rect.unit (s := S32x16x512) (k0_off8 c 25#32) S1x16x256.size (k0_off8_inb c 24) = slot (bwd c 25) 0 := k0_off8_slot c 24
theorem k0_off8_eq_26 (c : Dev nD) : k0_off8 c 26#32 = ![(c.val + 32 - 26) % 32, 0, 0] := k0_off8_eq c 25
theorem k0_off8_slot_26 (c : Dev nD) : Rect.unit (s := S32x16x512) (k0_off8 c 26#32) S1x16x256.size (k0_off8_inb c 25) = slot (bwd c 26) 0 := k0_off8_slot c 25
theorem k0_off8_eq_27 (c : Dev nD) : k0_off8 c 27#32 = ![(c.val + 32 - 27) % 32, 0, 0] := k0_off8_eq c 26
theorem k0_off8_slot_27 (c : Dev nD) : Rect.unit (s := S32x16x512) (k0_off8 c 27#32) S1x16x256.size (k0_off8_inb c 26) = slot (bwd c 27) 0 := k0_off8_slot c 26
theorem k0_off8_eq_28 (c : Dev nD) : k0_off8 c 28#32 = ![(c.val + 32 - 28) % 32, 0, 0] := k0_off8_eq c 27
theorem k0_off8_slot_28 (c : Dev nD) : Rect.unit (s := S32x16x512) (k0_off8 c 28#32) S1x16x256.size (k0_off8_inb c 27) = slot (bwd c 28) 0 := k0_off8_slot c 27
theorem k0_off8_eq_29 (c : Dev nD) : k0_off8 c 29#32 = ![(c.val + 32 - 29) % 32, 0, 0] := k0_off8_eq c 28
theorem k0_off8_slot_29 (c : Dev nD) : Rect.unit (s := S32x16x512) (k0_off8 c 29#32) S1x16x256.size (k0_off8_inb c 28) = slot (bwd c 29) 0 := k0_off8_slot c 28
theorem k0_off8_eq_30 (c : Dev nD) : k0_off8 c 30#32 = ![(c.val + 32 - 30) % 32, 0, 0] := k0_off8_eq c 29
theorem k0_off8_slot_30 (c : Dev nD) : Rect.unit (s := S32x16x512) (k0_off8 c 30#32) S1x16x256.size (k0_off8_inb c 29) = slot (bwd c 30) 0 := k0_off8_slot c 29
theorem k0_off8_eq_31 (c : Dev nD) : k0_off8 c 31#32 = ![(c.val + 32 - 31) % 32, 0, 0] := k0_off8_eq c 30
theorem k0_off8_slot_31 (c : Dev nD) : Rect.unit (s := S32x16x512) (k0_off8 c 31#32) S1x16x256.size (k0_off8_inb c 30) = slot (bwd c 31) 0 := k0_off8_slot c 30

theorem k0_off9_eq_1 (c : Dev nD) : k0_off9 c 1#32 = ![(c.val + 32 - 1) % 32, 0, 256] := k0_off9_eq c 0
theorem k0_off9_slot_1 (c : Dev nD) : Rect.unit (s := S32x16x512) (k0_off9 c 1#32) S1x16x256.size (k0_off9_inb c 0) = slot (bwd c 1) 1 := k0_off9_slot c 0
theorem k0_off9_eq_2 (c : Dev nD) : k0_off9 c 2#32 = ![(c.val + 32 - 2) % 32, 0, 256] := k0_off9_eq c 1
theorem k0_off9_slot_2 (c : Dev nD) : Rect.unit (s := S32x16x512) (k0_off9 c 2#32) S1x16x256.size (k0_off9_inb c 1) = slot (bwd c 2) 1 := k0_off9_slot c 1
theorem k0_off9_eq_3 (c : Dev nD) : k0_off9 c 3#32 = ![(c.val + 32 - 3) % 32, 0, 256] := k0_off9_eq c 2
theorem k0_off9_slot_3 (c : Dev nD) : Rect.unit (s := S32x16x512) (k0_off9 c 3#32) S1x16x256.size (k0_off9_inb c 2) = slot (bwd c 3) 1 := k0_off9_slot c 2
theorem k0_off9_eq_4 (c : Dev nD) : k0_off9 c 4#32 = ![(c.val + 32 - 4) % 32, 0, 256] := k0_off9_eq c 3
theorem k0_off9_slot_4 (c : Dev nD) : Rect.unit (s := S32x16x512) (k0_off9 c 4#32) S1x16x256.size (k0_off9_inb c 3) = slot (bwd c 4) 1 := k0_off9_slot c 3
theorem k0_off9_eq_5 (c : Dev nD) : k0_off9 c 5#32 = ![(c.val + 32 - 5) % 32, 0, 256] := k0_off9_eq c 4
theorem k0_off9_slot_5 (c : Dev nD) : Rect.unit (s := S32x16x512) (k0_off9 c 5#32) S1x16x256.size (k0_off9_inb c 4) = slot (bwd c 5) 1 := k0_off9_slot c 4
theorem k0_off9_eq_6 (c : Dev nD) : k0_off9 c 6#32 = ![(c.val + 32 - 6) % 32, 0, 256] := k0_off9_eq c 5
theorem k0_off9_slot_6 (c : Dev nD) : Rect.unit (s := S32x16x512) (k0_off9 c 6#32) S1x16x256.size (k0_off9_inb c 5) = slot (bwd c 6) 1 := k0_off9_slot c 5
theorem k0_off9_eq_7 (c : Dev nD) : k0_off9 c 7#32 = ![(c.val + 32 - 7) % 32, 0, 256] := k0_off9_eq c 6
theorem k0_off9_slot_7 (c : Dev nD) : Rect.unit (s := S32x16x512) (k0_off9 c 7#32) S1x16x256.size (k0_off9_inb c 6) = slot (bwd c 7) 1 := k0_off9_slot c 6
theorem k0_off9_eq_8 (c : Dev nD) : k0_off9 c 8#32 = ![(c.val + 32 - 8) % 32, 0, 256] := k0_off9_eq c 7
theorem k0_off9_slot_8 (c : Dev nD) : Rect.unit (s := S32x16x512) (k0_off9 c 8#32) S1x16x256.size (k0_off9_inb c 7) = slot (bwd c 8) 1 := k0_off9_slot c 7
theorem k0_off9_eq_9 (c : Dev nD) : k0_off9 c 9#32 = ![(c.val + 32 - 9) % 32, 0, 256] := k0_off9_eq c 8
theorem k0_off9_slot_9 (c : Dev nD) : Rect.unit (s := S32x16x512) (k0_off9 c 9#32) S1x16x256.size (k0_off9_inb c 8) = slot (bwd c 9) 1 := k0_off9_slot c 8
theorem k0_off9_eq_10 (c : Dev nD) : k0_off9 c 10#32 = ![(c.val + 32 - 10) % 32, 0, 256] := k0_off9_eq c 9
theorem k0_off9_slot_10 (c : Dev nD) : Rect.unit (s := S32x16x512) (k0_off9 c 10#32) S1x16x256.size (k0_off9_inb c 9) = slot (bwd c 10) 1 := k0_off9_slot c 9
theorem k0_off9_eq_11 (c : Dev nD) : k0_off9 c 11#32 = ![(c.val + 32 - 11) % 32, 0, 256] := k0_off9_eq c 10
theorem k0_off9_slot_11 (c : Dev nD) : Rect.unit (s := S32x16x512) (k0_off9 c 11#32) S1x16x256.size (k0_off9_inb c 10) = slot (bwd c 11) 1 := k0_off9_slot c 10
theorem k0_off9_eq_12 (c : Dev nD) : k0_off9 c 12#32 = ![(c.val + 32 - 12) % 32, 0, 256] := k0_off9_eq c 11
theorem k0_off9_slot_12 (c : Dev nD) : Rect.unit (s := S32x16x512) (k0_off9 c 12#32) S1x16x256.size (k0_off9_inb c 11) = slot (bwd c 12) 1 := k0_off9_slot c 11
theorem k0_off9_eq_13 (c : Dev nD) : k0_off9 c 13#32 = ![(c.val + 32 - 13) % 32, 0, 256] := k0_off9_eq c 12
theorem k0_off9_slot_13 (c : Dev nD) : Rect.unit (s := S32x16x512) (k0_off9 c 13#32) S1x16x256.size (k0_off9_inb c 12) = slot (bwd c 13) 1 := k0_off9_slot c 12
theorem k0_off9_eq_14 (c : Dev nD) : k0_off9 c 14#32 = ![(c.val + 32 - 14) % 32, 0, 256] := k0_off9_eq c 13
theorem k0_off9_slot_14 (c : Dev nD) : Rect.unit (s := S32x16x512) (k0_off9 c 14#32) S1x16x256.size (k0_off9_inb c 13) = slot (bwd c 14) 1 := k0_off9_slot c 13
theorem k0_off9_eq_15 (c : Dev nD) : k0_off9 c 15#32 = ![(c.val + 32 - 15) % 32, 0, 256] := k0_off9_eq c 14
theorem k0_off9_slot_15 (c : Dev nD) : Rect.unit (s := S32x16x512) (k0_off9 c 15#32) S1x16x256.size (k0_off9_inb c 14) = slot (bwd c 15) 1 := k0_off9_slot c 14
theorem k0_off9_eq_16 (c : Dev nD) : k0_off9 c 16#32 = ![(c.val + 32 - 16) % 32, 0, 256] := k0_off9_eq c 15
theorem k0_off9_slot_16 (c : Dev nD) : Rect.unit (s := S32x16x512) (k0_off9 c 16#32) S1x16x256.size (k0_off9_inb c 15) = slot (bwd c 16) 1 := k0_off9_slot c 15
theorem k0_off9_eq_17 (c : Dev nD) : k0_off9 c 17#32 = ![(c.val + 32 - 17) % 32, 0, 256] := k0_off9_eq c 16
theorem k0_off9_slot_17 (c : Dev nD) : Rect.unit (s := S32x16x512) (k0_off9 c 17#32) S1x16x256.size (k0_off9_inb c 16) = slot (bwd c 17) 1 := k0_off9_slot c 16
theorem k0_off9_eq_18 (c : Dev nD) : k0_off9 c 18#32 = ![(c.val + 32 - 18) % 32, 0, 256] := k0_off9_eq c 17
theorem k0_off9_slot_18 (c : Dev nD) : Rect.unit (s := S32x16x512) (k0_off9 c 18#32) S1x16x256.size (k0_off9_inb c 17) = slot (bwd c 18) 1 := k0_off9_slot c 17
theorem k0_off9_eq_19 (c : Dev nD) : k0_off9 c 19#32 = ![(c.val + 32 - 19) % 32, 0, 256] := k0_off9_eq c 18
theorem k0_off9_slot_19 (c : Dev nD) : Rect.unit (s := S32x16x512) (k0_off9 c 19#32) S1x16x256.size (k0_off9_inb c 18) = slot (bwd c 19) 1 := k0_off9_slot c 18
theorem k0_off9_eq_20 (c : Dev nD) : k0_off9 c 20#32 = ![(c.val + 32 - 20) % 32, 0, 256] := k0_off9_eq c 19
theorem k0_off9_slot_20 (c : Dev nD) : Rect.unit (s := S32x16x512) (k0_off9 c 20#32) S1x16x256.size (k0_off9_inb c 19) = slot (bwd c 20) 1 := k0_off9_slot c 19
theorem k0_off9_eq_21 (c : Dev nD) : k0_off9 c 21#32 = ![(c.val + 32 - 21) % 32, 0, 256] := k0_off9_eq c 20
theorem k0_off9_slot_21 (c : Dev nD) : Rect.unit (s := S32x16x512) (k0_off9 c 21#32) S1x16x256.size (k0_off9_inb c 20) = slot (bwd c 21) 1 := k0_off9_slot c 20
theorem k0_off9_eq_22 (c : Dev nD) : k0_off9 c 22#32 = ![(c.val + 32 - 22) % 32, 0, 256] := k0_off9_eq c 21
theorem k0_off9_slot_22 (c : Dev nD) : Rect.unit (s := S32x16x512) (k0_off9 c 22#32) S1x16x256.size (k0_off9_inb c 21) = slot (bwd c 22) 1 := k0_off9_slot c 21
theorem k0_off9_eq_23 (c : Dev nD) : k0_off9 c 23#32 = ![(c.val + 32 - 23) % 32, 0, 256] := k0_off9_eq c 22
theorem k0_off9_slot_23 (c : Dev nD) : Rect.unit (s := S32x16x512) (k0_off9 c 23#32) S1x16x256.size (k0_off9_inb c 22) = slot (bwd c 23) 1 := k0_off9_slot c 22
theorem k0_off9_eq_24 (c : Dev nD) : k0_off9 c 24#32 = ![(c.val + 32 - 24) % 32, 0, 256] := k0_off9_eq c 23
theorem k0_off9_slot_24 (c : Dev nD) : Rect.unit (s := S32x16x512) (k0_off9 c 24#32) S1x16x256.size (k0_off9_inb c 23) = slot (bwd c 24) 1 := k0_off9_slot c 23
theorem k0_off9_eq_25 (c : Dev nD) : k0_off9 c 25#32 = ![(c.val + 32 - 25) % 32, 0, 256] := k0_off9_eq c 24
theorem k0_off9_slot_25 (c : Dev nD) : Rect.unit (s := S32x16x512) (k0_off9 c 25#32) S1x16x256.size (k0_off9_inb c 24) = slot (bwd c 25) 1 := k0_off9_slot c 24
theorem k0_off9_eq_26 (c : Dev nD) : k0_off9 c 26#32 = ![(c.val + 32 - 26) % 32, 0, 256] := k0_off9_eq c 25
theorem k0_off9_slot_26 (c : Dev nD) : Rect.unit (s := S32x16x512) (k0_off9 c 26#32) S1x16x256.size (k0_off9_inb c 25) = slot (bwd c 26) 1 := k0_off9_slot c 25
theorem k0_off9_eq_27 (c : Dev nD) : k0_off9 c 27#32 = ![(c.val + 32 - 27) % 32, 0, 256] := k0_off9_eq c 26
theorem k0_off9_slot_27 (c : Dev nD) : Rect.unit (s := S32x16x512) (k0_off9 c 27#32) S1x16x256.size (k0_off9_inb c 26) = slot (bwd c 27) 1 := k0_off9_slot c 26
theorem k0_off9_eq_28 (c : Dev nD) : k0_off9 c 28#32 = ![(c.val + 32 - 28) % 32, 0, 256] := k0_off9_eq c 27
theorem k0_off9_slot_28 (c : Dev nD) : Rect.unit (s := S32x16x512) (k0_off9 c 28#32) S1x16x256.size (k0_off9_inb c 27) = slot (bwd c 28) 1 := k0_off9_slot c 27
theorem k0_off9_eq_29 (c : Dev nD) : k0_off9 c 29#32 = ![(c.val + 32 - 29) % 32, 0, 256] := k0_off9_eq c 28
theorem k0_off9_slot_29 (c : Dev nD) : Rect.unit (s := S32x16x512) (k0_off9 c 29#32) S1x16x256.size (k0_off9_inb c 28) = slot (bwd c 29) 1 := k0_off9_slot c 28
theorem k0_off9_eq_30 (c : Dev nD) : k0_off9 c 30#32 = ![(c.val + 32 - 30) % 32, 0, 256] := k0_off9_eq c 29
theorem k0_off9_slot_30 (c : Dev nD) : Rect.unit (s := S32x16x512) (k0_off9 c 30#32) S1x16x256.size (k0_off9_inb c 29) = slot (bwd c 30) 1 := k0_off9_slot c 29
theorem k0_off9_eq_31 (c : Dev nD) : k0_off9 c 31#32 = ![(c.val + 32 - 31) % 32, 0, 256] := k0_off9_eq c 30
theorem k0_off9_slot_31 (c : Dev nD) : Rect.unit (s := S32x16x512) (k0_off9 c 31#32) S1x16x256.size (k0_off9_inb c 30) = slot (bwd c 31) 1 := k0_off9_slot c 30

end Cert.Kernel.Proto

end
-- ==== Proof.WViewIdx.lean ====
import proofs.«900454_g7700000000000455_dist_matmul_relu_kshard_i_m512_n512_k256_v7x_i32_f32_1_alg».proof.Proof.WSched
import Idealize.ShloMosaic.Lib.ValueIdx
import Idealize.ShloMosaic.Lib.ValueLayout
import Idealize.ShloMosaic.Lib.Pipeline.Value

set_option maxRecDepth 16384

noncomputable section

namespace Cert.Kernel.Proto.ViewIdx

open Cert.Kernel Cert.Kernel.Gen Cert.Kernel.Proto
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Indices -/

/-- Replacing the slot coordinate of (d, r, J) by t gives (t, r, J). -/
theorem atSlot_ix3 (t d : Fin 32) (r : Fin 16) (J : Fin 512) : atSlot t (ix3 d r J) = ix3 t r J := by
  funext a
  match a with
  | ⟨0, _⟩ => rfl
  | ⟨1, _⟩ => rfl
  | ⟨2, _⟩ => rfl

/-- Slot d of what device c gathers is slot c of the product of the device d places before c. -/
theorem gathC_apply (c : Dev nD) (d : Fin 32) (r : Fin 16) (J : Fin 512) :
    gathC m c (ix3 d r J) = partC m (bwd c d) (ix3 c r J) := by
  unfold gathC
  show partC m (bwd c d) (atSlot c (ix3 d r J)) = _
  rw [atSlot_ix3]

/-- The device itself is the device 0 places before it. -/
theorem bwd_zero (c : Dev nD) : bwd c (0 : Fin 32) = c := by
  apply Fin.ext; have hc : c.val < 32 := c.isLt
  show (c.val + 32 - 0) % 32 = c.val; omega

/-! ## The body's second store: slot 0 of the gathering buffer

The value stored is the load of one slot of the product buffer passed through two shape casts, [1, 16, 512] to
[16, 512] and back; entry (u, r, j) of the result is entry (u, r, j) of the load. -/

/-- Dropping and restoring a leading unit axis leaves every entry where it was. -/
theorem pay2_apply (v : Vec F S1x16x512 .bf16) (u : Fin 1) (r : Fin 16) (j : Fin 512) :
    k0_pay2 v (ix3 u r j) = v (ix3 u r j) := by
  unfold k0_pay2
  refine (shapeCast_ab_1ab_apply _ _ u r j).trans ?_
  refine (shapeCast_1ab_ab_apply _ _ r j).trans ?_
  have hu : u = 0 := Fin.ext (by omega)
  rw [hu]

/-- Slot 0 of the gathering buffer after the body's first two stores: the device's own slot of its own product. -/
theorem gath0_eq (c : Dev nD) (s1 : Scr F) (i : S32x16x512.Idx) (hi : i ∈ (slot 0 0).set ∪ (slot 0 1).set) :
    ((View.whole cc0_scratch1).writes (Elt F) s1
      [⟨Rect.unit (s := S32x16x512) ![0, 0, 0] S1x16x512.size inb_S32x16x512_S1x16x512_0_0_0,
        k0_pay2 (View.readAt (Elt F) (Memref.whole cc0_scratch0 : Memref sig .tc .vmem S32x16x512 .bf16).view
          (Rect.unit (s := S32x16x512) (k0_off1 c) S1x16x512.size (k0_off1_inb c)).toLoadRect (partC m c))⟩]) i = gathC m c i := by
  have h0 : (i 0).val = 0 := by
    rcases Finset.mem_union.mp hi with h | h
    · exact (mem_slot.mp h).1
    · exact (mem_slot.mp h).1
  obtain ⟨a, r, j, rfl⟩ : ∃ (a : Fin 32) (r : Fin 16) (j : Fin 512), i = ix3 a r j := ⟨i 0, i 1, i 2, eq_ix3 i⟩
  have ha : a = 0 := Fin.ext h0
  subst ha
  rw [View.writes_singleton, gathC_apply, bwd_zero]
  have hemb : ((View.whole cc0_scratch1).slice (Rect.unit (s := S32x16x512) ![0, 0, 0] S1x16x512.size inb_S32x16x512_S1x16x512_0_0_0)).emb
      (ix3 (0 : Fin 1) r j) = ix3 (0 : Fin 32) r j := by
    funext b
    refine Fin.ext ?_
    match b with
    | ⟨0, _⟩ => show 0 + 1 * 0 = 0; omega
    | ⟨1, _⟩ => show 0 + 1 * r.val = r.val; omega
    | ⟨2, _⟩ => show 0 + 1 * j.val = j.val; omega
  refine ((congrArg _ hemb.symm).trans (View.write_emb_of_mem _ _ (Finset.mem_univ _))).trans ?_
  refine (cast_eq _ _).trans ?_
  refine (pay2_apply _ 0 r j).trans ?_
  rw [View.readAt_apply, View.read_apply]
  refine (cast_eq _ _).trans ?_
  refine congrArg (partC m c) ?_
  funext b
  refine Fin.ext ?_
  have e := k0_off1_eq c
  match b with
  | ⟨0, _⟩ =>
    have e0 : k0_off1 c 0 = c.val := congrFun e 0
    show k0_off1 c 0 + 1 * 0 = c.val
    omega
  | ⟨1, _⟩ =>
    have e1 : k0_off1 c 1 = 0 := congrFun e 1
    show k0_off1 c 1 + 1 * r.val = r.val
    omega
  | ⟨2, _⟩ =>
    have e2 : k0_off1 c 2 = 0 := congrFun e 2
    show k0_off1 c 2 + 1 * j.val = j.val
    omega

/-! ## A half slot seen as a 16 × 256 view

A copy moves half a slot, seen as a 16 × 256 block: entry (r, j) of the block is entry (t, r, 256 h + j) of the
buffer. -/

/-- Half h of slot t of a scratch buffer as the 16 × 256 block a copy moves. -/
abbrev half (M : Memref sig .tc .vmem S32x16x512 .bf16) (t : Fin 32) (h : Fin 2) : Memref sig .tc .vmem S16x256 .bf16 :=
  (M.slice (slot t h) (fun _ => rfl)).squeeze S16x256 squeezes_S1x16x256_S16x256

/-- Entry (r, j) of half h of slot t, seen 16 × 256, is entry (t, r, 256 h + j) of the buffer. -/
theorem slot_emb (t : Fin 32) (h : Fin 2) (r : Fin 16) (j : Fin 256) (J : Fin 512) (hJ : J.val = 256 * h.val + j.val)
    (hn : S16x256.numel = (slot t h).shape.numel) :
    (slot t h).emb (Shape.reshapeEquiv hn (ix2 r j)) = ix3 t r J := by
  have e : Shape.reshapeEquiv hn (ix2 r j) = ix3 (⟨0, Nat.one_pos⟩ : Fin 1) r j :=
    reshapeEquiv_ix2_1ab (a := 16) (b := 256) hn r j
  rw [e]
  funext b
  refine Fin.ext ?_
  match b with
  | ⟨0, _⟩ => show t.val + 1 * 0 = t.val; omega
  | ⟨1, _⟩ => show 0 + 1 * r.val = r.val; omega
  | ⟨2, _⟩ => show 256 * h.val + 1 * j.val = J.val; omega

theorem half_emb_part (t : Fin 32) (h : Fin 2) (r : Fin 16) (j : Fin 256) (J : Fin 512) (hJ : J.val = 256 * h.val + j.val) :
    (half partM t h).view.emb (ix2 r j) = ix3 t r J := slot_emb t h r j J hJ _
theorem half_emb_gath (t : Fin 32) (h : Fin 2) (r : Fin 16) (j : Fin 256) (J : Fin 512) (hJ : J.val = 256 * h.val + j.val) :
    (half gathM t h).view.emb (ix2 r j) = ix3 t r J := slot_emb t h r j J hJ _
theorem half_emb_res (t : Fin 32) (h : Fin 2) (r : Fin 16) (j : Fin 256) (J : Fin 512) (hJ : J.val = 256 * h.val + j.val) :
    (half resM t h).view.emb (ix2 r j) = ix3 t r J := slot_emb t h r j J hJ _

/-- The elements a half slot's block covers are the half slot's. -/
theorem half_set_part (t : Fin 32) (h : Fin 2) : (half partM t h).view.set = (slot t h).set :=
  (View.set_reshape _ _).trans (View.set_slice_whole cc0_scratch0 (slot t h))
theorem half_set_gath (t : Fin 32) (h : Fin 2) : (half gathM t h).view.set = (slot t h).set :=
  (View.set_reshape _ _).trans (View.set_slice_whole cc0_scratch1 (slot t h))
theorem half_set_res (t : Fin 32) (h : Fin 2) : (half resM t h).view.set = (slot t h).set :=
  (View.set_reshape _ _).trans (View.set_slice_whole cc0_scratch2 (slot t h))

/-- An element of half h of slot t is (t, r, 256 h + j) for a row r and a column j of the block. -/
theorem exists_of_mem_slot {t : Fin 32} {h : Fin 2} {i : S32x16x512.Idx} (hi : i ∈ (slot t h).set) :
    ∃ (r : Fin 16) (j : Fin 256) (J : Fin 512), J.val = 256 * h.val + j.val ∧ i = ix3 t r J := by
  obtain ⟨h0, lo, hi2⟩ := mem_slot.mp hi
  refine ⟨i 1, ⟨(i 2).val - 256 * h.val, by omega⟩, i 2, by show (i 2).val = 256 * h.val + ((i 2).val - 256 * h.val); omega, ?_⟩
  refine (eq_ix3 i).trans ?_
  have e0 : (i 0 : Fin 32) = t := Fin.ext h0
  exact congrArg (fun a : Fin 32 => ix3 a (i 1) (i 2)) e0

/-! ## Where the copies land -/

/-- A first-round copy: device c sends half h of slot (c + d) of its product to slot d of the gathering buffer of
    device c + d, which gathers there the slot of the device d places before it: device c. -/
theorem land1 (c : Dev nD) (h : Fin 2) (d : Fin 32) (fd : Scr F) :
    ∀ i ∈ (half gathM d h).view.set,
      (half gathM d h).view.write (Elt F) fd ((half partM (fwd c d) h).view.read (Elt F) (partC m c)) Finset.univ i
        = gathC m (fwd c d) i := by
  intro i hi
  rw [half_set_gath] at hi
  obtain ⟨r, j, J, hJ, rfl⟩ := exists_of_mem_slot hi
  rw [gathC_apply, bwd_fwd]
  refine ((congrArg _ (half_emb_gath d h r j J hJ).symm).trans (View.write_emb_of_mem _ _ (Finset.mem_univ _))).trans ?_
  refine (cast_eq _ _).trans ?_
  rw [View.read_apply]
  refine (cast_eq _ _).trans ?_
  exact congrArg (partC m c) (half_emb_part (fwd c d) h r j J hJ)

/-- A second-round copy: device c sends half h of its own result slot to the same slot of a peer's result buffer. -/
theorem land2 (c : Dev nD) (h : Fin 2) (fd : Scr F) :
    ∀ i ∈ (half resM c h).view.set,
      (half resM c h).view.write (Elt F) fd ((half resM c h).view.read (Elt F) (resC m)) Finset.univ i = resC m i := by
  intro i hi
  rw [half_set_res] at hi
  obtain ⟨r, j, J, hJ, rfl⟩ := exists_of_mem_slot hi
  refine ((congrArg _ (half_emb_res c h r j J hJ).symm).trans (View.write_emb_of_mem _ _ (Finset.mem_univ _))).trans ?_
  refine (cast_eq _ _).trans ?_
  rw [View.read_apply]
  refine (cast_eq _ _).trans ?_
  exact congrArg (resC m) (half_emb_res c h r j J hJ)

/-- info: 'Cert.Kernel.Proto.ViewIdx.gath0_eq' depends on axioms: [propext, Classical.choice, Quot.sound] -/
#guard_msgs in #print axioms gath0_eq
/-- info: 'Cert.Kernel.Proto.ViewIdx.land1' depends on axioms: [propext, Classical.choice, Quot.sound] -/
#guard_msgs in #print axioms land1
/-- info: 'Cert.Kernel.Proto.ViewIdx.land2' depends on axioms: [propext, Classical.choice, Quot.sound] -/
#guard_msgs in #print axioms land2

end Cert.Kernel.Proto.ViewIdx

end
-- ==== Proof.WSteps.lean ====
import proofs.«900454_g7700000000000455_dist_matmul_relu_kshard_i_m512_n512_k256_v7x_i32_f32_1_alg».proof.Proof.Gen.Kernel
import proofs.«900454_g7700000000000455_dist_matmul_relu_kshard_i_m512_n512_k256_v7x_i32_f32_1_alg».proof.Proof.Gen.Kernel.Skeleton
import proofs.«900454_g7700000000000455_dist_matmul_relu_kshard_i_m512_n512_k256_v7x_i32_f32_1_alg».proof.Proof.Gen.Kernel.Launch
import proofs.«900454_g7700000000000455_dist_matmul_relu_kshard_i_m512_n512_k256_v7x_i32_f32_1_alg».proof.Proof.WData
import proofs.«900454_g7700000000000455_dist_matmul_relu_kshard_i_m512_n512_k256_v7x_i32_f32_1_alg».proof.Proof.WGive
import proofs.«900454_g7700000000000455_dist_matmul_relu_kshard_i_m512_n512_k256_v7x_i32_f32_1_alg».proof.Proof.WDevTab
import proofs.«900454_g7700000000000455_dist_matmul_relu_kshard_i_m512_n512_k256_v7x_i32_f32_1_alg».proof.Proof.WViewIdx
import Idealize.ShloMosaic.Lib.Pipeline.Launch
import Idealize.ShloMosaic.Lib.Pipeline.Kit
import Idealize.ShloMosaic.Lib.Tactic

set_option maxRecDepth 16384

noncomputable section

namespace Cert.Kernel.Proto

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ)

/-! ## One first-round copy -/

/-- The source of the first-round copy `(h, d)`: half `h` of slot `fwd c d` of the product buffer. -/
abbrev src1 (c : Dev nD) (h : Fin 2) (d : Fin 32) : Memref sig .tc .vmem S16x256 .bf16 :=
  ((partM : Memref sig .tc .vmem S32x16x512 .bf16).slice (slot (fwd c d) h) (fun _ => rfl)).squeeze S16x256 squeezes_S1x16x256_S16x256
/-- Its destination: half `h` of slot `d` of the gathering buffer (of the device `d` places on). -/
abbrev dst1 (h : Fin 2) (d : Fin 32) : Memref sig .tc .vmem S16x256 .bf16 :=
  ((gathM : Memref sig .tc .vmem S32x16x512 .bf16).slice (slot d h) (fun _ => rfl)).squeeze S16x256 squeezes_S1x16x256_S16x256

theorem src1_set (c : Dev nD) (h : Fin 2) (d : Fin 32) : (src1 c h d).view.set = (slot (fwd c d) h).set := by
  show (((View.whole cc0_scratch0).slice (slot (fwd c d) h)).reshape _ _).set = _
  rw [View.set_reshape, View.set_slice_whole]
theorem dst1_set (h : Fin 2) (d : Fin 32) : (dst1 h d).view.set = (slot d h).set := by
  show (((View.whole cc0_scratch1).slice (slot d h)).reshape _ _).set = _
  rw [View.set_reshape, View.set_slice_whole]

theorem landing1 (c : Dev nD) (h : Fin 2) (d : Fin 32) (fd : Scr F) :
    ∀ i ∈ (dst1 h d).view.set, (dst1 h d).view.write (Elt F) fd ((src1 c h d).view.read (Elt F) (partC m c)) Finset.univ i = gathC m (fwd c d) i :=
  ViewIdx.land1 m c h d fd

set_option maxHeartbeats 1000000 in
theorem send1_step (c : Dev nD) (h : Fin 2) (d : Fin 32) (hd : d ≠ 0) (κ₁ κ₂ : ℕ) (fd : Scr F)
    (X : CellTallies nD τ sig Unit) (W : Waits sig Unit)
    {α : Type} (k : PUnit → Prog (TpuEff nD τ sig (Elt F) Λ₀ .tc) α) (Q : α → sProp 𝕄)
    (hsc) (hsrc) (hdst) (hsem) :
    iprop(cellInv ER (sched m) κ₁ (sendCell c h d) ∗ cellInv ER (sched m) κ₂ (recv1Cell (fwd c d) h d)
        ∗ partPts c (fwd c d) h fullShare (partC m c) ∗ gathPts (fwd c d) d h fullShare fd
        ∗ owes (c : Thread nD τ) (X + tallyAt (recv1Cell (fwd c d) h d) () N) W
        ∗ dutyTok ER (sendCell c h d) 0 (0 : Fin 32) ∗ reached ER (sendCell c h d) 0
        ∗ dutyTok ER (recv1Cell (fwd c d) h d) 0 (0 : Fin 32) ∗ reached ER (recv1Cell (fwd c d) h d) 0)
      ⊢ iprop(((cred (tallyAt (sendCell c h d) () N) ∗ owes (c : Thread nD τ) X W) -∗ wp frame (wpE (defs₀ (F := F)) Variants.none c none) Set.univ (k ⟨⟩) Q)
          -∗ wp frame (wpE (defs₀ (F := F)) Variants.none c none) Set.univ
            (.op (.enqueueDma (src1 c h d) (.remote ((fwd c d : Dev nD) : Thread nD τ) (dst1 h d) (.dma (semAt cc0_scratch3 h d)) hsc) (.dma (semAt cc0_scratch4 h d)) hsrc hdst hsem) k) Q) := by
  have hp1 : ((src1 c h d).view.loc (c : Thread nD τ) ↦[(src1 c h d).view.set]{fullShare} partC m c : sProp 𝕄)
      ⊢ (sched m).payload (sendCell c h d) 0 (0 : Fin 32) := by
    rw [payload_send0, src1_set]; exact .rfl
  have hp2 : ((dst1 h d).view.loc ((fwd c d : Dev nD) : Thread nD τ) ↦[(dst1 h d).view.set]{fullShare}
        ((dst1 h d).view.write (Elt F) fd ((src1 c h d).view.read (Elt F) (partC m c)) Finset.univ) : sProp 𝕄)
      ⊢ (sched m).payload (recv1Cell (fwd c d) h d) 0 (0 : Fin 32) := by
    rw [payload_recv1]
    unfold gathPts
    rw [← dst1_set h d]
    exact Entails.of_eq (BI.Region.is_congr (landing1 m c h d fd))
  unfold partPts gathPts
  rw [← src1_set c h d, ← dst1_set h d]
  exact Rounds.wp_send_pointsTo (Q := Q) (W := W) (Es := Set.univ) Variants.none ER (sched m) (c : Thread nD τ) none (c' := ((fwd c d : Dev nD) : Thread nD τ))
    (src := src1 c h d) (dst := dst1 h d) (hsc := hsc) (hsrc := hsrc) (hdst := hdst) (hsem := hsem) (k := k) (q := fullShare)
    (fs := partC m c) (fd := fd) (κ₁ := κ₁) (κ₂ := κ₂)
    (by rw [duties_send m c h d hd 0, if_pos (Or.inl rfl)]; exact Finset.mem_singleton_self _)
    (by rw [duties_recv1 m (fwd c d) h d hd 0, if_pos rfl]; exact Finset.mem_singleton_self _)
    () () N rfl (amount_send m c h d 0 0) (amount_recv1 m (fwd c d) h d 0 0) X rfl hp1 hp2

/-- `send1_step` at the program's own spelling of the source rectangle and of the peer. -/
theorem send1_step' (c : Dev nD) (h : Fin 2) (d : Fin 32) (hd : d ≠ 0) (κ₁ κ₂ : ℕ) (fd : Scr F)
    (X : CellTallies nD τ sig Unit) (W : Waits sig Unit)
    {α : Type} (k : PUnit → Prog (TpuEff nD τ sig (Elt F) Λ₀ .tc) α) (Q : α → sProp 𝕄)
    (off : Fin 3 → Nat) (hoff : off = ![(fwd c d).val, 0, 256 * h.val]) (inb : ∀ a, off a + S1x16x256.size a ≤ S32x16x512.size a)
    (hst : ∀ a, (Rect.unit (s := S32x16x512) off S1x16x256.size inb).stride a = 1) (dev : Dev nD) (hdev : dev = fwd c d)
    (hsc) (hsrc) (hdst) (hsem) :
    iprop(cellInv ER (sched m) κ₁ (sendCell c h d) ∗ cellInv ER (sched m) κ₂ (recv1Cell (fwd c d) h d)
        ∗ partPts c (fwd c d) h fullShare (partC m c) ∗ gathPts (fwd c d) d h fullShare fd
        ∗ owes (c : Thread nD τ) (X + tallyAt (recv1Cell (fwd c d) h d) () N) W
        ∗ dutyTok ER (sendCell c h d) 0 (0 : Fin 32) ∗ reached ER (sendCell c h d) 0
        ∗ dutyTok ER (recv1Cell (fwd c d) h d) 0 (0 : Fin 32) ∗ reached ER (recv1Cell (fwd c d) h d) 0)
      ⊢ iprop(((cred (tallyAt (sendCell c h d) () N) ∗ owes (c : Thread nD τ) X W) -∗ wp frame (wpE (defs₀ (F := F)) Variants.none c none) Set.univ (k ⟨⟩) Q)
          -∗ wp frame (wpE (defs₀ (F := F)) Variants.none c none) Set.univ
            (.op (.enqueueDma (((partM : Memref sig .tc .vmem S32x16x512 .bf16).slice (Rect.unit (s := S32x16x512) off S1x16x256.size inb) hst).squeeze S16x256 squeezes_S1x16x256_S16x256)
              (.remote ((dev : Dev nD) : Thread nD τ) (dst1 h d) (.dma (semAt cc0_scratch3 h d)) hsc) (.dma (semAt cc0_scratch4 h d)) hsrc hdst hsem) k) Q) := by
  subst hoff; subst hdev
  exact send1_step m c h d hd κ₁ κ₂ fd X W k Q hsc hsrc hdst hsem

/-! ## One second-round copy -/

/-- Source and destination of the second-round copy `(h, d)`: half `h` of the device's own result slot, here and on the device `d` places on. -/
abbrev own2 (c : Dev nD) (h : Fin 2) : Memref sig .tc .vmem S16x256 .bf16 :=
  ((resM : Memref sig .tc .vmem S32x16x512 .bf16).slice (slot c h) (fun _ => rfl)).squeeze S16x256 squeezes_S1x16x256_S16x256

theorem own2_set (c : Dev nD) (h : Fin 2) : (own2 c h).view.set = (slot c h).set := by
  show (((View.whole cc0_scratch2).slice (slot c h)).reshape _ _).set = _
  rw [View.set_reshape, View.set_slice_whole]

theorem landing2 (c : Dev nD) (h : Fin 2) (fd : Scr F) :
    ∀ i ∈ (own2 c h).view.set, (own2 c h).view.write (Elt F) fd ((own2 c h).view.read (Elt F) (resC m)) Finset.univ i = resC m i :=
  ViewIdx.land2 m c h fd

set_option maxHeartbeats 1000000 in
theorem send2_step (c : Dev nD) (h : Fin 2) (d : Fin 32) (hd : d ≠ 0) (κ₁ κ₂ : ℕ) (fd : Scr F)
    (X : CellTallies nD τ sig Unit) (W : Waits sig Unit)
    {α : Type} (k : PUnit → Prog (TpuEff nD τ sig (Elt F) Λ₀ .tc) α) (Q : α → sProp 𝕄)
    (hsc) (hsrc) (hdst) (hsem) :
    iprop(cellInv ER (sched m) κ₁ (sendCell c h d) ∗ cellInv ER (sched m) κ₂ (recv2Cell (fwd c d) h d)
        ∗ resPts c c h (sendShr d.val) (resC m) ∗ resPts (fwd c d) c h fullShare fd
        ∗ owes (c : Thread nD τ) (X + tallyAt (recv2Cell (fwd c d) h d) () N) W
        ∗ dutyTok ER (sendCell c h d) 1 (0 : Fin 32) ∗ reached ER (sendCell c h d) 1
        ∗ dutyTok ER (recv2Cell (fwd c d) h d) 0 (0 : Fin 32) ∗ reached ER (recv2Cell (fwd c d) h d) 0)
      ⊢ iprop(((cred (tallyAt (sendCell c h d) () N) ∗ owes (c : Thread nD τ) X W) -∗ wp frame (wpE (defs₀ (F := F)) Variants.none c none) Set.univ (k ⟨⟩) Q)
          -∗ wp frame (wpE (defs₀ (F := F)) Variants.none c none) Set.univ
            (.op (.enqueueDma (own2 c h) (.remote ((fwd c d : Dev nD) : Thread nD τ) (own2 c h) (.dma (semAt cc0_scratch3 h d)) hsc) (.dma (semAt cc0_scratch5 h d)) hsrc hdst hsem) k) Q) := by
  have hp1 : ((own2 c h).view.loc (c : Thread nD τ) ↦[(own2 c h).view.set]{sendShr d.val} resC m : sProp 𝕄)
      ⊢ (sched m).payload (sendCell c h d) 1 (0 : Fin 32) := by
    rw [payload_send1, own2_set]; exact .rfl
  have hp2 : ((own2 c h).view.loc ((fwd c d : Dev nD) : Thread nD τ) ↦[(own2 c h).view.set]{fullShare}
        ((own2 c h).view.write (Elt F) fd ((own2 c h).view.read (Elt F) (resC m)) Finset.univ) : sProp 𝕄)
      ⊢ (sched m).payload (recv2Cell (fwd c d) h d) 0 (0 : Fin 32) := by
    rw [payload_recv2, bwd_fwd]
    unfold resPts
    rw [← own2_set c h]
    exact Entails.of_eq (BI.Region.is_congr (landing2 m c h fd))
  unfold resPts
  rw [← own2_set c h]
  exact Rounds.wp_send_pointsTo (Q := Q) (W := W) (Es := Set.univ) Variants.none ER (sched m) (c : Thread nD τ) none (c' := ((fwd c d : Dev nD) : Thread nD τ))
    (src := own2 c h) (dst := own2 c h) (hsc := hsc) (hsrc := hsrc) (hdst := hdst) (hsem := hsem) (k := k) (q := sendShr d.val)
    (fs := resC m) (fd := fd) (κ₁ := κ₁) (κ₂ := κ₂)
    (by rw [duties_send m c h d hd 1, if_pos (Or.inr rfl)]; exact Finset.mem_singleton_self _)
    (by rw [duties_recv2 m (fwd c d) h d hd 0, if_pos rfl]; exact Finset.mem_singleton_self _)
    () () N rfl (amount_send m c h d 1 0) (amount_recv2 m (fwd c d) h d 0 0) X rfl hp1 hp2

/-- `send2_step` at the program's own spelling of the own slot's offset and of the peer. -/
theorem send2_step' (c : Dev nD) (h : Fin 2) (d : Fin 32) (hd : d ≠ 0) (κ₁ κ₂ : ℕ) (fd : Scr F)
    (X : CellTallies nD τ sig Unit) (W : Waits sig Unit)
    {α : Type} (k : PUnit → Prog (TpuEff nD τ sig (Elt F) Λ₀ .tc) α) (Q : α → sProp 𝕄)
    (off : Fin 3 → Nat) (hoff : off = ![c.val, 0, 256 * h.val]) (inb inb' : ∀ a, off a + S1x16x256.size a ≤ S32x16x512.size a)
    (hst : ∀ a, (Rect.unit (s := S32x16x512) off S1x16x256.size inb).stride a = 1)
    (hst' : ∀ a, (Rect.unit (s := S32x16x512) off S1x16x256.size inb').stride a = 1) (dev : Dev nD) (hdev : dev = fwd c d)
    (hsc) (hsrc) (hdst) (hsem) :
    iprop(cellInv ER (sched m) κ₁ (sendCell c h d) ∗ cellInv ER (sched m) κ₂ (recv2Cell (fwd c d) h d)
        ∗ resPts c c h (sendShr d.val) (resC m) ∗ resPts (fwd c d) c h fullShare fd
        ∗ owes (c : Thread nD τ) (X + tallyAt (recv2Cell (fwd c d) h d) () N) W
        ∗ dutyTok ER (sendCell c h d) 1 (0 : Fin 32) ∗ reached ER (sendCell c h d) 1
        ∗ dutyTok ER (recv2Cell (fwd c d) h d) 0 (0 : Fin 32) ∗ reached ER (recv2Cell (fwd c d) h d) 0)
      ⊢ iprop(((cred (tallyAt (sendCell c h d) () N) ∗ owes (c : Thread nD τ) X W) -∗ wp frame (wpE (defs₀ (F := F)) Variants.none c none) Set.univ (k ⟨⟩) Q)
          -∗ wp frame (wpE (defs₀ (F := F)) Variants.none c none) Set.univ
            (.op (.enqueueDma (((resM : Memref sig .tc .vmem S32x16x512 .bf16).slice (Rect.unit (s := S32x16x512) off S1x16x256.size inb) hst).squeeze S16x256 squeezes_S1x16x256_S16x256)
              (.remote ((dev : Dev nD) : Thread nD τ)
                (((resM : Memref sig .tc .vmem S32x16x512 .bf16).slice (Rect.unit (s := S32x16x512) off S1x16x256.size inb') hst').squeeze S16x256 squeezes_S1x16x256_S16x256)
                (.dma (semAt cc0_scratch3 h d)) hsc) (.dma (semAt cc0_scratch5 h d)) hsrc hdst hsem) k) Q) := by
  subst hoff; subst hdev
  exact send2_step m c h d hd κ₁ κ₂ fd X W k Q hsc hsrc hdst hsem

/-! ## The waits -/

theorem rest_recv1 (c : Dev nD) (h : Fin 2) (d : Fin 32) (hd : d ≠ 0) :
    bigSep ((sched (F := F) m).duties (recv1Cell c h d) 0 \ ∅) (fun j => (sched (F := F) m).payload (recv1Cell c h d) 0 j) = gathPts c d h fullShare (gathC m c) := by
  rw [duties_recv1 m c h d hd 0, if_pos rfl, Finset.sdiff_empty, bigSep_singleton, payload_recv1]
theorem rest_recv2 (c : Dev nD) (h : Fin 2) (d : Fin 32) (hd : d ≠ 0) :
    bigSep ((sched (F := F) m).duties (recv2Cell c h d) 0 \ ∅) (fun j => (sched (F := F) m).payload (recv2Cell c h d) 0 j) = resPts c (bwd c d) h fullShare (resC m) := by
  rw [duties_recv2 m c h d hd 0, if_pos rfl, Finset.sdiff_empty, bigSep_singleton, payload_recv2]
theorem rest_send0 (c : Dev nD) (h : Fin 2) (d : Fin 32) (hd : d ≠ 0) :
    bigSep ((sched (F := F) m).duties (sendCell c h d) 0 \ ∅) (fun j => (sched (F := F) m).payload (sendCell c h d) 0 j) = partPts c (fwd c d) h fullShare (partC m c) := by
  rw [duties_send m c h d hd 0, if_pos (Or.inl rfl), Finset.sdiff_empty, bigSep_singleton, payload_send0]
theorem rest_send1 (c : Dev nD) (h : Fin 2) (d : Fin 32) (hd : d ≠ 0) :
    bigSep ((sched (F := F) m).duties (sendCell c h d) 1 \ ∅) (fun j => (sched (F := F) m).payload (sendCell c h d) 1 j) = resPts c c h (sendShr d.val) (resC m) := by
  rw [duties_send m c h d hd 1, if_pos (Or.inr rfl), Finset.sdiff_empty, bigSep_singleton, payload_send1]

/-- The wait for the first-round copy `(h, d)` to land: slot `d` of the gathering buffer then holds the sender's part. -/
theorem wait_recv1_step (c : Dev nD) (h : Fin 2) (d : Fin 32) (hd : d ≠ 0) (κ : ℕ)
    (X : CellTallies nD τ sig Unit) (W : Waits sig Unit)
    {α : Type} (k : PUnit → Prog (TpuEff nD τ sig (Elt F) Λ₀ .tc) α) (Q : α → sProp 𝕄)
    (src dst : Memref sig .tc .vmem S16x256 .bf16) (hsrc) (hdst) (hcr : dst.view.dmaCredit = N) :
    iprop(cellInv ER (sched m) κ (recv1Cell c h d) ∗ cred (tallyAt (recv1Cell c h d) () N) ∗ owes (c : Thread nD τ) X W
        ∗ MayWait (c : Thread nD τ) (.dma (semAt cc0_scratch4 h d)) () X ∗ atPos ER (recv1Cell c h d) 0 ∅ 0)
      ⊢ iprop(((owes (c : Thread nD τ) X (insert (SemLoc.dma (semAt cc0_scratch4 h d), ()) W)
              ∗ atPos ER (recv1Cell c h d) 1 ∅ 0 ∗ reached ER (recv1Cell c h d) 1 ∗ gathPts c d h fullShare (gathC m c))
            -∗ wp frame (wpE (defs₀ (F := F)) Variants.none c none) Set.univ (k ⟨⟩) Q)
          -∗ wp frame (wpE (defs₀ (F := F)) Variants.none c none) Set.univ (.op (.waitDma2 (semAt cc0_scratch4 h d) src dst hsrc hdst) k) Q) := by
  rw [← rest_recv1 m c h d hd]
  exact Rounds.wp_wait_rest_token (Q := Q) Variants.none ER (sched m) (c : Thread nD τ) none (κ := κ)
    (fun K => (wpE_waitDma2_eq Variants.none (c : Thread nD τ) none Set.univ K).trans (by rw [hcr])) (Set.mem_univ _) () (O := X) (W := W) (R := 0) (m := 0) (T := ∅)
    (by rw [expect_recv1 m c h d hd]; exact Nat.zero_add _)

/-- The wait for the second-round copy `(h, d)` to land: the sender's result slot is there. -/
theorem wait_recv2_step (c : Dev nD) (h : Fin 2) (d : Fin 32) (hd : d ≠ 0) (κ : ℕ)
    (X : CellTallies nD τ sig Unit) (W : Waits sig Unit)
    {α : Type} (k : PUnit → Prog (TpuEff nD τ sig (Elt F) Λ₀ .tc) α) (Q : α → sProp 𝕄)
    (src dst : Memref sig .tc .vmem S16x256 .bf16) (hsrc) (hdst) (hcr : dst.view.dmaCredit = N) :
    iprop(cellInv ER (sched m) κ (recv2Cell c h d) ∗ cred (tallyAt (recv2Cell c h d) () N) ∗ owes (c : Thread nD τ) X W
        ∗ MayWait (c : Thread nD τ) (.dma (semAt cc0_scratch5 h d)) () X ∗ atPos ER (recv2Cell c h d) 0 ∅ 0)
      ⊢ iprop(((owes (c : Thread nD τ) X (insert (SemLoc.dma (semAt cc0_scratch5 h d), ()) W)
              ∗ atPos ER (recv2Cell c h d) 1 ∅ 0 ∗ reached ER (recv2Cell c h d) 1 ∗ resPts c (bwd c d) h fullShare (resC m))
            -∗ wp frame (wpE (defs₀ (F := F)) Variants.none c none) Set.univ (k ⟨⟩) Q)
          -∗ wp frame (wpE (defs₀ (F := F)) Variants.none c none) Set.univ (.op (.waitDma2 (semAt cc0_scratch5 h d) src dst hsrc hdst) k) Q) := by
  rw [← rest_recv2 m c h d hd]
  exact Rounds.wp_wait_rest_token (Q := Q) Variants.none ER (sched m) (c : Thread nD τ) none (κ := κ)
    (fun K => (wpE_waitDma2_eq Variants.none (c : Thread nD τ) none Set.univ K).trans (by rw [hcr])) (Set.mem_univ _) () (O := X) (W := W) (R := 0) (m := 0) (T := ∅)
    (by rw [expect_recv2 m c h d hd]; exact Nat.zero_add _)

/-- The wait for the device's own first-round copy `(h, d)` to have been read out: the product slot comes back. -/
theorem wait_send0_step (c : Dev nD) (h : Fin 2) (d : Fin 32) (hd : d ≠ 0) (κ : ℕ)
    (X : CellTallies nD τ sig Unit) (W : Waits sig Unit)
    {α : Type} (k : PUnit → Prog (TpuEff nD τ sig (Elt F) Λ₀ .tc) α) (Q : α → sProp 𝕄)
    (src dst : Memref sig .tc .vmem S16x256 .bf16) (hsrc) (hdst) (hcr : dst.view.dmaCredit = N) :
    iprop(cellInv ER (sched m) κ (sendCell c h d) ∗ cred (tallyAt (sendCell c h d) () N) ∗ owes (c : Thread nD τ) X W
        ∗ MayWait (c : Thread nD τ) (.dma (semAt cc0_scratch3 h d)) () X ∗ atPos ER (sendCell c h d) 0 ∅ 0)
      ⊢ iprop(((owes (c : Thread nD τ) X (insert (SemLoc.dma (semAt cc0_scratch3 h d), ()) W)
              ∗ atPos ER (sendCell c h d) 1 ∅ 0 ∗ reached ER (sendCell c h d) 1 ∗ partPts c (fwd c d) h fullShare (partC m c))
            -∗ wp frame (wpE (defs₀ (F := F)) Variants.none c none) Set.univ (k ⟨⟩) Q)
          -∗ wp frame (wpE (defs₀ (F := F)) Variants.none c none) Set.univ (.op (.waitDma2 (semAt cc0_scratch3 h d) src dst hsrc hdst) k) Q) := by
  rw [← rest_send0 m c h d hd]
  exact Rounds.wp_wait_rest_token (Q := Q) Variants.none ER (sched m) (c : Thread nD τ) none (κ := κ)
    (fun K => (wpE_waitDma2_eq Variants.none (c : Thread nD τ) none Set.univ K).trans (by rw [hcr])) (Set.mem_univ _) () (O := X) (W := W) (R := 0) (m := 0) (T := ∅)
    (by rw [expect_send m c h d hd 0 (Or.inl rfl)]; exact Nat.zero_add _)

/-- The wait for the device's own second-round copy `(h, d)` to have been read out: its share of the result slot comes back. -/
theorem wait_send1_step (c : Dev nD) (h : Fin 2) (d : Fin 32) (hd : d ≠ 0) (κ : ℕ)
    (X : CellTallies nD τ sig Unit) (W : Waits sig Unit)
    {α : Type} (k : PUnit → Prog (TpuEff nD τ sig (Elt F) Λ₀ .tc) α) (Q : α → sProp 𝕄)
    (src dst : Memref sig .tc .vmem S16x256 .bf16) (hsrc) (hdst) (hcr : dst.view.dmaCredit = N) :
    iprop(cellInv ER (sched m) κ (sendCell c h d) ∗ cred (tallyAt (sendCell c h d) () N) ∗ owes (c : Thread nD τ) X W
        ∗ MayWait (c : Thread nD τ) (.dma (semAt cc0_scratch3 h d)) () X ∗ atPos ER (sendCell c h d) 1 ∅ 0)
      ⊢ iprop(((owes (c : Thread nD τ) X (insert (SemLoc.dma (semAt cc0_scratch3 h d), ()) W)
              ∗ atPos ER (sendCell c h d) 2 ∅ 0 ∗ reached ER (sendCell c h d) 2 ∗ resPts c c h (sendShr d.val) (resC m))
            -∗ wp frame (wpE (defs₀ (F := F)) Variants.none c none) Set.univ (k ⟨⟩) Q)
          -∗ wp frame (wpE (defs₀ (F := F)) Variants.none c none) Set.univ (.op (.waitDma2 (semAt cc0_scratch3 h d) src dst hsrc hdst) k) Q) := by
  rw [← rest_send1 m c h d hd]
  exact Rounds.wp_wait_rest_token (Q := Q) Variants.none ER (sched m) (c : Thread nD τ) none (κ := κ)
    (fun K => (wpE_waitDma2_eq Variants.none (c : Thread nD τ) none Set.univ K).trans (by rw [hcr])) (Set.mem_univ _) () (O := X) (W := W) (R := 1) (m := 0) (T := ∅)
    (by rw [expect_send m c h d hd 1 (Or.inr rfl)]; exact Nat.zero_add _)

end Cert.Kernel.Proto
end
-- ==== Proof.WEntry.lean ====
import proofs.«900454_g7700000000000455_dist_matmul_relu_kshard_i_m512_n512_k256_v7x_i32_f32_1_alg».proof.Proof.Gen.Kernel
import proofs.«900454_g7700000000000455_dist_matmul_relu_kshard_i_m512_n512_k256_v7x_i32_f32_1_alg».proof.Proof.Gen.Kernel.Skeleton
import proofs.«900454_g7700000000000455_dist_matmul_relu_kshard_i_m512_n512_k256_v7x_i32_f32_1_alg».proof.Proof.Gen.Kernel.Launch
import proofs.«900454_g7700000000000455_dist_matmul_relu_kshard_i_m512_n512_k256_v7x_i32_f32_1_alg».proof.Proof.WData
import proofs.«900454_g7700000000000455_dist_matmul_relu_kshard_i_m512_n512_k256_v7x_i32_f32_1_alg».proof.Proof.WGive
import proofs.«900454_g7700000000000455_dist_matmul_relu_kshard_i_m512_n512_k256_v7x_i32_f32_1_alg».proof.Proof.WViewIdx
import Idealize.ShloMosaic.Lib.Pipeline.Launch
import Idealize.ShloMosaic.Lib.Pipeline.Kit
import Idealize.ShloMosaic.Lib.Tactic

set_option maxRecDepth 16384

noncomputable section

namespace Cert.Kernel.Proto

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ)

abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

instance reachedRecv_persistent (c : Dev nD) : BI.Persistent (reachedRecv (F := F) c) := by unfold reachedRecv; infer_instance

abbrev dev0 : Dev nD := ⟨0, by decide⟩

theorem dev32_eq (c : Dev nD) (h : k0_cond2 c = 1#1) : (⟨k0_dev32, k0_dev32_lt c h⟩ : Dev nD) = dev0 := Fin.ext k0_dev32_eq

theorem give_intro_wand (c : Dev nD) (g1 g2 : Scr F) (R : sProp 𝕄) :
    iprop((((c : Thread nD τ).loc cc0_scratch1) ↦{fullShare} g1) ∗ (((c : Thread nD τ).loc cc0_scratch2) ↦{fullShare} g2) ∗ reachedRecv c
      ∗ (iprop(give c ∗ (bigSep (Finset.univ : Finset (Fin 2)) fun h => gathPts c 0 h fullShare g1)
          ∗ (bigSep (Finset.univ : Finset (Fin 2)) fun h => resPts c c h fullShare g2)) -∗ R)) ⊢ R := by
  iintro ⟨H1, H2, H3, Hk⟩
  iapply Hk
  iapply (give_intro c g1 g2)
  isplitl [H1]; · iexact H1
  isplitl [H2]; · iexact H2
  iexact H3

theorem hz2 : (![0, 0] : Fin 2 → Nat) = fun _ => 0 := funext fun a => by fin_cases a <;> rfl
theorem hz3 : (![0, 0, 0] : Fin 3 → Nat) = fun _ => 0 := funext fun a => by fin_cases a <;> rfl

/-- Slot 0 of the gathering buffer after the body's first two stores: the device's own slot of its own product. -/
theorem gath0_eq (c : Dev nD) (s1 : Scr F) (i : S32x16x512.Idx) (hi : i ∈ (slot 0 0).set ∪ (slot 0 1).set) :
    ((View.whole cc0_scratch1).writes (Elt F) s1
      [⟨Rect.unit (s := S32x16x512) ![0, 0, 0] S1x16x512.size inb_S32x16x512_S1x16x512_0_0_0,
        k0_pay2 (View.readAt (Elt F) (Memref.whole cc0_scratch0 : Memref sig .tc .vmem S32x16x512 .bf16).view
          (Rect.unit (s := S32x16x512) (k0_off1 c) S1x16x512.size (k0_off1_inb c)).toLoadRect (partC m c))⟩]) i = gathC m c i :=
  ViewIdx.gath0_eq m c s1 i hi

/-- What a device other than device 0 holds once it is through the entry handshake. -/
def entryPost (c : Dev nD) (f2 : Buf (Elt F) ((Memref.whole cc0_stg2_0 : Memref sig .tc .vmem S512x512 .f32).view.loc (c : Thread nD τ))) (s1 s2 : Scr F) (W : Waits sig Unit) : sProp 𝕄 :=
  iprop(pt c (Memref.whole cc0_stg0_0) (argBlk0 m c) ∗ pt c (Memref.whole cc0_stg1_0) (argBlk1 m c) ∗ pt c (Memref.whole cc0_stg2_0) f2
    ∗ pt c (Memref.whole cc0_scratch0) (partC m c)
    ∗ (∃ g1 : Scr F, ⌜∀ i ∈ (slot 0 0).set ∪ (slot 0 1).set, g1 i = gathC m c i⌝ ∗ bigSep (Finset.univ : Finset (Fin 2)) fun h => gathPts c 0 h fullShare g1)
    ∗ (bigSep (Finset.univ : Finset (Fin 2)) fun h => resPts c c h fullShare s2)
    ∗ take c
    ∗ atPos ER (barCell c) 1 ∅ 0
    ∗ owes (c : Thread nD τ) (owedRecv2 c + owedRecv1 c) (insert (SemLoc.reg barS, ()) W))

theorem rest_bar (c : Dev nD) (hc : c.val ≠ 0) :
    bigSep ((sched (F := F) m).duties (barCell c) 0 \ ∅) (fun d => (sched (F := F) m).payload (barCell c) 0 d) = take c := by
  rw [duties_bar, if_pos rfl, if_neg hc, Finset.sdiff_empty, bigSep_singleton, payload_bar, if_neg hc]

theorem owedRecv_lv (c : Dev nD) (g : GSem nD τ sig) (i : Unit) (h : 0 < (owedRecv2 c + owedRecv1 c) g i) : i ∈ L g ∧ 3 ≤ lv g i := by
  rcases Pipeline.add_pos_cases h with h2 | h1
  · unfold owedRecv2 at h2
    obtain ⟨hh, -, h2⟩ := Pipeline.sum_pos_exists h2
    obtain ⟨d, -, h2⟩ := Pipeline.sum_pos_exists h2
    rw [tallyAt_apply] at h2
    by_cases e : g = recv2Cell (fwd c d) hh d ∧ i = ()
    · rw [e.1, L_tc]
      refine ⟨Finset.mem_singleton_self _, ?_⟩
      show 3 ≤ lv (recv2Cell (fwd c d) hh d) i
      unfold lv; simp only [semKind_recv2]; decide
    · rw [if_neg e] at h2; exact absurd h2 (Nat.lt_irrefl 0)
  · unfold owedRecv1 at h1
    obtain ⟨hh, -, h1⟩ := Pipeline.sum_pos_exists h1
    obtain ⟨d, -, h1⟩ := Pipeline.sum_pos_exists h1
    rw [tallyAt_apply] at h1
    by_cases e : g = recv1Cell (fwd c d) hh d ∧ i = ()
    · rw [e.1, L_tc]
      refine ⟨Finset.mem_singleton_self _, ?_⟩
      show 3 ≤ lv (recv1Cell (fwd c d) hh d) i
      unfold lv; simp only [semKind_recv1]; decide
    · rw [if_neg e] at h1; exact absurd h1 (Nat.lt_irrefl 0)

theorem mayWait_bar (c : Dev nD) (hc : c.val ≠ 0) :
    (levAts L lv : sProp 𝕄) ⊢ MayWait (c : Thread nD τ) (.reg barS) () (owedRecv2 c + owedRecv1 c) :=
  Pipeline.mayWait_of_levAts (by rw [L_tc]; exact Finset.mem_singleton_self _) fun g i hg => by
    obtain ⟨h1, h2⟩ := owedRecv_lv c g i hg
    refine ⟨h1, lt_of_lt_of_le ?_ h2⟩
    show lv (barCell c) () < 3
    unfold lv; simp only [if_neg hc]; decide

set_option maxHeartbeats 4000000 in
theorem entry_nonzero (c : Dev nD) (hc : c.val ≠ 0) (hc1 : ¬ k0_cond1 (c : Thread nD τ).1 = 1#1) (hc2 : k0_cond2 (c : Thread nD τ).1 = 1#1)
    (K : CellIx → ℕ) (s0 s1 s2 : Scr F)
    (f2 : Buf (Elt F) ((Memref.whole cc0_stg2_0 : Memref sig .tc .vmem S512x512 .f32).view.loc (c : Thread nD τ)))
    (W : Waits sig Unit) (Q : (Σ' (d0 : Dev nD) (v2 : BitVec 32) (v30 : BitVec 32), BitVec 32) → sProp 𝕄) :
    iprop(pt c (Memref.whole cc0_stg0_0) (argBlk0 m c) ∗ pt c (Memref.whole cc0_stg1_0) (argBlk1 m c) ∗ pt c (Memref.whole cc0_stg2_0) f2
      ∗ pt c (Memref.whole cc0_scratch0) s0 ∗ pt c (Memref.whole cc0_scratch1) s1 ∗ pt c (Memref.whole cc0_scratch2) s2
      ∗ cellInv ER (sched m) (K (c, none)) (barCell c) ∗ cellInv ER (sched m) (K (dev0, none)) (barCell dev0)
      ∗ dutyTok ER (barCell dev0) 0 (⟨c.val, c.isLt⟩ : Fin 32) ∗ reached ER (barCell dev0) 0 ∗ reachedRecv c
      ∗ atPos ER (barCell c) 0 ∅ 0 ∗ cred (tallyAt (barCell c) () 1) ∗ levAts L lv
      ∗ owes (c : Thread nD τ) (O₀ c) W
      ∗ (∀ v : (Σ' (d0 : Dev nD) (v2 : BitVec 32) (v30 : BitVec 32), BitVec 32), iprop(⌜v.1 = c⌝ -∗ entryPost m c f2 s1 s2 W -∗ Q v)))
    ⊢ wp frame (wpE (defs₀ (F := F)) Variants.none c none) Set.univ
        (k0_part4 (Memref.whole cc0_stg0_0) (Memref.isWhole_whole _) (Memref.whole cc0_stg1_0) (Memref.isWhole_whole _) (Memref.whole cc0_stg2_0) (Memref.isWhole_whole _)
          (Memref.whole cc0_scratch0) (Memref.isWhole_whole _) (Memref.whole cc0_scratch1) (Memref.isWhole_whole _) (Memref.whole cc0_scratch2) (Memref.isWhole_whole _)
          cc0_scratch3 cc0_scratch4 cc0_scratch5) Q := by
  iintro ⟨H0, H1, H2, Hs0, Hs1, Hs2, #HIc, #HI0, Htok, #Hr0, #Hrr, Hat, Hcr, #Hlev, HO, Hk⟩
  sl_exec
  simp only [dev32_eq]
  iapply (give_intro_wand c _ s2 _)
  isplitl [Hs1]; · iexact Hs1
  isplitl [Hs2]; · iexact Hs2
  isplitr; · iexact Hrr
  iintro ⟨Hgive, HG0, HR0⟩
  iapply (Rounds.wp_signal Variants.none ER (sched m) (c : Thread nD τ) none (dst := (dev0 : Thread nD τ)) (κ := K (dev0, none))
      (d := (⟨c.val, c.isLt⟩ : Fin 32)) (by rw [duties_bar, if_pos rfl, if_pos rfl]; exact Finset.mem_filter.mpr ⟨Finset.mem_univ _, fun e => hc (congrArg Fin.val e)⟩)
      ((amount_bar m dev0 0 _).trans (by decide)) () (owedRecv2 c + owedRecv1 c) (by show O₀ c = _; unfold O₀ owedBar; rw [if_neg hc]; rfl)) $$ [HO Htok Hgive]
  · isplitr; · iexact HI0
    isplitl [HO]; · iexact HO
    isplitl [Htok]; · iexact Htok
    isplitl [Hgive]; · rw [payload_bar, if_pos rfl]; iexact Hgive
    iexact Hr0
  iintro HO
  have hmw := mayWait_bar (F := F) c hc
  sl_exec
  iapply (Rounds.wp_wait_rest_token Variants.none ER (sched m) (c : Thread nD τ) none (κ := K (c, none))
      (wpE_semWait_eq Variants.none (c : Thread nD τ) none Set.univ) (Set.mem_univ _) () (O := owedRecv2 c + owedRecv1 c) (W := W) (R := 0) (m := 0) (T := ∅)
      (by rw [expect_bar, if_neg hc]; decide)) $$ [Hcr HO Hat]
  · isplitr; · iexact HIc
    isplitl [Hcr]; · iexact Hcr
    isplitl [HO]; · iexact HO
    isplitr; · iapply hmw; iexact Hlev
    iexact Hat
  iintro ⟨HO, Hat, #Hr1, Hpay⟩
  ihave Htake := (Entails.of_eq (rest_bar m c hc)) $$ Hpay
  simp only [wp_pure, wp_ret]
  imodintro
  imodintro
  iapply Hk $$ %_
  · ipureintro; rfl
  unfold entryPost
  isplitl [H0]; · iexact H0
  isplitl [H1]; · iexact H1
  isplitl [H2]; · iexact H2
  have e0 : (View.whole cc0_scratch0).writes (Elt F) (View.whole cc0_scratch0).junk (entry_nonzero.sl.Hs0_1 m c) = partC m c := by
    unfold entry_nonzero.sl.Hs0_1
    rw [View.writes_singleton]
    refine (Memref.write_access_unit_zero_univ (Elt F) cc0_scratch0 hz3 _ _ _).trans ?_
    unfold partC
    congr 1
    · exact Memref.readAt_unit_zero (Elt F) cc0_stg0_0 hz2 _ _
    · exact Memref.readAt_unit_zero (Elt F) cc0_stg1_0 hz2 _ _
  isplitl [Hs0]
  · rw [e0]; iexact Hs0
  isplitl [HG0]
  · iexists ((View.whole cc0_scratch1).writes (Elt F) s1 [⟨Rect.unit (s := S32x16x512) ![0, 0, 0] S1x16x512.size inb_S32x16x512_S1x16x512_0_0_0, k0_pay2 (entry_nonzero.sl.v16 m c)⟩])
    isplitr
    · ipureintro
      intro i hi
      unfold entry_nonzero.sl.v16
      rw [show (Memref.whole cc0_scratch0 : Memref sig .tc .vmem S32x16x512 .bf16).view.writes (Elt F) (Memref.whole cc0_scratch0 : Memref sig .tc .vmem S32x16x512 .bf16).view.junk (entry_nonzero.sl.Hs0_1 m c) = partC m c from e0]
      exact gath0_eq m c s1 i hi
    · iexact HG0
  isplitl [HR0]; · iexact HR0
  isplitl [Htake]; · iexact Htake
  isplitl [Hat]; · iexact Hat
  iexact HO

end Cert.Kernel.Proto
end
-- ==== Proof.WEntry0.lean ====
import proofs.«900454_g7700000000000455_dist_matmul_relu_kshard_i_m512_n512_k256_v7x_i32_f32_1_alg».proof.Proof.Gen.Kernel
import proofs.«900454_g7700000000000455_dist_matmul_relu_kshard_i_m512_n512_k256_v7x_i32_f32_1_alg».proof.Proof.Gen.Kernel.Skeleton
import proofs.«900454_g7700000000000455_dist_matmul_relu_kshard_i_m512_n512_k256_v7x_i32_f32_1_alg».proof.Proof.Gen.Kernel.Launch
import proofs.«900454_g7700000000000455_dist_matmul_relu_kshard_i_m512_n512_k256_v7x_i32_f32_1_alg».proof.Proof.WData
import proofs.«900454_g7700000000000455_dist_matmul_relu_kshard_i_m512_n512_k256_v7x_i32_f32_1_alg».proof.Proof.WGive
import proofs.«900454_g7700000000000455_dist_matmul_relu_kshard_i_m512_n512_k256_v7x_i32_f32_1_alg».proof.Proof.WEntry
import proofs.«900454_g7700000000000455_dist_matmul_relu_kshard_i_m512_n512_k256_v7x_i32_f32_1_alg».proof.Proof.WRegroup
import proofs.«900454_g7700000000000455_dist_matmul_relu_kshard_i_m512_n512_k256_v7x_i32_f32_1_alg».proof.Proof.WDevTab
import proofs.«900454_g7700000000000455_dist_matmul_relu_kshard_i_m512_n512_k256_v7x_i32_f32_1_alg».proof.Proof.WViewIdx
import Idealize.ShloMosaic.Lib.Pipeline.Launch
import Idealize.ShloMosaic.Lib.Pipeline.Kit
import Idealize.ShloMosaic.Lib.Tactic

set_option maxRecDepth 16384

noncomputable section

namespace Cert.Kernel.Proto

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ)

/-! ## The places device 0 has still to signal -/

/-- The places above k. -/
def above (k : ℕ) : Finset (Fin 32) := Finset.univ.filter fun i => k < i.val

theorem mem_above {k : ℕ} {j : Fin 32} : j ∈ above k ↔ k < j.val := by
  unfold above; rw [Finset.mem_filter]; exact ⟨fun h => h.2, fun h => ⟨Finset.mem_univ _, h⟩⟩

theorem others_eq_above : others = above 0 := by
  ext j
  rw [mem_above, Finset.mem_filter]
  constructor
  · intro h; exact Nat.pos_of_ne_zero fun e => h.2 (Fin.ext e)
  · intro h; exact ⟨Finset.mem_univ _, fun e => by rw [e] at h; exact Nat.lt_irrefl 0 h⟩

theorem above_erase (k : ℕ) (h : k + 1 < 32) : (above k).erase (⟨k + 1, h⟩ : Fin 32) = above (k + 1) := by
  ext j
  rw [Finset.mem_erase, mem_above, mem_above]
  constructor
  · rintro ⟨hne, hlt⟩
    have : j.val ≠ k + 1 := fun e => hne (Fin.ext e)
    omega
  · intro hlt
    exact ⟨fun e => by rw [e] at hlt; exact Nat.lt_irrefl _ hlt, by omega⟩

theorem above_31 : above 31 = ∅ := by
  ext j
  rw [mem_above]
  have := j.isLt
  constructor
  · intro h; omega
  · intro h; exact absurd h (Finset.notMem_empty j)

/-! ## What device 0 owes, and the level of its wait -/

theorem O₀_zero (c : Dev nD) (hc : c.val = 0) :
    O₀ c = (owedRecv2 c + owedRecv1 c) + ∑ j ∈ above 0, tallyAt (barCell j) () 1 := by
  unfold O₀ owedBar
  rw [if_pos hc, others_eq_above]

theorem owed0_lv (c : Dev nD) (hc : c.val = 0) (g : GSem nD τ sig) (i : Unit) (h : 0 < (O₀ c) g i) : i ∈ L g ∧ 2 ≤ lv g i := by
  unfold O₀ at h
  rcases Pipeline.add_pos_cases h with h12 | hb
  · obtain ⟨h1, h2⟩ := owedRecv_lv c g i h12
    exact ⟨h1, by omega⟩
  · unfold owedBar at hb
    rw [if_pos hc] at hb
    obtain ⟨j, hj, hb⟩ := Pipeline.sum_pos_exists hb
    rw [tallyAt_apply] at hb
    by_cases e : g = barCell (⟨j.val, j.isLt⟩ : Dev nD) ∧ i = ()
    · rw [e.1, L_tc]
      refine ⟨Finset.mem_singleton_self _, ?_⟩
      have hj0 : ¬ j.val = 0 := fun e0 => (Finset.mem_filter.mp hj).2 (Fin.ext e0)
      show 2 ≤ lv (barCell (⟨j.val, j.isLt⟩ : Dev nD)) i
      unfold lv; simp only [if_neg hj0]; decide
    · rw [if_neg e] at hb; exact absurd hb (Nat.lt_irrefl 0)

theorem mayWait_bar0 (c : Dev nD) (hc : c.val = 0) :
    (levAts L lv : sProp 𝕄) ⊢ MayWait (c : Thread nD τ) (.reg barS) () (O₀ c) :=
  Pipeline.mayWait_of_levAts (by rw [L_tc]; exact Finset.mem_singleton_self _) fun g i hg => by
    obtain ⟨h1, h2⟩ := owed0_lv c hc g i hg
    refine ⟨h1, lt_of_lt_of_le ?_ h2⟩
    show lv (barCell c) () < 2
    unfold lv; simp only [if_pos hc]; decide

theorem rest_bar0 (c : Dev nD) (hc : c.val = 0) :
    bigSep ((sched (F := F) m).duties (barCell c) 0 \ ∅) (fun d => (sched (F := F) m).payload (barCell c) 0 d)
      = bigSep others fun j => give (F := F) j := by
  rw [duties_bar, if_pos rfl, if_pos hc, Finset.sdiff_empty]
  exact bigSep_congr fun j _ => by rw [payload_bar, if_pos hc]

/-! ## One signal -/

/-- What device 0 hands in with its signal to place j: the cell, its duty there with the cell's round 0 reached,
    and what device j takes. -/
def sigR (K : CellIx → ℕ) (j : Fin 32) : sProp 𝕄 :=
  iprop(cellInv ER (sched m) (K (j, none)) (barCell j) ∗ iprop(dutyTok ER (barCell j) 0 (0 : Fin 32) ∗ reached ER (barCell j) 0) ∗ take j)

theorem sigR_peel (K : CellIx → ℕ) {S : Finset (Fin 32)} {j : Fin 32} (hj : j ∈ S) :
    bigSep S (sigR m K) ⊢ iprop(iprop(cellInv ER (sched m) (K (j, none)) (barCell j)
      ∗ iprop(dutyTok ER (barCell j) 0 (0 : Fin 32) ∗ reached ER (barCell j) 0) ∗ take j) ∗ bigSep (S.erase j) (sigR m K)) :=
  Entails.of_eq (bigSep_erase hj)

theorem sigR_intro (K : CellIx → ℕ) :
    iprop((bigSep others fun j => cellInv ER (sched m) (K (j, none)) (barCell j))
      ∗ (bigSep others fun j => iprop(dutyTok ER (barCell j) 0 (0 : Fin 32) ∗ reached ER (barCell j) 0))
      ∗ (bigSep others fun j => take (F := F) j))
    ⊢ bigSep (above 0) (sigR m K) := by
  rw [← others_eq_above]
  unfold sigR
  simp only [bigSep_sep']
  exact .rfl

theorem give_take_zero (c : Dev nD) (hc : c.val = 0) :
    iprop(give (F := F) c ∗ bigSep others fun j => give (F := F) j)
      ⊢ iprop(take (F := F) c ∗ bigSep others fun j => take (F := F) j) := by
  have hc0 : c = (0 : Fin 32) := Fin.ext hc
  subst hc0
  exact Entails.of_eq give_zero_sep_others_eq_take

theorem signal_step (c : Dev nD) (K : CellIx → ℕ) (S : Finset (Fin 32)) (j : Fin 32) (hjS : j ∈ S) (hj : ¬ j.val = 0)
    (O : CellTallies nD τ sig Unit) (W : Waits sig Unit) {α : Type} (k : PUnit → Prog (TpuEff nD τ sig (Elt F) Λ₀ .tc) α) (Q : α → sProp 𝕄) :
    iprop(bigSep S (sigR m K) ∗ owes (c : Thread nD τ) (O + ∑ i ∈ S, tallyAt (barCell i) () 1) W
      ∗ (bigSep (S.erase j) (sigR m K) -∗ owes (c : Thread nD τ) (O + ∑ i ∈ S.erase j, tallyAt (barCell i) () 1) W
          -∗ wp frame (wpE (defs₀ (F := F)) Variants.none c none) Set.univ (k ⟨⟩) Q))
    ⊢ wp frame (wpE (defs₀ (F := F)) Variants.none c none) Set.univ (.op (.semSignal ((j : Dev nD) : Thread nD τ) barS 1) k) Q := by
  iintro ⟨HS, HO, Hk⟩
  ihave HS := (sigR_peel m K hjS) $$ HS
  icases HS with ⟨⟨HI, ⟨Htok, Hr⟩, Htake⟩, HR⟩
  have hO : O + ∑ i ∈ S, tallyAt (barCell i) () 1
      = (O + ∑ i ∈ S.erase j, tallyAt (barCell i) () 1) + tallyAt (((j : Dev nD) : Thread nD τ), SemLoc.reg barS) () 1 := by
    rw [← Finset.add_sum_erase S (fun i => tallyAt (barCell i) () 1) hjS]
    show O + (tallyAt (barCell j) () 1 + ∑ i ∈ S.erase j, tallyAt (barCell i) () 1)
      = (O + ∑ i ∈ S.erase j, tallyAt (barCell i) () 1) + tallyAt (barCell j) () 1
    abel
  iapply (Rounds.wp_signal Variants.none ER (sched m) (c : Thread nD τ) none (dst := ((j : Dev nD) : Thread nD τ)) (κ := K (j, none))
      (d := (0 : Fin 32)) (by rw [duties_bar, if_pos rfl, if_neg hj]; exact Finset.mem_singleton_self _)
      (amount_bar m j 0 _) () (O₀ := O + ∑ i ∈ S, tallyAt (barCell i) () 1) (O + ∑ i ∈ S.erase j, tallyAt (barCell i) () 1)
      hO) $$ [HI HO Htok Htake Hr]
  · isplitl [HI]; · iexact HI
    isplitl [HO]; · iexact HO
    isplitl [Htok]; · iexact Htok
    isplitl [Htake]; · rw [payload_bar, if_neg hj]; iexact Htake
    iexact Hr
  iintro HO
  iapply Hk $$ HR HO

/-- The signal to place k + 1, the places above k still to signal. -/
theorem signal_above (c : Dev nD) (K : CellIx → ℕ) (k : ℕ) (j : Fin 32) (hjk : j.val = k + 1)
    (O : CellTallies nD τ sig Unit) (W : Waits sig Unit) {α : Type} (kont : PUnit → Prog (TpuEff nD τ sig (Elt F) Λ₀ .tc) α) (Q : α → sProp 𝕄) :
    iprop(bigSep (above k) (sigR m K) ∗ owes (c : Thread nD τ) (O + ∑ i ∈ above k, tallyAt (barCell i) () 1) W
      ∗ (bigSep (above (k + 1)) (sigR m K) -∗ owes (c : Thread nD τ) (O + ∑ i ∈ above (k + 1), tallyAt (barCell i) () 1) W
          -∗ wp frame (wpE (defs₀ (F := F)) Variants.none c none) Set.univ (kont ⟨⟩) Q))
    ⊢ wp frame (wpE (defs₀ (F := F)) Variants.none c none) Set.univ (.op (.semSignal ((j : Dev nD) : Thread nD τ) barS 1) kont) Q := by
  have h := signal_step m c K (above k) j (mem_above.mpr (by omega)) (by omega) O W kont Q
  have e : (above k).erase j = above (k + 1) := by
    have hj32 : k + 1 < 32 := by have := j.isLt; omega
    have : j = (⟨k + 1, hj32⟩ : Fin 32) := Fin.ext hjk
    rw [this]; exact above_erase k hj32
  rw [e] at h
  exact h

set_option hygiene false in
/-- The signal of device 0 to the place j = k + 1: before it the places above k are still to signal, after it those
    above k + 1. -/
local macro "sig_step" k:num j:num peer:ident : tactic => `(tactic| (
  simp only [$peer:ident]
  iapply (signal_above m c K $k ($j : Fin 32) rfl (owedRecv2 c + owedRecv1 c) _ _ _)
  isplitl [HR]; · iexact HR
  isplitl [HO]; · iexact HO
  iintro HR HO
  sl_exec))

set_option maxHeartbeats 4000000 in
theorem entry_zero (c : Dev nD) (hc : c.val = 0) (hc1 : k0_cond1 (c : Thread nD τ).1 = 1#1) (hc2 : ¬ k0_cond2 (c : Thread nD τ).1 = 1#1)
    (K : CellIx → ℕ) (s0 s1 s2 : Scr F)
    (f2 : Buf (Elt F) ((Memref.whole cc0_stg2_0 : Memref sig .tc .vmem S512x512 .f32).view.loc (c : Thread nD τ)))
    (W : Waits sig Unit) (Q : (Σ' (d0 : Dev nD) (v2 : BitVec 32) (v30 : BitVec 32), BitVec 32) → sProp 𝕄) :
    iprop(pt c (Memref.whole cc0_stg0_0) (argBlk0 m c) ∗ pt c (Memref.whole cc0_stg1_0) (argBlk1 m c) ∗ pt c (Memref.whole cc0_stg2_0) f2
      ∗ pt c (Memref.whole cc0_scratch0) s0 ∗ pt c (Memref.whole cc0_scratch1) s1 ∗ pt c (Memref.whole cc0_scratch2) s2
      ∗ cellInv ER (sched m) (K (c, none)) (barCell c)
      ∗ (bigSep others fun j => cellInv ER (sched m) (K (j, none)) (barCell j))
      ∗ (bigSep others fun j => iprop(dutyTok ER (barCell j) 0 (0 : Fin 32) ∗ reached ER (barCell j) 0))
      ∗ reachedRecv c
      ∗ atPos ER (barCell c) 0 ∅ 0 ∗ cred (tallyAt (barCell c) () 31) ∗ levAts L lv
      ∗ owes (c : Thread nD τ) (O₀ c) W
      ∗ (∀ v : (Σ' (d0 : Dev nD) (v2 : BitVec 32) (v30 : BitVec 32), BitVec 32), iprop(⌜v.1 = c⌝ -∗ entryPost m c f2 s1 s2 W -∗ Q v)))
    ⊢ wp frame (wpE (defs₀ (F := F)) Variants.none c none) Set.univ
        (k0_part4 (Memref.whole cc0_stg0_0) (Memref.isWhole_whole _) (Memref.whole cc0_stg1_0) (Memref.isWhole_whole _) (Memref.whole cc0_stg2_0) (Memref.isWhole_whole _)
          (Memref.whole cc0_scratch0) (Memref.isWhole_whole _) (Memref.whole cc0_scratch1) (Memref.isWhole_whole _) (Memref.whole cc0_scratch2) (Memref.isWhole_whole _)
          cc0_scratch3 cc0_scratch4 cc0_scratch5) Q := by
  iintro ⟨H0, H1, H2, Hs0, Hs1, Hs2, #HIc, HIo, Htoks, #Hrr, Hat, Hcr, #Hlev, HO, Hk⟩
  have hmw := mayWait_bar0 (F := F) c hc
  sl_exec
  iapply (Rounds.wp_wait_rest_token Variants.none ER (sched m) (c : Thread nD τ) none (κ := K (c, none))
      (wpE_semWait_eq Variants.none (c : Thread nD τ) none Set.univ) (Set.mem_univ _) () (O := O₀ c) (W := W) (R := 0) (m := 0) (T := ∅)
      (by rw [expect_bar, if_pos hc]; decide)) $$ [Hcr HO Hat]
  · isplitr; · iexact HIc
    isplitl [Hcr]; · iexact Hcr
    isplitl [HO]; · iexact HO
    isplitr; · iapply hmw; iexact Hlev
    iexact Hat
  iintro ⟨HO, Hat, #Hr1, Hpay⟩
  ihave Hgives := (Entails.of_eq (rest_bar0 m c hc)) $$ Hpay
  iapply (give_intro_wand c _ s2 _)
  isplitl [Hs1]; · iexact Hs1
  isplitl [Hs2]; · iexact Hs2
  isplitr; · iexact Hrr
  iintro ⟨Hgive, HG0, HR0⟩
  ihave HT := (give_take_zero c hc) $$ [Hgive Hgives]
  · isplitl [Hgive]; · iexact Hgive
    iexact Hgives
  icases HT with ⟨Htake, Htakes⟩
  ihave HR := (sigR_intro m K) $$ [HIo Htoks Htakes]
  · isplitl [HIo]; · iexact HIo
    isplitl [Htoks]; · iexact Htoks
    iexact Htakes
  rw [O₀_zero c hc]
  sl_exec
  sig_step 0 1 k0_dev1_peer
  sig_step 1 2 k0_dev2_peer
  sig_step 2 3 k0_dev3_peer
  sig_step 3 4 k0_dev4_peer
  sig_step 4 5 k0_dev5_peer
  sig_step 5 6 k0_dev6_peer
  sig_step 6 7 k0_dev7_peer
  sig_step 7 8 k0_dev8_peer
  sig_step 8 9 k0_dev9_peer
  sig_step 9 10 k0_dev10_peer
  sig_step 10 11 k0_dev11_peer
  sig_step 11 12 k0_dev12_peer
  sig_step 12 13 k0_dev13_peer
  sig_step 13 14 k0_dev14_peer
  sig_step 14 15 k0_dev15_peer
  sig_step 15 16 k0_dev16_peer
  sig_step 16 17 k0_dev17_peer
  sig_step 17 18 k0_dev18_peer
  sig_step 18 19 k0_dev19_peer
  sig_step 19 20 k0_dev20_peer
  sig_step 20 21 k0_dev21_peer
  sig_step 21 22 k0_dev22_peer
  sig_step 22 23 k0_dev23_peer
  sig_step 23 24 k0_dev24_peer
  sig_step 24 25 k0_dev25_peer
  sig_step 25 26 k0_dev26_peer
  sig_step 26 27 k0_dev27_peer
  sig_step 27 28 k0_dev28_peer
  sig_step 28 29 k0_dev29_peer
  sig_step 29 30 k0_dev30_peer
  sig_step 30 31 k0_dev31_peer
  iclear HR
  simp only [wp_pure, wp_ret]
  imodintro
  iapply Hk $$ %_
  · ipureintro; rfl
  unfold entryPost
  isplitl [H0]; · iexact H0
  isplitl [H1]; · iexact H1
  isplitl [H2]; · iexact H2
  have e0 : (View.whole cc0_scratch0).writes (Elt F) (View.whole cc0_scratch0).junk (entry_zero.sl.Hs0_1 m c) = partC m c := by
    unfold entry_zero.sl.Hs0_1
    rw [View.writes_singleton]
    refine (Memref.write_access_unit_zero_univ (Elt F) cc0_scratch0 hz3 _ _ _).trans ?_
    unfold partC
    congr 1
    · exact Memref.readAt_unit_zero (Elt F) cc0_stg0_0 hz2 _ _
    · exact Memref.readAt_unit_zero (Elt F) cc0_stg1_0 hz2 _ _
  isplitl [Hs0]
  · rw [e0]; iexact Hs0
  isplitl [HG0]
  · iexists ((View.whole cc0_scratch1).writes (Elt F) s1 [⟨Rect.unit (s := S32x16x512) ![0, 0, 0] S1x16x512.size inb_S32x16x512_S1x16x512_0_0_0, k0_pay2 (entry_zero.sl.v16 m c)⟩])
    isplitr
    · ipureintro
      intro i hi
      unfold entry_zero.sl.v16
      rw [show (Memref.whole cc0_scratch0 : Memref sig .tc .vmem S32x16x512 .bf16).view.writes (Elt F) (Memref.whole cc0_scratch0 : Memref sig .tc .vmem S32x16x512 .bf16).view.junk (entry_zero.sl.Hs0_1 m c) = partC m c from e0]
      exact ViewIdx.gath0_eq m c s1 i hi
    · iexact HG0
  isplitl [HR0]; · iexact HR0
  isplitl [Htake]; · iexact Htake
  isplitl [Hat]; · iexact Hat
  rw [show above (30 + 1) = ∅ from above_31, Finset.sum_empty, add_zero]
  iexact HO

/-- info: 'Cert.Kernel.Proto.entry_zero' depends on axioms: [propext, Classical.choice, Quot.sound] -/
#guard_msgs in #print axioms entry_zero

end Cert.Kernel.Proto
end
-- ==== Proof.WLevels.lean ====
import proofs.«900454_g7700000000000455_dist_matmul_relu_kshard_i_m512_n512_k256_v7x_i32_f32_1_alg».proof.Proof.Gen.Kernel
import proofs.«900454_g7700000000000455_dist_matmul_relu_kshard_i_m512_n512_k256_v7x_i32_f32_1_alg».proof.Proof.Gen.Kernel.Skeleton
import proofs.«900454_g7700000000000455_dist_matmul_relu_kshard_i_m512_n512_k256_v7x_i32_f32_1_alg».proof.Proof.Gen.Kernel.Launch
import proofs.«900454_g7700000000000455_dist_matmul_relu_kshard_i_m512_n512_k256_v7x_i32_f32_1_alg».proof.Proof.WLaunchKit
import Idealize.ShloMosaic.Lib.Pipeline.Launch
import Idealize.ShloMosaic.Lib.Pipeline.Kit
import Idealize.ShloMosaic.Lib.Tactic

set_option maxRecDepth 16384

noncomputable section

namespace Cert.Kernel.Proto

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The waits a device makes while it still owes

A wait is allowed while everything the device still owes sits at a higher level than the awaited cell. The send
cells are lowest (level 0: the waiter's own copies pay them), the first receive cells at 3, the second at 4. -/

theorem lv_send (c : Dev nD) (h : Fin 2) (d : Fin 32) (i : Unit) : lv (sendCell c h d) i = 0 := by
  unfold lv; simp only [semKind_send]; decide
theorem lv_recv1 (c : Dev nD) (h : Fin 2) (d : Fin 32) (i : Unit) : lv (recv1Cell c h d) i = 3 := by
  unfold lv; simp only [semKind_recv1]; decide
theorem lv_recv2 (c : Dev nD) (h : Fin 2) (d : Fin 32) (i : Unit) : lv (recv2Cell c h d) i = 4 := by
  unfold lv; simp only [semKind_recv2]; decide

/-- A wait on one of its own send cells, whatever the device owes at level 1 or above. -/
theorem mayWait_send (c : Dev nD) (h : Fin 2) (d : Fin 32) (X : CellTallies nD τ sig Unit)
    (hX : ∀ (g : GSem nD τ sig) (i : Unit), 0 < X g i → i ∈ L g ∧ 1 ≤ lv g i) :
    (levAts L lv : sProp 𝕄) ⊢ MayWait (c : Thread nD τ) (.dma (semAt cc0_scratch3 h d)) () X :=
  Pipeline.mayWait_of_levAts (by rw [L_tc]; exact Finset.mem_singleton_self _) fun g i hg => by
    obtain ⟨h1, h2⟩ := hX g i hg
    refine ⟨h1, lt_of_lt_of_le ?_ h2⟩
    show lv (sendCell c h d) () < 1
    rw [lv_send]; decide

/-- A wait on a first receive cell while the device owes only second-round credits. -/
theorem mayWait_recv1 (c : Dev nD) (h : Fin 2) (d : Fin 32) (X : CellTallies nD τ sig Unit)
    (hX : ∀ (g : GSem nD τ sig) (i : Unit), 0 < X g i → i ∈ L g ∧ 4 ≤ lv g i) :
    (levAts L lv : sProp 𝕄) ⊢ MayWait (c : Thread nD τ) (.dma (semAt cc0_scratch4 h d)) () X :=
  Pipeline.mayWait_of_levAts (by rw [L_tc]; exact Finset.mem_singleton_self _) fun g i hg => by
    obtain ⟨h1, h2⟩ := hX g i hg
    refine ⟨h1, lt_of_lt_of_le ?_ h2⟩
    show lv (recv1Cell c h d) () < 4
    rw [lv_recv1]; decide

/-- Second-round credits sit at level 4. -/
theorem owedRecv2_lv (c : Dev nD) (g : GSem nD τ sig) (i : Unit) (h : 0 < owedRecv2 c g i) : i ∈ L g ∧ 4 ≤ lv g i := by
  unfold owedRecv2 at h
  obtain ⟨hh, -, h⟩ := Pipeline.sum_pos_exists h
  obtain ⟨d, -, h⟩ := Pipeline.sum_pos_exists h
  rw [tallyAt_apply] at h
  by_cases e : g = recv2Cell (fwd c d) hh d ∧ i = ()
  · rw [e.1, L_tc]
    exact ⟨Finset.mem_singleton_self _, by rw [lv_recv2]⟩
  · rw [if_neg e] at h; exact absurd h (Nat.lt_irrefl 0)

/-- One tally on a second receive cell sits at level 4. -/
theorem tallyRecv2_lv (c' : Dev nD) (hh : Fin 2) (d : Fin 32) (n : ℕ) (g : GSem nD τ sig) (i : Unit)
    (h : 0 < (tallyAt (recv2Cell c' hh d) () n : CellTallies nD τ sig Unit) g i) : i ∈ L g ∧ 4 ≤ lv g i := by
  rw [tallyAt_apply] at h
  by_cases e : g = recv2Cell c' hh d ∧ i = ()
  · rw [e.1, L_tc]
    exact ⟨Finset.mem_singleton_self _, by rw [lv_recv2]⟩
  · rw [if_neg e] at h; exact absurd h (Nat.lt_irrefl 0)

/-- The level bound passes to sums. -/
theorem add_lv {X Y : CellTallies nD τ sig Unit} {n : ℕ}
    (hX : ∀ (g : GSem nD τ sig) (i : Unit), 0 < X g i → i ∈ L g ∧ n ≤ lv g i)
    (hY : ∀ (g : GSem nD τ sig) (i : Unit), 0 < Y g i → i ∈ L g ∧ n ≤ lv g i) :
    ∀ (g : GSem nD τ sig) (i : Unit), 0 < (X + Y) g i → i ∈ L g ∧ n ≤ lv g i := fun g i h => by
  rcases Pipeline.add_pos_cases h with h | h
  · exact hX g i h
  · exact hY g i h

end Cert.Kernel.Proto

end
-- ==== Proof.WHalfSum.lean ====
import proofs.«900454_g7700000000000455_dist_matmul_relu_kshard_i_m512_n512_k256_v7x_i32_f32_1_alg».proof.Proof.Gen.Kernel
import proofs.«900454_g7700000000000455_dist_matmul_relu_kshard_i_m512_n512_k256_v7x_i32_f32_1_alg».proof.Proof.Gen.Kernel.Skeleton
import proofs.«900454_g7700000000000455_dist_matmul_relu_kshard_i_m512_n512_k256_v7x_i32_f32_1_alg».proof.Proof.Gen.Kernel.Launch
import proofs.«900454_g7700000000000455_dist_matmul_relu_kshard_i_m512_n512_k256_v7x_i32_f32_1_alg».proof.Proof.WSched
import proofs.«900454_g7700000000000455_dist_matmul_relu_kshard_i_m512_n512_k256_v7x_i32_f32_1_alg».proof.Proof.WSlots
import proofs.«900454_g7700000000000455_dist_matmul_relu_kshard_i_m512_n512_k256_v7x_i32_f32_1_alg».proof.Proof.WDevEq
import proofs.«900454_g7700000000000455_dist_matmul_relu_kshard_i_m512_n512_k256_v7x_i32_f32_1_alg».proof.Proof.WViewIdx
import Idealize.ShloMosaic.Lib.Pipeline.Launch
import Idealize.ShloMosaic.Lib.Pipeline.Kit
import Idealize.ShloMosaic.Lib.Tactic

set_option maxRecDepth 16384

noncomputable section

namespace Cert.Kernel.Proto

open Cert.Kernel Cert.Kernel.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ)

/-! ## Column half h of a scratch buffer: its 32 half slots -/

theorem mem_cols {h : Fin 2} {i : S32x16x512.Idx} :
    i ∈ (cols h).set ↔ 256 * h.val ≤ (i 2).val ∧ (i 2).val < 256 * h.val + 256 := by
  unfold cols
  rw [Rect.mem_set_unit]
  constructor
  · intro H
    have h2 : 256 * h.val ≤ (i 2).val ∧ (i 2).val < 256 * h.val + 256 := H 2
    exact h2
  · rintro ⟨lo, hi⟩ a
    match a with
    | ⟨0, _⟩ => exact ⟨Nat.zero_le _, by show (i 0).val < 0 + 32; have : (i 0).val < 32 := (i 0).isLt; omega⟩
    | ⟨1, _⟩ => exact ⟨Nat.zero_le _, by show (i 1).val < 0 + 16; have : (i 1).val < 16 := (i 1).isLt; omega⟩
    | ⟨2, _⟩ => exact ⟨lo, hi⟩

theorem cols_eq_biUnion (h : Fin 2) :
    (Finset.univ : Finset (Fin 32)).biUnion (fun t => (slot t h).set) = (cols h).set := by
  ext i
  rw [Finset.mem_biUnion, mem_cols]
  constructor
  · rintro ⟨t, -, ht⟩; exact (mem_slot.mp ht).2
  · intro H; exact ⟨⟨(i 0).val, (i 0).isLt⟩, Finset.mem_univ _, mem_slot.mpr ⟨rfl, H⟩⟩

theorem slot_subset_cols (t : Fin 32) (h : Fin 2) : (slot t h).set ⊆ (cols h).set := fun i hi =>
  mem_cols.mpr (mem_slot.mp hi).2

/-- Column half h of the gathering buffer held at G is its 32 half slots held at G. -/
theorem gath_cols (c : Dev nD) (h : Fin 2) (q : PosShare TreeShare) (G : Scr F) :
    (bigSep (Finset.univ : Finset (Fin 32)) fun t => gathPts c t h q G)
      = ((((c : Thread nD τ).loc cc0_scratch1) ↦[(cols h).set]{q} G) : sProp 𝕄) := by
  rw [← cols_eq_biUnion]
  unfold gathPts
  exact (pointsTo_biUnion _ _ fun t _ t' _ htt' => slot_disjoint (fun e => htt' (congrArg Prod.fst e))).symm

/-- The same when each half slot is held at contents of its own that agree with G there. -/
theorem gath_cols_of_agree (c : Dev nD) (h : Fin 2) (q : PosShare TreeShare) (Gs : Fin 32 → Scr F) (G : Scr F)
    (hG : ∀ t, ∀ i ∈ (slot t h).set, Gs t i = G i) :
    (bigSep (Finset.univ : Finset (Fin 32)) fun t => gathPts c t h q (Gs t))
      = ((((c : Thread nD τ).loc cc0_scratch1) ↦[(cols h).set]{q} G) : sProp 𝕄) := by
  rw [← gath_cols]
  exact bigSep_congr fun t _ => by unfold gathPts; exact pointsTo_congr (hG t)

/-- Likewise for the result buffer. -/
theorem res_cols (c : Dev nD) (h : Fin 2) (q : PosShare TreeShare) (G : Scr F) :
    (bigSep (Finset.univ : Finset (Fin 32)) fun t => resPts c t h q G)
      = ((((c : Thread nD τ).loc cc0_scratch2) ↦[(cols h).set]{q} G) : sProp 𝕄) := by
  rw [← cols_eq_biUnion]
  unfold resPts
  exact (pointsTo_biUnion _ _ fun t _ t' _ htt' => slot_disjoint (fun e => htt' (congrArg Prod.fst e))).symm

/-! ## The value stored: the device's own result slot -/

/-- Entry (0, r, j) of half h of slot t sits at (t, r, 256 h + j). -/
theorem slot_emb3 (t : Fin 32) (h : Fin 2) (r : Fin 16) (j : Fin 256) (J : Fin 512) (hJ : J.val = 256 * h.val + j.val) :
    (slot t h).emb (ix3 (0 : Fin 1) r j) = ix3 t r J := by
  funext b
  refine Fin.ext ?_
  match b with
  | ⟨0, _⟩ => show t.val + 1 * 0 = t.val; omega
  | ⟨1, _⟩ => show 0 + 1 * r.val = r.val; omega
  | ⟨2, _⟩ => show 256 * h.val + 1 * j.val = J.val; omega

/-- The result at (t, r, 256 h + j) is entry (0, r, j) of half h of device t's own result slot. -/
theorem resC_apply (t : Fin 32) (h : Fin 2) (r : Fin 16) (j : Fin 256) (J : Fin 512) (hJ : J.val = 256 * h.val + j.val) :
    resC m (ix3 t r J) = ownRes m t h (ix3 (0 : Fin 1) r j) := by
  have hj := j.isLt
  have hh := h.isLt
  have e2 : inHalf (ix3 t r J) = ix3 (0 : Fin 1) r j := by
    funext a
    match a with
    | ⟨0, _⟩ => exact Fin.ext rfl
    | ⟨1, _⟩ => rfl
    | ⟨2, _⟩ => exact Fin.ext (by show J.val % 256 = j.val; omega)
  have key : ∀ (h' : Fin 2), h' = h → ∀ x, x = ix3 (0 : Fin 1) r j → ownRes m t h' x = ownRes m t h (ix3 (0 : Fin 1) r j) :=
    fun h' e x ex => by rw [e, ex]
  unfold resC
  exact key _ (Fin.ext (by show J.val / 256 = h.val; omega)) _ e2

/-- The device's own result slot written into its place: the result there. -/
theorem write_ownRes (c : Dev nD) (h : Fin 2) (off : Fin 3 → ℕ) (hoff : off = ![c.val, 0, 256 * h.val])
    (inb : ∀ a, off a + S1x16x256.size a ≤ S32x16x512.size a) (f : Scr F) :
    ∀ i ∈ (slot c h).set,
      ((resM : Memref sig .tc .vmem S32x16x512 .bf16).access (Rect.unit (s := S32x16x512) off S1x16x256.size inb)).write (Elt F) f
        (ownRes m c h) Finset.univ i = resC m i := by
  subst hoff
  intro i hi
  obtain ⟨r, j, J, hJ, rfl⟩ := ViewIdx.exists_of_mem_slot hi
  rw [resC_apply m c h r j J hJ]
  have hemb : ((resM : Memref sig .tc .vmem S32x16x512 .bf16).access (Rect.unit (s := S32x16x512) ![c.val, 0, 256 * h.val] S1x16x256.size inb)).emb
      (ix3 (0 : Fin 1) r j) = ix3 c r J := slot_emb3 c h r j J hJ
  refine ((congrArg _ hemb.symm).trans (View.write_emb_of_mem _ _ (Finset.mem_univ _))).trans ?_
  exact cast_eq _ _

/-! ## The three operations of a column half's local section

The gathered slots' column half is loaded whole, the device's own half slot of the result is loaded (the value is
not used) and then stored with the sum of the gathered slots clamped below at zero. -/

variable {α : Type}

/-- The load of column half h of the gathering buffer reads what the device gathers. -/
theorem wp_load_cols (c : Dev nD) (h : Fin 2) (off : Fin 3 → ℕ) (hoff : off = ![0, 0, 256 * h.val])
    (inb : ∀ a, off a + S32x16x256.size a ≤ S32x16x512.size a)
    (hl : (gathM : Memref sig .tc .vmem S32x16x512 .bf16).view.LoadsAt (Rect.unit (s := S32x16x512) off S32x16x256.size inb).toLoadRect)
    (q : PosShare TreeShare) (G : Scr F) (hG : ∀ i ∈ (cols h).set, G i = gathC m c i)
    (k : Vec F S32x16x256 .bf16 → Prog (TpuEff nD τ sig (Elt F) Λ₀ .tc) α) (Q : α → sProp 𝕄) :
    iprop((((c : Thread nD τ).loc cc0_scratch1) ↦[(cols h).set]{q} G)
      ∗ ((((c : Thread nD τ).loc cc0_scratch1) ↦[(cols h).set]{q} G)
          -∗ wp frame (wpE (defs₀ (F := F)) Variants.none c none) Set.univ
              (k ((gathM : Memref sig .tc .vmem S32x16x512 .bf16).view.readAt (Elt F) (cols h).toLoadRect (gathC m c))) Q))
    ⊢ wp frame (wpE (defs₀ (F := F)) Variants.none c none) Set.univ
        (.op (.load (gathM : Memref sig .tc .vmem S32x16x512 .bf16) (Rect.unit (s := S32x16x512) off S32x16x256.size inb).toLoadRect hl) k) Q := by
  subst hoff
  have hsub : (gathM : Memref sig .tc .vmem S32x16x512 .bf16).view.setOn (cols h).toLoadRect.set ⊆ (cols h).set := by
    show Finset.map (Function.Embedding.refl _) _ ⊆ _
    rw [Finset.map_refl]
  have e : (gathM : Memref sig .tc .vmem S32x16x512 .bf16).view.readAt (Elt F) (cols h).toLoadRect G
      = (gathM : Memref sig .tc .vmem S32x16x512 .bf16).view.readAt (Elt F) (cols h).toLoadRect (gathC m c) :=
    View.readAt_congr fun i hi => hG i (hsub hi)
  iintro ⟨HG, Hk⟩
  iapply (wp_load Variants.none (c : Thread nD τ) none Set.univ (m := gathM) (r := (cols h).toLoadRect) (S := (cols h).set) (q := q) (f := G) hsub) $$ HG
  iintro HG
  rw [e]
  iapply Hk $$ HG

/-- A load of half h of slot t of the result buffer, that half slot held. -/
theorem wp_load_slot (c : Dev nD) (t : Fin 32) (h : Fin 2) (off : Fin 3 → ℕ) (hoff : off = ![t.val, 0, 256 * h.val])
    (inb : ∀ a, off a + S1x16x256.size a ≤ S32x16x512.size a)
    (hl : (resM : Memref sig .tc .vmem S32x16x512 .bf16).view.LoadsAt (Rect.unit (s := S32x16x512) off S1x16x256.size inb).toLoadRect)
    (q : PosShare TreeShare) (f : Scr F)
    (k : Vec F S1x16x256 .bf16 → Prog (TpuEff nD τ sig (Elt F) Λ₀ .tc) α) (Q : α → sProp 𝕄) :
    iprop(resPts c t h q f
      ∗ (resPts c t h q f -∗ wp frame (wpE (defs₀ (F := F)) Variants.none c none) Set.univ
          (k ((resM : Memref sig .tc .vmem S32x16x512 .bf16).view.readAt (Elt F) (Rect.unit (s := S32x16x512) off S1x16x256.size inb).toLoadRect f)) Q))
    ⊢ wp frame (wpE (defs₀ (F := F)) Variants.none c none) Set.univ
        (.op (.load (resM : Memref sig .tc .vmem S32x16x512 .bf16) (Rect.unit (s := S32x16x512) off S1x16x256.size inb).toLoadRect hl) k) Q := by
  subst hoff
  have hsub : (resM : Memref sig .tc .vmem S32x16x512 .bf16).view.setOn (slot t h).toLoadRect.set ⊆ (slot t h).set := by
    show Finset.map (Function.Embedding.refl _) _ ⊆ _
    rw [Finset.map_refl]
  unfold resPts
  iintro ⟨HR, Hk⟩
  iapply (wp_load Variants.none (c : Thread nD τ) none Set.univ (m := resM) (r := (slot t h).toLoadRect) (S := (slot t h).set) (q := q) (f := f) hsub) $$ HR
  iintro HR
  iapply Hk $$ HR

/-- A store into half h of slot t of the result buffer, that half slot held whole. -/
theorem wp_store_slot (c : Dev nD) (t : Fin 32) (h : Fin 2) (off : Fin 3 → ℕ) (hoff : off = ![t.val, 0, 256 * h.val])
    (inb : ∀ a, off a + S1x16x256.size a ≤ S32x16x512.size a) (w : FVec F S1x16x256 .bf16)
    (hx : ((resM : Memref sig .tc .vmem S32x16x512 .bf16).access (Rect.unit (s := S32x16x512) off S1x16x256.size inb)).Stores Finset.univ)
    (hm : (Finset.univ : Finset (Rect.unit (s := S32x16x512) off S1x16x256.size inb).shape.Idx) = Finset.univ
      ∨ ∀ a, (Rect.unit (s := S32x16x512) off S1x16x256.size inb).stride a = 1)
    (f : Scr F) (k : PUnit → Prog (TpuEff nD τ sig (Elt F) Λ₀ .tc) α) (Q : α → sProp 𝕄) :
    iprop(resPts c t h fullShare f
      ∗ (resPts c t h fullShare (((resM : Memref sig .tc .vmem S32x16x512 .bf16).access (Rect.unit (s := S32x16x512) off S1x16x256.size inb)).write (Elt F) f w Finset.univ)
          -∗ wp frame (wpE (defs₀ (F := F)) Variants.none c none) Set.univ (k ⟨⟩) Q))
    ⊢ wp frame (wpE (defs₀ (F := F)) Variants.none c none) Set.univ
        (.op (.store (resM : Memref sig .tc .vmem S32x16x512 .bf16) (Rect.unit (s := S32x16x512) off S1x16x256.size inb) w Finset.univ hx hm) k) Q := by
  subst hoff
  have hsub : ((resM : Memref sig .tc .vmem S32x16x512 .bf16).access (Rect.unit (s := S32x16x512) ![t.val, 0, 256 * h.val] S1x16x256.size inb)).setOn Finset.univ
      ⊆ (slot t h).set := by
    rw [View.setOn_univ]
    exact (View.set_slice_whole cc0_scratch2 _).le
  unfold resPts
  iintro ⟨HR, Hk⟩
  iapply (wp_store Variants.none (c : Thread nD τ) none Set.univ (m := resM) (r := Rect.unit (s := S32x16x512) ![t.val, 0, 256 * h.val] S1x16x256.size inb)
      (w := w) (S := (slot t h).set) (f := f) hsub) $$ HR
  iintro HR
  iapply Hk $$ HR

/-! ## The local section of each column half -/

/-- First column half: from the gathered slots' first halves, agreeing there with what the device gathers, and
    the device's own first half slot of the result, the three operations leave the gathered halves as they were
    and the own half slot at the result. -/
theorem half_sum0 (c : Dev nD) (G s2 : Scr F) (hG : ∀ i ∈ (cols 0).set, G i = gathC m c i)
    (hl1 : (gathM : Memref sig .tc .vmem S32x16x512 .bf16).view.LoadsAt (Rect.unit (s := S32x16x512) ![0, 0, 0] S32x16x256.size inb_S32x16x512_S32x16x256_0_0_0).toLoadRect)
    (hl2 : (resM : Memref sig .tc .vmem S32x16x512 .bf16).view.LoadsAt (Rect.unit (s := S32x16x512) (k0_off4 c) S1x16x256.size (k0_off4_inb c)).toLoadRect)
    (hx : ((resM : Memref sig .tc .vmem S32x16x512 .bf16).access (Rect.unit (s := S32x16x512) (k0_off4 c) S1x16x256.size (k0_off4_inb c))).Stores Finset.univ)
    (hm : (Finset.univ : Finset (Rect.unit (s := S32x16x512) (k0_off4 c) S1x16x256.size (k0_off4_inb c)).shape.Idx) = Finset.univ
      ∨ ∀ a, (Rect.unit (s := S32x16x512) (k0_off4 c) S1x16x256.size (k0_off4_inb c)).stride a = 1)
    (k : PUnit → Prog (TpuEff nD τ sig (Elt F) Λ₀ .tc) α) (Q : α → sProp 𝕄) :
    iprop((((c : Thread nD τ).loc cc0_scratch1) ↦[(cols 0).set]{fullShare} G) ∗ resPts c c 0 fullShare s2
      ∗ ((((c : Thread nD τ).loc cc0_scratch1) ↦[(cols 0).set]{fullShare} G)
          -∗ (∃ R : Scr F, ⌜∀ i ∈ (slot c 0).set, R i = resC m i⌝ ∗ resPts c c 0 fullShare R)
          -∗ wp frame (wpE (defs₀ (F := F)) Variants.none c none) Set.univ (k ⟨⟩) Q))
    ⊢ wp frame (wpE (defs₀ (F := F)) Variants.none c none) Set.univ
        (.op (.load (gathM : Memref sig .tc .vmem S32x16x512 .bf16) (Rect.unit (s := S32x16x512) ![0, 0, 0] S32x16x256.size inb_S32x16x512_S32x16x256_0_0_0).toLoadRect hl1) fun v =>
          .op (.load (resM : Memref sig .tc .vmem S32x16x512 .bf16) (Rect.unit (s := S32x16x512) (k0_off4 c) S1x16x256.size (k0_off4_inb c)).toLoadRect hl2) fun _ =>
            .op (.store (resM : Memref sig .tc .vmem S32x16x512 .bf16) (Rect.unit (s := S32x16x512) (k0_off4 c) S1x16x256.size (k0_off4_inb c)) (k0_pay3 v) Finset.univ hx hm) k) Q := by
  iintro ⟨HG, HR, Hk⟩
  iapply (wp_load_cols m c 0 _ rfl _ hl1 fullShare G hG _ Q)
  isplitl [HG]; · iexact HG
  iintro HG
  iapply (wp_load_slot c c 0 _ (k0_off4_eq c) _ hl2 fullShare s2 _ Q)
  isplitl [HR]; · iexact HR
  iintro HR
  iapply (wp_store_slot c c 0 _ (k0_off4_eq c) _ _ hx hm s2 k Q)
  isplitl [HR]; · iexact HR
  iintro HR
  iapply Hk $$ HG
  iexists (((resM : Memref sig .tc .vmem S32x16x512 .bf16).access (Rect.unit (s := S32x16x512) (k0_off4 c) S1x16x256.size (k0_off4_inb c))).write (Elt F) s2
    (k0_pay3 ((gathM : Memref sig .tc .vmem S32x16x512 .bf16).view.readAt (Elt F) (cols 0).toLoadRect (gathC m c))) Finset.univ)
  isplitr
  · ipureintro
    have e : k0_pay3 ((gathM : Memref sig .tc .vmem S32x16x512 .bf16).view.readAt (Elt F) (cols 0).toLoadRect (gathC m c)) = ownRes m c 0 := by
      unfold ownRes; rw [if_pos rfl]
    rw [e]
    exact write_ownRes m c 0 _ (k0_off4_eq c) _ s2
  · iexact HR

/-- Second column half: the same with the second halves. -/
theorem half_sum1 (c : Dev nD) (G s2 : Scr F) (hG : ∀ i ∈ (cols 1).set, G i = gathC m c i)
    (hl1 : (gathM : Memref sig .tc .vmem S32x16x512 .bf16).view.LoadsAt (Rect.unit (s := S32x16x512) ![0, 0, 256] S32x16x256.size inb_S32x16x512_S32x16x256_0_0_256).toLoadRect)
    (hl2 : (resM : Memref sig .tc .vmem S32x16x512 .bf16).view.LoadsAt (Rect.unit (s := S32x16x512) (k0_off6 c) S1x16x256.size (k0_off6_inb c)).toLoadRect)
    (hx : ((resM : Memref sig .tc .vmem S32x16x512 .bf16).access (Rect.unit (s := S32x16x512) (k0_off6 c) S1x16x256.size (k0_off6_inb c))).Stores Finset.univ)
    (hm : (Finset.univ : Finset (Rect.unit (s := S32x16x512) (k0_off6 c) S1x16x256.size (k0_off6_inb c)).shape.Idx) = Finset.univ
      ∨ ∀ a, (Rect.unit (s := S32x16x512) (k0_off6 c) S1x16x256.size (k0_off6_inb c)).stride a = 1)
    (k : PUnit → Prog (TpuEff nD τ sig (Elt F) Λ₀ .tc) α) (Q : α → sProp 𝕄) :
    iprop((((c : Thread nD τ).loc cc0_scratch1) ↦[(cols 1).set]{fullShare} G) ∗ resPts c c 1 fullShare s2
      ∗ ((((c : Thread nD τ).loc cc0_scratch1) ↦[(cols 1).set]{fullShare} G)
          -∗ (∃ R : Scr F, ⌜∀ i ∈ (slot c 1).set, R i = resC m i⌝ ∗ resPts c c 1 fullShare R)
          -∗ wp frame (wpE (defs₀ (F := F)) Variants.none c none) Set.univ (k ⟨⟩) Q))
    ⊢ wp frame (wpE (defs₀ (F := F)) Variants.none c none) Set.univ
        (.op (.load (gathM : Memref sig .tc .vmem S32x16x512 .bf16) (Rect.unit (s := S32x16x512) ![0, 0, 256] S32x16x256.size inb_S32x16x512_S32x16x256_0_0_256).toLoadRect hl1) fun v =>
          .op (.load (resM : Memref sig .tc .vmem S32x16x512 .bf16) (Rect.unit (s := S32x16x512) (k0_off6 c) S1x16x256.size (k0_off6_inb c)).toLoadRect hl2) fun _ =>
            .op (.store (resM : Memref sig .tc .vmem S32x16x512 .bf16) (Rect.unit (s := S32x16x512) (k0_off6 c) S1x16x256.size (k0_off6_inb c)) (k0_pay4 v) Finset.univ hx hm) k) Q := by
  iintro ⟨HG, HR, Hk⟩
  iapply (wp_load_cols m c 1 _ rfl _ hl1 fullShare G hG _ Q)
  isplitl [HG]; · iexact HG
  iintro HG
  iapply (wp_load_slot c c 1 _ (k0_off6_eq c) _ hl2 fullShare s2 _ Q)
  isplitl [HR]; · iexact HR
  iintro HR
  iapply (wp_store_slot c c 1 _ (k0_off6_eq c) _ _ hx hm s2 k Q)
  isplitl [HR]; · iexact HR
  iintro HR
  iapply Hk $$ HG
  iexists (((resM : Memref sig .tc .vmem S32x16x512 .bf16).access (Rect.unit (s := S32x16x512) (k0_off6 c) S1x16x256.size (k0_off6_inb c))).write (Elt F) s2
    (k0_pay4 ((gathM : Memref sig .tc .vmem S32x16x512 .bf16).view.readAt (Elt F) (cols 1).toLoadRect (gathC m c))) Finset.univ)
  isplitr
  · ipureintro
    have e : k0_pay4 ((gathM : Memref sig .tc .vmem S32x16x512 .bf16).view.readAt (Elt F) (cols 1).toLoadRect (gathC m c)) = ownRes m c 1 := by
      unfold ownRes; rw [if_neg (by decide)]
    rw [e]
    exact write_ownRes m c 1 _ (k0_off6_eq c) _ s2
  · iexact HR

/-- info: 'Cert.Kernel.Proto.half_sum0' depends on axioms: [propext, Classical.choice, Quot.sound] -/
#guard_msgs in #print axioms half_sum0
/-- info: 'Cert.Kernel.Proto.half_sum1' depends on axioms: [propext, Classical.choice, Quot.sound] -/
#guard_msgs in #print axioms half_sum1
/-- info: 'Cert.Kernel.Proto.gath_cols_of_agree' depends on axioms: [propext, Classical.choice, Quot.sound] -/
#guard_msgs in #print axioms gath_cols_of_agree

end Cert.Kernel.Proto
end
-- ==== Proof.WShares.lean ====
import proofs.«900454_g7700000000000455_dist_matmul_relu_kshard_i_m512_n512_k256_v7x_i32_f32_1_alg».proof.Proof.Gen.Kernel
import proofs.«900454_g7700000000000455_dist_matmul_relu_kshard_i_m512_n512_k256_v7x_i32_f32_1_alg».proof.Proof.Gen.Kernel.Skeleton
import proofs.«900454_g7700000000000455_dist_matmul_relu_kshard_i_m512_n512_k256_v7x_i32_f32_1_alg».proof.Proof.Gen.Kernel.Launch
import proofs.«900454_g7700000000000455_dist_matmul_relu_kshard_i_m512_n512_k256_v7x_i32_f32_1_alg».proof.Proof.WSched
import proofs.«900454_g7700000000000455_dist_matmul_relu_kshard_i_m512_n512_k256_v7x_i32_f32_1_alg».proof.Proof.WSlots
import proofs.«900454_g7700000000000455_dist_matmul_relu_kshard_i_m512_n512_k256_v7x_i32_f32_1_alg».proof.Proof.WGive
import Idealize.ShloMosaic.Lib.Pipeline.Launch
import Idealize.ShloMosaic.Lib.Pipeline.Kit
import Idealize.ShloMosaic.Lib.Tactic

set_option maxRecDepth 16384

noncomputable section

namespace Cert.Kernel.Proto

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The places 1 … k -/

/-- The places 1 … k. -/
def upto (k : ℕ) : Finset (Fin 32) := Finset.univ.filter fun d => 0 < d.val ∧ d.val ≤ k

theorem mem_upto {k : ℕ} {d : Fin 32} : d ∈ upto k ↔ 0 < d.val ∧ d.val ≤ k := by
  unfold upto; rw [Finset.mem_filter]; exact ⟨fun h => h.2, fun h => ⟨Finset.mem_univ _, h⟩⟩

theorem upto_zero : upto 0 = ∅ := by
  ext d
  rw [mem_upto]
  constructor
  · intro h; omega
  · intro h; exact absurd h (Finset.notMem_empty d)

theorem notMem_upto (k : ℕ) (h : k + 1 < 32) : (⟨k + 1, h⟩ : Fin 32) ∉ upto k := by
  rw [mem_upto]
  intro H
  have : k + 1 ≤ k := H.2
  omega

theorem upto_succ (k : ℕ) (h : k + 1 < 32) : upto (k + 1) = insert (⟨k + 1, h⟩ : Fin 32) (upto k) := by
  ext d
  rw [Finset.mem_insert, mem_upto, mem_upto]
  constructor
  · intro H
    by_cases e : d.val = k + 1
    · exact Or.inl (Fin.ext e)
    · exact Or.inr ⟨H.1, by omega⟩
  · rintro (e | H)
    · rw [e]; exact ⟨Nat.succ_pos k, le_refl _⟩
    · exact ⟨H.1, by omega⟩

theorem upto_31 : upto 31 = others := by
  ext d
  rw [mem_upto, Finset.mem_filter]
  have := d.isLt
  constructor
  · intro H; exact ⟨Finset.mem_univ _, fun e => by rw [e] at H; exact Nat.lt_irrefl 0 H.1⟩
  · intro H; exact ⟨Nat.pos_of_ne_zero fun e => H.2 (Fin.ext e), by omega⟩

/-! ## A region lent to k readers at once

The share left after d - 1 readers splits into the d-th reader's share and the share left after d readers. -/

/-- Three separate parts, the middle one brought to the front. -/
theorem sep_rot (X A R : sProp 𝕄) : iprop(X ∗ A ∗ R) = iprop((A ∗ X) ∗ R) := by
  have h1 : iprop(X ∗ A ∗ R) ⊢ iprop((A ∗ X) ∗ R) := by
    iintro ⟨HX, HA, HR⟩
    isplitl [HA HX]
    · isplitl [HA]; · iexact HA
      iexact HX
    · iexact HR
  have h2 : iprop((A ∗ X) ∗ R) ⊢ iprop(X ∗ A ∗ R) := by
    iintro ⟨⟨HA, HX⟩, HR⟩
    isplitl [HX]; · iexact HX
    isplitl [HA]; · iexact HA
    iexact HR
  exact BI.equiv_iff.mp ⟨h1, h2⟩

section Lend
variable {ℓ : Loc nD τ sig} (I : Finset (Idx ℓ)) (f : Buf (Elt F) ℓ)

theorem upto_peel (k : ℕ) (h : k + 1 < 32) (Φ : Fin 32 → sProp 𝕄) :
    bigSep (upto (k + 1)) Φ = iprop(Φ (⟨k + 1, h⟩ : Fin 32) ∗ bigSep (upto k) Φ) := by
  rw [upto_succ k h, bigSep_insert (notMem_upto k h)]
  rfl

theorem share_step (k : ℕ) :
    ((ℓ ↦[I]{remShr k} f) : sProp 𝕄) = iprop((ℓ ↦[I]{sendShr (k + 1)} f) ∗ ℓ ↦[I]{remShr (k + 1)} f) :=
  have hs := pointsTo_share (ℓ := ℓ) (I := I) (f := f) (remShr_split k)
  BI.equiv_iff.mp ⟨hs.1, hs.2⟩

/-- A region held whole is, for each k up to 31, the shares of the readers 1 … k and the share left after them. -/
theorem lend (k : ℕ) (hk : k ≤ 31) :
    ((ℓ ↦[I]{fullShare} f) : sProp 𝕄)
      = iprop((bigSep (upto k) fun d => ℓ ↦[I]{sendShr d.val} f) ∗ ℓ ↦[I]{remShr k} f) := by
  induction k with
  | zero =>
    rw [upto_zero, bigSep_empty]
    exact (BI.equiv_iff.mp ⟨emp_sep.1, emp_sep.2⟩).symm
  | succ k ih =>
    have hk' : k + 1 < 32 := by omega
    rw [ih (by omega), upto_peel k hk', share_step I f k]
    exact sep_rot _ _ _

/-- A region held whole is the shares of the 31 readers and the share left after them. -/
theorem lend_all :
    ((ℓ ↦[I]{fullShare} f) : sProp 𝕄)
      = iprop((bigSep others fun d => ℓ ↦[I]{sendShr d.val} f) ∗ ℓ ↦[I]{remShr 31} f) := by
  rw [← upto_31]
  exact lend I f 31 le_rfl

end Lend

/-! ## The result buffer at one share

While the 31 copies of the device's own result slot are pending, that slot is held at the share left after 31
readers; the other slots, landed, are held whole. Setting aside the readers' shares of the other slots presents
the whole buffer at that one share; putting them back restores the slots. -/

/-- Three separate parts, the last one brought next to the first. -/
theorem sep_rot2 (A S B : sProp 𝕄) : iprop(A ∗ S ∗ B) = iprop((A ∗ B) ∗ S) := by
  have h1 : iprop(A ∗ S ∗ B) ⊢ iprop((A ∗ B) ∗ S) := by
    iintro ⟨HA, HS, HB⟩
    isplitl [HA HB]
    · isplitl [HA]; · iexact HA
      iexact HB
    · iexact HS
  have h2 : iprop((A ∗ B) ∗ S) ⊢ iprop(A ∗ S ∗ B) := by
    iintro ⟨⟨HA, HB⟩, HS⟩
    isplitl [HA]; · iexact HA
    isplitl [HS]; · iexact HS
    iexact HB
  exact BI.equiv_iff.mp ⟨h1, h2⟩

/-- The result buffer held at a share: the device's own slot and the slots of the devices before it. -/
theorem res_split_q (c : Dev nD) (q : PosShare TreeShare) (f : Scr F) :
    ((((c : Thread nD τ).loc cc0_scratch2) ↦{q} f) : sProp 𝕄)
      = bigSep (Finset.univ : Finset (Fin 2)) fun h => iprop(resPts c c h q f ∗ bigSep others fun d => resPts c (bwd c d) h q f) := by
  rw [← slot_cover', pointsTo_biUnion _ _ fun x _ y _ hxy => slot_disjoint (fun e => hxy (Prod.ext (congrArg Prod.snd e) (congrArg Prod.fst e))),
    ← Finset.univ_product_univ, SparseCore.bigSep_product]
  refine bigSep_congr fun h _ => ?_
  have himg : (Finset.univ : Finset (Fin 32)) = insert c (others.image (bwd c)) := by
    ext t
    simp only [Finset.mem_univ, Finset.mem_insert, Finset.mem_image, Finset.mem_filter, _root_.true_and, true_iff]
    by_cases ht : t = c
    · exact Or.inl ht
    · refine Or.inr ⟨⟨(c.val + 32 - t.val) % 32, Nat.mod_lt _ (by decide)⟩, ?_, ?_⟩
      · intro h0
        have h0' : (c.val + 32 - t.val) % 32 = 0 := congrArg Fin.val h0
        have hc : c.val < 32 := c.isLt; have ht' : t.val < 32 := t.isLt
        exact ht (Fin.ext (by show t.val = c.val; omega))
      · apply Fin.ext; have hc : c.val < 32 := c.isLt; have hc : t.val < 32 := t.isLt
        show (c.val + 32 - (c.val + 32 - t.val) % 32) % 32 = t.val; omega
  have hnot : c ∉ others.image (bwd c) := by
    simp only [Finset.mem_image, Finset.mem_filter, Finset.mem_univ, _root_.true_and, not_exists, not_and]
    intro d hd e
    have e' : (c.val + 32 - d.val) % 32 = c.val := congrArg Fin.val e
    have hc : c.val < 32 := c.isLt; have := d.isLt
    exact hd (Fin.ext (by show d.val = 0; omega))
  have hinj : Set.InjOn (bwd c) (others : Finset (Fin 32)) := by
    intro a _ b _ e
    have e' : (c.val + 32 - a.val) % 32 = (c.val + 32 - b.val) % 32 := congrArg Fin.val e
    have hc : c.val < 32 := c.isLt; have := a.isLt; have := b.isLt
    exact Fin.ext (by omega)
  rw [himg, bigSep_insert hnot, bigSep_image_of_injOn hinj]
  rfl

/-- A half slot of the result buffer held whole: the 31 readers' shares of it and the share left after them. -/
theorem resPts_lend (c : Dev nD) (t : Fin 32) (h : Fin 2) (f : Scr F) :
    (resPts c t h fullShare f : sProp 𝕄)
      = iprop((bigSep others fun e => resPts c t h (sendShr e.val) f) ∗ resPts c t h (remShr 31) f) := by
  unfold resPts
  exact lend_all _ _

/-- The own slot at the share left after 31 readers and the other slots whole: the whole buffer at that share,
    and the readers' shares of the other slots set aside. An equation: read right to left it puts them back. -/
theorem res_present (c : Dev nD) (f : Scr F) :
    (bigSep (Finset.univ : Finset (Fin 2)) fun h =>
        iprop(resPts c c h (remShr 31) f ∗ bigSep others fun d => resPts c (bwd c d) h fullShare f) : sProp 𝕄)
      = iprop((((c : Thread nD τ).loc cc0_scratch2) ↦{remShr 31} f)
          ∗ bigSep (Finset.univ : Finset (Fin 2)) fun h => bigSep others fun d => bigSep others fun e =>
              resPts c (bwd c d) h (sendShr e.val) f) := by
  rw [res_split_q c (remShr 31) f]
  refine Eq.trans ?_ (bigSep_sep' _ _ _)
  refine bigSep_congr fun h _ => ?_
  have e1 : (bigSep others fun d => resPts c (bwd c d) h fullShare f : sProp 𝕄)
      = iprop((bigSep others fun d => bigSep others fun e => resPts c (bwd c d) h (sendShr e.val) f)
          ∗ bigSep others fun d => resPts c (bwd c d) h (remShr 31) f) :=
    Eq.trans (bigSep_congr fun d _ => resPts_lend c (bwd c d) h f) (bigSep_sep' _ _ _)
  rw [e1]
  exact sep_rot2 _ _ _

/-- info: 'Cert.Kernel.Proto.lend' depends on axioms: [propext, Classical.choice, Quot.sound] -/
#guard_msgs in #print axioms lend
/-- info: 'Cert.Kernel.Proto.res_present' depends on axioms: [propext, Classical.choice, Quot.sound] -/
#guard_msgs in #print axioms res_present

end Cert.Kernel.Proto
end
-- ==== Proof.WClose.lean ====
import proofs.«900454_g7700000000000455_dist_matmul_relu_kshard_i_m512_n512_k256_v7x_i32_f32_1_alg».proof.Proof.Gen.Kernel
import proofs.«900454_g7700000000000455_dist_matmul_relu_kshard_i_m512_n512_k256_v7x_i32_f32_1_alg».proof.Proof.Gen.Kernel.Skeleton
import proofs.«900454_g7700000000000455_dist_matmul_relu_kshard_i_m512_n512_k256_v7x_i32_f32_1_alg».proof.Proof.Gen.Kernel.Launch
import proofs.«900454_g7700000000000455_dist_matmul_relu_kshard_i_m512_n512_k256_v7x_i32_f32_1_alg».proof.Proof.WTables
import proofs.«900454_g7700000000000455_dist_matmul_relu_kshard_i_m512_n512_k256_v7x_i32_f32_1_alg».proof.Proof.WData
import proofs.«900454_g7700000000000455_dist_matmul_relu_kshard_i_m512_n512_k256_v7x_i32_f32_1_alg».proof.Proof.WRegroup
import proofs.«900454_g7700000000000455_dist_matmul_relu_kshard_i_m512_n512_k256_v7x_i32_f32_1_alg».proof.Proof.WLaunchKit
import proofs.«900454_g7700000000000455_dist_matmul_relu_kshard_i_m512_n512_k256_v7x_i32_f32_1_alg».proof.Proof.WLaunchGlob
import proofs.«900454_g7700000000000455_dist_matmul_relu_kshard_i_m512_n512_k256_v7x_i32_f32_1_alg».proof.Proof.WLaunchStart
import Idealize.ShloMosaic.Lib.Pipeline.Launch
import Idealize.ShloMosaic.Lib.Pipeline.Kit
import Idealize.ShloMosaic.Lib.Tactic

set_option maxRecDepth 16384

noncomputable section

namespace Cert.Kernel.Proto

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ)

/-! ## The cells of a device's DMA semaphores, by name -/

theorem kcell_send (c : Dev nD) (h : Fin 2) (d : Fin 32) : kcell (c, some (0, h, d)) = sendCell c h d := by
  show (if (0 : Fin 3) = 0 then sendCell c h d else if (0 : Fin 3) = 1 then recv1Cell c h d else recv2Cell c h d) = _
  rw [if_pos rfl]
theorem kcell_recv1 (c : Dev nD) (h : Fin 2) (d : Fin 32) : kcell (c, some (1, h, d)) = recv1Cell c h d := by
  show (if (1 : Fin 3) = 0 then sendCell c h d else if (1 : Fin 3) = 1 then recv1Cell c h d else recv2Cell c h d) = _
  rw [if_neg (by decide), if_pos rfl]
theorem kcell_recv2 (c : Dev nD) (h : Fin 2) (d : Fin 32) : kcell (c, some (2, h, d)) = recv2Cell c h d := by
  show (if (2 : Fin 3) = 0 then sendCell c h d else if (2 : Fin 3) = 1 then recv1Cell c h d else recv2Cell c h d) = _
  rw [if_neg (by decide), if_neg (by decide)]

theorem inv_send (K : CellIx → ℕ) (c : Dev nD) (h : Fin 2) (d : Fin 32) :
    (invs m K : sProp 𝕄) ⊢ cellInv ER (sched m) (K (c, some (0, h, d))) (sendCell c h d) := by
  unfold invs
  have e := bigSep_elim' (Φ := fun x : CellIx => (cellInv ER (sched m) (K x) (kcell x) : sProp 𝕄)) (Finset.mem_univ ((c, some (0, h, d)) : CellIx))
  simp only [kcell_send] at e
  exact e
theorem inv_recv1 (K : CellIx → ℕ) (c : Dev nD) (h : Fin 2) (d : Fin 32) :
    (invs m K : sProp 𝕄) ⊢ cellInv ER (sched m) (K (c, some (1, h, d))) (recv1Cell c h d) := by
  unfold invs
  have e := bigSep_elim' (Φ := fun x : CellIx => (cellInv ER (sched m) (K x) (kcell x) : sProp 𝕄)) (Finset.mem_univ ((c, some (1, h, d)) : CellIx))
  simp only [kcell_recv1] at e
  exact e
theorem inv_recv2 (K : CellIx → ℕ) (c : Dev nD) (h : Fin 2) (d : Fin 32) :
    (invs m K : sProp 𝕄) ⊢ cellInv ER (sched m) (K (c, some (2, h, d))) (recv2Cell c h d) := by
  unfold invs
  have e := bigSep_elim' (Φ := fun x : CellIx => (cellInv ER (sched m) (K x) (kcell x) : sProp 𝕄)) (Finset.mem_univ ((c, some (2, h, d)) : CellIx))
  simp only [kcell_recv2] at e
  exact e

/-! ## Closing a cell past its last round

A send cell has duties in rounds 0 and 1 only, a receive cell in round 0 only: its owner, past those rounds with
nothing taken, closes the cell and keeps the semaphore at zero. -/

theorem close_send (κ : ℕ) (c : Dev nD) (h : Fin 2) (d : Fin 32) (hd : d ≠ 0) :
    iprop(cellInv ER (sched m) κ (sendCell c h d) ∗ atPos ER (sendCell c h d) 2 ∅ 0) ⊢ iprop(|={Set.univ}=> semVal (sendCell c h d) 0) :=
  Rounds.cell_close ER (sched m) (Set.mem_univ _) (fun hu => hu) (R := 2) fun r hr => by
    rw [duties_send m c h d hd r, if_neg (by omega)]

theorem close_recv1 (κ : ℕ) (c : Dev nD) (h : Fin 2) (d : Fin 32) (hd : d ≠ 0) :
    iprop(cellInv ER (sched m) κ (recv1Cell c h d) ∗ atPos ER (recv1Cell c h d) 1 ∅ 0) ⊢ iprop(|={Set.univ}=> semVal (recv1Cell c h d) 0) :=
  Rounds.cell_close ER (sched m) (Set.mem_univ _) (fun hu => hu) (R := 1) fun r hr => by
    rw [duties_recv1 m c h d hd r, if_neg (by omega)]

theorem close_recv2 (κ : ℕ) (c : Dev nD) (h : Fin 2) (d : Fin 32) (hd : d ≠ 0) :
    iprop(cellInv ER (sched m) κ (recv2Cell c h d) ∗ atPos ER (recv2Cell c h d) 1 ∅ 0) ⊢ iprop(|={Set.univ}=> semVal (recv2Cell c h d) 0) :=
  Rounds.cell_close ER (sched m) (Set.mem_univ _) (fun hu => hu) (R := 1) fun r hr => by
    rw [duties_recv2 m c h d hd r, if_neg (by omega)]

/-- The three cells of one column half and one distance. -/
theorem close_hd (K : CellIx → ℕ) (c : Dev nD) (h : Fin 2) (d : Fin 32) (hd : d ≠ 0) :
    iprop(invs m K ∗ iprop(atPos ER (sendCell c h d) 2 ∅ 0 ∗ atPos ER (recv1Cell c h d) 1 ∅ 0 ∗ atPos ER (recv2Cell c h d) 1 ∅ 0))
      ⊢ iprop(|={Set.univ}=> iprop(semVal (sendCell c h d) 0 ∗ semVal (recv1Cell c h d) 0 ∗ semVal (recv2Cell c h d) 0)) := by
  iintro ⟨#HI, Ha, Hb, Hc⟩
  imod (close_send m (K (c, some (0, h, d))) c h d hd) $$ [Ha] with Hsa
  · isplitr; · iapply (inv_send m K c h d); iexact HI
    iexact Ha
  imod (close_recv1 m (K (c, some (1, h, d))) c h d hd) $$ [Hb] with Hsb
  · isplitr; · iapply (inv_recv1 m K c h d); iexact HI
    iexact Hb
  imod (close_recv2 m (K (c, some (2, h, d))) c h d hd) $$ [Hc] with Hsc
  · isplitr; · iapply (inv_recv2 m K c h d); iexact HI
    iexact Hc
  imodintro
  isplitl [Hsa]; · iexact Hsa
  isplitl [Hsb]; · iexact Hsb
  iexact Hsc

/-- All the cells of the distances 1 … 31. -/
theorem close_others (K : CellIx → ℕ) (c : Dev nD) :
    iprop(invs m K ∗ bigSep (Finset.univ : Finset (Fin 2)) fun h => bigSep others fun d =>
        iprop(atPos ER (sendCell c h d) 2 ∅ 0 ∗ atPos ER (recv1Cell c h d) 1 ∅ 0 ∗ atPos ER (recv2Cell c h d) 1 ∅ 0))
      ⊢ iprop(|={Set.univ}=> bigSep (Finset.univ : Finset (Fin 2)) fun h => bigSep others fun d =>
        iprop(semVal (sendCell c h d) 0 ∗ semVal (recv1Cell c h d) 0 ∗ semVal (recv2Cell c h d) 0)) := by
  refine (bigSep_with_persistent (R := invs m K)
    (Ψ := fun h => iprop(|={Set.univ}=> bigSep others fun d =>
      iprop(semVal (sendCell c h d) 0 ∗ semVal (recv1Cell c h d) 0 ∗ semVal (recv2Cell c h d) 0))) fun h _ => ?_).trans (bigSep_fupd _ _)
  refine (bigSep_with_persistent (R := invs m K)
    (Ψ := fun d => iprop(|={Set.univ}=> iprop(semVal (sendCell c h d) 0 ∗ semVal (recv1Cell c h d) 0 ∗ semVal (recv2Cell c h d) 0))) fun d hd => ?_).trans (bigSep_fupd _ _)
  exact close_hd m K c h d (Finset.mem_filter.mp hd).2

/-! ## All the device's DMA semaphores at zero -/

/-- The semaphores at zero: those of distance 0, which no copy uses, and those of the distances 1 … 31. -/
theorem semsZero_split (c : Dev nD) :
    (semsZero c : sProp 𝕄) = iprop(zeroSems c ∗ bigSep (Finset.univ : Finset (Fin 2)) fun h => bigSep others fun d =>
      iprop(semVal (sendCell c h d) 0 ∗ semVal (recv1Cell c h d) 0 ∗ semVal (recv2Cell c h d) 0)) := by
  unfold semsZero zeroSems
  exact Eq.trans (bigSep_congr fun h _ => bigSep_univ_eq_zero_sep_others _) (bigSep_sep' _ _ _)

/-- The device's cells past their last rounds, with the semaphores of distance 0 already at zero: all its DMA
    semaphores at zero. -/
theorem close_all (K : CellIx → ℕ) (c : Dev nD) :
    iprop(invs m K ∗ zeroSems c ∗ bigSep (Finset.univ : Finset (Fin 2)) fun h => bigSep others fun d =>
        iprop(atPos ER (sendCell c h d) 2 ∅ 0 ∗ atPos ER (recv1Cell c h d) 1 ∅ 0 ∗ atPos ER (recv2Cell c h d) 1 ∅ 0))
      ⊢ iprop(|={Set.univ}=> semsZero c) := by
  rw [semsZero_split]
  iintro ⟨#HI, HZ, HP⟩
  imod (close_others m K c) $$ [HP] with HS
  · isplitr; · iexact HI
    iexact HP
  imodintro
  isplitl [HZ]; · iexact HZ
  iexact HS

/-- info: 'Cert.Kernel.Proto.close_all' depends on axioms: [propext, Classical.choice, Quot.sound] -/
#guard_msgs in #print axioms close_all

end Cert.Kernel.Proto
end
-- ==== Proof.WTail.lean ====
import proofs.«900454_g7700000000000455_dist_matmul_relu_kshard_i_m512_n512_k256_v7x_i32_f32_1_alg».proof.Proof.Gen.Kernel
import proofs.«900454_g7700000000000455_dist_matmul_relu_kshard_i_m512_n512_k256_v7x_i32_f32_1_alg».proof.Proof.Gen.Kernel.Skeleton
import proofs.«900454_g7700000000000455_dist_matmul_relu_kshard_i_m512_n512_k256_v7x_i32_f32_1_alg».proof.Proof.Gen.Kernel.Launch
import proofs.«900454_g7700000000000455_dist_matmul_relu_kshard_i_m512_n512_k256_v7x_i32_f32_1_alg».proof.Proof.WSlots
import proofs.«900454_g7700000000000455_dist_matmul_relu_kshard_i_m512_n512_k256_v7x_i32_f32_1_alg».proof.Proof.WHalfSum
import proofs.«900454_g7700000000000455_dist_matmul_relu_kshard_i_m512_n512_k256_v7x_i32_f32_1_alg».proof.Proof.WShares
import proofs.«900454_g7700000000000455_dist_matmul_relu_kshard_i_m512_n512_k256_v7x_i32_f32_1_alg».proof.Proof.WClose
import Idealize.ShloMosaic.Lib.Pipeline.Launch
import Idealize.ShloMosaic.Lib.Pipeline.Kit
import Idealize.ShloMosaic.Lib.Tactic

set_option maxRecDepth 16384

noncomputable section

namespace Cert.Kernel.Proto

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ)

/-! ## Contents off a half slot do not matter -/

theorem partPts_congr (c : Dev nD) (t : Fin 32) (h : Fin 2) (q : PosShare TreeShare) {f g : Scr F}
    (hfg : ∀ i ∈ (slot t h).set, f i = g i) : (partPts c t h q f : sProp 𝕄) = partPts c t h q g := by
  unfold partPts; exact pointsTo_congr hfg
theorem gathPts_congr (c : Dev nD) (t : Fin 32) (h : Fin 2) (q : PosShare TreeShare) {f g : Scr F}
    (hfg : ∀ i ∈ (slot t h).set, f i = g i) : (gathPts c t h q f : sProp 𝕄) = gathPts c t h q g := by
  unfold gathPts; exact pointsTo_congr hfg
theorem resPts_congr (c : Dev nD) (t : Fin 32) (h : Fin 2) (q : PosShare TreeShare) {f g : Scr F}
    (hfg : ∀ i ∈ (slot t h).set, f i = g i) : (resPts c t h q f : sProp 𝕄) = resPts c t h q g := by
  unfold resPts; exact pointsTo_congr hfg

/-! ## The last load: the whole result buffer while the own slot is lent -/

/-- The result buffer as the device holds it at the last load: its own slot at the share left after the 31
    pending copies, the 31 landed slots whole, all at the result. -/
def resAll (c : Dev nD) : sProp 𝕄 :=
  bigSep (Finset.univ : Finset (Fin 2)) fun h =>
    iprop(resPts c c h (remShr 31) (resC m) ∗ bigSep others fun d => resPts c (bwd c d) h fullShare (resC m))

theorem resAll_eq (c : Dev nD) : resAll m c = bigSep (Finset.univ : Finset (Fin 2)) fun h =>
    iprop(resPts c c h (remShr 31) (resC m) ∗ bigSep others fun d => resPts c (bwd c d) h fullShare (resC m)) := rfl

variable {α : Type}

/-- The load of the whole result buffer reads the result; what the device holds of the buffer comes back. -/
theorem final_load (c : Dev nD) (off : Fin 3 → ℕ) (hoff : off = ![0, 0, 0])
    (inb : ∀ a, off a + S32x16x512.size a ≤ S32x16x512.size a)
    (hl : (resM : Memref sig .tc .vmem S32x16x512 .bf16).view.LoadsAt (Rect.unit (s := S32x16x512) off S32x16x512.size inb).toLoadRect)
    (k : Vec F S32x16x512 .bf16 → Prog (TpuEff nD τ sig (Elt F) Λ₀ .tc) α) (Q : α → sProp 𝕄) :
    iprop(resAll m c ∗ (resAll m c -∗ wp frame (wpE (defs₀ (F := F)) Variants.none c none) Set.univ (k (resC m)) Q))
    ⊢ wp frame (wpE (defs₀ (F := F)) Variants.none c none) Set.univ
        (.op (.load (resM : Memref sig .tc .vmem S32x16x512 .bf16) (Rect.unit (s := S32x16x512) off S32x16x512.size inb).toLoadRect hl) k) Q := by
  have hz : off = fun _ => 0 := hoff.trans (funext fun a => by fin_cases a <;> rfl)
  have e : (resM : Memref sig .tc .vmem S32x16x512 .bf16).view.readAt (Elt F) (Rect.unit (s := S32x16x512) off S32x16x512.size inb).toLoadRect (resC m) = resC m :=
    Memref.readAt_unit_zero (Elt F) cc0_scratch2 hz _ _
  rw [resAll_eq, res_present]
  iintro ⟨⟨HW, HA⟩, Hk⟩
  iapply (wp_load Variants.none (c : Thread nD τ) none Set.univ (m := resM) (r := (Rect.unit (s := S32x16x512) off S32x16x512.size inb).toLoadRect)
      (S := Finset.univ) (q := remShr 31) (f := resC m) (Finset.subset_univ _)) $$ HW
  iintro HW
  rw [e]
  iapply Hk
  isplitl [HW]; · iexact HW
  iexact HA

/-! ## The three scratch buffers whole again -/

theorem cols_disjoint : Disjoint (cols 0).set (cols 1).set := by
  rw [Finset.disjoint_left]
  intro i h0 h1
  have a := mem_cols.mp h0
  have b := mem_cols.mp h1
  have a2 : (i 2).val < 256 * (0 : Fin 2).val + 256 := a.2
  have b1 : 256 * (1 : Fin 2).val ≤ (i 2).val := b.1
  have e0 : (0 : Fin 2).val = 0 := rfl
  have e1 : (1 : Fin 2).val = 1 := rfl
  omega

theorem cols_union : (cols 0).set ∪ (cols 1).set = (Finset.univ : Finset S32x16x512.Idx) := by
  ext i
  rw [Finset.mem_union, mem_cols, mem_cols]
  have h2 : (i 2).val < 512 := (i 2).isLt
  have e0 : (0 : Fin 2).val = 0 := rfl
  have e1 : (1 : Fin 2).val = 1 := rfl
  constructor
  · intro _; exact Finset.mem_univ i
  · intro _
    by_cases hlt : (i 2).val < 256
    · exact Or.inl ⟨by omega, by omega⟩
    · exact Or.inr ⟨by omega, by omega⟩

/-- The gathering buffer's two column halves, at whatever they hold, are the buffer whole at some contents. -/
theorem gath_join (c : Dev nD) (G0 G1 : Scr F) :
    iprop((((c : Thread nD τ).loc cc0_scratch1) ↦[(cols 0).set]{fullShare} G0) ∗ (((c : Thread nD τ).loc cc0_scratch1) ↦[(cols 1).set]{fullShare} G1))
      ⊢ ((((c : Thread nD τ).loc cc0_scratch1) ↦{fullShare} ((cols 1).set.piecewise G1 G0)) : sProp 𝕄) :=
  (pointsTo_join cols_disjoint).trans (Entails.of_eq (by rw [cols_union]))

/-- The result buffer whole from the own slot's shares (the share left after the 31 copies and the 31 shares they
    return) and the 31 landed slots. -/
theorem res_join (c : Dev nD) (f : Scr F) :
    (bigSep (Finset.univ : Finset (Fin 2)) fun h =>
        iprop(iprop(resPts c c h (remShr 31) f ∗ bigSep others fun e => resPts c c h (sendShr e.val) f)
          ∗ bigSep others fun d => resPts c (bwd c d) h fullShare f) : sProp 𝕄)
      ⊢ ((((c : Thread nD τ).loc cc0_scratch2) ↦{fullShare} f) : sProp 𝕄) := by
  rw [res_split_q c fullShare f]
  refine bigSep_mono' fun h _ => ?_
  iintro ⟨⟨HA, HB⟩, HC⟩
  isplitl [HA HB]
  · iapply (Entails.of_eq (resPts_lend c c h f).symm)
    isplitl [HB]; · iexact HB
    iexact HA
  · iexact HC

/-- The ending: every cell past its last round, the product buffer's 64 half slots back, the gathering buffer's two
    column halves, the result buffer's own slot with its 31 lent shares returned and its 31 landed slots: the three
    scratch buffers whole at some contents and every DMA semaphore of the device at zero. -/
theorem finish (K : CellIx → ℕ) (c : Dev nD) (G0 G1 : Scr F) :
    iprop(invs m K ∗ zeroSems c
      ∗ (bigSep (Finset.univ : Finset (Fin 2)) fun h => bigSep others fun d =>
          iprop(atPos ER (sendCell c h d) 2 ∅ 0 ∗ atPos ER (recv1Cell c h d) 1 ∅ 0 ∗ atPos ER (recv2Cell c h d) 1 ∅ 0))
      ∗ (bigSep (Finset.univ : Finset (Fin 32 × Fin 2)) fun x => partPts c x.1 x.2 fullShare (partC m c))
      ∗ iprop((((c : Thread nD τ).loc cc0_scratch1) ↦[(cols 0).set]{fullShare} G0) ∗ (((c : Thread nD τ).loc cc0_scratch1) ↦[(cols 1).set]{fullShare} G1))
      ∗ (bigSep (Finset.univ : Finset (Fin 2)) fun h =>
          iprop(iprop(resPts c c h (remShr 31) (resC m) ∗ bigSep others fun e => resPts c c h (sendShr e.val) (resC m))
            ∗ bigSep others fun d => resPts c (bwd c d) h fullShare (resC m))))
    ⊢ iprop(|={Set.univ}=> Φ₁ c) := by
  unfold Φ₁ scratch
  iintro ⟨#HI, HZ, HP, H0, ⟨HGa, HGb⟩, HRs⟩
  imod (close_all m K c) $$ [HZ HP] with HS
  · isplitr; · iexact HI
    isplitl [HZ]; · iexact HZ
    iexact HP
  imodintro
  isplitl [H0 HGa HGb HRs]
  · isplitl [H0]
    · iexists (partC m c)
      iapply (Entails.of_eq (scratch0_split c fullShare (partC m c)).symm)
      iexact H0
    isplitl [HGa HGb]
    · iexists ((cols 1).set.piecewise G1 G0)
      iapply (gath_join c G0 G1)
      isplitl [HGa]; · iexact HGa
      iexact HGb
    · iexists (resC m)
      iapply (res_join c (resC m))
      iexact HRs
  · iexact HS

/-- info: 'Cert.Kernel.Proto.final_load' depends on axioms: [propext, Classical.choice, Quot.sound] -/
#guard_msgs in #print axioms final_load
/-- info: 'Cert.Kernel.Proto.finish' depends on axioms: [propext, Classical.choice, Quot.sound] -/
#guard_msgs in #print axioms finish

end Cert.Kernel.Proto
end
-- ==== Proof.WTail2.lean ====
import proofs.«900454_g7700000000000455_dist_matmul_relu_kshard_i_m512_n512_k256_v7x_i32_f32_1_alg».proof.Proof.Gen.Kernel
import proofs.«900454_g7700000000000455_dist_matmul_relu_kshard_i_m512_n512_k256_v7x_i32_f32_1_alg».proof.Proof.Gen.Kernel.Skeleton
import proofs.«900454_g7700000000000455_dist_matmul_relu_kshard_i_m512_n512_k256_v7x_i32_f32_1_alg».proof.Proof.Gen.Kernel.Launch
import proofs.«900454_g7700000000000455_dist_matmul_relu_kshard_i_m512_n512_k256_v7x_i32_f32_1_alg».proof.Proof.WSlots
import proofs.«900454_g7700000000000455_dist_matmul_relu_kshard_i_m512_n512_k256_v7x_i32_f32_1_alg».proof.Proof.WHalfSum
import proofs.«900454_g7700000000000455_dist_matmul_relu_kshard_i_m512_n512_k256_v7x_i32_f32_1_alg».proof.Proof.WShares
import proofs.«900454_g7700000000000455_dist_matmul_relu_kshard_i_m512_n512_k256_v7x_i32_f32_1_alg».proof.Proof.WClose
import proofs.«900454_g7700000000000455_dist_matmul_relu_kshard_i_m512_n512_k256_v7x_i32_f32_1_alg».proof.Proof.WTail
import Idealize.ShloMosaic.Lib.Pipeline.Launch
import Idealize.ShloMosaic.Lib.Pipeline.Kit
import Idealize.ShloMosaic.Lib.Tactic

set_option maxRecDepth 16384

noncomputable section

namespace Cert.Kernel.Proto

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ)

/-! ## The same by column half

The families over the two column halves written as their two members, and the product buffer's half slots as the
own slot's pair and, per column half, the slots of the places 1 … 31 on. -/

theorem resAll_two (c : Dev nD) :
    resAll m c = iprop(iprop(resPts c c 0 (remShr 31) (resC m) ∗ bigSep others fun d => resPts c (bwd c d) 0 fullShare (resC m))
      ∗ iprop(resPts c c 1 (remShr 31) (resC m) ∗ bigSep others fun d => resPts c (bwd c d) 1 fullShare (resC m))) := by
  rw [resAll_eq, bigSep_univ_two]

/-- Stepping forward from c, as a bijection of the 32 places. -/
def fwdPlace (c : Dev nD) : Fin 32 ≃ Dev nD where
  toFun d := fwd c d
  invFun t := ⟨(t.val + 32 - c.val) % 32, Nat.mod_lt _ (by decide)⟩
  left_inv d := Fin.ext (by
    have hc : c.val < 32 := c.isLt
    have := d.isLt
    show ((c.val + d.val) % 32 + 32 - c.val) % 32 = d.val
    omega)
  right_inv t := Fin.ext (by
    have hc : c.val < 32 := c.isLt
    have ht : t.val < 32 := t.isLt
    show (c.val + (t.val + 32 - c.val) % 32) % 32 = t.val
    omega)

theorem fwd_place_zero (c : Dev nD) : fwd c (0 : Fin 32) = c := Fin.ext (by
  have hc : c.val < 32 := c.isLt
  show (c.val + 0) % 32 = c.val
  omega)

/-- The product buffer's 64 half slots from the own slot's pair and the slots 1 … 31 places on, by column half. -/
theorem part_join (c : Dev nD) (f : Scr F) :
    iprop(iprop(partPts c c 0 fullShare f ∗ partPts c c 1 fullShare f)
        ∗ (bigSep others fun d => partPts c (fwd c d) 0 fullShare f) ∗ (bigSep others fun d => partPts c (fwd c d) 1 fullShare f))
      ⊢ (bigSep (Finset.univ : Finset (Fin 32 × Fin 2)) fun x => partPts c x.1 x.2 fullShare f : sProp 𝕄) := by
  rw [bigSep_univ_prod, bigSep_univ_equiv (fwdPlace c), bigSep_univ_eq_zero_sep_others]
  simp only [bigSep_univ_two, bigSep_sep']
  show _ ⊢ iprop(iprop(partPts c (fwd c 0) 0 fullShare f ∗ partPts c (fwd c 0) 1 fullShare f)
      ∗ (bigSep others fun d => partPts c (fwd c d) 0 fullShare f) ∗ (bigSep others fun d => partPts c (fwd c d) 1 fullShare f))
  rw [fwd_place_zero]

/-- The ending with every family given by column half. -/
theorem finish2 (K : CellIx → ℕ) (c : Dev nD) (G0 G1 : Scr F) :
    iprop(invs m K ∗ zeroSems c
      ∗ (bigSep others fun d => iprop(atPos ER (sendCell c 0 d) 2 ∅ 0 ∗ atPos ER (recv1Cell c 0 d) 1 ∅ 0 ∗ atPos ER (recv2Cell c 0 d) 1 ∅ 0))
      ∗ (bigSep others fun d => iprop(atPos ER (sendCell c 1 d) 2 ∅ 0 ∗ atPos ER (recv1Cell c 1 d) 1 ∅ 0 ∗ atPos ER (recv2Cell c 1 d) 1 ∅ 0))
      ∗ iprop(iprop(partPts c c 0 fullShare (partC m c) ∗ partPts c c 1 fullShare (partC m c))
          ∗ (bigSep others fun d => partPts c (fwd c d) 0 fullShare (partC m c)) ∗ (bigSep others fun d => partPts c (fwd c d) 1 fullShare (partC m c)))
      ∗ iprop((((c : Thread nD τ).loc cc0_scratch1) ↦[(cols 0).set]{fullShare} G0) ∗ (((c : Thread nD τ).loc cc0_scratch1) ↦[(cols 1).set]{fullShare} G1))
      ∗ iprop(iprop(resPts c c 0 (remShr 31) (resC m) ∗ bigSep others fun e => resPts c c 0 (sendShr e.val) (resC m))
          ∗ bigSep others fun d => resPts c (bwd c d) 0 fullShare (resC m))
      ∗ iprop(iprop(resPts c c 1 (remShr 31) (resC m) ∗ bigSep others fun e => resPts c c 1 (sendShr e.val) (resC m))
          ∗ bigSep others fun d => resPts c (bwd c d) 1 fullShare (resC m)))
    ⊢ iprop(|={Set.univ}=> Φ₁ c) := by
  iintro ⟨#HI, HZ, HP0, HP1, HPart, HG, HR0, HR1⟩
  iapply (finish m K c G0 G1)
  isplitr; · iexact HI
  isplitl [HZ]; · iexact HZ
  isplitl [HP0 HP1]
  · iapply (Entails.of_eq (bigSep_univ_two (fun h => bigSep others fun d =>
      iprop(atPos ER (sendCell c h d) 2 ∅ 0 ∗ atPos ER (recv1Cell c h d) 1 ∅ 0 ∗ atPos ER (recv2Cell c h d) 1 ∅ 0))).symm)
    isplitl [HP0]; · iexact HP0
    iexact HP1
  isplitl [HPart]; · iapply (part_join c (partC m c)); iexact HPart
  isplitl [HG]; · iexact HG
  iapply (Entails.of_eq (bigSep_univ_two (fun h =>
      iprop(iprop(resPts c c h (remShr 31) (resC m) ∗ bigSep others fun e => resPts c c h (sendShr e.val) (resC m))
        ∗ bigSep others fun d => resPts c (bwd c d) h fullShare (resC m)))).symm)
  isplitl [HR0]; · iexact HR0
  iexact HR1

/-- info: 'Cert.Kernel.Proto.finish2' depends on axioms: [propext, Classical.choice, Quot.sound] -/
#guard_msgs in #print axioms finish2

end Cert.Kernel.Proto
end
-- ==== Proof.WBody.lean ====
import proofs.«900454_g7700000000000455_dist_matmul_relu_kshard_i_m512_n512_k256_v7x_i32_f32_1_alg».proof.Proof.Gen.Kernel
import proofs.«900454_g7700000000000455_dist_matmul_relu_kshard_i_m512_n512_k256_v7x_i32_f32_1_alg».proof.Proof.Gen.Kernel.Skeleton
import proofs.«900454_g7700000000000455_dist_matmul_relu_kshard_i_m512_n512_k256_v7x_i32_f32_1_alg».proof.Proof.Gen.Kernel.Launch
import proofs.«900454_g7700000000000455_dist_matmul_relu_kshard_i_m512_n512_k256_v7x_i32_f32_1_alg».proof.Proof.WLaunchRun
import proofs.«900454_g7700000000000455_dist_matmul_relu_kshard_i_m512_n512_k256_v7x_i32_f32_1_alg».proof.Proof.WSteps
import proofs.«900454_g7700000000000455_dist_matmul_relu_kshard_i_m512_n512_k256_v7x_i32_f32_1_alg».proof.Proof.WEntry
import proofs.«900454_g7700000000000455_dist_matmul_relu_kshard_i_m512_n512_k256_v7x_i32_f32_1_alg».proof.Proof.WEntry0
import proofs.«900454_g7700000000000455_dist_matmul_relu_kshard_i_m512_n512_k256_v7x_i32_f32_1_alg».proof.Proof.WLevels
import proofs.«900454_g7700000000000455_dist_matmul_relu_kshard_i_m512_n512_k256_v7x_i32_f32_1_alg».proof.Proof.WHalfSum
import proofs.«900454_g7700000000000455_dist_matmul_relu_kshard_i_m512_n512_k256_v7x_i32_f32_1_alg».proof.Proof.WTail2
import Idealize.ShloMosaic.Lib.Pipeline.Launch
import Idealize.ShloMosaic.Lib.Pipeline.Kit
import Idealize.ShloMosaic.Lib.Tactic

set_option maxRecDepth 16384

noncomputable section

namespace Cert.Kernel.Proto

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ) (ρ : Dev nD → PrngReg)

/-! ## The body obligation, and the kernel's run from it

One thread's body, from what the launch hands device c (its ghost state, its credit, the levels, the three scratch
buffers, the unused semaphores at zero, what it owes, the two argument blocks staged) to the result block staged, the
scratch buffers back and every own semaphore at zero. -/

/-- A staging buffer whole, at contents X. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- What the body starts from at the one grid point. -/
def bodyPre (c : Dev nD) : sProp 𝕄 :=
  iprop(Φ₀X m c ∗ (datsX m 0 c).owesAt () t0_0.castSucc
    ∗ (∃ d, stg c cc0_stg0_0 ((datsX m 0 c).before (0 : Fin 3) t0_0 d))
    ∗ (∃ d, stg c cc0_stg1_0 ((datsX m 0 c).before (1 : Fin 3) t0_0 d))
    ∗ (∃ d, stg c cc0_stg2_0 ((datsX m 0 c).before (2 : Fin 3) t0_0 d)))

/-- What it must end in. -/
def bodyPost (c : Dev nD) : sProp 𝕄 :=
  iprop(Φ₁ c ∗ (datsX m 0 c).owesAt () t0_0.succ
    ∗ stg c cc0_stg0_0 (argBlk0 m c) ∗ stg c cc0_stg1_0 (argBlk1 m c) ∗ stg c cc0_stg2_0 (outAt m))

instance reachedOwn_persistent (c : Dev nD) : BI.Persistent (reachedOwn (F := F) c) := by unfold reachedOwn; infer_instance

/-- An input window's staging buffer holds, at the one point, the staged block. -/
theorem before0 (c : Dev nD) (d : (cfg0.win (0 : Fin 3)).block.Idx → Elt F (cfg0.win (0 : Fin 3)).elt) :
    (datsX m 0 c).before (0 : Fin 3) t0_0 d = argBlk0 m c := by
  unfold Dat.before; rw [if_pos (fetch0_0 t0_0)]; rfl
theorem before1 (c : Dev nD) (d : (cfg0.win (1 : Fin 3)).block.Idx → Elt F (cfg0.win (1 : Fin 3)).elt) :
    (datsX m 0 c).before (1 : Fin 3) t0_0 d = argBlk1 m c := by
  unfold Dat.before; rw [if_pos (fetch0_1 t0_0)]; rfl

theorem reachedRecv_of_own (c : Dev nD) : (reachedOwn c : sProp 𝕄) ⊢ reachedRecv c := by
  unfold reachedOwn reachedRecv
  refine bigSep_mono' fun h _ => bigSep_mono' fun d _ => ?_
  iintro ⟨-, H1, H2⟩
  isplitl [H1] <;> iassumption

/-- The barrier part of the tokens a device pays with, as the launch hands them. -/
abbrev barTokens (c : Dev nD) : sProp 𝕄 :=
  if c.val = 0 then bigSep others fun j => iprop(dutyTok ER (barCell (⟨j.val, j.isLt⟩ : Dev nD)) 0 (0 : Fin 32) ∗ reached ER (barCell (⟨j.val, j.isLt⟩ : Dev nD)) 0)
  else iprop(dutyTok ER (barCell (⟨0, by decide⟩ : Dev nD)) 0 (⟨c.val, c.isLt⟩ : Fin 32) ∗ reached ER (barCell (⟨0, by decide⟩ : Dev nD)) 0)

theorem inv_at (K : CellIx → ℕ) (x : CellIx) : (invs m K : sProp 𝕄) ⊢ cellInv ER (sched m) (K x) (kcell x) := by
  unfold invs
  exact bigSep_elim' (Φ := fun x : CellIx => cellInv ER (sched m) (K x) (kcell x)) (Finset.mem_univ x)

/-- The entry handshake on any device: device 0 waits for the 31 others and signals each; any other device signals
    device 0 and waits for it. -/
theorem entry_any (c : Dev nD) (K : CellIx → ℕ) (s0 s1 s2 : Scr F)
    (f2 : Buf (Elt F) ((Memref.whole cc0_stg2_0 : Memref sig .tc .vmem S512x512 .f32).view.loc (c : Thread nD τ)))
    (W : Waits sig Unit) (Q : (Σ' (d0 : Dev nD) (v2 : BitVec 32) (v30 : BitVec 32), BitVec 32) → sProp 𝕄) :
    iprop(pt c (Memref.whole cc0_stg0_0) (argBlk0 m c) ∗ pt c (Memref.whole cc0_stg1_0) (argBlk1 m c) ∗ pt c (Memref.whole cc0_stg2_0) f2
      ∗ pt c (Memref.whole cc0_scratch0) s0 ∗ pt c (Memref.whole cc0_scratch1) s1 ∗ pt c (Memref.whole cc0_scratch2) s2
      ∗ invs m K ∗ barTokens c ∗ reachedRecv c
      ∗ atPos ER (barCell c) 0 ∅ 0 ∗ cred (tallyAt (barCell c) () (if c.val = 0 then 31 else 1)) ∗ levAts L lv
      ∗ owes (c : Thread nD τ) (O₀ c) W
      ∗ (∀ v : (Σ' (d0 : Dev nD) (v2 : BitVec 32) (v30 : BitVec 32), BitVec 32), iprop(⌜v.1 = c⌝ -∗ entryPost m c f2 s1 s2 W -∗ Q v)))
    ⊢ wp frame (wpE (defs₀ (F := F)) Variants.none c none) Set.univ
        (k0_part4 (Memref.whole cc0_stg0_0) (Memref.isWhole_whole _) (Memref.whole cc0_stg1_0) (Memref.isWhole_whole _) (Memref.whole cc0_stg2_0) (Memref.isWhole_whole _)
          (Memref.whole cc0_scratch0) (Memref.isWhole_whole _) (Memref.whole cc0_scratch1) (Memref.isWhole_whole _) (Memref.whole cc0_scratch2) (Memref.isWhole_whole _)
          cc0_scratch3 cc0_scratch4 cc0_scratch5) Q := by
  by_cases hc : c.val = 0
  · have hc1 : k0_cond1 (c : Thread nD τ).1 = 1#1 := cond1_of_eq_zero c hc
    have hc2 : ¬ k0_cond2 (c : Thread nD τ).1 = 1#1 := fun e => by
      rw [show k0_cond2 (c : Thread nD τ).1 = 0#1 from cond2_of_eq_zero c hc] at e; exact absurd e (by decide)
    unfold barTokens
    rw [if_pos hc, if_pos hc]
    iintro ⟨H0, H1, H2, Hs0, Hs1, Hs2, #HI, Htb, #Hrr, Hat, Hcr, #Hlev, HO, Hk⟩
    iapply (entry_zero m c hc hc1 hc2 K s0 s1 s2 f2 W Q)
    isplitl [H0]; · iexact H0
    isplitl [H1]; · iexact H1
    isplitl [H2]; · iexact H2
    isplitl [Hs0]; · iexact Hs0
    isplitl [Hs1]; · iexact Hs1
    isplitl [Hs2]; · iexact Hs2
    isplitr; · iapply (inv_at m K (c, none)); iexact HI
    isplitr
    · iapply (intro_bigSep_of_persistent others (invs m K) _ (fun j _ => inv_at m K (j, none))); iexact HI
    isplitl [Htb]; · iexact Htb
    isplitr; · iexact Hrr
    isplitl [Hat]; · iexact Hat
    isplitl [Hcr]; · iexact Hcr
    isplitr; · iexact Hlev
    isplitl [HO]; · iexact HO
    iexact Hk
  · have hc1 : ¬ k0_cond1 (c : Thread nD τ).1 = 1#1 := fun e => by
      rw [show k0_cond1 (c : Thread nD τ).1 = 0#1 from cond1_of_ne_zero c hc] at e; exact absurd e (by decide)
    have hc2 : k0_cond2 (c : Thread nD τ).1 = 1#1 := cond2_of_ne_zero c hc
    unfold barTokens
    rw [if_neg hc, if_neg hc]
    iintro ⟨H0, H1, H2, Hs0, Hs1, Hs2, #HI, ⟨Htok, #Hr0⟩, #Hrr, Hat, Hcr, #Hlev, HO, Hk⟩
    iapply (entry_nonzero m c hc hc1 hc2 K s0 s1 s2 f2 W Q)
    isplitl [H0]; · iexact H0
    isplitl [H1]; · iexact H1
    isplitl [H2]; · iexact H2
    isplitl [Hs0]; · iexact Hs0
    isplitl [Hs1]; · iexact Hs1
    isplitl [Hs2]; · iexact Hs2
    isplitr; · iapply (inv_at m K (c, none)); iexact HI
    isplitr; · iapply (inv_at m K (dev0, none)); iexact HI
    isplitl [Htok]; · iexact Htok
    isplitr; · iexact Hr0
    isplitr; · iexact Hrr
    isplitl [Hat]; · iexact Hat
    isplitl [Hcr]; · iexact Hcr
    isplitr; · iexact Hlev
    isplitl [HO]; · iexact HO
    iexact Hk

/-! ## The first round of copies -/

/-- Stepping forward from c, as a bijection of the 32 places. -/
def fwdFrom (c : Dev nD) : Fin 32 ≃ Dev nD where
  toFun d := fwd c d
  invFun t := ⟨(t.val + 32 - c.val) % 32, Nat.mod_lt _ (by decide)⟩
  left_inv d := Fin.ext (by
    have hc : c.val < 32 := c.isLt
    have := d.isLt
    show ((c.val + d.val) % 32 + 32 - c.val) % 32 = d.val
    omega)
  right_inv t := Fin.ext (by
    have hc : c.val < 32 := c.isLt
    have ht : t.val < 32 := t.isLt
    show (c.val + (t.val + 32 - c.val) % 32) % 32 = t.val
    omega)

theorem fwd_zero (c : Dev nD) : fwd c (0 : Fin 32) = c := Fin.ext (by
  have hc : c.val < 32 := c.isLt
  show (c.val + 0) % 32 = c.val
  omega)

/-- The product buffer whole is its own slot and the slots d = 1 … 31 places on, by column half. -/
theorem part_split (c : Dev nD) (f : Scr F) :
    (pt c (Memref.whole cc0_scratch0) f : sProp 𝕄)
      ⊢ iprop((partPts c c 0 fullShare f ∗ partPts c c 1 fullShare f)
        ∗ (bigSep others fun d => partPts c (fwd c d) 0 fullShare f) ∗ (bigSep others fun d => partPts c (fwd c d) 1 fullShare f)) := by
  show ((((c : Thread nD τ).loc cc0_scratch0) ↦{fullShare} f) : sProp 𝕄) ⊢ _
  rw [scratch0_split, bigSep_univ_prod, bigSep_univ_equiv (fwdFrom c), bigSep_univ_eq_zero_sep_others]
  simp only [bigSep_univ_two, bigSep_sep']
  show iprop((partPts c (fwd c 0) 0 fullShare f ∗ partPts c (fwd c 0) 1 fullShare f)
      ∗ (bigSep others fun d => partPts c (fwd c d) 0 fullShare f) ∗ (bigSep others fun d => partPts c (fwd c d) 1 fullShare f)) ⊢ _
  rw [fwd_zero]

/-- What device c still owes first receive cells: those of the copies S (and every second receive cell). -/
def owedRem1 (c : Dev nD) (S : Finset (Fin 2 × Fin 32)) : CellTallies nD τ sig Unit :=
  owedRecv2 c + ∑ p ∈ S, tallyAt (recv1Cell (fwd c p.2) p.1 p.2) () N

abbrev pairs : Finset (Fin 2 × Fin 32) := (Finset.univ : Finset (Fin 2)) ×ˢ others

theorem owedRem1_all (c : Dev nD) : owedRecv2 c + owedRecv1 c = owedRem1 c pairs := by
  unfold owedRem1 owedRecv1 pairs
  rw [Finset.sum_product]

theorem owedRem1_erase (c : Dev nD) (S : Finset (Fin 2 × Fin 32)) (p : Fin 2 × Fin 32) (hp : p ∈ S) :
    owedRem1 c S = owedRem1 c (S.erase p) + tallyAt (recv1Cell (fwd c p.2) p.1 p.2) () N := by
  unfold owedRem1
  rw [add_assoc, Finset.sum_erase_add _ _ hp]

theorem reached_send_own (c : Dev nD) (h : Fin 2) (d : Fin 32) (hd : d ∈ others) :
    (reachedOwn c : sProp 𝕄) ⊢ reached ER (sendCell c h d) 0 := by
  unfold reachedOwn
  refine (bigSep_elim' (Finset.mem_univ h)).trans ((bigSep_elim' hd).trans ?_)
  iintro ⟨H, -, -⟩
  iexact H

theorem erase_step {I : Type} [DecidableEq I] (s : Finset I) (i : I) (hi : i ∈ s) (Φ : I → sProp 𝕄) :
    bigSep s Φ ⊢ iprop(Φ i ∗ bigSep (s.erase i) Φ) := Entails.of_eq (bigSep_erase hi)

/-- What the first-round copy at distance d of column half h starts from: the source half slot, what the device
    d places on gave away for it, and the cells' tokens. -/
def todo1 (c : Dev nD) (h : Fin 2) (d : Fin 32) : sProp 𝕄 :=
  iprop(partPts c (fwd c d) h fullShare (partC m c)
    ∗ ((∃ f, gathPts (fwd c d) d h fullShare f) ∗ (∃ f, resPts (fwd c d) c h fullShare f)
        ∗ reached ER (recv1Cell (fwd c d) h d) 0 ∗ reached ER (recv2Cell (fwd c d) h d) 0)
    ∗ (dutyTok ER (sendCell c h d) 0 (0 : Fin 32) ∗ dutyTok ER (sendCell c h d) 1 (0 : Fin 32)
        ∗ dutyTok ER (recv1Cell (fwd c d) h d) 0 (0 : Fin 32) ∗ dutyTok ER (recv2Cell (fwd c d) h d) 0 (0 : Fin 32)))

theorem todo1_eq (c : Dev nD) (h : Fin 2) (d : Fin 32) : todo1 m c h d
    = iprop(partPts c (fwd c d) h fullShare (partC m c)
      ∗ ((∃ f, gathPts (fwd c d) d h fullShare f) ∗ (∃ f, resPts (fwd c d) c h fullShare f)
          ∗ reached ER (recv1Cell (fwd c d) h d) 0 ∗ reached ER (recv2Cell (fwd c d) h d) 0)
      ∗ (dutyTok ER (sendCell c h d) 0 (0 : Fin 32) ∗ dutyTok ER (sendCell c h d) 1 (0 : Fin 32)
          ∗ dutyTok ER (recv1Cell (fwd c d) h d) 0 (0 : Fin 32) ∗ dutyTok ER (recv2Cell (fwd c d) h d) 0 (0 : Fin 32))) := rfl

/-- What it leaves for later: the send cell's credit, and what the second-round copy at the same distance needs. -/
def done1 (c : Dev nD) (h : Fin 2) (d : Fin 32) : sProp 𝕄 :=
  iprop(cred (tallyAt (sendCell c h d) () N) ∗ (∃ f, resPts (fwd c d) c h fullShare f) ∗ reached ER (recv2Cell (fwd c d) h d) 0
    ∗ dutyTok ER (sendCell c h d) 1 (0 : Fin 32) ∗ dutyTok ER (recv2Cell (fwd c d) h d) 0 (0 : Fin 32))

theorem done1_eq (c : Dev nD) (h : Fin 2) (d : Fin 32) : done1 (F := F) c h d
    = iprop(cred (tallyAt (sendCell c h d) () N) ∗ (∃ f, resPts (fwd c d) c h fullShare f) ∗ reached ER (recv2Cell (fwd c d) h d) 0
      ∗ dutyTok ER (sendCell c h d) 1 (0 : Fin 32) ∗ dutyTok ER (recv2Cell (fwd c d) h d) 0 (0 : Fin 32)) := rfl

/-- The first-round copies of column half h: those at the distances S still to start, the others started. -/
def st1 (c : Dev nD) (h : Fin 2) (S : Finset (Fin 32)) : sProp 𝕄 :=
  iprop(bigSep S (todo1 m c h) ∗ bigSep (others \ S) (done1 c h))

theorem merge3 {I : Type} (S : Finset I) (A B C : I → sProp 𝕄) :
    iprop(bigSep S A ∗ bigSep S B ∗ bigSep S C) ⊢ bigSep S (fun i => iprop(A i ∗ B i ∗ C i)) := by
  rw [bigSep_sep', bigSep_sep']

theorem st1_init (c : Dev nD) (h : Fin 2) :
    iprop((bigSep others fun d => partPts c (fwd c d) h fullShare (partC m c))
      ∗ (bigSep others fun d => iprop((∃ f, gathPts (fwd c d) d h fullShare f) ∗ (∃ f, resPts (fwd c d) c h fullShare f)
          ∗ reached ER (recv1Cell (fwd c d) h d) 0 ∗ reached ER (recv2Cell (fwd c d) h d) 0))
      ∗ (bigSep others fun d => iprop(dutyTok ER (sendCell c h d) 0 (0 : Fin 32) ∗ dutyTok ER (sendCell c h d) 1 (0 : Fin 32)
          ∗ dutyTok ER (recv1Cell (fwd c d) h d) 0 (0 : Fin 32) ∗ dutyTok ER (recv2Cell (fwd c d) h d) 0 (0 : Fin 32))))
      ⊢ st1 m c h others := by
  unfold st1 todo1
  rw [Finset.sdiff_self, bigSep_empty]
  iintro ⟨H1, H2, H3⟩
  isplitl
  · iapply (merge3 others _ _ _)
    isplitl [H1]; · iexact H1
    isplitl [H2] <;> iassumption
  · iempintro

theorem sdiff_erase' (S : Finset (Fin 32)) (d : Fin 32) (hdS : d ∈ S) (hS : S ⊆ others) :
    others \ S.erase d = insert d (others \ S) := by
  ext x
  simp only [Finset.mem_sdiff, Finset.mem_erase, Finset.mem_insert, not_and]
  constructor
  · rintro ⟨hx, hn⟩
    by_cases hxd : x = d
    · exact Or.inl hxd
    · exact Or.inr ⟨hx, fun hxS => hn hxd hxS⟩
  · rintro (rfl | ⟨hx, hxS⟩)
    · exact ⟨hS hdS, fun hne => absurd rfl hne⟩
    · exact ⟨hx, fun _ => hxS⟩

theorem done1_insert (c : Dev nD) (h : Fin 2) (S : Finset (Fin 32)) (d : Fin 32) (hdS : d ∈ S) (hS : S ⊆ others) :
    iprop(done1 (F := F) c h d ∗ bigSep (others \ S) (done1 c h)) ⊢ bigSep (others \ S.erase d) (done1 c h) := by
  rw [sdiff_erase' S d hdS hS, bigSep_insert (fun hm => (Finset.mem_sdiff.mp hm).2 hdS)]
  exact .rfl

theorem invSend (K : CellIx → ℕ) (c : Dev nD) (h : Fin 2) (d : Fin 32) :
    (invs m K : sProp 𝕄) ⊢ cellInv ER (sched m) (K (c, some (0, h, d))) (sendCell c h d) := inv_at m K (c, some (0, h, d))
theorem invRecv1 (K : CellIx → ℕ) (c : Dev nD) (h : Fin 2) (d : Fin 32) :
    (invs m K : sProp 𝕄) ⊢ cellInv ER (sched m) (K (c, some (1, h, d))) (recv1Cell c h d) := inv_at m K (c, some (1, h, d))
theorem invRecv2 (K : CellIx → ℕ) (c : Dev nD) (h : Fin 2) (d : Fin 32) :
    (invs m K : sProp 𝕄) ⊢ cellInv ER (sched m) (K (c, some (2, h, d))) (recv2Cell c h d) := inv_at m K (c, some (2, h, d))

/-- One first-round copy: the half slot at distance d of column half h goes to the device d places on. -/
theorem copy1 (c : Dev nD) (h : Fin 2) (d : Fin 32) (hd : d ≠ 0) (S : Finset (Fin 32)) (hdS : d ∈ S) (hS : S ⊆ others)
    (P : Finset (Fin 2 × Fin 32)) (hp : (h, d) ∈ P) (K : CellIx → ℕ) (W : Waits sig Unit)
    {α : Type} (k : PUnit → Prog (TpuEff nD τ sig (Elt F) Λ₀ .tc) α) (Q : α → sProp 𝕄)
    (off : Fin 3 → Nat) (hoff : off = ![(fwd c d).val, 0, 256 * h.val]) (inb : ∀ a, off a + S1x16x256.size a ≤ S32x16x512.size a)
    (hst : ∀ a, (Rect.unit (s := S32x16x512) off S1x16x256.size inb).stride a = 1) (dev : Dev nD) (hdev : dev = fwd c d)
    (hsc) (hsrc) (hdst) (hsem) :
    iprop(invs m K ∗ reachedOwn c ∗ st1 m c h S ∗ owes (c : Thread nD τ) (owedRem1 c P) W
        ∗ ((st1 m c h (S.erase d) ∗ owes (c : Thread nD τ) (owedRem1 c (P.erase (h, d))) W)
            -∗ wp frame (wpE (defs₀ (F := F)) Variants.none c none) Set.univ (k ⟨⟩) Q))
      ⊢ wp frame (wpE (defs₀ (F := F)) Variants.none c none) Set.univ
          (.op (.enqueueDma (((partM : Memref sig .tc .vmem S32x16x512 .bf16).slice (Rect.unit (s := S32x16x512) off S1x16x256.size inb) hst).squeeze S16x256 squeezes_S1x16x256_S16x256)
            (.remote ((dev : Dev nD) : Thread nD τ) (dst1 h d) (.dma (semAt cc0_scratch3 h d)) hsc) (.dma (semAt cc0_scratch4 h d)) hsrc hdst hsem) k) Q := by
  unfold st1
  rw [owedRem1_erase c P (h, d) hp]
  iintro ⟨#HI, #Hro, ⟨Htodo, Hdone⟩, HO, Hk⟩
  ihave HX := (erase_step S d hdS (todo1 m c h)) $$ Htodo
  icases HX with ⟨Hhd, Htodo⟩
  ihave HY := (Entails.of_eq (todo1_eq m c h d)) $$ Hhd
  icases HY with ⟨Hp, ⟨⟨%fd, Hg⟩, Hres, #Hr1, #Hr2⟩, Ht0, Ht1, Htr1, Htr2⟩
  iapply (send1_step' m c h d hd (K (c, some (0, h, d))) (K (fwd c d, some (1, h, d))) fd (owedRem1 c (P.erase (h, d))) W k Q off hoff inb hst dev hdev hsc hsrc hdst hsem) $$ [Hp Hg HO Ht0 Htr1]
  · isplitr; · iapply (invSend m K c h d); iexact HI
    isplitr; · iapply (invRecv1 m K (fwd c d) h d); iexact HI
    isplitl [Hp]; · iexact Hp
    isplitl [Hg]; · iexact Hg
    isplitl [HO]; · iexact HO
    isplitl [Ht0]; · iexact Ht0
    isplitr; · iapply (reached_send_own (F := F) c h d (hS hdS)); iexact Hro
    isplitl [Htr1]; · iexact Htr1
    iexact Hr1
  iintro ⟨Hcr, HO⟩
  iapply Hk
  isplitr [HO]
  · isplitl [Htodo]; · iexact Htodo
    iapply (done1_insert (F := F) c h S d hdS hS)
    isplitr [Hdone]
    · iapply (Entails.of_eq (done1_eq (F := F) c h d).symm)
      isplitl [Hcr]; · iexact Hcr
      isplitl [Hres]; · iexact Hres
      isplitr; · iexact Hr2
      isplitl [Ht1]; · iexact Ht1
      iexact Htr2
    · iexact Hdone
  · iexact HO

/-! ## The waits for the first-round copies to land -/

/-- A device's own cells at distance d of column half h, untouched: their positions and the credit for the two waits. -/
def own1 (c : Dev nD) (h : Fin 2) (d : Fin 32) : sProp 𝕄 :=
  iprop((atPos ER (sendCell c h d) 0 ∅ 0 ∗ atPos ER (recv1Cell c h d) 0 ∅ 0 ∗ atPos ER (recv2Cell c h d) 0 ∅ 0)
    ∗ (cred (tallyAt (recv1Cell c h d) () N) ∗ cred (tallyAt (recv2Cell c h d) () N)))

theorem own1_eq (c : Dev nD) (h : Fin 2) (d : Fin 32) : own1 (F := F) c h d
    = iprop((atPos ER (sendCell c h d) 0 ∅ 0 ∗ atPos ER (recv1Cell c h d) 0 ∅ 0 ∗ atPos ER (recv2Cell c h d) 0 ∅ 0)
      ∗ (cred (tallyAt (recv1Cell c h d) () N) ∗ cred (tallyAt (recv2Cell c h d) () N))) := rfl

/-- The same once the first-round copy has landed: slot d of the gathering buffer holds the sender's part. -/
def landed1 (c : Dev nD) (h : Fin 2) (d : Fin 32) : sProp 𝕄 :=
  iprop((atPos ER (sendCell c h d) 0 ∅ 0 ∗ atPos ER (recv2Cell c h d) 0 ∅ 0 ∗ cred (tallyAt (recv2Cell c h d) () N))
    ∗ atPos ER (recv1Cell c h d) 1 ∅ 0 ∗ reached ER (recv1Cell c h d) 1 ∗ gathPts c d h fullShare (gathC m c))

theorem landed1_eq (c : Dev nD) (h : Fin 2) (d : Fin 32) : landed1 m c h d
    = iprop((atPos ER (sendCell c h d) 0 ∅ 0 ∗ atPos ER (recv2Cell c h d) 0 ∅ 0 ∗ cred (tallyAt (recv2Cell c h d) () N))
      ∗ atPos ER (recv1Cell c h d) 1 ∅ 0 ∗ reached ER (recv1Cell c h d) 1 ∗ gathPts c d h fullShare (gathC m c)) := rfl

def st2 (c : Dev nD) (h : Fin 2) (S : Finset (Fin 32)) : sProp 𝕄 :=
  iprop(bigSep S (own1 c h) ∗ bigSep (others \ S) (landed1 m c h))

theorem merge2 {I : Type} (S : Finset I) (A B : I → sProp 𝕄) :
    iprop(bigSep S A ∗ bigSep S B) ⊢ bigSep S (fun i => iprop(A i ∗ B i)) := by
  rw [bigSep_sep']

theorem st2_init (c : Dev nD) (h : Fin 2) :
    iprop((bigSep others fun d => iprop(atPos ER (sendCell c h d) 0 ∅ 0 ∗ atPos ER (recv1Cell c h d) 0 ∅ 0 ∗ atPos ER (recv2Cell c h d) 0 ∅ 0))
      ∗ (bigSep others fun d => iprop(cred (tallyAt (recv1Cell c h d) () N) ∗ cred (tallyAt (recv2Cell c h d) () N))))
      ⊢ st2 m c h others := by
  unfold st2 own1
  rw [Finset.sdiff_self, bigSep_empty]
  iintro ⟨H1, H2⟩
  isplitl
  · iapply (merge2 others _ _)
    isplitl [H1] <;> iassumption
  · iempintro

theorem landed1_insert (c : Dev nD) (h : Fin 2) (S : Finset (Fin 32)) (d : Fin 32) (hdS : d ∈ S) (hS : S ⊆ others) :
    iprop(landed1 m c h d ∗ bigSep (others \ S) (landed1 m c h)) ⊢ bigSep (others \ S.erase d) (landed1 m c h) := by
  rw [sdiff_erase' S d hdS hS, bigSep_insert (fun hm => (Finset.mem_sdiff.mp hm).2 hdS)]
  exact .rfl

/-- One wait for a first-round copy to land, while the device owes X, all of it at level 4 or above. -/
theorem wait1 (c : Dev nD) (h : Fin 2) (d : Fin 32) (hd : d ≠ 0) (S : Finset (Fin 32)) (hdS : d ∈ S) (hS : S ⊆ others)
    (K : CellIx → ℕ) (W : Waits sig Unit) (X : CellTallies nD τ sig Unit)
    (hX : ∀ (g : GSem nD τ sig) (i : Unit), 0 < X g i → i ∈ L g ∧ 4 ≤ lv g i)
    {α : Type} (k : PUnit → Prog (TpuEff nD τ sig (Elt F) Λ₀ .tc) α) (Q : α → sProp 𝕄)
    (src dst : Memref sig .tc .vmem S16x256 .bf16) (hsrc) (hdst) (hcr : dst.view.dmaCredit = N) :
    iprop(invs m K ∗ levAts L lv ∗ st2 m c h S ∗ owes (c : Thread nD τ) X W
        ∗ ((st2 m c h (S.erase d) ∗ owes (c : Thread nD τ) X (insert (SemLoc.dma (semAt cc0_scratch4 h d), ()) W))
            -∗ wp frame (wpE (defs₀ (F := F)) Variants.none c none) Set.univ (k ⟨⟩) Q))
      ⊢ wp frame (wpE (defs₀ (F := F)) Variants.none c none) Set.univ (.op (.waitDma2 (semAt cc0_scratch4 h d) src dst hsrc hdst) k) Q := by
  unfold st2
  iintro ⟨#HI, #Hlev, ⟨Htodo, Hdone⟩, HO, Hk⟩
  ihave HX := (erase_step S d hdS (own1 (F := F) c h)) $$ Htodo
  icases HX with ⟨Hhd, Htodo⟩
  ihave HY := (Entails.of_eq (own1_eq (F := F) c h d)) $$ Hhd
  icases HY with ⟨⟨HaS, HaR1, HaR2⟩, Hc1, Hc2⟩
  iapply (wait_recv1_step m c h d hd (K (c, some (1, h, d))) X W k Q src dst hsrc hdst hcr) $$ [Hc1 HO HaR1]
  · isplitr; · iapply (invRecv1 m K c h d); iexact HI
    isplitl [Hc1]; · iexact Hc1
    isplitl [HO]; · iexact HO
    isplitr; · iapply (mayWait_recv1 (F := F) c h d X hX); iexact Hlev
    iexact HaR1
  iintro ⟨HO, HaR1, #Hr1, Hpay⟩
  iapply Hk
  isplitr [HO]
  · isplitl [Htodo]; · iexact Htodo
    iapply (landed1_insert m c h S d hdS hS)
    isplitr [Hdone]
    · iapply (Entails.of_eq (landed1_eq m c h d).symm)
      isplitl [HaS HaR2 Hc2]
      · isplitl [HaS]; · iexact HaS
        isplitl [HaR2]; · iexact HaR2
        iexact Hc2
      isplitl [HaR1]; · iexact HaR1
      isplitr; · iexact Hr1
      iexact Hpay
    · iexact Hdone
  · iexact HO

/-! ## Column half 0 gathered: the 32 half slots joined -/

/-- What stays of a device's own cells at distance d once the first-round copy has landed, the landed slot apart. -/
def rest2 (c : Dev nD) (h : Fin 2) (d : Fin 32) : sProp 𝕄 :=
  iprop((atPos ER (sendCell c h d) 0 ∅ 0 ∗ atPos ER (recv2Cell c h d) 0 ∅ 0 ∗ cred (tallyAt (recv2Cell c h d) () N))
    ∗ atPos ER (recv1Cell c h d) 1 ∅ 0 ∗ reached ER (recv1Cell c h d) 1)

theorem landed1_split (c : Dev nD) (h : Fin 2) (d : Fin 32) :
    landed1 m c h d ⊢ iprop(rest2 c h d ∗ gathPts c d h fullShare (gathC m c)) := by
  rw [landed1_eq]
  unfold rest2
  iintro ⟨HA, HP, HR, HG⟩
  isplitl [HA HP HR]
  · isplitl [HA]; · iexact HA
    isplitl [HP]; · iexact HP
    iexact HR
  · iexact HG

theorem st2_done (c : Dev nD) (h : Fin 2) (S : Finset (Fin 32)) (hS : S = ∅) :
    st2 m c h S ⊢ iprop(bigSep others (rest2 (F := F) c h) ∗ bigSep others fun d => gathPts c d h fullShare (gathC m c)) := by
  subst hS
  unfold st2
  rw [bigSep_empty, Finset.sdiff_empty, ← bigSep_sep']
  iintro ⟨-, H⟩
  iapply (bigSep_mono' (fun d _ => landed1_split m c h d))
  iexact H

theorem gathJoin (c : Dev nD) (g1 : Scr F) (hg1 : ∀ i ∈ (slot 0 0).set ∪ (slot 0 1).set, g1 i = gathC m c i) (h : Fin 2) :
    iprop(gathPts c 0 h fullShare g1 ∗ bigSep others fun d => gathPts c d h fullShare (gathC m c))
      ⊢ ((((c : Thread nD τ).loc cc0_scratch1) ↦[(cols h).set]{fullShare} (gathC m c)) : sProp 𝕄) := by
  rw [← gath_cols_of_agree c h fullShare (fun t => if t = 0 then g1 else gathC m c) (gathC m c) (fun t i hi => by
      by_cases ht : t = 0
      · subst ht
        rw [if_pos rfl]
        refine hg1 i ?_
        rcases (show h = 0 ∨ h = 1 by omega) with rfl | rfl
        · exact Finset.mem_union_left _ hi
        · exact Finset.mem_union_right _ hi
      · rw [if_neg ht]),
    bigSep_univ_eq_zero_sep_others]
  iintro ⟨H0, Hd⟩
  isplitl [H0]
  · rw [if_pos rfl]; iexact H0
  · iapply (Entails.of_eq (bigSep_congr (fun d hd => by rw [if_neg (Finset.mem_filter.mp hd).2])))
    iexact Hd

/-! ## The second round: each send cell waited on, then the own result slot copied to the device d places on -/

/-- What device c still owes second receive cells: those of the copies P. -/
def owedRem2 (c : Dev nD) (P : Finset (Fin 2 × Fin 32)) : CellTallies nD τ sig Unit :=
  ∑ p ∈ P, tallyAt (recv2Cell (fwd c p.2) p.1 p.2) () N

theorem owedRem2_all (c : Dev nD) : owedRecv2 c = owedRem2 c pairs := by
  unfold owedRem2 owedRecv2 pairs
  rw [Finset.sum_product]

theorem owedRem2_erase (c : Dev nD) (P : Finset (Fin 2 × Fin 32)) (p : Fin 2 × Fin 32) (hp : p ∈ P) :
    owedRem2 c P = owedRem2 c (P.erase p) + tallyAt (recv2Cell (fwd c p.2) p.1 p.2) () N := by
  unfold owedRem2
  rw [Finset.sum_erase_add _ _ hp]

theorem owedRem2_lv (c : Dev nD) (P : Finset (Fin 2 × Fin 32)) :
    ∀ (g : GSem nD τ sig) (i : Unit), 0 < owedRem2 c P g i → i ∈ L g ∧ 4 ≤ lv g i := fun g i h => by
  unfold owedRem2 at h
  obtain ⟨p, -, h⟩ := Pipeline.sum_pos_exists h
  exact tallyRecv2_lv (fwd c p.2) p.1 p.2 N g i h

theorem lv_four_one {X : CellTallies nD τ sig Unit} (hX : ∀ (g : GSem nD τ sig) (i : Unit), 0 < X g i → i ∈ L g ∧ 4 ≤ lv g i) :
    ∀ (g : GSem nD τ sig) (i : Unit), 0 < X g i → i ∈ L g ∧ 1 ≤ lv g i :=
  fun g i h => ⟨(hX g i h).1, le_trans (by decide) (hX g i h).2⟩

theorem owes_congr (c : Dev nD) {X Y : CellTallies nD τ sig Unit} (h : X = Y) (W : Waits sig Unit) :
    (owes (c : Thread nD τ) X W : sProp 𝕄) ⊢ owes (c : Thread nD τ) Y W := by
  subst h
  exact .rfl

theorem resPts_congr' (c : Dev nD) (t : Fin 32) (h : Fin 2) (q : PosShare TreeShare) {f g : Scr F}
    (hfg : ∀ i ∈ (slot t h).set, f i = g i) : (resPts c t h q f : sProp 𝕄) = resPts c t h q g := by
  unfold resPts
  exact pointsTo_congr hfg

/-- Distance d of column half h before its send wait: what the first-round copy left, the landed cells, and the
    share of the own result slot lent to this copy. -/
def A3 (c : Dev nD) (h : Fin 2) (d : Fin 32) : sProp 𝕄 :=
  iprop(done1 (F := F) c h d ∗ rest2 c h d ∗ resPts c c h (sendShr d.val) (resC m))

theorem A3_eq (c : Dev nD) (h : Fin 2) (d : Fin 32) : A3 m c h d
    = iprop((cred (tallyAt (sendCell c h d) () N) ∗ (∃ f, resPts (fwd c d) c h fullShare f) ∗ reached ER (recv2Cell (fwd c d) h d) 0
        ∗ dutyTok ER (sendCell c h d) 1 (0 : Fin 32) ∗ dutyTok ER (recv2Cell (fwd c d) h d) 0 (0 : Fin 32))
      ∗ ((atPos ER (sendCell c h d) 0 ∅ 0 ∗ atPos ER (recv2Cell c h d) 0 ∅ 0 ∗ cred (tallyAt (recv2Cell c h d) () N))
          ∗ atPos ER (recv1Cell c h d) 1 ∅ 0 ∗ reached ER (recv1Cell c h d) 1)
      ∗ resPts c c h (sendShr d.val) (resC m)) := rfl

/-- The same between its send wait and its second-round copy. -/
def B3 (c : Dev nD) (h : Fin 2) (d : Fin 32) : sProp 𝕄 :=
  iprop(((∃ f, resPts (fwd c d) c h fullShare f) ∗ reached ER (recv2Cell (fwd c d) h d) 0
        ∗ dutyTok ER (sendCell c h d) 1 (0 : Fin 32) ∗ dutyTok ER (recv2Cell (fwd c d) h d) 0 (0 : Fin 32))
    ∗ (atPos ER (sendCell c h d) 1 ∅ 0 ∗ reached ER (sendCell c h d) 1 ∗ partPts c (fwd c d) h fullShare (partC m c))
    ∗ (atPos ER (recv2Cell c h d) 0 ∅ 0 ∗ cred (tallyAt (recv2Cell c h d) () N) ∗ atPos ER (recv1Cell c h d) 1 ∅ 0 ∗ reached ER (recv1Cell c h d) 1)
    ∗ resPts c c h (sendShr d.val) (resC m))

theorem B3_eq (c : Dev nD) (h : Fin 2) (d : Fin 32) : B3 m c h d
    = iprop(((∃ f, resPts (fwd c d) c h fullShare f) ∗ reached ER (recv2Cell (fwd c d) h d) 0
          ∗ dutyTok ER (sendCell c h d) 1 (0 : Fin 32) ∗ dutyTok ER (recv2Cell (fwd c d) h d) 0 (0 : Fin 32))
      ∗ (atPos ER (sendCell c h d) 1 ∅ 0 ∗ reached ER (sendCell c h d) 1 ∗ partPts c (fwd c d) h fullShare (partC m c))
      ∗ (atPos ER (recv2Cell c h d) 0 ∅ 0 ∗ cred (tallyAt (recv2Cell c h d) () N) ∗ atPos ER (recv1Cell c h d) 1 ∅ 0 ∗ reached ER (recv1Cell c h d) 1)
      ∗ resPts c c h (sendShr d.val) (resC m)) := rfl

/-- And after its second-round copy is started. -/
def C3 (c : Dev nD) (h : Fin 2) (d : Fin 32) : sProp 𝕄 :=
  iprop(cred (tallyAt (sendCell c h d) () N)
    ∗ (atPos ER (sendCell c h d) 1 ∅ 0 ∗ reached ER (sendCell c h d) 1 ∗ partPts c (fwd c d) h fullShare (partC m c))
    ∗ (atPos ER (recv2Cell c h d) 0 ∅ 0 ∗ cred (tallyAt (recv2Cell c h d) () N) ∗ atPos ER (recv1Cell c h d) 1 ∅ 0 ∗ reached ER (recv1Cell c h d) 1))

theorem C3_eq (c : Dev nD) (h : Fin 2) (d : Fin 32) : C3 m c h d
    = iprop(cred (tallyAt (sendCell c h d) () N)
      ∗ (atPos ER (sendCell c h d) 1 ∅ 0 ∗ reached ER (sendCell c h d) 1 ∗ partPts c (fwd c d) h fullShare (partC m c))
      ∗ (atPos ER (recv2Cell c h d) 0 ∅ 0 ∗ cred (tallyAt (recv2Cell c h d) () N) ∗ atPos ER (recv1Cell c h d) 1 ∅ 0 ∗ reached ER (recv1Cell c h d) 1)) := rfl

def st3 (c : Dev nD) (h : Fin 2) (S : Finset (Fin 32)) : sProp 𝕄 :=
  iprop(bigSep S (A3 m c h) ∗ bigSep (others \ S) (C3 m c h))

theorem st1_done (c : Dev nD) (h : Fin 2) (S : Finset (Fin 32)) (hS : S = ∅) :
    st1 m c h S ⊢ bigSep others (done1 (F := F) c h) := by
  subst hS
  unfold st1
  rw [bigSep_empty, Finset.sdiff_empty]
  iintro ⟨-, H⟩
  iexact H

theorem st3_init (c : Dev nD) (h : Fin 2) :
    iprop(bigSep others (done1 (F := F) c h) ∗ bigSep others (rest2 (F := F) c h) ∗ (bigSep others fun e => resPts c c h (sendShr e.val) (resC m)))
      ⊢ st3 m c h others := by
  unfold st3 A3
  rw [Finset.sdiff_self, bigSep_empty]
  iintro ⟨H1, H2, H3⟩
  isplitl
  · iapply (merge3 others _ _ _)
    isplitl [H1]; · iexact H1
    isplitl [H2] <;> iassumption
  · iempintro

theorem C3_insert (c : Dev nD) (h : Fin 2) (S : Finset (Fin 32)) (d : Fin 32) (hdS : d ∈ S) (hS : S ⊆ others) :
    iprop(C3 m c h d ∗ bigSep (others \ S) (C3 m c h)) ⊢ bigSep (others \ S.erase d) (C3 m c h) := by
  rw [sdiff_erase' S d hdS hS, bigSep_insert (fun hm => (Finset.mem_sdiff.mp hm).2 hdS)]
  exact .rfl

/-- The wait on the send cell (h, d) for the first-round copy to have been read out. -/
theorem wsend0 (c : Dev nD) (h : Fin 2) (d : Fin 32) (hd : d ≠ 0) (S : Finset (Fin 32)) (hdS : d ∈ S) (hS : S ⊆ others)
    (K : CellIx → ℕ) (W : Waits sig Unit) (X : CellTallies nD τ sig Unit)
    (hX : ∀ (g : GSem nD τ sig) (i : Unit), 0 < X g i → i ∈ L g ∧ 4 ≤ lv g i)
    {α : Type} (k : PUnit → Prog (TpuEff nD τ sig (Elt F) Λ₀ .tc) α) (Q : α → sProp 𝕄)
    (src dst : Memref sig .tc .vmem S16x256 .bf16) (hsrc) (hdst) (hcr : dst.view.dmaCredit = N) :
    iprop(invs m K ∗ levAts L lv ∗ st3 m c h S ∗ owes (c : Thread nD τ) X W
        ∗ ((bigSep (S.erase d) (A3 m c h) ∗ bigSep (others \ S) (C3 m c h) ∗ B3 m c h d
              ∗ owes (c : Thread nD τ) X (insert (SemLoc.dma (semAt cc0_scratch3 h d), ()) W))
            -∗ wp frame (wpE (defs₀ (F := F)) Variants.none c none) Set.univ (k ⟨⟩) Q))
      ⊢ wp frame (wpE (defs₀ (F := F)) Variants.none c none) Set.univ (.op (.waitDma2 (semAt cc0_scratch3 h d) src dst hsrc hdst) k) Q := by
  unfold st3
  iintro ⟨#HI, #Hlev, ⟨Htodo, Hdone⟩, HO, Hk⟩
  ihave HX := (erase_step S d hdS (A3 m c h)) $$ Htodo
  icases HX with ⟨Hhd, Htodo⟩
  ihave HY := (Entails.of_eq (A3_eq m c h d)) $$ Hhd
  icases HY with ⟨⟨Hcr, Hres, Hr2f, Ht1, Htr2⟩, ⟨⟨HaS, HaR2, Hc2⟩, HaR1, Hr1⟩, Hlent⟩
  iapply (wait_send0_step m c h d hd (K (c, some (0, h, d))) X W k Q src dst hsrc hdst hcr) $$ [Hcr HO HaS]
  · isplitr; · iapply (invSend m K c h d); iexact HI
    isplitl [Hcr]; · iexact Hcr
    isplitl [HO]; · iexact HO
    isplitr; · iapply (mayWait_send (F := F) c h d X (lv_four_one hX)); iexact Hlev
    iexact HaS
  iintro ⟨HO, HaS, HrS1, Hpart⟩
  iapply Hk
  isplitl [Htodo]; · iexact Htodo
  isplitl [Hdone]; · iexact Hdone
  isplitr [HO]
  · iapply (Entails.of_eq (B3_eq m c h d).symm)
    isplitl [Hres Hr2f Ht1 Htr2]
    · isplitl [Hres]; · iexact Hres
      isplitl [Hr2f]; · iexact Hr2f
      isplitl [Ht1]; · iexact Ht1
      iexact Htr2
    isplitl [HaS HrS1 Hpart]
    · isplitl [HaS]; · iexact HaS
      isplitl [HrS1]; · iexact HrS1
      iexact Hpart
    isplitl [HaR2 Hc2 HaR1 Hr1]
    · isplitl [HaR2]; · iexact HaR2
      isplitl [Hc2]; · iexact Hc2
      isplitl [HaR1]; · iexact HaR1
      iexact Hr1
    iexact Hlent
  · iexact HO

/-- The second-round copy (h, d): the lent share of the own result slot goes to the device d places on. -/
theorem copy2 (c : Dev nD) (h : Fin 2) (d : Fin 32) (hd : d ≠ 0) (S : Finset (Fin 32)) (hdS : d ∈ S) (hS : S ⊆ others)
    (P : Finset (Fin 2 × Fin 32)) (hp : (h, d) ∈ P) (K : CellIx → ℕ) (W : Waits sig Unit)
    {α : Type} (k : PUnit → Prog (TpuEff nD τ sig (Elt F) Λ₀ .tc) α) (Q : α → sProp 𝕄)
    (off : Fin 3 → Nat) (hoff : off = ![c.val, 0, 256 * h.val]) (inb inb' : ∀ a, off a + S1x16x256.size a ≤ S32x16x512.size a)
    (hst : ∀ a, (Rect.unit (s := S32x16x512) off S1x16x256.size inb).stride a = 1)
    (hst' : ∀ a, (Rect.unit (s := S32x16x512) off S1x16x256.size inb').stride a = 1) (dev : Dev nD) (hdev : dev = fwd c d)
    (hsc) (hsrc) (hdst) (hsem) :
    iprop(invs m K ∗ bigSep (S.erase d) (A3 m c h) ∗ bigSep (others \ S) (C3 m c h) ∗ B3 m c h d
        ∗ owes (c : Thread nD τ) (owedRem2 c P) W
        ∗ ((st3 m c h (S.erase d) ∗ owes (c : Thread nD τ) (owedRem2 c (P.erase (h, d))) W)
            -∗ wp frame (wpE (defs₀ (F := F)) Variants.none c none) Set.univ (k ⟨⟩) Q))
      ⊢ wp frame (wpE (defs₀ (F := F)) Variants.none c none) Set.univ
          (.op (.enqueueDma (((resM : Memref sig .tc .vmem S32x16x512 .bf16).slice (Rect.unit (s := S32x16x512) off S1x16x256.size inb) hst).squeeze S16x256 squeezes_S1x16x256_S16x256)
            (.remote ((dev : Dev nD) : Thread nD τ)
              (((resM : Memref sig .tc .vmem S32x16x512 .bf16).slice (Rect.unit (s := S32x16x512) off S1x16x256.size inb') hst').squeeze S16x256 squeezes_S1x16x256_S16x256)
              (.dma (semAt cc0_scratch3 h d)) hsc) (.dma (semAt cc0_scratch5 h d)) hsrc hdst hsem) k) Q := by
  unfold st3
  rw [owedRem2_erase c P (h, d) hp]
  iintro ⟨#HI, Htodo, Hdone, Hmid, HO, Hk⟩
  ihave HY := (Entails.of_eq (B3_eq m c h d)) $$ Hmid
  icases HY with ⟨⟨⟨%fd, Hres⟩, Hr2f, Ht1, Htr2⟩, ⟨HaS, #HrS1, Hpart⟩, Hrecv, Hlent⟩
  iapply (send2_step' m c h d hd (K (c, some (0, h, d))) (K (fwd c d, some (2, h, d))) fd (owedRem2 c (P.erase (h, d))) W k Q off hoff inb inb' hst hst' dev hdev hsc hsrc hdst hsem) $$ [Hlent Hres HO Ht1 Htr2 Hr2f]
  · isplitr; · iapply (invSend m K c h d); iexact HI
    isplitr; · iapply (invRecv2 m K (fwd c d) h d); iexact HI
    isplitl [Hlent]; · iexact Hlent
    isplitl [Hres]; · iexact Hres
    isplitl [HO]; · iexact HO
    isplitl [Ht1]; · iexact Ht1
    isplitr; · iexact HrS1
    isplitl [Htr2]; · iexact Htr2
    iexact Hr2f
  iintro ⟨Hcr, HO⟩
  iapply Hk
  isplitr [HO]
  · isplitl [Htodo]; · iexact Htodo
    iapply (C3_insert m c h S d hdS hS)
    isplitr [Hdone]
    · iapply (Entails.of_eq (C3_eq m c h d).symm)
      isplitl [Hcr]; · iexact Hcr
      isplitl [HaS Hpart]
      · isplitl [HaS]; · iexact HaS
        isplitr; · iexact HrS1
        iexact Hpart
      iexact Hrecv
    · iexact Hdone
  · iexact HO

theorem st3_done (c : Dev nD) (h : Fin 2) (S : Finset (Fin 32)) (hS : S = ∅) :
    st3 m c h S ⊢ bigSep others (C3 m c h) := by
  subst hS
  unfold st3
  rw [bigSep_empty, Finset.sdiff_empty]
  iintro ⟨-, H⟩
  iexact H

theorem ret_bind' {E : Type → Type _} {α β : Type} (a : α) (k : α → Prog E β) : (Prog.ret a).bind k = k a := rfl

/-! ## The second-round copies land -/

/-- The cells of distance d once the second-round copy from d places back has landed: the sender's result slot is
    there. -/
def D3 (c : Dev nD) (h : Fin 2) (d : Fin 32) : sProp 𝕄 :=
  iprop(cred (tallyAt (sendCell c h d) () N)
    ∗ (atPos ER (sendCell c h d) 1 ∅ 0 ∗ reached ER (sendCell c h d) 1 ∗ partPts c (fwd c d) h fullShare (partC m c))
    ∗ (atPos ER (recv2Cell c h d) 1 ∅ 0 ∗ reached ER (recv2Cell c h d) 1 ∗ resPts c (bwd c d) h fullShare (resC m)
        ∗ atPos ER (recv1Cell c h d) 1 ∅ 0 ∗ reached ER (recv1Cell c h d) 1))

theorem D3_eq (c : Dev nD) (h : Fin 2) (d : Fin 32) : D3 m c h d
    = iprop(cred (tallyAt (sendCell c h d) () N)
      ∗ (atPos ER (sendCell c h d) 1 ∅ 0 ∗ reached ER (sendCell c h d) 1 ∗ partPts c (fwd c d) h fullShare (partC m c))
      ∗ (atPos ER (recv2Cell c h d) 1 ∅ 0 ∗ reached ER (recv2Cell c h d) 1 ∗ resPts c (bwd c d) h fullShare (resC m)
          ∗ atPos ER (recv1Cell c h d) 1 ∅ 0 ∗ reached ER (recv1Cell c h d) 1)) := rfl

def st4 (c : Dev nD) (h : Fin 2) (S : Finset (Fin 32)) : sProp 𝕄 :=
  iprop(bigSep S (C3 m c h) ∗ bigSep (others \ S) (D3 m c h))

theorem st4_init (c : Dev nD) (h : Fin 2) : (bigSep others (C3 m c h) : sProp 𝕄) ⊢ st4 m c h others := by
  unfold st4
  rw [Finset.sdiff_self, bigSep_empty]
  iintro H
  isplitl
  · iexact H
  · iempintro

theorem st4_done (c : Dev nD) (h : Fin 2) (S : Finset (Fin 32)) (hS : S = ∅) : st4 m c h S ⊢ bigSep others (D3 m c h) := by
  subst hS
  unfold st4
  rw [bigSep_empty, Finset.sdiff_empty]
  iintro ⟨-, H⟩
  iexact H

theorem D3_insert (c : Dev nD) (h : Fin 2) (S : Finset (Fin 32)) (d : Fin 32) (hdS : d ∈ S) (hS : S ⊆ others) :
    iprop(D3 m c h d ∗ bigSep (others \ S) (D3 m c h)) ⊢ bigSep (others \ S.erase d) (D3 m c h) := by
  rw [sdiff_erase' S d hdS hS, bigSep_insert (fun hm => (Finset.mem_sdiff.mp hm).2 hdS)]
  exact .rfl

/-- One wait for a second-round copy to land; the device owes nothing by then. -/
theorem wait2 (c : Dev nD) (h : Fin 2) (d : Fin 32) (hd : d ≠ 0) (S : Finset (Fin 32)) (hdS : d ∈ S) (hS : S ⊆ others)
    (K : CellIx → ℕ) (W : Waits sig Unit)
    {α : Type} (k : PUnit → Prog (TpuEff nD τ sig (Elt F) Λ₀ .tc) α) (Q : α → sProp 𝕄)
    (src dst : Memref sig .tc .vmem S16x256 .bf16) (hsrc) (hdst) (hcr : dst.view.dmaCredit = N) :
    iprop(invs m K ∗ st4 m c h S ∗ owes (c : Thread nD τ) 0 W
        ∗ ((st4 m c h (S.erase d) ∗ owes (c : Thread nD τ) 0 (insert (SemLoc.dma (semAt cc0_scratch5 h d), ()) W))
            -∗ wp frame (wpE (defs₀ (F := F)) Variants.none c none) Set.univ (k ⟨⟩) Q))
      ⊢ wp frame (wpE (defs₀ (F := F)) Variants.none c none) Set.univ (.op (.waitDma2 (semAt cc0_scratch5 h d) src dst hsrc hdst) k) Q := by
  unfold st4
  iintro ⟨#HI, ⟨Htodo, Hdone⟩, HO, Hk⟩
  ihave HX := (erase_step S d hdS (C3 m c h)) $$ Htodo
  icases HX with ⟨Hhd, Htodo⟩
  ihave HY := (Entails.of_eq (C3_eq m c h d)) $$ Hhd
  icases HY with ⟨HcS, HSnd, HaR2, Hc2, HR1⟩
  iapply (wait_recv2_step m c h d hd (K (c, some (2, h, d))) 0 W k Q src dst hsrc hdst hcr) $$ [Hc2 HO HaR2]
  · isplitr; · iapply (invRecv2 m K c h d); iexact HI
    isplitl [Hc2]; · iexact Hc2
    isplitl [HO]; · iexact HO
    isplitr; · rw [MayWait_zero]; iempintro
    iexact HaR2
  iintro ⟨HO, HaR2, #Hr2, Hpay⟩
  iapply Hk
  isplitr [HO]
  · isplitl [Htodo]; · iexact Htodo
    iapply (D3_insert m c h S d hdS hS)
    isplitr [Hdone]
    · iapply (Entails.of_eq (D3_eq m c h d).symm)
      isplitl [HcS]; · iexact HcS
      isplitl [HSnd]; · iexact HSnd
      isplitl [HaR2]; · iexact HaR2
      isplitr; · iexact Hr2
      isplitl [Hpay]; · iexact Hpay
      iexact HR1
    · iexact Hdone
  · iexact HO

/-! ## The second-round copies have been read out -/

/-- The cells of distance d once the device's own second-round copy has been read out: its share of the own result
    slot is back. -/
def E3 (c : Dev nD) (h : Fin 2) (d : Fin 32) : sProp 𝕄 :=
  iprop((atPos ER (sendCell c h d) 2 ∅ 0 ∗ resPts c c h (sendShr d.val) (resC m) ∗ partPts c (fwd c d) h fullShare (partC m c))
    ∗ (atPos ER (recv2Cell c h d) 1 ∅ 0 ∗ reached ER (recv2Cell c h d) 1 ∗ resPts c (bwd c d) h fullShare (resC m)
        ∗ atPos ER (recv1Cell c h d) 1 ∅ 0 ∗ reached ER (recv1Cell c h d) 1))

theorem E3_eq (c : Dev nD) (h : Fin 2) (d : Fin 32) : E3 m c h d
    = iprop((atPos ER (sendCell c h d) 2 ∅ 0 ∗ resPts c c h (sendShr d.val) (resC m) ∗ partPts c (fwd c d) h fullShare (partC m c))
      ∗ (atPos ER (recv2Cell c h d) 1 ∅ 0 ∗ reached ER (recv2Cell c h d) 1 ∗ resPts c (bwd c d) h fullShare (resC m)
          ∗ atPos ER (recv1Cell c h d) 1 ∅ 0 ∗ reached ER (recv1Cell c h d) 1)) := rfl

def st5 (c : Dev nD) (h : Fin 2) (S : Finset (Fin 32)) : sProp 𝕄 :=
  iprop(bigSep S (D3 m c h) ∗ bigSep (others \ S) (E3 m c h))

theorem st5_init (c : Dev nD) (h : Fin 2) : (bigSep others (D3 m c h) : sProp 𝕄) ⊢ st5 m c h others := by
  unfold st5
  rw [Finset.sdiff_self, bigSep_empty]
  iintro H
  isplitl
  · iexact H
  · iempintro

theorem st5_done (c : Dev nD) (h : Fin 2) (S : Finset (Fin 32)) (hS : S = ∅) : st5 m c h S ⊢ bigSep others (E3 m c h) := by
  subst hS
  unfold st5
  rw [bigSep_empty, Finset.sdiff_empty]
  iintro ⟨-, H⟩
  iexact H

theorem E3_insert (c : Dev nD) (h : Fin 2) (S : Finset (Fin 32)) (d : Fin 32) (hdS : d ∈ S) (hS : S ⊆ others) :
    iprop(E3 m c h d ∗ bigSep (others \ S) (E3 m c h)) ⊢ bigSep (others \ S.erase d) (E3 m c h) := by
  rw [sdiff_erase' S d hdS hS, bigSep_insert (fun hm => (Finset.mem_sdiff.mp hm).2 hdS)]
  exact .rfl

/-- One wait for a second-round copy to have been read out; the device owes nothing by then. -/
theorem wait3 (c : Dev nD) (h : Fin 2) (d : Fin 32) (hd : d ≠ 0) (S : Finset (Fin 32)) (hdS : d ∈ S) (hS : S ⊆ others)
    (K : CellIx → ℕ) (W : Waits sig Unit)
    {α : Type} (k : PUnit → Prog (TpuEff nD τ sig (Elt F) Λ₀ .tc) α) (Q : α → sProp 𝕄)
    (src dst : Memref sig .tc .vmem S16x256 .bf16) (hsrc) (hdst) (hcr : dst.view.dmaCredit = N) :
    iprop(invs m K ∗ st5 m c h S ∗ owes (c : Thread nD τ) 0 W
        ∗ ((st5 m c h (S.erase d) ∗ owes (c : Thread nD τ) 0 (insert (SemLoc.dma (semAt cc0_scratch3 h d), ()) W))
            -∗ wp frame (wpE (defs₀ (F := F)) Variants.none c none) Set.univ (k ⟨⟩) Q))
      ⊢ wp frame (wpE (defs₀ (F := F)) Variants.none c none) Set.univ (.op (.waitDma2 (semAt cc0_scratch3 h d) src dst hsrc hdst) k) Q := by
  unfold st5
  iintro ⟨#HI, ⟨Htodo, Hdone⟩, HO, Hk⟩
  ihave HX := (erase_step S d hdS (D3 m c h)) $$ Htodo
  icases HX with ⟨Hhd, Htodo⟩
  ihave HY := (Entails.of_eq (D3_eq m c h d)) $$ Hhd
  icases HY with ⟨HcS, ⟨HaS, -, HP⟩, HRcv⟩
  iapply (wait_send1_step m c h d hd (K (c, some (0, h, d))) 0 W k Q src dst hsrc hdst hcr) $$ [HcS HO HaS]
  · isplitr; · iapply (invSend m K c h d); iexact HI
    isplitl [HcS]; · iexact HcS
    isplitl [HO]; · iexact HO
    isplitr; · rw [MayWait_zero]; iempintro
    iexact HaS
  iintro ⟨HO, HaS, -, Hpay⟩
  iapply Hk
  isplitr [HO]
  · isplitl [Htodo]; · iexact Htodo
    iapply (E3_insert m c h S d hdS hS)
    isplitr [Hdone]
    · iapply (Entails.of_eq (E3_eq m c h d).symm)
      isplitl [HaS Hpay HP]
      · isplitl [HaS]; · iexact HaS
        isplitl [Hpay]; · iexact Hpay
        iexact HP
      · iexact HRcv
    · iexact Hdone
  · iexact HO

/-! ## From the last family to the ending's premises -/

/-- Column half h at the very end: the cells' last positions, the product slots sent, the own result slot's returned
    shares and the landed result slots, each as one family over the distances. -/
theorem regroupE (c : Dev nD) (h : Fin 2) :
    (bigSep others (E3 m c h) : sProp 𝕄)
      ⊢ iprop((bigSep others fun d => iprop(atPos ER (sendCell c h d) 2 ∅ 0 ∗ atPos ER (recv1Cell c h d) 1 ∅ 0 ∗ atPos ER (recv2Cell c h d) 1 ∅ 0))
          ∗ (bigSep others fun d => partPts c (fwd c d) h fullShare (partC m c))
          ∗ (bigSep others fun e => resPts c c h (sendShr e.val) (resC m))
          ∗ (bigSep others fun d => resPts c (bwd c d) h fullShare (resC m))) := by
  unfold E3
  simp only [bigSep_sep']
  iintro ⟨⟨HaS, Hsh, HP⟩, HaR2, -, HL, HaR1, -⟩
  isplitl [HaS HaR1 HaR2]
  · isplitl [HaS]; · iexact HaS
    isplitl [HaR1]; · iexact HaR1
    iexact HaR2
  isplitl [HP]; · iexact HP
  isplitl [Hsh]; · iexact Hsh
  iexact HL

/-- The ending from the last families and the loose parts. -/
theorem ending (K : CellIx → ℕ) (c : Dev nD) :
    iprop(invs m K ∗ zeroSems c ∗ bigSep others (E3 m c 0) ∗ bigSep others (E3 m c 1)
      ∗ resPts c c 0 (remShr 31) (resC m) ∗ resPts c c 1 (remShr 31) (resC m)
      ∗ (((c : Thread nD τ).loc cc0_scratch1) ↦[(cols 0).set]{fullShare} (gathC m c))
      ∗ (((c : Thread nD τ).loc cc0_scratch1) ↦[(cols 1).set]{fullShare} (gathC m c))
      ∗ partPts c c 0 fullShare (partC m c) ∗ partPts c c 1 fullShare (partC m c))
    ⊢ iprop(|={Set.univ}=> Φ₁ c) := by
  iintro ⟨#HI, Hz, HC0, HC1, Hrem0, Hrem1, Hcols0, Hcols1, HP00, HP01⟩
  -- the ending: the last families regrouped, every cell closed, the three scratch buffers whole again
  ihave HE0 := (regroupE m c 0) $$ HC0
  icases HE0 with ⟨Hpos0, HPf0, Hsh0, Hld0⟩
  ihave HE1 := (regroupE m c 1) $$ HC1
  icases HE1 with ⟨Hpos1, HPf1, Hsh1, Hld1⟩
  iapply (finish2 m K c (gathC m c) (gathC m c))
  isplitr; · iexact HI
  isplitl [Hz]; · iexact Hz
  isplitl [Hpos0]; · iexact Hpos0
  isplitl [Hpos1]; · iexact Hpos1
  isplitl [HP00 HP01 HPf0 HPf1]
  · isplitl [HP00 HP01]
    · isplitl [HP00]; · iexact HP00
      iexact HP01
    isplitl [HPf0]; · iexact HPf0
    iexact HPf1
  isplitl [Hcols0 Hcols1]
  · isplitl [Hcols0]; · iexact Hcols0
    iexact Hcols1
  isplitl [Hrem0 Hsh0 Hld0]
  · isplitl [Hrem0 Hsh0]
    · isplitl [Hrem0]; · iexact Hrem0
      iexact Hsh0
    iexact Hld0
  isplitl [Hrem1 Hsh1]
  · isplitl [Hrem1]; · iexact Hrem1
    iexact Hsh1
  iexact Hld1

/-! ## The last load, from the families as they stand after the second receive waits -/

/-- The cells of distance d after the second receive wait, without the landed result slot. -/
def D3r (c : Dev nD) (h : Fin 2) (d : Fin 32) : sProp 𝕄 :=
  iprop(cred (tallyAt (sendCell c h d) () N)
    ∗ (atPos ER (sendCell c h d) 1 ∅ 0 ∗ reached ER (sendCell c h d) 1 ∗ partPts c (fwd c d) h fullShare (partC m c))
    ∗ (atPos ER (recv2Cell c h d) 1 ∅ 0 ∗ reached ER (recv2Cell c h d) 1
        ∗ atPos ER (recv1Cell c h d) 1 ∅ 0 ∗ reached ER (recv1Cell c h d) 1))

/-- The landed result slot taken out of the family, and put back. -/
theorem D3_take (c : Dev nD) (h : Fin 2) (d : Fin 32) :
    D3 m c h d = iprop(resPts c (bwd c d) h fullShare (resC m) ∗ D3r m c h d) := by
  have h1 : D3 m c h d ⊢ iprop(resPts c (bwd c d) h fullShare (resC m) ∗ D3r m c h d) := by
    unfold D3 D3r
    iintro ⟨HcS, HSnd, HaR2, Hr2, HL, HR1⟩
    isplitl [HL]; · iexact HL
    isplitl [HcS]; · iexact HcS
    isplitl [HSnd]; · iexact HSnd
    isplitl [HaR2]; · iexact HaR2
    isplitl [Hr2]; · iexact Hr2
    iexact HR1
  have h2 : iprop(resPts c (bwd c d) h fullShare (resC m) ∗ D3r m c h d) ⊢ D3 m c h d := by
    unfold D3 D3r
    iintro ⟨HL, HcS, HSnd, HaR2, Hr2, HR1⟩
    isplitl [HcS]; · iexact HcS
    isplitl [HSnd]; · iexact HSnd
    isplitl [HaR2]; · iexact HaR2
    isplitl [Hr2]; · iexact Hr2
    isplitl [HL]; · iexact HL
    iexact HR1
  exact BI.equiv_iff.mp ⟨h1, h2⟩

theorem D3_family (c : Dev nD) (h : Fin 2) :
    (bigSep others (D3 m c h) : sProp 𝕄)
      = iprop((bigSep others fun d => resPts c (bwd c d) h fullShare (resC m)) ∗ bigSep others (D3r m c h)) :=
  Eq.trans (bigSep_congr fun d _ => D3_take m c h d) (bigSep_sep' _ _ _)

/-- What the device holds of the result buffer and of its cells at the last load. -/
def atLoad (c : Dev nD) : sProp 𝕄 :=
  iprop(bigSep others (D3 m c 0) ∗ bigSep others (D3 m c 1)
    ∗ resPts c c 0 (remShr 31) (resC m) ∗ resPts c c 1 (remShr 31) (resC m))

theorem atLoad_eq (c : Dev nD) : atLoad m c = iprop(bigSep others (D3 m c 0) ∗ bigSep others (D3 m c 1)
    ∗ resPts c c 0 (remShr 31) (resC m) ∗ resPts c c 1 (remShr 31) (resC m)) := rfl

/-- The families and the own slot's remaining share: the result buffer as the last load wants it, and the rest. -/
theorem atLoad_split (c : Dev nD) :
    atLoad m c = iprop(resAll m c ∗ bigSep others (D3r m c 0) ∗ bigSep others (D3r m c 1)) := by
  have h1 : atLoad m c ⊢ iprop(resAll m c ∗ bigSep others (D3r m c 0) ∗ bigSep others (D3r m c 1)) := by
    rw [atLoad_eq, D3_family, D3_family, resAll_two]
    iintro ⟨⟨HL0, HD0⟩, ⟨HL1, HD1⟩, Hr0, Hr1⟩
    isplitl [HL0 HL1 Hr0 Hr1]
    · isplitl [HL0 Hr0]
      · isplitl [Hr0]; · iexact Hr0
        iexact HL0
      · isplitl [Hr1]; · iexact Hr1
        iexact HL1
    isplitl [HD0]; · iexact HD0
    iexact HD1
  have h2 : iprop(resAll m c ∗ bigSep others (D3r m c 0) ∗ bigSep others (D3r m c 1)) ⊢ atLoad m c := by
    rw [atLoad_eq, D3_family, D3_family, resAll_two]
    iintro ⟨⟨⟨Hr0, HL0⟩, Hr1, HL1⟩, HD0, HD1⟩
    isplitl [HL0 HD0]
    · isplitl [HL0]; · iexact HL0
      iexact HD0
    isplitl [HL1 HD1]
    · isplitl [HL1]; · iexact HL1
      iexact HD1
    isplitl [Hr0]; · iexact Hr0
    iexact Hr1
  exact BI.equiv_iff.mp ⟨h1, h2⟩

/-- The last load with the families as they stand: it reads the result and gives everything back. -/
theorem load_all (c : Dev nD) (off : Fin 3 → ℕ) (hoff : off = ![0, 0, 0])
    (inb : ∀ a, off a + S32x16x512.size a ≤ S32x16x512.size a)
    (hl : (resM : Memref sig .tc .vmem S32x16x512 .bf16).view.LoadsAt (Rect.unit (s := S32x16x512) off S32x16x512.size inb).toLoadRect)
    {α : Type} (k : Vec F S32x16x512 .bf16 → Prog (TpuEff nD τ sig (Elt F) Λ₀ .tc) α) (Q : α → sProp 𝕄) :
    iprop(atLoad m c ∗ (atLoad m c -∗ wp frame (wpE (defs₀ (F := F)) Variants.none c none) Set.univ (k (resC m)) Q))
    ⊢ wp frame (wpE (defs₀ (F := F)) Variants.none c none) Set.univ
        (.op (.load (resM : Memref sig .tc .vmem S32x16x512 .bf16) (Rect.unit (s := S32x16x512) off S32x16x512.size inb).toLoadRect hl) k) Q := by
  rw [atLoad_split]
  iintro ⟨⟨HA, HD0, HD1⟩, Hk⟩
  iapply (final_load m c off hoff inb hl k Q)
  isplitl [HA]; · iexact HA
  iintro HA
  iapply Hk
  isplitl [HA]; · iexact HA
  isplitl [HD0]; · iexact HD0
  iexact HD1

set_option maxHeartbeats 4000000 in
theorem body_run (c : Dev nD) :
    bodyPre m c ⊢ wp frame (wpE (defs₀ (F := F)) 𝒱₀ c none) Set.univ
      (cc0_body (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) (Memref.whole cc0_scratch1) (Memref.isWhole_whole _) (Memref.whole cc0_scratch2) (Memref.isWhole_whole _)
      cc0_scratch3 cc0_scratch4 cc0_scratch5) (fun _ => bodyPost m c) := by
  unfold bodyPre Φ₀X Φ₀ start scratch ghost credits tokens positions
  iintro ⟨⟨⟨⟨⟨%K, #HI, ⟨HatB, HatD⟩, #Hro, ⟨Htb, Htd⟩⟩, ⟨HcB, HcR⟩, #Hlev⟩, ⟨%s0, Hs0⟩, ⟨%s1, Hs1⟩, ⟨%s2, Hs2⟩⟩, Hz⟩, HO, ⟨%d0, %f0, %e0, H0⟩, ⟨%d1, %f1, %e1, H1⟩, ⟨%d2, %f2, %e2, H2⟩⟩
  rw [before0] at e0
  rw [before1] at e1
  subst e0 e1
  unfold Dat.owesAt Pipeline.owesWithin
  icases HO with ⟨%W, %hW, HO⟩
  rw [show (datsX m 0 c).owed t0_0.castSucc = O₀ c from rfl]
  simp only [cc0_body_eq_skeleton]
  unfold cc0_body_skel
  simp only [k0_part180_eq_skeleton]
  unfold k0_part180_skel
  simp only [wp_bind]
  iapply (entry_any m c K s0 s1 s2 f2 W _)
  isplitl [H0]; · iexact H0
  isplitl [H1]; · iexact H1
  isplitl [H2]; · iexact H2
  isplitl [Hs0]; · iexact Hs0
  isplitl [Hs1]; · iexact Hs1
  isplitl [Hs2]; · iexact Hs2
  isplitr; · iexact HI
  isplitl [Htb]; · iexact Htb
  isplitr; · iapply (reachedRecv_of_own (F := F) c); iexact Hro
  isplitl [HatB]; · iexact HatB
  isplitl [HcB]; · iexact HcB
  isplitr; · iexact Hlev
  isplitl [HO]; · iexact HO
  iintro %v %hv Hpost
  obtain ⟨vd0, v2, v30, v31⟩ := v
  have hv' : c = vd0 := hv.symm
  subst hv'
  unfold entryPost
  icases Hpost with ⟨H0, H1, H2, Hs0, ⟨%g1, %hg1, HG0⟩, HR0, Htake, HatB, HO⟩
  ihave HO := (Entails.of_eq (congrArg (fun O => owes (c : Thread nD τ) O (insert (SemLoc.reg barS, ()) W)) (owedRem1_all c))) $$ HO
  ihave Hpart := (part_split (F := F) c (partC m c)) $$ Hs0
  icases Hpart with ⟨⟨HP00, HP01⟩, HPd0, HPd1⟩
  unfold take
  simp only [bigSep_univ_two]
  icases Htake with ⟨Htk0, Htk1⟩
  icases Htd with ⟨Htd0, Htd1⟩
  icases HatD with ⟨Hat0, Hat1⟩
  icases HcR with ⟨HcR0, HcR1⟩
  ihave Hst0 := (st1_init m c 0) $$ [HPd0 Htk0 Htd0]
  · isplitl [HPd0]; · iexact HPd0
    isplitl [Htk0] <;> iassumption
  ihave Hst1 := (st1_init m c 1) $$ [HPd1 Htk1 Htd1]
  · isplitl [HPd1]; · iexact HPd1
    isplitl [Htk1] <;> iassumption
  -- first-round copy: column half 0, distance 1
  sl_exec
  iapply (copy1 m c 0 1 (by decide) others (by decide) (by decide) pairs (by decide) K (insert (SemLoc.reg barS, ()) W) _ _ _ (by rw [k0_off2_eq_1]; rfl) _ _ _ (k0_dev33_fwd c) _ _ _ _)
  isplitr; · iexact HI
  isplitr; · iexact Hro
  isplitl [Hst0]; · iexact Hst0
  isplitl [HO]; · iexact HO
  iintro ⟨Hst0, HO⟩
  -- first-round copy: column half 0, distance 2
  sl_exec
  iapply (copy1 m c 0 2 (by decide) (others.erase 1) (by decide) (by decide) (pairs.erase (0, 1)) (by decide) K (insert (SemLoc.reg barS, ()) W) _ _ _ (by rw [k0_off2_eq_2]; rfl) _ _ _ (k0_dev34_fwd c) _ _ _ _)
  isplitr; · iexact HI
  isplitr; · iexact Hro
  isplitl [Hst0]; · iexact Hst0
  isplitl [HO]; · iexact HO
  iintro ⟨Hst0, HO⟩
  -- first-round copy: column half 0, distance 3
  sl_exec
  iapply (copy1 m c 0 3 (by decide) ((others.erase 1).erase 2) (by decide) (by decide) ((pairs.erase (0, 1)).erase (0, 2)) (by decide) K (insert (SemLoc.reg barS, ()) W) _ _ _ (by rw [k0_off2_eq_3]; rfl) _ _ _ (k0_dev35_fwd c) _ _ _ _)
  isplitr; · iexact HI
  isplitr; · iexact Hro
  isplitl [Hst0]; · iexact Hst0
  isplitl [HO]; · iexact HO
  iintro ⟨Hst0, HO⟩
  -- first-round copy: column half 0, distance 4
  sl_exec
  iapply (copy1 m c 0 4 (by decide) (((others.erase 1).erase 2).erase 3) (by decide) (by decide) (((pairs.erase (0, 1)).erase (0, 2)).erase (0, 3)) (by decide) K (insert (SemLoc.reg barS, ()) W) _ _ _ (by rw [k0_off2_eq_4]; rfl) _ _ _ (k0_dev36_fwd c) _ _ _ _)
  isplitr; · iexact HI
  isplitr; · iexact Hro
  isplitl [Hst0]; · iexact Hst0
  isplitl [HO]; · iexact HO
  iintro ⟨Hst0, HO⟩
  -- first-round copy: column half 0, distance 5
  sl_exec
  iapply (copy1 m c 0 5 (by decide) ((((others.erase 1).erase 2).erase 3).erase 4) (by decide) (by decide) ((((pairs.erase (0, 1)).erase (0, 2)).erase (0, 3)).erase (0, 4)) (by decide) K (insert (SemLoc.reg barS, ()) W) _ _ _ (by rw [k0_off2_eq_5]; rfl) _ _ _ (k0_dev37_fwd c) _ _ _ _)
  isplitr; · iexact HI
  isplitr; · iexact Hro
  isplitl [Hst0]; · iexact Hst0
  isplitl [HO]; · iexact HO
  iintro ⟨Hst0, HO⟩
  -- first-round copy: column half 0, distance 6
  sl_exec
  iapply (copy1 m c 0 6 (by decide) (((((others.erase 1).erase 2).erase 3).erase 4).erase 5) (by decide) (by decide) (((((pairs.erase (0, 1)).erase (0, 2)).erase (0, 3)).erase (0, 4)).erase (0, 5)) (by decide) K (insert (SemLoc.reg barS, ()) W) _ _ _ (by rw [k0_off2_eq_6]; rfl) _ _ _ (k0_dev38_fwd c) _ _ _ _)
  isplitr; · iexact HI
  isplitr; · iexact Hro
  isplitl [Hst0]; · iexact Hst0
  isplitl [HO]; · iexact HO
  iintro ⟨Hst0, HO⟩
  -- first-round copy: column half 0, distance 7
  sl_exec
  iapply (copy1 m c 0 7 (by decide) ((((((others.erase 1).erase 2).erase 3).erase 4).erase 5).erase 6) (by decide) (by decide) ((((((pairs.erase (0, 1)).erase (0, 2)).erase (0, 3)).erase (0, 4)).erase (0, 5)).erase (0, 6)) (by decide) K (insert (SemLoc.reg barS, ()) W) _ _ _ (by rw [k0_off2_eq_7]; rfl) _ _ _ (k0_dev39_fwd c) _ _ _ _)
  isplitr; · iexact HI
  isplitr; · iexact Hro
  isplitl [Hst0]; · iexact Hst0
  isplitl [HO]; · iexact HO
  iintro ⟨Hst0, HO⟩
  -- first-round copy: column half 0, distance 8
  sl_exec
  iapply (copy1 m c 0 8 (by decide) (((((((others.erase 1).erase 2).erase 3).erase 4).erase 5).erase 6).erase 7) (by decide) (by decide) (((((((pairs.erase (0, 1)).erase (0, 2)).erase (0, 3)).erase (0, 4)).erase (0, 5)).erase (0, 6)).erase (0, 7)) (by decide) K (insert (SemLoc.reg barS, ()) W) _ _ _ (by rw [k0_off2_eq_8]; rfl) _ _ _ (k0_dev40_fwd c) _ _ _ _)
  isplitr; · iexact HI
  isplitr; · iexact Hro
  isplitl [Hst0]; · iexact Hst0
  isplitl [HO]; · iexact HO
  iintro ⟨Hst0, HO⟩
  -- first-round copy: column half 0, distance 9
  sl_exec
  iapply (copy1 m c 0 9 (by decide) ((((((((others.erase 1).erase 2).erase 3).erase 4).erase 5).erase 6).erase 7).erase 8) (by decide) (by decide) ((((((((pairs.erase (0, 1)).erase (0, 2)).erase (0, 3)).erase (0, 4)).erase (0, 5)).erase (0, 6)).erase (0, 7)).erase (0, 8)) (by decide) K (insert (SemLoc.reg barS, ()) W) _ _ _ (by rw [k0_off2_eq_9]; rfl) _ _ _ (k0_dev41_fwd c) _ _ _ _)
  isplitr; · iexact HI
  isplitr; · iexact Hro
  isplitl [Hst0]; · iexact Hst0
  isplitl [HO]; · iexact HO
  iintro ⟨Hst0, HO⟩
  -- first-round copy: column half 0, distance 10
  sl_exec
  iapply (copy1 m c 0 10 (by decide) (((((((((others.erase 1).erase 2).erase 3).erase 4).erase 5).erase 6).erase 7).erase 8).erase 9) (by decide) (by decide) (((((((((pairs.erase (0, 1)).erase (0, 2)).erase (0, 3)).erase (0, 4)).erase (0, 5)).erase (0, 6)).erase (0, 7)).erase (0, 8)).erase (0, 9)) (by decide) K (insert (SemLoc.reg barS, ()) W) _ _ _ (by rw [k0_off2_eq_10]; rfl) _ _ _ (k0_dev42_fwd c) _ _ _ _)
  isplitr; · iexact HI
  isplitr; · iexact Hro
  isplitl [Hst0]; · iexact Hst0
  isplitl [HO]; · iexact HO
  iintro ⟨Hst0, HO⟩
  -- first-round copy: column half 0, distance 11
  sl_exec
  iapply (copy1 m c 0 11 (by decide) ((((((((((others.erase 1).erase 2).erase 3).erase 4).erase 5).erase 6).erase 7).erase 8).erase 9).erase 10) (by decide) (by decide) ((((((((((pairs.erase (0, 1)).erase (0, 2)).erase (0, 3)).erase (0, 4)).erase (0, 5)).erase (0, 6)).erase (0, 7)).erase (0, 8)).erase (0, 9)).erase (0, 10)) (by decide) K (insert (SemLoc.reg barS, ()) W) _ _ _ (by rw [k0_off2_eq_11]; rfl) _ _ _ (k0_dev43_fwd c) _ _ _ _)
  isplitr; · iexact HI
  isplitr; · iexact Hro
  isplitl [Hst0]; · iexact Hst0
  isplitl [HO]; · iexact HO
  iintro ⟨Hst0, HO⟩
  -- first-round copy: column half 0, distance 12
  sl_exec
  iapply (copy1 m c 0 12 (by decide) (((((((((((others.erase 1).erase 2).erase 3).erase 4).erase 5).erase 6).erase 7).erase 8).erase 9).erase 10).erase 11) (by decide) (by decide) (((((((((((pairs.erase (0, 1)).erase (0, 2)).erase (0, 3)).erase (0, 4)).erase (0, 5)).erase (0, 6)).erase (0, 7)).erase (0, 8)).erase (0, 9)).erase (0, 10)).erase (0, 11)) (by decide) K (insert (SemLoc.reg barS, ()) W) _ _ _ (by rw [k0_off2_eq_12]; rfl) _ _ _ (k0_dev44_fwd c) _ _ _ _)
  isplitr; · iexact HI
  isplitr; · iexact Hro
  isplitl [Hst0]; · iexact Hst0
  isplitl [HO]; · iexact HO
  iintro ⟨Hst0, HO⟩
  -- first-round copy: column half 0, distance 13
  sl_exec
  iapply (copy1 m c 0 13 (by decide) ((((((((((((others.erase 1).erase 2).erase 3).erase 4).erase 5).erase 6).erase 7).erase 8).erase 9).erase 10).erase 11).erase 12) (by decide) (by decide) ((((((((((((pairs.erase (0, 1)).erase (0, 2)).erase (0, 3)).erase (0, 4)).erase (0, 5)).erase (0, 6)).erase (0, 7)).erase (0, 8)).erase (0, 9)).erase (0, 10)).erase (0, 11)).erase (0, 12)) (by decide) K (insert (SemLoc.reg barS, ()) W) _ _ _ (by rw [k0_off2_eq_13]; rfl) _ _ _ (k0_dev45_fwd c) _ _ _ _)
  isplitr; · iexact HI
  isplitr; · iexact Hro
  isplitl [Hst0]; · iexact Hst0
  isplitl [HO]; · iexact HO
  iintro ⟨Hst0, HO⟩
  -- first-round copy: column half 0, distance 14
  sl_exec
  iapply (copy1 m c 0 14 (by decide) (((((((((((((others.erase 1).erase 2).erase 3).erase 4).erase 5).erase 6).erase 7).erase 8).erase 9).erase 10).erase 11).erase 12).erase 13) (by decide) (by decide) (((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)) (by decide) K (insert (SemLoc.reg barS, ()) W) _ _ _ (by rw [k0_off2_eq_14]; rfl) _ _ _ (k0_dev46_fwd c) _ _ _ _)
  isplitr; · iexact HI
  isplitr; · iexact Hro
  isplitl [Hst0]; · iexact Hst0
  isplitl [HO]; · iexact HO
  iintro ⟨Hst0, HO⟩
  -- first-round copy: column half 0, distance 15
  sl_exec
  iapply (copy1 m c 0 15 (by decide) ((((((((((((((others.erase 1).erase 2).erase 3).erase 4).erase 5).erase 6).erase 7).erase 8).erase 9).erase 10).erase 11).erase 12).erase 13).erase 14) (by decide) (by decide) ((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)) (by decide) K (insert (SemLoc.reg barS, ()) W) _ _ _ (by rw [k0_off2_eq_15]; rfl) _ _ _ (k0_dev47_fwd c) _ _ _ _)
  isplitr; · iexact HI
  isplitr; · iexact Hro
  isplitl [Hst0]; · iexact Hst0
  isplitl [HO]; · iexact HO
  iintro ⟨Hst0, HO⟩
  -- first-round copy: column half 0, distance 16
  sl_exec
  iapply (copy1 m c 0 16 (by decide) (((((((((((((((others.erase 1).erase 2).erase 3).erase 4).erase 5).erase 6).erase 7).erase 8).erase 9).erase 10).erase 11).erase 12).erase 13).erase 14).erase 15) (by decide) (by decide) (((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)) (by decide) K (insert (SemLoc.reg barS, ()) W) _ _ _ (by rw [k0_off2_eq_16]; rfl) _ _ _ (k0_dev48_fwd c) _ _ _ _)
  isplitr; · iexact HI
  isplitr; · iexact Hro
  isplitl [Hst0]; · iexact Hst0
  isplitl [HO]; · iexact HO
  iintro ⟨Hst0, HO⟩
  -- first-round copy: column half 0, distance 17
  sl_exec
  iapply (copy1 m c 0 17 (by decide) ((((((((((((((((others.erase 1).erase 2).erase 3).erase 4).erase 5).erase 6).erase 7).erase 8).erase 9).erase 10).erase 11).erase 12).erase 13).erase 14).erase 15).erase 16) (by decide) (by decide) ((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)) (by decide) K (insert (SemLoc.reg barS, ()) W) _ _ _ (by rw [k0_off2_eq_17]; rfl) _ _ _ (k0_dev49_fwd c) _ _ _ _)
  isplitr; · iexact HI
  isplitr; · iexact Hro
  isplitl [Hst0]; · iexact Hst0
  isplitl [HO]; · iexact HO
  iintro ⟨Hst0, HO⟩
  -- first-round copy: column half 0, distance 18
  sl_exec
  iapply (copy1 m c 0 18 (by decide) (((((((((((((((((others.erase 1).erase 2).erase 3).erase 4).erase 5).erase 6).erase 7).erase 8).erase 9).erase 10).erase 11).erase 12).erase 13).erase 14).erase 15).erase 16).erase 17) (by decide) (by decide) (((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)) (by decide) K (insert (SemLoc.reg barS, ()) W) _ _ _ (by rw [k0_off2_eq_18]; rfl) _ _ _ (k0_dev50_fwd c) _ _ _ _)
  isplitr; · iexact HI
  isplitr; · iexact Hro
  isplitl [Hst0]; · iexact Hst0
  isplitl [HO]; · iexact HO
  iintro ⟨Hst0, HO⟩
  -- first-round copy: column half 0, distance 19
  sl_exec
  iapply (copy1 m c 0 19 (by decide) ((((((((((((((((((others.erase 1).erase 2).erase 3).erase 4).erase 5).erase 6).erase 7).erase 8).erase 9).erase 10).erase 11).erase 12).erase 13).erase 14).erase 15).erase 16).erase 17).erase 18) (by decide) (by decide) ((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)) (by decide) K (insert (SemLoc.reg barS, ()) W) _ _ _ (by rw [k0_off2_eq_19]; rfl) _ _ _ (k0_dev51_fwd c) _ _ _ _)
  isplitr; · iexact HI
  isplitr; · iexact Hro
  isplitl [Hst0]; · iexact Hst0
  isplitl [HO]; · iexact HO
  iintro ⟨Hst0, HO⟩
  -- first-round copy: column half 0, distance 20
  sl_exec
  iapply (copy1 m c 0 20 (by decide) (((((((((((((((((((others.erase 1).erase 2).erase 3).erase 4).erase 5).erase 6).erase 7).erase 8).erase 9).erase 10).erase 11).erase 12).erase 13).erase 14).erase 15).erase 16).erase 17).erase 18).erase 19) (by decide) (by decide) (((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)) (by decide) K (insert (SemLoc.reg barS, ()) W) _ _ _ (by rw [k0_off2_eq_20]; rfl) _ _ _ (k0_dev52_fwd c) _ _ _ _)
  isplitr; · iexact HI
  isplitr; · iexact Hro
  isplitl [Hst0]; · iexact Hst0
  isplitl [HO]; · iexact HO
  iintro ⟨Hst0, HO⟩
  -- first-round copy: column half 0, distance 21
  sl_exec
  iapply (copy1 m c 0 21 (by decide) ((((((((((((((((((((others.erase 1).erase 2).erase 3).erase 4).erase 5).erase 6).erase 7).erase 8).erase 9).erase 10).erase 11).erase 12).erase 13).erase 14).erase 15).erase 16).erase 17).erase 18).erase 19).erase 20) (by decide) (by decide) ((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)) (by decide) K (insert (SemLoc.reg barS, ()) W) _ _ _ (by rw [k0_off2_eq_21]; rfl) _ _ _ (k0_dev53_fwd c) _ _ _ _)
  isplitr; · iexact HI
  isplitr; · iexact Hro
  isplitl [Hst0]; · iexact Hst0
  isplitl [HO]; · iexact HO
  iintro ⟨Hst0, HO⟩
  -- first-round copy: column half 0, distance 22
  sl_exec
  iapply (copy1 m c 0 22 (by decide) (((((((((((((((((((((others.erase 1).erase 2).erase 3).erase 4).erase 5).erase 6).erase 7).erase 8).erase 9).erase 10).erase 11).erase 12).erase 13).erase 14).erase 15).erase 16).erase 17).erase 18).erase 19).erase 20).erase 21) (by decide) (by decide) (((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)) (by decide) K (insert (SemLoc.reg barS, ()) W) _ _ _ (by rw [k0_off2_eq_22]; rfl) _ _ _ (k0_dev54_fwd c) _ _ _ _)
  isplitr; · iexact HI
  isplitr; · iexact Hro
  isplitl [Hst0]; · iexact Hst0
  isplitl [HO]; · iexact HO
  iintro ⟨Hst0, HO⟩
  -- first-round copy: column half 0, distance 23
  sl_exec
  iapply (copy1 m c 0 23 (by decide) ((((((((((((((((((((((others.erase 1).erase 2).erase 3).erase 4).erase 5).erase 6).erase 7).erase 8).erase 9).erase 10).erase 11).erase 12).erase 13).erase 14).erase 15).erase 16).erase 17).erase 18).erase 19).erase 20).erase 21).erase 22) (by decide) (by decide) ((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)) (by decide) K (insert (SemLoc.reg barS, ()) W) _ _ _ (by rw [k0_off2_eq_23]; rfl) _ _ _ (k0_dev55_fwd c) _ _ _ _)
  isplitr; · iexact HI
  isplitr; · iexact Hro
  isplitl [Hst0]; · iexact Hst0
  isplitl [HO]; · iexact HO
  iintro ⟨Hst0, HO⟩
  -- first-round copy: column half 0, distance 24
  sl_exec
  iapply (copy1 m c 0 24 (by decide) (((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23) (by decide) (by decide) (((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)) (by decide) K (insert (SemLoc.reg barS, ()) W) _ _ _ (by rw [k0_off2_eq_24]; rfl) _ _ _ (k0_dev56_fwd c) _ _ _ _)
  isplitr; · iexact HI
  isplitr; · iexact Hro
  isplitl [Hst0]; · iexact Hst0
  isplitl [HO]; · iexact HO
  iintro ⟨Hst0, HO⟩
  -- first-round copy: column half 0, distance 25
  sl_exec
  iapply (copy1 m c 0 25 (by decide) ((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24) (by decide) (by decide) ((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)) (by decide) K (insert (SemLoc.reg barS, ()) W) _ _ _ (by rw [k0_off2_eq_25]; rfl) _ _ _ (k0_dev57_fwd c) _ _ _ _)
  isplitr; · iexact HI
  isplitr; · iexact Hro
  isplitl [Hst0]; · iexact Hst0
  isplitl [HO]; · iexact HO
  iintro ⟨Hst0, HO⟩
  -- first-round copy: column half 0, distance 26
  sl_exec
  iapply (copy1 m c 0 26 (by decide) (((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25) (by decide) (by decide) (((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)) (by decide) K (insert (SemLoc.reg barS, ()) W) _ _ _ (by rw [k0_off2_eq_26]; rfl) _ _ _ (k0_dev58_fwd c) _ _ _ _)
  isplitr; · iexact HI
  isplitr; · iexact Hro
  isplitl [Hst0]; · iexact Hst0
  isplitl [HO]; · iexact HO
  iintro ⟨Hst0, HO⟩
  -- first-round copy: column half 0, distance 27
  sl_exec
  iapply (copy1 m c 0 27 (by decide) ((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26) (by decide) (by decide) ((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)) (by decide) K (insert (SemLoc.reg barS, ()) W) _ _ _ (by rw [k0_off2_eq_27]; rfl) _ _ _ (k0_dev59_fwd c) _ _ _ _)
  isplitr; · iexact HI
  isplitr; · iexact Hro
  isplitl [Hst0]; · iexact Hst0
  isplitl [HO]; · iexact HO
  iintro ⟨Hst0, HO⟩
  -- first-round copy: column half 0, distance 28
  sl_exec
  iapply (copy1 m c 0 28 (by decide) (((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27) (by decide) (by decide) (((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)) (by decide) K (insert (SemLoc.reg barS, ()) W) _ _ _ (by rw [k0_off2_eq_28]; rfl) _ _ _ (k0_dev60_fwd c) _ _ _ _)
  isplitr; · iexact HI
  isplitr; · iexact Hro
  isplitl [Hst0]; · iexact Hst0
  isplitl [HO]; · iexact HO
  iintro ⟨Hst0, HO⟩
  -- first-round copy: column half 0, distance 29
  sl_exec
  iapply (copy1 m c 0 29 (by decide) ((((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27).erase 28) (by decide) (by decide) ((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)) (by decide) K (insert (SemLoc.reg barS, ()) W) _ _ _ (by rw [k0_off2_eq_29]; rfl) _ _ _ (k0_dev61_fwd c) _ _ _ _)
  isplitr; · iexact HI
  isplitr; · iexact Hro
  isplitl [Hst0]; · iexact Hst0
  isplitl [HO]; · iexact HO
  iintro ⟨Hst0, HO⟩
  -- first-round copy: column half 0, distance 30
  sl_exec
  iapply (copy1 m c 0 30 (by decide) (((((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27).erase 28).erase 29) (by decide) (by decide) (((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)) (by decide) K (insert (SemLoc.reg barS, ()) W) _ _ _ (by rw [k0_off2_eq_30]; rfl) _ _ _ (k0_dev62_fwd c) _ _ _ _)
  isplitr; · iexact HI
  isplitr; · iexact Hro
  isplitl [Hst0]; · iexact Hst0
  isplitl [HO]; · iexact HO
  iintro ⟨Hst0, HO⟩
  -- first-round copy: column half 0, distance 31
  sl_exec
  iapply (copy1 m c 0 31 (by decide) ((((((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27).erase 28).erase 29).erase 30) (by decide) (by decide) ((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)) (by decide) K (insert (SemLoc.reg barS, ()) W) _ _ _ (by rw [k0_off2_eq_31]; rfl) _ _ _ (k0_dev63_fwd c) _ _ _ _)
  isplitr; · iexact HI
  isplitr; · iexact Hro
  isplitl [Hst0]; · iexact Hst0
  isplitl [HO]; · iexact HO
  iintro ⟨Hst0, HO⟩
  -- first-round copy: column half 1, distance 1
  sl_exec
  iapply (copy1 m c 1 1 (by decide) others (by decide) (by decide) (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)) (by decide) K (insert (SemLoc.reg barS, ()) W) _ _ _ (by rw [k0_off3_eq_1]; rfl) _ _ _ (k0_dev64_fwd c) _ _ _ _)
  isplitr; · iexact HI
  isplitr; · iexact Hro
  isplitl [Hst1]; · iexact Hst1
  isplitl [HO]; · iexact HO
  iintro ⟨Hst1, HO⟩
  -- first-round copy: column half 1, distance 2
  sl_exec
  iapply (copy1 m c 1 2 (by decide) (others.erase 1) (by decide) (by decide) ((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)) (by decide) K (insert (SemLoc.reg barS, ()) W) _ _ _ (by rw [k0_off3_eq_2]; rfl) _ _ _ (k0_dev65_fwd c) _ _ _ _)
  isplitr; · iexact HI
  isplitr; · iexact Hro
  isplitl [Hst1]; · iexact Hst1
  isplitl [HO]; · iexact HO
  iintro ⟨Hst1, HO⟩
  -- first-round copy: column half 1, distance 3
  sl_exec
  iapply (copy1 m c 1 3 (by decide) ((others.erase 1).erase 2) (by decide) (by decide) (((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)) (by decide) K (insert (SemLoc.reg barS, ()) W) _ _ _ (by rw [k0_off3_eq_3]; rfl) _ _ _ (k0_dev66_fwd c) _ _ _ _)
  isplitr; · iexact HI
  isplitr; · iexact Hro
  isplitl [Hst1]; · iexact Hst1
  isplitl [HO]; · iexact HO
  iintro ⟨Hst1, HO⟩
  -- first-round copy: column half 1, distance 4
  sl_exec
  iapply (copy1 m c 1 4 (by decide) (((others.erase 1).erase 2).erase 3) (by decide) (by decide) ((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)) (by decide) K (insert (SemLoc.reg barS, ()) W) _ _ _ (by rw [k0_off3_eq_4]; rfl) _ _ _ (k0_dev67_fwd c) _ _ _ _)
  isplitr; · iexact HI
  isplitr; · iexact Hro
  isplitl [Hst1]; · iexact Hst1
  isplitl [HO]; · iexact HO
  iintro ⟨Hst1, HO⟩
  -- first-round copy: column half 1, distance 5
  sl_exec
  iapply (copy1 m c 1 5 (by decide) ((((others.erase 1).erase 2).erase 3).erase 4) (by decide) (by decide) (((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)) (by decide) K (insert (SemLoc.reg barS, ()) W) _ _ _ (by rw [k0_off3_eq_5]; rfl) _ _ _ (k0_dev68_fwd c) _ _ _ _)
  isplitr; · iexact HI
  isplitr; · iexact Hro
  isplitl [Hst1]; · iexact Hst1
  isplitl [HO]; · iexact HO
  iintro ⟨Hst1, HO⟩
  -- first-round copy: column half 1, distance 6
  sl_exec
  iapply (copy1 m c 1 6 (by decide) (((((others.erase 1).erase 2).erase 3).erase 4).erase 5) (by decide) (by decide) ((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)) (by decide) K (insert (SemLoc.reg barS, ()) W) _ _ _ (by rw [k0_off3_eq_6]; rfl) _ _ _ (k0_dev69_fwd c) _ _ _ _)
  isplitr; · iexact HI
  isplitr; · iexact Hro
  isplitl [Hst1]; · iexact Hst1
  isplitl [HO]; · iexact HO
  iintro ⟨Hst1, HO⟩
  -- first-round copy: column half 1, distance 7
  sl_exec
  iapply (copy1 m c 1 7 (by decide) ((((((others.erase 1).erase 2).erase 3).erase 4).erase 5).erase 6) (by decide) (by decide) (((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)) (by decide) K (insert (SemLoc.reg barS, ()) W) _ _ _ (by rw [k0_off3_eq_7]; rfl) _ _ _ (k0_dev70_fwd c) _ _ _ _)
  isplitr; · iexact HI
  isplitr; · iexact Hro
  isplitl [Hst1]; · iexact Hst1
  isplitl [HO]; · iexact HO
  iintro ⟨Hst1, HO⟩
  -- first-round copy: column half 1, distance 8
  sl_exec
  iapply (copy1 m c 1 8 (by decide) (((((((others.erase 1).erase 2).erase 3).erase 4).erase 5).erase 6).erase 7) (by decide) (by decide) ((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)) (by decide) K (insert (SemLoc.reg barS, ()) W) _ _ _ (by rw [k0_off3_eq_8]; rfl) _ _ _ (k0_dev71_fwd c) _ _ _ _)
  isplitr; · iexact HI
  isplitr; · iexact Hro
  isplitl [Hst1]; · iexact Hst1
  isplitl [HO]; · iexact HO
  iintro ⟨Hst1, HO⟩
  -- first-round copy: column half 1, distance 9
  sl_exec
  iapply (copy1 m c 1 9 (by decide) ((((((((others.erase 1).erase 2).erase 3).erase 4).erase 5).erase 6).erase 7).erase 8) (by decide) (by decide) (((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)) (by decide) K (insert (SemLoc.reg barS, ()) W) _ _ _ (by rw [k0_off3_eq_9]; rfl) _ _ _ (k0_dev72_fwd c) _ _ _ _)
  isplitr; · iexact HI
  isplitr; · iexact Hro
  isplitl [Hst1]; · iexact Hst1
  isplitl [HO]; · iexact HO
  iintro ⟨Hst1, HO⟩
  -- first-round copy: column half 1, distance 10
  sl_exec
  iapply (copy1 m c 1 10 (by decide) (((((((((others.erase 1).erase 2).erase 3).erase 4).erase 5).erase 6).erase 7).erase 8).erase 9) (by decide) (by decide) ((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)) (by decide) K (insert (SemLoc.reg barS, ()) W) _ _ _ (by rw [k0_off3_eq_10]; rfl) _ _ _ (k0_dev73_fwd c) _ _ _ _)
  isplitr; · iexact HI
  isplitr; · iexact Hro
  isplitl [Hst1]; · iexact Hst1
  isplitl [HO]; · iexact HO
  iintro ⟨Hst1, HO⟩
  -- first-round copy: column half 1, distance 11
  sl_exec
  iapply (copy1 m c 1 11 (by decide) ((((((((((others.erase 1).erase 2).erase 3).erase 4).erase 5).erase 6).erase 7).erase 8).erase 9).erase 10) (by decide) (by decide) (((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)) (by decide) K (insert (SemLoc.reg barS, ()) W) _ _ _ (by rw [k0_off3_eq_11]; rfl) _ _ _ (k0_dev74_fwd c) _ _ _ _)
  isplitr; · iexact HI
  isplitr; · iexact Hro
  isplitl [Hst1]; · iexact Hst1
  isplitl [HO]; · iexact HO
  iintro ⟨Hst1, HO⟩
  -- first-round copy: column half 1, distance 12
  sl_exec
  iapply (copy1 m c 1 12 (by decide) (((((((((((others.erase 1).erase 2).erase 3).erase 4).erase 5).erase 6).erase 7).erase 8).erase 9).erase 10).erase 11) (by decide) (by decide) ((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)) (by decide) K (insert (SemLoc.reg barS, ()) W) _ _ _ (by rw [k0_off3_eq_12]; rfl) _ _ _ (k0_dev75_fwd c) _ _ _ _)
  isplitr; · iexact HI
  isplitr; · iexact Hro
  isplitl [Hst1]; · iexact Hst1
  isplitl [HO]; · iexact HO
  iintro ⟨Hst1, HO⟩
  -- first-round copy: column half 1, distance 13
  sl_exec
  iapply (copy1 m c 1 13 (by decide) ((((((((((((others.erase 1).erase 2).erase 3).erase 4).erase 5).erase 6).erase 7).erase 8).erase 9).erase 10).erase 11).erase 12) (by decide) (by decide) (((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)) (by decide) K (insert (SemLoc.reg barS, ()) W) _ _ _ (by rw [k0_off3_eq_13]; rfl) _ _ _ (k0_dev76_fwd c) _ _ _ _)
  isplitr; · iexact HI
  isplitr; · iexact Hro
  isplitl [Hst1]; · iexact Hst1
  isplitl [HO]; · iexact HO
  iintro ⟨Hst1, HO⟩
  -- first-round copy: column half 1, distance 14
  sl_exec
  iapply (copy1 m c 1 14 (by decide) (((((((((((((others.erase 1).erase 2).erase 3).erase 4).erase 5).erase 6).erase 7).erase 8).erase 9).erase 10).erase 11).erase 12).erase 13) (by decide) (by decide) ((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)) (by decide) K (insert (SemLoc.reg barS, ()) W) _ _ _ (by rw [k0_off3_eq_14]; rfl) _ _ _ (k0_dev77_fwd c) _ _ _ _)
  isplitr; · iexact HI
  isplitr; · iexact Hro
  isplitl [Hst1]; · iexact Hst1
  isplitl [HO]; · iexact HO
  iintro ⟨Hst1, HO⟩
  -- first-round copy: column half 1, distance 15
  sl_exec
  iapply (copy1 m c 1 15 (by decide) ((((((((((((((others.erase 1).erase 2).erase 3).erase 4).erase 5).erase 6).erase 7).erase 8).erase 9).erase 10).erase 11).erase 12).erase 13).erase 14) (by decide) (by decide) (((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)) (by decide) K (insert (SemLoc.reg barS, ()) W) _ _ _ (by rw [k0_off3_eq_15]; rfl) _ _ _ (k0_dev78_fwd c) _ _ _ _)
  isplitr; · iexact HI
  isplitr; · iexact Hro
  isplitl [Hst1]; · iexact Hst1
  isplitl [HO]; · iexact HO
  iintro ⟨Hst1, HO⟩
  -- first-round copy: column half 1, distance 16
  sl_exec
  iapply (copy1 m c 1 16 (by decide) (((((((((((((((others.erase 1).erase 2).erase 3).erase 4).erase 5).erase 6).erase 7).erase 8).erase 9).erase 10).erase 11).erase 12).erase 13).erase 14).erase 15) (by decide) (by decide) ((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)) (by decide) K (insert (SemLoc.reg barS, ()) W) _ _ _ (by rw [k0_off3_eq_16]; rfl) _ _ _ (k0_dev79_fwd c) _ _ _ _)
  isplitr; · iexact HI
  isplitr; · iexact Hro
  isplitl [Hst1]; · iexact Hst1
  isplitl [HO]; · iexact HO
  iintro ⟨Hst1, HO⟩
  -- first-round copy: column half 1, distance 17
  sl_exec
  iapply (copy1 m c 1 17 (by decide) ((((((((((((((((others.erase 1).erase 2).erase 3).erase 4).erase 5).erase 6).erase 7).erase 8).erase 9).erase 10).erase 11).erase 12).erase 13).erase 14).erase 15).erase 16) (by decide) (by decide) (((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)) (by decide) K (insert (SemLoc.reg barS, ()) W) _ _ _ (by rw [k0_off3_eq_17]; rfl) _ _ _ (k0_dev80_fwd c) _ _ _ _)
  isplitr; · iexact HI
  isplitr; · iexact Hro
  isplitl [Hst1]; · iexact Hst1
  isplitl [HO]; · iexact HO
  iintro ⟨Hst1, HO⟩
  -- first-round copy: column half 1, distance 18
  sl_exec
  iapply (copy1 m c 1 18 (by decide) (((((((((((((((((others.erase 1).erase 2).erase 3).erase 4).erase 5).erase 6).erase 7).erase 8).erase 9).erase 10).erase 11).erase 12).erase 13).erase 14).erase 15).erase 16).erase 17) (by decide) (by decide) ((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)) (by decide) K (insert (SemLoc.reg barS, ()) W) _ _ _ (by rw [k0_off3_eq_18]; rfl) _ _ _ (k0_dev81_fwd c) _ _ _ _)
  isplitr; · iexact HI
  isplitr; · iexact Hro
  isplitl [Hst1]; · iexact Hst1
  isplitl [HO]; · iexact HO
  iintro ⟨Hst1, HO⟩
  -- first-round copy: column half 1, distance 19
  sl_exec
  iapply (copy1 m c 1 19 (by decide) ((((((((((((((((((others.erase 1).erase 2).erase 3).erase 4).erase 5).erase 6).erase 7).erase 8).erase 9).erase 10).erase 11).erase 12).erase 13).erase 14).erase 15).erase 16).erase 17).erase 18) (by decide) (by decide) (((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)) (by decide) K (insert (SemLoc.reg barS, ()) W) _ _ _ (by rw [k0_off3_eq_19]; rfl) _ _ _ (k0_dev82_fwd c) _ _ _ _)
  isplitr; · iexact HI
  isplitr; · iexact Hro
  isplitl [Hst1]; · iexact Hst1
  isplitl [HO]; · iexact HO
  iintro ⟨Hst1, HO⟩
  -- first-round copy: column half 1, distance 20
  sl_exec
  iapply (copy1 m c 1 20 (by decide) (((((((((((((((((((others.erase 1).erase 2).erase 3).erase 4).erase 5).erase 6).erase 7).erase 8).erase 9).erase 10).erase 11).erase 12).erase 13).erase 14).erase 15).erase 16).erase 17).erase 18).erase 19) (by decide) (by decide) ((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)) (by decide) K (insert (SemLoc.reg barS, ()) W) _ _ _ (by rw [k0_off3_eq_20]; rfl) _ _ _ (k0_dev83_fwd c) _ _ _ _)
  isplitr; · iexact HI
  isplitr; · iexact Hro
  isplitl [Hst1]; · iexact Hst1
  isplitl [HO]; · iexact HO
  iintro ⟨Hst1, HO⟩
  -- first-round copy: column half 1, distance 21
  sl_exec
  iapply (copy1 m c 1 21 (by decide) ((((((((((((((((((((others.erase 1).erase 2).erase 3).erase 4).erase 5).erase 6).erase 7).erase 8).erase 9).erase 10).erase 11).erase 12).erase 13).erase 14).erase 15).erase 16).erase 17).erase 18).erase 19).erase 20) (by decide) (by decide) (((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)) (by decide) K (insert (SemLoc.reg barS, ()) W) _ _ _ (by rw [k0_off3_eq_21]; rfl) _ _ _ (k0_dev84_fwd c) _ _ _ _)
  isplitr; · iexact HI
  isplitr; · iexact Hro
  isplitl [Hst1]; · iexact Hst1
  isplitl [HO]; · iexact HO
  iintro ⟨Hst1, HO⟩
  -- first-round copy: column half 1, distance 22
  sl_exec
  iapply (copy1 m c 1 22 (by decide) (((((((((((((((((((((others.erase 1).erase 2).erase 3).erase 4).erase 5).erase 6).erase 7).erase 8).erase 9).erase 10).erase 11).erase 12).erase 13).erase 14).erase 15).erase 16).erase 17).erase 18).erase 19).erase 20).erase 21) (by decide) (by decide) ((((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)).erase (1, 21)) (by decide) K (insert (SemLoc.reg barS, ()) W) _ _ _ (by rw [k0_off3_eq_22]; rfl) _ _ _ (k0_dev85_fwd c) _ _ _ _)
  isplitr; · iexact HI
  isplitr; · iexact Hro
  isplitl [Hst1]; · iexact Hst1
  isplitl [HO]; · iexact HO
  iintro ⟨Hst1, HO⟩
  -- first-round copy: column half 1, distance 23
  sl_exec
  iapply (copy1 m c 1 23 (by decide) ((((((((((((((((((((((others.erase 1).erase 2).erase 3).erase 4).erase 5).erase 6).erase 7).erase 8).erase 9).erase 10).erase 11).erase 12).erase 13).erase 14).erase 15).erase 16).erase 17).erase 18).erase 19).erase 20).erase 21).erase 22) (by decide) (by decide) (((((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)).erase (1, 21)).erase (1, 22)) (by decide) K (insert (SemLoc.reg barS, ()) W) _ _ _ (by rw [k0_off3_eq_23]; rfl) _ _ _ (k0_dev86_fwd c) _ _ _ _)
  isplitr; · iexact HI
  isplitr; · iexact Hro
  isplitl [Hst1]; · iexact Hst1
  isplitl [HO]; · iexact HO
  iintro ⟨Hst1, HO⟩
  -- first-round copy: column half 1, distance 24
  sl_exec
  iapply (copy1 m c 1 24 (by decide) (((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23) (by decide) (by decide) ((((((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)).erase (1, 21)).erase (1, 22)).erase (1, 23)) (by decide) K (insert (SemLoc.reg barS, ()) W) _ _ _ (by rw [k0_off3_eq_24]; rfl) _ _ _ (k0_dev87_fwd c) _ _ _ _)
  isplitr; · iexact HI
  isplitr; · iexact Hro
  isplitl [Hst1]; · iexact Hst1
  isplitl [HO]; · iexact HO
  iintro ⟨Hst1, HO⟩
  -- first-round copy: column half 1, distance 25
  sl_exec
  iapply (copy1 m c 1 25 (by decide) ((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24) (by decide) (by decide) (((((((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)).erase (1, 21)).erase (1, 22)).erase (1, 23)).erase (1, 24)) (by decide) K (insert (SemLoc.reg barS, ()) W) _ _ _ (by rw [k0_off3_eq_25]; rfl) _ _ _ (k0_dev88_fwd c) _ _ _ _)
  isplitr; · iexact HI
  isplitr; · iexact Hro
  isplitl [Hst1]; · iexact Hst1
  isplitl [HO]; · iexact HO
  iintro ⟨Hst1, HO⟩
  -- first-round copy: column half 1, distance 26
  sl_exec
  iapply (copy1 m c 1 26 (by decide) (((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25) (by decide) (by decide) ((((((((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)).erase (1, 21)).erase (1, 22)).erase (1, 23)).erase (1, 24)).erase (1, 25)) (by decide) K (insert (SemLoc.reg barS, ()) W) _ _ _ (by rw [k0_off3_eq_26]; rfl) _ _ _ (k0_dev89_fwd c) _ _ _ _)
  isplitr; · iexact HI
  isplitr; · iexact Hro
  isplitl [Hst1]; · iexact Hst1
  isplitl [HO]; · iexact HO
  iintro ⟨Hst1, HO⟩
  -- first-round copy: column half 1, distance 27
  sl_exec
  iapply (copy1 m c 1 27 (by decide) ((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26) (by decide) (by decide) (((((((((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)).erase (1, 21)).erase (1, 22)).erase (1, 23)).erase (1, 24)).erase (1, 25)).erase (1, 26)) (by decide) K (insert (SemLoc.reg barS, ()) W) _ _ _ (by rw [k0_off3_eq_27]; rfl) _ _ _ (k0_dev90_fwd c) _ _ _ _)
  isplitr; · iexact HI
  isplitr; · iexact Hro
  isplitl [Hst1]; · iexact Hst1
  isplitl [HO]; · iexact HO
  iintro ⟨Hst1, HO⟩
  -- first-round copy: column half 1, distance 28
  sl_exec
  iapply (copy1 m c 1 28 (by decide) (((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27) (by decide) (by decide) ((((((((((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)).erase (1, 21)).erase (1, 22)).erase (1, 23)).erase (1, 24)).erase (1, 25)).erase (1, 26)).erase (1, 27)) (by decide) K (insert (SemLoc.reg barS, ()) W) _ _ _ (by rw [k0_off3_eq_28]; rfl) _ _ _ (k0_dev91_fwd c) _ _ _ _)
  isplitr; · iexact HI
  isplitr; · iexact Hro
  isplitl [Hst1]; · iexact Hst1
  isplitl [HO]; · iexact HO
  iintro ⟨Hst1, HO⟩
  -- first-round copy: column half 1, distance 29
  sl_exec
  iapply (copy1 m c 1 29 (by decide) ((((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27).erase 28) (by decide) (by decide) (((((((((((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)).erase (1, 21)).erase (1, 22)).erase (1, 23)).erase (1, 24)).erase (1, 25)).erase (1, 26)).erase (1, 27)).erase (1, 28)) (by decide) K (insert (SemLoc.reg barS, ()) W) _ _ _ (by rw [k0_off3_eq_29]; rfl) _ _ _ (k0_dev92_fwd c) _ _ _ _)
  isplitr; · iexact HI
  isplitr; · iexact Hro
  isplitl [Hst1]; · iexact Hst1
  isplitl [HO]; · iexact HO
  iintro ⟨Hst1, HO⟩
  -- first-round copy: column half 1, distance 30
  sl_exec
  iapply (copy1 m c 1 30 (by decide) (((((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27).erase 28).erase 29) (by decide) (by decide) ((((((((((((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)).erase (1, 21)).erase (1, 22)).erase (1, 23)).erase (1, 24)).erase (1, 25)).erase (1, 26)).erase (1, 27)).erase (1, 28)).erase (1, 29)) (by decide) K (insert (SemLoc.reg barS, ()) W) _ _ _ (by rw [k0_off3_eq_30]; rfl) _ _ _ (k0_dev93_fwd c) _ _ _ _)
  isplitr; · iexact HI
  isplitr; · iexact Hro
  isplitl [Hst1]; · iexact Hst1
  isplitl [HO]; · iexact HO
  iintro ⟨Hst1, HO⟩
  -- first-round copy: column half 1, distance 31
  sl_exec
  iapply (copy1 m c 1 31 (by decide) ((((((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27).erase 28).erase 29).erase 30) (by decide) (by decide) (((((((((((((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)).erase (1, 21)).erase (1, 22)).erase (1, 23)).erase (1, 24)).erase (1, 25)).erase (1, 26)).erase (1, 27)).erase (1, 28)).erase (1, 29)).erase (1, 30)) (by decide) K (insert (SemLoc.reg barS, ()) W) _ _ _ (by rw [k0_off3_eq_31]; rfl) _ _ _ (k0_dev94_fwd c) _ _ _ _)
  isplitr; · iexact HI
  isplitr; · iexact Hro
  isplitl [Hst1]; · iexact Hst1
  isplitl [HO]; · iexact HO
  iintro ⟨Hst1, HO⟩
  -- every first-round copy is started: the device owes second-round credits only
  have hPend : ((((((((((((((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)).erase (1, 21)).erase (1, 22)).erase (1, 23)).erase (1, 24)).erase (1, 25)).erase (1, 26)).erase (1, 27)).erase (1, 28)).erase (1, 29)).erase (1, 30)).erase (1, 31)) = (∅ : Finset (Fin 2 × Fin 32)) := by decide
  ihave HO := (Entails.of_eq (congrArg (fun O => owes (c : Thread nD τ) O (insert (SemLoc.reg barS, ()) W)) (show owedRem1 c ((((((((((((((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)).erase (1, 21)).erase (1, 22)).erase (1, 23)).erase (1, 24)).erase (1, 25)).erase (1, 26)).erase (1, 27)).erase (1, 28)).erase (1, 29)).erase (1, 30)).erase (1, 31)) = owedRecv2 c from by rw [hPend]; unfold owedRem1; rw [Finset.sum_empty, add_zero]))) $$ HO
  ihave Hw0 := (st2_init m c 0) $$ [Hat0 HcR0]
  · isplitl [Hat0] <;> iassumption
  -- wait for the first-round copy to land: column half 0, distance 1
  sl_exec
  iapply (wait1 m c 0 1 (by decide) others (by decide) (by decide) K _ (owedRecv2 c) (owedRecv2_lv c) _ _ _ _ _ _ (by decide))
  isplitr; · iexact HI
  isplitr; · iexact Hlev
  isplitl [Hw0]; · iexact Hw0
  isplitl [HO]; · iexact HO
  iintro ⟨Hw0, HO⟩
  -- wait for the first-round copy to land: column half 0, distance 2
  sl_exec
  iapply (wait1 m c 0 2 (by decide) (others.erase 1) (by decide) (by decide) K _ (owedRecv2 c) (owedRecv2_lv c) _ _ _ _ _ _ (by decide))
  isplitr; · iexact HI
  isplitr; · iexact Hlev
  isplitl [Hw0]; · iexact Hw0
  isplitl [HO]; · iexact HO
  iintro ⟨Hw0, HO⟩
  -- wait for the first-round copy to land: column half 0, distance 3
  sl_exec
  iapply (wait1 m c 0 3 (by decide) ((others.erase 1).erase 2) (by decide) (by decide) K _ (owedRecv2 c) (owedRecv2_lv c) _ _ _ _ _ _ (by decide))
  isplitr; · iexact HI
  isplitr; · iexact Hlev
  isplitl [Hw0]; · iexact Hw0
  isplitl [HO]; · iexact HO
  iintro ⟨Hw0, HO⟩
  -- wait for the first-round copy to land: column half 0, distance 4
  sl_exec
  iapply (wait1 m c 0 4 (by decide) (((others.erase 1).erase 2).erase 3) (by decide) (by decide) K _ (owedRecv2 c) (owedRecv2_lv c) _ _ _ _ _ _ (by decide))
  isplitr; · iexact HI
  isplitr; · iexact Hlev
  isplitl [Hw0]; · iexact Hw0
  isplitl [HO]; · iexact HO
  iintro ⟨Hw0, HO⟩
  -- wait for the first-round copy to land: column half 0, distance 5
  sl_exec
  iapply (wait1 m c 0 5 (by decide) ((((others.erase 1).erase 2).erase 3).erase 4) (by decide) (by decide) K _ (owedRecv2 c) (owedRecv2_lv c) _ _ _ _ _ _ (by decide))
  isplitr; · iexact HI
  isplitr; · iexact Hlev
  isplitl [Hw0]; · iexact Hw0
  isplitl [HO]; · iexact HO
  iintro ⟨Hw0, HO⟩
  -- wait for the first-round copy to land: column half 0, distance 6
  sl_exec
  iapply (wait1 m c 0 6 (by decide) (((((others.erase 1).erase 2).erase 3).erase 4).erase 5) (by decide) (by decide) K _ (owedRecv2 c) (owedRecv2_lv c) _ _ _ _ _ _ (by decide))
  isplitr; · iexact HI
  isplitr; · iexact Hlev
  isplitl [Hw0]; · iexact Hw0
  isplitl [HO]; · iexact HO
  iintro ⟨Hw0, HO⟩
  -- wait for the first-round copy to land: column half 0, distance 7
  sl_exec
  iapply (wait1 m c 0 7 (by decide) ((((((others.erase 1).erase 2).erase 3).erase 4).erase 5).erase 6) (by decide) (by decide) K _ (owedRecv2 c) (owedRecv2_lv c) _ _ _ _ _ _ (by decide))
  isplitr; · iexact HI
  isplitr; · iexact Hlev
  isplitl [Hw0]; · iexact Hw0
  isplitl [HO]; · iexact HO
  iintro ⟨Hw0, HO⟩
  -- wait for the first-round copy to land: column half 0, distance 8
  sl_exec
  iapply (wait1 m c 0 8 (by decide) (((((((others.erase 1).erase 2).erase 3).erase 4).erase 5).erase 6).erase 7) (by decide) (by decide) K _ (owedRecv2 c) (owedRecv2_lv c) _ _ _ _ _ _ (by decide))
  isplitr; · iexact HI
  isplitr; · iexact Hlev
  isplitl [Hw0]; · iexact Hw0
  isplitl [HO]; · iexact HO
  iintro ⟨Hw0, HO⟩
  -- wait for the first-round copy to land: column half 0, distance 9
  sl_exec
  iapply (wait1 m c 0 9 (by decide) ((((((((others.erase 1).erase 2).erase 3).erase 4).erase 5).erase 6).erase 7).erase 8) (by decide) (by decide) K _ (owedRecv2 c) (owedRecv2_lv c) _ _ _ _ _ _ (by decide))
  isplitr; · iexact HI
  isplitr; · iexact Hlev
  isplitl [Hw0]; · iexact Hw0
  isplitl [HO]; · iexact HO
  iintro ⟨Hw0, HO⟩
  -- wait for the first-round copy to land: column half 0, distance 10
  sl_exec
  iapply (wait1 m c 0 10 (by decide) (((((((((others.erase 1).erase 2).erase 3).erase 4).erase 5).erase 6).erase 7).erase 8).erase 9) (by decide) (by decide) K _ (owedRecv2 c) (owedRecv2_lv c) _ _ _ _ _ _ (by decide))
  isplitr; · iexact HI
  isplitr; · iexact Hlev
  isplitl [Hw0]; · iexact Hw0
  isplitl [HO]; · iexact HO
  iintro ⟨Hw0, HO⟩
  -- wait for the first-round copy to land: column half 0, distance 11
  sl_exec
  iapply (wait1 m c 0 11 (by decide) ((((((((((others.erase 1).erase 2).erase 3).erase 4).erase 5).erase 6).erase 7).erase 8).erase 9).erase 10) (by decide) (by decide) K _ (owedRecv2 c) (owedRecv2_lv c) _ _ _ _ _ _ (by decide))
  isplitr; · iexact HI
  isplitr; · iexact Hlev
  isplitl [Hw0]; · iexact Hw0
  isplitl [HO]; · iexact HO
  iintro ⟨Hw0, HO⟩
  -- wait for the first-round copy to land: column half 0, distance 12
  sl_exec
  iapply (wait1 m c 0 12 (by decide) (((((((((((others.erase 1).erase 2).erase 3).erase 4).erase 5).erase 6).erase 7).erase 8).erase 9).erase 10).erase 11) (by decide) (by decide) K _ (owedRecv2 c) (owedRecv2_lv c) _ _ _ _ _ _ (by decide))
  isplitr; · iexact HI
  isplitr; · iexact Hlev
  isplitl [Hw0]; · iexact Hw0
  isplitl [HO]; · iexact HO
  iintro ⟨Hw0, HO⟩
  -- wait for the first-round copy to land: column half 0, distance 13
  sl_exec
  iapply (wait1 m c 0 13 (by decide) ((((((((((((others.erase 1).erase 2).erase 3).erase 4).erase 5).erase 6).erase 7).erase 8).erase 9).erase 10).erase 11).erase 12) (by decide) (by decide) K _ (owedRecv2 c) (owedRecv2_lv c) _ _ _ _ _ _ (by decide))
  isplitr; · iexact HI
  isplitr; · iexact Hlev
  isplitl [Hw0]; · iexact Hw0
  isplitl [HO]; · iexact HO
  iintro ⟨Hw0, HO⟩
  -- wait for the first-round copy to land: column half 0, distance 14
  sl_exec
  iapply (wait1 m c 0 14 (by decide) (((((((((((((others.erase 1).erase 2).erase 3).erase 4).erase 5).erase 6).erase 7).erase 8).erase 9).erase 10).erase 11).erase 12).erase 13) (by decide) (by decide) K _ (owedRecv2 c) (owedRecv2_lv c) _ _ _ _ _ _ (by decide))
  isplitr; · iexact HI
  isplitr; · iexact Hlev
  isplitl [Hw0]; · iexact Hw0
  isplitl [HO]; · iexact HO
  iintro ⟨Hw0, HO⟩
  -- wait for the first-round copy to land: column half 0, distance 15
  sl_exec
  iapply (wait1 m c 0 15 (by decide) ((((((((((((((others.erase 1).erase 2).erase 3).erase 4).erase 5).erase 6).erase 7).erase 8).erase 9).erase 10).erase 11).erase 12).erase 13).erase 14) (by decide) (by decide) K _ (owedRecv2 c) (owedRecv2_lv c) _ _ _ _ _ _ (by decide))
  isplitr; · iexact HI
  isplitr; · iexact Hlev
  isplitl [Hw0]; · iexact Hw0
  isplitl [HO]; · iexact HO
  iintro ⟨Hw0, HO⟩
  -- wait for the first-round copy to land: column half 0, distance 16
  sl_exec
  iapply (wait1 m c 0 16 (by decide) (((((((((((((((others.erase 1).erase 2).erase 3).erase 4).erase 5).erase 6).erase 7).erase 8).erase 9).erase 10).erase 11).erase 12).erase 13).erase 14).erase 15) (by decide) (by decide) K _ (owedRecv2 c) (owedRecv2_lv c) _ _ _ _ _ _ (by decide))
  isplitr; · iexact HI
  isplitr; · iexact Hlev
  isplitl [Hw0]; · iexact Hw0
  isplitl [HO]; · iexact HO
  iintro ⟨Hw0, HO⟩
  -- wait for the first-round copy to land: column half 0, distance 17
  sl_exec
  iapply (wait1 m c 0 17 (by decide) ((((((((((((((((others.erase 1).erase 2).erase 3).erase 4).erase 5).erase 6).erase 7).erase 8).erase 9).erase 10).erase 11).erase 12).erase 13).erase 14).erase 15).erase 16) (by decide) (by decide) K _ (owedRecv2 c) (owedRecv2_lv c) _ _ _ _ _ _ (by decide))
  isplitr; · iexact HI
  isplitr; · iexact Hlev
  isplitl [Hw0]; · iexact Hw0
  isplitl [HO]; · iexact HO
  iintro ⟨Hw0, HO⟩
  -- wait for the first-round copy to land: column half 0, distance 18
  sl_exec
  iapply (wait1 m c 0 18 (by decide) (((((((((((((((((others.erase 1).erase 2).erase 3).erase 4).erase 5).erase 6).erase 7).erase 8).erase 9).erase 10).erase 11).erase 12).erase 13).erase 14).erase 15).erase 16).erase 17) (by decide) (by decide) K _ (owedRecv2 c) (owedRecv2_lv c) _ _ _ _ _ _ (by decide))
  isplitr; · iexact HI
  isplitr; · iexact Hlev
  isplitl [Hw0]; · iexact Hw0
  isplitl [HO]; · iexact HO
  iintro ⟨Hw0, HO⟩
  -- wait for the first-round copy to land: column half 0, distance 19
  sl_exec
  iapply (wait1 m c 0 19 (by decide) ((((((((((((((((((others.erase 1).erase 2).erase 3).erase 4).erase 5).erase 6).erase 7).erase 8).erase 9).erase 10).erase 11).erase 12).erase 13).erase 14).erase 15).erase 16).erase 17).erase 18) (by decide) (by decide) K _ (owedRecv2 c) (owedRecv2_lv c) _ _ _ _ _ _ (by decide))
  isplitr; · iexact HI
  isplitr; · iexact Hlev
  isplitl [Hw0]; · iexact Hw0
  isplitl [HO]; · iexact HO
  iintro ⟨Hw0, HO⟩
  -- wait for the first-round copy to land: column half 0, distance 20
  sl_exec
  iapply (wait1 m c 0 20 (by decide) (((((((((((((((((((others.erase 1).erase 2).erase 3).erase 4).erase 5).erase 6).erase 7).erase 8).erase 9).erase 10).erase 11).erase 12).erase 13).erase 14).erase 15).erase 16).erase 17).erase 18).erase 19) (by decide) (by decide) K _ (owedRecv2 c) (owedRecv2_lv c) _ _ _ _ _ _ (by decide))
  isplitr; · iexact HI
  isplitr; · iexact Hlev
  isplitl [Hw0]; · iexact Hw0
  isplitl [HO]; · iexact HO
  iintro ⟨Hw0, HO⟩
  -- wait for the first-round copy to land: column half 0, distance 21
  sl_exec
  iapply (wait1 m c 0 21 (by decide) ((((((((((((((((((((others.erase 1).erase 2).erase 3).erase 4).erase 5).erase 6).erase 7).erase 8).erase 9).erase 10).erase 11).erase 12).erase 13).erase 14).erase 15).erase 16).erase 17).erase 18).erase 19).erase 20) (by decide) (by decide) K _ (owedRecv2 c) (owedRecv2_lv c) _ _ _ _ _ _ (by decide))
  isplitr; · iexact HI
  isplitr; · iexact Hlev
  isplitl [Hw0]; · iexact Hw0
  isplitl [HO]; · iexact HO
  iintro ⟨Hw0, HO⟩
  -- wait for the first-round copy to land: column half 0, distance 22
  sl_exec
  iapply (wait1 m c 0 22 (by decide) (((((((((((((((((((((others.erase 1).erase 2).erase 3).erase 4).erase 5).erase 6).erase 7).erase 8).erase 9).erase 10).erase 11).erase 12).erase 13).erase 14).erase 15).erase 16).erase 17).erase 18).erase 19).erase 20).erase 21) (by decide) (by decide) K _ (owedRecv2 c) (owedRecv2_lv c) _ _ _ _ _ _ (by decide))
  isplitr; · iexact HI
  isplitr; · iexact Hlev
  isplitl [Hw0]; · iexact Hw0
  isplitl [HO]; · iexact HO
  iintro ⟨Hw0, HO⟩
  -- wait for the first-round copy to land: column half 0, distance 23
  sl_exec
  iapply (wait1 m c 0 23 (by decide) ((((((((((((((((((((((others.erase 1).erase 2).erase 3).erase 4).erase 5).erase 6).erase 7).erase 8).erase 9).erase 10).erase 11).erase 12).erase 13).erase 14).erase 15).erase 16).erase 17).erase 18).erase 19).erase 20).erase 21).erase 22) (by decide) (by decide) K _ (owedRecv2 c) (owedRecv2_lv c) _ _ _ _ _ _ (by decide))
  isplitr; · iexact HI
  isplitr; · iexact Hlev
  isplitl [Hw0]; · iexact Hw0
  isplitl [HO]; · iexact HO
  iintro ⟨Hw0, HO⟩
  -- wait for the first-round copy to land: column half 0, distance 24
  sl_exec
  iapply (wait1 m c 0 24 (by decide) (((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23) (by decide) (by decide) K _ (owedRecv2 c) (owedRecv2_lv c) _ _ _ _ _ _ (by decide))
  isplitr; · iexact HI
  isplitr; · iexact Hlev
  isplitl [Hw0]; · iexact Hw0
  isplitl [HO]; · iexact HO
  iintro ⟨Hw0, HO⟩
  -- wait for the first-round copy to land: column half 0, distance 25
  sl_exec
  iapply (wait1 m c 0 25 (by decide) ((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24) (by decide) (by decide) K _ (owedRecv2 c) (owedRecv2_lv c) _ _ _ _ _ _ (by decide))
  isplitr; · iexact HI
  isplitr; · iexact Hlev
  isplitl [Hw0]; · iexact Hw0
  isplitl [HO]; · iexact HO
  iintro ⟨Hw0, HO⟩
  -- wait for the first-round copy to land: column half 0, distance 26
  sl_exec
  iapply (wait1 m c 0 26 (by decide) (((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25) (by decide) (by decide) K _ (owedRecv2 c) (owedRecv2_lv c) _ _ _ _ _ _ (by decide))
  isplitr; · iexact HI
  isplitr; · iexact Hlev
  isplitl [Hw0]; · iexact Hw0
  isplitl [HO]; · iexact HO
  iintro ⟨Hw0, HO⟩
  -- wait for the first-round copy to land: column half 0, distance 27
  sl_exec
  iapply (wait1 m c 0 27 (by decide) ((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26) (by decide) (by decide) K _ (owedRecv2 c) (owedRecv2_lv c) _ _ _ _ _ _ (by decide))
  isplitr; · iexact HI
  isplitr; · iexact Hlev
  isplitl [Hw0]; · iexact Hw0
  isplitl [HO]; · iexact HO
  iintro ⟨Hw0, HO⟩
  -- wait for the first-round copy to land: column half 0, distance 28
  sl_exec
  iapply (wait1 m c 0 28 (by decide) (((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27) (by decide) (by decide) K _ (owedRecv2 c) (owedRecv2_lv c) _ _ _ _ _ _ (by decide))
  isplitr; · iexact HI
  isplitr; · iexact Hlev
  isplitl [Hw0]; · iexact Hw0
  isplitl [HO]; · iexact HO
  iintro ⟨Hw0, HO⟩
  -- wait for the first-round copy to land: column half 0, distance 29
  sl_exec
  iapply (wait1 m c 0 29 (by decide) ((((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27).erase 28) (by decide) (by decide) K _ (owedRecv2 c) (owedRecv2_lv c) _ _ _ _ _ _ (by decide))
  isplitr; · iexact HI
  isplitr; · iexact Hlev
  isplitl [Hw0]; · iexact Hw0
  isplitl [HO]; · iexact HO
  iintro ⟨Hw0, HO⟩
  -- wait for the first-round copy to land: column half 0, distance 30
  sl_exec
  iapply (wait1 m c 0 30 (by decide) (((((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27).erase 28).erase 29) (by decide) (by decide) K _ (owedRecv2 c) (owedRecv2_lv c) _ _ _ _ _ _ (by decide))
  isplitr; · iexact HI
  isplitr; · iexact Hlev
  isplitl [Hw0]; · iexact Hw0
  isplitl [HO]; · iexact HO
  iintro ⟨Hw0, HO⟩
  -- wait for the first-round copy to land: column half 0, distance 31
  sl_exec
  iapply (wait1 m c 0 31 (by decide) ((((((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27).erase 28).erase 29).erase 30) (by decide) (by decide) K _ (owedRecv2 c) (owedRecv2_lv c) _ _ _ _ _ _ (by decide))
  isplitr; · iexact HI
  isplitr; · iexact Hlev
  isplitl [Hw0]; · iexact Hw0
  isplitl [HO]; · iexact HO
  iintro ⟨Hw0, HO⟩
  -- column half 0 of the gathering buffer: the own slot and the 31 landed ones, joined; summed into the own result slot
  have hS0 : (((((((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27).erase 28).erase 29).erase 30).erase 31) = (∅ : Finset (Fin 32)) := by decide
  ihave Hd0 := (st2_done m c 0 _ hS0) $$ Hw0
  icases Hd0 with ⟨Hrest0, Hg0⟩
  icases HG0 with ⟨HG00, HG01⟩
  ihave Hcols0 := (gathJoin m c g1 hg1 0) $$ [HG00 Hg0]
  · isplitl [HG00] <;> iassumption
  icases HR0 with ⟨HR00, HR01⟩
  iapply (half_sum0 m c (gathC m c) s2 (fun _ _ => rfl) _ _ _ _ _ _)
  isplitl [Hcols0]; · iexact Hcols0
  isplitl [HR00]; · iexact HR00
  iintro Hcols0 ⟨%R0, %hR0, HR00⟩
  simp -zeta only [ret_bind']
  -- the own result slot's column half 0 holds the sum: its 31 readers' shares lent; the second round of column half 0
  ihave HR00 := (Entails.of_eq (resPts_congr' (F := F) c c 0 fullShare hR0)) $$ HR00
  ihave HL0 := (Entails.of_eq (resPts_lend (F := F) c c 0 (resC m))) $$ HR00
  icases HL0 with ⟨Hlent0, Hrem0⟩
  ihave Hdn0 := (st1_done m c 0 _ hS0) $$ Hst0
  ihave Hs3 := (st3_init m c 0) $$ [Hdn0 Hrest0 Hlent0]
  · isplitl [Hdn0]; · iexact Hdn0
    isplitl [Hrest0] <;> iassumption
  ihave HO := (owes_congr (F := F) c (owedRem2_all c) _) $$ HO
  -- send wait, then second-round copy: column half 0, distance 1
  sl_exec
  iapply (wsend0 m c 0 1 (by decide) others (by decide) (by decide) K _ (owedRem2 c pairs) (owedRem2_lv c pairs) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 0 1 (by decide) others (by decide) (by decide) pairs (by decide) K _ _ _ _ (by rw [k0_off5_eq]; rfl) _ _ _ _ _ (k0_dev95_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 0, distance 2
  sl_exec
  iapply (wsend0 m c 0 2 (by decide) (others.erase 1) (by decide) (by decide) K _ (owedRem2 c (pairs.erase (0, 1))) (owedRem2_lv c (pairs.erase (0, 1))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 0 2 (by decide) (others.erase 1) (by decide) (by decide) (pairs.erase (0, 1)) (by decide) K _ _ _ _ (by rw [k0_off5_eq]; rfl) _ _ _ _ _ (k0_dev96_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 0, distance 3
  sl_exec
  iapply (wsend0 m c 0 3 (by decide) ((others.erase 1).erase 2) (by decide) (by decide) K _ (owedRem2 c ((pairs.erase (0, 1)).erase (0, 2))) (owedRem2_lv c ((pairs.erase (0, 1)).erase (0, 2))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 0 3 (by decide) ((others.erase 1).erase 2) (by decide) (by decide) ((pairs.erase (0, 1)).erase (0, 2)) (by decide) K _ _ _ _ (by rw [k0_off5_eq]; rfl) _ _ _ _ _ (k0_dev97_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 0, distance 4
  sl_exec
  iapply (wsend0 m c 0 4 (by decide) (((others.erase 1).erase 2).erase 3) (by decide) (by decide) K _ (owedRem2 c (((pairs.erase (0, 1)).erase (0, 2)).erase (0, 3))) (owedRem2_lv c (((pairs.erase (0, 1)).erase (0, 2)).erase (0, 3))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 0 4 (by decide) (((others.erase 1).erase 2).erase 3) (by decide) (by decide) (((pairs.erase (0, 1)).erase (0, 2)).erase (0, 3)) (by decide) K _ _ _ _ (by rw [k0_off5_eq]; rfl) _ _ _ _ _ (k0_dev98_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 0, distance 5
  sl_exec
  iapply (wsend0 m c 0 5 (by decide) ((((others.erase 1).erase 2).erase 3).erase 4) (by decide) (by decide) K _ (owedRem2 c ((((pairs.erase (0, 1)).erase (0, 2)).erase (0, 3)).erase (0, 4))) (owedRem2_lv c ((((pairs.erase (0, 1)).erase (0, 2)).erase (0, 3)).erase (0, 4))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 0 5 (by decide) ((((others.erase 1).erase 2).erase 3).erase 4) (by decide) (by decide) ((((pairs.erase (0, 1)).erase (0, 2)).erase (0, 3)).erase (0, 4)) (by decide) K _ _ _ _ (by rw [k0_off5_eq]; rfl) _ _ _ _ _ (k0_dev99_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 0, distance 6
  sl_exec
  iapply (wsend0 m c 0 6 (by decide) (((((others.erase 1).erase 2).erase 3).erase 4).erase 5) (by decide) (by decide) K _ (owedRem2 c (((((pairs.erase (0, 1)).erase (0, 2)).erase (0, 3)).erase (0, 4)).erase (0, 5))) (owedRem2_lv c (((((pairs.erase (0, 1)).erase (0, 2)).erase (0, 3)).erase (0, 4)).erase (0, 5))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 0 6 (by decide) (((((others.erase 1).erase 2).erase 3).erase 4).erase 5) (by decide) (by decide) (((((pairs.erase (0, 1)).erase (0, 2)).erase (0, 3)).erase (0, 4)).erase (0, 5)) (by decide) K _ _ _ _ (by rw [k0_off5_eq]; rfl) _ _ _ _ _ (k0_dev100_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 0, distance 7
  sl_exec
  iapply (wsend0 m c 0 7 (by decide) ((((((others.erase 1).erase 2).erase 3).erase 4).erase 5).erase 6) (by decide) (by decide) K _ (owedRem2 c ((((((pairs.erase (0, 1)).erase (0, 2)).erase (0, 3)).erase (0, 4)).erase (0, 5)).erase (0, 6))) (owedRem2_lv c ((((((pairs.erase (0, 1)).erase (0, 2)).erase (0, 3)).erase (0, 4)).erase (0, 5)).erase (0, 6))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 0 7 (by decide) ((((((others.erase 1).erase 2).erase 3).erase 4).erase 5).erase 6) (by decide) (by decide) ((((((pairs.erase (0, 1)).erase (0, 2)).erase (0, 3)).erase (0, 4)).erase (0, 5)).erase (0, 6)) (by decide) K _ _ _ _ (by rw [k0_off5_eq]; rfl) _ _ _ _ _ (k0_dev101_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 0, distance 8
  sl_exec
  iapply (wsend0 m c 0 8 (by decide) (((((((others.erase 1).erase 2).erase 3).erase 4).erase 5).erase 6).erase 7) (by decide) (by decide) K _ (owedRem2 c (((((((pairs.erase (0, 1)).erase (0, 2)).erase (0, 3)).erase (0, 4)).erase (0, 5)).erase (0, 6)).erase (0, 7))) (owedRem2_lv c (((((((pairs.erase (0, 1)).erase (0, 2)).erase (0, 3)).erase (0, 4)).erase (0, 5)).erase (0, 6)).erase (0, 7))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 0 8 (by decide) (((((((others.erase 1).erase 2).erase 3).erase 4).erase 5).erase 6).erase 7) (by decide) (by decide) (((((((pairs.erase (0, 1)).erase (0, 2)).erase (0, 3)).erase (0, 4)).erase (0, 5)).erase (0, 6)).erase (0, 7)) (by decide) K _ _ _ _ (by rw [k0_off5_eq]; rfl) _ _ _ _ _ (k0_dev102_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 0, distance 9
  sl_exec
  iapply (wsend0 m c 0 9 (by decide) ((((((((others.erase 1).erase 2).erase 3).erase 4).erase 5).erase 6).erase 7).erase 8) (by decide) (by decide) K _ (owedRem2 c ((((((((pairs.erase (0, 1)).erase (0, 2)).erase (0, 3)).erase (0, 4)).erase (0, 5)).erase (0, 6)).erase (0, 7)).erase (0, 8))) (owedRem2_lv c ((((((((pairs.erase (0, 1)).erase (0, 2)).erase (0, 3)).erase (0, 4)).erase (0, 5)).erase (0, 6)).erase (0, 7)).erase (0, 8))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 0 9 (by decide) ((((((((others.erase 1).erase 2).erase 3).erase 4).erase 5).erase 6).erase 7).erase 8) (by decide) (by decide) ((((((((pairs.erase (0, 1)).erase (0, 2)).erase (0, 3)).erase (0, 4)).erase (0, 5)).erase (0, 6)).erase (0, 7)).erase (0, 8)) (by decide) K _ _ _ _ (by rw [k0_off5_eq]; rfl) _ _ _ _ _ (k0_dev103_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 0, distance 10
  sl_exec
  iapply (wsend0 m c 0 10 (by decide) (((((((((others.erase 1).erase 2).erase 3).erase 4).erase 5).erase 6).erase 7).erase 8).erase 9) (by decide) (by decide) K _ (owedRem2 c (((((((((pairs.erase (0, 1)).erase (0, 2)).erase (0, 3)).erase (0, 4)).erase (0, 5)).erase (0, 6)).erase (0, 7)).erase (0, 8)).erase (0, 9))) (owedRem2_lv c (((((((((pairs.erase (0, 1)).erase (0, 2)).erase (0, 3)).erase (0, 4)).erase (0, 5)).erase (0, 6)).erase (0, 7)).erase (0, 8)).erase (0, 9))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 0 10 (by decide) (((((((((others.erase 1).erase 2).erase 3).erase 4).erase 5).erase 6).erase 7).erase 8).erase 9) (by decide) (by decide) (((((((((pairs.erase (0, 1)).erase (0, 2)).erase (0, 3)).erase (0, 4)).erase (0, 5)).erase (0, 6)).erase (0, 7)).erase (0, 8)).erase (0, 9)) (by decide) K _ _ _ _ (by rw [k0_off5_eq]; rfl) _ _ _ _ _ (k0_dev104_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 0, distance 11
  sl_exec
  iapply (wsend0 m c 0 11 (by decide) ((((((((((others.erase 1).erase 2).erase 3).erase 4).erase 5).erase 6).erase 7).erase 8).erase 9).erase 10) (by decide) (by decide) K _ (owedRem2 c ((((((((((pairs.erase (0, 1)).erase (0, 2)).erase (0, 3)).erase (0, 4)).erase (0, 5)).erase (0, 6)).erase (0, 7)).erase (0, 8)).erase (0, 9)).erase (0, 10))) (owedRem2_lv c ((((((((((pairs.erase (0, 1)).erase (0, 2)).erase (0, 3)).erase (0, 4)).erase (0, 5)).erase (0, 6)).erase (0, 7)).erase (0, 8)).erase (0, 9)).erase (0, 10))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 0 11 (by decide) ((((((((((others.erase 1).erase 2).erase 3).erase 4).erase 5).erase 6).erase 7).erase 8).erase 9).erase 10) (by decide) (by decide) ((((((((((pairs.erase (0, 1)).erase (0, 2)).erase (0, 3)).erase (0, 4)).erase (0, 5)).erase (0, 6)).erase (0, 7)).erase (0, 8)).erase (0, 9)).erase (0, 10)) (by decide) K _ _ _ _ (by rw [k0_off5_eq]; rfl) _ _ _ _ _ (k0_dev105_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 0, distance 12
  sl_exec
  iapply (wsend0 m c 0 12 (by decide) (((((((((((others.erase 1).erase 2).erase 3).erase 4).erase 5).erase 6).erase 7).erase 8).erase 9).erase 10).erase 11) (by decide) (by decide) K _ (owedRem2 c (((((((((((pairs.erase (0, 1)).erase (0, 2)).erase (0, 3)).erase (0, 4)).erase (0, 5)).erase (0, 6)).erase (0, 7)).erase (0, 8)).erase (0, 9)).erase (0, 10)).erase (0, 11))) (owedRem2_lv c (((((((((((pairs.erase (0, 1)).erase (0, 2)).erase (0, 3)).erase (0, 4)).erase (0, 5)).erase (0, 6)).erase (0, 7)).erase (0, 8)).erase (0, 9)).erase (0, 10)).erase (0, 11))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 0 12 (by decide) (((((((((((others.erase 1).erase 2).erase 3).erase 4).erase 5).erase 6).erase 7).erase 8).erase 9).erase 10).erase 11) (by decide) (by decide) (((((((((((pairs.erase (0, 1)).erase (0, 2)).erase (0, 3)).erase (0, 4)).erase (0, 5)).erase (0, 6)).erase (0, 7)).erase (0, 8)).erase (0, 9)).erase (0, 10)).erase (0, 11)) (by decide) K _ _ _ _ (by rw [k0_off5_eq]; rfl) _ _ _ _ _ (k0_dev106_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 0, distance 13
  sl_exec
  iapply (wsend0 m c 0 13 (by decide) ((((((((((((others.erase 1).erase 2).erase 3).erase 4).erase 5).erase 6).erase 7).erase 8).erase 9).erase 10).erase 11).erase 12) (by decide) (by decide) K _ (owedRem2 c ((((((((((((pairs.erase (0, 1)).erase (0, 2)).erase (0, 3)).erase (0, 4)).erase (0, 5)).erase (0, 6)).erase (0, 7)).erase (0, 8)).erase (0, 9)).erase (0, 10)).erase (0, 11)).erase (0, 12))) (owedRem2_lv c ((((((((((((pairs.erase (0, 1)).erase (0, 2)).erase (0, 3)).erase (0, 4)).erase (0, 5)).erase (0, 6)).erase (0, 7)).erase (0, 8)).erase (0, 9)).erase (0, 10)).erase (0, 11)).erase (0, 12))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 0 13 (by decide) ((((((((((((others.erase 1).erase 2).erase 3).erase 4).erase 5).erase 6).erase 7).erase 8).erase 9).erase 10).erase 11).erase 12) (by decide) (by decide) ((((((((((((pairs.erase (0, 1)).erase (0, 2)).erase (0, 3)).erase (0, 4)).erase (0, 5)).erase (0, 6)).erase (0, 7)).erase (0, 8)).erase (0, 9)).erase (0, 10)).erase (0, 11)).erase (0, 12)) (by decide) K _ _ _ _ (by rw [k0_off5_eq]; rfl) _ _ _ _ _ (k0_dev107_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 0, distance 14
  sl_exec
  iapply (wsend0 m c 0 14 (by decide) (((((((((((((others.erase 1).erase 2).erase 3).erase 4).erase 5).erase 6).erase 7).erase 8).erase 9).erase 10).erase 11).erase 12).erase 13) (by decide) (by decide) K _ (owedRem2 c (((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13))) (owedRem2_lv c (((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 0 14 (by decide) (((((((((((((others.erase 1).erase 2).erase 3).erase 4).erase 5).erase 6).erase 7).erase 8).erase 9).erase 10).erase 11).erase 12).erase 13) (by decide) (by decide) (((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)) (by decide) K _ _ _ _ (by rw [k0_off5_eq]; rfl) _ _ _ _ _ (k0_dev108_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 0, distance 15
  sl_exec
  iapply (wsend0 m c 0 15 (by decide) ((((((((((((((others.erase 1).erase 2).erase 3).erase 4).erase 5).erase 6).erase 7).erase 8).erase 9).erase 10).erase 11).erase 12).erase 13).erase 14) (by decide) (by decide) K _ (owedRem2 c ((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14))) (owedRem2_lv c ((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 0 15 (by decide) ((((((((((((((others.erase 1).erase 2).erase 3).erase 4).erase 5).erase 6).erase 7).erase 8).erase 9).erase 10).erase 11).erase 12).erase 13).erase 14) (by decide) (by decide) ((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)) (by decide) K _ _ _ _ (by rw [k0_off5_eq]; rfl) _ _ _ _ _ (k0_dev109_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 0, distance 16
  sl_exec
  iapply (wsend0 m c 0 16 (by decide) (((((((((((((((others.erase 1).erase 2).erase 3).erase 4).erase 5).erase 6).erase 7).erase 8).erase 9).erase 10).erase 11).erase 12).erase 13).erase 14).erase 15) (by decide) (by decide) K _ (owedRem2 c (((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15))) (owedRem2_lv c (((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 0 16 (by decide) (((((((((((((((others.erase 1).erase 2).erase 3).erase 4).erase 5).erase 6).erase 7).erase 8).erase 9).erase 10).erase 11).erase 12).erase 13).erase 14).erase 15) (by decide) (by decide) (((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)) (by decide) K _ _ _ _ (by rw [k0_off5_eq]; rfl) _ _ _ _ _ (k0_dev110_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 0, distance 17
  sl_exec
  iapply (wsend0 m c 0 17 (by decide) ((((((((((((((((others.erase 1).erase 2).erase 3).erase 4).erase 5).erase 6).erase 7).erase 8).erase 9).erase 10).erase 11).erase 12).erase 13).erase 14).erase 15).erase 16) (by decide) (by decide) K _ (owedRem2 c ((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16))) (owedRem2_lv c ((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 0 17 (by decide) ((((((((((((((((others.erase 1).erase 2).erase 3).erase 4).erase 5).erase 6).erase 7).erase 8).erase 9).erase 10).erase 11).erase 12).erase 13).erase 14).erase 15).erase 16) (by decide) (by decide) ((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)) (by decide) K _ _ _ _ (by rw [k0_off5_eq]; rfl) _ _ _ _ _ (k0_dev111_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 0, distance 18
  sl_exec
  iapply (wsend0 m c 0 18 (by decide) (((((((((((((((((others.erase 1).erase 2).erase 3).erase 4).erase 5).erase 6).erase 7).erase 8).erase 9).erase 10).erase 11).erase 12).erase 13).erase 14).erase 15).erase 16).erase 17) (by decide) (by decide) K _ (owedRem2 c (((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17))) (owedRem2_lv c (((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 0 18 (by decide) (((((((((((((((((others.erase 1).erase 2).erase 3).erase 4).erase 5).erase 6).erase 7).erase 8).erase 9).erase 10).erase 11).erase 12).erase 13).erase 14).erase 15).erase 16).erase 17) (by decide) (by decide) (((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)) (by decide) K _ _ _ _ (by rw [k0_off5_eq]; rfl) _ _ _ _ _ (k0_dev112_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 0, distance 19
  sl_exec
  iapply (wsend0 m c 0 19 (by decide) ((((((((((((((((((others.erase 1).erase 2).erase 3).erase 4).erase 5).erase 6).erase 7).erase 8).erase 9).erase 10).erase 11).erase 12).erase 13).erase 14).erase 15).erase 16).erase 17).erase 18) (by decide) (by decide) K _ (owedRem2 c ((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18))) (owedRem2_lv c ((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 0 19 (by decide) ((((((((((((((((((others.erase 1).erase 2).erase 3).erase 4).erase 5).erase 6).erase 7).erase 8).erase 9).erase 10).erase 11).erase 12).erase 13).erase 14).erase 15).erase 16).erase 17).erase 18) (by decide) (by decide) ((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)) (by decide) K _ _ _ _ (by rw [k0_off5_eq]; rfl) _ _ _ _ _ (k0_dev113_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 0, distance 20
  sl_exec
  iapply (wsend0 m c 0 20 (by decide) (((((((((((((((((((others.erase 1).erase 2).erase 3).erase 4).erase 5).erase 6).erase 7).erase 8).erase 9).erase 10).erase 11).erase 12).erase 13).erase 14).erase 15).erase 16).erase 17).erase 18).erase 19) (by decide) (by decide) K _ (owedRem2 c (((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19))) (owedRem2_lv c (((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 0 20 (by decide) (((((((((((((((((((others.erase 1).erase 2).erase 3).erase 4).erase 5).erase 6).erase 7).erase 8).erase 9).erase 10).erase 11).erase 12).erase 13).erase 14).erase 15).erase 16).erase 17).erase 18).erase 19) (by decide) (by decide) (((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)) (by decide) K _ _ _ _ (by rw [k0_off5_eq]; rfl) _ _ _ _ _ (k0_dev114_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 0, distance 21
  sl_exec
  iapply (wsend0 m c 0 21 (by decide) ((((((((((((((((((((others.erase 1).erase 2).erase 3).erase 4).erase 5).erase 6).erase 7).erase 8).erase 9).erase 10).erase 11).erase 12).erase 13).erase 14).erase 15).erase 16).erase 17).erase 18).erase 19).erase 20) (by decide) (by decide) K _ (owedRem2 c ((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20))) (owedRem2_lv c ((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 0 21 (by decide) ((((((((((((((((((((others.erase 1).erase 2).erase 3).erase 4).erase 5).erase 6).erase 7).erase 8).erase 9).erase 10).erase 11).erase 12).erase 13).erase 14).erase 15).erase 16).erase 17).erase 18).erase 19).erase 20) (by decide) (by decide) ((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)) (by decide) K _ _ _ _ (by rw [k0_off5_eq]; rfl) _ _ _ _ _ (k0_dev115_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 0, distance 22
  sl_exec
  iapply (wsend0 m c 0 22 (by decide) (((((((((((((((((((((others.erase 1).erase 2).erase 3).erase 4).erase 5).erase 6).erase 7).erase 8).erase 9).erase 10).erase 11).erase 12).erase 13).erase 14).erase 15).erase 16).erase 17).erase 18).erase 19).erase 20).erase 21) (by decide) (by decide) K _ (owedRem2 c (((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21))) (owedRem2_lv c (((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 0 22 (by decide) (((((((((((((((((((((others.erase 1).erase 2).erase 3).erase 4).erase 5).erase 6).erase 7).erase 8).erase 9).erase 10).erase 11).erase 12).erase 13).erase 14).erase 15).erase 16).erase 17).erase 18).erase 19).erase 20).erase 21) (by decide) (by decide) (((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)) (by decide) K _ _ _ _ (by rw [k0_off5_eq]; rfl) _ _ _ _ _ (k0_dev116_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 0, distance 23
  sl_exec
  iapply (wsend0 m c 0 23 (by decide) ((((((((((((((((((((((others.erase 1).erase 2).erase 3).erase 4).erase 5).erase 6).erase 7).erase 8).erase 9).erase 10).erase 11).erase 12).erase 13).erase 14).erase 15).erase 16).erase 17).erase 18).erase 19).erase 20).erase 21).erase 22) (by decide) (by decide) K _ (owedRem2 c ((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22))) (owedRem2_lv c ((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 0 23 (by decide) ((((((((((((((((((((((others.erase 1).erase 2).erase 3).erase 4).erase 5).erase 6).erase 7).erase 8).erase 9).erase 10).erase 11).erase 12).erase 13).erase 14).erase 15).erase 16).erase 17).erase 18).erase 19).erase 20).erase 21).erase 22) (by decide) (by decide) ((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)) (by decide) K _ _ _ _ (by rw [k0_off5_eq]; rfl) _ _ _ _ _ (k0_dev117_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 0, distance 24
  sl_exec
  iapply (wsend0 m c 0 24 (by decide) (((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23) (by decide) (by decide) K _ (owedRem2 c (((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23))) (owedRem2_lv c (((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 0 24 (by decide) (((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23) (by decide) (by decide) (((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)) (by decide) K _ _ _ _ (by rw [k0_off5_eq]; rfl) _ _ _ _ _ (k0_dev118_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 0, distance 25
  sl_exec
  iapply (wsend0 m c 0 25 (by decide) ((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24) (by decide) (by decide) K _ (owedRem2 c ((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24))) (owedRem2_lv c ((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 0 25 (by decide) ((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24) (by decide) (by decide) ((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)) (by decide) K _ _ _ _ (by rw [k0_off5_eq]; rfl) _ _ _ _ _ (k0_dev119_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 0, distance 26
  sl_exec
  iapply (wsend0 m c 0 26 (by decide) (((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25) (by decide) (by decide) K _ (owedRem2 c (((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25))) (owedRem2_lv c (((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 0 26 (by decide) (((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25) (by decide) (by decide) (((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)) (by decide) K _ _ _ _ (by rw [k0_off5_eq]; rfl) _ _ _ _ _ (k0_dev120_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 0, distance 27
  sl_exec
  iapply (wsend0 m c 0 27 (by decide) ((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26) (by decide) (by decide) K _ (owedRem2 c ((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26))) (owedRem2_lv c ((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 0 27 (by decide) ((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26) (by decide) (by decide) ((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)) (by decide) K _ _ _ _ (by rw [k0_off5_eq]; rfl) _ _ _ _ _ (k0_dev121_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 0, distance 28
  sl_exec
  iapply (wsend0 m c 0 28 (by decide) (((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27) (by decide) (by decide) K _ (owedRem2 c (((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27))) (owedRem2_lv c (((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 0 28 (by decide) (((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27) (by decide) (by decide) (((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)) (by decide) K _ _ _ _ (by rw [k0_off5_eq]; rfl) _ _ _ _ _ (k0_dev122_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 0, distance 29
  sl_exec
  iapply (wsend0 m c 0 29 (by decide) ((((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27).erase 28) (by decide) (by decide) K _ (owedRem2 c ((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28))) (owedRem2_lv c ((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 0 29 (by decide) ((((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27).erase 28) (by decide) (by decide) ((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)) (by decide) K _ _ _ _ (by rw [k0_off5_eq]; rfl) _ _ _ _ _ (k0_dev123_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 0, distance 30
  sl_exec
  iapply (wsend0 m c 0 30 (by decide) (((((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27).erase 28).erase 29) (by decide) (by decide) K _ (owedRem2 c (((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29))) (owedRem2_lv c (((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 0 30 (by decide) (((((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27).erase 28).erase 29) (by decide) (by decide) (((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)) (by decide) K _ _ _ _ (by rw [k0_off5_eq]; rfl) _ _ _ _ _ (k0_dev124_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 0, distance 31
  sl_exec
  iapply (wsend0 m c 0 31 (by decide) ((((((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27).erase 28).erase 29).erase 30) (by decide) (by decide) K _ (owedRem2 c ((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30))) (owedRem2_lv c ((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 0 31 (by decide) ((((((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27).erase 28).erase 29).erase 30) (by decide) (by decide) ((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)) (by decide) K _ _ _ _ (by rw [k0_off5_eq]; rfl) _ _ _ _ _ (k0_dev125_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  ihave HC0 := (st3_done m c 0 _ hS0) $$ Hs3
  ihave Hw1 := (st2_init m c 1) $$ [Hat1 HcR1]
  · isplitl [Hat1] <;> iassumption
  -- wait for the first-round copy to land: column half 1, distance 1
  sl_exec
  iapply (wait1 m c 1 1 (by decide) others (by decide) (by decide) K _ (owedRem2 c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) (owedRem2_lv c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) _ _ _ _ _ _ (by decide))
  isplitr; · iexact HI
  isplitr; · iexact Hlev
  isplitl [Hw1]; · iexact Hw1
  isplitl [HO]; · iexact HO
  iintro ⟨Hw1, HO⟩
  -- wait for the first-round copy to land: column half 1, distance 2
  sl_exec
  iapply (wait1 m c 1 2 (by decide) (others.erase 1) (by decide) (by decide) K _ (owedRem2 c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) (owedRem2_lv c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) _ _ _ _ _ _ (by decide))
  isplitr; · iexact HI
  isplitr; · iexact Hlev
  isplitl [Hw1]; · iexact Hw1
  isplitl [HO]; · iexact HO
  iintro ⟨Hw1, HO⟩
  -- wait for the first-round copy to land: column half 1, distance 3
  sl_exec
  iapply (wait1 m c 1 3 (by decide) ((others.erase 1).erase 2) (by decide) (by decide) K _ (owedRem2 c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) (owedRem2_lv c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) _ _ _ _ _ _ (by decide))
  isplitr; · iexact HI
  isplitr; · iexact Hlev
  isplitl [Hw1]; · iexact Hw1
  isplitl [HO]; · iexact HO
  iintro ⟨Hw1, HO⟩
  -- wait for the first-round copy to land: column half 1, distance 4
  sl_exec
  iapply (wait1 m c 1 4 (by decide) (((others.erase 1).erase 2).erase 3) (by decide) (by decide) K _ (owedRem2 c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) (owedRem2_lv c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) _ _ _ _ _ _ (by decide))
  isplitr; · iexact HI
  isplitr; · iexact Hlev
  isplitl [Hw1]; · iexact Hw1
  isplitl [HO]; · iexact HO
  iintro ⟨Hw1, HO⟩
  -- wait for the first-round copy to land: column half 1, distance 5
  sl_exec
  iapply (wait1 m c 1 5 (by decide) ((((others.erase 1).erase 2).erase 3).erase 4) (by decide) (by decide) K _ (owedRem2 c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) (owedRem2_lv c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) _ _ _ _ _ _ (by decide))
  isplitr; · iexact HI
  isplitr; · iexact Hlev
  isplitl [Hw1]; · iexact Hw1
  isplitl [HO]; · iexact HO
  iintro ⟨Hw1, HO⟩
  -- wait for the first-round copy to land: column half 1, distance 6
  sl_exec
  iapply (wait1 m c 1 6 (by decide) (((((others.erase 1).erase 2).erase 3).erase 4).erase 5) (by decide) (by decide) K _ (owedRem2 c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) (owedRem2_lv c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) _ _ _ _ _ _ (by decide))
  isplitr; · iexact HI
  isplitr; · iexact Hlev
  isplitl [Hw1]; · iexact Hw1
  isplitl [HO]; · iexact HO
  iintro ⟨Hw1, HO⟩
  -- wait for the first-round copy to land: column half 1, distance 7
  sl_exec
  iapply (wait1 m c 1 7 (by decide) ((((((others.erase 1).erase 2).erase 3).erase 4).erase 5).erase 6) (by decide) (by decide) K _ (owedRem2 c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) (owedRem2_lv c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) _ _ _ _ _ _ (by decide))
  isplitr; · iexact HI
  isplitr; · iexact Hlev
  isplitl [Hw1]; · iexact Hw1
  isplitl [HO]; · iexact HO
  iintro ⟨Hw1, HO⟩
  -- wait for the first-round copy to land: column half 1, distance 8
  sl_exec
  iapply (wait1 m c 1 8 (by decide) (((((((others.erase 1).erase 2).erase 3).erase 4).erase 5).erase 6).erase 7) (by decide) (by decide) K _ (owedRem2 c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) (owedRem2_lv c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) _ _ _ _ _ _ (by decide))
  isplitr; · iexact HI
  isplitr; · iexact Hlev
  isplitl [Hw1]; · iexact Hw1
  isplitl [HO]; · iexact HO
  iintro ⟨Hw1, HO⟩
  -- wait for the first-round copy to land: column half 1, distance 9
  sl_exec
  iapply (wait1 m c 1 9 (by decide) ((((((((others.erase 1).erase 2).erase 3).erase 4).erase 5).erase 6).erase 7).erase 8) (by decide) (by decide) K _ (owedRem2 c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) (owedRem2_lv c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) _ _ _ _ _ _ (by decide))
  isplitr; · iexact HI
  isplitr; · iexact Hlev
  isplitl [Hw1]; · iexact Hw1
  isplitl [HO]; · iexact HO
  iintro ⟨Hw1, HO⟩
  -- wait for the first-round copy to land: column half 1, distance 10
  sl_exec
  iapply (wait1 m c 1 10 (by decide) (((((((((others.erase 1).erase 2).erase 3).erase 4).erase 5).erase 6).erase 7).erase 8).erase 9) (by decide) (by decide) K _ (owedRem2 c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) (owedRem2_lv c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) _ _ _ _ _ _ (by decide))
  isplitr; · iexact HI
  isplitr; · iexact Hlev
  isplitl [Hw1]; · iexact Hw1
  isplitl [HO]; · iexact HO
  iintro ⟨Hw1, HO⟩
  -- wait for the first-round copy to land: column half 1, distance 11
  sl_exec
  iapply (wait1 m c 1 11 (by decide) ((((((((((others.erase 1).erase 2).erase 3).erase 4).erase 5).erase 6).erase 7).erase 8).erase 9).erase 10) (by decide) (by decide) K _ (owedRem2 c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) (owedRem2_lv c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) _ _ _ _ _ _ (by decide))
  isplitr; · iexact HI
  isplitr; · iexact Hlev
  isplitl [Hw1]; · iexact Hw1
  isplitl [HO]; · iexact HO
  iintro ⟨Hw1, HO⟩
  -- wait for the first-round copy to land: column half 1, distance 12
  sl_exec
  iapply (wait1 m c 1 12 (by decide) (((((((((((others.erase 1).erase 2).erase 3).erase 4).erase 5).erase 6).erase 7).erase 8).erase 9).erase 10).erase 11) (by decide) (by decide) K _ (owedRem2 c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) (owedRem2_lv c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) _ _ _ _ _ _ (by decide))
  isplitr; · iexact HI
  isplitr; · iexact Hlev
  isplitl [Hw1]; · iexact Hw1
  isplitl [HO]; · iexact HO
  iintro ⟨Hw1, HO⟩
  -- wait for the first-round copy to land: column half 1, distance 13
  sl_exec
  iapply (wait1 m c 1 13 (by decide) ((((((((((((others.erase 1).erase 2).erase 3).erase 4).erase 5).erase 6).erase 7).erase 8).erase 9).erase 10).erase 11).erase 12) (by decide) (by decide) K _ (owedRem2 c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) (owedRem2_lv c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) _ _ _ _ _ _ (by decide))
  isplitr; · iexact HI
  isplitr; · iexact Hlev
  isplitl [Hw1]; · iexact Hw1
  isplitl [HO]; · iexact HO
  iintro ⟨Hw1, HO⟩
  -- wait for the first-round copy to land: column half 1, distance 14
  sl_exec
  iapply (wait1 m c 1 14 (by decide) (((((((((((((others.erase 1).erase 2).erase 3).erase 4).erase 5).erase 6).erase 7).erase 8).erase 9).erase 10).erase 11).erase 12).erase 13) (by decide) (by decide) K _ (owedRem2 c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) (owedRem2_lv c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) _ _ _ _ _ _ (by decide))
  isplitr; · iexact HI
  isplitr; · iexact Hlev
  isplitl [Hw1]; · iexact Hw1
  isplitl [HO]; · iexact HO
  iintro ⟨Hw1, HO⟩
  -- wait for the first-round copy to land: column half 1, distance 15
  sl_exec
  iapply (wait1 m c 1 15 (by decide) ((((((((((((((others.erase 1).erase 2).erase 3).erase 4).erase 5).erase 6).erase 7).erase 8).erase 9).erase 10).erase 11).erase 12).erase 13).erase 14) (by decide) (by decide) K _ (owedRem2 c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) (owedRem2_lv c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) _ _ _ _ _ _ (by decide))
  isplitr; · iexact HI
  isplitr; · iexact Hlev
  isplitl [Hw1]; · iexact Hw1
  isplitl [HO]; · iexact HO
  iintro ⟨Hw1, HO⟩
  -- wait for the first-round copy to land: column half 1, distance 16
  sl_exec
  iapply (wait1 m c 1 16 (by decide) (((((((((((((((others.erase 1).erase 2).erase 3).erase 4).erase 5).erase 6).erase 7).erase 8).erase 9).erase 10).erase 11).erase 12).erase 13).erase 14).erase 15) (by decide) (by decide) K _ (owedRem2 c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) (owedRem2_lv c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) _ _ _ _ _ _ (by decide))
  isplitr; · iexact HI
  isplitr; · iexact Hlev
  isplitl [Hw1]; · iexact Hw1
  isplitl [HO]; · iexact HO
  iintro ⟨Hw1, HO⟩
  -- wait for the first-round copy to land: column half 1, distance 17
  sl_exec
  iapply (wait1 m c 1 17 (by decide) ((((((((((((((((others.erase 1).erase 2).erase 3).erase 4).erase 5).erase 6).erase 7).erase 8).erase 9).erase 10).erase 11).erase 12).erase 13).erase 14).erase 15).erase 16) (by decide) (by decide) K _ (owedRem2 c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) (owedRem2_lv c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) _ _ _ _ _ _ (by decide))
  isplitr; · iexact HI
  isplitr; · iexact Hlev
  isplitl [Hw1]; · iexact Hw1
  isplitl [HO]; · iexact HO
  iintro ⟨Hw1, HO⟩
  -- wait for the first-round copy to land: column half 1, distance 18
  sl_exec
  iapply (wait1 m c 1 18 (by decide) (((((((((((((((((others.erase 1).erase 2).erase 3).erase 4).erase 5).erase 6).erase 7).erase 8).erase 9).erase 10).erase 11).erase 12).erase 13).erase 14).erase 15).erase 16).erase 17) (by decide) (by decide) K _ (owedRem2 c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) (owedRem2_lv c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) _ _ _ _ _ _ (by decide))
  isplitr; · iexact HI
  isplitr; · iexact Hlev
  isplitl [Hw1]; · iexact Hw1
  isplitl [HO]; · iexact HO
  iintro ⟨Hw1, HO⟩
  -- wait for the first-round copy to land: column half 1, distance 19
  sl_exec
  iapply (wait1 m c 1 19 (by decide) ((((((((((((((((((others.erase 1).erase 2).erase 3).erase 4).erase 5).erase 6).erase 7).erase 8).erase 9).erase 10).erase 11).erase 12).erase 13).erase 14).erase 15).erase 16).erase 17).erase 18) (by decide) (by decide) K _ (owedRem2 c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) (owedRem2_lv c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) _ _ _ _ _ _ (by decide))
  isplitr; · iexact HI
  isplitr; · iexact Hlev
  isplitl [Hw1]; · iexact Hw1
  isplitl [HO]; · iexact HO
  iintro ⟨Hw1, HO⟩
  -- wait for the first-round copy to land: column half 1, distance 20
  sl_exec
  iapply (wait1 m c 1 20 (by decide) (((((((((((((((((((others.erase 1).erase 2).erase 3).erase 4).erase 5).erase 6).erase 7).erase 8).erase 9).erase 10).erase 11).erase 12).erase 13).erase 14).erase 15).erase 16).erase 17).erase 18).erase 19) (by decide) (by decide) K _ (owedRem2 c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) (owedRem2_lv c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) _ _ _ _ _ _ (by decide))
  isplitr; · iexact HI
  isplitr; · iexact Hlev
  isplitl [Hw1]; · iexact Hw1
  isplitl [HO]; · iexact HO
  iintro ⟨Hw1, HO⟩
  -- wait for the first-round copy to land: column half 1, distance 21
  sl_exec
  iapply (wait1 m c 1 21 (by decide) ((((((((((((((((((((others.erase 1).erase 2).erase 3).erase 4).erase 5).erase 6).erase 7).erase 8).erase 9).erase 10).erase 11).erase 12).erase 13).erase 14).erase 15).erase 16).erase 17).erase 18).erase 19).erase 20) (by decide) (by decide) K _ (owedRem2 c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) (owedRem2_lv c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) _ _ _ _ _ _ (by decide))
  isplitr; · iexact HI
  isplitr; · iexact Hlev
  isplitl [Hw1]; · iexact Hw1
  isplitl [HO]; · iexact HO
  iintro ⟨Hw1, HO⟩
  -- wait for the first-round copy to land: column half 1, distance 22
  sl_exec
  iapply (wait1 m c 1 22 (by decide) (((((((((((((((((((((others.erase 1).erase 2).erase 3).erase 4).erase 5).erase 6).erase 7).erase 8).erase 9).erase 10).erase 11).erase 12).erase 13).erase 14).erase 15).erase 16).erase 17).erase 18).erase 19).erase 20).erase 21) (by decide) (by decide) K _ (owedRem2 c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) (owedRem2_lv c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) _ _ _ _ _ _ (by decide))
  isplitr; · iexact HI
  isplitr; · iexact Hlev
  isplitl [Hw1]; · iexact Hw1
  isplitl [HO]; · iexact HO
  iintro ⟨Hw1, HO⟩
  -- wait for the first-round copy to land: column half 1, distance 23
  sl_exec
  iapply (wait1 m c 1 23 (by decide) ((((((((((((((((((((((others.erase 1).erase 2).erase 3).erase 4).erase 5).erase 6).erase 7).erase 8).erase 9).erase 10).erase 11).erase 12).erase 13).erase 14).erase 15).erase 16).erase 17).erase 18).erase 19).erase 20).erase 21).erase 22) (by decide) (by decide) K _ (owedRem2 c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) (owedRem2_lv c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) _ _ _ _ _ _ (by decide))
  isplitr; · iexact HI
  isplitr; · iexact Hlev
  isplitl [Hw1]; · iexact Hw1
  isplitl [HO]; · iexact HO
  iintro ⟨Hw1, HO⟩
  -- wait for the first-round copy to land: column half 1, distance 24
  sl_exec
  iapply (wait1 m c 1 24 (by decide) (((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23) (by decide) (by decide) K _ (owedRem2 c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) (owedRem2_lv c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) _ _ _ _ _ _ (by decide))
  isplitr; · iexact HI
  isplitr; · iexact Hlev
  isplitl [Hw1]; · iexact Hw1
  isplitl [HO]; · iexact HO
  iintro ⟨Hw1, HO⟩
  -- wait for the first-round copy to land: column half 1, distance 25
  sl_exec
  iapply (wait1 m c 1 25 (by decide) ((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24) (by decide) (by decide) K _ (owedRem2 c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) (owedRem2_lv c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) _ _ _ _ _ _ (by decide))
  isplitr; · iexact HI
  isplitr; · iexact Hlev
  isplitl [Hw1]; · iexact Hw1
  isplitl [HO]; · iexact HO
  iintro ⟨Hw1, HO⟩
  -- wait for the first-round copy to land: column half 1, distance 26
  sl_exec
  iapply (wait1 m c 1 26 (by decide) (((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25) (by decide) (by decide) K _ (owedRem2 c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) (owedRem2_lv c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) _ _ _ _ _ _ (by decide))
  isplitr; · iexact HI
  isplitr; · iexact Hlev
  isplitl [Hw1]; · iexact Hw1
  isplitl [HO]; · iexact HO
  iintro ⟨Hw1, HO⟩
  -- wait for the first-round copy to land: column half 1, distance 27
  sl_exec
  iapply (wait1 m c 1 27 (by decide) ((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26) (by decide) (by decide) K _ (owedRem2 c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) (owedRem2_lv c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) _ _ _ _ _ _ (by decide))
  isplitr; · iexact HI
  isplitr; · iexact Hlev
  isplitl [Hw1]; · iexact Hw1
  isplitl [HO]; · iexact HO
  iintro ⟨Hw1, HO⟩
  -- wait for the first-round copy to land: column half 1, distance 28
  sl_exec
  iapply (wait1 m c 1 28 (by decide) (((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27) (by decide) (by decide) K _ (owedRem2 c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) (owedRem2_lv c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) _ _ _ _ _ _ (by decide))
  isplitr; · iexact HI
  isplitr; · iexact Hlev
  isplitl [Hw1]; · iexact Hw1
  isplitl [HO]; · iexact HO
  iintro ⟨Hw1, HO⟩
  -- wait for the first-round copy to land: column half 1, distance 29
  sl_exec
  iapply (wait1 m c 1 29 (by decide) ((((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27).erase 28) (by decide) (by decide) K _ (owedRem2 c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) (owedRem2_lv c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) _ _ _ _ _ _ (by decide))
  isplitr; · iexact HI
  isplitr; · iexact Hlev
  isplitl [Hw1]; · iexact Hw1
  isplitl [HO]; · iexact HO
  iintro ⟨Hw1, HO⟩
  -- wait for the first-round copy to land: column half 1, distance 30
  sl_exec
  iapply (wait1 m c 1 30 (by decide) (((((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27).erase 28).erase 29) (by decide) (by decide) K _ (owedRem2 c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) (owedRem2_lv c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) _ _ _ _ _ _ (by decide))
  isplitr; · iexact HI
  isplitr; · iexact Hlev
  isplitl [Hw1]; · iexact Hw1
  isplitl [HO]; · iexact HO
  iintro ⟨Hw1, HO⟩
  -- wait for the first-round copy to land: column half 1, distance 31
  sl_exec
  iapply (wait1 m c 1 31 (by decide) ((((((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27).erase 28).erase 29).erase 30) (by decide) (by decide) K _ (owedRem2 c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) (owedRem2_lv c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) _ _ _ _ _ _ (by decide))
  isplitr; · iexact HI
  isplitr; · iexact Hlev
  isplitl [Hw1]; · iexact Hw1
  isplitl [HO]; · iexact HO
  iintro ⟨Hw1, HO⟩
  -- column half 1 of the gathering buffer joined; summed into the own result slot
  ihave Hd1 := (st2_done m c 1 _ hS0) $$ Hw1
  icases Hd1 with ⟨Hrest1, Hg1⟩
  ihave Hcols1 := (gathJoin m c g1 hg1 1) $$ [HG01 Hg1]
  · isplitl [HG01] <;> iassumption
  iapply (half_sum1 m c (gathC m c) s2 (fun _ _ => rfl) _ _ _ _ _ _)
  isplitl [Hcols1]; · iexact Hcols1
  isplitl [HR01]; · iexact HR01
  iintro Hcols1 ⟨%R1, %hR1, HR01⟩
  simp -zeta only [ret_bind']
  -- the own result slot's column half 1 holds the sum: its 31 readers' shares lent; the second round of column half 1
  ihave HR01 := (Entails.of_eq (resPts_congr' (F := F) c c 1 fullShare hR1)) $$ HR01
  ihave HL1 := (Entails.of_eq (resPts_lend (F := F) c c 1 (resC m))) $$ HR01
  icases HL1 with ⟨Hlent1, Hrem1⟩
  ihave Hdn1 := (st1_done m c 1 _ hS0) $$ Hst1
  ihave Hs3 := (st3_init m c 1) $$ [Hdn1 Hrest1 Hlent1]
  · isplitl [Hdn1]; · iexact Hdn1
    isplitl [Hrest1] <;> iassumption
  -- send wait, then second-round copy: column half 1, distance 1
  sl_exec
  iapply (wsend0 m c 1 1 (by decide) others (by decide) (by decide) K _ (owedRem2 c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) (owedRem2_lv c (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 1 1 (by decide) others (by decide) (by decide) (((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)) (by decide) K _ _ _ _ (by rw [k0_off7_eq]; rfl) _ _ _ _ _ (k0_dev126_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 1, distance 2
  sl_exec
  iapply (wsend0 m c 1 2 (by decide) (others.erase 1) (by decide) (by decide) K _ (owedRem2 c ((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1))) (owedRem2_lv c ((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 1 2 (by decide) (others.erase 1) (by decide) (by decide) ((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)) (by decide) K _ _ _ _ (by rw [k0_off7_eq]; rfl) _ _ _ _ _ (k0_dev127_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 1, distance 3
  sl_exec
  iapply (wsend0 m c 1 3 (by decide) ((others.erase 1).erase 2) (by decide) (by decide) K _ (owedRem2 c (((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2))) (owedRem2_lv c (((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 1 3 (by decide) ((others.erase 1).erase 2) (by decide) (by decide) (((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)) (by decide) K _ _ _ _ (by rw [k0_off7_eq]; rfl) _ _ _ _ _ (k0_dev128_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 1, distance 4
  sl_exec
  iapply (wsend0 m c 1 4 (by decide) (((others.erase 1).erase 2).erase 3) (by decide) (by decide) K _ (owedRem2 c ((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3))) (owedRem2_lv c ((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 1 4 (by decide) (((others.erase 1).erase 2).erase 3) (by decide) (by decide) ((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)) (by decide) K _ _ _ _ (by rw [k0_off7_eq]; rfl) _ _ _ _ _ (k0_dev129_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 1, distance 5
  sl_exec
  iapply (wsend0 m c 1 5 (by decide) ((((others.erase 1).erase 2).erase 3).erase 4) (by decide) (by decide) K _ (owedRem2 c (((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4))) (owedRem2_lv c (((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 1 5 (by decide) ((((others.erase 1).erase 2).erase 3).erase 4) (by decide) (by decide) (((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)) (by decide) K _ _ _ _ (by rw [k0_off7_eq]; rfl) _ _ _ _ _ (k0_dev130_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 1, distance 6
  sl_exec
  iapply (wsend0 m c 1 6 (by decide) (((((others.erase 1).erase 2).erase 3).erase 4).erase 5) (by decide) (by decide) K _ (owedRem2 c ((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5))) (owedRem2_lv c ((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 1 6 (by decide) (((((others.erase 1).erase 2).erase 3).erase 4).erase 5) (by decide) (by decide) ((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)) (by decide) K _ _ _ _ (by rw [k0_off7_eq]; rfl) _ _ _ _ _ (k0_dev131_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 1, distance 7
  sl_exec
  iapply (wsend0 m c 1 7 (by decide) ((((((others.erase 1).erase 2).erase 3).erase 4).erase 5).erase 6) (by decide) (by decide) K _ (owedRem2 c (((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6))) (owedRem2_lv c (((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 1 7 (by decide) ((((((others.erase 1).erase 2).erase 3).erase 4).erase 5).erase 6) (by decide) (by decide) (((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)) (by decide) K _ _ _ _ (by rw [k0_off7_eq]; rfl) _ _ _ _ _ (k0_dev132_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 1, distance 8
  sl_exec
  iapply (wsend0 m c 1 8 (by decide) (((((((others.erase 1).erase 2).erase 3).erase 4).erase 5).erase 6).erase 7) (by decide) (by decide) K _ (owedRem2 c ((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7))) (owedRem2_lv c ((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 1 8 (by decide) (((((((others.erase 1).erase 2).erase 3).erase 4).erase 5).erase 6).erase 7) (by decide) (by decide) ((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)) (by decide) K _ _ _ _ (by rw [k0_off7_eq]; rfl) _ _ _ _ _ (k0_dev133_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 1, distance 9
  sl_exec
  iapply (wsend0 m c 1 9 (by decide) ((((((((others.erase 1).erase 2).erase 3).erase 4).erase 5).erase 6).erase 7).erase 8) (by decide) (by decide) K _ (owedRem2 c (((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8))) (owedRem2_lv c (((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 1 9 (by decide) ((((((((others.erase 1).erase 2).erase 3).erase 4).erase 5).erase 6).erase 7).erase 8) (by decide) (by decide) (((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)) (by decide) K _ _ _ _ (by rw [k0_off7_eq]; rfl) _ _ _ _ _ (k0_dev134_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 1, distance 10
  sl_exec
  iapply (wsend0 m c 1 10 (by decide) (((((((((others.erase 1).erase 2).erase 3).erase 4).erase 5).erase 6).erase 7).erase 8).erase 9) (by decide) (by decide) K _ (owedRem2 c ((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9))) (owedRem2_lv c ((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 1 10 (by decide) (((((((((others.erase 1).erase 2).erase 3).erase 4).erase 5).erase 6).erase 7).erase 8).erase 9) (by decide) (by decide) ((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)) (by decide) K _ _ _ _ (by rw [k0_off7_eq]; rfl) _ _ _ _ _ (k0_dev135_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 1, distance 11
  sl_exec
  iapply (wsend0 m c 1 11 (by decide) ((((((((((others.erase 1).erase 2).erase 3).erase 4).erase 5).erase 6).erase 7).erase 8).erase 9).erase 10) (by decide) (by decide) K _ (owedRem2 c (((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10))) (owedRem2_lv c (((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 1 11 (by decide) ((((((((((others.erase 1).erase 2).erase 3).erase 4).erase 5).erase 6).erase 7).erase 8).erase 9).erase 10) (by decide) (by decide) (((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)) (by decide) K _ _ _ _ (by rw [k0_off7_eq]; rfl) _ _ _ _ _ (k0_dev136_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 1, distance 12
  sl_exec
  iapply (wsend0 m c 1 12 (by decide) (((((((((((others.erase 1).erase 2).erase 3).erase 4).erase 5).erase 6).erase 7).erase 8).erase 9).erase 10).erase 11) (by decide) (by decide) K _ (owedRem2 c ((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11))) (owedRem2_lv c ((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 1 12 (by decide) (((((((((((others.erase 1).erase 2).erase 3).erase 4).erase 5).erase 6).erase 7).erase 8).erase 9).erase 10).erase 11) (by decide) (by decide) ((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)) (by decide) K _ _ _ _ (by rw [k0_off7_eq]; rfl) _ _ _ _ _ (k0_dev137_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 1, distance 13
  sl_exec
  iapply (wsend0 m c 1 13 (by decide) ((((((((((((others.erase 1).erase 2).erase 3).erase 4).erase 5).erase 6).erase 7).erase 8).erase 9).erase 10).erase 11).erase 12) (by decide) (by decide) K _ (owedRem2 c (((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12))) (owedRem2_lv c (((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 1 13 (by decide) ((((((((((((others.erase 1).erase 2).erase 3).erase 4).erase 5).erase 6).erase 7).erase 8).erase 9).erase 10).erase 11).erase 12) (by decide) (by decide) (((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)) (by decide) K _ _ _ _ (by rw [k0_off7_eq]; rfl) _ _ _ _ _ (k0_dev138_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 1, distance 14
  sl_exec
  iapply (wsend0 m c 1 14 (by decide) (((((((((((((others.erase 1).erase 2).erase 3).erase 4).erase 5).erase 6).erase 7).erase 8).erase 9).erase 10).erase 11).erase 12).erase 13) (by decide) (by decide) K _ (owedRem2 c ((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13))) (owedRem2_lv c ((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 1 14 (by decide) (((((((((((((others.erase 1).erase 2).erase 3).erase 4).erase 5).erase 6).erase 7).erase 8).erase 9).erase 10).erase 11).erase 12).erase 13) (by decide) (by decide) ((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)) (by decide) K _ _ _ _ (by rw [k0_off7_eq]; rfl) _ _ _ _ _ (k0_dev139_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 1, distance 15
  sl_exec
  iapply (wsend0 m c 1 15 (by decide) ((((((((((((((others.erase 1).erase 2).erase 3).erase 4).erase 5).erase 6).erase 7).erase 8).erase 9).erase 10).erase 11).erase 12).erase 13).erase 14) (by decide) (by decide) K _ (owedRem2 c (((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14))) (owedRem2_lv c (((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 1 15 (by decide) ((((((((((((((others.erase 1).erase 2).erase 3).erase 4).erase 5).erase 6).erase 7).erase 8).erase 9).erase 10).erase 11).erase 12).erase 13).erase 14) (by decide) (by decide) (((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)) (by decide) K _ _ _ _ (by rw [k0_off7_eq]; rfl) _ _ _ _ _ (k0_dev140_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 1, distance 16
  sl_exec
  iapply (wsend0 m c 1 16 (by decide) (((((((((((((((others.erase 1).erase 2).erase 3).erase 4).erase 5).erase 6).erase 7).erase 8).erase 9).erase 10).erase 11).erase 12).erase 13).erase 14).erase 15) (by decide) (by decide) K _ (owedRem2 c ((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15))) (owedRem2_lv c ((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 1 16 (by decide) (((((((((((((((others.erase 1).erase 2).erase 3).erase 4).erase 5).erase 6).erase 7).erase 8).erase 9).erase 10).erase 11).erase 12).erase 13).erase 14).erase 15) (by decide) (by decide) ((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)) (by decide) K _ _ _ _ (by rw [k0_off7_eq]; rfl) _ _ _ _ _ (k0_dev141_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 1, distance 17
  sl_exec
  iapply (wsend0 m c 1 17 (by decide) ((((((((((((((((others.erase 1).erase 2).erase 3).erase 4).erase 5).erase 6).erase 7).erase 8).erase 9).erase 10).erase 11).erase 12).erase 13).erase 14).erase 15).erase 16) (by decide) (by decide) K _ (owedRem2 c (((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16))) (owedRem2_lv c (((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 1 17 (by decide) ((((((((((((((((others.erase 1).erase 2).erase 3).erase 4).erase 5).erase 6).erase 7).erase 8).erase 9).erase 10).erase 11).erase 12).erase 13).erase 14).erase 15).erase 16) (by decide) (by decide) (((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)) (by decide) K _ _ _ _ (by rw [k0_off7_eq]; rfl) _ _ _ _ _ (k0_dev142_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 1, distance 18
  sl_exec
  iapply (wsend0 m c 1 18 (by decide) (((((((((((((((((others.erase 1).erase 2).erase 3).erase 4).erase 5).erase 6).erase 7).erase 8).erase 9).erase 10).erase 11).erase 12).erase 13).erase 14).erase 15).erase 16).erase 17) (by decide) (by decide) K _ (owedRem2 c ((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17))) (owedRem2_lv c ((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 1 18 (by decide) (((((((((((((((((others.erase 1).erase 2).erase 3).erase 4).erase 5).erase 6).erase 7).erase 8).erase 9).erase 10).erase 11).erase 12).erase 13).erase 14).erase 15).erase 16).erase 17) (by decide) (by decide) ((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)) (by decide) K _ _ _ _ (by rw [k0_off7_eq]; rfl) _ _ _ _ _ (k0_dev143_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 1, distance 19
  sl_exec
  iapply (wsend0 m c 1 19 (by decide) ((((((((((((((((((others.erase 1).erase 2).erase 3).erase 4).erase 5).erase 6).erase 7).erase 8).erase 9).erase 10).erase 11).erase 12).erase 13).erase 14).erase 15).erase 16).erase 17).erase 18) (by decide) (by decide) K _ (owedRem2 c (((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18))) (owedRem2_lv c (((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 1 19 (by decide) ((((((((((((((((((others.erase 1).erase 2).erase 3).erase 4).erase 5).erase 6).erase 7).erase 8).erase 9).erase 10).erase 11).erase 12).erase 13).erase 14).erase 15).erase 16).erase 17).erase 18) (by decide) (by decide) (((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)) (by decide) K _ _ _ _ (by rw [k0_off7_eq]; rfl) _ _ _ _ _ (k0_dev144_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 1, distance 20
  sl_exec
  iapply (wsend0 m c 1 20 (by decide) (((((((((((((((((((others.erase 1).erase 2).erase 3).erase 4).erase 5).erase 6).erase 7).erase 8).erase 9).erase 10).erase 11).erase 12).erase 13).erase 14).erase 15).erase 16).erase 17).erase 18).erase 19) (by decide) (by decide) K _ (owedRem2 c ((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19))) (owedRem2_lv c ((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 1 20 (by decide) (((((((((((((((((((others.erase 1).erase 2).erase 3).erase 4).erase 5).erase 6).erase 7).erase 8).erase 9).erase 10).erase 11).erase 12).erase 13).erase 14).erase 15).erase 16).erase 17).erase 18).erase 19) (by decide) (by decide) ((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)) (by decide) K _ _ _ _ (by rw [k0_off7_eq]; rfl) _ _ _ _ _ (k0_dev145_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 1, distance 21
  sl_exec
  iapply (wsend0 m c 1 21 (by decide) ((((((((((((((((((((others.erase 1).erase 2).erase 3).erase 4).erase 5).erase 6).erase 7).erase 8).erase 9).erase 10).erase 11).erase 12).erase 13).erase 14).erase 15).erase 16).erase 17).erase 18).erase 19).erase 20) (by decide) (by decide) K _ (owedRem2 c (((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20))) (owedRem2_lv c (((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 1 21 (by decide) ((((((((((((((((((((others.erase 1).erase 2).erase 3).erase 4).erase 5).erase 6).erase 7).erase 8).erase 9).erase 10).erase 11).erase 12).erase 13).erase 14).erase 15).erase 16).erase 17).erase 18).erase 19).erase 20) (by decide) (by decide) (((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)) (by decide) K _ _ _ _ (by rw [k0_off7_eq]; rfl) _ _ _ _ _ (k0_dev146_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 1, distance 22
  sl_exec
  iapply (wsend0 m c 1 22 (by decide) (((((((((((((((((((((others.erase 1).erase 2).erase 3).erase 4).erase 5).erase 6).erase 7).erase 8).erase 9).erase 10).erase 11).erase 12).erase 13).erase 14).erase 15).erase 16).erase 17).erase 18).erase 19).erase 20).erase 21) (by decide) (by decide) K _ (owedRem2 c ((((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)).erase (1, 21))) (owedRem2_lv c ((((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)).erase (1, 21))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 1 22 (by decide) (((((((((((((((((((((others.erase 1).erase 2).erase 3).erase 4).erase 5).erase 6).erase 7).erase 8).erase 9).erase 10).erase 11).erase 12).erase 13).erase 14).erase 15).erase 16).erase 17).erase 18).erase 19).erase 20).erase 21) (by decide) (by decide) ((((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)).erase (1, 21)) (by decide) K _ _ _ _ (by rw [k0_off7_eq]; rfl) _ _ _ _ _ (k0_dev147_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 1, distance 23
  sl_exec
  iapply (wsend0 m c 1 23 (by decide) ((((((((((((((((((((((others.erase 1).erase 2).erase 3).erase 4).erase 5).erase 6).erase 7).erase 8).erase 9).erase 10).erase 11).erase 12).erase 13).erase 14).erase 15).erase 16).erase 17).erase 18).erase 19).erase 20).erase 21).erase 22) (by decide) (by decide) K _ (owedRem2 c (((((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)).erase (1, 21)).erase (1, 22))) (owedRem2_lv c (((((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)).erase (1, 21)).erase (1, 22))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 1 23 (by decide) ((((((((((((((((((((((others.erase 1).erase 2).erase 3).erase 4).erase 5).erase 6).erase 7).erase 8).erase 9).erase 10).erase 11).erase 12).erase 13).erase 14).erase 15).erase 16).erase 17).erase 18).erase 19).erase 20).erase 21).erase 22) (by decide) (by decide) (((((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)).erase (1, 21)).erase (1, 22)) (by decide) K _ _ _ _ (by rw [k0_off7_eq]; rfl) _ _ _ _ _ (k0_dev148_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 1, distance 24
  sl_exec
  iapply (wsend0 m c 1 24 (by decide) (((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23) (by decide) (by decide) K _ (owedRem2 c ((((((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)).erase (1, 21)).erase (1, 22)).erase (1, 23))) (owedRem2_lv c ((((((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)).erase (1, 21)).erase (1, 22)).erase (1, 23))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 1 24 (by decide) (((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23) (by decide) (by decide) ((((((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)).erase (1, 21)).erase (1, 22)).erase (1, 23)) (by decide) K _ _ _ _ (by rw [k0_off7_eq]; rfl) _ _ _ _ _ (k0_dev149_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 1, distance 25
  sl_exec
  iapply (wsend0 m c 1 25 (by decide) ((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24) (by decide) (by decide) K _ (owedRem2 c (((((((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)).erase (1, 21)).erase (1, 22)).erase (1, 23)).erase (1, 24))) (owedRem2_lv c (((((((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)).erase (1, 21)).erase (1, 22)).erase (1, 23)).erase (1, 24))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 1 25 (by decide) ((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24) (by decide) (by decide) (((((((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)).erase (1, 21)).erase (1, 22)).erase (1, 23)).erase (1, 24)) (by decide) K _ _ _ _ (by rw [k0_off7_eq]; rfl) _ _ _ _ _ (k0_dev150_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 1, distance 26
  sl_exec
  iapply (wsend0 m c 1 26 (by decide) (((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25) (by decide) (by decide) K _ (owedRem2 c ((((((((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)).erase (1, 21)).erase (1, 22)).erase (1, 23)).erase (1, 24)).erase (1, 25))) (owedRem2_lv c ((((((((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)).erase (1, 21)).erase (1, 22)).erase (1, 23)).erase (1, 24)).erase (1, 25))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 1 26 (by decide) (((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25) (by decide) (by decide) ((((((((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)).erase (1, 21)).erase (1, 22)).erase (1, 23)).erase (1, 24)).erase (1, 25)) (by decide) K _ _ _ _ (by rw [k0_off7_eq]; rfl) _ _ _ _ _ (k0_dev151_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 1, distance 27
  sl_exec
  iapply (wsend0 m c 1 27 (by decide) ((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26) (by decide) (by decide) K _ (owedRem2 c (((((((((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)).erase (1, 21)).erase (1, 22)).erase (1, 23)).erase (1, 24)).erase (1, 25)).erase (1, 26))) (owedRem2_lv c (((((((((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)).erase (1, 21)).erase (1, 22)).erase (1, 23)).erase (1, 24)).erase (1, 25)).erase (1, 26))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 1 27 (by decide) ((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26) (by decide) (by decide) (((((((((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)).erase (1, 21)).erase (1, 22)).erase (1, 23)).erase (1, 24)).erase (1, 25)).erase (1, 26)) (by decide) K _ _ _ _ (by rw [k0_off7_eq]; rfl) _ _ _ _ _ (k0_dev152_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 1, distance 28
  sl_exec
  iapply (wsend0 m c 1 28 (by decide) (((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27) (by decide) (by decide) K _ (owedRem2 c ((((((((((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)).erase (1, 21)).erase (1, 22)).erase (1, 23)).erase (1, 24)).erase (1, 25)).erase (1, 26)).erase (1, 27))) (owedRem2_lv c ((((((((((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)).erase (1, 21)).erase (1, 22)).erase (1, 23)).erase (1, 24)).erase (1, 25)).erase (1, 26)).erase (1, 27))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 1 28 (by decide) (((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27) (by decide) (by decide) ((((((((((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)).erase (1, 21)).erase (1, 22)).erase (1, 23)).erase (1, 24)).erase (1, 25)).erase (1, 26)).erase (1, 27)) (by decide) K _ _ _ _ (by rw [k0_off7_eq]; rfl) _ _ _ _ _ (k0_dev153_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 1, distance 29
  sl_exec
  iapply (wsend0 m c 1 29 (by decide) ((((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27).erase 28) (by decide) (by decide) K _ (owedRem2 c (((((((((((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)).erase (1, 21)).erase (1, 22)).erase (1, 23)).erase (1, 24)).erase (1, 25)).erase (1, 26)).erase (1, 27)).erase (1, 28))) (owedRem2_lv c (((((((((((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)).erase (1, 21)).erase (1, 22)).erase (1, 23)).erase (1, 24)).erase (1, 25)).erase (1, 26)).erase (1, 27)).erase (1, 28))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 1 29 (by decide) ((((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27).erase 28) (by decide) (by decide) (((((((((((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)).erase (1, 21)).erase (1, 22)).erase (1, 23)).erase (1, 24)).erase (1, 25)).erase (1, 26)).erase (1, 27)).erase (1, 28)) (by decide) K _ _ _ _ (by rw [k0_off7_eq]; rfl) _ _ _ _ _ (k0_dev154_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 1, distance 30
  sl_exec
  iapply (wsend0 m c 1 30 (by decide) (((((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27).erase 28).erase 29) (by decide) (by decide) K _ (owedRem2 c ((((((((((((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)).erase (1, 21)).erase (1, 22)).erase (1, 23)).erase (1, 24)).erase (1, 25)).erase (1, 26)).erase (1, 27)).erase (1, 28)).erase (1, 29))) (owedRem2_lv c ((((((((((((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)).erase (1, 21)).erase (1, 22)).erase (1, 23)).erase (1, 24)).erase (1, 25)).erase (1, 26)).erase (1, 27)).erase (1, 28)).erase (1, 29))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 1 30 (by decide) (((((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27).erase 28).erase 29) (by decide) (by decide) ((((((((((((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)).erase (1, 21)).erase (1, 22)).erase (1, 23)).erase (1, 24)).erase (1, 25)).erase (1, 26)).erase (1, 27)).erase (1, 28)).erase (1, 29)) (by decide) K _ _ _ _ (by rw [k0_off7_eq]; rfl) _ _ _ _ _ (k0_dev155_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  -- send wait, then second-round copy: column half 1, distance 31
  sl_exec
  iapply (wsend0 m c 1 31 (by decide) ((((((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27).erase 28).erase 29).erase 30) (by decide) (by decide) K _ (owedRem2 c (((((((((((((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)).erase (1, 21)).erase (1, 22)).erase (1, 23)).erase (1, 24)).erase (1, 25)).erase (1, 26)).erase (1, 27)).erase (1, 28)).erase (1, 29)).erase (1, 30))) (owedRem2_lv c (((((((((((((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)).erase (1, 21)).erase (1, 22)).erase (1, 23)).erase (1, 24)).erase (1, 25)).erase (1, 26)).erase (1, 27)).erase (1, 28)).erase (1, 29)).erase (1, 30))) _ _ _ _ _ _ rfl)
  isplitr; · iexact HI
  isplitr; · iexact Hlev
  isplitl [Hs3]; · iexact Hs3
  isplitl [HO]; · iexact HO
  iintro ⟨Htodo3, Hdone3, Hmid, HO⟩
  sl_exec
  iapply (copy2 m c 1 31 (by decide) ((((((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27).erase 28).erase 29).erase 30) (by decide) (by decide) (((((((((((((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)).erase (1, 21)).erase (1, 22)).erase (1, 23)).erase (1, 24)).erase (1, 25)).erase (1, 26)).erase (1, 27)).erase (1, 28)).erase (1, 29)).erase (1, 30)) (by decide) K _ _ _ _ (by rw [k0_off7_eq]; rfl) _ _ _ _ _ (k0_dev156_fwd c) _ _ _ _)
  isplitr; · iexact HI
  isplitl [Htodo3]; · iexact Htodo3
  isplitl [Hdone3]; · iexact Hdone3
  isplitl [Hmid]; · iexact Hmid
  isplitl [HO]; · iexact HO
  iintro ⟨Hs3, HO⟩
  ihave HC1 := (st3_done m c 1 _ hS0) $$ Hs3
  ihave HO := (owes_congr (F := F) c (show owedRem2 c ((((((((((((((((((((((((((((((((((((((((((((((((((((((((((((((pairs.erase (0, 1)).erase (0, 2)).erase (0, 3)).erase (0, 4)).erase (0, 5)).erase (0, 6)).erase (0, 7)).erase (0, 8)).erase (0, 9)).erase (0, 10)).erase (0, 11)).erase (0, 12)).erase (0, 13)).erase (0, 14)).erase (0, 15)).erase (0, 16)).erase (0, 17)).erase (0, 18)).erase (0, 19)).erase (0, 20)).erase (0, 21)).erase (0, 22)).erase (0, 23)).erase (0, 24)).erase (0, 25)).erase (0, 26)).erase (0, 27)).erase (0, 28)).erase (0, 29)).erase (0, 30)).erase (0, 31)).erase (1, 1)).erase (1, 2)).erase (1, 3)).erase (1, 4)).erase (1, 5)).erase (1, 6)).erase (1, 7)).erase (1, 8)).erase (1, 9)).erase (1, 10)).erase (1, 11)).erase (1, 12)).erase (1, 13)).erase (1, 14)).erase (1, 15)).erase (1, 16)).erase (1, 17)).erase (1, 18)).erase (1, 19)).erase (1, 20)).erase (1, 21)).erase (1, 22)).erase (1, 23)).erase (1, 24)).erase (1, 25)).erase (1, 26)).erase (1, 27)).erase (1, 28)).erase (1, 29)).erase (1, 30)).erase (1, 31)) = 0 from by rw [hPend]; unfold owedRem2; rw [Finset.sum_empty]) _) $$ HO
  ihave HC0 := (st4_init m c 0) $$ HC0
  -- wait for the second-round copy to land: column half 0, distance 1
  sl_exec
  iapply (wait2 m c 0 1 (by decide) others (by decide) (by decide) K _ _ _ _ _ _ _ (by first | rfl | decide))
  isplitr; · iexact HI
  isplitl [HC0]; · iexact HC0
  isplitl [HO]; · iexact HO
  iintro ⟨HC0, HO⟩
  -- wait for the second-round copy to land: column half 0, distance 2
  sl_exec
  iapply (wait2 m c 0 2 (by decide) (others.erase 1) (by decide) (by decide) K _ _ _ _ _ _ _ (by first | rfl | decide))
  isplitr; · iexact HI
  isplitl [HC0]; · iexact HC0
  isplitl [HO]; · iexact HO
  iintro ⟨HC0, HO⟩
  -- wait for the second-round copy to land: column half 0, distance 3
  sl_exec
  iapply (wait2 m c 0 3 (by decide) ((others.erase 1).erase 2) (by decide) (by decide) K _ _ _ _ _ _ _ (by first | rfl | decide))
  isplitr; · iexact HI
  isplitl [HC0]; · iexact HC0
  isplitl [HO]; · iexact HO
  iintro ⟨HC0, HO⟩
  -- wait for the second-round copy to land: column half 0, distance 4
  sl_exec
  iapply (wait2 m c 0 4 (by decide) (((others.erase 1).erase 2).erase 3) (by decide) (by decide) K _ _ _ _ _ _ _ (by first | rfl | decide))
  isplitr; · iexact HI
  isplitl [HC0]; · iexact HC0
  isplitl [HO]; · iexact HO
  iintro ⟨HC0, HO⟩
  -- wait for the second-round copy to land: column half 0, distance 5
  sl_exec
  iapply (wait2 m c 0 5 (by decide) ((((others.erase 1).erase 2).erase 3).erase 4) (by decide) (by decide) K _ _ _ _ _ _ _ (by first | rfl | decide))
  isplitr; · iexact HI
  isplitl [HC0]; · iexact HC0
  isplitl [HO]; · iexact HO
  iintro ⟨HC0, HO⟩
  -- wait for the second-round copy to land: column half 0, distance 6
  sl_exec
  iapply (wait2 m c 0 6 (by decide) (((((others.erase 1).erase 2).erase 3).erase 4).erase 5) (by decide) (by decide) K _ _ _ _ _ _ _ (by first | rfl | decide))
  isplitr; · iexact HI
  isplitl [HC0]; · iexact HC0
  isplitl [HO]; · iexact HO
  iintro ⟨HC0, HO⟩
  -- wait for the second-round copy to land: column half 0, distance 7
  sl_exec
  iapply (wait2 m c 0 7 (by decide) ((((((others.erase 1).erase 2).erase 3).erase 4).erase 5).erase 6) (by decide) (by decide) K _ _ _ _ _ _ _ (by first | rfl | decide))
  isplitr; · iexact HI
  isplitl [HC0]; · iexact HC0
  isplitl [HO]; · iexact HO
  iintro ⟨HC0, HO⟩
  -- wait for the second-round copy to land: column half 0, distance 8
  sl_exec
  iapply (wait2 m c 0 8 (by decide) (((((((others.erase 1).erase 2).erase 3).erase 4).erase 5).erase 6).erase 7) (by decide) (by decide) K _ _ _ _ _ _ _ (by first | rfl | decide))
  isplitr; · iexact HI
  isplitl [HC0]; · iexact HC0
  isplitl [HO]; · iexact HO
  iintro ⟨HC0, HO⟩
  -- wait for the second-round copy to land: column half 0, distance 9
  sl_exec
  iapply (wait2 m c 0 9 (by decide) ((((((((others.erase 1).erase 2).erase 3).erase 4).erase 5).erase 6).erase 7).erase 8) (by decide) (by decide) K _ _ _ _ _ _ _ (by first | rfl | decide))
  isplitr; · iexact HI
  isplitl [HC0]; · iexact HC0
  isplitl [HO]; · iexact HO
  iintro ⟨HC0, HO⟩
  -- wait for the second-round copy to land: column half 0, distance 10
  sl_exec
  iapply (wait2 m c 0 10 (by decide) (((((((((others.erase 1).erase 2).erase 3).erase 4).erase 5).erase 6).erase 7).erase 8).erase 9) (by decide) (by decide) K _ _ _ _ _ _ _ (by first | rfl | decide))
  isplitr; · iexact HI
  isplitl [HC0]; · iexact HC0
  isplitl [HO]; · iexact HO
  iintro ⟨HC0, HO⟩
  -- wait for the second-round copy to land: column half 0, distance 11
  sl_exec
  iapply (wait2 m c 0 11 (by decide) ((((((((((others.erase 1).erase 2).erase 3).erase 4).erase 5).erase 6).erase 7).erase 8).erase 9).erase 10) (by decide) (by decide) K _ _ _ _ _ _ _ (by first | rfl | decide))
  isplitr; · iexact HI
  isplitl [HC0]; · iexact HC0
  isplitl [HO]; · iexact HO
  iintro ⟨HC0, HO⟩
  -- wait for the second-round copy to land: column half 0, distance 12
  sl_exec
  iapply (wait2 m c 0 12 (by decide) (((((((((((others.erase 1).erase 2).erase 3).erase 4).erase 5).erase 6).erase 7).erase 8).erase 9).erase 10).erase 11) (by decide) (by decide) K _ _ _ _ _ _ _ (by first | rfl | decide))
  isplitr; · iexact HI
  isplitl [HC0]; · iexact HC0
  isplitl [HO]; · iexact HO
  iintro ⟨HC0, HO⟩
  -- wait for the second-round copy to land: column half 0, distance 13
  sl_exec
  iapply (wait2 m c 0 13 (by decide) ((((((((((((others.erase 1).erase 2).erase 3).erase 4).erase 5).erase 6).erase 7).erase 8).erase 9).erase 10).erase 11).erase 12) (by decide) (by decide) K _ _ _ _ _ _ _ (by first | rfl | decide))
  isplitr; · iexact HI
  isplitl [HC0]; · iexact HC0
  isplitl [HO]; · iexact HO
  iintro ⟨HC0, HO⟩
  -- wait for the second-round copy to land: column half 0, distance 14
  sl_exec
  iapply (wait2 m c 0 14 (by decide) (((((((((((((others.erase 1).erase 2).erase 3).erase 4).erase 5).erase 6).erase 7).erase 8).erase 9).erase 10).erase 11).erase 12).erase 13) (by decide) (by decide) K _ _ _ _ _ _ _ (by first | rfl | decide))
  isplitr; · iexact HI
  isplitl [HC0]; · iexact HC0
  isplitl [HO]; · iexact HO
  iintro ⟨HC0, HO⟩
  -- wait for the second-round copy to land: column half 0, distance 15
  sl_exec
  iapply (wait2 m c 0 15 (by decide) ((((((((((((((others.erase 1).erase 2).erase 3).erase 4).erase 5).erase 6).erase 7).erase 8).erase 9).erase 10).erase 11).erase 12).erase 13).erase 14) (by decide) (by decide) K _ _ _ _ _ _ _ (by first | rfl | decide))
  isplitr; · iexact HI
  isplitl [HC0]; · iexact HC0
  isplitl [HO]; · iexact HO
  iintro ⟨HC0, HO⟩
  -- wait for the second-round copy to land: column half 0, distance 16
  sl_exec
  iapply (wait2 m c 0 16 (by decide) (((((((((((((((others.erase 1).erase 2).erase 3).erase 4).erase 5).erase 6).erase 7).erase 8).erase 9).erase 10).erase 11).erase 12).erase 13).erase 14).erase 15) (by decide) (by decide) K _ _ _ _ _ _ _ (by first | rfl | decide))
  isplitr; · iexact HI
  isplitl [HC0]; · iexact HC0
  isplitl [HO]; · iexact HO
  iintro ⟨HC0, HO⟩
  -- wait for the second-round copy to land: column half 0, distance 17
  sl_exec
  iapply (wait2 m c 0 17 (by decide) ((((((((((((((((others.erase 1).erase 2).erase 3).erase 4).erase 5).erase 6).erase 7).erase 8).erase 9).erase 10).erase 11).erase 12).erase 13).erase 14).erase 15).erase 16) (by decide) (by decide) K _ _ _ _ _ _ _ (by first | rfl | decide))
  isplitr; · iexact HI
  isplitl [HC0]; · iexact HC0
  isplitl [HO]; · iexact HO
  iintro ⟨HC0, HO⟩
  -- wait for the second-round copy to land: column half 0, distance 18
  sl_exec
  iapply (wait2 m c 0 18 (by decide) (((((((((((((((((others.erase 1).erase 2).erase 3).erase 4).erase 5).erase 6).erase 7).erase 8).erase 9).erase 10).erase 11).erase 12).erase 13).erase 14).erase 15).erase 16).erase 17) (by decide) (by decide) K _ _ _ _ _ _ _ (by first | rfl | decide))
  isplitr; · iexact HI
  isplitl [HC0]; · iexact HC0
  isplitl [HO]; · iexact HO
  iintro ⟨HC0, HO⟩
  -- wait for the second-round copy to land: column half 0, distance 19
  sl_exec
  iapply (wait2 m c 0 19 (by decide) ((((((((((((((((((others.erase 1).erase 2).erase 3).erase 4).erase 5).erase 6).erase 7).erase 8).erase 9).erase 10).erase 11).erase 12).erase 13).erase 14).erase 15).erase 16).erase 17).erase 18) (by decide) (by decide) K _ _ _ _ _ _ _ (by first | rfl | decide))
  isplitr; · iexact HI
  isplitl [HC0]; · iexact HC0
  isplitl [HO]; · iexact HO
  iintro ⟨HC0, HO⟩
  -- wait for the second-round copy to land: column half 0, distance 20
  sl_exec
  iapply (wait2 m c 0 20 (by decide) (((((((((((((((((((others.erase 1).erase 2).erase 3).erase 4).erase 5).erase 6).erase 7).erase 8).erase 9).erase 10).erase 11).erase 12).erase 13).erase 14).erase 15).erase 16).erase 17).erase 18).erase 19) (by decide) (by decide) K _ _ _ _ _ _ _ (by first | rfl | decide))
  isplitr; · iexact HI
  isplitl [HC0]; · iexact HC0
  isplitl [HO]; · iexact HO
  iintro ⟨HC0, HO⟩
  -- wait for the second-round copy to land: column half 0, distance 21
  sl_exec
  iapply (wait2 m c 0 21 (by decide) ((((((((((((((((((((others.erase 1).erase 2).erase 3).erase 4).erase 5).erase 6).erase 7).erase 8).erase 9).erase 10).erase 11).erase 12).erase 13).erase 14).erase 15).erase 16).erase 17).erase 18).erase 19).erase 20) (by decide) (by decide) K _ _ _ _ _ _ _ (by first | rfl | decide))
  isplitr; · iexact HI
  isplitl [HC0]; · iexact HC0
  isplitl [HO]; · iexact HO
  iintro ⟨HC0, HO⟩
  -- wait for the second-round copy to land: column half 0, distance 22
  sl_exec
  iapply (wait2 m c 0 22 (by decide) (((((((((((((((((((((others.erase 1).erase 2).erase 3).erase 4).erase 5).erase 6).erase 7).erase 8).erase 9).erase 10).erase 11).erase 12).erase 13).erase 14).erase 15).erase 16).erase 17).erase 18).erase 19).erase 20).erase 21) (by decide) (by decide) K _ _ _ _ _ _ _ (by first | rfl | decide))
  isplitr; · iexact HI
  isplitl [HC0]; · iexact HC0
  isplitl [HO]; · iexact HO
  iintro ⟨HC0, HO⟩
  -- wait for the second-round copy to land: column half 0, distance 23
  sl_exec
  iapply (wait2 m c 0 23 (by decide) ((((((((((((((((((((((others.erase 1).erase 2).erase 3).erase 4).erase 5).erase 6).erase 7).erase 8).erase 9).erase 10).erase 11).erase 12).erase 13).erase 14).erase 15).erase 16).erase 17).erase 18).erase 19).erase 20).erase 21).erase 22) (by decide) (by decide) K _ _ _ _ _ _ _ (by first | rfl | decide))
  isplitr; · iexact HI
  isplitl [HC0]; · iexact HC0
  isplitl [HO]; · iexact HO
  iintro ⟨HC0, HO⟩
  -- wait for the second-round copy to land: column half 0, distance 24
  sl_exec
  iapply (wait2 m c 0 24 (by decide) (((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23) (by decide) (by decide) K _ _ _ _ _ _ _ (by first | rfl | decide))
  isplitr; · iexact HI
  isplitl [HC0]; · iexact HC0
  isplitl [HO]; · iexact HO
  iintro ⟨HC0, HO⟩
  -- wait for the second-round copy to land: column half 0, distance 25
  sl_exec
  iapply (wait2 m c 0 25 (by decide) ((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24) (by decide) (by decide) K _ _ _ _ _ _ _ (by first | rfl | decide))
  isplitr; · iexact HI
  isplitl [HC0]; · iexact HC0
  isplitl [HO]; · iexact HO
  iintro ⟨HC0, HO⟩
  -- wait for the second-round copy to land: column half 0, distance 26
  sl_exec
  iapply (wait2 m c 0 26 (by decide) (((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25) (by decide) (by decide) K _ _ _ _ _ _ _ (by first | rfl | decide))
  isplitr; · iexact HI
  isplitl [HC0]; · iexact HC0
  isplitl [HO]; · iexact HO
  iintro ⟨HC0, HO⟩
  -- wait for the second-round copy to land: column half 0, distance 27
  sl_exec
  iapply (wait2 m c 0 27 (by decide) ((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26) (by decide) (by decide) K _ _ _ _ _ _ _ (by first | rfl | decide))
  isplitr; · iexact HI
  isplitl [HC0]; · iexact HC0
  isplitl [HO]; · iexact HO
  iintro ⟨HC0, HO⟩
  -- wait for the second-round copy to land: column half 0, distance 28
  sl_exec
  iapply (wait2 m c 0 28 (by decide) (((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27) (by decide) (by decide) K _ _ _ _ _ _ _ (by first | rfl | decide))
  isplitr; · iexact HI
  isplitl [HC0]; · iexact HC0
  isplitl [HO]; · iexact HO
  iintro ⟨HC0, HO⟩
  -- wait for the second-round copy to land: column half 0, distance 29
  sl_exec
  iapply (wait2 m c 0 29 (by decide) ((((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27).erase 28) (by decide) (by decide) K _ _ _ _ _ _ _ (by first | rfl | decide))
  isplitr; · iexact HI
  isplitl [HC0]; · iexact HC0
  isplitl [HO]; · iexact HO
  iintro ⟨HC0, HO⟩
  -- wait for the second-round copy to land: column half 0, distance 30
  sl_exec
  iapply (wait2 m c 0 30 (by decide) (((((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27).erase 28).erase 29) (by decide) (by decide) K _ _ _ _ _ _ _ (by first | rfl | decide))
  isplitr; · iexact HI
  isplitl [HC0]; · iexact HC0
  isplitl [HO]; · iexact HO
  iintro ⟨HC0, HO⟩
  -- wait for the second-round copy to land: column half 0, distance 31
  sl_exec
  iapply (wait2 m c 0 31 (by decide) ((((((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27).erase 28).erase 29).erase 30) (by decide) (by decide) K _ _ _ _ _ _ _ (by first | rfl | decide))
  isplitr; · iexact HI
  isplitl [HC0]; · iexact HC0
  isplitl [HO]; · iexact HO
  iintro ⟨HC0, HO⟩
  have hEst40 : ((((((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27).erase 28).erase 29).erase 30).erase 31 = (∅ : Finset (Fin 32)) := by decide
  ihave HC0 := (st4_done m c 0 _ hEst40) $$ HC0
  ihave HC1 := (st4_init m c 1) $$ HC1
  -- wait for the second-round copy to land: column half 1, distance 1
  sl_exec
  iapply (wait2 m c 1 1 (by decide) others (by decide) (by decide) K _ _ _ _ _ _ _ (by first | rfl | decide))
  isplitr; · iexact HI
  isplitl [HC1]; · iexact HC1
  isplitl [HO]; · iexact HO
  iintro ⟨HC1, HO⟩
  -- wait for the second-round copy to land: column half 1, distance 2
  sl_exec
  iapply (wait2 m c 1 2 (by decide) (others.erase 1) (by decide) (by decide) K _ _ _ _ _ _ _ (by first | rfl | decide))
  isplitr; · iexact HI
  isplitl [HC1]; · iexact HC1
  isplitl [HO]; · iexact HO
  iintro ⟨HC1, HO⟩
  -- wait for the second-round copy to land: column half 1, distance 3
  sl_exec
  iapply (wait2 m c 1 3 (by decide) ((others.erase 1).erase 2) (by decide) (by decide) K _ _ _ _ _ _ _ (by first | rfl | decide))
  isplitr; · iexact HI
  isplitl [HC1]; · iexact HC1
  isplitl [HO]; · iexact HO
  iintro ⟨HC1, HO⟩
  -- wait for the second-round copy to land: column half 1, distance 4
  sl_exec
  iapply (wait2 m c 1 4 (by decide) (((others.erase 1).erase 2).erase 3) (by decide) (by decide) K _ _ _ _ _ _ _ (by first | rfl | decide))
  isplitr; · iexact HI
  isplitl [HC1]; · iexact HC1
  isplitl [HO]; · iexact HO
  iintro ⟨HC1, HO⟩
  -- wait for the second-round copy to land: column half 1, distance 5
  sl_exec
  iapply (wait2 m c 1 5 (by decide) ((((others.erase 1).erase 2).erase 3).erase 4) (by decide) (by decide) K _ _ _ _ _ _ _ (by first | rfl | decide))
  isplitr; · iexact HI
  isplitl [HC1]; · iexact HC1
  isplitl [HO]; · iexact HO
  iintro ⟨HC1, HO⟩
  -- wait for the second-round copy to land: column half 1, distance 6
  sl_exec
  iapply (wait2 m c 1 6 (by decide) (((((others.erase 1).erase 2).erase 3).erase 4).erase 5) (by decide) (by decide) K _ _ _ _ _ _ _ (by first | rfl | decide))
  isplitr; · iexact HI
  isplitl [HC1]; · iexact HC1
  isplitl [HO]; · iexact HO
  iintro ⟨HC1, HO⟩
  -- wait for the second-round copy to land: column half 1, distance 7
  sl_exec
  iapply (wait2 m c 1 7 (by decide) ((((((others.erase 1).erase 2).erase 3).erase 4).erase 5).erase 6) (by decide) (by decide) K _ _ _ _ _ _ _ (by first | rfl | decide))
  isplitr; · iexact HI
  isplitl [HC1]; · iexact HC1
  isplitl [HO]; · iexact HO
  iintro ⟨HC1, HO⟩
  -- wait for the second-round copy to land: column half 1, distance 8
  sl_exec
  iapply (wait2 m c 1 8 (by decide) (((((((others.erase 1).erase 2).erase 3).erase 4).erase 5).erase 6).erase 7) (by decide) (by decide) K _ _ _ _ _ _ _ (by first | rfl | decide))
  isplitr; · iexact HI
  isplitl [HC1]; · iexact HC1
  isplitl [HO]; · iexact HO
  iintro ⟨HC1, HO⟩
  -- wait for the second-round copy to land: column half 1, distance 9
  sl_exec
  iapply (wait2 m c 1 9 (by decide) ((((((((others.erase 1).erase 2).erase 3).erase 4).erase 5).erase 6).erase 7).erase 8) (by decide) (by decide) K _ _ _ _ _ _ _ (by first | rfl | decide))
  isplitr; · iexact HI
  isplitl [HC1]; · iexact HC1
  isplitl [HO]; · iexact HO
  iintro ⟨HC1, HO⟩
  -- wait for the second-round copy to land: column half 1, distance 10
  sl_exec
  iapply (wait2 m c 1 10 (by decide) (((((((((others.erase 1).erase 2).erase 3).erase 4).erase 5).erase 6).erase 7).erase 8).erase 9) (by decide) (by decide) K _ _ _ _ _ _ _ (by first | rfl | decide))
  isplitr; · iexact HI
  isplitl [HC1]; · iexact HC1
  isplitl [HO]; · iexact HO
  iintro ⟨HC1, HO⟩
  -- wait for the second-round copy to land: column half 1, distance 11
  sl_exec
  iapply (wait2 m c 1 11 (by decide) ((((((((((others.erase 1).erase 2).erase 3).erase 4).erase 5).erase 6).erase 7).erase 8).erase 9).erase 10) (by decide) (by decide) K _ _ _ _ _ _ _ (by first | rfl | decide))
  isplitr; · iexact HI
  isplitl [HC1]; · iexact HC1
  isplitl [HO]; · iexact HO
  iintro ⟨HC1, HO⟩
  -- wait for the second-round copy to land: column half 1, distance 12
  sl_exec
  iapply (wait2 m c 1 12 (by decide) (((((((((((others.erase 1).erase 2).erase 3).erase 4).erase 5).erase 6).erase 7).erase 8).erase 9).erase 10).erase 11) (by decide) (by decide) K _ _ _ _ _ _ _ (by first | rfl | decide))
  isplitr; · iexact HI
  isplitl [HC1]; · iexact HC1
  isplitl [HO]; · iexact HO
  iintro ⟨HC1, HO⟩
  -- wait for the second-round copy to land: column half 1, distance 13
  sl_exec
  iapply (wait2 m c 1 13 (by decide) ((((((((((((others.erase 1).erase 2).erase 3).erase 4).erase 5).erase 6).erase 7).erase 8).erase 9).erase 10).erase 11).erase 12) (by decide) (by decide) K _ _ _ _ _ _ _ (by first | rfl | decide))
  isplitr; · iexact HI
  isplitl [HC1]; · iexact HC1
  isplitl [HO]; · iexact HO
  iintro ⟨HC1, HO⟩
  -- wait for the second-round copy to land: column half 1, distance 14
  sl_exec
  iapply (wait2 m c 1 14 (by decide) (((((((((((((others.erase 1).erase 2).erase 3).erase 4).erase 5).erase 6).erase 7).erase 8).erase 9).erase 10).erase 11).erase 12).erase 13) (by decide) (by decide) K _ _ _ _ _ _ _ (by first | rfl | decide))
  isplitr; · iexact HI
  isplitl [HC1]; · iexact HC1
  isplitl [HO]; · iexact HO
  iintro ⟨HC1, HO⟩
  -- wait for the second-round copy to land: column half 1, distance 15
  sl_exec
  iapply (wait2 m c 1 15 (by decide) ((((((((((((((others.erase 1).erase 2).erase 3).erase 4).erase 5).erase 6).erase 7).erase 8).erase 9).erase 10).erase 11).erase 12).erase 13).erase 14) (by decide) (by decide) K _ _ _ _ _ _ _ (by first | rfl | decide))
  isplitr; · iexact HI
  isplitl [HC1]; · iexact HC1
  isplitl [HO]; · iexact HO
  iintro ⟨HC1, HO⟩
  -- wait for the second-round copy to land: column half 1, distance 16
  sl_exec
  iapply (wait2 m c 1 16 (by decide) (((((((((((((((others.erase 1).erase 2).erase 3).erase 4).erase 5).erase 6).erase 7).erase 8).erase 9).erase 10).erase 11).erase 12).erase 13).erase 14).erase 15) (by decide) (by decide) K _ _ _ _ _ _ _ (by first | rfl | decide))
  isplitr; · iexact HI
  isplitl [HC1]; · iexact HC1
  isplitl [HO]; · iexact HO
  iintro ⟨HC1, HO⟩
  -- wait for the second-round copy to land: column half 1, distance 17
  sl_exec
  iapply (wait2 m c 1 17 (by decide) ((((((((((((((((others.erase 1).erase 2).erase 3).erase 4).erase 5).erase 6).erase 7).erase 8).erase 9).erase 10).erase 11).erase 12).erase 13).erase 14).erase 15).erase 16) (by decide) (by decide) K _ _ _ _ _ _ _ (by first | rfl | decide))
  isplitr; · iexact HI
  isplitl [HC1]; · iexact HC1
  isplitl [HO]; · iexact HO
  iintro ⟨HC1, HO⟩
  -- wait for the second-round copy to land: column half 1, distance 18
  sl_exec
  iapply (wait2 m c 1 18 (by decide) (((((((((((((((((others.erase 1).erase 2).erase 3).erase 4).erase 5).erase 6).erase 7).erase 8).erase 9).erase 10).erase 11).erase 12).erase 13).erase 14).erase 15).erase 16).erase 17) (by decide) (by decide) K _ _ _ _ _ _ _ (by first | rfl | decide))
  isplitr; · iexact HI
  isplitl [HC1]; · iexact HC1
  isplitl [HO]; · iexact HO
  iintro ⟨HC1, HO⟩
  -- wait for the second-round copy to land: column half 1, distance 19
  sl_exec
  iapply (wait2 m c 1 19 (by decide) ((((((((((((((((((others.erase 1).erase 2).erase 3).erase 4).erase 5).erase 6).erase 7).erase 8).erase 9).erase 10).erase 11).erase 12).erase 13).erase 14).erase 15).erase 16).erase 17).erase 18) (by decide) (by decide) K _ _ _ _ _ _ _ (by first | rfl | decide))
  isplitr; · iexact HI
  isplitl [HC1]; · iexact HC1
  isplitl [HO]; · iexact HO
  iintro ⟨HC1, HO⟩
  -- wait for the second-round copy to land: column half 1, distance 20
  sl_exec
  iapply (wait2 m c 1 20 (by decide) (((((((((((((((((((others.erase 1).erase 2).erase 3).erase 4).erase 5).erase 6).erase 7).erase 8).erase 9).erase 10).erase 11).erase 12).erase 13).erase 14).erase 15).erase 16).erase 17).erase 18).erase 19) (by decide) (by decide) K _ _ _ _ _ _ _ (by first | rfl | decide))
  isplitr; · iexact HI
  isplitl [HC1]; · iexact HC1
  isplitl [HO]; · iexact HO
  iintro ⟨HC1, HO⟩
  -- wait for the second-round copy to land: column half 1, distance 21
  sl_exec
  iapply (wait2 m c 1 21 (by decide) ((((((((((((((((((((others.erase 1).erase 2).erase 3).erase 4).erase 5).erase 6).erase 7).erase 8).erase 9).erase 10).erase 11).erase 12).erase 13).erase 14).erase 15).erase 16).erase 17).erase 18).erase 19).erase 20) (by decide) (by decide) K _ _ _ _ _ _ _ (by first | rfl | decide))
  isplitr; · iexact HI
  isplitl [HC1]; · iexact HC1
  isplitl [HO]; · iexact HO
  iintro ⟨HC1, HO⟩
  -- wait for the second-round copy to land: column half 1, distance 22
  sl_exec
  iapply (wait2 m c 1 22 (by decide) (((((((((((((((((((((others.erase 1).erase 2).erase 3).erase 4).erase 5).erase 6).erase 7).erase 8).erase 9).erase 10).erase 11).erase 12).erase 13).erase 14).erase 15).erase 16).erase 17).erase 18).erase 19).erase 20).erase 21) (by decide) (by decide) K _ _ _ _ _ _ _ (by first | rfl | decide))
  isplitr; · iexact HI
  isplitl [HC1]; · iexact HC1
  isplitl [HO]; · iexact HO
  iintro ⟨HC1, HO⟩
  -- wait for the second-round copy to land: column half 1, distance 23
  sl_exec
  iapply (wait2 m c 1 23 (by decide) ((((((((((((((((((((((others.erase 1).erase 2).erase 3).erase 4).erase 5).erase 6).erase 7).erase 8).erase 9).erase 10).erase 11).erase 12).erase 13).erase 14).erase 15).erase 16).erase 17).erase 18).erase 19).erase 20).erase 21).erase 22) (by decide) (by decide) K _ _ _ _ _ _ _ (by first | rfl | decide))
  isplitr; · iexact HI
  isplitl [HC1]; · iexact HC1
  isplitl [HO]; · iexact HO
  iintro ⟨HC1, HO⟩
  -- wait for the second-round copy to land: column half 1, distance 24
  sl_exec
  iapply (wait2 m c 1 24 (by decide) (((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23) (by decide) (by decide) K _ _ _ _ _ _ _ (by first | rfl | decide))
  isplitr; · iexact HI
  isplitl [HC1]; · iexact HC1
  isplitl [HO]; · iexact HO
  iintro ⟨HC1, HO⟩
  -- wait for the second-round copy to land: column half 1, distance 25
  sl_exec
  iapply (wait2 m c 1 25 (by decide) ((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24) (by decide) (by decide) K _ _ _ _ _ _ _ (by first | rfl | decide))
  isplitr; · iexact HI
  isplitl [HC1]; · iexact HC1
  isplitl [HO]; · iexact HO
  iintro ⟨HC1, HO⟩
  -- wait for the second-round copy to land: column half 1, distance 26
  sl_exec
  iapply (wait2 m c 1 26 (by decide) (((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25) (by decide) (by decide) K _ _ _ _ _ _ _ (by first | rfl | decide))
  isplitr; · iexact HI
  isplitl [HC1]; · iexact HC1
  isplitl [HO]; · iexact HO
  iintro ⟨HC1, HO⟩
  -- wait for the second-round copy to land: column half 1, distance 27
  sl_exec
  iapply (wait2 m c 1 27 (by decide) ((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26) (by decide) (by decide) K _ _ _ _ _ _ _ (by first | rfl | decide))
  isplitr; · iexact HI
  isplitl [HC1]; · iexact HC1
  isplitl [HO]; · iexact HO
  iintro ⟨HC1, HO⟩
  -- wait for the second-round copy to land: column half 1, distance 28
  sl_exec
  iapply (wait2 m c 1 28 (by decide) (((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27) (by decide) (by decide) K _ _ _ _ _ _ _ (by first | rfl | decide))
  isplitr; · iexact HI
  isplitl [HC1]; · iexact HC1
  isplitl [HO]; · iexact HO
  iintro ⟨HC1, HO⟩
  -- wait for the second-round copy to land: column half 1, distance 29
  sl_exec
  iapply (wait2 m c 1 29 (by decide) ((((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27).erase 28) (by decide) (by decide) K _ _ _ _ _ _ _ (by first | rfl | decide))
  isplitr; · iexact HI
  isplitl [HC1]; · iexact HC1
  isplitl [HO]; · iexact HO
  iintro ⟨HC1, HO⟩
  -- wait for the second-round copy to land: column half 1, distance 30
  sl_exec
  iapply (wait2 m c 1 30 (by decide) (((((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27).erase 28).erase 29) (by decide) (by decide) K _ _ _ _ _ _ _ (by first | rfl | decide))
  isplitr; · iexact HI
  isplitl [HC1]; · iexact HC1
  isplitl [HO]; · iexact HO
  iintro ⟨HC1, HO⟩
  -- wait for the second-round copy to land: column half 1, distance 31
  sl_exec
  iapply (wait2 m c 1 31 (by decide) ((((((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27).erase 28).erase 29).erase 30) (by decide) (by decide) K _ _ _ _ _ _ _ (by first | rfl | decide))
  isplitr; · iexact HI
  isplitl [HC1]; · iexact HC1
  isplitl [HO]; · iexact HO
  iintro ⟨HC1, HO⟩
  have hEst41 : ((((((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27).erase 28).erase 29).erase 30).erase 31 = (∅ : Finset (Fin 32)) := by decide
  ihave HC1 := (st4_done m c 1 _ hEst41) $$ HC1
  -- the last load: the whole result buffer, the own slot at the share left after the 31 pending copies
  ihave HAL := (Entails.of_eq (atLoad_eq m c).symm) $$ [HC0 HC1 Hrem0 Hrem1]
  · isplitl [HC0]; · iexact HC0
    isplitl [HC1]; · iexact HC1
    isplitl [Hrem0]; · iexact Hrem0
    iexact Hrem1
  iapply (load_all m c _ rfl _ _ _ _)
  isplitl [HAL]; · iexact HAL
  iintro HAL
  ihave HAL := (Entails.of_eq (atLoad_eq m c)) $$ HAL
  icases HAL with ⟨HC0, HC1, Hrem0, Hrem1⟩
  simp -zeta only [ret_bind']
  ihave HC0 := (st5_init m c 0) $$ HC0
  -- wait for the second-round copy to have been read out: column half 0, distance 1
  sl_exec
  iapply (wait3 m c 0 1 (by decide) others (by decide) (by decide) K _ _ _ _ _ _ _ (by first | rfl | decide))
  isplitr; · iexact HI
  isplitl [HC0]; · iexact HC0
  isplitl [HO]; · iexact HO
  iintro ⟨HC0, HO⟩
  -- wait for the second-round copy to have been read out: column half 0, distance 2
  sl_exec
  iapply (wait3 m c 0 2 (by decide) (others.erase 1) (by decide) (by decide) K _ _ _ _ _ _ _ (by first | rfl | decide))
  isplitr; · iexact HI
  isplitl [HC0]; · iexact HC0
  isplitl [HO]; · iexact HO
  iintro ⟨HC0, HO⟩
  -- wait for the second-round copy to have been read out: column half 0, distance 3
  sl_exec
  iapply (wait3 m c 0 3 (by decide) ((others.erase 1).erase 2) (by decide) (by decide) K _ _ _ _ _ _ _ (by first | rfl | decide))
  isplitr; · iexact HI
  isplitl [HC0]; · iexact HC0
  isplitl [HO]; · iexact HO
  iintro ⟨HC0, HO⟩
  -- wait for the second-round copy to have been read out: column half 0, distance 4
  sl_exec
  iapply (wait3 m c 0 4 (by decide) (((others.erase 1).erase 2).erase 3) (by decide) (by decide) K _ _ _ _ _ _ _ (by first | rfl | decide))
  isplitr; · iexact HI
  isplitl [HC0]; · iexact HC0
  isplitl [HO]; · iexact HO
  iintro ⟨HC0, HO⟩
  -- wait for the second-round copy to have been read out: column half 0, distance 5
  sl_exec
  iapply (wait3 m c 0 5 (by decide) ((((others.erase 1).erase 2).erase 3).erase 4) (by decide) (by decide) K _ _ _ _ _ _ _ (by first | rfl | decide))
  isplitr; · iexact HI
  isplitl [HC0]; · iexact HC0
  isplitl [HO]; · iexact HO
  iintro ⟨HC0, HO⟩
  -- wait for the second-round copy to have been read out: column half 0, distance 6
  sl_exec
  iapply (wait3 m c 0 6 (by decide) (((((others.erase 1).erase 2).erase 3).erase 4).erase 5) (by decide) (by decide) K _ _ _ _ _ _ _ (by first | rfl | decide))
  isplitr; · iexact HI
  isplitl [HC0]; · iexact HC0
  isplitl [HO]; · iexact HO
  iintro ⟨HC0, HO⟩
  -- wait for the second-round copy to have been read out: column half 0, distance 7
  sl_exec
  iapply (wait3 m c 0 7 (by decide) ((((((others.erase 1).erase 2).erase 3).erase 4).erase 5).erase 6) (by decide) (by decide) K _ _ _ _ _ _ _ (by first | rfl | decide))
  isplitr; · iexact HI
  isplitl [HC0]; · iexact HC0
  isplitl [HO]; · iexact HO
  iintro ⟨HC0, HO⟩
  -- wait for the second-round copy to have been read out: column half 0, distance 8
  sl_exec
  iapply (wait3 m c 0 8 (by decide) (((((((others.erase 1).erase 2).erase 3).erase 4).erase 5).erase 6).erase 7) (by decide) (by decide) K _ _ _ _ _ _ _ (by first | rfl | decide))
  isplitr; · iexact HI
  isplitl [HC0]; · iexact HC0
  isplitl [HO]; · iexact HO
  iintro ⟨HC0, HO⟩
  -- wait for the second-round copy to have been read out: column half 0, distance 9
  sl_exec
  iapply (wait3 m c 0 9 (by decide) ((((((((others.erase 1).erase 2).erase 3).erase 4).erase 5).erase 6).erase 7).erase 8) (by decide) (by decide) K _ _ _ _ _ _ _ (by first | rfl | decide))
  isplitr; · iexact HI
  isplitl [HC0]; · iexact HC0
  isplitl [HO]; · iexact HO
  iintro ⟨HC0, HO⟩
  -- wait for the second-round copy to have been read out: column half 0, distance 10
  sl_exec
  iapply (wait3 m c 0 10 (by decide) (((((((((others.erase 1).erase 2).erase 3).erase 4).erase 5).erase 6).erase 7).erase 8).erase 9) (by decide) (by decide) K _ _ _ _ _ _ _ (by first | rfl | decide))
  isplitr; · iexact HI
  isplitl [HC0]; · iexact HC0
  isplitl [HO]; · iexact HO
  iintro ⟨HC0, HO⟩
  -- wait for the second-round copy to have been read out: column half 0, distance 11
  sl_exec
  iapply (wait3 m c 0 11 (by decide) ((((((((((others.erase 1).erase 2).erase 3).erase 4).erase 5).erase 6).erase 7).erase 8).erase 9).erase 10) (by decide) (by decide) K _ _ _ _ _ _ _ (by first | rfl | decide))
  isplitr; · iexact HI
  isplitl [HC0]; · iexact HC0
  isplitl [HO]; · iexact HO
  iintro ⟨HC0, HO⟩
  -- wait for the second-round copy to have been read out: column half 0, distance 12
  sl_exec
  iapply (wait3 m c 0 12 (by decide) (((((((((((others.erase 1).erase 2).erase 3).erase 4).erase 5).erase 6).erase 7).erase 8).erase 9).erase 10).erase 11) (by decide) (by decide) K _ _ _ _ _ _ _ (by first | rfl | decide))
  isplitr; · iexact HI
  isplitl [HC0]; · iexact HC0
  isplitl [HO]; · iexact HO
  iintro ⟨HC0, HO⟩
  -- wait for the second-round copy to have been read out: column half 0, distance 13
  sl_exec
  iapply (wait3 m c 0 13 (by decide) ((((((((((((others.erase 1).erase 2).erase 3).erase 4).erase 5).erase 6).erase 7).erase 8).erase 9).erase 10).erase 11).erase 12) (by decide) (by decide) K _ _ _ _ _ _ _ (by first | rfl | decide))
  isplitr; · iexact HI
  isplitl [HC0]; · iexact HC0
  isplitl [HO]; · iexact HO
  iintro ⟨HC0, HO⟩
  -- wait for the second-round copy to have been read out: column half 0, distance 14
  sl_exec
  iapply (wait3 m c 0 14 (by decide) (((((((((((((others.erase 1).erase 2).erase 3).erase 4).erase 5).erase 6).erase 7).erase 8).erase 9).erase 10).erase 11).erase 12).erase 13) (by decide) (by decide) K _ _ _ _ _ _ _ (by first | rfl | decide))
  isplitr; · iexact HI
  isplitl [HC0]; · iexact HC0
  isplitl [HO]; · iexact HO
  iintro ⟨HC0, HO⟩
  -- wait for the second-round copy to have been read out: column half 0, distance 15
  sl_exec
  iapply (wait3 m c 0 15 (by decide) ((((((((((((((others.erase 1).erase 2).erase 3).erase 4).erase 5).erase 6).erase 7).erase 8).erase 9).erase 10).erase 11).erase 12).erase 13).erase 14) (by decide) (by decide) K _ _ _ _ _ _ _ (by first | rfl | decide))
  isplitr; · iexact HI
  isplitl [HC0]; · iexact HC0
  isplitl [HO]; · iexact HO
  iintro ⟨HC0, HO⟩
  -- wait for the second-round copy to have been read out: column half 0, distance 16
  sl_exec
  iapply (wait3 m c 0 16 (by decide) (((((((((((((((others.erase 1).erase 2).erase 3).erase 4).erase 5).erase 6).erase 7).erase 8).erase 9).erase 10).erase 11).erase 12).erase 13).erase 14).erase 15) (by decide) (by decide) K _ _ _ _ _ _ _ (by first | rfl | decide))
  isplitr; · iexact HI
  isplitl [HC0]; · iexact HC0
  isplitl [HO]; · iexact HO
  iintro ⟨HC0, HO⟩
  -- wait for the second-round copy to have been read out: column half 0, distance 17
  sl_exec
  iapply (wait3 m c 0 17 (by decide) ((((((((((((((((others.erase 1).erase 2).erase 3).erase 4).erase 5).erase 6).erase 7).erase 8).erase 9).erase 10).erase 11).erase 12).erase 13).erase 14).erase 15).erase 16) (by decide) (by decide) K _ _ _ _ _ _ _ (by first | rfl | decide))
  isplitr; · iexact HI
  isplitl [HC0]; · iexact HC0
  isplitl [HO]; · iexact HO
  iintro ⟨HC0, HO⟩
  -- wait for the second-round copy to have been read out: column half 0, distance 18
  sl_exec
  iapply (wait3 m c 0 18 (by decide) (((((((((((((((((others.erase 1).erase 2).erase 3).erase 4).erase 5).erase 6).erase 7).erase 8).erase 9).erase 10).erase 11).erase 12).erase 13).erase 14).erase 15).erase 16).erase 17) (by decide) (by decide) K _ _ _ _ _ _ _ (by first | rfl | decide))
  isplitr; · iexact HI
  isplitl [HC0]; · iexact HC0
  isplitl [HO]; · iexact HO
  iintro ⟨HC0, HO⟩
  -- wait for the second-round copy to have been read out: column half 0, distance 19
  sl_exec
  iapply (wait3 m c 0 19 (by decide) ((((((((((((((((((others.erase 1).erase 2).erase 3).erase 4).erase 5).erase 6).erase 7).erase 8).erase 9).erase 10).erase 11).erase 12).erase 13).erase 14).erase 15).erase 16).erase 17).erase 18) (by decide) (by decide) K _ _ _ _ _ _ _ (by first | rfl | decide))
  isplitr; · iexact HI
  isplitl [HC0]; · iexact HC0
  isplitl [HO]; · iexact HO
  iintro ⟨HC0, HO⟩
  -- wait for the second-round copy to have been read out: column half 0, distance 20
  sl_exec
  iapply (wait3 m c 0 20 (by decide) (((((((((((((((((((others.erase 1).erase 2).erase 3).erase 4).erase 5).erase 6).erase 7).erase 8).erase 9).erase 10).erase 11).erase 12).erase 13).erase 14).erase 15).erase 16).erase 17).erase 18).erase 19) (by decide) (by decide) K _ _ _ _ _ _ _ (by first | rfl | decide))
  isplitr; · iexact HI
  isplitl [HC0]; · iexact HC0
  isplitl [HO]; · iexact HO
  iintro ⟨HC0, HO⟩
  -- wait for the second-round copy to have been read out: column half 0, distance 21
  sl_exec
  iapply (wait3 m c 0 21 (by decide) ((((((((((((((((((((others.erase 1).erase 2).erase 3).erase 4).erase 5).erase 6).erase 7).erase 8).erase 9).erase 10).erase 11).erase 12).erase 13).erase 14).erase 15).erase 16).erase 17).erase 18).erase 19).erase 20) (by decide) (by decide) K _ _ _ _ _ _ _ (by first | rfl | decide))
  isplitr; · iexact HI
  isplitl [HC0]; · iexact HC0
  isplitl [HO]; · iexact HO
  iintro ⟨HC0, HO⟩
  -- wait for the second-round copy to have been read out: column half 0, distance 22
  sl_exec
  iapply (wait3 m c 0 22 (by decide) (((((((((((((((((((((others.erase 1).erase 2).erase 3).erase 4).erase 5).erase 6).erase 7).erase 8).erase 9).erase 10).erase 11).erase 12).erase 13).erase 14).erase 15).erase 16).erase 17).erase 18).erase 19).erase 20).erase 21) (by decide) (by decide) K _ _ _ _ _ _ _ (by first | rfl | decide))
  isplitr; · iexact HI
  isplitl [HC0]; · iexact HC0
  isplitl [HO]; · iexact HO
  iintro ⟨HC0, HO⟩
  -- wait for the second-round copy to have been read out: column half 0, distance 23
  sl_exec
  iapply (wait3 m c 0 23 (by decide) ((((((((((((((((((((((others.erase 1).erase 2).erase 3).erase 4).erase 5).erase 6).erase 7).erase 8).erase 9).erase 10).erase 11).erase 12).erase 13).erase 14).erase 15).erase 16).erase 17).erase 18).erase 19).erase 20).erase 21).erase 22) (by decide) (by decide) K _ _ _ _ _ _ _ (by first | rfl | decide))
  isplitr; · iexact HI
  isplitl [HC0]; · iexact HC0
  isplitl [HO]; · iexact HO
  iintro ⟨HC0, HO⟩
  -- wait for the second-round copy to have been read out: column half 0, distance 24
  sl_exec
  iapply (wait3 m c 0 24 (by decide) (((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23) (by decide) (by decide) K _ _ _ _ _ _ _ (by first | rfl | decide))
  isplitr; · iexact HI
  isplitl [HC0]; · iexact HC0
  isplitl [HO]; · iexact HO
  iintro ⟨HC0, HO⟩
  -- wait for the second-round copy to have been read out: column half 0, distance 25
  sl_exec
  iapply (wait3 m c 0 25 (by decide) ((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24) (by decide) (by decide) K _ _ _ _ _ _ _ (by first | rfl | decide))
  isplitr; · iexact HI
  isplitl [HC0]; · iexact HC0
  isplitl [HO]; · iexact HO
  iintro ⟨HC0, HO⟩
  -- wait for the second-round copy to have been read out: column half 0, distance 26
  sl_exec
  iapply (wait3 m c 0 26 (by decide) (((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25) (by decide) (by decide) K _ _ _ _ _ _ _ (by first | rfl | decide))
  isplitr; · iexact HI
  isplitl [HC0]; · iexact HC0
  isplitl [HO]; · iexact HO
  iintro ⟨HC0, HO⟩
  -- wait for the second-round copy to have been read out: column half 0, distance 27
  sl_exec
  iapply (wait3 m c 0 27 (by decide) ((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26) (by decide) (by decide) K _ _ _ _ _ _ _ (by first | rfl | decide))
  isplitr; · iexact HI
  isplitl [HC0]; · iexact HC0
  isplitl [HO]; · iexact HO
  iintro ⟨HC0, HO⟩
  -- wait for the second-round copy to have been read out: column half 0, distance 28
  sl_exec
  iapply (wait3 m c 0 28 (by decide) (((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27) (by decide) (by decide) K _ _ _ _ _ _ _ (by first | rfl | decide))
  isplitr; · iexact HI
  isplitl [HC0]; · iexact HC0
  isplitl [HO]; · iexact HO
  iintro ⟨HC0, HO⟩
  -- wait for the second-round copy to have been read out: column half 0, distance 29
  sl_exec
  iapply (wait3 m c 0 29 (by decide) ((((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27).erase 28) (by decide) (by decide) K _ _ _ _ _ _ _ (by first | rfl | decide))
  isplitr; · iexact HI
  isplitl [HC0]; · iexact HC0
  isplitl [HO]; · iexact HO
  iintro ⟨HC0, HO⟩
  -- wait for the second-round copy to have been read out: column half 0, distance 30
  sl_exec
  iapply (wait3 m c 0 30 (by decide) (((((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27).erase 28).erase 29) (by decide) (by decide) K _ _ _ _ _ _ _ (by first | rfl | decide))
  isplitr; · iexact HI
  isplitl [HC0]; · iexact HC0
  isplitl [HO]; · iexact HO
  iintro ⟨HC0, HO⟩
  -- wait for the second-round copy to have been read out: column half 0, distance 31
  sl_exec
  iapply (wait3 m c 0 31 (by decide) ((((((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27).erase 28).erase 29).erase 30) (by decide) (by decide) K _ _ _ _ _ _ _ (by first | rfl | decide))
  isplitr; · iexact HI
  isplitl [HC0]; · iexact HC0
  isplitl [HO]; · iexact HO
  iintro ⟨HC0, HO⟩
  have hEst50 : ((((((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27).erase 28).erase 29).erase 30).erase 31 = (∅ : Finset (Fin 32)) := by decide
  ihave HC0 := (st5_done m c 0 _ hEst50) $$ HC0
  ihave HC1 := (st5_init m c 1) $$ HC1
  -- wait for the second-round copy to have been read out: column half 1, distance 1
  sl_exec
  iapply (wait3 m c 1 1 (by decide) others (by decide) (by decide) K _ _ _ _ _ _ _ (by first | rfl | decide))
  isplitr; · iexact HI
  isplitl [HC1]; · iexact HC1
  isplitl [HO]; · iexact HO
  iintro ⟨HC1, HO⟩
  -- wait for the second-round copy to have been read out: column half 1, distance 2
  sl_exec
  iapply (wait3 m c 1 2 (by decide) (others.erase 1) (by decide) (by decide) K _ _ _ _ _ _ _ (by first | rfl | decide))
  isplitr; · iexact HI
  isplitl [HC1]; · iexact HC1
  isplitl [HO]; · iexact HO
  iintro ⟨HC1, HO⟩
  -- wait for the second-round copy to have been read out: column half 1, distance 3
  sl_exec
  iapply (wait3 m c 1 3 (by decide) ((others.erase 1).erase 2) (by decide) (by decide) K _ _ _ _ _ _ _ (by first | rfl | decide))
  isplitr; · iexact HI
  isplitl [HC1]; · iexact HC1
  isplitl [HO]; · iexact HO
  iintro ⟨HC1, HO⟩
  -- wait for the second-round copy to have been read out: column half 1, distance 4
  sl_exec
  iapply (wait3 m c 1 4 (by decide) (((others.erase 1).erase 2).erase 3) (by decide) (by decide) K _ _ _ _ _ _ _ (by first | rfl | decide))
  isplitr; · iexact HI
  isplitl [HC1]; · iexact HC1
  isplitl [HO]; · iexact HO
  iintro ⟨HC1, HO⟩
  -- wait for the second-round copy to have been read out: column half 1, distance 5
  sl_exec
  iapply (wait3 m c 1 5 (by decide) ((((others.erase 1).erase 2).erase 3).erase 4) (by decide) (by decide) K _ _ _ _ _ _ _ (by first | rfl | decide))
  isplitr; · iexact HI
  isplitl [HC1]; · iexact HC1
  isplitl [HO]; · iexact HO
  iintro ⟨HC1, HO⟩
  -- wait for the second-round copy to have been read out: column half 1, distance 6
  sl_exec
  iapply (wait3 m c 1 6 (by decide) (((((others.erase 1).erase 2).erase 3).erase 4).erase 5) (by decide) (by decide) K _ _ _ _ _ _ _ (by first | rfl | decide))
  isplitr; · iexact HI
  isplitl [HC1]; · iexact HC1
  isplitl [HO]; · iexact HO
  iintro ⟨HC1, HO⟩
  -- wait for the second-round copy to have been read out: column half 1, distance 7
  sl_exec
  iapply (wait3 m c 1 7 (by decide) ((((((others.erase 1).erase 2).erase 3).erase 4).erase 5).erase 6) (by decide) (by decide) K _ _ _ _ _ _ _ (by first | rfl | decide))
  isplitr; · iexact HI
  isplitl [HC1]; · iexact HC1
  isplitl [HO]; · iexact HO
  iintro ⟨HC1, HO⟩
  -- wait for the second-round copy to have been read out: column half 1, distance 8
  sl_exec
  iapply (wait3 m c 1 8 (by decide) (((((((others.erase 1).erase 2).erase 3).erase 4).erase 5).erase 6).erase 7) (by decide) (by decide) K _ _ _ _ _ _ _ (by first | rfl | decide))
  isplitr; · iexact HI
  isplitl [HC1]; · iexact HC1
  isplitl [HO]; · iexact HO
  iintro ⟨HC1, HO⟩
  -- wait for the second-round copy to have been read out: column half 1, distance 9
  sl_exec
  iapply (wait3 m c 1 9 (by decide) ((((((((others.erase 1).erase 2).erase 3).erase 4).erase 5).erase 6).erase 7).erase 8) (by decide) (by decide) K _ _ _ _ _ _ _ (by first | rfl | decide))
  isplitr; · iexact HI
  isplitl [HC1]; · iexact HC1
  isplitl [HO]; · iexact HO
  iintro ⟨HC1, HO⟩
  -- wait for the second-round copy to have been read out: column half 1, distance 10
  sl_exec
  iapply (wait3 m c 1 10 (by decide) (((((((((others.erase 1).erase 2).erase 3).erase 4).erase 5).erase 6).erase 7).erase 8).erase 9) (by decide) (by decide) K _ _ _ _ _ _ _ (by first | rfl | decide))
  isplitr; · iexact HI
  isplitl [HC1]; · iexact HC1
  isplitl [HO]; · iexact HO
  iintro ⟨HC1, HO⟩
  -- wait for the second-round copy to have been read out: column half 1, distance 11
  sl_exec
  iapply (wait3 m c 1 11 (by decide) ((((((((((others.erase 1).erase 2).erase 3).erase 4).erase 5).erase 6).erase 7).erase 8).erase 9).erase 10) (by decide) (by decide) K _ _ _ _ _ _ _ (by first | rfl | decide))
  isplitr; · iexact HI
  isplitl [HC1]; · iexact HC1
  isplitl [HO]; · iexact HO
  iintro ⟨HC1, HO⟩
  -- wait for the second-round copy to have been read out: column half 1, distance 12
  sl_exec
  iapply (wait3 m c 1 12 (by decide) (((((((((((others.erase 1).erase 2).erase 3).erase 4).erase 5).erase 6).erase 7).erase 8).erase 9).erase 10).erase 11) (by decide) (by decide) K _ _ _ _ _ _ _ (by first | rfl | decide))
  isplitr; · iexact HI
  isplitl [HC1]; · iexact HC1
  isplitl [HO]; · iexact HO
  iintro ⟨HC1, HO⟩
  -- wait for the second-round copy to have been read out: column half 1, distance 13
  sl_exec
  iapply (wait3 m c 1 13 (by decide) ((((((((((((others.erase 1).erase 2).erase 3).erase 4).erase 5).erase 6).erase 7).erase 8).erase 9).erase 10).erase 11).erase 12) (by decide) (by decide) K _ _ _ _ _ _ _ (by first | rfl | decide))
  isplitr; · iexact HI
  isplitl [HC1]; · iexact HC1
  isplitl [HO]; · iexact HO
  iintro ⟨HC1, HO⟩
  -- wait for the second-round copy to have been read out: column half 1, distance 14
  sl_exec
  iapply (wait3 m c 1 14 (by decide) (((((((((((((others.erase 1).erase 2).erase 3).erase 4).erase 5).erase 6).erase 7).erase 8).erase 9).erase 10).erase 11).erase 12).erase 13) (by decide) (by decide) K _ _ _ _ _ _ _ (by first | rfl | decide))
  isplitr; · iexact HI
  isplitl [HC1]; · iexact HC1
  isplitl [HO]; · iexact HO
  iintro ⟨HC1, HO⟩
  -- wait for the second-round copy to have been read out: column half 1, distance 15
  sl_exec
  iapply (wait3 m c 1 15 (by decide) ((((((((((((((others.erase 1).erase 2).erase 3).erase 4).erase 5).erase 6).erase 7).erase 8).erase 9).erase 10).erase 11).erase 12).erase 13).erase 14) (by decide) (by decide) K _ _ _ _ _ _ _ (by first | rfl | decide))
  isplitr; · iexact HI
  isplitl [HC1]; · iexact HC1
  isplitl [HO]; · iexact HO
  iintro ⟨HC1, HO⟩
  -- wait for the second-round copy to have been read out: column half 1, distance 16
  sl_exec
  iapply (wait3 m c 1 16 (by decide) (((((((((((((((others.erase 1).erase 2).erase 3).erase 4).erase 5).erase 6).erase 7).erase 8).erase 9).erase 10).erase 11).erase 12).erase 13).erase 14).erase 15) (by decide) (by decide) K _ _ _ _ _ _ _ (by first | rfl | decide))
  isplitr; · iexact HI
  isplitl [HC1]; · iexact HC1
  isplitl [HO]; · iexact HO
  iintro ⟨HC1, HO⟩
  -- wait for the second-round copy to have been read out: column half 1, distance 17
  sl_exec
  iapply (wait3 m c 1 17 (by decide) ((((((((((((((((others.erase 1).erase 2).erase 3).erase 4).erase 5).erase 6).erase 7).erase 8).erase 9).erase 10).erase 11).erase 12).erase 13).erase 14).erase 15).erase 16) (by decide) (by decide) K _ _ _ _ _ _ _ (by first | rfl | decide))
  isplitr; · iexact HI
  isplitl [HC1]; · iexact HC1
  isplitl [HO]; · iexact HO
  iintro ⟨HC1, HO⟩
  -- wait for the second-round copy to have been read out: column half 1, distance 18
  sl_exec
  iapply (wait3 m c 1 18 (by decide) (((((((((((((((((others.erase 1).erase 2).erase 3).erase 4).erase 5).erase 6).erase 7).erase 8).erase 9).erase 10).erase 11).erase 12).erase 13).erase 14).erase 15).erase 16).erase 17) (by decide) (by decide) K _ _ _ _ _ _ _ (by first | rfl | decide))
  isplitr; · iexact HI
  isplitl [HC1]; · iexact HC1
  isplitl [HO]; · iexact HO
  iintro ⟨HC1, HO⟩
  -- wait for the second-round copy to have been read out: column half 1, distance 19
  sl_exec
  iapply (wait3 m c 1 19 (by decide) ((((((((((((((((((others.erase 1).erase 2).erase 3).erase 4).erase 5).erase 6).erase 7).erase 8).erase 9).erase 10).erase 11).erase 12).erase 13).erase 14).erase 15).erase 16).erase 17).erase 18) (by decide) (by decide) K _ _ _ _ _ _ _ (by first | rfl | decide))
  isplitr; · iexact HI
  isplitl [HC1]; · iexact HC1
  isplitl [HO]; · iexact HO
  iintro ⟨HC1, HO⟩
  -- wait for the second-round copy to have been read out: column half 1, distance 20
  sl_exec
  iapply (wait3 m c 1 20 (by decide) (((((((((((((((((((others.erase 1).erase 2).erase 3).erase 4).erase 5).erase 6).erase 7).erase 8).erase 9).erase 10).erase 11).erase 12).erase 13).erase 14).erase 15).erase 16).erase 17).erase 18).erase 19) (by decide) (by decide) K _ _ _ _ _ _ _ (by first | rfl | decide))
  isplitr; · iexact HI
  isplitl [HC1]; · iexact HC1
  isplitl [HO]; · iexact HO
  iintro ⟨HC1, HO⟩
  -- wait for the second-round copy to have been read out: column half 1, distance 21
  sl_exec
  iapply (wait3 m c 1 21 (by decide) ((((((((((((((((((((others.erase 1).erase 2).erase 3).erase 4).erase 5).erase 6).erase 7).erase 8).erase 9).erase 10).erase 11).erase 12).erase 13).erase 14).erase 15).erase 16).erase 17).erase 18).erase 19).erase 20) (by decide) (by decide) K _ _ _ _ _ _ _ (by first | rfl | decide))
  isplitr; · iexact HI
  isplitl [HC1]; · iexact HC1
  isplitl [HO]; · iexact HO
  iintro ⟨HC1, HO⟩
  -- wait for the second-round copy to have been read out: column half 1, distance 22
  sl_exec
  iapply (wait3 m c 1 22 (by decide) (((((((((((((((((((((others.erase 1).erase 2).erase 3).erase 4).erase 5).erase 6).erase 7).erase 8).erase 9).erase 10).erase 11).erase 12).erase 13).erase 14).erase 15).erase 16).erase 17).erase 18).erase 19).erase 20).erase 21) (by decide) (by decide) K _ _ _ _ _ _ _ (by first | rfl | decide))
  isplitr; · iexact HI
  isplitl [HC1]; · iexact HC1
  isplitl [HO]; · iexact HO
  iintro ⟨HC1, HO⟩
  -- wait for the second-round copy to have been read out: column half 1, distance 23
  sl_exec
  iapply (wait3 m c 1 23 (by decide) ((((((((((((((((((((((others.erase 1).erase 2).erase 3).erase 4).erase 5).erase 6).erase 7).erase 8).erase 9).erase 10).erase 11).erase 12).erase 13).erase 14).erase 15).erase 16).erase 17).erase 18).erase 19).erase 20).erase 21).erase 22) (by decide) (by decide) K _ _ _ _ _ _ _ (by first | rfl | decide))
  isplitr; · iexact HI
  isplitl [HC1]; · iexact HC1
  isplitl [HO]; · iexact HO
  iintro ⟨HC1, HO⟩
  -- wait for the second-round copy to have been read out: column half 1, distance 24
  sl_exec
  iapply (wait3 m c 1 24 (by decide) (((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23) (by decide) (by decide) K _ _ _ _ _ _ _ (by first | rfl | decide))
  isplitr; · iexact HI
  isplitl [HC1]; · iexact HC1
  isplitl [HO]; · iexact HO
  iintro ⟨HC1, HO⟩
  -- wait for the second-round copy to have been read out: column half 1, distance 25
  sl_exec
  iapply (wait3 m c 1 25 (by decide) ((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24) (by decide) (by decide) K _ _ _ _ _ _ _ (by first | rfl | decide))
  isplitr; · iexact HI
  isplitl [HC1]; · iexact HC1
  isplitl [HO]; · iexact HO
  iintro ⟨HC1, HO⟩
  -- wait for the second-round copy to have been read out: column half 1, distance 26
  sl_exec
  iapply (wait3 m c 1 26 (by decide) (((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25) (by decide) (by decide) K _ _ _ _ _ _ _ (by first | rfl | decide))
  isplitr; · iexact HI
  isplitl [HC1]; · iexact HC1
  isplitl [HO]; · iexact HO
  iintro ⟨HC1, HO⟩
  -- wait for the second-round copy to have been read out: column half 1, distance 27
  sl_exec
  iapply (wait3 m c 1 27 (by decide) ((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26) (by decide) (by decide) K _ _ _ _ _ _ _ (by first | rfl | decide))
  isplitr; · iexact HI
  isplitl [HC1]; · iexact HC1
  isplitl [HO]; · iexact HO
  iintro ⟨HC1, HO⟩
  -- wait for the second-round copy to have been read out: column half 1, distance 28
  sl_exec
  iapply (wait3 m c 1 28 (by decide) (((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27) (by decide) (by decide) K _ _ _ _ _ _ _ (by first | rfl | decide))
  isplitr; · iexact HI
  isplitl [HC1]; · iexact HC1
  isplitl [HO]; · iexact HO
  iintro ⟨HC1, HO⟩
  -- wait for the second-round copy to have been read out: column half 1, distance 29
  sl_exec
  iapply (wait3 m c 1 29 (by decide) ((((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27).erase 28) (by decide) (by decide) K _ _ _ _ _ _ _ (by first | rfl | decide))
  isplitr; · iexact HI
  isplitl [HC1]; · iexact HC1
  isplitl [HO]; · iexact HO
  iintro ⟨HC1, HO⟩
  -- wait for the second-round copy to have been read out: column half 1, distance 30
  sl_exec
  iapply (wait3 m c 1 30 (by decide) (((((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27).erase 28).erase 29) (by decide) (by decide) K _ _ _ _ _ _ _ (by first | rfl | decide))
  isplitr; · iexact HI
  isplitl [HC1]; · iexact HC1
  isplitl [HO]; · iexact HO
  iintro ⟨HC1, HO⟩
  -- wait for the second-round copy to have been read out: column half 1, distance 31
  sl_exec
  iapply (wait3 m c 1 31 (by decide) ((((((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27).erase 28).erase 29).erase 30) (by decide) (by decide) K _ _ _ _ _ _ _ (by first | rfl | decide))
  isplitr; · iexact HI
  isplitl [HC1]; · iexact HC1
  isplitl [HO]; · iexact HO
  iintro ⟨HC1, HO⟩
  have hEst51 : ((((((((((((((((((((((((((((((others.erase 1).erase 2).erase 3).erase 4).erase 5).erase 6).erase 7).erase 8).erase 9).erase 10).erase 11).erase 12).erase 13).erase 14).erase 15).erase 16).erase 17).erase 18).erase 19).erase 20).erase 21).erase 22).erase 23).erase 24).erase 25).erase 26).erase 27).erase 28).erase 29).erase 30).erase 31 = (∅ : Finset (Fin 32)) := by decide
  ihave HC1 := (st5_done m c 1 _ hEst51) $$ HC1
  -- the return: every cell closed, the three scratch buffers whole again
  simp only [wp_pure, wp_ret]
  imod (ending m K c) $$ [Hz HC0 HC1 Hrem0 Hrem1 Hcols0 Hcols1 HP00 HP01] with HPhi
  · isplitr; · iexact HI
    isplitl [Hz]; · iexact Hz
    isplitl [HC0]; · iexact HC0
    isplitl [HC1]; · iexact HC1
    isplitl [Hrem0]; · iexact Hrem0
    isplitl [Hrem1]; · iexact Hrem1
    isplitl [Hcols0]; · iexact Hcols0
    isplitl [Hcols1]; · iexact Hcols1
    isplitl [HP00]; · iexact HP00
    iexact HP01
  imodintro
  imodintro
  unfold bodyPost Dat.owesAt Pipeline.owesWithin
  rw [show (datsX m 0 c).owed t0_0.succ = 0 from rfl]
  isplitl [HPhi]; · iexact HPhi
  isplitl [HO]
  · iexists _
    isplitr
    rotate_left
    · iexact HO
    · ipureintro; exact fun _ _ => Or.inl trivial
  isplitl [H0]
  · iexists _; isplitr; · (ipureintro; rfl)
    iexact H0
  isplitl [H1]
  · iexists _; isplitr; · (ipureintro; rfl)
    iexact H1
  iexists _
  isplitr
  rotate_left
  · iexact H2
  · ipureintro
    rw [View.writes_singleton]
    exact Memref.write_access_unit_zero_univ (Elt F) cc0_stg2_0 hz2 _ _ _

theorem body_obligation (c : Dev nD) :
    Pipeline.BodyObligationLoose (datsX (F := F) m 0 c) (defs₀ (F := F)) 𝒱₀ () Set.univ := fun t => by
  rw [fin_N0 t]
  rw [bigSep_W0, bigSep_W0]
  simp only [owns_whole_eq]
  show bodyPre m c ⊢ wp frame (wpE (defs₀ (F := F)) 𝒱₀ c none) Set.univ
    (cc0_body (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) (Memref.whole cc0_scratch1) (Memref.isWhole_whole _) (Memref.whole cc0_scratch2) (Memref.isWhole_whole _)
      cc0_scratch3 cc0_scratch4 cc0_scratch5) (fun _ => bodyPost m c)
  exact body_run m c

/-- Every weakly fair execution of the kernel on the 32 devices terminates without a fault; every device's result
    array ends holding the clamped sums of all devices' product slots, as 512 × 512, and its two argument arrays
    end unchanged. -/
theorem kernel_run :
    θ_run (defs (F := F)) (onTc (τ := τ) (main (F := F))) ⟨m, fun _ => 0, ρ⟩ (fun r => ∀ c : Dev nD,
      r.2.mem ((c.tc : Thread nD τ).loc main_v1) = outAt m
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  kernel_run_of_body m ρ (body_obligation m)

/-- info: 'Cert.Kernel.Proto.kernel_run' depends on axioms: [propext, Classical.choice, Quot.sound] -/
#guard_msgs in #print axioms kernel_run

end Cert.Kernel.Proto

end
-- ==== Proof.lean ====
/- The five conjuncts of the claim for the kernel that multiplies a column block of A by a row block of B on each of
   32 devices, exchanges the 16-row slots of the 32 partial products so that each device sums the 32 parts of its own
   slot, clamps the sum below at zero and broadcasts it, against the one-device reference max(A·B, 0).

   The reference's frame is its generated run. The kernel's value is `Val.out_eq_ref`: what every device ends with,
   `k0_pay5 (resC m)`, is the reference's result, because a sum over 8192 products is the 32 devices' sums over 256
   regrouped, in any order of the devices. The kernel's run, on both instances, is the launch theorem over the
   protocol's schedule applied to the body obligation (`Body.lean`, `WBody.lean`). -/
import proofs.«900454_g7700000000000455_dist_matmul_relu_kshard_i_m512_n512_k256_v7x_i32_f32_1_alg».proof.Defs
import proofs.«900454_g7700000000000455_dist_matmul_relu_kshard_i_m512_n512_k256_v7x_i32_f32_1_alg».proof.Proof.Gen.Kernel
import proofs.«900454_g7700000000000455_dist_matmul_relu_kshard_i_m512_n512_k256_v7x_i32_f32_1_alg».proof.Proof.Gen.KernelIdeal
import proofs.«900454_g7700000000000455_dist_matmul_relu_kshard_i_m512_n512_k256_v7x_i32_f32_1_alg».proof.Proof.Gen.ReferenceIdeal
import proofs.«900454_g7700000000000455_dist_matmul_relu_kshard_i_m512_n512_k256_v7x_i32_f32_1_alg».proof.Proof.Gen.Pre_finite_inputs_Kernel
import proofs.«900454_g7700000000000455_dist_matmul_relu_kshard_i_m512_n512_k256_v7x_i32_f32_1_alg».proof.Proof.Gen.Pre_finite_inputs_ReferenceIdeal
import proofs.«900454_g7700000000000455_dist_matmul_relu_kshard_i_m512_n512_k256_v7x_i32_f32_1_alg».proof.Proof.RefSide
import proofs.«900454_g7700000000000455_dist_matmul_relu_kshard_i_m512_n512_k256_v7x_i32_f32_1_alg».proof.Proof.ValGlue
import proofs.«900454_g7700000000000455_dist_matmul_relu_kshard_i_m512_n512_k256_v7x_i32_f32_1_alg».proof.Proof.Body
import proofs.«900454_g7700000000000455_dist_matmul_relu_kshard_i_m512_n512_k256_v7x_i32_f32_1_alg».proof.Proof.WBody
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ =>
  (θ_run Cert.Kernel.defs _ _).mono (fun _ h c => (h c).2) (Cert.Kernel.Proto.kernel_run (F := Bits) m ρ)

theorem frame_ki : Cert.frame_KernelIdeal := fun m ρ _ =>
  (θ_run Cert.KernelIdeal.defs _ _).mono (fun _ h c => (h c).2) (Cert.KernelIdeal.Proto.kernel_run (F := Ideal) m ρ)

/-- The ideal pass rewrote nothing: the statement is `True`. -/
theorem preserves : Cert.preserves_Kernel_KernelIdeal := trivial

/-- Both programs run; every device's result is the reference's: the clamped sum over all 8192 products. -/
theorem algebraic : Cert.algebraic_KernelIdeal_ReferenceIdeal := by
  intro m ρ m' ρ' _ hagree
  refine ⟨Cert.ReferenceIdeal.Read.val_main_v2 (F := Ideal)
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun _ h c => ⟨(h c).1.trans ?_, (h c).2⟩) (Cert.KernelIdeal.Proto.kernel_run (F := Ideal) m ρ)
    exact Cert.Proof.Val.out_eq_ref m _ _ (fun c => (hagree c).1) (fun c => (hagree c).2)
  · refine (θ_run Cert.ReferenceIdeal.defs _ _).mono (fun _ h => ⟨(h 0).1.trans (Cert.ReferenceIdeal.Read.val_main_v2_eq _ _), (h 0).2⟩)
      (Cert.ReferenceIdeal.Value.run (F := Ideal) m' ρ')

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, Cert.Proof.RefSide.frame_ri, preserves, algebraic⟩

end Cert.Proof

end
